-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x1000x128 : Shape := ⟨3, ![26, 1000, 128]⟩
abbrev S_ : Shape := ⟨0, ![]⟩

class Facts : Prop where
  bcast_S_S26x1000x128 : S_.BroadcastsInDim S26x1000x128 (![] : Fin 0 → Fin S26x1000x128.rank)
  reducesTo_S26x1000x128_S_d0_1_2 : S26x1000x128.ReducesTo [0, 1, 2] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x1000x128 .f32) : IVec S_ 1 :=
  let main_v0 : FVec F S26x1000x128 .f32 := Host.absf main_arg1
  let main_cst : FVec F S_ .f32 := constant S_ .f32 0x7F800000#32
  let main_v1 : FVec F S26x1000x128 .f32 := broadcastInDim S26x1000x128 ![] bcast_S_S26x1000x128 main_cst
  let main_v2 : IVec S26x1000x128 1 := cmpf .olt main_v0 main_v1
  let main_c : IVec S_ 1 := constantI S_ 1 1#1
  let main_v3 : IVec S_ 1 := (fun x v => Host.reduce IntOp.andi x v reducesTo_S26x1000x128_S_d0_1_2 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S26x1000x128 : Shape := ⟨3, ![26, 1000, 128]⟩
abbrev S26x16384 : Shape := ⟨2, ![26, 16384]⟩
abbrev S425984 : Shape := ⟨1, ![425984]⟩
abbrev S26000x128 : Shape := ⟨2, ![26000, 128]⟩
abbrev S16384x3328 : Shape := ⟨2, ![16384, 3328]⟩
abbrev S13000x128 : Shape := ⟨2, ![13000, 128]⟩
abbrev S2048 : Shape := ⟨1, ![2048]⟩
abbrev S6x32x128 : Shape := ⟨3, ![6, 32, 128]⟩
abbrev S2 : Shape := ⟨1, ![2]⟩
abbrev S6 : Shape := ⟨1, ![6]⟩
abbrev S1024 : Shape := ⟨1, ![1024]⟩
abbrev S1 : Shape := ⟨1, ![1]⟩
abbrev S_ : Shape := ⟨0, ![]⟩
abbrev S1000x128 : Shape := ⟨2, ![1000, 128]⟩
abbrev S1x32x128 : Shape := ⟨3, ![1, 32, 128]⟩
abbrev S32x128 : Shape := ⟨2, ![32, 128]⟩
abbrev S32 : Shape := ⟨1, ![32]⟩

abbrev nBuf : Table → Nat
  | .hbm => 6
  | .shared => 1
  | .local .scVector .vmem => 2
  | _ => 0

abbrev bufTy : (tb : Table) → Fin (nBuf tb) → BufTy
  | .hbm, ⟨0, _⟩ => ⟨S16384x26, .i32⟩
  | .hbm, ⟨1, _⟩ => ⟨S26x1000x128, .f32⟩
  | .hbm, ⟨2, _⟩ => ⟨S26x16384, .i32⟩
  | .hbm, ⟨3, _⟩ => ⟨S425984, .i32⟩
  | .hbm, ⟨4, _⟩ => ⟨S26000x128, .f32⟩
  | .hbm, ⟨5, _⟩ => ⟨S16384x3328, .f32⟩
  | .shared, ⟨0, _⟩ => ⟨S13000x128, .f32⟩
  | .local .scVector .vmem, ⟨0, _⟩ => ⟨S2048, .i32⟩
  | .local .scVector .vmem, ⟨1, _⟩ => ⟨S6x32x128, .f32⟩
  | _, _ => ⟨S16384x26, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 5 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_mult1 : BitVec 32 :=
  let c0_i32_0 : BitVec 32 := 0#32
  c0_i32_0
def k0_off1 (i : grid0.Coords) (c0_i32 : BitVec 32) : Fin 1 → Nat :=
  let arg0 : BitVec 32 := BitVec.ofNat 32 (i 0).val
  let c13_i32 : BitVec 32 := 13#32
  let v1 : BitVec 32 := Scalar.muli arg0 c13_i32
  let v2 : BitVec 32 := Scalar.addi v1 c0_i32
  let c16384_i32 : BitVec 32 := 16384#32
  let v3 : BitVec 32 := Scalar.muli v2 c16384_i32
  let arg1 : BitVec 32 := BitVec.ofNat 32 (i 1).val
  let c1024_i32 : BitVec 32 := 1024#32
  let v0 : BitVec 32 := Scalar.muli arg1 c1024_i32
  let v4 : BitVec 32 := Scalar.addi v3 v0
  ![v4.toNat]
def k0_cond1 (i : grid0.Coords) : BitVec 1 :=
  let arg1 : BitVec 32 := BitVec.ofNat 32 (i 1).val
  let c13_i32_2 : BitVec 32 := 13#32
  let v12 : BitVec 1 := Scalar.cmpi .slt arg1 c13_i32_2
  let v13 : BitVec 32 := Scalar.extui v12
  let c0_i32_3 : BitVec 32 := 0#32
  let v14 : BitVec 1 := Scalar.cmpi .ne v13 c0_i32_3
  v14

def k0_mult2 (i : grid0.Coords) : BitVec 32 :=
  let arg0 : BitVec 32 := BitVec.ofNat 32 (i 0).val
  let c13_i32 : BitVec 32 := 13#32
  let v1 : BitVec 32 := Scalar.muli arg0 c13_i32
  let arg1 : BitVec 32 := BitVec.ofNat 32 (i 1).val
  let v265 : BitVec 32 := Scalar.addi v1 arg1
  let c1000_i32 : BitVec 32 := 1000#32
  let v266 : BitVec 32 := Scalar.muli v265 c1000_i32
  v266
def k0_mult3 (i : grid0.Coords) : BitVec 32 :=
  let arg1 : BitVec 32 := BitVec.ofNat 32 (i 1).val
  let c1000_i32_214 : BitVec 32 := 1000#32
  let v268 : BitVec 32 := Scalar.muli arg1 c1000_i32_214
  v268
def k0_off2 (i : grid0.Coords) : Fin 2 → Nat :=
  let arg1 : BitVec 32 := BitVec.ofNat 32 (i 1).val
  let c1000_i32_214 : BitVec 32 := 1000#32
  let v268 : BitVec 32 := Scalar.muli arg1 c1000_i32_214
  let v269 : BitVec 32 := v268
  let c0_i32_215_r0 : BitVec 32 := 0#32
  ![v269.toNat, 0]
def k0_off3 (i : grid0.Coords) : Fin 2 → Nat :=
  let arg0 : BitVec 32 := BitVec.ofNat 32 (i 0).val
  let c13_i32 : BitVec 32 := 13#32
  let v1 : BitVec 32 := Scalar.muli arg0 c13_i32
  let arg1 : BitVec 32 := BitVec.ofNat 32 (i 1).val
  let v265 : BitVec 32 := Scalar.addi v1 arg1
  let c1000_i32 : BitVec 32 := 1000#32
  let v266 : BitVec 32 := Scalar.muli v265 c1000_i32
  let v267 : BitVec 32 := v266
  let c0_i32_216_r0 : BitVec 32 := 0#32
  ![v267.toNat, 0]
def k0_mult4 : BitVec 32 :=
  let c0_i32_6 : BitVec 32 := 0#32
  c0_i32_6
def k0_mult5 : BitVec 32 :=
  let c1024_i32_9 : BitVec 32 := 1024#32
  c1024_i32_9
def k0_mult6 : BitVec 32 :=
  let c0_i32_11 : BitVec 32 := 0#32
  c0_i32_11
def k0_mult7 : BitVec 32 :=
  let c0_i32_20 : BitVec 32 := 0#32
  c0_i32_20
def k0_mult8 : BitVec 32 :=
  let c0_i32_28 : BitVec 32 := 0#32
  c0_i32_28
def k0_mult9 : BitVec 32 :=
  let c0_i32_35 : BitVec 32 := 0#32
  c0_i32_35
def k0_off4 (i : grid0.Coords) (c0_i32_44 : BitVec 32) (c0_i32_45 : BitVec 32) : Fin 2 → Nat :=
  let arg1 : BitVec 32 := BitVec.ofNat 32 (i 1).val
  let c1024_i32 : BitVec 32 := 1024#32
  let v0 : BitVec 32 := Scalar.muli arg1 c1024_i32
  let v67 : BitVec 32 := Scalar.addi v0 c0_i32_44
  let arg0 : BitVec 32 := BitVec.ofNat 32 (i 0).val
  let c13_i32 : BitVec 32 := 13#32
  let v1 : BitVec 32 := Scalar.muli arg0 c13_i32
  let v68 : BitVec 32 := Scalar.addi v1 c0_i32_45
  let c128_i32 : BitVec 32 := 128#32
  let v69 : BitVec 32 := Scalar.muli v68 c128_i32
  ![v67.toNat, v69.toNat]
def k0_off4_at (r : Fin 9) : BitVec 32 × BitVec 32 :=
  if r.val < 4 then
    if r.val < 2 then
      if r.val < 1 then
        (0#32, 0#32)
      else
        (32#32, 0#32)
    else
      if r.val < 3 then
        (64#32, 0#32)
      else
        (928#32, 12#32)
  else
    if r.val < 6 then
      if r.val < 5 then
        (960#32, 12#32)
      else
        (992#32, 12#32)
    else
      if r.val < 7 then
        (832#32, 12#32)
      else
        if r.val < 8 then
          (864#32, 12#32)
        else
          (896#32, 12#32)
def k0_mult10 : BitVec 32 :=
  let c0_i32_52 : BitVec 32 := 0#32
  c0_i32_52
def k0_mult11 : BitVec 32 :=
  let c0_i32_59 : BitVec 32 := 0#32
  c0_i32_59
def k0_mult12 : BitVec 32 :=
  let c0_i32_77 : BitVec 32 := 0#32
  c0_i32_77
def k0_mult13 : BitVec 32 :=
  let c0_i32_85 : BitVec 32 := 0#32
  c0_i32_85
def k0_mult14 : BitVec 32 :=
  let c0_i32_103 : BitVec 32 := 0#32
  c0_i32_103
@[reducible] def k0_t1_loop : Scf.Loop 32 :=
  let c3_i32_111 : BitVec 32 := 3#32
  let c205_i32 : BitVec 32 := 205#32
  let v140 : BitVec 32 := Scalar.addi c3_i32_111 c205_i32
  let c1_i32_112 : BitVec 32 := 1#32
  ⟨c3_i32_111, v140, c1_i32_112⟩
def k0_mult15 (k0_t1 : Fin k0_t1_loop.trips) : BitVec 32 :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c3_i32_229 : BitVec 32 := 3#32
  let v294 : BitVec 32 := Scalar.subi v266 c3_i32_229
  let c0_i32_231 : BitVec 32 := 0#32
  let v296 : BitVec 1 := Scalar.cmpi .sgt v294 c0_i32_231
  let v297 : BitVec 32 := Scalar.extui v296
  let c0_i32_232 : BitVec 32 := 0#32
  let v298 : BitVec 1 := Scalar.cmpi .slt v294 c0_i32_232
  let v299 : BitVec 32 := Scalar.extui v298
  let v300 : BitVec 32 := Scalar.subi v297 v299
  let c32_i32_230 : BitVec 32 := 32#32
  let c0_i32_233 : BitVec 32 := 0#32
  let v301 : BitVec 1 := Scalar.cmpi .sgt c32_i32_230 c0_i32_233
  let v302 : BitVec 32 := Scalar.extui v301
  let c0_i32_234 : BitVec 32 := 0#32
  let v303 : BitVec 1 := Scalar.cmpi .slt c32_i32_230 c0_i32_234
  let v304 : BitVec 32 := Scalar.extui v303
  let v305 : BitVec 32 := Scalar.subi v302 v304
  let v306 : BitVec 1 := Scalar.cmpi .ne v300 v305
  let v307 : BitVec 32 := Scalar.remsi v294 c32_i32_230
  let c0_i32_235 : BitVec 32 := 0#32
  let v308 : BitVec 1 := Scalar.cmpi .ne v307 c0_i32_235
  let v309 : BitVec 1 := Scalar.andi v306 v308
  let v295 : BitVec 32 := Scalar.divsi v294 c32_i32_230
  let c1_i32_236 : BitVec 32 := 1#32
  let v310 : BitVec 32 := Scalar.subi v295 c1_i32_236
  let v311 : BitVec 32 := Scalar.select v309 v310 v295
  let c1000_i32 : BitVec 32 := 1000#32
  let v332 : BitVec 32 := Scalar.muli v311 c1000_i32
  v332
def k0_off5 (k0_t1 : Fin k0_t1_loop.trips) (c0_i32_215 : BitVec 32) (c3_i32_229 : BitVec 32) : Fin 3 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let v294 : BitVec 32 := Scalar.subi v266 c3_i32_229
  let c6_i32 : BitVec 32 := 6#32
  let c0_i32_243 : BitVec 32 := 0#32
  let v322 : BitVec 1 := Scalar.cmpi .eq c6_i32 c0_i32_243
  let c1_i32_244 : BitVec 32 := 1#32
  let v323 : BitVec 32 := Scalar.select v322 c1_i32_244 c6_i32
  let v324 : BitVec 32 := Scalar.remsi v294 v323
  let c0_i32_246 : BitVec 32 := 0#32
  let v326 : BitVec 1 := Scalar.cmpi .slt v324 c0_i32_246
  let c0_i32_247 : BitVec 32 := 0#32
  let v327 : BitVec 1 := Scalar.cmpi .slt v323 c0_i32_247
  let v328 : BitVec 1 := Scalar.xori v326 v327
  let c0_i32_245 : BitVec 32 := 0#32
  let v325 : BitVec 1 := Scalar.cmpi .ne v324 c0_i32_245
  let v329 : BitVec 1 := Scalar.andi v328 v325
  let v330 : BitVec 32 := Scalar.addi v324 v323
  let v331 : BitVec 32 := Scalar.select v329 v330 v324
  let c0_i32_256 : BitVec 32 := 0#32
  let c0_i32_257 : BitVec 32 := 0#32
  ![v331.toNat, 0, 0]
def k0_off6 (k0_t1 : Fin k0_t1_loop.trips) (c0_i32_215 : BitVec 32) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let c3_i32_229 : BitVec 32 := 3#32
  let v294 : BitVec 32 := Scalar.subi v266 c3_i32_229
  let c0_i32_231 : BitVec 32 := 0#32
  let v296 : BitVec 1 := Scalar.cmpi .sgt v294 c0_i32_231
  let v297 : BitVec 32 := Scalar.extui v296
  let c0_i32_232 : BitVec 32 := 0#32
  let v298 : BitVec 1 := Scalar.cmpi .slt v294 c0_i32_232
  let v299 : BitVec 32 := Scalar.extui v298
  let v300 : BitVec 32 := Scalar.subi v297 v299
  let c32_i32_230 : BitVec 32 := 32#32
  let c0_i32_233 : BitVec 32 := 0#32
  let v301 : BitVec 1 := Scalar.cmpi .sgt c32_i32_230 c0_i32_233
  let v302 : BitVec 32 := Scalar.extui v301
  let c0_i32_234 : BitVec 32 := 0#32
  let v303 : BitVec 1 := Scalar.cmpi .slt c32_i32_230 c0_i32_234
  let v304 : BitVec 32 := Scalar.extui v303
  let v305 : BitVec 32 := Scalar.subi v302 v304
  let v306 : BitVec 1 := Scalar.cmpi .ne v300 v305
  let v307 : BitVec 32 := Scalar.remsi v294 c32_i32_230
  let c0_i32_235 : BitVec 32 := 0#32
  let v308 : BitVec 1 := Scalar.cmpi .ne v307 c0_i32_235
  let v309 : BitVec 1 := Scalar.andi v306 v308
  let v295 : BitVec 32 := Scalar.divsi v294 c32_i32_230
  let c1_i32_236 : BitVec 32 := 1#32
  let v310 : BitVec 32 := Scalar.subi v295 c1_i32_236
  let v311 : BitVec 32 := Scalar.select v309 v310 v295
  let c2_i32_248 : BitVec 32 := 2#32
  let c0_i32_249 : BitVec 32 := 0#32
  let v334 : BitVec 1 := Scalar.cmpi .eq c2_i32_248 c0_i32_249
  let c1_i32_250 : BitVec 32 := 1#32
  let v335 : BitVec 32 := Scalar.select v334 c1_i32_250 c2_i32_248
  let v336 : BitVec 32 := Scalar.remsi v311 v335
  let c0_i32_252 : BitVec 32 := 0#32
  let v338 : BitVec 1 := Scalar.cmpi .slt v336 c0_i32_252
  let c0_i32_253 : BitVec 32 := 0#32
  let v339 : BitVec 1 := Scalar.cmpi .slt v335 c0_i32_253
  let v340 : BitVec 1 := Scalar.xori v338 v339
  let c0_i32_251 : BitVec 32 := 0#32
  let v337 : BitVec 1 := Scalar.cmpi .ne v336 c0_i32_251
  let v341 : BitVec 1 := Scalar.andi v340 v337
  let v342 : BitVec 32 := Scalar.addi v336 v335
  let v343 : BitVec 32 := Scalar.select v341 v342 v336
  let c1024_i32_254 : BitVec 32 := 1024#32
  let v344 : BitVec 32 := Scalar.muli v343 c1024_i32_254
  let c32_i32_237 : BitVec 32 := 32#32
  let c0_i32_238 : BitVec 32 := 0#32
  let v312 : BitVec 1 := Scalar.cmpi .eq c32_i32_237 c0_i32_238
  let c1_i32_239 : BitVec 32 := 1#32
  let v313 : BitVec 32 := Scalar.select v312 c1_i32_239 c32_i32_237
  let v314 : BitVec 32 := Scalar.remsi v294 v313
  let c0_i32_241 : BitVec 32 := 0#32
  let v316 : BitVec 1 := Scalar.cmpi .slt v314 c0_i32_241
  let c0_i32_242 : BitVec 32 := 0#32
  let v317 : BitVec 1 := Scalar.cmpi .slt v313 c0_i32_242
  let v318 : BitVec 1 := Scalar.xori v316 v317
  let c0_i32_240 : BitVec 32 := 0#32
  let v315 : BitVec 1 := Scalar.cmpi .ne v314 c0_i32_240
  let v319 : BitVec 1 := Scalar.andi v318 v315
  let v320 : BitVec 32 := Scalar.addi v314 v313
  let v321 : BitVec 32 := Scalar.select v319 v320 v314
  let c32_i32_255 : BitVec 32 := 32#32
  let v345 : BitVec 32 := Scalar.muli v321 c32_i32_255
  let v346 : BitVec 32 := Scalar.addi v344 v345
  ![v346.toNat]
def k0_off7 (k0_t1 : Fin k0_t1_loop.trips) (c0_i32_215 : BitVec 32) : Fin 2 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let c3_i32_229 : BitVec 32 := 3#32
  let v294 : BitVec 32 := Scalar.subi v266 c3_i32_229
  let c0_i32_231 : BitVec 32 := 0#32
  let v296 : BitVec 1 := Scalar.cmpi .sgt v294 c0_i32_231
  let v297 : BitVec 32 := Scalar.extui v296
  let c0_i32_232 : BitVec 32 := 0#32
  let v298 : BitVec 1 := Scalar.cmpi .slt v294 c0_i32_232
  let v299 : BitVec 32 := Scalar.extui v298
  let v300 : BitVec 32 := Scalar.subi v297 v299
  let c32_i32_230 : BitVec 32 := 32#32
  let c0_i32_233 : BitVec 32 := 0#32
  let v301 : BitVec 1 := Scalar.cmpi .sgt c32_i32_230 c0_i32_233
  let v302 : BitVec 32 := Scalar.extui v301
  let c0_i32_234 : BitVec 32 := 0#32
  let v303 : BitVec 1 := Scalar.cmpi .slt c32_i32_230 c0_i32_234
  let v304 : BitVec 32 := Scalar.extui v303
  let v305 : BitVec 32 := Scalar.subi v302 v304
  let v306 : BitVec 1 := Scalar.cmpi .ne v300 v305
  let v307 : BitVec 32 := Scalar.remsi v294 c32_i32_230
  let c0_i32_235 : BitVec 32 := 0#32
  let v308 : BitVec 1 := Scalar.cmpi .ne v307 c0_i32_235
  let v309 : BitVec 1 := Scalar.andi v306 v308
  let v295 : BitVec 32 := Scalar.divsi v294 c32_i32_230
  let c1_i32_236 : BitVec 32 := 1#32
  let v310 : BitVec 32 := Scalar.subi v295 c1_i32_236
  let v311 : BitVec 32 := Scalar.select v309 v310 v295
  let c1000_i32 : BitVec 32 := 1000#32
  let v332 : BitVec 32 := Scalar.muli v311 c1000_i32
  let v333 : BitVec 32 := v332
  let c0_i32_258 : BitVec 32 := 0#32
  ![v333.toNat, 0]
def k0_off8 (k0_t1 : Fin k0_t1_loop.trips) (c0_i32_215 : BitVec 32) (c3_i32_229 : BitVec 32) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let v294 : BitVec 32 := Scalar.subi v266 c3_i32_229
  let c6_i32 : BitVec 32 := 6#32
  let c0_i32_243 : BitVec 32 := 0#32
  let v322 : BitVec 1 := Scalar.cmpi .eq c6_i32 c0_i32_243
  let c1_i32_244 : BitVec 32 := 1#32
  let v323 : BitVec 32 := Scalar.select v322 c1_i32_244 c6_i32
  let v324 : BitVec 32 := Scalar.remsi v294 v323
  let c0_i32_246 : BitVec 32 := 0#32
  let v326 : BitVec 1 := Scalar.cmpi .slt v324 c0_i32_246
  let c0_i32_247 : BitVec 32 := 0#32
  let v327 : BitVec 1 := Scalar.cmpi .slt v323 c0_i32_247
  let v328 : BitVec 1 := Scalar.xori v326 v327
  let c0_i32_245 : BitVec 32 := 0#32
  let v325 : BitVec 1 := Scalar.cmpi .ne v324 c0_i32_245
  let v329 : BitVec 1 := Scalar.andi v328 v325
  let v330 : BitVec 32 := Scalar.addi v324 v323
  let v331 : BitVec 32 := Scalar.select v329 v330 v324
  ![v331.toNat]
def k0_off9 (i : grid0.Coords) (k0_t1 : Fin k0_t1_loop.trips) (c0_i32_215 : BitVec 32) (c3_i32_261 : BitVec 32) : Fin 2 → Nat :=
  let arg1 : BitVec 32 := BitVec.ofNat 32 (i 1).val
  let c1024_i32 : BitVec 32 := 1024#32
  let v0 : BitVec 32 := Scalar.muli arg1 c1024_i32
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let v354 : BitVec 32 := Scalar.subi v266 c3_i32_261
  let c32_i32_269 : BitVec 32 := 32#32
  let c0_i32_270 : BitVec 32 := 0#32
  let v372 : BitVec 1 := Scalar.cmpi .eq c32_i32_269 c0_i32_270
  let c1_i32_271 : BitVec 32 := 1#32
  let v373 : BitVec 32 := Scalar.select v372 c1_i32_271 c32_i32_269
  let v374 : BitVec 32 := Scalar.remsi v354 v373
  let c0_i32_273 : BitVec 32 := 0#32
  let v376 : BitVec 1 := Scalar.cmpi .slt v374 c0_i32_273
  let c0_i32_274 : BitVec 32 := 0#32
  let v377 : BitVec 1 := Scalar.cmpi .slt v373 c0_i32_274
  let v378 : BitVec 1 := Scalar.xori v376 v377
  let c0_i32_272 : BitVec 32 := 0#32
  let v375 : BitVec 1 := Scalar.cmpi .ne v374 c0_i32_272
  let v379 : BitVec 1 := Scalar.andi v378 v375
  let v380 : BitVec 32 := Scalar.addi v374 v373
  let v381 : BitVec 32 := Scalar.select v379 v380 v374
  let c32_i32_281 : BitVec 32 := 32#32
  let v392 : BitVec 32 := Scalar.muli v381 c32_i32_281
  let v393 : BitVec 32 := Scalar.addi v0 v392
  let arg0 : BitVec 32 := BitVec.ofNat 32 (i 0).val
  let c13_i32 : BitVec 32 := 13#32
  let v1 : BitVec 32 := Scalar.muli arg0 c13_i32
  let c0_i32_263 : BitVec 32 := 0#32
  let v356 : BitVec 1 := Scalar.cmpi .sgt v354 c0_i32_263
  let v357 : BitVec 32 := Scalar.extui v356
  let c0_i32_264 : BitVec 32 := 0#32
  let v358 : BitVec 1 := Scalar.cmpi .slt v354 c0_i32_264
  let v359 : BitVec 32 := Scalar.extui v358
  let v360 : BitVec 32 := Scalar.subi v357 v359
  let c32_i32_262 : BitVec 32 := 32#32
  let c0_i32_265 : BitVec 32 := 0#32
  let v361 : BitVec 1 := Scalar.cmpi .sgt c32_i32_262 c0_i32_265
  let v362 : BitVec 32 := Scalar.extui v361
  let c0_i32_266 : BitVec 32 := 0#32
  let v363 : BitVec 1 := Scalar.cmpi .slt c32_i32_262 c0_i32_266
  let v364 : BitVec 32 := Scalar.extui v363
  let v365 : BitVec 32 := Scalar.subi v362 v364
  let v366 : BitVec 1 := Scalar.cmpi .ne v360 v365
  let v367 : BitVec 32 := Scalar.remsi v354 c32_i32_262
  let c0_i32_267 : BitVec 32 := 0#32
  let v368 : BitVec 1 := Scalar.cmpi .ne v367 c0_i32_267
  let v369 : BitVec 1 := Scalar.andi v366 v368
  let v355 : BitVec 32 := Scalar.divsi v354 c32_i32_262
  let c1_i32_268 : BitVec 32 := 1#32
  let v370 : BitVec 32 := Scalar.subi v355 c1_i32_268
  let v371 : BitVec 32 := Scalar.select v369 v370 v355
  let v394 : BitVec 32 := Scalar.addi v1 v371
  let c128_i32_282 : BitVec 32 := 128#32
  let v395 : BitVec 32 := Scalar.muli v394 c128_i32_282
  ![v393.toNat, v395.toNat]
def k0_cond2 (k0_t1 : Fin k0_t1_loop.trips) : BitVec 1 :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c32_i32_223 : BitVec 32 := 32#32
  let c0_i32_224 : BitVec 32 := 0#32
  let v284 : BitVec 1 := Scalar.cmpi .eq c32_i32_223 c0_i32_224
  let c1_i32_225 : BitVec 32 := 1#32
  let v285 : BitVec 32 := Scalar.select v284 c1_i32_225 c32_i32_223
  let v286 : BitVec 32 := Scalar.remsi v266 v285
  let c0_i32_227 : BitVec 32 := 0#32
  let v288 : BitVec 1 := Scalar.cmpi .slt v286 c0_i32_227
  let c0_i32_228 : BitVec 32 := 0#32
  let v289 : BitVec 1 := Scalar.cmpi .slt v285 c0_i32_228
  let v290 : BitVec 1 := Scalar.xori v288 v289
  let c0_i32_226 : BitVec 32 := 0#32
  let v287 : BitVec 1 := Scalar.cmpi .ne v286 c0_i32_226
  let v291 : BitVec 1 := Scalar.andi v290 v287
  let v292 : BitVec 32 := Scalar.addi v286 v285
  let v293 : BitVec 32 := Scalar.select v291 v292 v286
  let c2_i32_287 : BitVec 32 := 2#32
  let v404 : BitVec 1 := Scalar.cmpi .eq v293 c2_i32_287
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c1_i32_288 : BitVec 32 := 1#32
  let v405 : BitVec 1 := Scalar.cmpi .sge v283 c1_i32_288
  let v406 : BitVec 1 := Scalar.andi v404 v405
  let c12_i32_289 : BitVec 32 := 12#32
  let v407 : BitVec 1 := Scalar.cmpi .slt v283 c12_i32_289
  let v408 : BitVec 1 := Scalar.andi v406 v407
  let v409 : BitVec 32 := Scalar.extui v408
  let c0_i32_290 : BitVec 32 := 0#32
  let v410 : BitVec 1 := Scalar.cmpi .ne v409 c0_i32_290
  v410

def k0_mult16 (k0_t1 : Fin k0_t1_loop.trips) : BitVec 32 :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c1_i32_495 : BitVec 32 := 1#32
  let v785 : BitVec 32 := Scalar.addi v283 c1_i32_495
  let c2_i32_496 : BitVec 32 := 2#32
  let c0_i32_497 : BitVec 32 := 0#32
  let v786 : BitVec 1 := Scalar.cmpi .eq c2_i32_496 c0_i32_497
  let c1_i32_498 : BitVec 32 := 1#32
  let v787 : BitVec 32 := Scalar.select v786 c1_i32_498 c2_i32_496
  let v788 : BitVec 32 := Scalar.remsi v785 v787
  let c0_i32_500 : BitVec 32 := 0#32
  let v790 : BitVec 1 := Scalar.cmpi .slt v788 c0_i32_500
  let c0_i32_501 : BitVec 32 := 0#32
  let v791 : BitVec 1 := Scalar.cmpi .slt v787 c0_i32_501
  let v792 : BitVec 1 := Scalar.xori v790 v791
  let c0_i32_499 : BitVec 32 := 0#32
  let v789 : BitVec 1 := Scalar.cmpi .ne v788 c0_i32_499
  let v793 : BitVec 1 := Scalar.andi v792 v789
  let v794 : BitVec 32 := Scalar.addi v788 v787
  let v795 : BitVec 32 := Scalar.select v793 v794 v788
  let c1024_i32_503 : BitVec 32 := 1024#32
  let v799 : BitVec 32 := Scalar.muli v795 c1024_i32_503
  v799
def k0_off10 (k0_t1 : Fin k0_t1_loop.trips) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c1_i32_495 : BitVec 32 := 1#32
  let v785 : BitVec 32 := Scalar.addi v283 c1_i32_495
  let c2_i32_496 : BitVec 32 := 2#32
  let c0_i32_497 : BitVec 32 := 0#32
  let v786 : BitVec 1 := Scalar.cmpi .eq c2_i32_496 c0_i32_497
  let c1_i32_498 : BitVec 32 := 1#32
  let v787 : BitVec 32 := Scalar.select v786 c1_i32_498 c2_i32_496
  let v788 : BitVec 32 := Scalar.remsi v785 v787
  let c0_i32_500 : BitVec 32 := 0#32
  let v790 : BitVec 1 := Scalar.cmpi .slt v788 c0_i32_500
  let c0_i32_501 : BitVec 32 := 0#32
  let v791 : BitVec 1 := Scalar.cmpi .slt v787 c0_i32_501
  let v792 : BitVec 1 := Scalar.xori v790 v791
  let c0_i32_499 : BitVec 32 := 0#32
  let v789 : BitVec 1 := Scalar.cmpi .ne v788 c0_i32_499
  let v793 : BitVec 1 := Scalar.andi v792 v789
  let v794 : BitVec 32 := Scalar.addi v788 v787
  let v795 : BitVec 32 := Scalar.select v793 v794 v788
  let c1024_i32_503 : BitVec 32 := 1024#32
  let v799 : BitVec 32 := Scalar.muli v795 c1024_i32_503
  let v800 : BitVec 32 := v799
  ![v800.toNat]
def k0_off11 (i : grid0.Coords) (k0_t1 : Fin k0_t1_loop.trips) : Fin 1 → Nat :=
  let arg0 : BitVec 32 := BitVec.ofNat 32 (i 0).val
  let c13_i32 : BitVec 32 := 13#32
  let v1 : BitVec 32 := Scalar.muli arg0 c13_i32
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c1_i32_495 : BitVec 32 := 1#32
  let v785 : BitVec 32 := Scalar.addi v283 c1_i32_495
  let v796 : BitVec 32 := Scalar.addi v1 v785
  let c16384_i32_502 : BitVec 32 := 16384#32
  let v797 : BitVec 32 := Scalar.muli v796 c16384_i32_502
  let arg1 : BitVec 32 := BitVec.ofNat 32 (i 1).val
  let c1024_i32 : BitVec 32 := 1024#32
  let v0 : BitVec 32 := Scalar.muli arg1 c1024_i32
  let v798 : BitVec 32 := Scalar.addi v797 v0
  ![v798.toNat]
def k0_off12 (k0_t1 : Fin k0_t1_loop.trips) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c1_i32_495 : BitVec 32 := 1#32
  let v785 : BitVec 32 := Scalar.addi v283 c1_i32_495
  let c2_i32_496 : BitVec 32 := 2#32
  let c0_i32_497 : BitVec 32 := 0#32
  let v786 : BitVec 1 := Scalar.cmpi .eq c2_i32_496 c0_i32_497
  let c1_i32_498 : BitVec 32 := 1#32
  let v787 : BitVec 32 := Scalar.select v786 c1_i32_498 c2_i32_496
  let v788 : BitVec 32 := Scalar.remsi v785 v787
  let c0_i32_500 : BitVec 32 := 0#32
  let v790 : BitVec 1 := Scalar.cmpi .slt v788 c0_i32_500
  let c0_i32_501 : BitVec 32 := 0#32
  let v791 : BitVec 1 := Scalar.cmpi .slt v787 c0_i32_501
  let v792 : BitVec 1 := Scalar.xori v790 v791
  let c0_i32_499 : BitVec 32 := 0#32
  let v789 : BitVec 1 := Scalar.cmpi .ne v788 c0_i32_499
  let v793 : BitVec 1 := Scalar.andi v792 v789
  let v794 : BitVec 32 := Scalar.addi v788 v787
  let v795 : BitVec 32 := Scalar.select v793 v794 v788
  ![v795.toNat]
def k0_cond3 (k0_t1 : Fin k0_t1_loop.trips) : BitVec 1 :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c32_i32_223 : BitVec 32 := 32#32
  let c0_i32_224 : BitVec 32 := 0#32
  let v284 : BitVec 1 := Scalar.cmpi .eq c32_i32_223 c0_i32_224
  let c1_i32_225 : BitVec 32 := 1#32
  let v285 : BitVec 32 := Scalar.select v284 c1_i32_225 c32_i32_223
  let v286 : BitVec 32 := Scalar.remsi v266 v285
  let c0_i32_227 : BitVec 32 := 0#32
  let v288 : BitVec 1 := Scalar.cmpi .slt v286 c0_i32_227
  let c0_i32_228 : BitVec 32 := 0#32
  let v289 : BitVec 1 := Scalar.cmpi .slt v285 c0_i32_228
  let v290 : BitVec 1 := Scalar.xori v288 v289
  let c0_i32_226 : BitVec 32 := 0#32
  let v287 : BitVec 1 := Scalar.cmpi .ne v286 c0_i32_226
  let v291 : BitVec 1 := Scalar.andi v290 v287
  let v292 : BitVec 32 := Scalar.addi v286 v285
  let v293 : BitVec 32 := Scalar.select v291 v292 v286
  let c0_i32_291 : BitVec 32 := 0#32
  let v411 : BitVec 1 := Scalar.cmpi .eq v293 c0_i32_291
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c1_i32_292 : BitVec 32 := 1#32
  let v412 : BitVec 1 := Scalar.cmpi .sge v283 c1_i32_292
  let v413 : BitVec 1 := Scalar.andi v411 v412
  let v414 : BitVec 32 := Scalar.extui v413
  let c0_i32_293 : BitVec 32 := 0#32
  let v415 : BitVec 1 := Scalar.cmpi .ne v414 c0_i32_293
  v415

def k0_mult17 (k0_t1 : Fin k0_t1_loop.trips) : BitVec 32 :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c2_i32_495 : BitVec 32 := 2#32
  let c0_i32_496 : BitVec 32 := 0#32
  let v785 : BitVec 1 := Scalar.cmpi .eq c2_i32_495 c0_i32_496
  let c1_i32_497 : BitVec 32 := 1#32
  let v786 : BitVec 32 := Scalar.select v785 c1_i32_497 c2_i32_495
  let v787 : BitVec 32 := Scalar.remsi v283 v786
  let c0_i32_499 : BitVec 32 := 0#32
  let v789 : BitVec 1 := Scalar.cmpi .slt v787 c0_i32_499
  let c0_i32_500 : BitVec 32 := 0#32
  let v790 : BitVec 1 := Scalar.cmpi .slt v786 c0_i32_500
  let v791 : BitVec 1 := Scalar.xori v789 v790
  let c0_i32_498 : BitVec 32 := 0#32
  let v788 : BitVec 1 := Scalar.cmpi .ne v787 c0_i32_498
  let v792 : BitVec 1 := Scalar.andi v791 v788
  let v793 : BitVec 32 := Scalar.addi v787 v786
  let v794 : BitVec 32 := Scalar.select v792 v793 v787
  let c1024_i32_502 : BitVec 32 := 1024#32
  let v798 : BitVec 32 := Scalar.muli v794 c1024_i32_502
  v798
def k0_off13 (k0_t1 : Fin k0_t1_loop.trips) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c2_i32_495 : BitVec 32 := 2#32
  let c0_i32_496 : BitVec 32 := 0#32
  let v785 : BitVec 1 := Scalar.cmpi .eq c2_i32_495 c0_i32_496
  let c1_i32_497 : BitVec 32 := 1#32
  let v786 : BitVec 32 := Scalar.select v785 c1_i32_497 c2_i32_495
  let v787 : BitVec 32 := Scalar.remsi v283 v786
  let c0_i32_499 : BitVec 32 := 0#32
  let v789 : BitVec 1 := Scalar.cmpi .slt v787 c0_i32_499
  let c0_i32_500 : BitVec 32 := 0#32
  let v790 : BitVec 1 := Scalar.cmpi .slt v786 c0_i32_500
  let v791 : BitVec 1 := Scalar.xori v789 v790
  let c0_i32_498 : BitVec 32 := 0#32
  let v788 : BitVec 1 := Scalar.cmpi .ne v787 c0_i32_498
  let v792 : BitVec 1 := Scalar.andi v791 v788
  let v793 : BitVec 32 := Scalar.addi v787 v786
  let v794 : BitVec 32 := Scalar.select v792 v793 v787
  let c1024_i32_502 : BitVec 32 := 1024#32
  let v798 : BitVec 32 := Scalar.muli v794 c1024_i32_502
  let v799 : BitVec 32 := v798
  ![v799.toNat]
def k0_off14 (i : grid0.Coords) (k0_t1 : Fin k0_t1_loop.trips) : Fin 1 → Nat :=
  let arg0 : BitVec 32 := BitVec.ofNat 32 (i 0).val
  let c13_i32 : BitVec 32 := 13#32
  let v1 : BitVec 32 := Scalar.muli arg0 c13_i32
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let v795 : BitVec 32 := Scalar.addi v1 v283
  let c16384_i32_501 : BitVec 32 := 16384#32
  let v796 : BitVec 32 := Scalar.muli v795 c16384_i32_501
  let arg1 : BitVec 32 := BitVec.ofNat 32 (i 1).val
  let c1024_i32 : BitVec 32 := 1024#32
  let v0 : BitVec 32 := Scalar.muli arg1 c1024_i32
  let v797 : BitVec 32 := Scalar.addi v796 v0
  ![v797.toNat]
def k0_off15 (k0_t1 : Fin k0_t1_loop.trips) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_217 : BitVec 32 := 0#32
  let v268 : BitVec 1 := Scalar.cmpi .sgt v266 c0_i32_217
  let v269 : BitVec 32 := Scalar.extui v268
  let c0_i32_218 : BitVec 32 := 0#32
  let v270 : BitVec 1 := Scalar.cmpi .slt v266 c0_i32_218
  let v271 : BitVec 32 := Scalar.extui v270
  let v272 : BitVec 32 := Scalar.subi v269 v271
  let c32_i32_216 : BitVec 32 := 32#32
  let c0_i32_219 : BitVec 32 := 0#32
  let v273 : BitVec 1 := Scalar.cmpi .sgt c32_i32_216 c0_i32_219
  let v274 : BitVec 32 := Scalar.extui v273
  let c0_i32_220 : BitVec 32 := 0#32
  let v275 : BitVec 1 := Scalar.cmpi .slt c32_i32_216 c0_i32_220
  let v276 : BitVec 32 := Scalar.extui v275
  let v277 : BitVec 32 := Scalar.subi v274 v276
  let v278 : BitVec 1 := Scalar.cmpi .ne v272 v277
  let v279 : BitVec 32 := Scalar.remsi v266 c32_i32_216
  let c0_i32_221 : BitVec 32 := 0#32
  let v280 : BitVec 1 := Scalar.cmpi .ne v279 c0_i32_221
  let v281 : BitVec 1 := Scalar.andi v278 v280
  let v267 : BitVec 32 := Scalar.divsi v266 c32_i32_216
  let c1_i32_222 : BitVec 32 := 1#32
  let v282 : BitVec 32 := Scalar.subi v267 c1_i32_222
  let v283 : BitVec 32 := Scalar.select v281 v282 v267
  let c2_i32_495 : BitVec 32 := 2#32
  let c0_i32_496 : BitVec 32 := 0#32
  let v785 : BitVec 1 := Scalar.cmpi .eq c2_i32_495 c0_i32_496
  let c1_i32_497 : BitVec 32 := 1#32
  let v786 : BitVec 32 := Scalar.select v785 c1_i32_497 c2_i32_495
  let v787 : BitVec 32 := Scalar.remsi v283 v786
  let c0_i32_499 : BitVec 32 := 0#32
  let v789 : BitVec 1 := Scalar.cmpi .slt v787 c0_i32_499
  let c0_i32_500 : BitVec 32 := 0#32
  let v790 : BitVec 1 := Scalar.cmpi .slt v786 c0_i32_500
  let v791 : BitVec 1 := Scalar.xori v789 v790
  let c0_i32_498 : BitVec 32 := 0#32
  let v788 : BitVec 1 := Scalar.cmpi .ne v787 c0_i32_498
  let v792 : BitVec 1 := Scalar.andi v791 v788
  let v793 : BitVec 32 := Scalar.addi v787 v786
  let v794 : BitVec 32 := Scalar.select v792 v793 v787
  ![v794.toNat]
def k0_mult18 (k0_t1 : Fin k0_t1_loop.trips) : BitVec 32 :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let c0_i32_215 : BitVec 32 := 0#32
  let v266 : BitVec 32 := Scalar.addi v265 c0_i32_215
  let c0_i32_321 : BitVec 32 := 0#32
  let v467 : BitVec 1 := Scalar.cmpi .sgt v266 c0_i32_321
  let v468 : BitVec 32 := Scalar.extui v467
  let c0_i32_322 : BitVec 32 := 0#32
  let v469 : BitVec 1 := Scalar.cmpi .slt v266 c0_i32_322
  let v470 : BitVec 32 := Scalar.extui v469
  let v471 : BitVec 32 := Scalar.subi v468 v470
  let c32_i32_320 : BitVec 32 := 32#32
  let c0_i32_323 : BitVec 32 := 0#32
  let v472 : BitVec 1 := Scalar.cmpi .sgt c32_i32_320 c0_i32_323
  let v473 : BitVec 32 := Scalar.extui v472
  let c0_i32_324 : BitVec 32 := 0#32
  let v474 : BitVec 1 := Scalar.cmpi .slt c32_i32_320 c0_i32_324
  let v475 : BitVec 32 := Scalar.extui v474
  let v476 : BitVec 32 := Scalar.subi v473 v475
  let v477 : BitVec 1 := Scalar.cmpi .ne v471 v476
  let v478 : BitVec 32 := Scalar.remsi v266 c32_i32_320
  let c0_i32_325 : BitVec 32 := 0#32
  let v479 : BitVec 1 := Scalar.cmpi .ne v478 c0_i32_325
  let v480 : BitVec 1 := Scalar.andi v477 v479
  let v466 : BitVec 32 := Scalar.divsi v266 c32_i32_320
  let c1_i32_326 : BitVec 32 := 1#32
  let v481 : BitVec 32 := Scalar.subi v466 c1_i32_326
  let v482 : BitVec 32 := Scalar.select v480 v481 v466
  let c1000_i32_339 : BitVec 32 := 1000#32
  let v503 : BitVec 32 := Scalar.muli v482 c1000_i32_339
  v503
def k0_off16 (k0_t1 : Fin k0_t1_loop.trips) (c0_i32_215 : BitVec 32) : Fin 3 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let c6_i32_333 : BitVec 32 := 6#32
  let c0_i32_334 : BitVec 32 := 0#32
  let v493 : BitVec 1 := Scalar.cmpi .eq c6_i32_333 c0_i32_334
  let c1_i32_335 : BitVec 32 := 1#32
  let v494 : BitVec 32 := Scalar.select v493 c1_i32_335 c6_i32_333
  let v495 : BitVec 32 := Scalar.remsi v266 v494
  let c0_i32_337 : BitVec 32 := 0#32
  let v497 : BitVec 1 := Scalar.cmpi .slt v495 c0_i32_337
  let c0_i32_338 : BitVec 32 := 0#32
  let v498 : BitVec 1 := Scalar.cmpi .slt v494 c0_i32_338
  let v499 : BitVec 1 := Scalar.xori v497 v498
  let c0_i32_336 : BitVec 32 := 0#32
  let v496 : BitVec 1 := Scalar.cmpi .ne v495 c0_i32_336
  let v500 : BitVec 1 := Scalar.andi v499 v496
  let v501 : BitVec 32 := Scalar.addi v495 v494
  let v502 : BitVec 32 := Scalar.select v500 v501 v495
  let c0_i32_348 : BitVec 32 := 0#32
  let c0_i32_349 : BitVec 32 := 0#32
  ![v502.toNat, 0, 0]
def k0_off17 (k0_t1 : Fin k0_t1_loop.trips) (c0_i32_215 : BitVec 32) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let c0_i32_321 : BitVec 32 := 0#32
  let v467 : BitVec 1 := Scalar.cmpi .sgt v266 c0_i32_321
  let v468 : BitVec 32 := Scalar.extui v467
  let c0_i32_322 : BitVec 32 := 0#32
  let v469 : BitVec 1 := Scalar.cmpi .slt v266 c0_i32_322
  let v470 : BitVec 32 := Scalar.extui v469
  let v471 : BitVec 32 := Scalar.subi v468 v470
  let c32_i32_320 : BitVec 32 := 32#32
  let c0_i32_323 : BitVec 32 := 0#32
  let v472 : BitVec 1 := Scalar.cmpi .sgt c32_i32_320 c0_i32_323
  let v473 : BitVec 32 := Scalar.extui v472
  let c0_i32_324 : BitVec 32 := 0#32
  let v474 : BitVec 1 := Scalar.cmpi .slt c32_i32_320 c0_i32_324
  let v475 : BitVec 32 := Scalar.extui v474
  let v476 : BitVec 32 := Scalar.subi v473 v475
  let v477 : BitVec 1 := Scalar.cmpi .ne v471 v476
  let v478 : BitVec 32 := Scalar.remsi v266 c32_i32_320
  let c0_i32_325 : BitVec 32 := 0#32
  let v479 : BitVec 1 := Scalar.cmpi .ne v478 c0_i32_325
  let v480 : BitVec 1 := Scalar.andi v477 v479
  let v466 : BitVec 32 := Scalar.divsi v266 c32_i32_320
  let c1_i32_326 : BitVec 32 := 1#32
  let v481 : BitVec 32 := Scalar.subi v466 c1_i32_326
  let v482 : BitVec 32 := Scalar.select v480 v481 v466
  let c2_i32_340 : BitVec 32 := 2#32
  let c0_i32_341 : BitVec 32 := 0#32
  let v505 : BitVec 1 := Scalar.cmpi .eq c2_i32_340 c0_i32_341
  let c1_i32_342 : BitVec 32 := 1#32
  let v506 : BitVec 32 := Scalar.select v505 c1_i32_342 c2_i32_340
  let v507 : BitVec 32 := Scalar.remsi v482 v506
  let c0_i32_344 : BitVec 32 := 0#32
  let v509 : BitVec 1 := Scalar.cmpi .slt v507 c0_i32_344
  let c0_i32_345 : BitVec 32 := 0#32
  let v510 : BitVec 1 := Scalar.cmpi .slt v506 c0_i32_345
  let v511 : BitVec 1 := Scalar.xori v509 v510
  let c0_i32_343 : BitVec 32 := 0#32
  let v508 : BitVec 1 := Scalar.cmpi .ne v507 c0_i32_343
  let v512 : BitVec 1 := Scalar.andi v511 v508
  let v513 : BitVec 32 := Scalar.addi v507 v506
  let v514 : BitVec 32 := Scalar.select v512 v513 v507
  let c1024_i32_346 : BitVec 32 := 1024#32
  let v515 : BitVec 32 := Scalar.muli v514 c1024_i32_346
  let c32_i32_327 : BitVec 32 := 32#32
  let c0_i32_328 : BitVec 32 := 0#32
  let v483 : BitVec 1 := Scalar.cmpi .eq c32_i32_327 c0_i32_328
  let c1_i32_329 : BitVec 32 := 1#32
  let v484 : BitVec 32 := Scalar.select v483 c1_i32_329 c32_i32_327
  let v485 : BitVec 32 := Scalar.remsi v266 v484
  let c0_i32_331 : BitVec 32 := 0#32
  let v487 : BitVec 1 := Scalar.cmpi .slt v485 c0_i32_331
  let c0_i32_332 : BitVec 32 := 0#32
  let v488 : BitVec 1 := Scalar.cmpi .slt v484 c0_i32_332
  let v489 : BitVec 1 := Scalar.xori v487 v488
  let c0_i32_330 : BitVec 32 := 0#32
  let v486 : BitVec 1 := Scalar.cmpi .ne v485 c0_i32_330
  let v490 : BitVec 1 := Scalar.andi v489 v486
  let v491 : BitVec 32 := Scalar.addi v485 v484
  let v492 : BitVec 32 := Scalar.select v490 v491 v485
  let c32_i32_347 : BitVec 32 := 32#32
  let v516 : BitVec 32 := Scalar.muli v492 c32_i32_347
  let v517 : BitVec 32 := Scalar.addi v515 v516
  ![v517.toNat]
def k0_off18 (k0_t1 : Fin k0_t1_loop.trips) (c0_i32_215 : BitVec 32) : Fin 2 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let c0_i32_321 : BitVec 32 := 0#32
  let v467 : BitVec 1 := Scalar.cmpi .sgt v266 c0_i32_321
  let v468 : BitVec 32 := Scalar.extui v467
  let c0_i32_322 : BitVec 32 := 0#32
  let v469 : BitVec 1 := Scalar.cmpi .slt v266 c0_i32_322
  let v470 : BitVec 32 := Scalar.extui v469
  let v471 : BitVec 32 := Scalar.subi v468 v470
  let c32_i32_320 : BitVec 32 := 32#32
  let c0_i32_323 : BitVec 32 := 0#32
  let v472 : BitVec 1 := Scalar.cmpi .sgt c32_i32_320 c0_i32_323
  let v473 : BitVec 32 := Scalar.extui v472
  let c0_i32_324 : BitVec 32 := 0#32
  let v474 : BitVec 1 := Scalar.cmpi .slt c32_i32_320 c0_i32_324
  let v475 : BitVec 32 := Scalar.extui v474
  let v476 : BitVec 32 := Scalar.subi v473 v475
  let v477 : BitVec 1 := Scalar.cmpi .ne v471 v476
  let v478 : BitVec 32 := Scalar.remsi v266 c32_i32_320
  let c0_i32_325 : BitVec 32 := 0#32
  let v479 : BitVec 1 := Scalar.cmpi .ne v478 c0_i32_325
  let v480 : BitVec 1 := Scalar.andi v477 v479
  let v466 : BitVec 32 := Scalar.divsi v266 c32_i32_320
  let c1_i32_326 : BitVec 32 := 1#32
  let v481 : BitVec 32 := Scalar.subi v466 c1_i32_326
  let v482 : BitVec 32 := Scalar.select v480 v481 v466
  let c1000_i32_339 : BitVec 32 := 1000#32
  let v503 : BitVec 32 := Scalar.muli v482 c1000_i32_339
  let v504 : BitVec 32 := v503
  let c0_i32_350 : BitVec 32 := 0#32
  ![v504.toNat, 0]
def k0_off19 (k0_t1 : Fin k0_t1_loop.trips) (c0_i32_215 : BitVec 32) : Fin 1 → Nat :=
  let c2_i32_214 : BitVec 32 := 2#32
  let c3_i32_111 : BitVec 32 := 3#32
  let c1_i32_112 : BitVec 32 := 1#32
  let arg11 : BitVec 32 := Scf.iv c3_i32_111 c1_i32_112 k0_t1
  let v265 : BitVec 32 := Scalar.muli c2_i32_214 arg11
  let v266 : BitVec 32 := Scalar.addi v265 c0_i32_215
  let c6_i32_333 : BitVec 32 := 6#32
  let c0_i32_334 : BitVec 32 := 0#32
  let v493 : BitVec 1 := Scalar.cmpi .eq c6_i32_333 c0_i32_334
  let c1_i32_335 : BitVec 32 := 1#32
  let v494 : BitVec 32 := Scalar.select v493 c1_i32_335 c6_i32_333
  let v495 : BitVec 32 := Scalar.remsi v266 v494
  let c0_i32_337 : BitVec 32 := 0#32
  let v497 : BitVec 1 := Scalar.cmpi .slt v495 c0_i32_337
  let c0_i32_338 : BitVec 32 := 0#32
  let v498 : BitVec 1 := Scalar.cmpi .slt v494 c0_i32_338
  let v499 : BitVec 1 := Scalar.xori v497 v498
  let c0_i32_336 : BitVec 32 := 0#32
  let v496 : BitVec 1 := Scalar.cmpi .ne v495 c0_i32_336
  let v500 : BitVec 1 := Scalar.andi v499 v496
  let v501 : BitVec 32 := Scalar.addi v495 v494
  let v502 : BitVec 32 := Scalar.select v500 v501 v495
  ![v502.toNat]
def k0_mult19 (k0_t1 : Fin k0_t1_loop.trips) : BitVec 32 :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c3_i32_368 : BitVec 32 := 3#32
  let v554 : BitVec 32 := Scalar.subi v526 c3_i32_368
  let c0_i32_370 : BitVec 32 := 0#32
  let v556 : BitVec 1 := Scalar.cmpi .sgt v554 c0_i32_370
  let v557 : BitVec 32 := Scalar.extui v556
  let c0_i32_371 : BitVec 32 := 0#32
  let v558 : BitVec 1 := Scalar.cmpi .slt v554 c0_i32_371
  let v559 : BitVec 32 := Scalar.extui v558
  let v560 : BitVec 32 := Scalar.subi v557 v559
  let c32_i32_369 : BitVec 32 := 32#32
  let c0_i32_372 : BitVec 32 := 0#32
  let v561 : BitVec 1 := Scalar.cmpi .sgt c32_i32_369 c0_i32_372
  let v562 : BitVec 32 := Scalar.extui v561
  let c0_i32_373 : BitVec 32 := 0#32
  let v563 : BitVec 1 := Scalar.cmpi .slt c32_i32_369 c0_i32_373
  let v564 : BitVec 32 := Scalar.extui v563
  let v565 : BitVec 32 := Scalar.subi v562 v564
  let v566 : BitVec 1 := Scalar.cmpi .ne v560 v565
  let v567 : BitVec 32 := Scalar.remsi v554 c32_i32_369
  let c0_i32_374 : BitVec 32 := 0#32
  let v568 : BitVec 1 := Scalar.cmpi .ne v567 c0_i32_374
  let v569 : BitVec 1 := Scalar.andi v566 v568
  let v555 : BitVec 32 := Scalar.divsi v554 c32_i32_369
  let c1_i32_375 : BitVec 32 := 1#32
  let v570 : BitVec 32 := Scalar.subi v555 c1_i32_375
  let v571 : BitVec 32 := Scalar.select v569 v570 v555
  let c1000_i32_388 : BitVec 32 := 1000#32
  let v592 : BitVec 32 := Scalar.muli v571 c1000_i32_388
  v592
def k0_cond4 (k0_t1 : Fin k0_t1_loop.trips) : BitVec 1 :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c32_i32_362 : BitVec 32 := 32#32
  let c0_i32_363 : BitVec 32 := 0#32
  let v544 : BitVec 1 := Scalar.cmpi .eq c32_i32_362 c0_i32_363
  let c1_i32_364 : BitVec 32 := 1#32
  let v545 : BitVec 32 := Scalar.select v544 c1_i32_364 c32_i32_362
  let v546 : BitVec 32 := Scalar.remsi v526 v545
  let c0_i32_366 : BitVec 32 := 0#32
  let v548 : BitVec 1 := Scalar.cmpi .slt v546 c0_i32_366
  let c0_i32_367 : BitVec 32 := 0#32
  let v549 : BitVec 1 := Scalar.cmpi .slt v545 c0_i32_367
  let v550 : BitVec 1 := Scalar.xori v548 v549
  let c0_i32_365 : BitVec 32 := 0#32
  let v547 : BitVec 1 := Scalar.cmpi .ne v546 c0_i32_365
  let v551 : BitVec 1 := Scalar.andi v550 v547
  let v552 : BitVec 32 := Scalar.addi v546 v545
  let v553 : BitVec 32 := Scalar.select v551 v552 v546
  let c2_i32_428 : BitVec 32 := 2#32
  let v664 : BitVec 1 := Scalar.cmpi .eq v553 c2_i32_428
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c1_i32_429 : BitVec 32 := 1#32
  let v665 : BitVec 1 := Scalar.cmpi .sge v543 c1_i32_429
  let v666 : BitVec 1 := Scalar.andi v664 v665
  let c12_i32_430 : BitVec 32 := 12#32
  let v667 : BitVec 1 := Scalar.cmpi .slt v543 c12_i32_430
  let v668 : BitVec 1 := Scalar.andi v666 v667
  let v669 : BitVec 32 := Scalar.extui v668
  let c0_i32_431 : BitVec 32 := 0#32
  let v670 : BitVec 1 := Scalar.cmpi .ne v669 c0_i32_431
  v670

def k0_mult20 (k0_t1 : Fin k0_t1_loop.trips) : BitVec 32 :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c1_i32_495 : BitVec 32 := 1#32
  let v785 : BitVec 32 := Scalar.addi v543 c1_i32_495
  let c2_i32_496 : BitVec 32 := 2#32
  let c0_i32_497 : BitVec 32 := 0#32
  let v786 : BitVec 1 := Scalar.cmpi .eq c2_i32_496 c0_i32_497
  let c1_i32_498 : BitVec 32 := 1#32
  let v787 : BitVec 32 := Scalar.select v786 c1_i32_498 c2_i32_496
  let v788 : BitVec 32 := Scalar.remsi v785 v787
  let c0_i32_500 : BitVec 32 := 0#32
  let v790 : BitVec 1 := Scalar.cmpi .slt v788 c0_i32_500
  let c0_i32_501 : BitVec 32 := 0#32
  let v791 : BitVec 1 := Scalar.cmpi .slt v787 c0_i32_501
  let v792 : BitVec 1 := Scalar.xori v790 v791
  let c0_i32_499 : BitVec 32 := 0#32
  let v789 : BitVec 1 := Scalar.cmpi .ne v788 c0_i32_499
  let v793 : BitVec 1 := Scalar.andi v792 v789
  let v794 : BitVec 32 := Scalar.addi v788 v787
  let v795 : BitVec 32 := Scalar.select v793 v794 v788
  let c1024_i32_503 : BitVec 32 := 1024#32
  let v799 : BitVec 32 := Scalar.muli v795 c1024_i32_503
  v799
def k0_off20 (k0_t1 : Fin k0_t1_loop.trips) : Fin 1 → Nat :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c1_i32_495 : BitVec 32 := 1#32
  let v785 : BitVec 32 := Scalar.addi v543 c1_i32_495
  let c2_i32_496 : BitVec 32 := 2#32
  let c0_i32_497 : BitVec 32 := 0#32
  let v786 : BitVec 1 := Scalar.cmpi .eq c2_i32_496 c0_i32_497
  let c1_i32_498 : BitVec 32 := 1#32
  let v787 : BitVec 32 := Scalar.select v786 c1_i32_498 c2_i32_496
  let v788 : BitVec 32 := Scalar.remsi v785 v787
  let c0_i32_500 : BitVec 32 := 0#32
  let v790 : BitVec 1 := Scalar.cmpi .slt v788 c0_i32_500
  let c0_i32_501 : BitVec 32 := 0#32
  let v791 : BitVec 1 := Scalar.cmpi .slt v787 c0_i32_501
  let v792 : BitVec 1 := Scalar.xori v790 v791
  let c0_i32_499 : BitVec 32 := 0#32
  let v789 : BitVec 1 := Scalar.cmpi .ne v788 c0_i32_499
  let v793 : BitVec 1 := Scalar.andi v792 v789
  let v794 : BitVec 32 := Scalar.addi v788 v787
  let v795 : BitVec 32 := Scalar.select v793 v794 v788
  let c1024_i32_503 : BitVec 32 := 1024#32
  let v799 : BitVec 32 := Scalar.muli v795 c1024_i32_503
  let v800 : BitVec 32 := v799
  ![v800.toNat]
def k0_off21 (i : grid0.Coords) (k0_t1 : Fin k0_t1_loop.trips) : Fin 1 → Nat :=
  let arg0 : BitVec 32 := BitVec.ofNat 32 (i 0).val
  let c13_i32 : BitVec 32 := 13#32
  let v1 : BitVec 32 := Scalar.muli arg0 c13_i32
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c1_i32_495 : BitVec 32 := 1#32
  let v785 : BitVec 32 := Scalar.addi v543 c1_i32_495
  let v796 : BitVec 32 := Scalar.addi v1 v785
  let c16384_i32_502 : BitVec 32 := 16384#32
  let v797 : BitVec 32 := Scalar.muli v796 c16384_i32_502
  let arg1 : BitVec 32 := BitVec.ofNat 32 (i 1).val
  let c1024_i32 : BitVec 32 := 1024#32
  let v0 : BitVec 32 := Scalar.muli arg1 c1024_i32
  let v798 : BitVec 32 := Scalar.addi v797 v0
  ![v798.toNat]
def k0_off22 (k0_t1 : Fin k0_t1_loop.trips) : Fin 1 → Nat :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c1_i32_495 : BitVec 32 := 1#32
  let v785 : BitVec 32 := Scalar.addi v543 c1_i32_495
  let c2_i32_496 : BitVec 32 := 2#32
  let c0_i32_497 : BitVec 32 := 0#32
  let v786 : BitVec 1 := Scalar.cmpi .eq c2_i32_496 c0_i32_497
  let c1_i32_498 : BitVec 32 := 1#32
  let v787 : BitVec 32 := Scalar.select v786 c1_i32_498 c2_i32_496
  let v788 : BitVec 32 := Scalar.remsi v785 v787
  let c0_i32_500 : BitVec 32 := 0#32
  let v790 : BitVec 1 := Scalar.cmpi .slt v788 c0_i32_500
  let c0_i32_501 : BitVec 32 := 0#32
  let v791 : BitVec 1 := Scalar.cmpi .slt v787 c0_i32_501
  let v792 : BitVec 1 := Scalar.xori v790 v791
  let c0_i32_499 : BitVec 32 := 0#32
  let v789 : BitVec 1 := Scalar.cmpi .ne v788 c0_i32_499
  let v793 : BitVec 1 := Scalar.andi v792 v789
  let v794 : BitVec 32 := Scalar.addi v788 v787
  let v795 : BitVec 32 := Scalar.select v793 v794 v788
  ![v795.toNat]
def k0_cond5 (k0_t1 : Fin k0_t1_loop.trips) : BitVec 1 :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c32_i32_362 : BitVec 32 := 32#32
  let c0_i32_363 : BitVec 32 := 0#32
  let v544 : BitVec 1 := Scalar.cmpi .eq c32_i32_362 c0_i32_363
  let c1_i32_364 : BitVec 32 := 1#32
  let v545 : BitVec 32 := Scalar.select v544 c1_i32_364 c32_i32_362
  let v546 : BitVec 32 := Scalar.remsi v526 v545
  let c0_i32_366 : BitVec 32 := 0#32
  let v548 : BitVec 1 := Scalar.cmpi .slt v546 c0_i32_366
  let c0_i32_367 : BitVec 32 := 0#32
  let v549 : BitVec 1 := Scalar.cmpi .slt v545 c0_i32_367
  let v550 : BitVec 1 := Scalar.xori v548 v549
  let c0_i32_365 : BitVec 32 := 0#32
  let v547 : BitVec 1 := Scalar.cmpi .ne v546 c0_i32_365
  let v551 : BitVec 1 := Scalar.andi v550 v547
  let v552 : BitVec 32 := Scalar.addi v546 v545
  let v553 : BitVec 32 := Scalar.select v551 v552 v546
  let c0_i32_432 : BitVec 32 := 0#32
  let v671 : BitVec 1 := Scalar.cmpi .eq v553 c0_i32_432
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c1_i32_433 : BitVec 32 := 1#32
  let v672 : BitVec 1 := Scalar.cmpi .sge v543 c1_i32_433
  let v673 : BitVec 1 := Scalar.andi v671 v672
  let v674 : BitVec 32 := Scalar.extui v673
  let c0_i32_434 : BitVec 32 := 0#32
  let v675 : BitVec 1 := Scalar.cmpi .ne v674 c0_i32_434
  v675

def k0_mult21 (k0_t1 : Fin k0_t1_loop.trips) : BitVec 32 :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c2_i32_495 : BitVec 32 := 2#32
  let c0_i32_496 : BitVec 32 := 0#32
  let v785 : BitVec 1 := Scalar.cmpi .eq c2_i32_495 c0_i32_496
  let c1_i32_497 : BitVec 32 := 1#32
  let v786 : BitVec 32 := Scalar.select v785 c1_i32_497 c2_i32_495
  let v787 : BitVec 32 := Scalar.remsi v543 v786
  let c0_i32_499 : BitVec 32 := 0#32
  let v789 : BitVec 1 := Scalar.cmpi .slt v787 c0_i32_499
  let c0_i32_500 : BitVec 32 := 0#32
  let v790 : BitVec 1 := Scalar.cmpi .slt v786 c0_i32_500
  let v791 : BitVec 1 := Scalar.xori v789 v790
  let c0_i32_498 : BitVec 32 := 0#32
  let v788 : BitVec 1 := Scalar.cmpi .ne v787 c0_i32_498
  let v792 : BitVec 1 := Scalar.andi v791 v788
  let v793 : BitVec 32 := Scalar.addi v787 v786
  let v794 : BitVec 32 := Scalar.select v792 v793 v787
  let c1024_i32_502 : BitVec 32 := 1024#32
  let v798 : BitVec 32 := Scalar.muli v794 c1024_i32_502
  v798
def k0_off23 (k0_t1 : Fin k0_t1_loop.trips) : Fin 1 → Nat :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c2_i32_495 : BitVec 32 := 2#32
  let c0_i32_496 : BitVec 32 := 0#32
  let v785 : BitVec 1 := Scalar.cmpi .eq c2_i32_495 c0_i32_496
  let c1_i32_497 : BitVec 32 := 1#32
  let v786 : BitVec 32 := Scalar.select v785 c1_i32_497 c2_i32_495
  let v787 : BitVec 32 := Scalar.remsi v543 v786
  let c0_i32_499 : BitVec 32 := 0#32
  let v789 : BitVec 1 := Scalar.cmpi .slt v787 c0_i32_499
  let c0_i32_500 : BitVec 32 := 0#32
  let v790 : BitVec 1 := Scalar.cmpi .slt v786 c0_i32_500
  let v791 : BitVec 1 := Scalar.xori v789 v790
  let c0_i32_498 : BitVec 32 := 0#32
  let v788 : BitVec 1 := Scalar.cmpi .ne v787 c0_i32_498
  let v792 : BitVec 1 := Scalar.andi v791 v788
  let v793 : BitVec 32 := Scalar.addi v787 v786
  let v794 : BitVec 32 := Scalar.select v792 v793 v787
  let c1024_i32_502 : BitVec 32 := 1024#32
  let v798 : BitVec 32 := Scalar.muli v794 c1024_i32_502
  let v799 : BitVec 32 := v798
  ![v799.toNat]
def k0_off24 (i : grid0.Coords) (k0_t1 : Fin k0_t1_loop.trips) : Fin 1 → Nat :=
  let arg0 : BitVec 32 := BitVec.ofNat 32 (i 0).val
  let c13_i32 : BitVec 32 := 13#32
  let v1 : BitVec 32 := Scalar.muli arg0 c13_i32
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let v795 : BitVec 32 := Scalar.addi v1 v543
  let c16384_i32_501 : BitVec 32 := 16384#32
  let v796 : BitVec 32 := Scalar.muli v795 c16384_i32_501
  let arg1 : BitVec 32 := BitVec.ofNat 32 (i 1).val
  let c1024_i32 : BitVec 32 := 1024#32
  let v0 : BitVec 32 := Scalar.muli arg1 c1024_i32
  let v797 : BitVec 32 := Scalar.addi v796 v0
  ![v797.toNat]
def k0_off25 (k0_t1 : Fin k0_t1_loop.trips) : Fin 1 → Nat :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_356 : BitVec 32 := 0#32
  let v528 : BitVec 1 := Scalar.cmpi .sgt v526 c0_i32_356
  let v529 : BitVec 32 := Scalar.extui v528
  let c0_i32_357 : BitVec 32 := 0#32
  let v530 : BitVec 1 := Scalar.cmpi .slt v526 c0_i32_357
  let v531 : BitVec 32 := Scalar.extui v530
  let v532 : BitVec 32 := Scalar.subi v529 v531
  let c32_i32_355 : BitVec 32 := 32#32
  let c0_i32_358 : BitVec 32 := 0#32
  let v533 : BitVec 1 := Scalar.cmpi .sgt c32_i32_355 c0_i32_358
  let v534 : BitVec 32 := Scalar.extui v533
  let c0_i32_359 : BitVec 32 := 0#32
  let v535 : BitVec 1 := Scalar.cmpi .slt c32_i32_355 c0_i32_359
  let v536 : BitVec 32 := Scalar.extui v535
  let v537 : BitVec 32 := Scalar.subi v534 v536
  let v538 : BitVec 1 := Scalar.cmpi .ne v532 v537
  let v539 : BitVec 32 := Scalar.remsi v526 c32_i32_355
  let c0_i32_360 : BitVec 32 := 0#32
  let v540 : BitVec 1 := Scalar.cmpi .ne v539 c0_i32_360
  let v541 : BitVec 1 := Scalar.andi v538 v540
  let v527 : BitVec 32 := Scalar.divsi v526 c32_i32_355
  let c1_i32_361 : BitVec 32 := 1#32
  let v542 : BitVec 32 := Scalar.subi v527 c1_i32_361
  let v543 : BitVec 32 := Scalar.select v541 v542 v527
  let c2_i32_495 : BitVec 32 := 2#32
  let c0_i32_496 : BitVec 32 := 0#32
  let v785 : BitVec 1 := Scalar.cmpi .eq c2_i32_495 c0_i32_496
  let c1_i32_497 : BitVec 32 := 1#32
  let v786 : BitVec 32 := Scalar.select v785 c1_i32_497 c2_i32_495
  let v787 : BitVec 32 := Scalar.remsi v543 v786
  let c0_i32_499 : BitVec 32 := 0#32
  let v789 : BitVec 1 := Scalar.cmpi .slt v787 c0_i32_499
  let c0_i32_500 : BitVec 32 := 0#32
  let v790 : BitVec 1 := Scalar.cmpi .slt v786 c0_i32_500
  let v791 : BitVec 1 := Scalar.xori v789 v790
  let c0_i32_498 : BitVec 32 := 0#32
  let v788 : BitVec 1 := Scalar.cmpi .ne v787 c0_i32_498
  let v792 : BitVec 1 := Scalar.andi v791 v788
  let v793 : BitVec 32 := Scalar.addi v787 v786
  let v794 : BitVec 32 := Scalar.select v792 v793 v787
  ![v794.toNat]
def k0_mult22 (k0_t1 : Fin k0_t1_loop.trips) : BitVec 32 :=
  let c2_i32_353 : BitVec 32 := 2#32
  let c3_i32_111 : BitVec 32 := 3#32
  let c1_i32_112 : BitVec 32 := 1#32
  let arg11 : BitVec 32 := Scf.iv c3_i32_111 c1_i32_112 k0_t1
  let v525 : BitVec 32 := Scalar.muli c2_i32_353 arg11
  let c1_i32_354 : BitVec 32 := 1#32
  let v526 : BitVec 32 := Scalar.addi v525 c1_i32_354
  let c0_i32_462 : BitVec 32 := 0#32
  let v727 : BitVec 1 := Scalar.cmpi .sgt v526 c0_i32_462
  let v728 : BitVec 32 := Scalar.extui v727
  let c0_i32_463 : BitVec 32 := 0#32
  let v729 : BitVec 1 := Scalar.cmpi .slt v526 c0_i32_463
  let v730 : BitVec 32 := Scalar.extui v729
  let v731 : BitVec 32 := Scalar.subi v728 v730
  let c32_i32_461 : BitVec 32 := 32#32
  let c0_i32_464 : BitVec 32 := 0#32
  let v732 : BitVec 1 := Scalar.cmpi .sgt c32_i32_461 c0_i32_464
  let v733 : BitVec 32 := Scalar.extui v732
  let c0_i32_465 : BitVec 32 := 0#32
  let v734 : BitVec 1 := Scalar.cmpi .slt c32_i32_461 c0_i32_465
  let v735 : BitVec 32 := Scalar.extui v734
  let v736 : BitVec 32 := Scalar.subi v733 v735
  let v737 : BitVec 1 := Scalar.cmpi .ne v731 v736
  let v738 : BitVec 32 := Scalar.remsi v526 c32_i32_461
  let c0_i32_466 : BitVec 32 := 0#32
  let v739 : BitVec 1 := Scalar.cmpi .ne v738 c0_i32_466
  let v740 : BitVec 1 := Scalar.andi v737 v739
  let v726 : BitVec 32 := Scalar.divsi v526 c32_i32_461
  let c1_i32_467 : BitVec 32 := 1#32
  let v741 : BitVec 32 := Scalar.subi v726 c1_i32_467
  let v742 : BitVec 32 := Scalar.select v740 v741 v726
  let c1000_i32_480 : BitVec 32 := 1000#32
  let v763 : BitVec 32 := Scalar.muli v742 c1000_i32_480
  v763
def k0_mult23 : BitVec 32 :=
  let c12000_i32 : BitVec 32 := 12000#32
  c12000_i32
def k0_mult24 : BitVec 32 :=
  let c12000_i32_129 : BitVec 32 := 12000#32
  c12000_i32_129
def k0_mult25 : BitVec 32 :=
  let c12000_i32_146 : BitVec 32 := 12000#32
  c12000_i32_146
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x26_S26x16384_1_0 : S16384x26.Transposes [1, 0] S26x16384
  shapeCasts_S26x16384_S425984 : S26x16384.ShapeCasts S425984
  shapeCasts_S26x1000x128_S26000x128 : S26x1000x128.ShapeCasts S26000x128
  inb_S2048_S1024_0 : ∀ a, (![0] : Fin 1 → Nat) a + S1024.size a ≤ S2048.size a
  inb_S2_S1_0 : ∀ a, (![0] : Fin 1 → Nat) a + S1.size a ≤ S2.size a
  squeezes_S1_S_ : S1.Squeezes S_
  inb_S2048_S1024_1024 : ∀ a, (![1024] : Fin 1 → Nat) a + S1024.size a ≤ S2048.size a
  inb_S2_S1_1 : ∀ a, (![1] : Fin 1 → Nat) a + S1.size a ≤ S2.size a
  inb_S6x32x128_S1x32x128_0_0_0 : ∀ a, (![0, 0, 0] : Fin 3 → Nat) a + S1x32x128.size a ≤ S6x32x128.size a
  squeezes_S1x32x128_S32x128 : S1x32x128.Squeezes S32x128
  inb_S2048_S32_0 : ∀ a, (![0] : Fin 1 → Nat) a + S32.size a ≤ S2048.size a
  inb_S13000x128_S1000x128_0_0 : ∀ a, (![0, 0] : Fin 2 → Nat) a + S1000x128.size a ≤ S13000x128.size a
  inb_S1000x128_S1000x128_0_0 : ∀ a, (![0, 0] : Fin 2 → Nat) a + S1000x128.size a ≤ S1000x128.size a
  inb_S6_S1_0 : ∀ a, (![0] : Fin 1 → Nat) a + S1.size a ≤ S6.size a
  gathers_S1000x128_S32x128 : S1000x128.Gathers 0 S32x128
  inb_S6x32x128_S1x32x128_1_0_0 : ∀ a, (![1, 0, 0] : Fin 3 → Nat) a + S1x32x128.size a ≤ S6x32x128.size a
  inb_S2048_S32_32 : ∀ a, (![32] : Fin 1 → Nat) a + S32.size a ≤ S2048.size a
  inb_S6_S1_1 : ∀ a, (![1] : Fin 1 → Nat) a + S1.size a ≤ S6.size a
  inb_S6x32x128_S1x32x128_2_0_0 : ∀ a, (![2, 0, 0] : Fin 3 → Nat) a + S1x32x128.size a ≤ S6x32x128.size a
  inb_S2048_S32_64 : ∀ a, (![64] : Fin 1 → Nat) a + S32.size a ≤ S2048.size a
  inb_S6_S1_2 : ∀ a, (![2] : Fin 1 → Nat) a + S1.size a ≤ S6.size a
  inb_S6x32x128_S1x32x128_3_0_0 : ∀ a, (![3, 0, 0] : Fin 3 → Nat) a + S1x32x128.size a ≤ S6x32x128.size a
  inb_S2048_S32_96 : ∀ a, (![96] : Fin 1 → Nat) a + S32.size a ≤ S2048.size a
  inb_S6_S1_3 : ∀ a, (![3] : Fin 1 → Nat) a + S1.size a ≤ S6.size a
  inb_S6x32x128_S1x32x128_4_0_0 : ∀ a, (![4, 0, 0] : Fin 3 → Nat) a + S1x32x128.size a ≤ S6x32x128.size a
  inb_S2048_S32_128 : ∀ a, (![128] : Fin 1 → Nat) a + S32.size a ≤ S2048.size a
  inb_S6_S1_4 : ∀ a, (![4] : Fin 1 → Nat) a + S1.size a ≤ S6.size a
  inb_S6x32x128_S1x32x128_5_0_0 : ∀ a, (![5, 0, 0] : Fin 3 → Nat) a + S1x32x128.size a ≤ S6x32x128.size a
  inb_S2048_S32_160 : ∀ a, (![160] : Fin 1 → Nat) a + S32.size a ≤ S2048.size a
  inb_S6_S1_5 : ∀ a, (![5] : Fin 1 → Nat) a + S1.size a ≤ S6.size a
  inb_S2048_S32_928 : ∀ a, (![928] : Fin 1 → Nat) a + S32.size a ≤ S2048.size a
  inb_S13000x128_S1000x128_12000_0 : ∀ a, (![12000, 0] : Fin 2 → Nat) a + S1000x128.size a ≤ S13000x128.size a
  inb_S2048_S32_960 : ∀ a, (![960] : Fin 1 → Nat) a + S32.size a ≤ S2048.size a
  inb_S2048_S32_992 : ∀ a, (![992] : Fin 1 → Nat) a + S32.size a ≤ S2048.size a
  hcc0_scratch3 : 0 + S2.numel ≤ 15
  hcc0_scratch4 : 2 + S6.numel ≤ 15
  hcc0_scratch5 : 8 + S6.numel ≤ 15
  hcc0_scoped0 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : 8 ∣ k0_mult1.toNat
  k0_off1_inb : ∀ i : grid0.Coords, ∀ (r : Fin 2), ∀ a, (k0_off1 i (BitVec.ofNat 32 r.val)) a + S1024.size a ≤ S425984.size a
  k0_mult2_dvd : ∀ i : grid0.Coords, ∀ (k0_h1 : k0_cond1 i = 1#1), 8 ∣ (k0_mult2 i).toNat
  k0_mult3_dvd : ∀ i : grid0.Coords, ∀ (k0_h1 : k0_cond1 i = 1#1), 8 ∣ (k0_mult3 i).toNat
  k0_off2_inb : ∀ i : grid0.Coords, ∀ (k0_h1 : k0_cond1 i = 1#1), ∀ a, (k0_off2 i) a + S1000x128.size a ≤ S13000x128.size a
  k0_off3_inb : ∀ i : grid0.Coords, ∀ (k0_h1 : k0_cond1 i = 1#1), ∀ a, (k0_off3 i) a + S1000x128.size a ≤ S26000x128.size a
  k0_mult4_dvd : 8 ∣ k0_mult4.toNat
  k0_mult5_dvd : 8 ∣ k0_mult5.toNat
  k0_mult6_dvd : 8 ∣ k0_mult6.toNat
  k0_mult7_dvd : 8 ∣ k0_mult7.toNat
  k0_mult8_dvd : 8 ∣ k0_mult8.toNat
  k0_mult9_dvd : 8 ∣ k0_mult9.toNat
  k0_off4_inb : ∀ i : grid0.Coords, ∀ (r : Fin 9), ∀ a, (k0_off4 i (k0_off4_at r).1 (k0_off4_at r).2) a + S32x128.size a ≤ S16384x3328.size a
  k0_mult10_dvd : 8 ∣ k0_mult10.toNat
  k0_mult11_dvd : 8 ∣ k0_mult11.toNat
  k0_mult12_dvd : 8 ∣ k0_mult12.toNat
  k0_mult13_dvd : 8 ∣ k0_mult13.toNat
  k0_mult14_dvd : 8 ∣ k0_mult14.toNat
  k0_t1_ok : k0_t1_loop.OK
  k0_mult15_dvd : ∀ k0_t1 : Fin k0_t1_loop.trips, 8 ∣ (k0_mult15 k0_t1).toNat
  k0_off5_inb : ∀ k0_t1 : Fin k0_t1_loop.trips, ∀ (r₁ : Fin 2) (r₂ : Fin 2), ∀ a, (k0_off5 k0_t1 (BitVec.ofNat 32 r₁.val) (BitVec.ofNat 32 (3 + 3 * r₂.val))) a + S1x32x128.size a ≤ S6x32x128.size a
  k0_off6_inb : ∀ k0_t1 : Fin k0_t1_loop.trips, ∀ (r : Fin 2), ∀ a, (k0_off6 k0_t1 (BitVec.ofNat 32 r.val)) a + S32.size a ≤ S2048.size a
  k0_off7_inb : ∀ k0_t1 : Fin k0_t1_loop.trips, ∀ (r : Fin 2), ∀ a, (k0_off7 k0_t1 (BitVec.ofNat 32 r.val)) a + S1000x128.size a ≤ S13000x128.size a
  k0_off8_inb : ∀ k0_t1 : Fin k0_t1_loop.trips, ∀ (r₁ : Fin 2) (r₂ : Fin 2), ∀ a, (k0_off8 k0_t1 (BitVec.ofNat 32 r₁.val) (BitVec.ofNat 32 (3 + 3 * r₂.val))) a + S1.size a ≤ S6.size a
  k0_off9_inb : ∀ (i : grid0.Coords) (k0_t1 : Fin k0_t1_loop.trips), ∀ (r₁ : Fin 2) (r₂ : Fin 2), ∀ a, (k0_off9 i k0_t1 (BitVec.ofNat 32 r₁.val) (BitVec.ofNat 32 (3 + 3 * r₂.val))) a + S32x128.size a ≤ S16384x3328.size a
  k0_mult16_dvd : ∀ k0_t1 : Fin k0_t1_loop.trips, ∀ (k0_h2 : k0_cond2 k0_t1 = 1#1), 8 ∣ (k0_mult16 k0_t1).toNat
  k0_off10_inb : ∀ k0_t1 : Fin k0_t1_loop.trips, ∀ (k0_h2 : k0_cond2 k0_t1 = 1#1), ∀ a, (k0_off10 k0_t1) a + S1024.size a ≤ S2048.size a
  k0_off11_inb : ∀ (i : grid0.Coords) (k0_t1 : Fin k0_t1_loop.trips), ∀ (k0_h2 : k0_cond2 k0_t1 = 1#1), ∀ a, (k0_off11 i k0_t1) a + S1024.size a ≤ S425984.size a
  k0_off12_inb : ∀ k0_t1 : Fin k0_t1_loop.trips, ∀ (k0_h2 : k0_cond2 k0_t1 = 1#1), ∀ a, (k0_off12 k0_t1) a + S1.size a ≤ S2.size a
  k0_mult17_dvd : ∀ k0_t1 : Fin k0_t1_loop.trips, ∀ (k0_h3 : k0_cond3 k0_t1 = 1#1), 8 ∣ (k0_mult17 k0_t1).toNat
  k0_off13_inb : ∀ k0_t1 : Fin k0_t1_loop.trips, ∀ (k0_h3 : k0_cond3 k0_t1 = 1#1), ∀ a, (k0_off13 k0_t1) a + S1024.size a ≤ S2048.size a
  k0_off14_inb : ∀ (i : grid0.Coords) (k0_t1 : Fin k0_t1_loop.trips), ∀ (k0_h3 : k0_cond3 k0_t1 = 1#1), ∀ a, (k0_off14 i k0_t1) a + S1024.size a ≤ S425984.size a
  k0_off15_inb : ∀ k0_t1 : Fin k0_t1_loop.trips, ∀ (k0_h3 : k0_cond3 k0_t1 = 1#1), ∀ a, (k0_off15 k0_t1) a + S1.size a ≤ S2.size a
  k0_mult18_dvd : ∀ k0_t1 : Fin k0_t1_loop.trips, 8 ∣ (k0_mult18 k0_t1).toNat
  k0_off16_inb : ∀ k0_t1 : Fin k0_t1_loop.trips, ∀ (r : Fin 2), ∀ a, (k0_off16 k0_t1 (BitVec.ofNat 32 r.val)) a + S1x32x128.size a ≤ S6x32x128.size a
  k0_off17_inb : ∀ k0_t1 : Fin k0_t1_loop.trips, ∀ (r : Fin 2), ∀ a, (k0_off17 k0_t1 (BitVec.ofNat 32 r.val)) a + S32.size a ≤ S2048.size a
  k0_off18_inb : ∀ k0_t1 : Fin k0_t1_loop.trips, ∀ (r : Fin 2), ∀ a, (k0_off18 k0_t1 (BitVec.ofNat 32 r.val)) a + S1000x128.size a ≤ S13000x128.size a
  k0_off19_inb : ∀ k0_t1 : Fin k0_t1_loop.trips, ∀ (r : Fin 2), ∀ a, (k0_off19 k0_t1 (BitVec.ofNat 32 r.val)) a + S1.size a ≤ S6.size a
  k0_mult19_dvd : ∀ k0_t1 : Fin k0_t1_loop.trips, 8 ∣ (k0_mult19 k0_t1).toNat
  k0_mult20_dvd : ∀ k0_t1 : Fin k0_t1_loop.trips, ∀ (k0_h4 : k0_cond4 k0_t1 = 1#1), 8 ∣ (k0_mult20 k0_t1).toNat
  k0_off20_inb : ∀ k0_t1 : Fin k0_t1_loop.trips, ∀ (k0_h4 : k0_cond4 k0_t1 = 1#1), ∀ a, (k0_off20 k0_t1) a + S1024.size a ≤ S2048.size a
  k0_off21_inb : ∀ (i : grid0.Coords) (k0_t1 : Fin k0_t1_loop.trips), ∀ (k0_h4 : k0_cond4 k0_t1 = 1#1), ∀ a, (k0_off21 i k0_t1) a + S1024.size a ≤ S425984.size a
  k0_off22_inb : ∀ k0_t1 : Fin k0_t1_loop.trips, ∀ (k0_h4 : k0_cond4 k0_t1 = 1#1), ∀ a, (k0_off22 k0_t1) a + S1.size a ≤ S2.size a
  k0_mult21_dvd : ∀ k0_t1 : Fin k0_t1_loop.trips, ∀ (k0_h5 : k0_cond5 k0_t1 = 1#1), 8 ∣ (k0_mult21 k0_t1).toNat
  k0_off23_inb : ∀ k0_t1 : Fin k0_t1_loop.trips, ∀ (k0_h5 : k0_cond5 k0_t1 = 1#1), ∀ a, (k0_off23 k0_t1) a + S1024.size a ≤ S2048.size a
  k0_off24_inb : ∀ (i : grid0.Coords) (k0_t1 : Fin k0_t1_loop.trips), ∀ (k0_h5 : k0_cond5 k0_t1 = 1#1), ∀ a, (k0_off24 i k0_t1) a + S1024.size a ≤ S425984.size a
  k0_off25_inb : ∀ k0_t1 : Fin k0_t1_loop.trips, ∀ (k0_h5 : k0_cond5 k0_t1 = 1#1), ∀ a, (k0_off25 k0_t1) a + S1.size a ≤ S2.size a
  k0_mult22_dvd : ∀ k0_t1 : Fin k0_t1_loop.trips, 8 ∣ (k0_mult22 k0_t1).toNat
  k0_mult23_dvd : 8 ∣ k0_mult23.toNat
  k0_mult24_dvd : 8 ∣ k0_mult24.toNat
  k0_mult25_dvd : 8 ∣ k0_mult25.toNat

variable [Facts₀]

abbrev cc0_scratch3 : DmaSems sig S2 := SemArray.consecutive 0 S2 hcc0_scratch3
abbrev cc0_scratch4 : DmaSems sig S6 := SemArray.consecutive 2 S6 hcc0_scratch4
abbrev cc0_scratch5 : DmaSems sig S6 := SemArray.consecutive 8 S6 hcc0_scratch5
abbrev cc0_scoped0 : DmaSems sig S_ := SemArray.consecutive 14 S_ hcc0_scoped0

class Facts : Prop extends Facts₀ where

variable [Facts]
-- ==== ReferenceIdeal.lean ====
abbrev S16384x26 : Shape := ⟨2, ![16384, 26]⟩
abbrev S26x1000x128 : Shape := ⟨3, ![26, 1000, 128]⟩
abbrev S1x1000x128 : Shape := ⟨3, ![1, 1000, 128]⟩
abbrev S1000x128 : Shape := ⟨2, ![1000, 128]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x2048 : Shape := ⟨2, ![16384, 2048]⟩
abbrev S16384x1280 : Shape := ⟨2, ![16384, 1280]⟩
abbrev S16384x3328 : Shape := ⟨2, ![16384, 3328]⟩

abbrev nBuf : Space → Nat
  | .hbm => 707
  | .vmem => 0
  | .smem => 0
  | _ => 0

abbrev hbmTy0_0 (i : Nat) : BufTy := match i % 128 with
  | 0 => ⟨S16384x26, .i32⟩
  | 1 => ⟨S26x1000x128, .f32⟩
  | 2 => ⟨S1x1000x128, .f32⟩
  | 3 => ⟨S1000x128, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x128, .f32⟩
  | 25 => ⟨S16384x128, .i1⟩
  | 26 => ⟨S_, .f32⟩
  | 27 => ⟨S16384x128, .f32⟩
  | 28 => ⟨S16384x128, .f32⟩
  | 29 => ⟨S1x1000x128, .f32⟩
  | 30 => ⟨S1000x128, .f32⟩
  | 31 => ⟨S16384x1, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x128, .f32⟩
  | 52 => ⟨S16384x128, .i1⟩
  | 53 => ⟨S_, .f32⟩
  | 54 => ⟨S16384x128, .f32⟩
  | 55 => ⟨S16384x128, .f32⟩
  | 56 => ⟨S1x1000x128, .f32⟩
  | 57 => ⟨S1000x128, .f32⟩
  | 58 => ⟨S16384x1, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x128, .f32⟩
  | 79 => ⟨S16384x128, .i1⟩
  | 80 => ⟨S_, .f32⟩
  | 81 => ⟨S16384x128, .f32⟩
  | 82 => ⟨S16384x128, .f32⟩
  | 83 => ⟨S1x1000x128, .f32⟩
  | 84 => ⟨S1000x128, .f32⟩
  | 85 => ⟨S16384x1, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x128, .f32⟩
  | 106 => ⟨S16384x128, .i1⟩
  | 107 => ⟨S_, .f32⟩
  | 108 => ⟨S16384x128, .f32⟩
  | 109 => ⟨S16384x128, .f32⟩
  | 110 => ⟨S1x1000x128, .f32⟩
  | 111 => ⟨S1000x128, .f32⟩
  | 112 => ⟨S16384x1, .i32⟩
  | 113 => ⟨S16384, .i32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384x26, .i32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x128, .f32⟩
  | 5 => ⟨S16384x128, .i1⟩
  | 6 => ⟨S_, .f32⟩
  | 7 => ⟨S16384x128, .f32⟩
  | 8 => ⟨S16384x128, .f32⟩
  | 9 => ⟨S1x1000x128, .f32⟩
  | 10 => ⟨S1000x128, .f32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x128, .f32⟩
  | 32 => ⟨S16384x128, .i1⟩
  | 33 => ⟨S_, .f32⟩
  | 34 => ⟨S16384x128, .f32⟩
  | 35 => ⟨S16384x128, .f32⟩
  | 36 => ⟨S1x1000x128, .f32⟩
  | 37 => ⟨S1000x128, .f32⟩
  | 38 => ⟨S16384x1, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x128, .f32⟩
  | 59 => ⟨S16384x128, .i1⟩
  | 60 => ⟨S_, .f32⟩
  | 61 => ⟨S16384x128, .f32⟩
  | 62 => ⟨S16384x128, .f32⟩
  | 63 => ⟨S1x1000x128, .f32⟩
  | 64 => ⟨S1000x128, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x128, .f32⟩
  | 86 => ⟨S16384x128, .i1⟩
  | 87 => ⟨S_, .f32⟩
  | 88 => ⟨S16384x128, .f32⟩
  | 89 => ⟨S16384x128, .f32⟩
  | 90 => ⟨S1x1000x128, .f32⟩
  | 91 => ⟨S1000x128, .f32⟩
  | 92 => ⟨S16384x1, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x128, .f32⟩
  | 113 => ⟨S16384x128, .i1⟩
  | 114 => ⟨S_, .f32⟩
  | 115 => ⟨S16384x128, .f32⟩
  | 116 => ⟨S16384x128, .f32⟩
  | 117 => ⟨S1x1000x128, .f32⟩
  | 118 => ⟨S1000x128, .f32⟩
  | 119 => ⟨S16384x1, .i32⟩
  | 120 => ⟨S16384, .i32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x26, .i32⟩

abbrev hbmTy0_2 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x128, .f32⟩
  | 12 => ⟨S16384x128, .i1⟩
  | 13 => ⟨S_, .f32⟩
  | 14 => ⟨S16384x128, .f32⟩
  | 15 => ⟨S16384x128, .f32⟩
  | 16 => ⟨S1x1000x128, .f32⟩
  | 17 => ⟨S1000x128, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x128, .f32⟩
  | 39 => ⟨S16384x128, .i1⟩
  | 40 => ⟨S_, .f32⟩
  | 41 => ⟨S16384x128, .f32⟩
  | 42 => ⟨S16384x128, .f32⟩
  | 43 => ⟨S1x1000x128, .f32⟩
  | 44 => ⟨S1000x128, .f32⟩
  | 45 => ⟨S16384x1, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x128, .f32⟩
  | 66 => ⟨S16384x128, .i1⟩
  | 67 => ⟨S_, .f32⟩
  | 68 => ⟨S16384x128, .f32⟩
  | 69 => ⟨S16384x128, .f32⟩
  | 70 => ⟨S1x1000x128, .f32⟩
  | 71 => ⟨S1000x128, .f32⟩
  | 72 => ⟨S16384x1, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x128, .f32⟩
  | 93 => ⟨S16384x128, .i1⟩
  | 94 => ⟨S_, .f32⟩
  | 95 => ⟨S16384x128, .f32⟩
  | 96 => ⟨S16384x128, .f32⟩
  | 97 => ⟨S1x1000x128, .f32⟩
  | 98 => ⟨S1000x128, .f32⟩
  | 99 => ⟨S16384x1, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x128, .f32⟩
  | 120 => ⟨S16384x128, .i1⟩
  | 121 => ⟨S_, .f32⟩
  | 122 => ⟨S16384x128, .f32⟩
  | 123 => ⟨S16384x128, .f32⟩
  | 124 => ⟨S1x1000x128, .f32⟩
  | 125 => ⟨S1000x128, .f32⟩
  | 126 => ⟨S16384x1, .i32⟩
  | 127 => ⟨S16384, .i32⟩
  | _ => ⟨S16384x26, .i32⟩

abbrev hbmTy0_3 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384x128, .f32⟩
  | 19 => ⟨S16384x128, .i1⟩
  | 20 => ⟨S_, .f32⟩
  | 21 => ⟨S16384x128, .f32⟩
  | 22 => ⟨S16384x128, .f32⟩
  | 23 => ⟨S1x1000x128, .f32⟩
  | 24 => ⟨S1000x128, .f32⟩
  | 25 => ⟨S16384x1, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x128, .f32⟩
  | 46 => ⟨S16384x128, .i1⟩
  | 47 => ⟨S_, .f32⟩
  | 48 => ⟨S16384x128, .f32⟩
  | 49 => ⟨S16384x128, .f32⟩
  | 50 => ⟨S1x1000x128, .f32⟩
  | 51 => ⟨S1000x128, .f32⟩
  | 52 => ⟨S16384x1, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x128, .f32⟩
  | 73 => ⟨S16384x128, .i1⟩
  | 74 => ⟨S_, .f32⟩
  | 75 => ⟨S16384x128, .f32⟩
  | 76 => ⟨S16384x128, .f32⟩
  | 77 => ⟨S1x1000x128, .f32⟩
  | 78 => ⟨S1000x128, .f32⟩
  | 79 => ⟨S16384x1, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x128, .f32⟩
  | 100 => ⟨S16384x128, .i1⟩
  | 101 => ⟨S_, .f32⟩
  | 102 => ⟨S16384x128, .f32⟩
  | 103 => ⟨S16384x128, .f32⟩
  | 104 => ⟨S1x1000x128, .f32⟩
  | 105 => ⟨S1000x128, .f32⟩
  | 106 => ⟨S16384x1, .i32⟩
  | 107 => ⟨S16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x128, .f32⟩
  | 127 => ⟨S16384x128, .i1⟩
  | _ => ⟨S16384x26, .i32⟩

abbrev hbmTy0_4 (i : Nat) : BufTy := match i % 128 with
  | 0 => ⟨S_, .f32⟩
  | 1 => ⟨S16384x128, .f32⟩
  | 2 => ⟨S16384x128, .f32⟩
  | 3 => ⟨S1x1000x128, .f32⟩
  | 4 => ⟨S1000x128, .f32⟩
  | 5 => ⟨S16384x1, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x128, .f32⟩
  | 26 => ⟨S16384x128, .i1⟩
  | 27 => ⟨S_, .f32⟩
  | 28 => ⟨S16384x128, .f32⟩
  | 29 => ⟨S16384x128, .f32⟩
  | 30 => ⟨S1x1000x128, .f32⟩
  | 31 => ⟨S1000x128, .f32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S1, .i32⟩
  | 43 => ⟨S_, .i32⟩
  | 44 => ⟨S16384x1, .i32⟩
  | 45 => ⟨S16384x1, .i1⟩
  | 46 => ⟨S1x1, .i32⟩
  | 47 => ⟨S16384x1, .i32⟩
  | 48 => ⟨S16384x1, .i1⟩
  | 49 => ⟨S16384x1, .i1⟩
  | 50 => ⟨S_, .i1⟩
  | 51 => ⟨S16384, .i1⟩
  | 52 => ⟨S16384x128, .f32⟩
  | 53 => ⟨S16384x128, .i1⟩
  | 54 => ⟨S_, .f32⟩
  | 55 => ⟨S16384x128, .f32⟩
  | 56 => ⟨S16384x128, .f32⟩
  | 57 => ⟨S1x1000x128, .f32⟩
  | 58 => ⟨S1000x128, .f32⟩
  | 59 => ⟨S16384x1, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x128, .f32⟩
  | 80 => ⟨S16384x128, .i1⟩
  | 81 => ⟨S_, .f32⟩
  | 82 => ⟨S16384x128, .f32⟩
  | 83 => ⟨S16384x128, .f32⟩
  | 84 => ⟨S1x1000x128, .f32⟩
  | 85 => ⟨S1000x128, .f32⟩
  | 86 => ⟨S16384x1, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x128, .f32⟩
  | 107 => ⟨S16384x128, .i1⟩
  | 108 => ⟨S_, .f32⟩
  | 109 => ⟨S16384x128, .f32⟩
  | 110 => ⟨S16384x128, .f32⟩
  | 111 => ⟨S1x1000x128, .f32⟩
  | 112 => ⟨S1000x128, .f32⟩
  | 113 => ⟨S16384x1, .i32⟩
  | 114 => ⟨S16384, .i32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x26, .i32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x128, .f32⟩
  | 6 => ⟨S16384x128, .i1⟩
  | 7 => ⟨S_, .f32⟩
  | 8 => ⟨S16384x128, .f32⟩
  | 9 => ⟨S16384x128, .f32⟩
  | 10 => ⟨S1x1000x128, .f32⟩
  | 11 => ⟨S1000x128, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x128, .f32⟩
  | 33 => ⟨S16384x128, .i1⟩
  | 34 => ⟨S_, .f32⟩
  | 35 => ⟨S16384x128, .f32⟩
  | 36 => ⟨S16384x128, .f32⟩
  | 37 => ⟨S1x1000x128, .f32⟩
  | 38 => ⟨S1000x128, .f32⟩
  | 39 => ⟨S16384x1, .i32⟩
  | 40 => ⟨S16384, .i32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x128, .f32⟩
  | 60 => ⟨S16384x128, .i1⟩
  | 61 => ⟨S_, .f32⟩
  | 62 => ⟨S16384x128, .f32⟩
  | 63 => ⟨S16384x128, .f32⟩
  | 64 => ⟨S16384x2048, .f32⟩
  | 65 => ⟨S16384x1280, .f32⟩
  | 66 => ⟨S16384x3328, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v54 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_v14 : Ref sig .tc := ⟨.hbm, 322, rfl⟩
abbrev main_call11_cst : Ref sig .tc := ⟨.hbm, 323, rfl⟩
abbrev main_call11_v15 : Ref sig .tc := ⟨.hbm, 324, rfl⟩
abbrev main_v59 : Ref sig .tc := ⟨.hbm, 325, rfl⟩
abbrev main_v60 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v69 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_v73 : Ref sig .tc := ⟨.hbm, 383, rfl⟩
abbrev main_call14_c : Ref sig .tc := ⟨.hbm, 384, rfl⟩
abbrev main_call14_v0 : Ref sig .tc := ⟨.hbm, 385, rfl⟩
abbrev main_call14_v1 : Ref sig .tc := ⟨.hbm, 386, rfl⟩
abbrev main_call14_c_0 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_call14_v5 : Ref sig .tc := ⟨.hbm, 391, rfl⟩
abbrev main_call14_c_1 : Ref sig .tc := ⟨.hbm, 392, rfl⟩
abbrev main_call14_c_2 : Ref sig .tc := ⟨.hbm, 393, rfl⟩
abbrev main_call14_v6 : Ref sig .tc := ⟨.hbm, 394, rfl⟩
abbrev main_call14_v7 : Ref sig .tc := ⟨.hbm, 395, rfl⟩
abbrev main_call14_v8 : Ref sig .tc := ⟨.hbm, 396, rfl⟩
abbrev main_call14_v9 : Ref sig .tc := ⟨.hbm, 397, rfl⟩
abbrev main_call14_v10 : Ref sig .tc := ⟨.hbm, 398, rfl⟩
abbrev main_call14_v11 : Ref sig .tc := ⟨.hbm, 399, rfl⟩
abbrev main_call14_c_3 : Ref sig .tc := ⟨.hbm, 400, rfl⟩
abbrev main_call14_v12 : Ref sig .tc := ⟨.hbm, 401, rfl⟩
abbrev main_call14_v13 : Ref sig .tc := ⟨.hbm, 402, rfl⟩
abbrev main_call14_v14 : Ref sig .tc := ⟨.hbm, 403, rfl⟩
abbrev main_call14_cst : Ref sig .tc := ⟨.hbm, 404, rfl⟩
abbrev main_call14_v15 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_call15_c : Ref sig .tc := ⟨.hbm, 411, rfl⟩
abbrev main_call15_v0 : Ref sig .tc := ⟨.hbm, 412, rfl⟩
abbrev main_call15_v1 : Ref sig .tc := ⟨.hbm, 413, rfl⟩
abbrev main_call15_c_0 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_call15_v5 : Ref sig .tc := ⟨.hbm, 418, rfl⟩
abbrev main_call15_c_1 : Ref sig .tc := ⟨.hbm, 419, rfl⟩
abbrev main_call15_c_2 : Ref sig .tc := ⟨.hbm, 420, rfl⟩
abbrev main_call15_v6 : Ref sig .tc := ⟨.hbm, 421, rfl⟩
abbrev main_call15_v7 : Ref sig .tc := ⟨.hbm, 422, rfl⟩
abbrev main_call15_v8 : Ref sig .tc := ⟨.hbm, 423, rfl⟩
abbrev main_call15_v9 : Ref sig .tc := ⟨.hbm, 424, rfl⟩
abbrev main_call15_v10 : Ref sig .tc := ⟨.hbm, 425, rfl⟩
abbrev main_call15_v11 : Ref sig .tc := ⟨.hbm, 426, rfl⟩
abbrev main_call15_c_3 : Ref sig .tc := ⟨.hbm, 427, rfl⟩
abbrev main_call15_v12 : Ref sig .tc := ⟨.hbm, 428, rfl⟩
abbrev main_call15_v13 : Ref sig .tc := ⟨.hbm, 429, rfl⟩
abbrev main_call15_v14 : Ref sig .tc := ⟨.hbm, 430, rfl⟩
abbrev main_call15_cst : Ref sig .tc := ⟨.hbm, 431, rfl⟩
abbrev main_call15_v15 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_call16_c : Ref sig .tc := ⟨.hbm, 438, rfl⟩
abbrev main_call16_v0 : Ref sig .tc := ⟨.hbm, 439, rfl⟩
abbrev main_call16_v1 : Ref sig .tc := ⟨.hbm, 440, rfl⟩
abbrev main_call16_c_0 : Ref sig .tc := ⟨.hbm, 441, rfl⟩
abbrev main_call16_v2 : Ref sig .tc := ⟨.hbm, 442, rfl⟩
abbrev main_call16_v3 : Ref sig .tc := ⟨.hbm, 443, rfl⟩
abbrev main_call16_v4 : Ref sig .tc := ⟨.hbm, 444, rfl⟩
abbrev main_call16_v5 : Ref sig .tc := ⟨.hbm, 445, rfl⟩
abbrev main_call16_c_1 : Ref sig .tc := ⟨.hbm, 446, rfl⟩
abbrev main_call16_c_2 : Ref sig .tc := ⟨.hbm, 447, rfl⟩
abbrev main_call16_v6 : Ref sig .tc := ⟨.hbm, 448, rfl⟩
abbrev main_call16_v7 : Ref sig .tc := ⟨.hbm, 449, rfl⟩
abbrev main_call16_v8 : Ref sig .tc := ⟨.hbm, 450, rfl⟩
abbrev main_call16_v9 : Ref sig .tc := ⟨.hbm, 451, rfl⟩
abbrev main_call16_v10 : Ref sig .tc := ⟨.hbm, 452, rfl⟩
abbrev main_call16_v11 : Ref sig .tc := ⟨.hbm, 453, rfl⟩
abbrev main_call16_c_3 : Ref sig .tc := ⟨.hbm, 454, rfl⟩
abbrev main_call16_v12 : Ref sig .tc := ⟨.hbm, 455, rfl⟩
abbrev main_call16_v13 : Ref sig .tc := ⟨.hbm, 456, rfl⟩
abbrev main_call16_v14 : Ref sig .tc := ⟨.hbm, 457, rfl⟩
abbrev main_call16_cst : Ref sig .tc := ⟨.hbm, 458, rfl⟩
abbrev main_call16_v15 : Ref sig .tc := ⟨.hbm, 459, rfl⟩
abbrev main_v84 : Ref sig .tc := ⟨.hbm, 460, rfl⟩
abbrev main_v85 : Ref sig .tc := ⟨.hbm, 461, rfl⟩
abbrev main_v86 : Ref sig .tc := ⟨.hbm, 462, rfl⟩
abbrev main_v87 : Ref sig .tc := ⟨.hbm, 463, rfl⟩
abbrev main_v88 : Ref sig .tc := ⟨.hbm, 464, rfl⟩
abbrev main_call17_c : Ref sig .tc := ⟨.hbm, 465, rfl⟩
abbrev main_call17_v0 : Ref sig .tc := ⟨.hbm, 466, rfl⟩
abbrev main_call17_v1 : Ref sig .tc := ⟨.hbm, 467, rfl⟩
abbrev main_call17_c_0 : Ref sig .tc := ⟨.hbm, 468, rfl⟩
abbrev main_call17_v2 : Ref sig .tc := ⟨.hbm, 469, rfl⟩
abbrev main_call17_v3 : Ref sig .tc := ⟨.hbm, 470, rfl⟩
abbrev main_call17_v4 : Ref sig .tc := ⟨.hbm, 471, rfl⟩
abbrev main_call17_v5 : Ref sig .tc := ⟨.hbm, 472, rfl⟩
abbrev main_call17_c_1 : Ref sig .tc := ⟨.hbm, 473, rfl⟩
abbrev main_call17_c_2 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_v9 : Ref sig .tc := ⟨.hbm, 478, rfl⟩
abbrev main_call17_v10 : Ref sig .tc := ⟨.hbm, 479, rfl⟩
abbrev main_call17_v11 : Ref sig .tc := ⟨.hbm, 480, rfl⟩
abbrev main_call17_c_3 : Ref sig .tc := ⟨.hbm, 481, rfl⟩
abbrev main_call17_v12 : Ref sig .tc := ⟨.hbm, 482, rfl⟩
abbrev main_call17_v13 : Ref sig .tc := ⟨.hbm, 483, rfl⟩
abbrev main_call17_v14 : Ref sig .tc := ⟨.hbm, 484, rfl⟩
abbrev main_call17_cst : Ref sig .tc := ⟨.hbm, 485, rfl⟩
abbrev main_call17_v15 : Ref sig .tc := ⟨.hbm, 486, rfl⟩
abbrev main_v89 : Ref sig .tc := ⟨.hbm, 487, rfl⟩
abbrev main_v90 : Ref sig .tc := ⟨.hbm, 488, rfl⟩
abbrev main_v91 : Ref sig .tc := ⟨.hbm, 489, rfl⟩
abbrev main_v92 : Ref sig .tc := ⟨.hbm, 490, rfl⟩
abbrev main_v93 : Ref sig .tc := ⟨.hbm, 491, rfl⟩
abbrev main_call18_c : Ref sig .tc := ⟨.hbm, 492, rfl⟩
abbrev main_call18_v0 : Ref sig .tc := ⟨.hbm, 493, rfl⟩
abbrev main_call18_v1 : Ref sig .tc := ⟨.hbm, 494, rfl⟩
abbrev main_call18_c_0 : Ref sig .tc := ⟨.hbm, 495, rfl⟩
abbrev main_call18_v2 : Ref sig .tc := ⟨.hbm, 496, rfl⟩
abbrev main_call18_v3 : Ref sig .tc := ⟨.hbm, 497, rfl⟩
abbrev main_call18_v4 : Ref sig .tc := ⟨.hbm, 498, rfl⟩
abbrev main_call18_v5 : Ref sig .tc := ⟨.hbm, 499, rfl⟩
abbrev main_call18_c_1 : Ref sig .tc := ⟨.hbm, 500, rfl⟩
abbrev main_call18_c_2 : Ref sig .tc := ⟨.hbm, 501, rfl⟩
abbrev main_call18_v6 : Ref sig .tc := ⟨.hbm, 502, rfl⟩
abbrev main_call18_v7 : Ref sig .tc := ⟨.hbm, 503, rfl⟩
abbrev main_call18_v8 : Ref sig .tc := ⟨.hbm, 504, rfl⟩
abbrev main_call18_v9 : Ref sig .tc := ⟨.hbm, 505, rfl⟩
abbrev main_call18_v10 : Ref sig .tc := ⟨.hbm, 506, rfl⟩
abbrev main_call18_v11 : Ref sig .tc := ⟨.hbm, 507, rfl⟩
abbrev main_call18_c_3 : Ref sig .tc := ⟨.hbm, 508, rfl⟩
abbrev main_call18_v12 : Ref sig .tc := ⟨.hbm, 509, rfl⟩
abbrev main_call18_v13 : Ref sig .tc := ⟨.hbm, 510, rfl⟩
abbrev main_call18_v14 : Ref sig .tc := ⟨.hbm, 511, rfl⟩
abbrev main_call18_cst : Ref sig .tc := ⟨.hbm, 512, rfl⟩
abbrev main_call18_v15 : Ref sig .tc := ⟨.hbm, 513, rfl⟩
abbrev main_v94 : Ref sig .tc := ⟨.hbm, 514, rfl⟩
abbrev main_v95 : Ref sig .tc := ⟨.hbm, 515, rfl⟩
abbrev main_v96 : Ref sig .tc := ⟨.hbm, 516, rfl⟩
abbrev main_v97 : Ref sig .tc := ⟨.hbm, 517, rfl⟩
abbrev main_v98 : Ref sig .tc := ⟨.hbm, 518, rfl⟩
abbrev main_call19_c : Ref sig .tc := ⟨.hbm, 519, rfl⟩
abbrev main_call19_v0 : Ref sig .tc := ⟨.hbm, 520, rfl⟩
abbrev main_call19_v1 : Ref sig .tc := ⟨.hbm, 521, rfl⟩
abbrev main_call19_c_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_c_1 : Ref sig .tc := ⟨.hbm, 527, rfl⟩
abbrev main_call19_c_2 : Ref sig .tc := ⟨.hbm, 528, rfl⟩
abbrev main_call19_v6 : Ref sig .tc := ⟨.hbm, 529, rfl⟩
abbrev main_call19_v7 : Ref sig .tc := ⟨.hbm, 530, rfl⟩
abbrev main_call19_v8 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_c_3 : Ref sig .tc := ⟨.hbm, 535, rfl⟩
abbrev main_call19_v12 : Ref sig .tc := ⟨.hbm, 536, rfl⟩
abbrev main_call19_v13 : Ref sig .tc := ⟨.hbm, 537, rfl⟩
abbrev main_call19_v14 : Ref sig .tc := ⟨.hbm, 538, rfl⟩
abbrev main_call19_cst : Ref sig .tc := ⟨.hbm, 539, rfl⟩
abbrev main_call19_v15 : Ref sig .tc := ⟨.hbm, 540, rfl⟩
abbrev main_v99 : Ref sig .tc := ⟨.hbm, 541, rfl⟩
abbrev main_v100 : Ref sig .tc := ⟨.hbm, 542, rfl⟩
abbrev main_v101 : Ref sig .tc := ⟨.hbm, 543, rfl⟩
abbrev main_v102 : Ref sig .tc := ⟨.hbm, 544, rfl⟩
abbrev main_v103 : Ref sig .tc := ⟨.hbm, 545, rfl⟩
abbrev main_call20_c : Ref sig .tc := ⟨.hbm, 546, rfl⟩
abbrev main_call20_v0 : Ref sig .tc := ⟨.hbm, 547, rfl⟩
abbrev main_call20_v1 : Ref sig .tc := ⟨.hbm, 548, rfl⟩
abbrev main_call20_c_0 : Ref sig .tc := ⟨.hbm, 549, rfl⟩
abbrev main_call20_v2 : Ref sig .tc := ⟨.hbm, 550, rfl⟩
abbrev main_call20_v3 : Ref sig .tc := ⟨.hbm, 551, rfl⟩
abbrev main_call20_v4 : Ref sig .tc := ⟨.hbm, 552, rfl⟩
abbrev main_call20_v5 : Ref sig .tc := ⟨.hbm, 553, rfl⟩
abbrev main_call20_c_1 : Ref sig .tc := ⟨.hbm, 554, rfl⟩
abbrev main_call20_c_2 : Ref sig .tc := ⟨.hbm, 555, rfl⟩
abbrev main_call20_v6 : Ref sig .tc := ⟨.hbm, 556, rfl⟩
abbrev main_call20_v7 : Ref sig .tc := ⟨.hbm, 557, rfl⟩
abbrev main_call20_v8 : Ref sig .tc := ⟨.hbm, 558, rfl⟩
abbrev main_call20_v9 : Ref sig .tc := ⟨.hbm, 559, rfl⟩
abbrev main_call20_v10 : Ref sig .tc := ⟨.hbm, 560, rfl⟩
abbrev main_call20_v11 : Ref sig .tc := ⟨.hbm, 561, rfl⟩
abbrev main_call20_c_3 : Ref sig .tc := ⟨.hbm, 562, rfl⟩
abbrev main_call20_v12 : Ref sig .tc := ⟨.hbm, 563, rfl⟩
abbrev main_call20_v13 : Ref sig .tc := ⟨.hbm, 564, rfl⟩
abbrev main_call20_v14 : Ref sig .tc := ⟨.hbm, 565, rfl⟩
abbrev main_call20_cst : Ref sig .tc := ⟨.hbm, 566, rfl⟩
abbrev main_call20_v15 : Ref sig .tc := ⟨.hbm, 567, rfl⟩
abbrev main_v104 : Ref sig .tc := ⟨.hbm, 568, rfl⟩
abbrev main_v105 : Ref sig .tc := ⟨.hbm, 569, rfl⟩
abbrev main_v106 : Ref sig .tc := ⟨.hbm, 570, rfl⟩
abbrev main_v107 : Ref sig .tc := ⟨.hbm, 571, rfl⟩
abbrev main_v108 : Ref sig .tc := ⟨.hbm, 572, rfl⟩
abbrev main_call21_c : Ref sig .tc := ⟨.hbm, 573, rfl⟩
abbrev main_call21_v0 : Ref sig .tc := ⟨.hbm, 574, rfl⟩
abbrev main_call21_v1 : Ref sig .tc := ⟨.hbm, 575, rfl⟩
abbrev main_call21_c_0 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_c_1 : Ref sig .tc := ⟨.hbm, 581, rfl⟩
abbrev main_call21_c_2 : Ref sig .tc := ⟨.hbm, 582, rfl⟩
abbrev main_call21_v6 : Ref sig .tc := ⟨.hbm, 583, rfl⟩
abbrev main_call21_v7 : Ref sig .tc := ⟨.hbm, 584, rfl⟩
abbrev main_call21_v8 : Ref sig .tc := ⟨.hbm, 585, rfl⟩
abbrev main_call21_v9 : Ref sig .tc := ⟨.hbm, 586, rfl⟩
abbrev main_call21_v10 : Ref sig .tc := ⟨.hbm, 587, rfl⟩
abbrev main_call21_v11 : Ref sig .tc := ⟨.hbm, 588, rfl⟩
abbrev main_call21_c_3 : Ref sig .tc := ⟨.hbm, 589, rfl⟩
abbrev main_call21_v12 : Ref sig .tc := ⟨.hbm, 590, rfl⟩
abbrev main_call21_v13 : Ref sig .tc := ⟨.hbm, 591, rfl⟩
abbrev main_call21_v14 : Ref sig .tc := ⟨.hbm, 592, rfl⟩
abbrev main_call21_cst : Ref sig .tc := ⟨.hbm, 593, rfl⟩
abbrev main_call21_v15 : Ref sig .tc := ⟨.hbm, 594, rfl⟩
abbrev main_v109 : Ref sig .tc := ⟨.hbm, 595, rfl⟩
abbrev main_v110 : Ref sig .tc := ⟨.hbm, 596, rfl⟩
abbrev main_v111 : Ref sig .tc := ⟨.hbm, 597, rfl⟩
abbrev main_v112 : Ref sig .tc := ⟨.hbm, 598, rfl⟩
abbrev main_v113 : Ref sig .tc := ⟨.hbm, 599, rfl⟩
abbrev main_call22_c : Ref sig .tc := ⟨.hbm, 600, rfl⟩
abbrev main_call22_v0 : Ref sig .tc := ⟨.hbm, 601, rfl⟩
abbrev main_call22_v1 : Ref sig .tc := ⟨.hbm, 602, rfl⟩
abbrev main_call22_c_0 : Ref sig .tc := ⟨.hbm, 603, rfl⟩
abbrev main_call22_v2 : Ref sig .tc := ⟨.hbm, 604, rfl⟩
abbrev main_call22_v3 : Ref sig .tc := ⟨.hbm, 605, rfl⟩
abbrev main_call22_v4 : Ref sig .tc := ⟨.hbm, 606, rfl⟩
abbrev main_call22_v5 : Ref sig .tc := ⟨.hbm, 607, rfl⟩
abbrev main_call22_c_1 : Ref sig .tc := ⟨.hbm, 608, rfl⟩
abbrev main_call22_c_2 : Ref sig .tc := ⟨.hbm, 609, rfl⟩
abbrev main_call22_v6 : Ref sig .tc := ⟨.hbm, 610, rfl⟩
abbrev main_call22_v7 : Ref sig .tc := ⟨.hbm, 611, rfl⟩
abbrev main_call22_v8 : Ref sig .tc := ⟨.hbm, 612, rfl⟩
abbrev main_call22_v9 : Ref sig .tc := ⟨.hbm, 613, rfl⟩
abbrev main_call22_v10 : Ref sig .tc := ⟨.hbm, 614, rfl⟩
abbrev main_call22_v11 : Ref sig .tc := ⟨.hbm, 615, rfl⟩
abbrev main_call22_c_3 : Ref sig .tc := ⟨.hbm, 616, rfl⟩
abbrev main_call22_v12 : Ref sig .tc := ⟨.hbm, 617, rfl⟩
abbrev main_call22_v13 : Ref sig .tc := ⟨.hbm, 618, rfl⟩
abbrev main_call22_v14 : Ref sig .tc := ⟨.hbm, 619, rfl⟩
abbrev main_call22_cst : Ref sig .tc := ⟨.hbm, 620, rfl⟩
abbrev main_call22_v15 : Ref sig .tc := ⟨.hbm, 621, rfl⟩
abbrev main_v114 : Ref sig .tc := ⟨.hbm, 622, rfl⟩
abbrev main_v115 : Ref sig .tc := ⟨.hbm, 623, rfl⟩
abbrev main_v116 : Ref sig .tc := ⟨.hbm, 624, rfl⟩
abbrev main_v117 : Ref sig .tc := ⟨.hbm, 625, rfl⟩
abbrev main_v118 : Ref sig .tc := ⟨.hbm, 626, rfl⟩
abbrev main_call23_c : Ref sig .tc := ⟨.hbm, 627, rfl⟩
abbrev main_call23_v0 : Ref sig .tc := ⟨.hbm, 628, rfl⟩
abbrev main_call23_v1 : Ref sig .tc := ⟨.hbm, 629, rfl⟩
abbrev main_call23_c_0 : Ref sig .tc := ⟨.hbm, 630, rfl⟩
abbrev main_call23_v2 : Ref sig .tc := ⟨.hbm, 631, rfl⟩
abbrev main_call23_v3 : Ref sig .tc := ⟨.hbm, 632, rfl⟩
abbrev main_call23_v4 : Ref sig .tc := ⟨.hbm, 633, rfl⟩
abbrev main_call23_v5 : Ref sig .tc := ⟨.hbm, 634, rfl⟩
abbrev main_call23_c_1 : Ref sig .tc := ⟨.hbm, 635, rfl⟩
abbrev main_call23_c_2 : Ref sig .tc := ⟨.hbm, 636, rfl⟩
abbrev main_call23_v6 : Ref sig .tc := ⟨.hbm, 637, rfl⟩
abbrev main_call23_v7 : Ref sig .tc := ⟨.hbm, 638, rfl⟩
abbrev main_call23_v8 : Ref sig .tc := ⟨.hbm, 639, rfl⟩
abbrev main_call23_v9 : Ref sig .tc := ⟨.hbm, 640, rfl⟩
abbrev main_call23_v10 : Ref sig .tc := ⟨.hbm, 641, rfl⟩
abbrev main_call23_v11 : Ref sig .tc := ⟨.hbm, 642, rfl⟩
abbrev main_call23_c_3 : Ref sig .tc := ⟨.hbm, 643, rfl⟩
abbrev main_call23_v12 : Ref sig .tc := ⟨.hbm, 644, rfl⟩
abbrev main_call23_v13 : Ref sig .tc := ⟨.hbm, 645, rfl⟩
abbrev main_call23_v14 : Ref sig .tc := ⟨.hbm, 646, rfl⟩
abbrev main_call23_cst : Ref sig .tc := ⟨.hbm, 647, rfl⟩
abbrev main_call23_v15 : Ref sig .tc := ⟨.hbm, 648, rfl⟩
abbrev main_v119 : Ref sig .tc := ⟨.hbm, 649, rfl⟩
abbrev main_v120 : Ref sig .tc := ⟨.hbm, 650, rfl⟩
abbrev main_v121 : Ref sig .tc := ⟨.hbm, 651, rfl⟩
abbrev main_v122 : Ref sig .tc := ⟨.hbm, 652, rfl⟩
abbrev main_v123 : Ref sig .tc := ⟨.hbm, 653, rfl⟩
abbrev main_call24_c : Ref sig .tc := ⟨.hbm, 654, rfl⟩
abbrev main_call24_v0 : Ref sig .tc := ⟨.hbm, 655, rfl⟩
abbrev main_call24_v1 : Ref sig .tc := ⟨.hbm, 656, rfl⟩
abbrev main_call24_c_0 : Ref sig .tc := ⟨.hbm, 657, rfl⟩
abbrev main_call24_v2 : Ref sig .tc := ⟨.hbm, 658, rfl⟩
abbrev main_call24_v3 : Ref sig .tc := ⟨.hbm, 659, rfl⟩
abbrev main_call24_v4 : Ref sig .tc := ⟨.hbm, 660, rfl⟩
abbrev main_call24_v5 : Ref sig .tc := ⟨.hbm, 661, rfl⟩
abbrev main_call24_c_1 : Ref sig .tc := ⟨.hbm, 662, rfl⟩
abbrev main_call24_c_2 : Ref sig .tc := ⟨.hbm, 663, rfl⟩
abbrev main_call24_v6 : Ref sig .tc := ⟨.hbm, 664, rfl⟩
abbrev main_call24_v7 : Ref sig .tc := ⟨.hbm, 665, rfl⟩
abbrev main_call24_v8 : Ref sig .tc := ⟨.hbm, 666, rfl⟩
abbrev main_call24_v9 : Ref sig .tc := ⟨.hbm, 667, rfl⟩
abbrev main_call24_v10 : Ref sig .tc := ⟨.hbm, 668, rfl⟩
abbrev main_call24_v11 : Ref sig .tc := ⟨.hbm, 669, rfl⟩
abbrev main_call24_c_3 : Ref sig .tc := ⟨.hbm, 670, rfl⟩
abbrev main_call24_v12 : Ref sig .tc := ⟨.hbm, 671, rfl⟩
abbrev main_call24_v13 : Ref sig .tc := ⟨.hbm, 672, rfl⟩
abbrev main_call24_v14 : Ref sig .tc := ⟨.hbm, 673, rfl⟩
abbrev main_call24_cst : Ref sig .tc := ⟨.hbm, 674, rfl⟩
abbrev main_call24_v15 : Ref sig .tc := ⟨.hbm, 675, rfl⟩
abbrev main_v124 : Ref sig .tc := ⟨.hbm, 676, rfl⟩
abbrev main_v125 : Ref sig .tc := ⟨.hbm, 677, rfl⟩
abbrev main_v126 : Ref sig .tc := ⟨.hbm, 678, rfl⟩
abbrev main_v127 : Ref sig .tc := ⟨.hbm, 679, rfl⟩
abbrev main_v128 : Ref sig .tc := ⟨.hbm, 680, rfl⟩
abbrev main_call25_c : Ref sig .tc := ⟨.hbm, 681, rfl⟩
abbrev main_call25_v0 : Ref sig .tc := ⟨.hbm, 682, rfl⟩
abbrev main_call25_v1 : Ref sig .tc := ⟨.hbm, 683, rfl⟩
abbrev main_call25_c_0 : Ref sig .tc := ⟨.hbm, 684, rfl⟩
abbrev main_call25_v2 : Ref sig .tc := ⟨.hbm, 685, rfl⟩
abbrev main_call25_v3 : Ref sig .tc := ⟨.hbm, 686, rfl⟩
abbrev main_call25_v4 : Ref sig .tc := ⟨.hbm, 687, rfl⟩
abbrev main_call25_v5 : Ref sig .tc := ⟨.hbm, 688, rfl⟩
abbrev main_call25_c_1 : Ref sig .tc := ⟨.hbm, 689, rfl⟩
abbrev main_call25_c_2 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_v9 : Ref sig .tc := ⟨.hbm, 694, rfl⟩
abbrev main_call25_v10 : Ref sig .tc := ⟨.hbm, 695, rfl⟩
abbrev main_call25_v11 : Ref sig .tc := ⟨.hbm, 696, rfl⟩
abbrev main_call25_c_3 : Ref sig .tc := ⟨.hbm, 697, rfl⟩
abbrev main_call25_v12 : Ref sig .tc := ⟨.hbm, 698, rfl⟩
abbrev main_call25_v13 : Ref sig .tc := ⟨.hbm, 699, rfl⟩
abbrev main_call25_v14 : Ref sig .tc := ⟨.hbm, 700, rfl⟩
abbrev main_call25_cst : Ref sig .tc := ⟨.hbm, 701, rfl⟩
abbrev main_call25_v15 : Ref sig .tc := ⟨.hbm, 702, rfl⟩
abbrev main_v129 : Ref sig .tc := ⟨.hbm, 703, rfl⟩
abbrev main_v130 : Ref sig .tc := ⟨.hbm, 704, rfl⟩
abbrev main_v131 : Ref sig .tc := ⟨.hbm, 705, rfl⟩
abbrev main_v132 : Ref sig .tc := ⟨.hbm, 706, rfl⟩

abbrev nD : Nat := 1
abbrev τ : Topo := Topo.v7x

variable {F : FTy → Type} [FloatOps F]

class Facts₀ : Prop where
  slices_S26x1000x128_S1x1000x128_0_0_0 : S26x1000x128.Slices ![0, 0, 0] S1x1000x128
  shapeCasts_S1x1000x128_S1000x128 : S1x1000x128.ShapeCasts S1000x128
  slices_S16384x26_S16384x1_0_0 : S16384x26.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  slices_S26x1000x128_S1x1000x128_1_0_0 : S26x1000x128.Slices ![1, 0, 0] S1x1000x128
  slices_S16384x26_S16384x1_0_1 : S16384x26.Slices ![0, 1] S16384x1
  slices_S26x1000x128_S1x1000x128_2_0_0 : S26x1000x128.Slices ![2, 0, 0] S1x1000x128
  slices_S16384x26_S16384x1_0_2 : S16384x26.Slices ![0, 2] S16384x1
  slices_S26x1000x128_S1x1000x128_3_0_0 : S26x1000x128.Slices ![3, 0, 0] S1x1000x128
  slices_S16384x26_S16384x1_0_3 : S16384x26.Slices ![0, 3] S16384x1
  slices_S26x1000x128_S1x1000x128_4_0_0 : S26x1000x128.Slices ![4, 0, 0] S1x1000x128
  slices_S16384x26_S16384x1_0_4 : S16384x26.Slices ![0, 4] S16384x1
  slices_S26x1000x128_S1x1000x128_5_0_0 : S26x1000x128.Slices ![5, 0, 0] S1x1000x128
  slices_S16384x26_S16384x1_0_5 : S16384x26.Slices ![0, 5] S16384x1
  slices_S26x1000x128_S1x1000x128_6_0_0 : S26x1000x128.Slices ![6, 0, 0] S1x1000x128
  slices_S16384x26_S16384x1_0_6 : S16384x26.Slices ![0, 6] S16384x1
  slices_S26x1000x128_S1x1000x128_7_0_0 : S26x1000x128.Slices ![7, 0, 0] S1x1000x128
  slices_S16384x26_S16384x1_0_7 : S16384x26.Slices ![0, 7] S16384x1
  slices_S26x1000x128_S1x1000x128_8_0_0 : S26x1000x128.Slices ![8, 0, 0] S1x1000x128
  slices_S16384x26_S16384x1_0_8 : S16384x26.Slices ![0, 8] S16384x1
  slices_S26x1000x128_S1x1000x128_9_0_0 : S26x1000x128.Slices ![9, 0, 0] S1x1000x128
  slices_S16384x26_S16384x1_0_9 : S16384x26.Slices ![0, 9] S16384x1
  slices_S26x1000x128_S1x1000x128_10_0_0 : S26x1000x128.Slices ![10, 0, 0] S1x1000x128
  slices_S16384x26_S16384x1_0_10 : S16384x26.Slices ![0, 10] S16384x1
  slices_S26x1000x128_S1x1000x128_11_0_0 : S26x1000x128.Slices ![11, 0, 0] S1x1000x128
  slices_S16384x26_S16384x1_0_11 : S16384x26.Slices ![0, 11] S16384x1
  slices_S26x1000x128_S1x1000x128_12_0_0 : S26x1000x128.Slices ![12, 0, 0] S1x1000x128
  slices_S16384x26_S16384x1_0_12 : S16384x26.Slices ![0, 12] S16384x1
  slices_S26x1000x128_S1x1000x128_13_0_0 : S26x1000x128.Slices ![13, 0, 0] S1x1000x128
  slices_S16384x26_S16384x1_0_13 : S16384x26.Slices ![0, 13] S16384x1
  slices_S26x1000x128_S1x1000x128_14_0_0 : S26x1000x128.Slices ![14, 0, 0] S1x1000x128
  slices_S16384x26_S16384x1_0_14 : S16384x26.Slices ![0, 14] S16384x1
  slices_S26x1000x128_S1x1000x128_15_0_0 : S26x1000x128.Slices ![15, 0, 0] S1x1000x128
  slices_S16384x26_S16384x1_0_15 : S16384x26.Slices ![0, 15] S16384x1
  slices_S26x1000x128_S1x1000x128_16_0_0 : S26x1000x128.Slices ![16, 0, 0] S1x1000x128
  slices_S16384x26_S16384x1_0_16 : S16384x26.Slices ![0, 16] S16384x1
  slices_S26x1000x128_S1x1000x128_17_0_0 : S26x1000x128.Slices ![17, 0, 0] S1x1000x128
  slices_S16384x26_S16384x1_0_17 : S16384x26.Slices ![0, 17] S16384x1
  slices_S26x1000x128_S1x1000x128_18_0_0 : S26x1000x128.Slices ![18, 0, 0] S1x1000x128
  slices_S16384x26_S16384x1_0_18 : S16384x26.Slices ![0, 18] S16384x1
  slices_S26x1000x128_S1x1000x128_19_0_0 : S26x1000x128.Slices ![19, 0, 0] S1x1000x128
  slices_S16384x26_S16384x1_0_19 : S16384x26.Slices ![0, 19] S16384x1
  slices_S26x1000x128_S1x1000x128_20_0_0 : S26x1000x128.Slices ![20, 0, 0] S1x1000x128
  slices_S16384x26_S16384x1_0_20 : S16384x26.Slices ![0, 20] S16384x1
  slices_S26x1000x128_S1x1000x128_21_0_0 : S26x1000x128.Slices ![21, 0, 0] S1x1000x128
  slices_S16384x26_S16384x1_0_21 : S16384x26.Slices ![0, 21] S16384x1
  slices_S26x1000x128_S1x1000x128_22_0_0 : S26x1000x128.Slices ![22, 0, 0] S1x1000x128
  slices_S16384x26_S16384x1_0_22 : S16384x26.Slices ![0, 22] S16384x1
  slices_S26x1000x128_S1x1000x128_23_0_0 : S26x1000x128.Slices ![23, 0, 0] S1x1000x128
  slices_S16384x26_S16384x1_0_23 : S16384x26.Slices ![0, 23] S16384x1
  slices_S26x1000x128_S1x1000x128_24_0_0 : S26x1000x128.Slices ![24, 0, 0] S1x1000x128
  slices_S16384x26_S16384x1_0_24 : S16384x26.Slices ![0, 24] S16384x1
  slices_S26x1000x128_S1x1000x128_25_0_0 : S26x1000x128.Slices ![25, 0, 0] S1x1000x128
  slices_S16384x26_S16384x1_0_25 : S16384x26.Slices ![0, 25] S16384x1
  concatenates_S16384x128_S16384x128_S16384x128_S16384x128_S16384x128_S16384x128_S16384x128_S16384x128_S16384x128_S16384x128_S16384x128_S16384x128_S16384x128_S16384x128_S16384x128_S16384x128_S16384x2048_d1 : Shape.Concatenates [S16384x128, S16384x128, S16384x128, S16384x128, S16384x128, S16384x128, S16384x128, S16384x128, S16384x128, S16384x128, S16384x128, S16384x128, S16384x128, S16384x128, S16384x128, S16384x128] S16384x2048 1
  concatenates_S16384x128_S16384x128_S16384x128_S16384x128_S16384x128_S16384x128_S16384x128_S16384x128_S16384x128_S16384x128_S16384x1280_d1 : Shape.Concatenates [S16384x128, S16384x128, S16384x128, S16384x128, S16384x128, S16384x128, S16384x128, S16384x128, S16384x128, S16384x128] S16384x1280 1
  concatenates_S16384x2048_S16384x1280_S16384x3328_d1 : Shape.Concatenates [S16384x2048, S16384x1280] S16384x3328 1
  gather_S1000x128_S16384x1_S16384x128_1_0_n_n_0_1_1128_wf : GatherDims.WF S1000x128 S16384x1 S16384x128 [1] [0] [] [0] [] 1 ![1, 128]

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf

class Facts : Prop extends Facts₀ where

variable [Facts]
-- ==== Proof.Setup.lean ====
/-
  The kernel program as the launch theorem of the SparseCore library reads it, and the ghost-state algebra of its proof.

  The program runs one vector-subcore kernel on both SparseCores of the device, sixteen tiles each.  Three protocols meet in it:
  the launch's four handshakes (start, go, task done, done), the subcore barrier that the sixteen tiles of one SparseCore
  meet at after thirteen of them have staged one table each into the SparseCore's shared memory, and each tile's own copies
  on its own semaphores.  The algebra is a product with one factor for each: rounds for the handshakes, rounds for the
  barrier cells, and the counters of the copies a tile issues and itself waits for.
-/
import proofs.«206644_g35837207118489_cont_8to1_b_589_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206644_g35837207118489_cont_8to1_b_589_28_alg».proof.Proof.Gen.KernelIdeal
import proofs.«206644_g35837207118489_cont_8to1_b_589_28_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: rounds for the handshakes, rounds for the barrier cells, counters for a tile's own copies -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Threads and arrays -/

/-- The SparseCore and the tile of a grid point. -/
abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The grid point of a SparseCore number and a tile number. -/
def coordsV (c : Fin (grid0.bound 0)) (s : Fin (grid0.bound 1)) : grid0.Coords :=
  fun | 0 => c | 1 => s | ⟨_ + 2, h⟩ => absurd h (Nat.not_lt.2 (Nat.le_add_left _ _))

/-- The flattened index columns, the flattened tables and the result, as the TensorCore's locations of device `d`. -/
abbrev ixLoc (d : Dev nD) : Loc nD τ sig := (SparseCore.T d).loc main_v1
abbrev tbLoc (d : Dev nD) : Loc nD τ sig := (SparseCore.T d).loc main_v2
abbrev outLoc (d : Dev nD) : Loc nD τ sig := (SparseCore.T d).loc main_v3
/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

end Cert.Proof.KI

end
-- ==== Proof.Geom.lean ====
/-
  The geometry of the result, as definitions only: the rectangle of the result array that one tile writes, and the array
  the thirty-two tiles leave behind, as a function of the flattened index columns and the flattened tables.

  The result has 16384 rows (batch entries) and 3328 columns (26 fields of 128 lanes).  Tile `(c, s)` writes rows
  `[1024 s, 1024 s + 1024)` of columns `[1664 c, 1664 c + 1664)`: a thousand and twenty-four batch entries of thirteen fields.
  Entry `(b, q)` of the result is lane `q % 128` of the row of field `f = q / 128`'s table that the index word of batch entry
  `b` in column `f` names; the flattened tables hold field `f`'s rows at `1000 f …`, the flattened columns hold column `f` at
  `16384 f …`.  The word is wrapped into the thousand rows so that the function is total.
-/
import proofs.«206644_g35837207118489_cont_8to1_b_589_28_alg».proof.Proof.Setup
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The rectangle of the result that tile `L = (c, s)` writes. -/
abbrev outRect (L : grid0.Coords) : Rect S16384x3328 :=
  Rect.unit (s := S16384x3328) ![1024 * (L 1).val, 1664 * (L 0).val] ![1024, 1664]
    (Rect.inb₂ (d := ![16384, 3328]) (by have h : (L 1).val < 16 := (L 1).isLt; show 1024 * (L 1).val + 1024 ≤ 16384; omega)
      (by have h : (L 0).val < 2 := (L 0).isLt; show 1664 * (L 0).val + 1664 ≤ 3328; omega))

/-- Its elements, as the slice of the whole result array a tile addresses. -/
abbrev outSet (L : grid0.Coords) : Finset S16384x3328.Idx :=
  ((Memref.whole main_v3_scv : Memref sig .scVector .hbm S16384x3328 .f32).view.slice (outRect L)).set

theorem outSet_eq (L : grid0.Coords) : outSet L = (outRect L).set := by
  show ((View.whole (main_v3_scv : Ref sig .scVector)).slice (outRect L)).set = _
  rw [View.set_slice]; exact Finset.map_refl

end Cert.Proof.KI

namespace Cert.Lookup

open Cert.KernelIdeal Cert.Proof.KI
open Idealize.ShloMosaic Idealize.ShloMosaic.ValueIdx

variable {F : FTy → Type}

/-- What the tiles leave in the result: entry `(b, q)` is lane `q % 128` of row `1000 (q / 128) + w % 1000` of the flattened
    tables, `w` the word at `16384 (q / 128) + b` of the flattened index columns. -/
def gathered {d : Dev nD} (X : Buf (Elt F) (ixLoc d)) (Tb : Buf (Elt F) (tbLoc d)) : Buf (Elt F) (outLoc d) :=
  fun (j : S16384x3328.Idx) =>
    Tb (ix2 (n0 := 26000) (n1 := 128)
      ⟨(j 1).val / 128 * 1000 + (X (ix1 (n := 425984) ⟨(j 1).val / 128 * 16384 + (j 0).val, by
          have h0 := idx2_lt0 j; have h1 := idx2_lt1 j; omega⟩)).toNat % 1000, by
        have h1 := idx2_lt1 j
        have := Nat.mod_lt (X (ix1 (n := 425984) ⟨(j 1).val / 128 * 16384 + (j 0).val, by
          have h0 := idx2_lt0 j; have h1 := idx2_lt1 j; omega⟩)).toNat (show 0 < 1000 by decide)
        omega⟩
      ⟨(j 1).val % 128, Nat.mod_lt _ (by decide)⟩)

end Cert.Lookup

end
-- ==== Proof.Pay.lean ====
/-
  What the launch's handshakes carry for this kernel, the subcore barrier's cells with their schedule, and the obligation of
  one tile's body as a proposition.

  Every tile reads the index columns and the tables whole, so each of the thirty-two tiles is handed a read share of both:
  the full share halved five times has thirty-two leaves, and tile `(c, s)` gets leaf `16 c + s`.  The result array is cut
  into the thirty-two rectangles the tiles write.  A SparseCore's shared scratch holds thirteen tables of a thousand rows;
  tile `s < 13` is handed rows `[1000 s, 1000 s + 1000)` to stage table `13 c + s` into.  At the subcore barrier a staging
  tile cuts its staged rows into sixteen shares and hands one to every tile of its SparseCore: the duty of tile `s` in tile
  `j`'s round carries rows `[1000 s, 1000 s + 1000)` at the sixteenth share `j`, at the contents staged.  After the barrier
  tile `j` holds all thirteen tables at share `j`, which is the whole scratch at that share; it gives that back, and the
  sixteen shares rejoin to the scratch whole when the tasks have ended.
-/
import proofs.«206644_g35837207118489_cont_8to1_b_589_28_alg».proof.Proof.Setup
import proofs.«206644_g35837207118489_cont_8to1_b_589_28_alg».proof.Proof.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

theorem core_lt (c : Fin (grid0.bound 0)) : c.val < 2 ^ 1 := c.isLt
theorem sub_lt (s : Fin (grid0.bound 1)) : s.val < 2 ^ 4 := s.isLt

/-- SparseCore `c`'s read share of the index columns and of the tables: a half. -/
def halfq (c : Fin (grid0.bound 0)) : PosShare TreeShare := leaf 1 fullShare ⟨c.val, core_lt c⟩

/-- Tile `L = (c, s)`'s read share of the index columns and of the tables: leaf `s` of the sixteen of SparseCore `c`'s
    half, one of thirty-two in all. -/
def shareOf (L : grid0.Coords) : PosShare TreeShare := leaf 4 (halfq (L 0)) ⟨(L 1).val, sub_lt (L 1)⟩

/-- Tile `s`'s share of its SparseCore's shared scratch after the barrier: one of sixteen. -/
abbrev shq (s : Fin 16) : PosShare TreeShare := leaf 4 fullShare s

/-! ## The shared scratch: thirteen tables of a thousand rows -/

/-- Rows `[1000 s, 1000 s + 1000)` of the shared scratch: where table `s` of the SparseCore's thirteen is staged. -/
abbrev tabRows (s : Fin 13) : Rect S13000x128 :=
  Rect.unit (s := S13000x128) ![1000 * s.val, 0] S1000x128.size
    (Rect.inb₂ (d := ![13000, 128]) (by have := s.isLt; show 1000 * s.val + 1000 ≤ 13000; omega) (by show 0 + 128 ≤ 128; omega))

/-- Their elements, as the slice of the whole scratch a tile addresses. -/
abbrev tabSet (s : Fin 13) : Finset S13000x128.Idx :=
  ((Memref.whole cc0_scratch0 : Memref sig .scVector .shared S13000x128 .f32).view.slice (tabRows s)).set

theorem tabSet_eq (s : Fin 13) : tabSet s = (tabRows s).set := by
  show ((View.whole (cc0_scratch0 : Ref sig .scVector)).slice (tabRows s)).set = _
  rw [View.set_slice]; exact Finset.map_refl

/-- What SparseCore `c`'s shared scratch holds once staged: rows `[13000 c, 13000 c + 13000)` of the flattened tables. -/
def spVal {d : Dev nD} (Tb : Buf (Elt F) (tbLoc d)) (c : Fin τ.nSC) : Buf (Elt F) (shLoc d c) :=
  fun (j : S13000x128.Idx) =>
    Tb (ix2 (n0 := 26000) (n1 := 128)
      ⟨13000 * c.val + (j 0).val, by have hc : c.val < 2 := c.isLt; have h0 := idx2_lt0 j; omega⟩ ⟨(j 1).val, idx2_lt1 j⟩)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

-- The flattened tables, per device: what the staged scratch is measured against.
variable (TbA : (d : Dev nD) → Buf (Elt F) (tbLoc d))

/-- What the duty of tile number `n` in tile `j`'s round hands over: a staging tile's (`n < 13`) thousand rows of the shared
    scratch, at the sixteenth share `j` and at the staged contents; the others', nothing. -/
def bPay (g : GSem nD τ sig) (n : ℕ) : sProp 𝕄 :=
  match g with
  | ((d, .scVector c j), _) => if h : n < 13 then shLoc d c ↦[tabSet ⟨n, h⟩]{shq j} (spVal (TbA d) c) else iprop(emp)
  | _ => iprop(emp)

/-- The barrier cells' schedule: one round on each, of one unit duty per tile of the SparseCore (named by its number),
    the staging tiles' duties carrying their rows. -/
def bRd : Rounds.Schedule (GSem nD τ sig) ℕ 𝕄 where
  duties g r := if isBar g ∧ r = 0 then (Finset.univ : Finset (Fin τ.nSub)).image Fin.val else ∅
  amount _ _ _ := 1
  payload g _ n := bPay TbA g n
  amount_pos _ _ _ _ := Nat.one_pos

instance bRd_payload_storable (g : GSem nD τ sig) (r n : ℕ) : BI.Storable (upEmb : UEmb _ 𝕄) ((bRd (F := F) TbA).payload g r n) := by
  show BI.Storable upEmb (bPay TbA g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) :
    (bRd (F := F) TbA).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) TbA).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) TbA).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

omit [FloatOps F] in
/-- The payload of a staging tile's duty, and of the others'. -/
theorem bRd_payload_lt (d : Dev nD) (c : Fin τ.nSC) (j : Fin τ.nSub) (r n : ℕ) (h : n < 13) :
    (bRd (F := F) TbA).payload (bcell d c j) r n = (shLoc d c ↦[tabSet ⟨n, h⟩]{shq j} (spVal (TbA d) c) : sProp 𝕄) := by
  show bPay TbA (bcell d c j) n = _
  unfold bPay; exact dif_pos h
omit [FloatOps F] in
theorem bRd_payload_ge (d : Dev nD) (c : Fin τ.nSC) (j : Fin τ.nSub) (r n : ℕ) (h : ¬ n < 13) :
    (bRd (F := F) TbA).payload (bcell d c j) r n = (iprop(emp) : sProp 𝕄) := by
  show bPay TbA (bcell d c j) n = _
  unfold bPay; exact dif_neg h

/-- What the launch has tile `(c, i)` owe for the barrier: a unit on every tile's cell of its SparseCore, at the call's
    index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing), its
    duty token in every tile's round 0, that each cell has reached round 0, its own position at the origin of round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) TbA) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What a tile is handed and what it hands back -/

/-- Tile `L` at its start: its read shares of the index columns and the tables, its rectangle of the result at the
    launch contents, and, a staging tile, its thousand rows of the shared scratch at some contents. -/
def goRes {d : Dev nD} (X : Buf (Elt F) (ixLoc d)) (Tb : Buf (Elt F) (tbLoc d)) (f0 : Buf (Elt F) (outLoc d)) (L : grid0.Coords) : sProp 𝕄 :=
  iprop((ixLoc d ↦{shareOf L} X) ∗ (tbLoc d ↦{shareOf L} Tb) ∗ (outLoc d ↦[outSet L]{fullShare} f0)
    ∗ (if h : (L 1).val < 13 then iprop(∃ f, shLoc d (cV L) ↦[tabSet ⟨(L 1).val, h⟩]{fullShare} f) else iprop(emp)))

/-- Tile `L` at its end: the read shares back, its rectangle of the result at the lookup, and the whole shared scratch
    at its sixteenth share, at the staged contents. -/
def tdRes {d : Dev nD} (X : Buf (Elt F) (ixLoc d)) (Tb : Buf (Elt F) (tbLoc d)) (L : grid0.Coords) : sProp 𝕄 :=
  iprop((ixLoc d ↦{shareOf L} X) ∗ (tbLoc d ↦{shareOf L} Tb) ∗ (outLoc d ↦[outSet L]{fullShare} (Cert.Lookup.gathered X Tb))
    ∗ (shLoc d (cV L) ↦{shq (jV L)} (spVal Tb (cV L))))

/-! ## What the handshakes carry -/

-- The flattened index columns per device, and the result's launch contents.
variable (XA : (d : Dev nD) → Buf (Elt F) (ixLoc d)) (fA : (d : Dev nD) → Buf (Elt F) (outLoc d))

/-- The part of the result that SparseCore `c`'s sixteen tiles write: their rectangles together (columns
    `[1664 c, 1664 c + 1664)`). -/
def halfSet (c : Fin (grid0.bound 0)) : Finset S16384x3328.Idx :=
  (Finset.univ : Finset (Fin (grid0.bound 1))).biUnion fun s => outSet (coordsV c s)

theorem nSub_eq : τ.nSub = 16 := rfl
theorem nSC_eq : τ.nSC = 2 := rfl

/-- The one call: each SparseCore takes a half share of the index columns and of the tables and its column half of the
    result; each task its thirty-second shares, its rectangle and, a staging task, its rows of the shared scratch; the
    tasks bring back the rectangle at the lookup and the scratch's sixteenth shares; each task's proof consumes its
    barrier kit; each tile owes its arrivals. -/
def P : (K (F := F)).Pay (nD := nD) (Val := Elt F) (Name := ℕ) (U := UU) where
  st := fun q d c => match q with
    | 0 => iprop((ixLoc d ↦{halfq c} XA d) ∗ (tbLoc d ↦{halfq c} TbA d)
        ∗ (outLoc d ↦[halfSet c]{fullShare} fA d))
  dn := fun q d c => match q with
    | 0 => iprop((ixLoc d ↦{halfq c} XA d) ∗ (tbLoc d ↦{halfq c} TbA d)
        ∗ (outLoc d ↦[halfSet c]{fullShare} (Cert.Lookup.gathered (XA d) (TbA d))))
  go := fun q d c i => match q with
    | 0 => goRes (XA d) (TbA d) (fA d) (coordsV c i)
  td := fun q d c i => match q with
    | 0 => tdRes (XA d) (TbA d) (coordsV c i)
  x := fun _ thr => match thr with
    | (d, .scVector c i) => bkit TbA d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) TbA XA fA).IsStorable where
  st q d c := match q with
    | 0 => (inferInstance : BI.Storable (upEmb : UEmb _ 𝕄) iprop((ixLoc d ↦{halfq c} XA d) ∗ (tbLoc d ↦{halfq c} TbA d)
        ∗ (outLoc d ↦[halfSet c]{fullShare} fA d)))
  dn q d c := match q with
    | 0 => (inferInstance : BI.Storable (upEmb : UEmb _ 𝕄) iprop((ixLoc d ↦{halfq c} XA d) ∗ (tbLoc d ↦{halfq c} TbA d)
        ∗ (outLoc d ↦[halfSet c]{fullShare} (Cert.Lookup.gathered (XA d) (TbA d)))))
  go q d c i := match q with
    | 0 => by
      show BI.Storable upEmb (goRes (XA d) (TbA d) (fA d) (coordsV c i))
      unfold goRes; split <;> infer_instance
  td q d c i := match q with
    | 0 => by
      show BI.Storable upEmb (tdRes (XA d) (TbA d) (coordsV c i))
      unfold tdRes; infer_instance

/-! ## The tile's body, as a proposition -/

/-- The obligation of one tile's body, at a symbolic place: from the levels, its barrier kit, what it is handed, its own
    scratch and semaphores and what it owes, the body runs and ends with what it hands back, its scratch and semaphores,
    and what it owed paid but for `O`. -/
def TileBody : Prop :=
  ∀ (hF : (K (F := F)).Facts) (TbA : (d : Dev nD) → Buf (Elt F) (tbLoc d)) (d : Dev nD) (L : grid0.Coords)
    (X : Buf (Elt F) (ixLoc d)) (_hX : ∀ j, (X j).toNat < 1000) (f0 : Buf (Elt F) (outLoc d))
    (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_kernel L (Memref.whole main_v1_scv) (Memref.isWhole_whole _) (Memref.whole main_v2_scv) (Memref.isWhole_whole _)
            (Memref.whole main_v3_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0)
          fun _ => iprop(tdRes X (TbA d) L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.KI

end
-- ==== Proof.Obl.lean ====
/-
  The tile's obligation, as the launch theorem asks it, from the obligation of the tile's body.

  The launch theorem runs tile `i` of SparseCore `c` of the call's grid on the body table's entry for that thread; that
  entry is the kernel function at the grid point `(c, i)`, on the whole arrays.  The body's proposition is stated at a
  symbolic grid point, so the obligation is its instance.
-/
import proofs.«206644_g35837207118489_cont_8to1_b_589_28_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (TbA : (d : Dev nD) → Buf (Elt F) (tbLoc d)) (XA : (d : Dev nD) → Buf (Elt F) (ixLoc d)) (fA : (d : Dev nD) → Buf (Elt F) (outLoc d))

theorem defs₀_vector (c : Fin τ.nSC) (s : Fin τ.nSub) :
    defs₀ (F := F) (.scVector c s) 0 ()
      = SparseCore.onTile hcore0 hsub0 (fun c s => cc0__gather_kernel (coordsV c s)
          (Memref.whole main_v1_scv) (Memref.isWhole_whole _) (Memref.whole main_v2_scv) (Memref.isWhole_whole _)
            (Memref.whole main_v3_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0) ⟨⟩ c s := rfl

set_option maxRecDepth 16384 in
theorem tileObl (hbody : TileBody (F := F)) (hF : (K (F := F)).Facts) (hX : ∀ d j, (XA d j).toNat < 1000) :
    (K (F := F)).TileObl (D (F := F)) 𝒱 (P TbA XA fA) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody hF TbA d (coordsV ⟨_, hci.1⟩ ⟨_, hci.2⟩) (XA d) (hX d) (fA d) O W hO hOlev

end Cert.Proof.KI

end
-- ==== Proof.Split.lean ====
/-
  How a SparseCore's operands split among its sixteen tiles, and how the tiles' results rejoin.

  Shares: a points-to at a share is the points-tos at the leaves of its halving, so a SparseCore's half share of the index
  columns (and of the tables) is its sixteen tiles' leaves, and the sixteen leaves of the full share of the shared scratch
  rejoin to the scratch whole.  Rectangles: the sixteen rectangles of a SparseCore's tiles lie in disjoint row bands, and
  their union is by definition the SparseCore's part of the result; the thirteen tables' rows in the shared scratch are
  disjoint bands that cover it.
-/
import proofs.«206644_g35837207118489_cont_8to1_b_589_28_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Shares -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- A SparseCore's half share is its sixteen tiles' shares. -/
theorem shares_split {ℓ : Loc nD τ sig} (c : Fin (grid0.bound 0)) (f : Buf (Elt F) ℓ) :
    (ℓ ↦{halfq c} f : sProp 𝕄) = bigSep Finset.univ fun i : Fin ((K (F := F)).nSub 0) => ℓ ↦{shareOf (coordsV c i)} f :=
  pointsTo_leaves Finset.univ f 4 (halfq c)

/-- The full share is the two SparseCores' halves. -/
theorem halves_split {ℓ : Loc nD τ sig} (f : Buf (Elt F) ℓ) :
    (ℓ ↦{fullShare} f : sProp 𝕄) = bigSep Finset.univ fun c : Fin ((K (F := F)).nCore 0) => ℓ ↦{halfq c} f :=
  pointsTo_leaves Finset.univ f 1 fullShare

/-- The full share of a SparseCore's shared scratch is its sixteen tiles' sixteenths. -/
theorem sixteenths_join (d : Dev nD) (c : Fin (grid0.bound 0)) (f : Buf (Elt F) (shLoc d (c.castLE hcore0))) :
    (shLoc d (c.castLE hcore0) ↦{fullShare} f : sProp 𝕄)
      = bigSep Finset.univ fun i : Fin ((K (F := F)).nSub 0) => shLoc d (cV (coordsV c i)) ↦{shq (jV (coordsV c i))} f :=
  pointsTo_leaves Finset.univ f 4 fullShare

/-! ## Rectangles -/

/-- Membership in a unit-stride rectangle of a rank-2 shape, as two intervals. -/
theorem mem_unit2 {dd : Fin 2 → ℕ} (off size : Fin 2 → ℕ) (inb : ∀ a, off a + size a ≤ (⟨2, dd⟩ : Shape).size a) (j : (⟨2, dd⟩ : Shape).Idx) :
    j ∈ (Rect.unit (s := ⟨2, dd⟩) off size inb).set
      ↔ (off 0 ≤ (j 0).val ∧ (j 0).val < off 0 + size 0) ∧ (off 1 ≤ (j 1).val ∧ (j 1).val < off 1 + size 1) := by
  rw [LoadRect.mem_set]
  constructor
  · intro h
    obtain ⟨k0, hk0, e0⟩ := h 0
    obtain ⟨k1, hk1, e1⟩ := h 1
    simp only [Rect.unit, Nat.one_mul] at hk0 e0 hk1 e1
    omega
  · rintro ⟨⟨h0, h0'⟩, ⟨h1, h1'⟩⟩
    refine Fin.forall_fin_two.mpr ⟨⟨(j 0).val - off 0, ?_, ?_⟩, ⟨(j 1).val - off 1, ?_, ?_⟩⟩ <;> simp only [Rect.unit, Nat.one_mul] <;> omega

theorem mem_outSet (L : grid0.Coords) (j : S16384x3328.Idx) :
    j ∈ outSet L ↔ (1024 * (L 1).val ≤ (j 0).val ∧ (j 0).val < 1024 * (L 1).val + 1024) ∧ (1664 * (L 0).val ≤ (j 1).val ∧ (j 1).val < 1664 * (L 0).val + 1664) := by
  rw [outSet_eq]; exact mem_unit2 _ _ _ j

theorem mem_tabSet (s : Fin 13) (j : S13000x128.Idx) : j ∈ tabSet s ↔ 1000 * s.val ≤ (j 0).val ∧ (j 0).val < 1000 * s.val + 1000 := by
  rw [tabSet_eq, mem_unit2]
  have h1 := idx2_lt1 j
  show ((1000 * s.val ≤ (j 0).val ∧ (j 0).val < 1000 * s.val + 1000) ∧ (0 ≤ (j 1).val ∧ (j 1).val < 0 + 128)) ↔ _
  omega

/-- The rectangles of one SparseCore's tiles lie in disjoint row bands. -/
theorem outSets_disjoint (c : Fin (grid0.bound 0)) :
    ∀ i ∈ (Finset.univ : Finset (Fin (grid0.bound 1))), ∀ j ∈ (Finset.univ : Finset (Fin (grid0.bound 1))), i ≠ j →
      Disjoint (outSet (coordsV c i)) (outSet (coordsV c j)) := by
  intro i _ j _ hij
  rw [Finset.disjoint_left]
  intro x hx hx'
  rw [mem_outSet] at hx hx'
  have e1 : ((coordsV c i) 1).val = i.val := rfl
  have e2 : ((coordsV c j) 1).val = j.val := rfl
  rw [e1] at hx; rw [e2] at hx'
  exact hij (Fin.ext (by omega))

/-- A SparseCore's part of the result is its tiles' rectangles. -/
theorem out_split (d : Dev nD) (c : Fin (grid0.bound 0)) (f : Buf (Elt F) (outLoc d)) :
    (outLoc d ↦[halfSet c]{fullShare} f : sProp 𝕄)
      = bigSep Finset.univ fun i : Fin ((K (F := F)).nSub 0) => outLoc d ↦[outSet (coordsV c i)]{fullShare} f :=
  pointsTo_biUnion (ℓ := outLoc d) Finset.univ (fun i : Fin (grid0.bound 1) => outSet (coordsV c i)) (outSets_disjoint c)

/-- The two SparseCores' parts are disjoint column halves, and cover the result. -/
theorem halfSets_disjoint : ∀ c ∈ (Finset.univ : Finset (Fin (grid0.bound 0))), ∀ c' ∈ (Finset.univ : Finset (Fin (grid0.bound 0))), c ≠ c' →
    Disjoint (halfSet c) (halfSet c') := by
  intro c _ c' _ hcc
  rw [Finset.disjoint_left]
  intro x hx hx'
  unfold halfSet at hx hx'
  obtain ⟨i, -, hi⟩ := Finset.mem_biUnion.mp hx
  obtain ⟨i', -, hi'⟩ := Finset.mem_biUnion.mp hx'
  rw [mem_outSet] at hi hi'
  have e1 : ((coordsV c i) 0).val = c.val := rfl
  have e2 : ((coordsV c' i') 0).val = c'.val := rfl
  rw [e1] at hi; rw [e2] at hi'
  exact hcc (Fin.ext (by omega))

theorem halfSets_cover : (Finset.univ : Finset (Fin (grid0.bound 0))).biUnion halfSet = Finset.univ := by
  ext x
  simp only [Finset.mem_biUnion, Finset.mem_univ, true_and, iff_true]
  have h0 := idx2_lt0 x
  have h1 := idx2_lt1 x
  refine ⟨⟨(x 1).val / 1664, by show _ < 2; omega⟩, ?_⟩
  unfold halfSet
  refine Finset.mem_biUnion.mpr ⟨⟨(x 0).val / 1024, by show _ < 16; omega⟩, Finset.mem_univ _, ?_⟩
  rw [mem_outSet]
  show (1024 * ((x 0).val / 1024) ≤ (x 0).val ∧ (x 0).val < 1024 * ((x 0).val / 1024) + 1024)
    ∧ (1664 * ((x 1).val / 1664) ≤ (x 1).val ∧ (x 1).val < 1664 * ((x 1).val / 1664) + 1664)
  omega

theorem out_halves' (d : Dev nD) (f : Buf (Elt F) (outLoc d)) :
    (outLoc d ↦{fullShare} f : sProp 𝕄) = bigSep Finset.univ fun c : Fin (grid0.bound 0) => outLoc d ↦[halfSet c]{fullShare} f := by
  rw [← pointsTo_biUnion Finset.univ (ℓ := outLoc d) halfSet halfSets_disjoint, halfSets_cover]; try rfl

/-- The result whole is the two SparseCores' parts. -/
theorem out_halves (d : Dev nD) (f : Buf (Elt F) (outLoc d)) :
    (outLoc d ↦{fullShare} f : sProp 𝕄) = bigSep Finset.univ fun c : Fin ((K (F := F)).nCore 0) => outLoc d ↦[halfSet c]{fullShare} f :=
  out_halves' d f

/-! ## The shared scratch's thirteen tables -/

/-- Table `n`'s rows, for a tile number: nothing from thirteen on. -/
def tabSetN (n : ℕ) : Finset S13000x128.Idx := if h : n < 13 then tabSet ⟨n, h⟩ else ∅

theorem tabSetN_disjoint : ∀ i ∈ (Finset.univ : Finset (Fin (grid0.bound 1))), ∀ j ∈ (Finset.univ : Finset (Fin (grid0.bound 1))), i ≠ j →
    Disjoint (tabSetN i.val) (tabSetN j.val) := by
  intro i _ j _ hij
  unfold tabSetN
  split
  · split
    · rw [Finset.disjoint_left]
      intro x hx hx'
      rw [mem_tabSet] at hx hx'
      exact hij (Fin.ext (by simp only at hx hx'; omega))
    · exact Finset.disjoint_empty_right _
  · exact Finset.disjoint_empty_left _

theorem tabSetN_cover : (Finset.univ : Finset (Fin (grid0.bound 1))).biUnion (fun i => tabSetN i.val) = Finset.univ := by
  ext x
  simp only [Finset.mem_biUnion, Finset.mem_univ, true_and, iff_true]
  have h0 := idx2_lt0 x
  have hlt : (x 0).val / 1000 < 13 := by omega
  refine ⟨⟨(x 0).val / 1000, by show _ < 16; omega⟩, ?_⟩
  unfold tabSetN
  rw [dif_pos hlt, mem_tabSet]
  show 1000 * ((x 0).val / 1000) ≤ (x 0).val ∧ (x 0).val < 1000 * ((x 0).val / 1000) + 1000
  omega

variable [FloatOps F]

/-- The shared scratch whole, at some contents, deals each staging tile its table's rows. -/
theorem sh_deal (d : Dev nD) (c : Fin (grid0.bound 0)) (f : Buf (Elt F) (shLoc d (c.castLE hcore0))) :
    (shLoc d (c.castLE hcore0) ↦{fullShare} f : sProp 𝕄)
      ⊢ bigSep Finset.univ fun i : Fin ((K (F := F)).nSub 0) =>
          (if h : ((coordsV c i) 1).val < 13 then iprop(∃ f, shLoc d (cV (coordsV c i)) ↦[tabSet ⟨((coordsV c i) 1).val, h⟩]{fullShare} f) else iprop(emp) : sProp 𝕄) := by
  have e : (shLoc d (c.castLE hcore0) ↦{fullShare} f : sProp 𝕄)
      = bigSep Finset.univ fun i : Fin (grid0.bound 1) => shLoc d (c.castLE hcore0) ↦[tabSetN i.val]{fullShare} f := by
    rw [← pointsTo_biUnion (ℓ := shLoc d (c.castLE hcore0)) Finset.univ (fun i : Fin (grid0.bound 1) => tabSetN i.val) tabSetN_disjoint, tabSetN_cover]; try rfl
  rw [e]
  refine bigSep_mono fun i _ => ?_
  show (shLoc d (c.castLE hcore0) ↦[tabSetN i.val]{fullShare} f : sProp 𝕄)
    ⊢ (if h : i.val < 13 then iprop(∃ f, shLoc d (c.castLE hcore0) ↦[tabSet ⟨i.val, h⟩]{fullShare} f) else iprop(emp) : sProp 𝕄)
  unfold tabSetN
  split
  · exact BI.BIClass.exists_intro (Φ := fun f => (shLoc d (c.castLE hcore0) ↦[tabSet ⟨i.val, _⟩]{fullShare} f : sProp 𝕄)) f
  · exact fun _ _ => trivial

/-! ## The split -/

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable (TbA : (d : Dev nD) → Buf (Elt F) (tbLoc d)) (XA : (d : Dev nD) → Buf (Elt F) (ixLoc d)) (fA : (d : Dev nD) → Buf (Elt F) (outLoc d))

set_option maxRecDepth 16384 in
/-- A SparseCore's operands and its shared scratch split into its sixteen tasks' operands; the tasks' results rejoin to
    the SparseCore's results and the scratch whole. -/
theorem vecSplit : (K (F := F)).VecSplit (P TbA XA fA) 0 := by
  intro d c
  show iprop(iprop((ixLoc d ↦{halfq c} XA d) ∗ (tbLoc d ↦{halfq c} TbA d) ∗ (outLoc d ↦[halfSet c]{fullShare} fA d)) ∗ ownBufs (S d ((K (F := F)).core 0 c)))
    ⊢ |={Set.univ}=> iprop((bigSep Finset.univ fun i : Fin ((K (F := F)).nSub 0) => goRes (XA d) (TbA d) (fA d) (coordsV c i))
      ∗ ((bigSep Finset.univ fun i : Fin ((K (F := F)).nSub 0) => tdRes (XA d) (TbA d) (coordsV c i))
        -∗ iprop(iprop((ixLoc d ↦{halfq c} XA d) ∗ (tbLoc d ↦{halfq c} TbA d)
            ∗ (outLoc d ↦[halfSet c]{fullShare} (Cert.Lookup.gathered (XA d) (TbA d)))) ∗ ownBufs (S d ((K (F := F)).core 0 c)))))
  unfold goRes tdRes
  simp only [bigSep_sep']
  rw [ownBufs_S, shares_split c (XA d), shares_split c (TbA d), out_split d c (fA d), out_split d c (Cert.Lookup.gathered (XA d) (TbA d))]
  iintro ⟨⟨Hx, Ht, Ho⟩, ⟨%fsh, Hsh⟩, Hrest⟩; imodintro
  isplitl [Hx Ht Ho Hsh]
  · isplitl [Hx]; · iexact Hx
    isplitl [Ht]; · iexact Ht
    isplitl [Ho]; · iexact Ho
    iapply (sh_deal d c fsh); iexact Hsh
  iintro ⟨Hx, Ht, Ho, Hsh⟩
  isplitl [Hx Ht Ho]
  · isplitl [Hx]; · iexact Hx
    isplitl [Ht]; · iexact Ht
    iexact Ho
  isplitl [Hsh]
  · iexists (spVal (TbA d) (c.castLE hcore0))
    iapply (Entails.of_eq (sixteenths_join d c (spVal (TbA d) (c.castLE hcore0))).symm); iexact Hsh
  iexact Hrest

end Cert.Proof.KI

end
-- ==== Proof.Elem.lean ====
/-
  The launch element of the ghost state, and what the launch deals every thread.

  The element is a pair: the handshakes' rounds, and the barrier cells' rounds with one cell per tile of the device and,
  in each cell's round 0, one duty token per tile of the same SparseCore.  At the launch the barrier cells' round states
  are funded, their invariants allocated at once over the tiles' barrier semaphores (which the launch hands over at zero),
  the credit for what the tiles owe at the barrier is regrouped from the payers to the waiters (tile `i` owes one unit on
  each of its SparseCore's sixteen cells; cell `j` is owed sixteen units, one by each tile), and every tile is dealt its
  kit: all sixteen invariants of its SparseCore, its token in each of their rounds, its own position and the credit for
  its own cell.
-/
import proofs.«206644_g35837207118489_cont_8to1_b_589_28_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (TbA : (d : Dev nD) → Buf (Elt F) (tbLoc d)) (XA : (d : Dev nD) → Buf (Elt F) (ixLoc d)) (fA : (d : Dev nD) → Buf (Elt F) (outLoc d))

/-! ## The cells and the tokens -/

abbrev DCI : Type := Dev nD × Fin τ.nSC × Fin τ.nSub
abbrev bcell₃ (x : DCI) : GSem nD τ sig := bcell x.1 x.2.1 x.2.2

/-- Every tile's barrier cell. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := by
  rintro ⟨d, c, i⟩ ⟨d', c', i'⟩ e
  have e1 : (d, Proc.scVector c i) = (d', Proc.scVector c' i') := (Prod.mk.inj e).1
  obtain ⟨rfl, e2⟩ := Prod.mk.inj e1
  obtain ⟨rfl, rfl⟩ := Proc.scVector.inj e2
  rfl

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  obtain ⟨e1, e2⟩ := Prod.mk.inj e
  have e3 : i.val = i'.val := (Prod.mk.inj e2).2
  have e4 : (d, Proc.scVector c (j.castLE hsub0)) = (d', Proc.scVector c' (j'.castLE hsub0)) := (Prod.mk.inj e1).1
  obtain ⟨rfl, e5⟩ := Prod.mk.inj e4
  obtain ⟨rfl, e6⟩ := Proc.scVector.inj e5
  obtain rfl : j = j' := Fin.ext (congrArg Fin.val e6)
  obtain rfl : i = i' := Fin.ext e3
  rfl

/-! ## The six parts of the launch element -/

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over: the barrier semaphore is not
    scoped and is not the `go` semaphore, so it is among each tile's free ones. -/
theorem sems_b : ((K (F := F)).freeSems0 : sProp 𝕄) ⊢ bigSep bCells fun g => semVal g 0 := by
  rw [bCells_eq]
  unfold SparseCore.Cfg.freeSems0
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) TbA) g 0)
    ⊢ |={Set.univ}=> iprop(∃ κ : GSem nD τ sig → ℕ, bigSep bCells fun g => cellInv EB (bRd (F := F) TbA) (κ g) g) := by
  refine (Rounds.bodies_intro EB (bRd (F := F) TbA) bCells).trans ((inv_alloc_family bCells (Rounds.body EB (bRd (F := F) TbA)) ∅ (E := Set.univ)).trans ?_)
  iintro H
  imod H with ⟨%κ, -, Hinv⟩
  imodintro; iexists κ; iexact Hinv

omit [FloatOps F] in
/-- `n` units owed one at a time are `n` units owed. -/
theorem sum_tallyAt_one (g : GSem nD τ sig) (ι : HIx 1) (n : ℕ) : ∑ _i : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

/-- What a tile owes for the barrier from the launch on is what it owes at the one call. -/
theorem oxFrom_V (d : Dev nD) (c : Fin τ.nSC) (i : Fin τ.nSub) : (P (F := F) TbA XA fA).oxFrom 0 (V d c i) = oxV d c := by
  rw [show (0 : ℕ) = (0 : Fin 1).val from rfl, (P TbA XA fA).oxFrom_step, (P TbA XA fA).oxFrom_end _ (n := (0 : Fin 1).val + 1) le_rfl, add_zero]; rfl

/-- The credit for the tiles' debts at the barrier, regrouped from the payers to the waiters: each tile the sixteen
    units of its own cell. -/
theorem creds_b : ((P (F := F) TbA XA fA).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) TbA XA fA).oxFrom 0 thr) : sProp 𝕄))]
  refine sep_elim_right.trans (sep_elim_right.trans ?_)
  simp only [oxFrom_V]
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  unfold oxV
  simp only [SparseCore.Cfg.cred_finsum]
  rw [bigSep_univ_comm]
  refine bigSep_mono fun j _ => ?_
  rw [← SparseCore.Cfg.cred_finsum, sum_tallyAt_one]; rfl

/-! ## The deal -/

omit [FloatOps F] in
/-- A persistent resource beside a big separating conjunction goes to each conjunct. -/
theorem bigSep_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- What every tile is handed alike: every barrier cell's invariant, and that each has reached round 0. -/
abbrev common : sProp 𝕄 :=
  iprop((∃ κ : GSem nD τ sig → ℕ, bigSep Finset.univ fun x : DCI => cellInv EB (bRd (F := F) TbA) (κ (bcell₃ x)) (bcell₃ x))
    ∗ bigSep Finset.univ fun x : DCI => reached EB (bcell₃ x) 0)
/-- What each tile is handed of its own: its position, its tokens, its credit. -/
abbrev own₁ (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(common (F := F) TbA ∗ own₁ dci) ⊢ (bkit (F := F) TbA dci.1 dci.2.1 dci.2.2 : sProp 𝕄) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_with (s := (Finset.univ : Finset (Fin (grid0.bound 1)))) (Φ := fun _ => iprop(emp))
      (R := bigSep Finset.univ fun x : DCI => cellInv EB (bRd (F := F) TbA) (κ (bcell₃ x)) (bcell₃ x)) fun j _ =>
        sep_elim_left.trans (bigSep_elim (Φ := fun x : DCI => (cellInv EB (bRd (F := F) TbA) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_with (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

theorem Px_T (d : Dev nD) : (bigSep Finset.univ fun q : Fin 1 => (P (F := F) TbA XA fA).x q (SparseCore.T d)) = iprop(emp) :=
  bigSep_univ_of_subsingleton (0 : Fin 1)
theorem Px_S (d : Dev nD) (c : Fin τ.nSC) : (bigSep Finset.univ fun q : Fin 1 => (P (F := F) TbA XA fA).x q (S d c)) = iprop(emp) :=
  bigSep_univ_of_subsingleton (0 : Fin 1)
theorem Px_V (d : Dev nD) (c : Fin τ.nSC) (i : Fin τ.nSub) :
    (bigSep Finset.univ fun q : Fin 1 => (P (F := F) TbA XA fA).x q (V d c i)) = bkit TbA d c i :=
  bigSep_univ_of_subsingleton (0 : Fin 1)

/-- Each tile its kit; the TensorCore and the sequencers nothing. -/
theorem deal :
    iprop(((∃ κ : GSem nD τ sig → ℕ, bigSep bCells fun g => cellInv EB (bRd (F := F) TbA) (κ g) g) ∗ bigSep bCells fun g => reached EB g 0)
        ∗ ((bigSep bCells fun g => atPos EB g 0 ∅ 0) ∗ (bigSep bToks fun x => dutyTok EB x.1 x.2.1 x.2.2)
          ∗ bigSep Finset.univ fun dci : DCI => cred (tallyAt (bcell₃ dci) (some 0) (grid0.bound 1))))
      ⊢ (bigSep Finset.univ fun thr : Thread nD τ => bigSep Finset.univ fun q : Fin 1 => (P (F := F) TbA XA fA).x q thr : sProp 𝕄) := by
  rw [SparseCore.Cfg.bigSep_threads (fun thr : Thread nD τ => bigSep Finset.univ fun q : Fin 1 => (P TbA XA fA).x q thr)]
  simp only [Px_T, Px_S, Px_V, bigSep_emp']
  rw [bCells_eq (F := F) fun g => reached EB g 0, bCells_eq (F := F) fun g => atPos EB g 0 ∅ 0, toks_eq]
  iintro ⟨⟨⟨%κ, Hinv⟩, #Hr⟩, Hat, Htok, Hcred⟩
  ihave Hinv' := (Entails.of_eq (bCells_eq (F := F) fun g => cellInv EB (bRd (F := F) TbA) (κ g) g)) $$ Hinv
  icases Hinv' with #Hinv'
  isplitr; · iempintro
  isplitr; · iempintro
  iapply (bigSep_with (R := common (F := F) TbA) (Φ := own₁ (F := F)) fun dci _ => kit_intro (F := F) TbA dci)
  isplitr
  · isplitl; · iexists κ; iexact Hinv'
    iexact Hr
  unfold own₁
  rw [bigSep_sep', bigSep_sep']
  isplitl [Hat]; · iexact Hat
  isplitl [Htok]; · iexact Htok
  iexact Hcred

/-! ## The launch element -/

theorem hu₀ : iprop(ownU (u₀ (F := F)) ∗ (P (F := F) TbA XA fA).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P TbA XA fA).x q thr) : sProp 𝕄) := by
  have h := SparseCore.Cfg.launch_elem (nD := nD) (Fr := (iprop(emp) : sProp 𝕄))
    (ownU_split (F := F) (initOf (K (F := F)).hsCells (K (F := F)).hsToks) (initOf bCells bToks))
    (Rounds.fund EB (bRd (F := F) TbA) bCells bToks) (sems_b (F := F)) (invs_b (F := F) TbA) (creds_b TbA XA fA) (deal TbA XA fA)
  have h0 : iprop(ownU (u₀ (F := F)) ∗ (P (F := F) TbA XA fA).oxCred ∗ (K (F := F)).freeSems0)
      ⊢ (iprop(ownU (u₀ (F := F)) ∗ (P (F := F) TbA XA fA).oxCred ∗ emp ∗ (K (F := F)).freeSems0) : sProp 𝕄) := by
    iintro ⟨Hu, Hcred, Hfree⟩
    isplitl [Hu]; · iexact Hu
    isplitl [Hcred]; · iexact Hcred
    isplitr; · iempintro
    iexact Hfree
  exact h0.trans h

end Cert.Proof.KI

end
-- ==== Proof.Spec.lean ====
/-
  The lookup both programs compute, as ONE function of the two argument arrays.

  There are 26 fields; field `f` has its own table of 1000 rows of 128 numbers, `tables[f]`.  Batch entry `b` names, for each
  field, one row `x[b, f]`.  The result lays the 26 selected rows of batch entry `b` side by side:
      out[b, f * 128 + d] = tables[f, x[b, f], d]        (0 ≤ b < 16384, 0 ≤ f < 26, 0 ≤ d < 128).
  The row word is read as a natural number and wrapped into the thousand rows, so the function is total; where every word lies
  in `[0, 999]` (which the precondition says) the wrapping changes nothing.
  No arithmetic is done on the table's numbers: the function is the same over any element type.
-/
import Idealize.ShloMosaic.PureOps.Ideal
import Idealize.ShloMosaic.Lib.ValueIdx

namespace Cert.Lookup

open Idealize.ShloMosaic Idealize.ShloMosaic.ValueIdx

/-- The row a 32-bit word names, wrapped into the table's thousand rows. -/
def rowOf (w : BitVec 32) : Fin 1000 := ⟨w.toNat % 1000, Nat.mod_lt _ (by decide)⟩

/-- A word below 1000 names its own row. -/
theorem rowOf_val {w : BitVec 32} (h : w.toNat < 1000) : (rowOf w).val = w.toNat := Nat.mod_eq_of_lt h

/-- The field an output column belongs to: columns `128 f … 128 f + 127` are field `f`'s. -/
def fieldOf (q : Fin 3328) : Fin 26 := ⟨q.val / 128, by have := q.isLt; omega⟩

/-- The position of an output column inside its field's row. -/
def laneOf (q : Fin 3328) : Fin 128 := ⟨q.val % 128, Nat.mod_lt _ (by decide)⟩

/-- The lookup: entry `(b, q)` of the result is entry `q % 128` of row `x[b, q / 128]` of table `q / 128`. -/
def lookup {α : Type} (x : (⟨2, ![16384, 26]⟩ : Shape).Idx → BitVec 32) (t : (⟨3, ![26, 1000, 128]⟩ : Shape).Idx → α) :
    (⟨2, ![16384, 3328]⟩ : Shape).Idx → α :=
  fun j =>
    let b : Fin 16384 := ⟨(j 0).val, idx2_lt0 j⟩
    let q : Fin 3328 := ⟨(j 1).val, idx2_lt1 j⟩
    t (ix3 (fieldOf q) (rowOf (x (ix2 b (fieldOf q)))) (laneOf q))

/-- The lookup at explicit coordinates: batch entry `b`, field `f`, lane `d`. -/
theorem lookup_apply {α : Type} (x : (⟨2, ![16384, 26]⟩ : Shape).Idx → BitVec 32) (t : (⟨3, ![26, 1000, 128]⟩ : Shape).Idx → α)
    (b : Fin 16384) (f : Fin 26) (d : Fin 128) :
    lookup x t (ix2 b (⟨f.val * 128 + d.val, by have := f.isLt; have := d.isLt; omega⟩ : Fin 3328)) = t (ix3 f (rowOf (x (ix2 b f))) d) := by
  have hf : fieldOf (⟨f.val * 128 + d.val, by have := f.isLt; have := d.isLt; omega⟩ : Fin 3328) = f :=
    Fin.ext (by show (f.val * 128 + d.val) / 128 = f.val; have := d.isLt; omega)
  have hd : laneOf (⟨f.val * 128 + d.val, by have := f.isLt; have := d.isLt; omega⟩ : Fin 3328) = d :=
    Fin.ext (by show (f.val * 128 + d.val) % 128 = d.val; have := d.isLt; omega)
  show t (ix3 (fieldOf _) (rowOf (x (ix2 _ (fieldOf _)))) (laneOf _)) = _
  rw [hf, hd]

end Cert.Lookup
-- ==== Proof.Flat.lean ====
/-
  The index arithmetic that joins the flattened arrays the kernel reads to the two arguments.

  The host transposes the index array `x : [16384, 26]` and flattens it: word `16384 f + b` of the flat array is `x[b, f]`.
  It flattens the tables `t : [26, 1000, 128]` to 26000 rows: row `1000 f + r` is row `r` of table `f`.  Both are
  row-major re-indexings, so each is one equation between positions, linear in the coordinates.  Reading the flat arrays
  the way the tiles do, entry `(b, q)` of the result is `t[q / 128, x[b, q / 128] % 1000, q % 128]`: the lookup.
-/
import proofs.«206644_g35837207118489_cont_8to1_b_589_28_alg».proof.Proof.Geom
import proofs.«206644_g35837207118489_cont_8to1_b_589_28_alg».proof.Proof.Spec
import Idealize.ShloMosaic.Lib.Pipeline.Value

namespace Cert.Lookup

open Cert.KernelIdeal Cert.Proof.KI
open Idealize.ShloMosaic Idealize.ShloMosaic.ValueIdx

/-- The flattened transposed index array at position `16384 f + b` is `x[b, f]`. -/
theorem flatIx_apply {α : Type} (x : S16384x26.Idx → α) (hT : S16384x26.Transposes [1, 0] S26x16384) (hC : S26x16384.ShapeCasts S425984)
    (f : Fin 26) (b : Fin 16384) (h : f.val * 16384 + b.val < 425984) :
    shapeCast S425984 (transpose S26x16384 [1, 0] x hT) hC (ix1 (n := 425984) ⟨f.val * 16384 + b.val, h⟩) = x (ix2 b f) := by
  refine (shapeCast_apply _ hC _ (ix2 (n0 := 26) (n1 := 16384) f b) ?_).trans ?_
  · rw [Shape.rowMajor_val_two, Shape.rowMajor_val_one]; rfl
  · exact transpose_apply [1, 0] x hT _ (ix2 b f) fun a => match a with | ⟨0, _⟩ => rfl | ⟨1, _⟩ => rfl

/-- The flattened tables at row `1000 f + r`, lane `q`, are `t[f, r, q]`. -/
theorem flatTb_apply {α : Type} (t : S26x1000x128.Idx → α) (hC : S26x1000x128.ShapeCasts S26000x128)
    (f : Fin 26) (r : Fin 1000) (q : Fin 128) (h : f.val * 1000 + r.val < 26000) :
    shapeCast S26000x128 t hC (ix2 (n0 := 26000) (n1 := 128) ⟨f.val * 1000 + r.val, h⟩ q) = t (ix3 f r q) := by
  refine shapeCast_apply _ hC _ (ix3 f r q) ?_
  rw [Shape.rowMajor_val_three, Shape.rowMajor_val_two]; rfl

variable {F : FTy → Type}

/-- What the tiles leave at `(b, q)`, once the index word it reads is named: lane `q % 128` of row `1000 (q / 128) + w % 1000`. -/
theorem gathered_apply {d : Dev nD} (X : Buf (Elt F) (ixLoc d)) (Tb : Buf (Elt F) (tbLoc d)) (j : S16384x3328.Idx) (w : BitVec 32)
    (h425 : (j 1).val / 128 * 16384 + (j 0).val < 425984)
    (hw : X (ix1 (n := 425984) ⟨(j 1).val / 128 * 16384 + (j 0).val, h425⟩) = w) :
    gathered X Tb j = Tb (ix2 (n0 := 26000) (n1 := 128)
      ⟨(j 1).val / 128 * 1000 + w.toNat % 1000, by
        have h1 := idx2_lt1 j; have := Nat.mod_lt w.toNat (show 0 < 1000 by decide); omega⟩
      ⟨(j 1).val % 128, Nat.mod_lt _ (by decide)⟩) := by
  subst hw; rfl

/-- Flat arrays that hold the two arguments in the flattened order make the tiles' result the lookup. -/
theorem gathered_eq_lookup_of {d : Dev nD} (X : Buf (Elt F) (ixLoc d)) (Tb : Buf (Elt F) (tbLoc d))
    (x : S16384x26.Idx → BitVec 32) (t : S26x1000x128.Idx → Elt F .f32)
    (hX : ∀ (f : Fin 26) (b : Fin 16384) (h : f.val * 16384 + b.val < 425984), X (ix1 (n := 425984) ⟨f.val * 16384 + b.val, h⟩) = x (ix2 b f))
    (hTb : ∀ (f : Fin 26) (r : Fin 1000) (q : Fin 128) (h : f.val * 1000 + r.val < 26000),
      Tb (ix2 (n0 := 26000) (n1 := 128) ⟨f.val * 1000 + r.val, h⟩ q) = t (ix3 f r q)) :
    gathered X Tb = lookup x t := by
  funext j
  have h0 := idx2_lt0 j; have h1 := idx2_lt1 j
  have h425 : (j 1).val / 128 * 16384 + (j 0).val < 425984 := by omega
  refine (gathered_apply X Tb j _ h425 (hX (fieldOf ⟨(j 1).val, h1⟩) ⟨(j 0).val, h0⟩ h425)).trans ?_
  exact hTb (fieldOf ⟨(j 1).val, h1⟩) (rowOf (x (ix2 ⟨(j 0).val, h0⟩ (fieldOf ⟨(j 1).val, h1⟩)))) (laneOf ⟨(j 1).val, h1⟩) _

/-- The flat arrays the host operations compute — the transposed index array flattened, the tables flattened — make the
    tiles' result the lookup. -/
theorem gathered_eq_lookup {d : Dev nD} (x : S16384x26.Idx → BitVec 32) (t : S26x1000x128.Idx → Elt F .f32)
    (hT : S16384x26.Transposes [1, 0] S26x16384) (hC1 : S26x16384.ShapeCasts S425984) (hC2 : S26x1000x128.ShapeCasts S26000x128) :
    gathered (F := F) (d := d) (shapeCast S425984 (transpose S26x16384 [1, 0] x hT) hC1) (shapeCast S26000x128 t hC2) = lookup x t :=
  gathered_eq_lookup_of _ _ x t (fun f b h => flatIx_apply x hT hC1 f b h) (fun f r q h => flatTb_apply t hC2 f r q h)

end Cert.Lookup
-- ==== Proof.Main.lean ====
/-
  @main on the TensorCore, how the final memory reads the result, and the program's run.

  @main transposes the index array and flattens it, flattens the tables, and makes the one SparseCore call.  The three
  host operations are run over the TensorCore's six arrays held whole; what the call is started from is then the
  flattened index columns and the flattened tables as those operations' own terms, and the result array at its launch
  contents.  The call takes the three arrays whole — split into the two SparseCores' halves — and brings the result back
  at the lookup.  The arguments are never written, so they end at their launch contents.
-/
import proofs.«206644_g35837207118489_cont_8to1_b_589_28_alg».proof.Proof.Obl
import proofs.«206644_g35837207118489_cont_8to1_b_589_28_alg».proof.Proof.Split
import proofs.«206644_g35837207118489_cont_8to1_b_589_28_alg».proof.Proof.Elem
import proofs.«206644_g35837207118489_cont_8to1_b_589_28_alg».proof.Proof.Flat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.StableHlo (held held_split held_sdiff_result wp_hlo_within)

variable [FloatOps F]

variable (m : (ℓ : Loc nD τ sig) → Buf (Elt F) ℓ) (ρ : Dev nD → PrngReg)

/-! ## The arrays and the host operations -/

abbrev a0Loc (d : Dev nD) : Loc nD τ sig := (SparseCore.T d).loc main_arg0
abbrev a1Loc (d : Dev nD) : Loc nD τ sig := (SparseCore.T d).loc main_arg1

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev opT : HloOp τ sig (Elt F) :=
  StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev opR1 : HloOp τ sig (Elt F) := StableHlo.reshape main_v0 main_v1 rfl shapeCasts_S26x16384_S425984
abbrev opR2 : HloOp τ sig (Elt F) := StableHlo.reshape main_arg1 main_v2 rfl shapeCasts_S26x1000x128_S26000x128

/-- The TensorCore's arrays, all unscoped. -/
abbrev S6 : Finset (DevRef τ sig) := {a0', a1', v0', v1', v2', v3'}

omit [FloatOps F] in
theorem held_S6 (d : Dev nD) (W : Valuation τ sig (Elt F)) :
    (held (T d) S6 W : sProp 𝕄)
      = iprop((a0Loc d ↦{fullShare} W a0') ∗ (a1Loc d ↦{fullShare} W a1') ∗ ((SparseCore.T d).loc main_v0 ↦{fullShare} W v0')
          ∗ (ixLoc d ↦{fullShare} W v1') ∗ (tbLoc d ↦{fullShare} W v2') ∗ (outLoc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0)
          ∗ (ixLoc d ↦{fullShare} W main_v1) ∗ (tbLoc d ↦{fullShare} W main_v2) ∗ (outLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuation before the call: the three operations' results. -/
def V0 (d : Dev nD) : Valuation τ sig (Elt F) := fun b => m (d, b)
def V3 (d : Dev nD) : Valuation τ sig (Elt F) := (opR2 (F := F)).result ((opR1 (F := F)).result ((opT (F := F)).result (V0 m d)))

theorem unscoped_held (d : Dev nD) : (unscopedBufs d (fun b => m ((SparseCore.T d).loc b)) : sProp 𝕄) = held (T d) S6 (V0 m d) := by
  rw [unscopedBufs_eq, held_S6]; rfl

/-- The flattened index columns and the flattened tables, as the host operations compute them. -/
def XA (d : Dev nD) : Buf (Elt F) (ixLoc d) :=
  shapeCast S425984 (transpose S26x16384 [1, 0] (m (a0Loc d)) transposes_S16384x26_S26x16384_1_0) shapeCasts_S26x16384_S425984
def TbA (d : Dev nD) : Buf (Elt F) (tbLoc d) := shapeCast S26000x128 (m (a1Loc d)) shapeCasts_S26x1000x128_S26000x128
/-- The result's launch contents. -/
def fA (d : Dev nD) : Buf (Elt F) (outLoc d) := m (outLoc d)

theorem V3_a0 (d : Dev nD) : V3 m d a0' = m (a0Loc d) := by
  unfold V3
  rw [StableHlo.reshape_result_ne (r := main_arg0) (h := by decide), StableHlo.reshape_result_ne (r := main_arg0) (h := by decide),
    StableHlo.unary_result_ne (r := main_arg0) (h := by decide)]
  rfl
theorem V3_a1 (d : Dev nD) : V3 m d a1' = m (a1Loc d) := by
  unfold V3
  rw [StableHlo.reshape_result_ne (r := main_arg1) (h := by decide), StableHlo.reshape_result_ne (r := main_arg1) (h := by decide),
    StableHlo.unary_result_ne (r := main_arg1) (h := by decide)]
  rfl
theorem V3_v3 (d : Dev nD) : V3 m d v3' = fA m d := by
  unfold V3
  rw [StableHlo.reshape_result_ne (r := main_v3) (h := by decide), StableHlo.reshape_result_ne (r := main_v3) (h := by decide),
    StableHlo.unary_result_ne (r := main_v3) (h := by decide)]
  rfl
theorem V3_v2 (d : Dev nD) : V3 m d v2' = TbA m d := by
  unfold V3
  rw [StableHlo.reshape_result, StableHlo.reshape_result_ne (r := main_arg1) (h := by decide),
    StableHlo.unary_result_ne (r := main_arg1) (h := by decide)]
  rfl
theorem V3_v1 (d : Dev nD) : V3 m d v1' = XA m d := by
  unfold V3
  rw [StableHlo.reshape_result_ne (r := main_v1) (h := by decide), StableHlo.reshape_result, StableHlo.unary_result]
  rfl

theorem held_V3 (d : Dev nD) :
    (held (T d) S6 ((opR2 (F := F)).result ((opR1 (F := F)).result ((opT (F := F)).result (V0 m d)))) : sProp 𝕄)
      = iprop((a0Loc d ↦{fullShare} m (a0Loc d)) ∗ (a1Loc d ↦{fullShare} m (a1Loc d)) ∗ ((SparseCore.T d).loc main_v0 ↦{fullShare} V3 m d v0')
          ∗ (ixLoc d ↦{fullShare} XA m d) ∗ (tbLoc d ↦{fullShare} TbA m d) ∗ (outLoc d ↦{fullShare} fA m d)) := by
  show held (SparseCore.T d) S6 (V3 m d) = _
  rw [held_S6, V3_a0, V3_a1, V3_v1, V3_v2, V3_v3]

theorem hT : (opT (F := F)).bufs ⊆ S6 := show ({a0', v0'} : Finset (DevRef τ sig)) ⊆ S6 by decide
theorem hR1 : (opR1 (F := F)).bufs ⊆ S6 := show ({v0', v1'} : Finset (DevRef τ sig)) ⊆ S6 by decide
theorem hR2 : (opR2 (F := F)).bufs ⊆ S6 := show ({a1', v2'} : Finset (DevRef τ sig)) ⊆ S6 by decide

/-! ## The call's operands, whole -/

/-- What the call takes for the two SparseCores is the three arrays whole, and what it hands back. -/
theorem st0_eq (d : Dev nD) : (bigSep Finset.univ fun c : Fin ((K (F := F)).nCore 0) => (P (TbA m) (XA m) (fA m)).st 0 d c)
    = iprop((ixLoc d ↦{fullShare} XA m d) ∗ (tbLoc d ↦{fullShare} TbA m d) ∗ (outLoc d ↦{fullShare} fA m d)) := by
  show (bigSep Finset.univ fun c : Fin ((K (F := F)).nCore 0) => iprop((ixLoc d ↦{halfq c} XA m d) ∗ (tbLoc d ↦{halfq c} TbA m d)
        ∗ (outLoc d ↦[halfSet c]{fullShare} fA m d))) = _
  rw [bigSep_sep', bigSep_sep', ← halves_split, ← halves_split, ← out_halves]
theorem dn0_eq (d : Dev nD) : (bigSep Finset.univ fun c : Fin ((K (F := F)).nCore 0) => (P (TbA m) (XA m) (fA m)).dn 0 d c)
    = iprop((ixLoc d ↦{fullShare} XA m d) ∗ (tbLoc d ↦{fullShare} TbA m d) ∗ (outLoc d ↦{fullShare} Cert.Lookup.gathered (XA m d) (TbA m d))) := by
  show (bigSep Finset.univ fun c : Fin ((K (F := F)).nCore 0) => iprop((ixLoc d ↦{halfq c} XA m d) ∗ (tbLoc d ↦{halfq c} TbA m d)
        ∗ (outLoc d ↦[halfSet c]{fullShare} Cert.Lookup.gathered (XA m d) (TbA m d)))) = _
  rw [bigSep_sep', bigSep_sep', ← halves_split, ← halves_split, ← out_halves]

/-! ## @main -/

/-- What @main leaves the claim: the arguments at their launch contents, the result at the lookup. -/
abbrev FIN (d : Dev nD) : sProp 𝕄 :=
  iprop((a0Loc d ↦{fullShare} m (a0Loc d)) ∗ (a1Loc d ↦{fullShare} m (a1Loc d)) ∗ (outLoc d ↦{fullShare} Cert.Lookup.gathered (XA m d) (TbA m d)))

/-- @main on device `d`'s TensorCore: the three host operations over the six arrays held whole, then the call from the
    flattened columns, the flattened tables and the result array; the arguments kept. -/
theorem hmain (κ : GSem nD τ sig → ℕ) (d : Dev nD) :
    iprop((K (F := F)).ctx EH (P (TbA m) (XA m) (fA m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT) (S := S6) hT (V := V0 m d)) $$ [Hb Hheld]
  · isplitl [Hb] <;> iassumption
  iintro ⟨Hb, Hheld⟩
  rw [wp_ret]; imodintro
  iapply (wp_hlo_within 𝒱 (SparseCore.T d) none Set.univ (op := opR1) (S := S6) hR1 (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opR2) (S := S6) hR2 (V := (opR1 (F := F)).result ((opT (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Ha0, Ha1, Hv0, Hv1, Hv2, Hv3⟩
  iapply ((K (F := F)).wp_run (D (F := F)) 𝒱 (EH := EH) (P := P (TbA m) (XA m) (fA m)) κ d 0) $$ [Hst Hv1 Hv2 Hv3 Ha0 Ha1]
  isplitr; · iexact Hctx
  isplitl [Hst]; · iexact Hst
  isplitl [Hv1 Hv2 Hv3]
  · rw [st0_eq]
    isplitl [Hv1]; · iexact Hv1
    isplitl [Hv2]; · iexact Hv2
    iexact Hv3
  iintro ⟨Hst, Hdn⟩
  ihave Hdn' := (Entails.of_eq (dn0_eq m d)) $$ Hdn
  icases Hdn' with ⟨-, -, Ho⟩
  imodintro
  isplitl [Hst]; · iexact Hst
  isplitl [Ha0]; · iexact Ha0
  isplitl [Ha1]; · iexact Ha1
  iexact Ho

/-! ## The final memory -/

def fq (d : Dev nD) (s' : Phys nD τ sig (Elt F)) : Prop :=
  s'.mem.mem (outLoc d) = Cert.Lookup.gathered (XA m d) (TbA m d) ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  icombine HSI Ha0 gives %h0
  icombine HSI Ha1 gives %h1
  icombine HSI Ho gives %h2
  ipureintro
  exact ⟨funext fun i => h2 i (Finset.mem_univ i), funext fun i => h0 i (Finset.mem_univ i), funext fun i => h1 i (Finset.mem_univ i)⟩

/-! ## The program's run -/

/-- Every index word of the flattened columns is an index word of the argument. -/
theorem XA_range (hpre : ∀ d j, (m (a0Loc d) j).toNat < 1000) (d : Dev nD) (j : Idx (ixLoc d)) : (XA m d j).toNat < 1000 := by
  unfold XA
  exact hpre d _

theorem run_main [∀ e, Nonempty (Elt F e)] (hbody : TileBody (F := F)) (hpre : ∀ d j, (m (a0Loc d) j).toNat < 1000) :
    θ_run (Cert.KernelIdeal.defs (F := F)) (Cert.KernelIdeal.threads (F := F)) ⟨m, fun _ => 0, ρ⟩ (fun r => ∀ c : Dev nD,
      r.2.mem ((c.tc : Thread nD τ).loc main_v3) = Cert.Lookup.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (TbA m) (XA m) (fA m)) facts v₀
    (fun q hq => match q with | 0 => nomatch hq)
    (fun q _ => match q with | 0 => tileObl (TbA m) (XA m) (fA m) hbody facts (XA_range m hpre))
    (fun q _ => match q with | 0 => vecSplit (TbA m) (XA m) (fA m))
    m ρ main (fun _ => iprop(emp)) (FIN m) (u₀ (F := F)) (hu₀ (TbA m) (XA m) (fA m)) (hmain m ρ) (fq m) (hfin m) _
    (fun s' h c => by
      obtain ⟨h2, h0, h1⟩ := h c
      refine ⟨h2.trans ?_, h0, h1⟩
      exact Cert.Lookup.gathered_eq_lookup (m (a0Loc c)) (m (a1Loc c)) _ _ _)

end Cert.Proof.KI

end
-- ==== Proof.KB.Setup.lean ====
/-
  The kernel program as the launch theorem of the SparseCore library reads it, and the ghost-state algebra of its proof.

  The program runs one vector-subcore kernel on both SparseCores of the device, sixteen tiles each.  Three protocols meet in it:
  the launch's four handshakes (start, go, task done, done), the subcore barrier that the sixteen tiles of one SparseCore
  meet at after thirteen of them have staged one table each into the SparseCore's shared memory, and each tile's own copies
  on its own semaphores.  The algebra is a product with one factor for each: rounds for the handshakes, rounds for the
  barrier cells, and the counters of the copies a tile issues and itself waits for.
-/
import proofs.«206644_g35837207118489_cont_8to1_b_589_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206644_g35837207118489_cont_8to1_b_589_28_alg».proof.Proof.Gen.Kernel
import proofs.«206644_g35837207118489_cont_8to1_b_589_28_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: rounds for the handshakes, rounds for the barrier cells, counters for a tile's own copies -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Threads and arrays -/

/-- The SparseCore and the tile of a grid point. -/
abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The grid point of a SparseCore number and a tile number. -/
def coordsV (c : Fin (grid0.bound 0)) (s : Fin (grid0.bound 1)) : grid0.Coords :=
  fun | 0 => c | 1 => s | ⟨_ + 2, h⟩ => absurd h (Nat.not_lt.2 (Nat.le_add_left _ _))

/-- The flattened index columns, the flattened tables and the result, as the TensorCore's locations of device `d`. -/
abbrev ixLoc (d : Dev nD) : Loc nD τ sig := (SparseCore.T d).loc main_v1
abbrev tbLoc (d : Dev nD) : Loc nD τ sig := (SparseCore.T d).loc main_v2
abbrev outLoc (d : Dev nD) : Loc nD τ sig := (SparseCore.T d).loc main_v3
/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

end Cert.Proof.KB

end
-- ==== Proof.KB.Geom.lean ====
/-
  The geometry of the result, as definitions only: the rectangle of the result array that one tile writes, and the array
  the thirty-two tiles leave behind, as a function of the flattened index columns and the flattened tables.

  The result has 16384 rows (batch entries) and 3328 columns (26 fields of 128 lanes).  Tile `(c, s)` writes rows
  `[1024 s, 1024 s + 1024)` of columns `[1664 c, 1664 c + 1664)`: a thousand and twenty-four batch entries of thirteen fields.
  Entry `(b, q)` of the result is lane `q % 128` of the row of field `f = q / 128`'s table that the index word of batch entry
  `b` in column `f` names; the flattened tables hold field `f`'s rows at `1000 f …`, the flattened columns hold column `f` at
  `16384 f …`.  The word is wrapped into the thousand rows so that the function is total.
-/
import proofs.«206644_g35837207118489_cont_8to1_b_589_28_alg».proof.Proof.KB.Setup
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The rectangle of the result that tile `L = (c, s)` writes. -/
abbrev outRect (L : grid0.Coords) : Rect S16384x3328 :=
  Rect.unit (s := S16384x3328) ![1024 * (L 1).val, 1664 * (L 0).val] ![1024, 1664]
    (Rect.inb₂ (d := ![16384, 3328]) (by have h : (L 1).val < 16 := (L 1).isLt; show 1024 * (L 1).val + 1024 ≤ 16384; omega)
      (by have h : (L 0).val < 2 := (L 0).isLt; show 1664 * (L 0).val + 1664 ≤ 3328; omega))

/-- Its elements, as the slice of the whole result array a tile addresses. -/
abbrev outSet (L : grid0.Coords) : Finset S16384x3328.Idx :=
  ((Memref.whole main_v3_scv : Memref sig .scVector .hbm S16384x3328 .f32).view.slice (outRect L)).set

theorem outSet_eq (L : grid0.Coords) : outSet L = (outRect L).set := by
  show ((View.whole (main_v3_scv : Ref sig .scVector)).slice (outRect L)).set = _
  rw [View.set_slice]; exact Finset.map_refl

end Cert.Proof.KB

namespace Cert.Lookup
end Cert.Lookup

namespace Cert.LookupKB

open Cert.Lookup

open Cert.Kernel Cert.Proof.KB
open Idealize.ShloMosaic Idealize.ShloMosaic.ValueIdx

variable {F : FTy → Type}

/-- What the tiles leave in the result: entry `(b, q)` is lane `q % 128` of row `1000 (q / 128) + w % 1000` of the flattened
    tables, `w` the word at `16384 (q / 128) + b` of the flattened index columns. -/
def gathered {d : Dev nD} (X : Buf (Elt F) (ixLoc d)) (Tb : Buf (Elt F) (tbLoc d)) : Buf (Elt F) (outLoc d) :=
  fun (j : S16384x3328.Idx) =>
    Tb (ix2 (n0 := 26000) (n1 := 128)
      ⟨(j 1).val / 128 * 1000 + (X (ix1 (n := 425984) ⟨(j 1).val / 128 * 16384 + (j 0).val, by
          have h0 := idx2_lt0 j; have h1 := idx2_lt1 j; omega⟩)).toNat % 1000, by
        have h1 := idx2_lt1 j
        have := Nat.mod_lt (X (ix1 (n := 425984) ⟨(j 1).val / 128 * 16384 + (j 0).val, by
          have h0 := idx2_lt0 j; have h1 := idx2_lt1 j; omega⟩)).toNat (show 0 < 1000 by decide)
        omega⟩
      ⟨(j 1).val % 128, Nat.mod_lt _ (by decide)⟩)

end Cert.LookupKB

end
-- ==== Proof.KB.Pay.lean ====
/-
  What the launch's handshakes carry for this kernel, the subcore barrier's cells with their schedule, and the obligation of
  one tile's body as a proposition.

  Every tile reads the index columns and the tables whole, so each of the thirty-two tiles is handed a read share of both:
  the full share halved five times has thirty-two leaves, and tile `(c, s)` gets leaf `16 c + s`.  The result array is cut
  into the thirty-two rectangles the tiles write.  A SparseCore's shared scratch holds thirteen tables of a thousand rows;
  tile `s < 13` is handed rows `[1000 s, 1000 s + 1000)` to stage table `13 c + s` into.  At the subcore barrier a staging
  tile cuts its staged rows into sixteen shares and hands one to every tile of its SparseCore: the duty of tile `s` in tile
  `j`'s round carries rows `[1000 s, 1000 s + 1000)` at the sixteenth share `j`, at the contents staged.  After the barrier
  tile `j` holds all thirteen tables at share `j`, which is the whole scratch at that share; it gives that back, and the
  sixteen shares rejoin to the scratch whole when the tasks have ended.
-/
import proofs.«206644_g35837207118489_cont_8to1_b_589_28_alg».proof.Proof.KB.Setup
import proofs.«206644_g35837207118489_cont_8to1_b_589_28_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

theorem core_lt (c : Fin (grid0.bound 0)) : c.val < 2 ^ 1 := c.isLt
theorem sub_lt (s : Fin (grid0.bound 1)) : s.val < 2 ^ 4 := s.isLt

/-- SparseCore `c`'s read share of the index columns and of the tables: a half. -/
def halfq (c : Fin (grid0.bound 0)) : PosShare TreeShare := leaf 1 fullShare ⟨c.val, core_lt c⟩

/-- Tile `L = (c, s)`'s read share of the index columns and of the tables: leaf `s` of the sixteen of SparseCore `c`'s
    half, one of thirty-two in all. -/
def shareOf (L : grid0.Coords) : PosShare TreeShare := leaf 4 (halfq (L 0)) ⟨(L 1).val, sub_lt (L 1)⟩

/-- Tile `s`'s share of its SparseCore's shared scratch after the barrier: one of sixteen. -/
abbrev shq (s : Fin 16) : PosShare TreeShare := leaf 4 fullShare s

/-! ## The shared scratch: thirteen tables of a thousand rows -/

/-- Rows `[1000 s, 1000 s + 1000)` of the shared scratch: where table `s` of the SparseCore's thirteen is staged. -/
abbrev tabRows (s : Fin 13) : Rect S13000x128 :=
  Rect.unit (s := S13000x128) ![1000 * s.val, 0] S1000x128.size
    (Rect.inb₂ (d := ![13000, 128]) (by have := s.isLt; show 1000 * s.val + 1000 ≤ 13000; omega) (by show 0 + 128 ≤ 128; omega))

/-- Their elements, as the slice of the whole scratch a tile addresses. -/
abbrev tabSet (s : Fin 13) : Finset S13000x128.Idx :=
  ((Memref.whole cc0_scratch0 : Memref sig .scVector .shared S13000x128 .f32).view.slice (tabRows s)).set

theorem tabSet_eq (s : Fin 13) : tabSet s = (tabRows s).set := by
  show ((View.whole (cc0_scratch0 : Ref sig .scVector)).slice (tabRows s)).set = _
  rw [View.set_slice]; exact Finset.map_refl

/-- What SparseCore `c`'s shared scratch holds once staged: rows `[13000 c, 13000 c + 13000)` of the flattened tables. -/
def spVal {d : Dev nD} (Tb : Buf (Elt F) (tbLoc d)) (c : Fin τ.nSC) : Buf (Elt F) (shLoc d c) :=
  fun (j : S13000x128.Idx) =>
    Tb (ix2 (n0 := 26000) (n1 := 128)
      ⟨13000 * c.val + (j 0).val, by have hc : c.val < 2 := c.isLt; have h0 := idx2_lt0 j; omega⟩ ⟨(j 1).val, idx2_lt1 j⟩)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

-- The flattened tables, per device: what the staged scratch is measured against.
variable (TbA : (d : Dev nD) → Buf (Elt F) (tbLoc d))

/-- What the duty of tile number `n` in tile `j`'s round hands over: a staging tile's (`n < 13`) thousand rows of the shared
    scratch, at the sixteenth share `j` and at the staged contents; the others', nothing. -/
def bPay (g : GSem nD τ sig) (n : ℕ) : sProp 𝕄 :=
  match g with
  | ((d, .scVector c j), _) => if h : n < 13 then shLoc d c ↦[tabSet ⟨n, h⟩]{shq j} (spVal (TbA d) c) else iprop(emp)
  | _ => iprop(emp)

/-- The barrier cells' schedule: one round on each, of one unit duty per tile of the SparseCore (named by its number),
    the staging tiles' duties carrying their rows. -/
def bRd : Rounds.Schedule (GSem nD τ sig) ℕ 𝕄 where
  duties g r := if isBar g ∧ r = 0 then (Finset.univ : Finset (Fin τ.nSub)).image Fin.val else ∅
  amount _ _ _ := 1
  payload g _ n := bPay TbA g n
  amount_pos _ _ _ _ := Nat.one_pos

instance bRd_payload_storable (g : GSem nD τ sig) (r n : ℕ) : BI.Storable (upEmb : UEmb _ 𝕄) ((bRd (F := F) TbA).payload g r n) := by
  show BI.Storable upEmb (bPay TbA g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) :
    (bRd (F := F) TbA).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) TbA).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) TbA).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

omit [FloatOps F] in
/-- The payload of a staging tile's duty, and of the others'. -/
theorem bRd_payload_lt (d : Dev nD) (c : Fin τ.nSC) (j : Fin τ.nSub) (r n : ℕ) (h : n < 13) :
    (bRd (F := F) TbA).payload (bcell d c j) r n = (shLoc d c ↦[tabSet ⟨n, h⟩]{shq j} (spVal (TbA d) c) : sProp 𝕄) := by
  show bPay TbA (bcell d c j) n = _
  unfold bPay; exact dif_pos h
omit [FloatOps F] in
theorem bRd_payload_ge (d : Dev nD) (c : Fin τ.nSC) (j : Fin τ.nSub) (r n : ℕ) (h : ¬ n < 13) :
    (bRd (F := F) TbA).payload (bcell d c j) r n = (iprop(emp) : sProp 𝕄) := by
  show bPay TbA (bcell d c j) n = _
  unfold bPay; exact dif_neg h

/-- What the launch has tile `(c, i)` owe for the barrier: a unit on every tile's cell of its SparseCore, at the call's
    index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing), its
    duty token in every tile's round 0, that each cell has reached round 0, its own position at the origin of round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) TbA) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What a tile is handed and what it hands back -/

/-- Tile `L` at its start: its read shares of the index columns and the tables, its rectangle of the result at the
    launch contents, and, a staging tile, its thousand rows of the shared scratch at some contents. -/
def goRes {d : Dev nD} (X : Buf (Elt F) (ixLoc d)) (Tb : Buf (Elt F) (tbLoc d)) (f0 : Buf (Elt F) (outLoc d)) (L : grid0.Coords) : sProp 𝕄 :=
  iprop((ixLoc d ↦{shareOf L} X) ∗ (tbLoc d ↦{shareOf L} Tb) ∗ (outLoc d ↦[outSet L]{fullShare} f0)
    ∗ (if h : (L 1).val < 13 then iprop(∃ f, shLoc d (cV L) ↦[tabSet ⟨(L 1).val, h⟩]{fullShare} f) else iprop(emp)))

/-- Tile `L` at its end: the read shares back, its rectangle of the result at the lookup, and the whole shared scratch
    at its sixteenth share, at the staged contents. -/
def tdRes {d : Dev nD} (X : Buf (Elt F) (ixLoc d)) (Tb : Buf (Elt F) (tbLoc d)) (L : grid0.Coords) : sProp 𝕄 :=
  iprop((ixLoc d ↦{shareOf L} X) ∗ (tbLoc d ↦{shareOf L} Tb) ∗ (outLoc d ↦[outSet L]{fullShare} (Cert.LookupKB.gathered X Tb))
    ∗ (shLoc d (cV L) ↦{shq (jV L)} (spVal Tb (cV L))))

/-! ## What the handshakes carry -/

-- The flattened index columns per device, and the result's launch contents.
variable (XA : (d : Dev nD) → Buf (Elt F) (ixLoc d)) (fA : (d : Dev nD) → Buf (Elt F) (outLoc d))

/-- The part of the result that SparseCore `c`'s sixteen tiles write: their rectangles together (columns
    `[1664 c, 1664 c + 1664)`). -/
def halfSet (c : Fin (grid0.bound 0)) : Finset S16384x3328.Idx :=
  (Finset.univ : Finset (Fin (grid0.bound 1))).biUnion fun s => outSet (coordsV c s)

theorem nSub_eq : τ.nSub = 16 := rfl
theorem nSC_eq : τ.nSC = 2 := rfl

/-- The one call: each SparseCore takes a half share of the index columns and of the tables and its column half of the
    result; each task its thirty-second shares, its rectangle and, a staging task, its rows of the shared scratch; the
    tasks bring back the rectangle at the lookup and the scratch's sixteenth shares; each task's proof consumes its
    barrier kit; each tile owes its arrivals. -/
def P : (K (F := F)).Pay (nD := nD) (Val := Elt F) (Name := ℕ) (U := UU) where
  st := fun q d c => match q with
    | 0 => iprop((ixLoc d ↦{halfq c} XA d) ∗ (tbLoc d ↦{halfq c} TbA d)
        ∗ (outLoc d ↦[halfSet c]{fullShare} fA d))
  dn := fun q d c => match q with
    | 0 => iprop((ixLoc d ↦{halfq c} XA d) ∗ (tbLoc d ↦{halfq c} TbA d)
        ∗ (outLoc d ↦[halfSet c]{fullShare} (Cert.LookupKB.gathered (XA d) (TbA d))))
  go := fun q d c i => match q with
    | 0 => goRes (XA d) (TbA d) (fA d) (coordsV c i)
  td := fun q d c i => match q with
    | 0 => tdRes (XA d) (TbA d) (coordsV c i)
  x := fun _ thr => match thr with
    | (d, .scVector c i) => bkit TbA d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) TbA XA fA).IsStorable where
  st q d c := match q with
    | 0 => (inferInstance : BI.Storable (upEmb : UEmb _ 𝕄) iprop((ixLoc d ↦{halfq c} XA d) ∗ (tbLoc d ↦{halfq c} TbA d)
        ∗ (outLoc d ↦[halfSet c]{fullShare} fA d)))
  dn q d c := match q with
    | 0 => (inferInstance : BI.Storable (upEmb : UEmb _ 𝕄) iprop((ixLoc d ↦{halfq c} XA d) ∗ (tbLoc d ↦{halfq c} TbA d)
        ∗ (outLoc d ↦[halfSet c]{fullShare} (Cert.LookupKB.gathered (XA d) (TbA d)))))
  go q d c i := match q with
    | 0 => by
      show BI.Storable upEmb (goRes (XA d) (TbA d) (fA d) (coordsV c i))
      unfold goRes; split <;> infer_instance
  td q d c i := match q with
    | 0 => by
      show BI.Storable upEmb (tdRes (XA d) (TbA d) (coordsV c i))
      unfold tdRes; infer_instance

/-! ## The tile's body, as a proposition -/

/-- The obligation of one tile's body, at a symbolic place: from the levels, its barrier kit, what it is handed, its own
    scratch and semaphores and what it owes, the body runs and ends with what it hands back, its scratch and semaphores,
    and what it owed paid but for `O`. -/
def TileBody : Prop :=
  ∀ (hF : (K (F := F)).Facts) (TbA : (d : Dev nD) → Buf (Elt F) (tbLoc d)) (d : Dev nD) (L : grid0.Coords)
    (X : Buf (Elt F) (ixLoc d)) (_hX : ∀ j, (X j).toNat < 1000) (f0 : Buf (Elt F) (outLoc d))
    (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_kernel L (Memref.whole main_v1_scv) (Memref.isWhole_whole _) (Memref.whole main_v2_scv) (Memref.isWhole_whole _)
            (Memref.whole main_v3_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0)
          fun _ => iprop(tdRes X (TbA d) L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.KB

end
-- ==== Proof.KB.Obl.lean ====
/-
  The tile's obligation, as the launch theorem asks it, from the obligation of the tile's body.

  The launch theorem runs tile `i` of SparseCore `c` of the call's grid on the body table's entry for that thread; that
  entry is the kernel function at the grid point `(c, i)`, on the whole arrays.  The body's proposition is stated at a
  symbolic grid point, so the obligation is its instance.
-/
import proofs.«206644_g35837207118489_cont_8to1_b_589_28_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (TbA : (d : Dev nD) → Buf (Elt F) (tbLoc d)) (XA : (d : Dev nD) → Buf (Elt F) (ixLoc d)) (fA : (d : Dev nD) → Buf (Elt F) (outLoc d))

theorem defs₀_vector (c : Fin τ.nSC) (s : Fin τ.nSub) :
    defs₀ (F := F) (.scVector c s) 0 ()
      = SparseCore.onTile hcore0 hsub0 (fun c s => cc0__gather_kernel (coordsV c s)
          (Memref.whole main_v1_scv) (Memref.isWhole_whole _) (Memref.whole main_v2_scv) (Memref.isWhole_whole _)
            (Memref.whole main_v3_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0) ⟨⟩ c s := rfl

set_option maxRecDepth 16384 in
theorem tileObl (hbody : TileBody (F := F)) (hF : (K (F := F)).Facts) (hX : ∀ d j, (XA d j).toNat < 1000) :
    (K (F := F)).TileObl (D (F := F)) 𝒱 (P TbA XA fA) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody hF TbA d (coordsV ⟨_, hci.1⟩ ⟨_, hci.2⟩) (XA d) (hX d) (fA d) O W hO hOlev

end Cert.Proof.KB

end
-- ==== Proof.KB.Split.lean ====
/-
  How a SparseCore's operands split among its sixteen tiles, and how the tiles' results rejoin.

  Shares: a points-to at a share is the points-tos at the leaves of its halving, so a SparseCore's half share of the index
  columns (and of the tables) is its sixteen tiles' leaves, and the sixteen leaves of the full share of the shared scratch
  rejoin to the scratch whole.  Rectangles: the sixteen rectangles of a SparseCore's tiles lie in disjoint row bands, and
  their union is by definition the SparseCore's part of the result; the thirteen tables' rows in the shared scratch are
  disjoint bands that cover it.
-/
import proofs.«206644_g35837207118489_cont_8to1_b_589_28_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Shares -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- A SparseCore's half share is its sixteen tiles' shares. -/
theorem shares_split {ℓ : Loc nD τ sig} (c : Fin (grid0.bound 0)) (f : Buf (Elt F) ℓ) :
    (ℓ ↦{halfq c} f : sProp 𝕄) = bigSep Finset.univ fun i : Fin ((K (F := F)).nSub 0) => ℓ ↦{shareOf (coordsV c i)} f :=
  pointsTo_leaves Finset.univ f 4 (halfq c)

/-- The full share is the two SparseCores' halves. -/
theorem halves_split {ℓ : Loc nD τ sig} (f : Buf (Elt F) ℓ) :
    (ℓ ↦{fullShare} f : sProp 𝕄) = bigSep Finset.univ fun c : Fin ((K (F := F)).nCore 0) => ℓ ↦{halfq c} f :=
  pointsTo_leaves Finset.univ f 1 fullShare

/-- The full share of a SparseCore's shared scratch is its sixteen tiles' sixteenths. -/
theorem sixteenths_join (d : Dev nD) (c : Fin (grid0.bound 0)) (f : Buf (Elt F) (shLoc d (c.castLE hcore0))) :
    (shLoc d (c.castLE hcore0) ↦{fullShare} f : sProp 𝕄)
      = bigSep Finset.univ fun i : Fin ((K (F := F)).nSub 0) => shLoc d (cV (coordsV c i)) ↦{shq (jV (coordsV c i))} f :=
  pointsTo_leaves Finset.univ f 4 fullShare

/-! ## Rectangles -/

/-- Membership in a unit-stride rectangle of a rank-2 shape, as two intervals. -/
theorem mem_unit2 {dd : Fin 2 → ℕ} (off size : Fin 2 → ℕ) (inb : ∀ a, off a + size a ≤ (⟨2, dd⟩ : Shape).size a) (j : (⟨2, dd⟩ : Shape).Idx) :
    j ∈ (Rect.unit (s := ⟨2, dd⟩) off size inb).set
      ↔ (off 0 ≤ (j 0).val ∧ (j 0).val < off 0 + size 0) ∧ (off 1 ≤ (j 1).val ∧ (j 1).val < off 1 + size 1) := by
  rw [LoadRect.mem_set]
  constructor
  · intro h
    obtain ⟨k0, hk0, e0⟩ := h 0
    obtain ⟨k1, hk1, e1⟩ := h 1
    simp only [Rect.unit, Nat.one_mul] at hk0 e0 hk1 e1
    omega
  · rintro ⟨⟨h0, h0'⟩, ⟨h1, h1'⟩⟩
    refine Fin.forall_fin_two.mpr ⟨⟨(j 0).val - off 0, ?_, ?_⟩, ⟨(j 1).val - off 1, ?_, ?_⟩⟩ <;> simp only [Rect.unit, Nat.one_mul] <;> omega

theorem mem_outSet (L : grid0.Coords) (j : S16384x3328.Idx) :
    j ∈ outSet L ↔ (1024 * (L 1).val ≤ (j 0).val ∧ (j 0).val < 1024 * (L 1).val + 1024) ∧ (1664 * (L 0).val ≤ (j 1).val ∧ (j 1).val < 1664 * (L 0).val + 1664) := by
  rw [outSet_eq]; exact mem_unit2 _ _ _ j

theorem mem_tabSet (s : Fin 13) (j : S13000x128.Idx) : j ∈ tabSet s ↔ 1000 * s.val ≤ (j 0).val ∧ (j 0).val < 1000 * s.val + 1000 := by
  rw [tabSet_eq, mem_unit2]
  have h1 := idx2_lt1 j
  show ((1000 * s.val ≤ (j 0).val ∧ (j 0).val < 1000 * s.val + 1000) ∧ (0 ≤ (j 1).val ∧ (j 1).val < 0 + 128)) ↔ _
  omega

/-- The rectangles of one SparseCore's tiles lie in disjoint row bands. -/
theorem outSets_disjoint (c : Fin (grid0.bound 0)) :
    ∀ i ∈ (Finset.univ : Finset (Fin (grid0.bound 1))), ∀ j ∈ (Finset.univ : Finset (Fin (grid0.bound 1))), i ≠ j →
      Disjoint (outSet (coordsV c i)) (outSet (coordsV c j)) := by
  intro i _ j _ hij
  rw [Finset.disjoint_left]
  intro x hx hx'
  rw [mem_outSet] at hx hx'
  have e1 : ((coordsV c i) 1).val = i.val := rfl
  have e2 : ((coordsV c j) 1).val = j.val := rfl
  rw [e1] at hx; rw [e2] at hx'
  exact hij (Fin.ext (by omega))

/-- A SparseCore's part of the result is its tiles' rectangles. -/
theorem out_split (d : Dev nD) (c : Fin (grid0.bound 0)) (f : Buf (Elt F) (outLoc d)) :
    (outLoc d ↦[halfSet c]{fullShare} f : sProp 𝕄)
      = bigSep Finset.univ fun i : Fin ((K (F := F)).nSub 0) => outLoc d ↦[outSet (coordsV c i)]{fullShare} f :=
  pointsTo_biUnion (ℓ := outLoc d) Finset.univ (fun i : Fin (grid0.bound 1) => outSet (coordsV c i)) (outSets_disjoint c)

/-- The two SparseCores' parts are disjoint column halves, and cover the result. -/
theorem halfSets_disjoint : ∀ c ∈ (Finset.univ : Finset (Fin (grid0.bound 0))), ∀ c' ∈ (Finset.univ : Finset (Fin (grid0.bound 0))), c ≠ c' →
    Disjoint (halfSet c) (halfSet c') := by
  intro c _ c' _ hcc
  rw [Finset.disjoint_left]
  intro x hx hx'
  unfold halfSet at hx hx'
  obtain ⟨i, -, hi⟩ := Finset.mem_biUnion.mp hx
  obtain ⟨i', -, hi'⟩ := Finset.mem_biUnion.mp hx'
  rw [mem_outSet] at hi hi'
  have e1 : ((coordsV c i) 0).val = c.val := rfl
  have e2 : ((coordsV c' i') 0).val = c'.val := rfl
  rw [e1] at hi; rw [e2] at hi'
  exact hcc (Fin.ext (by omega))

theorem halfSets_cover : (Finset.univ : Finset (Fin (grid0.bound 0))).biUnion halfSet = Finset.univ := by
  ext x
  simp only [Finset.mem_biUnion, Finset.mem_univ, true_and, iff_true]
  have h0 := idx2_lt0 x
  have h1 := idx2_lt1 x
  refine ⟨⟨(x 1).val / 1664, by show _ < 2; omega⟩, ?_⟩
  unfold halfSet
  refine Finset.mem_biUnion.mpr ⟨⟨(x 0).val / 1024, by show _ < 16; omega⟩, Finset.mem_univ _, ?_⟩
  rw [mem_outSet]
  show (1024 * ((x 0).val / 1024) ≤ (x 0).val ∧ (x 0).val < 1024 * ((x 0).val / 1024) + 1024)
    ∧ (1664 * ((x 1).val / 1664) ≤ (x 1).val ∧ (x 1).val < 1664 * ((x 1).val / 1664) + 1664)
  omega

theorem out_halves' (d : Dev nD) (f : Buf (Elt F) (outLoc d)) :
    (outLoc d ↦{fullShare} f : sProp 𝕄) = bigSep Finset.univ fun c : Fin (grid0.bound 0) => outLoc d ↦[halfSet c]{fullShare} f := by
  rw [← pointsTo_biUnion Finset.univ (ℓ := outLoc d) halfSet halfSets_disjoint, halfSets_cover]; try rfl

/-- The result whole is the two SparseCores' parts. -/
theorem out_halves (d : Dev nD) (f : Buf (Elt F) (outLoc d)) :
    (outLoc d ↦{fullShare} f : sProp 𝕄) = bigSep Finset.univ fun c : Fin ((K (F := F)).nCore 0) => outLoc d ↦[halfSet c]{fullShare} f :=
  out_halves' d f

/-! ## The shared scratch's thirteen tables -/

/-- Table `n`'s rows, for a tile number: nothing from thirteen on. -/
def tabSetN (n : ℕ) : Finset S13000x128.Idx := if h : n < 13 then tabSet ⟨n, h⟩ else ∅

theorem tabSetN_disjoint : ∀ i ∈ (Finset.univ : Finset (Fin (grid0.bound 1))), ∀ j ∈ (Finset.univ : Finset (Fin (grid0.bound 1))), i ≠ j →
    Disjoint (tabSetN i.val) (tabSetN j.val) := by
  intro i _ j _ hij
  unfold tabSetN
  split
  · split
    · rw [Finset.disjoint_left]
      intro x hx hx'
      rw [mem_tabSet] at hx hx'
      exact hij (Fin.ext (by simp only at hx hx'; omega))
    · exact Finset.disjoint_empty_right _
  · exact Finset.disjoint_empty_left _

theorem tabSetN_cover : (Finset.univ : Finset (Fin (grid0.bound 1))).biUnion (fun i => tabSetN i.val) = Finset.univ := by
  ext x
  simp only [Finset.mem_biUnion, Finset.mem_univ, true_and, iff_true]
  have h0 := idx2_lt0 x
  have hlt : (x 0).val / 1000 < 13 := by omega
  refine ⟨⟨(x 0).val / 1000, by show _ < 16; omega⟩, ?_⟩
  unfold tabSetN
  rw [dif_pos hlt, mem_tabSet]
  show 1000 * ((x 0).val / 1000) ≤ (x 0).val ∧ (x 0).val < 1000 * ((x 0).val / 1000) + 1000
  omega

variable [FloatOps F]

/-- The shared scratch whole, at some contents, deals each staging tile its table's rows. -/
theorem sh_deal (d : Dev nD) (c : Fin (grid0.bound 0)) (f : Buf (Elt F) (shLoc d (c.castLE hcore0))) :
    (shLoc d (c.castLE hcore0) ↦{fullShare} f : sProp 𝕄)
      ⊢ bigSep Finset.univ fun i : Fin ((K (F := F)).nSub 0) =>
          (if h : ((coordsV c i) 1).val < 13 then iprop(∃ f, shLoc d (cV (coordsV c i)) ↦[tabSet ⟨((coordsV c i) 1).val, h⟩]{fullShare} f) else iprop(emp) : sProp 𝕄) := by
  have e : (shLoc d (c.castLE hcore0) ↦{fullShare} f : sProp 𝕄)
      = bigSep Finset.univ fun i : Fin (grid0.bound 1) => shLoc d (c.castLE hcore0) ↦[tabSetN i.val]{fullShare} f := by
    rw [← pointsTo_biUnion (ℓ := shLoc d (c.castLE hcore0)) Finset.univ (fun i : Fin (grid0.bound 1) => tabSetN i.val) tabSetN_disjoint, tabSetN_cover]; try rfl
  rw [e]
  refine bigSep_mono fun i _ => ?_
  show (shLoc d (c.castLE hcore0) ↦[tabSetN i.val]{fullShare} f : sProp 𝕄)
    ⊢ (if h : i.val < 13 then iprop(∃ f, shLoc d (c.castLE hcore0) ↦[tabSet ⟨i.val, h⟩]{fullShare} f) else iprop(emp) : sProp 𝕄)
  unfold tabSetN
  split
  · exact BI.BIClass.exists_intro (Φ := fun f => (shLoc d (c.castLE hcore0) ↦[tabSet ⟨i.val, _⟩]{fullShare} f : sProp 𝕄)) f
  · exact fun _ _ => trivial

/-! ## The split -/

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable (TbA : (d : Dev nD) → Buf (Elt F) (tbLoc d)) (XA : (d : Dev nD) → Buf (Elt F) (ixLoc d)) (fA : (d : Dev nD) → Buf (Elt F) (outLoc d))

set_option maxRecDepth 16384 in
/-- A SparseCore's operands and its shared scratch split into its sixteen tasks' operands; the tasks' results rejoin to
    the SparseCore's results and the scratch whole. -/
theorem vecSplit : (K (F := F)).VecSplit (P TbA XA fA) 0 := by
  intro d c
  show iprop(iprop((ixLoc d ↦{halfq c} XA d) ∗ (tbLoc d ↦{halfq c} TbA d) ∗ (outLoc d ↦[halfSet c]{fullShare} fA d)) ∗ ownBufs (S d ((K (F := F)).core 0 c)))
    ⊢ |={Set.univ}=> iprop((bigSep Finset.univ fun i : Fin ((K (F := F)).nSub 0) => goRes (XA d) (TbA d) (fA d) (coordsV c i))
      ∗ ((bigSep Finset.univ fun i : Fin ((K (F := F)).nSub 0) => tdRes (XA d) (TbA d) (coordsV c i))
        -∗ iprop(iprop((ixLoc d ↦{halfq c} XA d) ∗ (tbLoc d ↦{halfq c} TbA d)
            ∗ (outLoc d ↦[halfSet c]{fullShare} (Cert.LookupKB.gathered (XA d) (TbA d)))) ∗ ownBufs (S d ((K (F := F)).core 0 c)))))
  unfold goRes tdRes
  simp only [bigSep_sep']
  rw [ownBufs_S, shares_split c (XA d), shares_split c (TbA d), out_split d c (fA d), out_split d c (Cert.LookupKB.gathered (XA d) (TbA d))]
  iintro ⟨⟨Hx, Ht, Ho⟩, ⟨%fsh, Hsh⟩, Hrest⟩; imodintro
  isplitl [Hx Ht Ho Hsh]
  · isplitl [Hx]; · iexact Hx
    isplitl [Ht]; · iexact Ht
    isplitl [Ho]; · iexact Ho
    iapply (sh_deal d c fsh); iexact Hsh
  iintro ⟨Hx, Ht, Ho, Hsh⟩
  isplitl [Hx Ht Ho]
  · isplitl [Hx]; · iexact Hx
    isplitl [Ht]; · iexact Ht
    iexact Ho
  isplitl [Hsh]
  · iexists (spVal (TbA d) (c.castLE hcore0))
    iapply (Entails.of_eq (sixteenths_join d c (spVal (TbA d) (c.castLE hcore0))).symm); iexact Hsh
  iexact Hrest

end Cert.Proof.KB

end
-- ==== Proof.KB.Elem.lean ====
/-
  The launch element of the ghost state, and what the launch deals every thread.

  The element is a pair: the handshakes' rounds, and the barrier cells' rounds with one cell per tile of the device and,
  in each cell's round 0, one duty token per tile of the same SparseCore.  At the launch the barrier cells' round states
  are funded, their invariants allocated at once over the tiles' barrier semaphores (which the launch hands over at zero),
  the credit for what the tiles owe at the barrier is regrouped from the payers to the waiters (tile `i` owes one unit on
  each of its SparseCore's sixteen cells; cell `j` is owed sixteen units, one by each tile), and every tile is dealt its
  kit: all sixteen invariants of its SparseCore, its token in each of their rounds, its own position and the credit for
  its own cell.
-/
import proofs.«206644_g35837207118489_cont_8to1_b_589_28_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (TbA : (d : Dev nD) → Buf (Elt F) (tbLoc d)) (XA : (d : Dev nD) → Buf (Elt F) (ixLoc d)) (fA : (d : Dev nD) → Buf (Elt F) (outLoc d))

/-! ## The cells and the tokens -/

abbrev DCI : Type := Dev nD × Fin τ.nSC × Fin τ.nSub
abbrev bcell₃ (x : DCI) : GSem nD τ sig := bcell x.1 x.2.1 x.2.2

/-- Every tile's barrier cell. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := by
  rintro ⟨d, c, i⟩ ⟨d', c', i'⟩ e
  have e1 : (d, Proc.scVector c i) = (d', Proc.scVector c' i') := (Prod.mk.inj e).1
  obtain ⟨rfl, e2⟩ := Prod.mk.inj e1
  obtain ⟨rfl, rfl⟩ := Proc.scVector.inj e2
  rfl

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  obtain ⟨e1, e2⟩ := Prod.mk.inj e
  have e3 : i.val = i'.val := (Prod.mk.inj e2).2
  have e4 : (d, Proc.scVector c (j.castLE hsub0)) = (d', Proc.scVector c' (j'.castLE hsub0)) := (Prod.mk.inj e1).1
  obtain ⟨rfl, e5⟩ := Prod.mk.inj e4
  obtain ⟨rfl, e6⟩ := Proc.scVector.inj e5
  obtain rfl : j = j' := Fin.ext (congrArg Fin.val e6)
  obtain rfl : i = i' := Fin.ext e3
  rfl

/-! ## The six parts of the launch element -/

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over: the barrier semaphore is not
    scoped and is not the `go` semaphore, so it is among each tile's free ones. -/
theorem sems_b : ((K (F := F)).freeSems0 : sProp 𝕄) ⊢ bigSep bCells fun g => semVal g 0 := by
  rw [bCells_eq]
  unfold SparseCore.Cfg.freeSems0
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) TbA) g 0)
    ⊢ |={Set.univ}=> iprop(∃ κ : GSem nD τ sig → ℕ, bigSep bCells fun g => cellInv EB (bRd (F := F) TbA) (κ g) g) := by
  refine (Rounds.bodies_intro EB (bRd (F := F) TbA) bCells).trans ((inv_alloc_family bCells (Rounds.body EB (bRd (F := F) TbA)) ∅ (E := Set.univ)).trans ?_)
  iintro H
  imod H with ⟨%κ, -, Hinv⟩
  imodintro; iexists κ; iexact Hinv

omit [FloatOps F] in
/-- `n` units owed one at a time are `n` units owed. -/
theorem sum_tallyAt_one (g : GSem nD τ sig) (ι : HIx 1) (n : ℕ) : ∑ _i : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

/-- What a tile owes for the barrier from the launch on is what it owes at the one call. -/
theorem oxFrom_V (d : Dev nD) (c : Fin τ.nSC) (i : Fin τ.nSub) : (P (F := F) TbA XA fA).oxFrom 0 (V d c i) = oxV d c := by
  rw [show (0 : ℕ) = (0 : Fin 1).val from rfl, (P TbA XA fA).oxFrom_step, (P TbA XA fA).oxFrom_end _ (n := (0 : Fin 1).val + 1) le_rfl, add_zero]; rfl

/-- The credit for the tiles' debts at the barrier, regrouped from the payers to the waiters: each tile the sixteen
    units of its own cell. -/
theorem creds_b : ((P (F := F) TbA XA fA).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) TbA XA fA).oxFrom 0 thr) : sProp 𝕄))]
  refine sep_elim_right.trans (sep_elim_right.trans ?_)
  simp only [oxFrom_V]
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  unfold oxV
  simp only [SparseCore.Cfg.cred_finsum]
  rw [bigSep_univ_comm]
  refine bigSep_mono fun j _ => ?_
  rw [← SparseCore.Cfg.cred_finsum, sum_tallyAt_one]; rfl

/-! ## The deal -/

omit [FloatOps F] in
/-- A persistent resource beside a big separating conjunction goes to each conjunct. -/
theorem bigSep_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- What every tile is handed alike: every barrier cell's invariant, and that each has reached round 0. -/
abbrev common : sProp 𝕄 :=
  iprop((∃ κ : GSem nD τ sig → ℕ, bigSep Finset.univ fun x : DCI => cellInv EB (bRd (F := F) TbA) (κ (bcell₃ x)) (bcell₃ x))
    ∗ bigSep Finset.univ fun x : DCI => reached EB (bcell₃ x) 0)
/-- What each tile is handed of its own: its position, its tokens, its credit. -/
abbrev own₁ (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(common (F := F) TbA ∗ own₁ dci) ⊢ (bkit (F := F) TbA dci.1 dci.2.1 dci.2.2 : sProp 𝕄) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_with (s := (Finset.univ : Finset (Fin (grid0.bound 1)))) (Φ := fun _ => iprop(emp))
      (R := bigSep Finset.univ fun x : DCI => cellInv EB (bRd (F := F) TbA) (κ (bcell₃ x)) (bcell₃ x)) fun j _ =>
        sep_elim_left.trans (bigSep_elim (Φ := fun x : DCI => (cellInv EB (bRd (F := F) TbA) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_with (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

theorem Px_T (d : Dev nD) : (bigSep Finset.univ fun q : Fin 1 => (P (F := F) TbA XA fA).x q (SparseCore.T d)) = iprop(emp) :=
  bigSep_univ_of_subsingleton (0 : Fin 1)
theorem Px_S (d : Dev nD) (c : Fin τ.nSC) : (bigSep Finset.univ fun q : Fin 1 => (P (F := F) TbA XA fA).x q (S d c)) = iprop(emp) :=
  bigSep_univ_of_subsingleton (0 : Fin 1)
theorem Px_V (d : Dev nD) (c : Fin τ.nSC) (i : Fin τ.nSub) :
    (bigSep Finset.univ fun q : Fin 1 => (P (F := F) TbA XA fA).x q (V d c i)) = bkit TbA d c i :=
  bigSep_univ_of_subsingleton (0 : Fin 1)

/-- Each tile its kit; the TensorCore and the sequencers nothing. -/
theorem deal :
    iprop(((∃ κ : GSem nD τ sig → ℕ, bigSep bCells fun g => cellInv EB (bRd (F := F) TbA) (κ g) g) ∗ bigSep bCells fun g => reached EB g 0)
        ∗ ((bigSep bCells fun g => atPos EB g 0 ∅ 0) ∗ (bigSep bToks fun x => dutyTok EB x.1 x.2.1 x.2.2)
          ∗ bigSep Finset.univ fun dci : DCI => cred (tallyAt (bcell₃ dci) (some 0) (grid0.bound 1))))
      ⊢ (bigSep Finset.univ fun thr : Thread nD τ => bigSep Finset.univ fun q : Fin 1 => (P (F := F) TbA XA fA).x q thr : sProp 𝕄) := by
  rw [SparseCore.Cfg.bigSep_threads (fun thr : Thread nD τ => bigSep Finset.univ fun q : Fin 1 => (P TbA XA fA).x q thr)]
  simp only [Px_T, Px_S, Px_V, bigSep_emp']
  rw [bCells_eq (F := F) fun g => reached EB g 0, bCells_eq (F := F) fun g => atPos EB g 0 ∅ 0, toks_eq]
  iintro ⟨⟨⟨%κ, Hinv⟩, #Hr⟩, Hat, Htok, Hcred⟩
  ihave Hinv' := (Entails.of_eq (bCells_eq (F := F) fun g => cellInv EB (bRd (F := F) TbA) (κ g) g)) $$ Hinv
  icases Hinv' with #Hinv'
  isplitr; · iempintro
  isplitr; · iempintro
  iapply (bigSep_with (R := common (F := F) TbA) (Φ := own₁ (F := F)) fun dci _ => kit_intro (F := F) TbA dci)
  isplitr
  · isplitl; · iexists κ; iexact Hinv'
    iexact Hr
  unfold own₁
  rw [bigSep_sep', bigSep_sep']
  isplitl [Hat]; · iexact Hat
  isplitl [Htok]; · iexact Htok
  iexact Hcred

/-! ## The launch element -/

theorem hu₀ : iprop(ownU (u₀ (F := F)) ∗ (P (F := F) TbA XA fA).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P TbA XA fA).x q thr) : sProp 𝕄) := by
  have h := SparseCore.Cfg.launch_elem (nD := nD) (Fr := (iprop(emp) : sProp 𝕄))
    (ownU_split (F := F) (initOf (K (F := F)).hsCells (K (F := F)).hsToks) (initOf bCells bToks))
    (Rounds.fund EB (bRd (F := F) TbA) bCells bToks) (sems_b (F := F)) (invs_b (F := F) TbA) (creds_b TbA XA fA) (deal TbA XA fA)
  have h0 : iprop(ownU (u₀ (F := F)) ∗ (P (F := F) TbA XA fA).oxCred ∗ (K (F := F)).freeSems0)
      ⊢ (iprop(ownU (u₀ (F := F)) ∗ (P (F := F) TbA XA fA).oxCred ∗ emp ∗ (K (F := F)).freeSems0) : sProp 𝕄) := by
    iintro ⟨Hu, Hcred, Hfree⟩
    isplitl [Hu]; · iexact Hu
    isplitl [Hcred]; · iexact Hcred
    isplitr; · iempintro
    iexact Hfree
  exact h0.trans h

end Cert.Proof.KB

end
-- ==== Proof.KB.Flat.lean ====
/-
  The index arithmetic that joins the flattened arrays the kernel reads to the two arguments.

  The host transposes the index array `x : [16384, 26]` and flattens it: word `16384 f + b` of the flat array is `x[b, f]`.
  It flattens the tables `t : [26, 1000, 128]` to 26000 rows: row `1000 f + r` is row `r` of table `f`.  Both are
  row-major re-indexings, so each is one equation between positions, linear in the coordinates.  Reading the flat arrays
  the way the tiles do, entry `(b, q)` of the result is `t[q / 128, x[b, q / 128] % 1000, q % 128]`: the lookup.
-/
import proofs.«206644_g35837207118489_cont_8to1_b_589_28_alg».proof.Proof.KB.Geom
import proofs.«206644_g35837207118489_cont_8to1_b_589_28_alg».proof.Proof.Spec
import Idealize.ShloMosaic.Lib.Pipeline.Value

namespace Cert.Lookup
end Cert.Lookup

namespace Cert.LookupKB

open Cert.Lookup

open Cert.Kernel Cert.Proof.KB
open Idealize.ShloMosaic Idealize.ShloMosaic.ValueIdx

/-- The flattened transposed index array at position `16384 f + b` is `x[b, f]`. -/
theorem flatIx_apply {α : Type} (x : S16384x26.Idx → α) (hT : S16384x26.Transposes [1, 0] S26x16384) (hC : S26x16384.ShapeCasts S425984)
    (f : Fin 26) (b : Fin 16384) (h : f.val * 16384 + b.val < 425984) :
    shapeCast S425984 (transpose S26x16384 [1, 0] x hT) hC (ix1 (n := 425984) ⟨f.val * 16384 + b.val, h⟩) = x (ix2 b f) := by
  refine (shapeCast_apply _ hC _ (ix2 (n0 := 26) (n1 := 16384) f b) ?_).trans ?_
  · rw [Shape.rowMajor_val_two, Shape.rowMajor_val_one]; rfl
  · exact transpose_apply [1, 0] x hT _ (ix2 b f) fun a => match a with | ⟨0, _⟩ => rfl | ⟨1, _⟩ => rfl

/-- The flattened tables at row `1000 f + r`, lane `q`, are `t[f, r, q]`. -/
theorem flatTb_apply {α : Type} (t : S26x1000x128.Idx → α) (hC : S26x1000x128.ShapeCasts S26000x128)
    (f : Fin 26) (r : Fin 1000) (q : Fin 128) (h : f.val * 1000 + r.val < 26000) :
    shapeCast S26000x128 t hC (ix2 (n0 := 26000) (n1 := 128) ⟨f.val * 1000 + r.val, h⟩ q) = t (ix3 f r q) := by
  refine shapeCast_apply _ hC _ (ix3 f r q) ?_
  rw [Shape.rowMajor_val_three, Shape.rowMajor_val_two]; rfl

variable {F : FTy → Type}

/-- What the tiles leave at `(b, q)`, once the index word it reads is named: lane `q % 128` of row `1000 (q / 128) + w % 1000`. -/
theorem gathered_apply {d : Dev nD} (X : Buf (Elt F) (ixLoc d)) (Tb : Buf (Elt F) (tbLoc d)) (j : S16384x3328.Idx) (w : BitVec 32)
    (h425 : (j 1).val / 128 * 16384 + (j 0).val < 425984)
    (hw : X (ix1 (n := 425984) ⟨(j 1).val / 128 * 16384 + (j 0).val, h425⟩) = w) :
    gathered X Tb j = Tb (ix2 (n0 := 26000) (n1 := 128)
      ⟨(j 1).val / 128 * 1000 + w.toNat % 1000, by
        have h1 := idx2_lt1 j; have := Nat.mod_lt w.toNat (show 0 < 1000 by decide); omega⟩
      ⟨(j 1).val % 128, Nat.mod_lt _ (by decide)⟩) := by
  subst hw; rfl

/-- Flat arrays that hold the two arguments in the flattened order make the tiles' result the lookup. -/
theorem gathered_eq_lookup_of {d : Dev nD} (X : Buf (Elt F) (ixLoc d)) (Tb : Buf (Elt F) (tbLoc d))
    (x : S16384x26.Idx → BitVec 32) (t : S26x1000x128.Idx → Elt F .f32)
    (hX : ∀ (f : Fin 26) (b : Fin 16384) (h : f.val * 16384 + b.val < 425984), X (ix1 (n := 425984) ⟨f.val * 16384 + b.val, h⟩) = x (ix2 b f))
    (hTb : ∀ (f : Fin 26) (r : Fin 1000) (q : Fin 128) (h : f.val * 1000 + r.val < 26000),
      Tb (ix2 (n0 := 26000) (n1 := 128) ⟨f.val * 1000 + r.val, h⟩ q) = t (ix3 f r q)) :
    gathered X Tb = lookup x t := by
  funext j
  have h0 := idx2_lt0 j; have h1 := idx2_lt1 j
  have h425 : (j 1).val / 128 * 16384 + (j 0).val < 425984 := by omega
  refine (gathered_apply X Tb j _ h425 (hX (fieldOf ⟨(j 1).val, h1⟩) ⟨(j 0).val, h0⟩ h425)).trans ?_
  exact hTb (fieldOf ⟨(j 1).val, h1⟩) (rowOf (x (ix2 ⟨(j 0).val, h0⟩ (fieldOf ⟨(j 1).val, h1⟩)))) (laneOf ⟨(j 1).val, h1⟩) _

/-- The flat arrays the host operations compute — the transposed index array flattened, the tables flattened — make the
    tiles' result the lookup. -/
theorem gathered_eq_lookup {d : Dev nD} (x : S16384x26.Idx → BitVec 32) (t : S26x1000x128.Idx → Elt F .f32)
    (hT : S16384x26.Transposes [1, 0] S26x16384) (hC1 : S26x16384.ShapeCasts S425984) (hC2 : S26x1000x128.ShapeCasts S26000x128) :
    gathered (F := F) (d := d) (shapeCast S425984 (transpose S26x16384 [1, 0] x hT) hC1) (shapeCast S26000x128 t hC2) = lookup x t :=
  gathered_eq_lookup_of _ _ x t (fun f b h => flatIx_apply x hT hC1 f b h) (fun f r q h => flatTb_apply t hC2 f r q h)

end Cert.LookupKB
-- ==== Proof.KB.Main.lean ====
/-
  @main on the TensorCore, how the final memory reads the result, and the program's run.

  @main transposes the index array and flattens it, flattens the tables, and makes the one SparseCore call.  The three
  host operations are run over the TensorCore's six arrays held whole; what the call is started from is then the
  flattened index columns and the flattened tables as those operations' own terms, and the result array at its launch
  contents.  The call takes the three arrays whole — split into the two SparseCores' halves — and brings the result back
  at the lookup.  The arguments are never written, so they end at their launch contents.
-/
import proofs.«206644_g35837207118489_cont_8to1_b_589_28_alg».proof.Proof.KB.Obl
import proofs.«206644_g35837207118489_cont_8to1_b_589_28_alg».proof.Proof.KB.Split
import proofs.«206644_g35837207118489_cont_8to1_b_589_28_alg».proof.Proof.KB.Elem
import proofs.«206644_g35837207118489_cont_8to1_b_589_28_alg».proof.Proof.KB.Flat

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.StableHlo (held held_split held_sdiff_result wp_hlo_within)

variable [FloatOps F]

variable (m : (ℓ : Loc nD τ sig) → Buf (Elt F) ℓ) (ρ : Dev nD → PrngReg)

/-! ## The arrays and the host operations -/

abbrev a0Loc (d : Dev nD) : Loc nD τ sig := (SparseCore.T d).loc main_arg0
abbrev a1Loc (d : Dev nD) : Loc nD τ sig := (SparseCore.T d).loc main_arg1

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev opT : HloOp τ sig (Elt F) :=
  StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev opR1 : HloOp τ sig (Elt F) := StableHlo.reshape main_v0 main_v1 rfl shapeCasts_S26x16384_S425984
abbrev opR2 : HloOp τ sig (Elt F) := StableHlo.reshape main_arg1 main_v2 rfl shapeCasts_S26x1000x128_S26000x128

/-- The TensorCore's arrays, all unscoped. -/
abbrev S6 : Finset (DevRef τ sig) := {a0', a1', v0', v1', v2', v3'}

omit [FloatOps F] in
theorem held_S6 (d : Dev nD) (W : Valuation τ sig (Elt F)) :
    (held (T d) S6 W : sProp 𝕄)
      = iprop((a0Loc d ↦{fullShare} W a0') ∗ (a1Loc d ↦{fullShare} W a1') ∗ ((SparseCore.T d).loc main_v0 ↦{fullShare} W v0')
          ∗ (ixLoc d ↦{fullShare} W v1') ∗ (tbLoc d ↦{fullShare} W v2') ∗ (outLoc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0)
          ∗ (ixLoc d ↦{fullShare} W main_v1) ∗ (tbLoc d ↦{fullShare} W main_v2) ∗ (outLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuation before the call: the three operations' results. -/
def V0 (d : Dev nD) : Valuation τ sig (Elt F) := fun b => m (d, b)
def V3 (d : Dev nD) : Valuation τ sig (Elt F) := (opR2 (F := F)).result ((opR1 (F := F)).result ((opT (F := F)).result (V0 m d)))

theorem unscoped_held (d : Dev nD) : (unscopedBufs d (fun b => m ((SparseCore.T d).loc b)) : sProp 𝕄) = held (T d) S6 (V0 m d) := by
  rw [unscopedBufs_eq, held_S6]; rfl

/-- The flattened index columns and the flattened tables, as the host operations compute them. -/
def XA (d : Dev nD) : Buf (Elt F) (ixLoc d) :=
  shapeCast S425984 (transpose S26x16384 [1, 0] (m (a0Loc d)) transposes_S16384x26_S26x16384_1_0) shapeCasts_S26x16384_S425984
def TbA (d : Dev nD) : Buf (Elt F) (tbLoc d) := shapeCast S26000x128 (m (a1Loc d)) shapeCasts_S26x1000x128_S26000x128
/-- The result's launch contents. -/
def fA (d : Dev nD) : Buf (Elt F) (outLoc d) := m (outLoc d)

theorem V3_a0 (d : Dev nD) : V3 m d a0' = m (a0Loc d) := by
  unfold V3
  rw [StableHlo.reshape_result_ne (r := main_arg0) (h := by decide), StableHlo.reshape_result_ne (r := main_arg0) (h := by decide),
    StableHlo.unary_result_ne (r := main_arg0) (h := by decide)]
  rfl
theorem V3_a1 (d : Dev nD) : V3 m d a1' = m (a1Loc d) := by
  unfold V3
  rw [StableHlo.reshape_result_ne (r := main_arg1) (h := by decide), StableHlo.reshape_result_ne (r := main_arg1) (h := by decide),
    StableHlo.unary_result_ne (r := main_arg1) (h := by decide)]
  rfl
theorem V3_v3 (d : Dev nD) : V3 m d v3' = fA m d := by
  unfold V3
  rw [StableHlo.reshape_result_ne (r := main_v3) (h := by decide), StableHlo.reshape_result_ne (r := main_v3) (h := by decide),
    StableHlo.unary_result_ne (r := main_v3) (h := by decide)]
  rfl
theorem V3_v2 (d : Dev nD) : V3 m d v2' = TbA m d := by
  unfold V3
  rw [StableHlo.reshape_result, StableHlo.reshape_result_ne (r := main_arg1) (h := by decide),
    StableHlo.unary_result_ne (r := main_arg1) (h := by decide)]
  rfl
theorem V3_v1 (d : Dev nD) : V3 m d v1' = XA m d := by
  unfold V3
  rw [StableHlo.reshape_result_ne (r := main_v1) (h := by decide), StableHlo.reshape_result, StableHlo.unary_result]
  rfl

theorem held_V3 (d : Dev nD) :
    (held (T d) S6 ((opR2 (F := F)).result ((opR1 (F := F)).result ((opT (F := F)).result (V0 m d)))) : sProp 𝕄)
      = iprop((a0Loc d ↦{fullShare} m (a0Loc d)) ∗ (a1Loc d ↦{fullShare} m (a1Loc d)) ∗ ((SparseCore.T d).loc main_v0 ↦{fullShare} V3 m d v0')
          ∗ (ixLoc d ↦{fullShare} XA m d) ∗ (tbLoc d ↦{fullShare} TbA m d) ∗ (outLoc d ↦{fullShare} fA m d)) := by
  show held (SparseCore.T d) S6 (V3 m d) = _
  rw [held_S6, V3_a0, V3_a1, V3_v1, V3_v2, V3_v3]

theorem hT : (opT (F := F)).bufs ⊆ S6 := show ({a0', v0'} : Finset (DevRef τ sig)) ⊆ S6 by decide
theorem hR1 : (opR1 (F := F)).bufs ⊆ S6 := show ({v0', v1'} : Finset (DevRef τ sig)) ⊆ S6 by decide
theorem hR2 : (opR2 (F := F)).bufs ⊆ S6 := show ({a1', v2'} : Finset (DevRef τ sig)) ⊆ S6 by decide

/-! ## The call's operands, whole -/

/-- What the call takes for the two SparseCores is the three arrays whole, and what it hands back. -/
theorem st0_eq (d : Dev nD) : (bigSep Finset.univ fun c : Fin ((K (F := F)).nCore 0) => (P (TbA m) (XA m) (fA m)).st 0 d c)
    = iprop((ixLoc d ↦{fullShare} XA m d) ∗ (tbLoc d ↦{fullShare} TbA m d) ∗ (outLoc d ↦{fullShare} fA m d)) := by
  show (bigSep Finset.univ fun c : Fin ((K (F := F)).nCore 0) => iprop((ixLoc d ↦{halfq c} XA m d) ∗ (tbLoc d ↦{halfq c} TbA m d)
        ∗ (outLoc d ↦[halfSet c]{fullShare} fA m d))) = _
  rw [bigSep_sep', bigSep_sep', ← halves_split, ← halves_split, ← out_halves]
theorem dn0_eq (d : Dev nD) : (bigSep Finset.univ fun c : Fin ((K (F := F)).nCore 0) => (P (TbA m) (XA m) (fA m)).dn 0 d c)
    = iprop((ixLoc d ↦{fullShare} XA m d) ∗ (tbLoc d ↦{fullShare} TbA m d) ∗ (outLoc d ↦{fullShare} Cert.LookupKB.gathered (XA m d) (TbA m d))) := by
  show (bigSep Finset.univ fun c : Fin ((K (F := F)).nCore 0) => iprop((ixLoc d ↦{halfq c} XA m d) ∗ (tbLoc d ↦{halfq c} TbA m d)
        ∗ (outLoc d ↦[halfSet c]{fullShare} Cert.LookupKB.gathered (XA m d) (TbA m d)))) = _
  rw [bigSep_sep', bigSep_sep', ← halves_split, ← halves_split, ← out_halves]

/-! ## @main -/

/-- What @main leaves the claim: the arguments at their launch contents, the result at the lookup. -/
abbrev FIN (d : Dev nD) : sProp 𝕄 :=
  iprop((a0Loc d ↦{fullShare} m (a0Loc d)) ∗ (a1Loc d ↦{fullShare} m (a1Loc d)) ∗ (outLoc d ↦{fullShare} Cert.LookupKB.gathered (XA m d) (TbA m d)))

/-- @main on device `d`'s TensorCore: the three host operations over the six arrays held whole, then the call from the
    flattened columns, the flattened tables and the result array; the arguments kept. -/
theorem hmain (κ : GSem nD τ sig → ℕ) (d : Dev nD) :
    iprop((K (F := F)).ctx EH (P (TbA m) (XA m) (fA m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT) (S := S6) hT (V := V0 m d)) $$ [Hb Hheld]
  · isplitl [Hb] <;> iassumption
  iintro ⟨Hb, Hheld⟩
  rw [wp_ret]; imodintro
  iapply (wp_hlo_within 𝒱 (SparseCore.T d) none Set.univ (op := opR1) (S := S6) hR1 (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opR2) (S := S6) hR2 (V := (opR1 (F := F)).result ((opT (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Ha0, Ha1, Hv0, Hv1, Hv2, Hv3⟩
  iapply ((K (F := F)).wp_run (D (F := F)) 𝒱 (EH := EH) (P := P (TbA m) (XA m) (fA m)) κ d 0) $$ [Hst Hv1 Hv2 Hv3 Ha0 Ha1]
  isplitr; · iexact Hctx
  isplitl [Hst]; · iexact Hst
  isplitl [Hv1 Hv2 Hv3]
  · rw [st0_eq]
    isplitl [Hv1]; · iexact Hv1
    isplitl [Hv2]; · iexact Hv2
    iexact Hv3
  iintro ⟨Hst, Hdn⟩
  ihave Hdn' := (Entails.of_eq (dn0_eq m d)) $$ Hdn
  icases Hdn' with ⟨-, -, Ho⟩
  imodintro
  isplitl [Hst]; · iexact Hst
  isplitl [Ha0]; · iexact Ha0
  isplitl [Ha1]; · iexact Ha1
  iexact Ho

/-! ## The final memory -/

def fq (d : Dev nD) (s' : Phys nD τ sig (Elt F)) : Prop :=
  s'.mem.mem (outLoc d) = Cert.LookupKB.gathered (XA m d) (TbA m d) ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  icombine HSI Ha0 gives %h0
  icombine HSI Ha1 gives %h1
  icombine HSI Ho gives %h2
  ipureintro
  exact ⟨funext fun i => h2 i (Finset.mem_univ i), funext fun i => h0 i (Finset.mem_univ i), funext fun i => h1 i (Finset.mem_univ i)⟩

/-! ## The program's run -/

/-- Every index word of the flattened columns is an index word of the argument. -/
theorem XA_range (hpre : ∀ d j, (m (a0Loc d) j).toNat < 1000) (d : Dev nD) (j : Idx (ixLoc d)) : (XA m d j).toNat < 1000 := by
  unfold XA
  exact hpre d _

theorem run_main [∀ e, Nonempty (Elt F e)] (hbody : TileBody (F := F)) (hpre : ∀ d j, (m (a0Loc d) j).toNat < 1000) :
    θ_run (Cert.Kernel.defs (F := F)) (Cert.Kernel.threads (F := F)) ⟨m, fun _ => 0, ρ⟩ (fun r => ∀ c : Dev nD,
      r.2.mem ((c.tc : Thread nD τ).loc main_v3) = Cert.Lookup.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (TbA m) (XA m) (fA m)) facts v₀
    (fun q hq => match q with | 0 => nomatch hq)
    (fun q _ => match q with | 0 => tileObl (TbA m) (XA m) (fA m) hbody facts (XA_range m hpre))
    (fun q _ => match q with | 0 => vecSplit (TbA m) (XA m) (fA m))
    m ρ main (fun _ => iprop(emp)) (FIN m) (u₀ (F := F)) (hu₀ (TbA m) (XA m) (fA m)) (hmain m ρ) (fq m) (hfin m) _
    (fun s' h c => by
      obtain ⟨h2, h0, h1⟩ := h c
      refine ⟨h2.trans ?_, h0, h1⟩
      exact Cert.LookupKB.gathered_eq_lookup (m (a0Loc c)) (m (a1Loc c)) _ _ _)

end Cert.Proof.KB

end
-- ==== Proof.RefOps.lean ====
/-
  The reference program as a straight line of host operations.

  The reference computes, for each of the 26 fields, one lookup: the field's table is cut out of the stacked tables and its
  unit axis dropped, the field's column of indices is cut out of the index matrix and its unit axis dropped, and the row
  lookup (negative indices wrapped, a validity mask, a gather of rows, a masked select) is run on the two; the 26 results
  are then laid side by side.  Here the program's three windows are shown to be ONE list of operations run in order: per
  field its four layout operations followed by the 23 operations of the row lookup (the same list for every field, over
  that field's buffers), and after the 26 fields the three concatenations.  From that the library's theorem for a straight
  line gives the run: every execution ends, and every buffer ends at the fold of the operations over the launch contents.
-/
import proofs.«206644_g35837207118489_cont_8to1_b_589_28_alg».proof.ReferenceIdeal
import Idealize.ShloMosaic.Lib.StableHlo.Run
import Idealize.ShloMosaic.Lib.Pipeline.Frame

noncomputable section

namespace Cert.RefSide

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Lists of operations joined -/

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The same for a property stated by membership. -/
theorem mem_append_of {α : Type} {p : α → Prop} {l₁ l₂ : List α} (h₁ : ∀ x ∈ l₁, p x) (h₂ : ∀ x ∈ l₂, p x) : ∀ x ∈ l₁ ++ l₂, p x :=
  fun x hx => (List.mem_append.1 hx).elim (h₁ x) (h₂ x)

/-! ## The row lookup, once, over any buffers -/

/-- The 23 operations of the row lookup over a table buffer `arg0`, an index buffer `arg1` and one call's buffers `φ`. -/
def takeOps (arg0 : StableHlo.TRef sig ⟨S1000x128, .f32⟩) (arg1 : StableHlo.TRef sig ⟨S16384, .i32⟩) (φ : fn_take.Bufs) :
    List (HloOp τ sig (Elt F)) :=
  [ StableHlo.TRef.nullary φ.c (constantI S_ 32 0#32),
    StableHlo.TRef.unary φ.c φ.v0 (broadcastInDim S16384 ![] bcast_S_S16384),
    StableHlo.TRef.binary arg1 φ.v0 φ.v1 (cmpi .slt),
    StableHlo.TRef.nullary φ.c_0 (constantI S_ 32 1000#32),
    StableHlo.TRef.unary φ.c_0 φ.v2 (broadcastInDim S16384 ![] bcast_S_S16384),
    StableHlo.TRef.binary arg1 φ.v2 φ.v3 addi,
    StableHlo.TRef.ternary φ.v1 φ.v3 arg1 φ.call0.v0 select,
    StableHlo.TRef.unary φ.call0.v0 φ.v5 (broadcastInDim S16384x1 ![0] bcast_S16384_S16384x1_0),
    StableHlo.TRef.nullary φ.c_1 (constantI S1 32 999#32),
    StableHlo.TRef.nullary φ.c_2 (constantI S_ 32 0#32),
    StableHlo.TRef.unary φ.c_2 φ.v6 (broadcastInDim S16384x1 ![] bcast_S_S16384x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S16384x1 ![0, 1] bcast_S1x1_S16384x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S16384x1_S16384_d1 h_S_),
    StableHlo.TRef.binary arg0 φ.v5 φ.v13 (fun x i => Host.gather gather_S1000x128_S16384x1_S16384x128_1_0_n_n_0_1_1128 x i),
    StableHlo.TRef.unary φ.v12 φ.v14 (broadcastInDim S16384x128 ![0] bcast_S16384_S16384x128_0),
    StableHlo.TRef.nullary φ.cst (constant S_ .f32 0x7FC00000#32),
    StableHlo.TRef.unary φ.cst φ.v15 (broadcastInDim S16384x128 ![] bcast_S_S16384x128),
    StableHlo.TRef.ternary φ.v14 φ.v13 φ.v15 φ.v16 select ]

/-- The row lookup's body is that list run in order. -/
theorem take_eq (arg0 : StableHlo.TRef sig ⟨S1000x128, .f32⟩) (arg1 : StableHlo.TRef sig ⟨S16384, .i32⟩) (φ : fn_take.Bufs) :
    fn_take.body (F := F) arg0 arg1 φ = seq (takeOps arg0 arg1 φ) := by
  simp only [fn_take.body, fn_where.body, takeOps, seq, bind_assoc, pure_bind]

/-- The buffers the row lookup writes. -/
def takeW (φ : fn_take.Bufs) : List (Ref sig .tc) :=
  [ φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref ]

theorem take_sub (arg0 : StableHlo.TRef sig ⟨S1000x128, .f32⟩) (arg1 : StableHlo.TRef sig ⟨S16384, .i32⟩) (φ : fn_take.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem take_fresh (arg0 : StableHlo.TRef sig ⟨S1000x128, .f32⟩) (arg1 : StableHlo.TRef sig ⟨S16384, .i32⟩) (φ : fn_take.Bufs) :
    ∀ op ∈ takeOps (F := F) arg0 arg1 φ, op.fresh = ∅ := by
  intro _ h; (repeat (cases h with | head => rfl | tail _ h => ?_)); exact nomatch h

theorem take_writes (arg0 : StableHlo.TRef sig ⟨S1000x128, .f32⟩) (arg1 : StableHlo.TRef sig ⟨S16384, .i32⟩) (φ : fn_take.Bufs) :
    (takeOps (F := F) arg0 arg1 φ).Forall fun op => op.writes ⊆ ((takeW φ).map (Proc.devRef (τ := τ) .tc)).toFinset := by
  simp only [takeOps, List.Forall]
  exact ⟨by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW]),
    by simp only [nullary_writes, unary_writes, binary_writes, ternary_writes, Finset.singleton_subset_iff, List.mem_toFinset]; exact List.mem_map_of_mem (by simp [takeW])⟩

/-! ## The fields -/

/-- Field 0: its table and its index column cut out and their unit axes dropped, then the row lookup. -/
abbrev pre0 : List (HloOp τ sig (Elt F)) :=
  [ StableHlo.unary main_arg1 main_v0 ((extractStridedSlice S1x1000x128 ![0, 0, 0] · slices_S26x1000x128_S1x1000x128_0_0_0) : (⟨S26x1000x128, .f32⟩ : BufTy).Contents (Elt F) → (⟨S1x1000x128, .f32⟩ : BufTy).Contents (Elt F)),
    StableHlo.reshape main_v0 main_v1 rfl shapeCasts_S1x1000x128_S1000x128,
    StableHlo.unary main_arg0 main_v2 ((extractStridedSlice S16384x1 ![0, 0] · slices_S16384x26_S16384x1_0_0) : (⟨S16384x26, .i32⟩ : BufTy).Contents (Elt F) → (⟨S16384x1, .i32⟩ : BufTy).Contents (Elt F)),
    StableHlo.reshape main_v2 main_v3 rfl shapeCasts_S16384x1_S16384 ]
abbrev ops0 : List (HloOp τ sig (Elt F)) := pre0 ++ takeOps (.of main_v1) (.of main_v3) main_call0
abbrev W0 : List (Ref sig .tc) := [main_v0, main_v1, main_v2, main_v3] ++ takeW main_call0
theorem ops0_sub : (ops0 (F := F)).Forall fun op => op.bufs ⊆ tcRefs τ sig :=
  forall_append ⟨unary_bufs_sub .., reshape_bufs_sub .., unary_bufs_sub .., reshape_bufs_sub ..⟩ (take_sub _ _ _)
theorem ops0_fresh : ∀ op ∈ ops0 (F := F), op.fresh = ∅ :=
  mem_append_of (by intro _ h; (repeat (cases h with | head => rfl | tail _ h => ?_)); exact nomatch h) (take_fresh _ _ _)

/-- Field 1: its table and its index column cut out and their unit axes dropped, then the row lookup. -/
abbrev pre1 : List (HloOp τ sig (Elt F)) :=
  [ StableHlo.unary main_arg1 main_v5 ((extractStridedSlice S1x1000x128 ![1, 0, 0] · slices_S26x1000x128_S1x1000x128_1_0_0) : (⟨S26x1000x128, .f32⟩ : BufTy).Contents (Elt F) → (⟨S1x1000x128, .f32⟩ : BufTy).Contents (Elt F)),
    StableHlo.reshape main_v5 main_v6 rfl shapeCasts_S1x1000x128_S1000x128,
    StableHlo.unary main_arg0 main_v7 ((extractStridedSlice S16384x1 ![0, 1] · slices_S16384x26_S16384x1_0_1) : (⟨S16384x26, .i32⟩ : BufTy).Contents (Elt F) → (⟨S16384x1, .i32⟩ : BufTy).Contents (Elt F)),
    StableHlo.reshape main_v7 main_v8 rfl shapeCasts_S16384x1_S16384 ]
abbrev ops1 : List (HloOp τ sig (Elt F)) := pre1 ++ takeOps (.of main_v6) (.of main_v8) main_call1
abbrev W1 : List (Ref sig .tc) := [main_v5, main_v6, main_v7, main_v8] ++ takeW main_call1
theorem ops1_sub : (ops1 (F := F)).Forall fun op => op.bufs ⊆ tcRefs τ sig :=
  forall_append ⟨unary_bufs_sub .., reshape_bufs_sub .., unary_bufs_sub .., reshape_bufs_sub ..⟩ (take_sub _ _ _)
theorem ops1_fresh : ∀ op ∈ ops1 (F := F), op.fresh = ∅ :=
  mem_append_of (by intro _ h; (repeat (cases h with | head => rfl | tail _ h => ?_)); exact nomatch h) (take_fresh _ _ _)

/-- Field 2: its table and its index column cut out and their unit axes dropped, then the row lookup. -/
abbrev pre2 : List (HloOp τ sig (Elt F)) :=
  [ StableHlo.unary main_arg1 main_v10 ((extractStridedSlice S1x1000x128 ![2, 0, 0] · slices_S26x1000x128_S1x1000x128_2_0_0) : (⟨S26x1000x128, .f32⟩ : BufTy).Contents (Elt F) → (⟨S1x1000x128, .f32⟩ : BufTy).Contents (Elt F)),
    StableHlo.reshape main_v10 main_v11 rfl shapeCasts_S1x1000x128_S1000x128,
    StableHlo.unary main_arg0 main_v12 ((extractStridedSlice S16384x1 ![0, 2] · slices_S16384x26_S16384x1_0_2) : (⟨S16384x26, .i32⟩ : BufTy).Contents (Elt F) → (⟨S16384x1, .i32⟩ : BufTy).Contents (Elt F)),
    StableHlo.reshape main_v12 main_v13 rfl shapeCasts_S16384x1_S16384 ]
abbrev ops2 : List (HloOp τ sig (Elt F)) := pre2 ++ takeOps (.of main_v11) (.of main_v13) main_call2
abbrev W2 : List (Ref sig .tc) := [main_v10, main_v11, main_v12, main_v13] ++ takeW main_call2
theorem ops2_sub : (ops2 (F := F)).Forall fun op => op.bufs ⊆ tcRefs τ sig :=
  forall_append ⟨unary_bufs_sub .., reshape_bufs_sub .., unary_bufs_sub .., reshape_bufs_sub ..⟩ (take_sub _ _ _)
theorem ops2_fresh : ∀ op ∈ ops2 (F := F), op.fresh = ∅ :=
  mem_append_of (by intro _ h; (repeat (cases h with | head => rfl | tail _ h => ?_)); exact nomatch h) (take_fresh _ _ _)

/-- Field 3: its table and its index column cut out and their unit axes dropped, then the row lookup. -/
abbrev pre3 : List (HloOp τ sig (Elt F)) :=
  [ StableHlo.unary main_arg1 main_v15 ((extractStridedSlice S1x1000x128 ![3, 0, 0] · slices_S26x1000x128_S1x1000x128_3_0_0) : (⟨S26x1000x128, .f32⟩ : BufTy).Contents (Elt F) → (⟨S1x1000x128, .f32⟩ : BufTy).Contents (Elt F)),
    StableHlo.reshape main_v15 main_v16 rfl shapeCasts_S1x1000x128_S1000x128,
    StableHlo.unary main_arg0 main_v17 ((extractStridedSlice S16384x1 ![0, 3] · slices_S16384x26_S16384x1_0_3) : (⟨S16384x26, .i32⟩ : BufTy).Contents (Elt F) → (⟨S16384x1, .i32⟩ : BufTy).Contents (Elt F)),
    StableHlo.reshape main_v17 main_v18 rfl shapeCasts_S16384x1_S16384 ]
abbrev ops3 : List (HloOp τ sig (Elt F)) := pre3 ++ takeOps (.of main_v16) (.of main_v18) main_call3
abbrev W3 : List (Ref sig .tc) := [main_v15, main_v16, main_v17, main_v18] ++ takeW main_call3
theorem ops3_sub : (ops3 (F := F)).Forall fun op => op.bufs ⊆ tcRefs τ sig :=
  forall_append ⟨unary_bufs_sub .., reshape_bufs_sub .., unary_bufs_sub .., reshape_bufs_sub ..⟩ (take_sub _ _ _)
theorem ops3_fresh : ∀ op ∈ ops3 (F := F), op.fresh = ∅ :=
  mem_append_of (by intro _ h; (repeat (cases h with | head => rfl | tail _ h => ?_)); exact nomatch h) (take_fresh _ _ _)

/-- Field 4: its table and its index column cut out and their unit axes dropped, then the row lookup. -/
abbrev pre4 : List (HloOp τ sig (Elt F)) :=
  [ StableHlo.unary main_arg1 main_v20 ((extractStridedSlice S1x1000x128 ![4, 0, 0] · slices_S26x1000x128_S1x1000x128_4_0_0) : (⟨S26x1000x128, .f32⟩ : BufTy).Contents (Elt F) → (⟨S1x1000x128, .f32⟩ : BufTy).Contents (Elt F)),
    StableHlo.reshape main_v20 main_v21 rfl shapeCasts_S1x1000x128_S1000x128,
    StableHlo.unary main_arg0 main_v22 ((extractStridedSlice S16384x1 ![0, 4] · slices_S16384x26_S16384x1_0_4) : (⟨S16384x26, .i32⟩ : BufTy).Contents (Elt F) → (⟨S16384x1, .i32⟩ : BufTy).Contents (Elt F)),
    StableHlo.reshape main_v22 main_v23 rfl shapeCasts_S16384x1_S16384 ]
abbrev ops4 : List (HloOp τ sig (Elt F)) := pre4 ++ takeOps (.of main_v21) (.of main_v23) main_call4
abbrev W4 : List (Ref sig .tc) := [main_v20, main_v21, main_v22, main_v23] ++ takeW main_call4
theorem ops4_sub : (ops4 (F := F)).Forall fun op => op.bufs ⊆ tcRefs τ sig :=
  forall_append ⟨unary_bufs_sub .., reshape_bufs_sub .., unary_bufs_sub .., reshape_bufs_sub ..⟩ (take_sub _ _ _)
theorem ops4_fresh : ∀ op ∈ ops4 (F := F), op.fresh = ∅ :=
  mem_append_of (by intro _ h; (repeat (cases h with | head => rfl | tail _ h => ?_)); exact nomatch h) (take_fresh _ _ _)

/-- Field 5: its table and its index column cut out and their unit axes dropped, then the row lookup. -/
abbrev pre5 : List (HloOp τ sig (Elt F)) :=
  [ StableHlo.unary main_arg1 main_v25 ((extractStridedSlice S1x1000x128 ![5, 0, 0] · slices_S26x1000x128_S1x1000x128_5_0_0) : (⟨S26x1000x128, .f32⟩ : BufTy).Contents (Elt F) → (⟨S1x1000x128, .f32⟩ : BufTy).Contents (Elt F)),
    StableHlo.reshape main_v25 main_v26 rfl shapeCasts_S1x1000x128_S1000x128,
    StableHlo.unary main_arg0 main_v27 ((extractStridedSlice S16384x1 ![0, 5] · slices_S16384x26_S16384x1_0_5) : (⟨S16384x26, .i32⟩ : BufTy).Contents (Elt F) → (⟨S16384x1, .i32⟩ : BufTy).Contents (Elt F)),
    StableHlo.reshape main_v27 main_v28 rfl shapeCasts_S16384x1_S16384 ]
abbrev ops5 : List (HloOp τ sig (Elt F)) := pre5 ++ takeOps (.of main_v26) (.of main_v28) main_call5
abbrev W5 : List (Ref sig .tc) := [main_v25, main_v26, main_v27, main_v28] ++ takeW main_call5
theorem ops5_sub : (ops5 (F := F)).Forall fun op => op.bufs ⊆ tcRefs τ sig :=
  forall_append ⟨unary_bufs_sub .., reshape_bufs_sub .., unary_bufs_sub .., reshape_bufs_sub ..⟩ (take_sub _ _ _)
theorem ops5_fresh : ∀ op ∈ ops5 (F := F), op.fresh = ∅ :=
  mem_append_of (by intro _ h; (repeat (cases h with | head => rfl | tail _ h => ?_)); exact nomatch h) (take_fresh _ _ _)

/-- Field 6: its table and its index column cut out and their unit axes dropped, then the row lookup. -/
abbrev pre6 : List (HloOp τ sig (Elt F)) :=
  [ StableHlo.unary main_arg1 main_v30 ((extractStridedSlice S1x1000x128 ![6, 0, 0] · slices_S26x1000x128_S1x1000x128_6_0_0) : (⟨S26x1000x128, .f32⟩ : BufTy).Contents (Elt F) → (⟨S1x1000x128, .f32⟩ : BufTy).Contents (Elt F)),
    StableHlo.reshape main_v30 main_v31 rfl shapeCasts_S1x1000x128_S1000x128,
    StableHlo.unary main_arg0 main_v32 ((extractStridedSlice S16384x1 ![0, 6] · slices_S16384x26_S16384x1_0_6) : (⟨S16384x26, .i32⟩ : BufTy).Contents (Elt F) → (⟨S16384x1, .i32⟩ : BufTy).Contents (Elt F)),
    StableHlo.reshape main_v32 main_v33 rfl shapeCasts_S16384x1_S16384 ]
abbrev ops6 : List (HloOp τ sig (Elt F)) := pre6 ++ takeOps (.of main_v31) (.of main_v33) main_call6
abbrev W6 : List (Ref sig .tc) := [main_v30, main_v31, main_v32, main_v33] ++ takeW main_call6
theorem ops6_sub : (ops6 (F := F)).Forall fun op => op.bufs ⊆ tcRefs τ sig :=
  forall_append ⟨unary_bufs_sub .., reshape_bufs_sub .., unary_bufs_sub .., reshape_bufs_sub ..⟩ (take_sub _ _ _)
theorem ops6_fresh : ∀ op ∈ ops6 (F := F), op.fresh = ∅ :=
  mem_append_of (by intro _ h; (repeat (cases h with | head => rfl | tail _ h => ?_)); exact nomatch h) (take_fresh _ _ _)

/-- Field 7: its table and its index column cut out and their unit axes dropped, then the row lookup. -/
abbrev pre7 : List (HloOp τ sig (Elt F)) :=
  [ StableHlo.unary main_arg1 main_v35 ((extractStridedSlice S1x1000x128 ![7, 0, 0] · slices_S26x1000x128_S1x1000x128_7_0_0) : (⟨S26x1000x128, .f32⟩ : BufTy).Contents (Elt F) → (⟨S1x1000x128, .f32⟩ : BufTy).Contents (Elt F)),
    StableHlo.reshape main_v35 main_v36 rfl shapeCasts_S1x1000x128_S1000x128,
    StableHlo.unary main_arg0 main_v37 ((extractStridedSlice S16384x1 ![0, 7] · slices_S16384x26_S16384x1_0_7) : (⟨S16384x26, .i32⟩ : BufTy).Contents (Elt F) → (⟨S16384x1, .i32⟩ : BufTy).Contents (Elt F)),
    StableHlo.reshape main_v37 main_v38 rfl shapeCasts_S16384x1_S16384 ]
abbrev ops7 : List (HloOp τ sig (Elt F)) := pre7 ++ takeOps (.of main_v36) (.of main_v38) main_call7
abbrev W7 : List (Ref sig .tc) := [main_v35, main_v36, main_v37, main_v38] ++ takeW main_call7
theorem ops7_sub : (ops7 (F := F)).Forall fun op => op.bufs ⊆ tcRefs τ sig :=
  forall_append ⟨unary_bufs_sub .., reshape_bufs_sub .., unary_bufs_sub .., reshape_bufs_sub ..⟩ (take_sub _ _ _)
theorem ops7_fresh : ∀ op ∈ ops7 (F := F), op.fresh = ∅ :=
  mem_append_of (by intro _ h; (repeat (cases h with | head => rfl | tail _ h => ?_)); exact nomatch h) (take_fresh _ _ _)

/-- Field 8: its table and its index column cut out and their unit axes dropped, then the row lookup. -/
abbrev pre8 : List (HloOp τ sig (Elt F)) :=
  [ StableHlo.unary main_arg1 main_v40 ((extractStridedSlice S1x1000x128 ![8, 0, 0] · slices_S26x1000x128_S1x1000x128_8_0_0) : (⟨S26x1000x128, .f32⟩ : BufTy).Contents (Elt F) → (⟨S1x1000x128, .f32⟩ : BufTy).Contents (Elt F)),
    StableHlo.reshape main_v40 main_v41 rfl shapeCasts_S1x1000x128_S1000x128,
    StableHlo.unary main_arg0 main_v42 ((extractStridedSlice S16384x1 ![0, 8] · slices_S16384x26_S16384x1_0_8) : (⟨S16384x26, .i32⟩ : BufTy).Contents (Elt F) → (⟨S16384x1, .i32⟩ : BufTy).Contents (Elt F)),
    StableHlo.reshape main_v42 main_v43 rfl shapeCasts_S16384x1_S16384 ]
abbrev ops8 : List (HloOp τ sig (Elt F)) := pre8 ++ takeOps (.of main_v41) (.of main_v43) main_call8
abbrev W8 : List (Ref sig .tc) := [main_v40, main_v41, main_v42, main_v43] ++ takeW main_call8
theorem ops8_sub : (ops8 (F := F)).Forall fun op => op.bufs ⊆ tcRefs τ sig :=
  forall_append ⟨unary_bufs_sub .., reshape_bufs_sub .., unary_bufs_sub .., reshape_bufs_sub ..⟩ (take_sub _ _ _)
theorem ops8_fresh : ∀ op ∈ ops8 (F := F), op.fresh = ∅ :=
  mem_append_of (by intro _ h; (repeat (cases h with | head => rfl | tail _ h => ?_)); exact nomatch h) (take_fresh _ _ _)

/-- Field 9: its table and its index column cut out and their unit axes dropped, then the row lookup. -/
abbrev pre9 : List (HloOp τ sig (Elt F)) :=
  [ StableHlo.unary main_arg1 main_v45 ((extractStridedSlice S1x1000x128 ![9, 0, 0] · slices_S26x1000x128_S1x1000x128_9_0_0) : (⟨S26x1000x128, .f32⟩ : BufTy).Contents (Elt F) → (⟨S1x1000x128, .f32⟩ : BufTy).Contents (Elt F)),
    StableHlo.reshape main_v45 main_v46 rfl shapeCasts_S1x1000x128_S1000x128,
    StableHlo.unary main_arg0 main_v47 ((extractStridedSlice S16384x1 ![0, 9] · slices_S16384x26_S16384x1_0_9) : (⟨S16384x26, .i32⟩ : BufTy).Contents (Elt F) → (⟨S16384x1, .i32⟩ : BufTy).Contents (Elt F)),
    StableHlo.reshape main_v47 main_v48 rfl shapeCasts_S16384x1_S16384 ]
abbrev ops9 : List (HloOp τ sig (Elt F)) := pre9 ++ takeOps (.of main_v46) (.of main_v48) main_call9
abbrev W9 : List (Ref sig .tc) := [main_v45, main_v46, main_v47, main_v48] ++ takeW main_call9
theorem ops9_sub : (ops9 (F := F)).Forall fun op => op.bufs ⊆ tcRefs τ sig :=
  forall_append ⟨unary_bufs_sub .., reshape_bufs_sub .., unary_bufs_sub .., reshape_bufs_sub ..⟩ (take_sub _ _ _)
theorem ops9_fresh : ∀ op ∈ ops9 (F := F), op.fresh = ∅ :=
  mem_append_of (by intro _ h; (repeat (cases h with | head => rfl | tail _ h => ?_)); exact nomatch h) (take_fresh _ _ _)

/-- Field 10: its table and its index column cut out and their unit axes dropped, then the row lookup. -/
abbrev pre10 : List (HloOp τ sig (Elt F)) :=
  [ StableHlo.unary main_arg1 main_v50 ((extractStridedSlice S1x1000x128 ![10, 0, 0] · slices_S26x1000x128_S1x1000x128_10_0_0) : (⟨S26x1000x128, .f32⟩ : BufTy).Contents (Elt F) → (⟨S1x1000x128, .f32⟩ : BufTy).Contents (Elt F)),
    StableHlo.reshape main_v50 main_v51 rfl shapeCasts_S1x1000x128_S1000x128,
    StableHlo.unary main_arg0 main_v52 ((extractStridedSlice S16384x1 ![0, 10] · slices_S16384x26_S16384x1_0_10) : (⟨S16384x26, .i32⟩ : BufTy).Contents (Elt F) → (⟨S16384x1, .i32⟩ : BufTy).Contents (Elt F)),
    StableHlo.reshape main_v52 main_v53 rfl shapeCasts_S16384x1_S16384 ]
abbrev ops10 : List (HloOp τ sig (Elt F)) := pre10 ++ takeOps (.of main_v51) (.of main_v53) main_call10
abbrev W10 : List (Ref sig .tc) := [main_v50, main_v51, main_v52, main_v53] ++ takeW main_call10
theorem ops10_sub : (ops10 (F := F)).Forall fun op => op.bufs ⊆ tcRefs τ sig :=
  forall_append ⟨unary_bufs_sub .., reshape_bufs_sub .., unary_bufs_sub .., reshape_bufs_sub ..⟩ (take_sub _ _ _)
theorem ops10_fresh : ∀ op ∈ ops10 (F := F), op.fresh = ∅ :=
  mem_append_of (by intro _ h; (repeat (cases h with | head => rfl | tail _ h => ?_)); exact nomatch h) (take_fresh _ _ _)

/-- Field 11: its table and its index column cut out and their unit axes dropped, then the row lookup. -/
abbrev pre11 : List (HloOp τ sig (Elt F)) :=
  [ StableHlo.unary main_arg1 main_v55 ((extractStridedSlice S1x1000x128 ![11, 0, 0] · slices_S26x1000x128_S1x1000x128_11_0_0) : (⟨S26x1000x128, .f32⟩ : BufTy).Contents (Elt F) → (⟨S1x1000x128, .f32⟩ : BufTy).Contents (Elt F)),
    StableHlo.reshape main_v55 main_v56 rfl shapeCasts_S1x1000x128_S1000x128,
    StableHlo.unary main_arg0 main_v57 ((extractStridedSlice S16384x1 ![0, 11] · slices_S16384x26_S16384x1_0_11) : (⟨S16384x26, .i32⟩ : BufTy).Contents (Elt F) → (⟨S16384x1, .i32⟩ : BufTy).Contents (Elt F)),
    StableHlo.reshape main_v57 main_v58 rfl shapeCasts_S16384x1_S16384 ]
abbrev ops11 : List (HloOp τ sig (Elt F)) := pre11 ++ takeOps (.of main_v56) (.of main_v58) main_call11
abbrev W11 : List (Ref sig .tc) := [main_v55, main_v56, main_v57, main_v58] ++ takeW main_call11
theorem ops11_sub : (ops11 (F := F)).Forall fun op => op.bufs ⊆ tcRefs τ sig :=
  forall_append ⟨unary_bufs_sub .., reshape_bufs_sub .., unary_bufs_sub .., reshape_bufs_sub ..⟩ (take_sub _ _ _)
theorem ops11_fresh : ∀ op ∈ ops11 (F := F), op.fresh = ∅ :=
  mem_append_of (by intro _ h; (repeat (cases h with | head => rfl | tail _ h => ?_)); exact nomatch h) (take_fresh _ _ _)

/-- Field 12: its table and its index column cut out and their unit axes dropped, then the row lookup. -/
abbrev pre12 : List (HloOp τ sig (Elt F)) :=
  [ StableHlo.unary main_arg1 main_v60 ((extractStridedSlice S1x1000x128 ![12, 0, 0] · slices_S26x1000x128_S1x1000x128_12_0_0) : (⟨S26x1000x128, .f32⟩ : BufTy).Contents (Elt F) → (⟨S1x1000x128, .f32⟩ : BufTy).Contents (Elt F)),
    StableHlo.reshape main_v60 main_v61 rfl shapeCasts_S1x1000x128_S1000x128,
    StableHlo.unary main_arg0 main_v62 ((extractStridedSlice S16384x1 ![0, 12] · slices_S16384x26_S16384x1_0_12) : (⟨S16384x26, .i32⟩ : BufTy).Contents (Elt F) → (⟨S16384x1, .i32⟩ : BufTy).Contents (Elt F)),
    StableHlo.reshape main_v62 main_v63 rfl shapeCasts_S16384x1_S16384 ]
abbrev ops12 : List (HloOp τ sig (Elt F)) := pre12 ++ takeOps (.of main_v61) (.of main_v63) main_call12
abbrev W12 : List (Ref sig .tc) := [main_v60, main_v61, main_v62, main_v63] ++ takeW main_call12
theorem ops12_sub : (ops12 (F := F)).Forall fun op => op.bufs ⊆ tcRefs τ sig :=
  forall_append ⟨unary_bufs_sub .., reshape_bufs_sub .., unary_bufs_sub .., reshape_bufs_sub ..⟩ (take_sub _ _ _)
theorem ops12_fresh : ∀ op ∈ ops12 (F := F), op.fresh = ∅ :=
  mem_append_of (by intro _ h; (repeat (cases h with | head => rfl | tail _ h => ?_)); exact nomatch h) (take_fresh _ _ _)

/-- Field 13: its table and its index column cut out and their unit axes dropped, then the row lookup. -/
abbrev pre13 : List (HloOp τ sig (Elt F)) :=
  [ StableHlo.unary main_arg1 main_v65 ((extractStridedSlice S1x1000x128 ![13, 0, 0] · slices_S26x1000x128_S1x1000x128_13_0_0) : (⟨S26x1000x128, .f32⟩ : BufTy).Contents (Elt F) → (⟨S1x1000x128, .f32⟩ : BufTy).Contents (Elt F)),
    StableHlo.reshape main_v65 main_v66 rfl shapeCasts_S1x1000x128_S1000x128,
    StableHlo.unary main_arg0 main_v67 ((extractStridedSlice S16384x1 ![0, 13] · slices_S16384x26_S16384x1_0_13) : (⟨S16384x26, .i32⟩ : BufTy).Contents (Elt F) → (⟨S16384x1, .i32⟩ : BufTy).Contents (Elt F)),
    StableHlo.reshape main_v67 main_v68 rfl shapeCasts_S16384x1_S16384 ]
abbrev ops13 : List (HloOp τ sig (Elt F)) := pre13 ++ takeOps (.of main_v66) (.of main_v68) main_call13
abbrev W13 : List (Ref sig .tc) := [main_v65, main_v66, main_v67, main_v68] ++ takeW main_call13
theorem ops13_sub : (ops13 (F := F)).Forall fun op => op.bufs ⊆ tcRefs τ sig :=
  forall_append ⟨unary_bufs_sub .., reshape_bufs_sub .., unary_bufs_sub .., reshape_bufs_sub ..⟩ (take_sub _ _ _)
theorem ops13_fresh : ∀ op ∈ ops13 (F := F), op.fresh = ∅ :=
  mem_append_of (by intro _ h; (repeat (cases h with | head => rfl | tail _ h => ?_)); exact nomatch h) (take_fresh _ _ _)

/-- Field 14: its table and its index column cut out and their unit axes dropped, then the row lookup. -/
abbrev pre14 : List (HloOp τ sig (Elt F)) :=
  [ StableHlo.unary main_arg1 main_v70 ((extractStridedSlice S1x1000x128 ![14, 0, 0] · slices_S26x1000x128_S1x1000x128_14_0_0) : (⟨S26x1000x128, .f32⟩ : BufTy).Contents (Elt F) → (⟨S1x1000x128, .f32⟩ : BufTy).Contents (Elt F)),
    StableHlo.reshape main_v70 main_v71 rfl shapeCasts_S1x1000x128_S1000x128,
    StableHlo.unary main_arg0 main_v72 ((extractStridedSlice S16384x1 ![0, 14] · slices_S16384x26_S16384x1_0_14) : (⟨S16384x26, .i32⟩ : BufTy).Contents (Elt F) → (⟨S16384x1, .i32⟩ : BufTy).Contents (Elt F)),
    StableHlo.reshape main_v72 main_v73 rfl shapeCasts_S16384x1_S16384 ]
abbrev ops14 : List (HloOp τ sig (Elt F)) := pre14 ++ takeOps (.of main_v71) (.of main_v73) main_call14
abbrev W14 : List (Ref sig .tc) := [main_v70, main_v71, main_v72, main_v73] ++ takeW main_call14
theorem ops14_sub : (ops14 (F := F)).Forall fun op => op.bufs ⊆ tcRefs τ sig :=
  forall_append ⟨unary_bufs_sub .., reshape_bufs_sub .., unary_bufs_sub .., reshape_bufs_sub ..⟩ (take_sub _ _ _)
theorem ops14_fresh : ∀ op ∈ ops14 (F := F), op.fresh = ∅ :=
  mem_append_of (by intro _ h; (repeat (cases h with | head => rfl | tail _ h => ?_)); exact nomatch h) (take_fresh _ _ _)

/-- Field 15: its table and its index column cut out and their unit axes dropped, then the row lookup. -/
abbrev pre15 : List (HloOp τ sig (Elt F)) :=
  [ StableHlo.unary main_arg1 main_v75 ((extractStridedSlice S1x1000x128 ![15, 0, 0] · slices_S26x1000x128_S1x1000x128_15_0_0) : (⟨S26x1000x128, .f32⟩ : BufTy).Contents (Elt F) → (⟨S1x1000x128, .f32⟩ : BufTy).Contents (Elt F)),
    StableHlo.reshape main_v75 main_v76 rfl shapeCasts_S1x1000x128_S1000x128,
    StableHlo.unary main_arg0 main_v77 ((extractStridedSlice S16384x1 ![0, 15] · slices_S16384x26_S16384x1_0_15) : (⟨S16384x26, .i32⟩ : BufTy).Contents (Elt F) → (⟨S16384x1, .i32⟩ : BufTy).Contents (Elt F)),
    StableHlo.reshape main_v77 main_v78 rfl shapeCasts_S16384x1_S16384 ]
abbrev ops15 : List (HloOp τ sig (Elt F)) := pre15 ++ takeOps (.of main_v76) (.of main_v78) main_call15
abbrev W15 : List (Ref sig .tc) := [main_v75, main_v76, main_v77, main_v78] ++ takeW main_call15
theorem ops15_sub : (ops15 (F := F)).Forall fun op => op.bufs ⊆ tcRefs τ sig :=
  forall_append ⟨unary_bufs_sub .., reshape_bufs_sub .., unary_bufs_sub .., reshape_bufs_sub ..⟩ (take_sub _ _ _)
theorem ops15_fresh : ∀ op ∈ ops15 (F := F), op.fresh = ∅ :=
  mem_append_of (by intro _ h; (repeat (cases h with | head => rfl | tail _ h => ?_)); exact nomatch h) (take_fresh _ _ _)

/-- Field 16: its table and its index column cut out and their unit axes dropped, then the row lookup. -/
abbrev pre16 : List (HloOp τ sig (Elt F)) :=
  [ StableHlo.unary main_arg1 main_v80 ((extractStridedSlice S1x1000x128 ![16, 0, 0] · slices_S26x1000x128_S1x1000x128_16_0_0) : (⟨S26x1000x128, .f32⟩ : BufTy).Contents (Elt F) → (⟨S1x1000x128, .f32⟩ : BufTy).Contents (Elt F)),
    StableHlo.reshape main_v80 main_v81 rfl shapeCasts_S1x1000x128_S1000x128,
    StableHlo.unary main_arg0 main_v82 ((extractStridedSlice S16384x1 ![0, 16] · slices_S16384x26_S16384x1_0_16) : (⟨S16384x26, .i32⟩ : BufTy).Contents (Elt F) → (⟨S16384x1, .i32⟩ : BufTy).Contents (Elt F)),
    StableHlo.reshape main_v82 main_v83 rfl shapeCasts_S16384x1_S16384 ]
abbrev ops16 : List (HloOp τ sig (Elt F)) := pre16 ++ takeOps (.of main_v81) (.of main_v83) main_call16
abbrev W16 : List (Ref sig .tc) := [main_v80, main_v81, main_v82, main_v83] ++ takeW main_call16
theorem ops16_sub : (ops16 (F := F)).Forall fun op => op.bufs ⊆ tcRefs τ sig :=
  forall_append ⟨unary_bufs_sub .., reshape_bufs_sub .., unary_bufs_sub .., reshape_bufs_sub ..⟩ (take_sub _ _ _)
theorem ops16_fresh : ∀ op ∈ ops16 (F := F), op.fresh = ∅ :=
  mem_append_of (by intro _ h; (repeat (cases h with | head => rfl | tail _ h => ?_)); exact nomatch h) (take_fresh _ _ _)

/-- Field 17: its table and its index column cut out and their unit axes dropped, then the row lookup. -/
abbrev pre17 : List (HloOp τ sig (Elt F)) :=
  [ StableHlo.unary main_arg1 main_v85 ((extractStridedSlice S1x1000x128 ![17, 0, 0] · slices_S26x1000x128_S1x1000x128_17_0_0) : (⟨S26x1000x128, .f32⟩ : BufTy).Contents (Elt F) → (⟨S1x1000x128, .f32⟩ : BufTy).Contents (Elt F)),
    StableHlo.reshape main_v85 main_v86 rfl shapeCasts_S1x1000x128_S1000x128,
    StableHlo.unary main_arg0 main_v87 ((extractStridedSlice S16384x1 ![0, 17] · slices_S16384x26_S16384x1_0_17) : (⟨S16384x26, .i32⟩ : BufTy).Contents (Elt F) → (⟨S16384x1, .i32⟩ : BufTy).Contents (Elt F)),
    StableHlo.reshape main_v87 main_v88 rfl shapeCasts_S16384x1_S16384 ]
abbrev ops17 : List (HloOp τ sig (Elt F)) := pre17 ++ takeOps (.of main_v86) (.of main_v88) main_call17
abbrev W17 : List (Ref sig .tc) := [main_v85, main_v86, main_v87, main_v88] ++ takeW main_call17
theorem ops17_sub : (ops17 (F := F)).Forall fun op => op.bufs ⊆ tcRefs τ sig :=
  forall_append ⟨unary_bufs_sub .., reshape_bufs_sub .., unary_bufs_sub .., reshape_bufs_sub ..⟩ (take_sub _ _ _)
theorem ops17_fresh : ∀ op ∈ ops17 (F := F), op.fresh = ∅ :=
  mem_append_of (by intro _ h; (repeat (cases h with | head => rfl | tail _ h => ?_)); exact nomatch h) (take_fresh _ _ _)

/-- Field 18: its table and its index column cut out and their unit axes dropped, then the row lookup. -/
abbrev pre18 : List (HloOp τ sig (Elt F)) :=
  [ StableHlo.unary main_arg1 main_v90 ((extractStridedSlice S1x1000x128 ![18, 0, 0] · slices_S26x1000x128_S1x1000x128_18_0_0) : (⟨S26x1000x128, .f32⟩ : BufTy).Contents (Elt F) → (⟨S1x1000x128, .f32⟩ : BufTy).Contents (Elt F)),
    StableHlo.reshape main_v90 main_v91 rfl shapeCasts_S1x1000x128_S1000x128,
    StableHlo.unary main_arg0 main_v92 ((extractStridedSlice S16384x1 ![0, 18] · slices_S16384x26_S16384x1_0_18) : (⟨S16384x26, .i32⟩ : BufTy).Contents (Elt F) → (⟨S16384x1, .i32⟩ : BufTy).Contents (Elt F)),
    StableHlo.reshape main_v92 main_v93 rfl shapeCasts_S16384x1_S16384 ]
abbrev ops18 : List (HloOp τ sig (Elt F)) := pre18 ++ takeOps (.of main_v91) (.of main_v93) main_call18
abbrev W18 : List (Ref sig .tc) := [main_v90, main_v91, main_v92, main_v93] ++ takeW main_call18
theorem ops18_sub : (ops18 (F := F)).Forall fun op => op.bufs ⊆ tcRefs τ sig :=
  forall_append ⟨unary_bufs_sub .., reshape_bufs_sub .., unary_bufs_sub .., reshape_bufs_sub ..⟩ (take_sub _ _ _)
theorem ops18_fresh : ∀ op ∈ ops18 (F := F), op.fresh = ∅ :=
  mem_append_of (by intro _ h; (repeat (cases h with | head => rfl | tail _ h => ?_)); exact nomatch h) (take_fresh _ _ _)

/-- Field 19: its table and its index column cut out and their unit axes dropped, then the row lookup. -/
abbrev pre19 : List (HloOp τ sig (Elt F)) :=
  [ StableHlo.unary main_arg1 main_v95 ((extractStridedSlice S1x1000x128 ![19, 0, 0] · slices_S26x1000x128_S1x1000x128_19_0_0) : (⟨S26x1000x128, .f32⟩ : BufTy).Contents (Elt F) → (⟨S1x1000x128, .f32⟩ : BufTy).Contents (Elt F)),
    StableHlo.reshape main_v95 main_v96 rfl shapeCasts_S1x1000x128_S1000x128,
    StableHlo.unary main_arg0 main_v97 ((extractStridedSlice S16384x1 ![0, 19] · slices_S16384x26_S16384x1_0_19) : (⟨S16384x26, .i32⟩ : BufTy).Contents (Elt F) → (⟨S16384x1, .i32⟩ : BufTy).Contents (Elt F)),
    StableHlo.reshape main_v97 main_v98 rfl shapeCasts_S16384x1_S16384 ]
abbrev ops19 : List (HloOp τ sig (Elt F)) := pre19 ++ takeOps (.of main_v96) (.of main_v98) main_call19
abbrev W19 : List (Ref sig .tc) := [main_v95, main_v96, main_v97, main_v98] ++ takeW main_call19
theorem ops19_sub : (ops19 (F := F)).Forall fun op => op.bufs ⊆ tcRefs τ sig :=
  forall_append ⟨unary_bufs_sub .., reshape_bufs_sub .., unary_bufs_sub .., reshape_bufs_sub ..⟩ (take_sub _ _ _)
theorem ops19_fresh : ∀ op ∈ ops19 (F := F), op.fresh = ∅ :=
  mem_append_of (by intro _ h; (repeat (cases h with | head => rfl | tail _ h => ?_)); exact nomatch h) (take_fresh _ _ _)

/-- Field 20: its table and its index column cut out and their unit axes dropped, then the row lookup. -/
abbrev pre20 : List (HloOp τ sig (Elt F)) :=
  [ StableHlo.unary main_arg1 main_v100 ((extractStridedSlice S1x1000x128 ![20, 0, 0] · slices_S26x1000x128_S1x1000x128_20_0_0) : (⟨S26x1000x128, .f32⟩ : BufTy).Contents (Elt F) → (⟨S1x1000x128, .f32⟩ : BufTy).Contents (Elt F)),
    StableHlo.reshape main_v100 main_v101 rfl shapeCasts_S1x1000x128_S1000x128,
    StableHlo.unary main_arg0 main_v102 ((extractStridedSlice S16384x1 ![0, 20] · slices_S16384x26_S16384x1_0_20) : (⟨S16384x26, .i32⟩ : BufTy).Contents (Elt F) → (⟨S16384x1, .i32⟩ : BufTy).Contents (Elt F)),
    StableHlo.reshape main_v102 main_v103 rfl shapeCasts_S16384x1_S16384 ]
abbrev ops20 : List (HloOp τ sig (Elt F)) := pre20 ++ takeOps (.of main_v101) (.of main_v103) main_call20
abbrev W20 : List (Ref sig .tc) := [main_v100, main_v101, main_v102, main_v103] ++ takeW main_call20
theorem ops20_sub : (ops20 (F := F)).Forall fun op => op.bufs ⊆ tcRefs τ sig :=
  forall_append ⟨unary_bufs_sub .., reshape_bufs_sub .., unary_bufs_sub .., reshape_bufs_sub ..⟩ (take_sub _ _ _)
theorem ops20_fresh : ∀ op ∈ ops20 (F := F), op.fresh = ∅ :=
  mem_append_of (by intro _ h; (repeat (cases h with | head => rfl | tail _ h => ?_)); exact nomatch h) (take_fresh _ _ _)

/-- Field 21: its table and its index column cut out and their unit axes dropped, then the row lookup. -/
abbrev pre21 : List (HloOp τ sig (Elt F)) :=
  [ StableHlo.unary main_arg1 main_v105 ((extractStridedSlice S1x1000x128 ![21, 0, 0] · slices_S26x1000x128_S1x1000x128_21_0_0) : (⟨S26x1000x128, .f32⟩ : BufTy).Contents (Elt F) → (⟨S1x1000x128, .f32⟩ : BufTy).Contents (Elt F)),
    StableHlo.reshape main_v105 main_v106 rfl shapeCasts_S1x1000x128_S1000x128,
    StableHlo.unary main_arg0 main_v107 ((extractStridedSlice S16384x1 ![0, 21] · slices_S16384x26_S16384x1_0_21) : (⟨S16384x26, .i32⟩ : BufTy).Contents (Elt F) → (⟨S16384x1, .i32⟩ : BufTy).Contents (Elt F)),
    StableHlo.reshape main_v107 main_v108 rfl shapeCasts_S16384x1_S16384 ]
abbrev ops21 : List (HloOp τ sig (Elt F)) := pre21 ++ takeOps (.of main_v106) (.of main_v108) main_call21
abbrev W21 : List (Ref sig .tc) := [main_v105, main_v106, main_v107, main_v108] ++ takeW main_call21
theorem ops21_sub : (ops21 (F := F)).Forall fun op => op.bufs ⊆ tcRefs τ sig :=
  forall_append ⟨unary_bufs_sub .., reshape_bufs_sub .., unary_bufs_sub .., reshape_bufs_sub ..⟩ (take_sub _ _ _)
theorem ops21_fresh : ∀ op ∈ ops21 (F := F), op.fresh = ∅ :=
  mem_append_of (by intro _ h; (repeat (cases h with | head => rfl | tail _ h => ?_)); exact nomatch h) (take_fresh _ _ _)

/-- Field 22: its table and its index column cut out and their unit axes dropped, then the row lookup. -/
abbrev pre22 : List (HloOp τ sig (Elt F)) :=
  [ StableHlo.unary main_arg1 main_v110 ((extractStridedSlice S1x1000x128 ![22, 0, 0] · slices_S26x1000x128_S1x1000x128_22_0_0) : (⟨S26x1000x128, .f32⟩ : BufTy).Contents (Elt F) → (⟨S1x1000x128, .f32⟩ : BufTy).Contents (Elt F)),
    StableHlo.reshape main_v110 main_v111 rfl shapeCasts_S1x1000x128_S1000x128,
    StableHlo.unary main_arg0 main_v112 ((extractStridedSlice S16384x1 ![0, 22] · slices_S16384x26_S16384x1_0_22) : (⟨S16384x26, .i32⟩ : BufTy).Contents (Elt F) → (⟨S16384x1, .i32⟩ : BufTy).Contents (Elt F)),
    StableHlo.reshape main_v112 main_v113 rfl shapeCasts_S16384x1_S16384 ]
abbrev ops22 : List (HloOp τ sig (Elt F)) := pre22 ++ takeOps (.of main_v111) (.of main_v113) main_call22
abbrev W22 : List (Ref sig .tc) := [main_v110, main_v111, main_v112, main_v113] ++ takeW main_call22
theorem ops22_sub : (ops22 (F := F)).Forall fun op => op.bufs ⊆ tcRefs τ sig :=
  forall_append ⟨unary_bufs_sub .., reshape_bufs_sub .., unary_bufs_sub .., reshape_bufs_sub ..⟩ (take_sub _ _ _)
theorem ops22_fresh : ∀ op ∈ ops22 (F := F), op.fresh = ∅ :=
  mem_append_of (by intro _ h; (repeat (cases h with | head => rfl | tail _ h => ?_)); exact nomatch h) (take_fresh _ _ _)

/-- Field 23: its table and its index column cut out and their unit axes dropped, then the row lookup. -/
abbrev pre23 : List (HloOp τ sig (Elt F)) :=
  [ StableHlo.unary main_arg1 main_v115 ((extractStridedSlice S1x1000x128 ![23, 0, 0] · slices_S26x1000x128_S1x1000x128_23_0_0) : (⟨S26x1000x128, .f32⟩ : BufTy).Contents (Elt F) → (⟨S1x1000x128, .f32⟩ : BufTy).Contents (Elt F)),
    StableHlo.reshape main_v115 main_v116 rfl shapeCasts_S1x1000x128_S1000x128,
    StableHlo.unary main_arg0 main_v117 ((extractStridedSlice S16384x1 ![0, 23] · slices_S16384x26_S16384x1_0_23) : (⟨S16384x26, .i32⟩ : BufTy).Contents (Elt F) → (⟨S16384x1, .i32⟩ : BufTy).Contents (Elt F)),
    StableHlo.reshape main_v117 main_v118 rfl shapeCasts_S16384x1_S16384 ]
abbrev ops23 : List (HloOp τ sig (Elt F)) := pre23 ++ takeOps (.of main_v116) (.of main_v118) main_call23
abbrev W23 : List (Ref sig .tc) := [main_v115, main_v116, main_v117, main_v118] ++ takeW main_call23
theorem ops23_sub : (ops23 (F := F)).Forall fun op => op.bufs ⊆ tcRefs τ sig :=
  forall_append ⟨unary_bufs_sub .., reshape_bufs_sub .., unary_bufs_sub .., reshape_bufs_sub ..⟩ (take_sub _ _ _)
theorem ops23_fresh : ∀ op ∈ ops23 (F := F), op.fresh = ∅ :=
  mem_append_of (by intro _ h; (repeat (cases h with | head => rfl | tail _ h => ?_)); exact nomatch h) (take_fresh _ _ _)

/-- Field 24: its table and its index column cut out and their unit axes dropped, then the row lookup. -/
abbrev pre24 : List (HloOp τ sig (Elt F)) :=
  [ StableHlo.unary main_arg1 main_v120 ((extractStridedSlice S1x1000x128 ![24, 0, 0] · slices_S26x1000x128_S1x1000x128_24_0_0) : (⟨S26x1000x128, .f32⟩ : BufTy).Contents (Elt F) → (⟨S1x1000x128, .f32⟩ : BufTy).Contents (Elt F)),
    StableHlo.reshape main_v120 main_v121 rfl shapeCasts_S1x1000x128_S1000x128,
    StableHlo.unary main_arg0 main_v122 ((extractStridedSlice S16384x1 ![0, 24] · slices_S16384x26_S16384x1_0_24) : (⟨S16384x26, .i32⟩ : BufTy).Contents (Elt F) → (⟨S16384x1, .i32⟩ : BufTy).Contents (Elt F)),
    StableHlo.reshape main_v122 main_v123 rfl shapeCasts_S16384x1_S16384 ]
abbrev ops24 : List (HloOp τ sig (Elt F)) := pre24 ++ takeOps (.of main_v121) (.of main_v123) main_call24
abbrev W24 : List (Ref sig .tc) := [main_v120, main_v121, main_v122, main_v123] ++ takeW main_call24
theorem ops24_sub : (ops24 (F := F)).Forall fun op => op.bufs ⊆ tcRefs τ sig :=
  forall_append ⟨unary_bufs_sub .., reshape_bufs_sub .., unary_bufs_sub .., reshape_bufs_sub ..⟩ (take_sub _ _ _)
theorem ops24_fresh : ∀ op ∈ ops24 (F := F), op.fresh = ∅ :=
  mem_append_of (by intro _ h; (repeat (cases h with | head => rfl | tail _ h => ?_)); exact nomatch h) (take_fresh _ _ _)

/-- Field 25: its table and its index column cut out and their unit axes dropped, then the row lookup. -/
abbrev pre25 : List (HloOp τ sig (Elt F)) :=
  [ StableHlo.unary main_arg1 main_v125 ((extractStridedSlice S1x1000x128 ![25, 0, 0] · slices_S26x1000x128_S1x1000x128_25_0_0) : (⟨S26x1000x128, .f32⟩ : BufTy).Contents (Elt F) → (⟨S1x1000x128, .f32⟩ : BufTy).Contents (Elt F)),
    StableHlo.reshape main_v125 main_v126 rfl shapeCasts_S1x1000x128_S1000x128,
    StableHlo.unary main_arg0 main_v127 ((extractStridedSlice S16384x1 ![0, 25] · slices_S16384x26_S16384x1_0_25) : (⟨S16384x26, .i32⟩ : BufTy).Contents (Elt F) → (⟨S16384x1, .i32⟩ : BufTy).Contents (Elt F)),
    StableHlo.reshape main_v127 main_v128 rfl shapeCasts_S16384x1_S16384 ]
abbrev ops25 : List (HloOp τ sig (Elt F)) := pre25 ++ takeOps (.of main_v126) (.of main_v128) main_call25
abbrev W25 : List (Ref sig .tc) := [main_v125, main_v126, main_v127, main_v128] ++ takeW main_call25
theorem ops25_sub : (ops25 (F := F)).Forall fun op => op.bufs ⊆ tcRefs τ sig :=
  forall_append ⟨unary_bufs_sub .., reshape_bufs_sub .., unary_bufs_sub .., reshape_bufs_sub ..⟩ (take_sub _ _ _)
theorem ops25_fresh : ∀ op ∈ ops25 (F := F), op.fresh = ∅ :=
  mem_append_of (by intro _ h; (repeat (cases h with | head => rfl | tail _ h => ?_)); exact nomatch h) (take_fresh _ _ _)

/-! ## The three concatenations -/

/-- The results of fields 0 … 15 side by side, those of fields 16 … 25 side by side, and the two joined. -/
abbrev opsT : List (HloOp τ sig (Elt F)) :=
  [ StableHlo.nary ![main_v4, main_v9, main_v14, main_v19, main_v24, main_v29, main_v34, main_v39, main_v44, main_v49, main_v54, main_v59, main_v64, main_v69, main_v74, main_v79] main_v130 (fun u => concatenate S16384x2048 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩, ⟨S16384x128, u 10⟩, ⟨S16384x128, u 11⟩, ⟨S16384x128, u 12⟩, ⟨S16384x128, u 13⟩, ⟨S16384x128, u 14⟩, ⟨S16384x128, u 15⟩] concatenates_S16384x128_S16384x128_S16384x128_S16384x128_S16384x128_S16384x128_S16384x128_S16384x128_S16384x128_S16384x128_S16384x128_S16384x128_S16384x128_S16384x128_S16384x128_S16384x128_S16384x2048_d1),
    StableHlo.nary ![main_v84, main_v89, main_v94, main_v99, main_v104, main_v109, main_v114, main_v119, main_v124, main_v129] main_v131 (fun u => concatenate S16384x1280 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩] concatenates_S16384x128_S16384x128_S16384x128_S16384x128_S16384x128_S16384x128_S16384x128_S16384x128_S16384x128_S16384x128_S16384x1280_d1),
    StableHlo.binary main_v130 main_v131 main_v132 ((fun a b => concatenate S16384x3328 1 [⟨S16384x2048, a⟩, ⟨S16384x1280, b⟩] concatenates_S16384x2048_S16384x1280_S16384x3328_d1) : (⟨S16384x2048, .f32⟩ : BufTy).Contents (Elt F) → (⟨S16384x1280, .f32⟩ : BufTy).Contents (Elt F) → (⟨S16384x3328, .f32⟩ : BufTy).Contents (Elt F)) ]
theorem opsT_sub : (opsT (F := F)).Forall fun op => op.bufs ⊆ tcRefs τ sig :=
  ⟨nary_bufs_sub .., nary_bufs_sub .., binary_bufs_sub ..⟩
theorem opsT_fresh : ∀ op ∈ opsT (F := F), op.fresh = ∅ := by
  intro _ h; (repeat (cases h with | head => rfl | tail _ h => ?_)); exact nomatch h

/-! ## The whole program -/

/-- The operations of the program's first window: fields 0 … 11. -/
def part0Ops : List (HloOp τ sig (Elt F)) := ops0 ++ (ops1 ++ (ops2 ++ (ops3 ++ (ops4 ++ (ops5 ++ (ops6 ++ (ops7 ++ (ops8 ++ (ops9 ++ (ops10 ++ (ops11)))))))))))
/-- Of its second window: fields 12 … 23. -/
def part1Ops : List (HloOp τ sig (Elt F)) := ops12 ++ (ops13 ++ (ops14 ++ (ops15 ++ (ops16 ++ (ops17 ++ (ops18 ++ (ops19 ++ (ops20 ++ (ops21 ++ (ops22 ++ (ops23)))))))))))
/-- Of its third window: fields 24 and 25 and the concatenations. -/
def part2Ops : List (HloOp τ sig (Elt F)) := ops24 ++ (ops25 ++ (opsT))
/-- All of them, in order. -/
def ops : List (HloOp τ sig (Elt F)) := part0Ops ++ (part1Ops ++ part2Ops)

set_option maxRecDepth 8192 in
set_option maxHeartbeats 4000000 in
theorem part0_eq (d : Dev nD) : main_part0 (F := F) d = seq part0Ops := by
  simp only [main_part0, take_eq, part0Ops, ops0, pre0, ops1, pre1, ops2, pre2, ops3, pre3, ops4, pre4, ops5, pre5, ops6, pre6, ops7, pre7, ops8, pre8, ops9, pre9, ops10, pre10, ops11, pre11, seq_append, seq, bind_assoc, pure_bind]

set_option maxRecDepth 8192 in
set_option maxHeartbeats 4000000 in
theorem part1_eq (d : Dev nD) : main_part1 (F := F) d = seq part1Ops := by
  simp only [main_part1, take_eq, part1Ops, ops12, pre12, ops13, pre13, ops14, pre14, ops15, pre15, ops16, pre16, ops17, pre17, ops18, pre18, ops19, pre19, ops20, pre20, ops21, pre21, ops22, pre22, ops23, pre23, seq_append, seq, bind_assoc, pure_bind]

set_option maxRecDepth 8192 in
set_option maxHeartbeats 4000000 in
theorem part2_eq (d : Dev nD) : main_part2 (F := F) d = seq part2Ops := by
  simp only [main_part2, take_eq, part2Ops, ops24, pre24, ops25, pre25, opsT, seq_append, seq, bind_assoc, pure_bind]

/-- The program is its operations run in order. -/
theorem main_eq (d : Dev nD) : main (F := F) d = seq ops := by
  unfold main ops
  rw [seq_append, seq_append, part0_eq d, part1_eq d, part2_eq d]

theorem ops_sub : (ops (F := F)).Forall fun op => op.bufs ⊆ tcRefs τ sig :=
  forall_append (forall_append ops0_sub (forall_append ops1_sub (forall_append ops2_sub (forall_append ops3_sub (forall_append ops4_sub (forall_append ops5_sub (forall_append ops6_sub (forall_append ops7_sub (forall_append ops8_sub (forall_append ops9_sub (forall_append ops10_sub (ops11_sub))))))))))))
    (forall_append (forall_append ops12_sub (forall_append ops13_sub (forall_append ops14_sub (forall_append ops15_sub (forall_append ops16_sub (forall_append ops17_sub (forall_append ops18_sub (forall_append ops19_sub (forall_append ops20_sub (forall_append ops21_sub (forall_append ops22_sub (ops23_sub))))))))))))
      (forall_append ops24_sub (forall_append ops25_sub opsT_sub)))

theorem ops_fresh : ∀ op ∈ ops (F := F), op.fresh = ∅ :=
  mem_append_of (mem_append_of ops0_fresh (mem_append_of ops1_fresh (mem_append_of ops2_fresh (mem_append_of ops3_fresh (mem_append_of ops4_fresh (mem_append_of ops5_fresh (mem_append_of ops6_fresh (mem_append_of ops7_fresh (mem_append_of ops8_fresh (mem_append_of ops9_fresh (mem_append_of ops10_fresh (ops11_fresh))))))))))))
    (mem_append_of (mem_append_of ops12_fresh (mem_append_of ops13_fresh (mem_append_of ops14_fresh (mem_append_of ops15_fresh (mem_append_of ops16_fresh (mem_append_of ops17_fresh (mem_append_of ops18_fresh (mem_append_of ops19_fresh (mem_append_of ops20_fresh (mem_append_of ops21_fresh (mem_append_of ops22_fresh (ops23_fresh))))))))))))
      (mem_append_of ops24_fresh (mem_append_of ops25_fresh opsT_fresh)))

theorem scopedRefs_eq : (Finset.univ.filter fun b : Ref sig .tc => b.isScoped) = ∅ := by decide
theorem scopedSems_eq : (Finset.univ.filter fun sm : SemLoc sig => sm.isScoped .tc) = ∅ := by decide

/-- Every execution of the program ends, and leaves every buffer at the fold of the operations over what the launch put there. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefSide

end
-- ==== Proof.RefTerm.lean ====
/-
  What the reference computes, as terms of the two argument arrays.

  `takeVal tab idx` is the row lookup's composed term: the index column `idx` with negative entries wrapped by the table's
  height, broadcast to a column, the mask "0 ≤ index ≤ 999", the gather of the table's rows at the indices, and the select
  of the gathered row where the mask holds and of the fill value elsewhere.  `fieldVal o` is the lookup of field `o`: the
  row lookup on the field's table and index column, each cut out of its array and its unit axis dropped.
-/
import proofs.«206644_g35837207118489_cont_8to1_b_589_28_alg».proof.ReferenceIdeal

noncomputable section

namespace Cert.RefSide

open Cert.ReferenceIdeal Cert.ReferenceIdeal.Facts₀ Cert.ReferenceIdeal.Facts Idealize.ShloMosaic

variable {F : FTy → Type} [FloatOps F] [Cert.ReferenceIdeal.Facts]

/-- The index column with negative entries wrapped: `idx + 1000` where `idx < 0`, else `idx`. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 1000#32))) idx

/-- The wrapped indices as a column. -/
def idxCol (idx : IVec S16384 32) : IVec S16384x1 32 :=
  broadcastInDim S16384x1 ![0] bcast_S16384_S16384x1_0 (wrapIdx idx)

/-- The mask: per batch entry, whether its wrapped index lies in `[0, 999]` (the conjunction over the unit axis). -/
def maskOf (idx : IVec S16384 32) : IVec S16384 1 :=
  Host.reduce IntOp.andi
    (andi (cmpi .sge (idxCol idx) (broadcastInDim S16384x1 ![] bcast_S_S16384x1 (constantI S_ 32 0#32)))
      (cmpi .sle (idxCol idx) (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- The row lookup: the table's row at each wrapped index where the mask holds, the fill value elsewhere. -/
def takeVal (tab : FVec F S1000x128 .f32) (idx : IVec S16384 32) : FVec F S16384x128 .f32 :=
  select (broadcastInDim S16384x128 ![0] bcast_S16384_S16384x128_0 (maskOf idx))
    (Host.gather gather_S1000x128_S16384x1_S16384x128_1_0_n_n_0_1_1128 tab (idxCol idx))
    (broadcastInDim S16384x128 ![] bcast_S_S16384x128 (constant S_ .f32 0x7FC00000#32))

/-- Field `o`'s table: rows `[o, o + 1)` of the stacked tables, the unit axis dropped. -/
def tabOf (o : Nat) (hs : S26x1000x128.Slices ![o, 0, 0] S1x1000x128) (t : FVec F S26x1000x128 .f32) : FVec F S1000x128 .f32 :=
  shapeCast S1000x128 (extractStridedSlice S1x1000x128 ![o, 0, 0] t hs) shapeCasts_S1x1000x128_S1000x128

/-- Field `o`'s index column: column `o` of the index matrix, the unit axis dropped. -/
def colOf (o : Nat) (hs : S16384x26.Slices ![0, o] S16384x1) (x : IVec S16384x26 32) : IVec S16384 32 :=
  shapeCast S16384 (extractStridedSlice S16384x1 ![0, o] x hs) shapeCasts_S16384x1_S16384

/-- Field `o`'s lookup. -/
def fieldVal (o : Nat) (hs : S26x1000x128.Slices ![o, 0, 0] S1x1000x128) (hs' : S16384x26.Slices ![0, o] S16384x1)
    (x : IVec S16384x26 32) (t : FVec F S26x1000x128 .f32) : FVec F S16384x128 .f32 :=
  takeVal (tabOf o hs t) (colOf o hs' x)

end Cert.RefSide

end
-- ==== Proof.RefFields.lean ====
/-
  Each field's 27 operations, run from any buffer contents: what they leave in the field's result buffer, and that they leave
  every buffer they do not write as it was.

  The result is read off the fold of the operations one operation at a time (each operation's result buffer holds its function
  of its operands' contents, every other buffer what it held); what comes out is the field's lookup term `fieldVal k` of the
  contents of the two argument buffers.  The conversions between a buffer's contents at its declared type and at the value's
  type cancel in pairs.
-/
import proofs.«206644_g35837207118489_cont_8to1_b_589_28_alg».proof.Proof.RefOps
import proofs.«206644_g35837207118489_cont_8to1_b_589_28_alg».proof.Proof.RefTerm

noncomputable section
namespace Cert.RefSide
open Cert.ReferenceIdeal Cert.ReferenceIdeal.Facts₀ Cert.ReferenceIdeal.Facts Idealize.ShloMosaic Idealize.ShloMosaic.TcCoe Idealize.SL.Sem Idealize.ShloMosaic.StableHlo
variable {F : FTy → Type} [FloatOps F] [Cert.ReferenceIdeal.Facts]

/-- Contents moved to a buffer's own type and back are the contents. -/
theorem ofBuf_toBuf {T : BufTy} {Val : EltTy → Type} (x : StableHlo.TRef sig T) (v : T.Contents Val) : x.ofBuf (x.toBuf v) = v := by
  obtain ⟨r, rfl, _, _⟩ := x; rfl

theorem toFinset_map_sub_left (A B : List (Ref sig .tc)) :
    (A.map (Proc.devRef (τ := τ) .tc)).toFinset ⊆ ((A ++ B).map (Proc.devRef (τ := τ) .tc)).toFinset := fun x hx => by
  rw [List.mem_toFinset] at hx ⊢; rw [List.map_append]; exact List.mem_append_left _ hx
theorem toFinset_map_sub_right (A B : List (Ref sig .tc)) :
    (B.map (Proc.devRef (τ := τ) .tc)).toFinset ⊆ ((A ++ B).map (Proc.devRef (τ := τ) .tc)).toFinset := fun x hx => by
  rw [List.mem_toFinset] at hx ⊢; rw [List.map_append]; exact List.mem_append_right _ hx

/-- What a field writes: its four layout results and the row lookup's buffers. -/
theorem field_writes {pre : List (HloOp τ sig (Elt F))} {Wp : List (Ref sig .tc)} (a0 : StableHlo.TRef sig ⟨S1000x128, .f32⟩) (a1 : StableHlo.TRef sig ⟨S16384, .i32⟩) (φ : fn_take.Bufs)
    (hp : pre.Forall fun (op : HloOp τ sig (Elt F)) => op.writes ⊆ (Wp.map (Proc.devRef (τ := τ) .tc)).toFinset) :
    (pre ++ takeOps a0 a1 φ).Forall fun (op : HloOp τ sig (Elt F)) => op.writes ⊆ ((Wp ++ takeW φ).map (Proc.devRef (τ := τ) .tc)).toFinset :=
  List.forall_iff_forall_mem.2 fun op hop => (List.mem_append.1 hop).elim
    (fun h => ((List.forall_iff_forall_mem.1 hp) op h).trans (toFinset_map_sub_left _ _))
    (fun h => ((List.forall_iff_forall_mem.1 (take_writes a0 a1 φ)) op h).trans (toFinset_map_sub_right _ _))

theorem pre0_writes : (pre0 (F := F)).Forall fun (op : HloOp τ sig (Elt F)) => op.writes ⊆ (([main_v0, main_v1, main_v2, main_v3] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops0_writes : (ops0 (F := F)).Forall fun (op : HloOp τ sig (Elt F)) => op.writes ⊆ (W0.map (Proc.devRef (τ := τ) .tc)).toFinset :=
  field_writes _ _ _ pre0_writes
/-- A buffer field 0 does not write keeps its contents through it. -/
theorem ops0_keep (V : Valuation τ sig (Elt F)) (r : Ref sig .tc) (h : r ∉ W0) : after ops0 V (Proc.devRef .tc r) = V (Proc.devRef .tc r) :=
  after_of_writes_sub ops0 V ops0_writes h
set_option maxRecDepth 65536 in
set_option maxHeartbeats 2000000 in
/-- Field 0's result buffer after its operations: the field's lookup of the two argument buffers' contents. -/
theorem ops0_val (V : Valuation τ sig (Elt F)) :
    after ops0 V (Proc.devRef .tc main_v4) = fieldVal 0 slices_S26x1000x128_S1x1000x128_0_0_0 slices_S16384x26_S16384x1_0_0 (V (Proc.devRef .tc main_arg0)) (V (Proc.devRef .tc main_arg1)) := by
  simp only [ops0, pre0, takeOps, List.cons_append, List.nil_append]
  after_results_simp
  simp only [ofBuf_toBuf]
  rfl

theorem pre1_writes : (pre1 (F := F)).Forall fun (op : HloOp τ sig (Elt F)) => op.writes ⊆ (([main_v5, main_v6, main_v7, main_v8] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops1_writes : (ops1 (F := F)).Forall fun (op : HloOp τ sig (Elt F)) => op.writes ⊆ (W1.map (Proc.devRef (τ := τ) .tc)).toFinset :=
  field_writes _ _ _ pre1_writes
/-- A buffer field 1 does not write keeps its contents through it. -/
theorem ops1_keep (V : Valuation τ sig (Elt F)) (r : Ref sig .tc) (h : r ∉ W1) : after ops1 V (Proc.devRef .tc r) = V (Proc.devRef .tc r) :=
  after_of_writes_sub ops1 V ops1_writes h
set_option maxRecDepth 65536 in
set_option maxHeartbeats 2000000 in
/-- Field 1's result buffer after its operations: the field's lookup of the two argument buffers' contents. -/
theorem ops1_val (V : Valuation τ sig (Elt F)) :
    after ops1 V (Proc.devRef .tc main_v9) = fieldVal 1 slices_S26x1000x128_S1x1000x128_1_0_0 slices_S16384x26_S16384x1_0_1 (V (Proc.devRef .tc main_arg0)) (V (Proc.devRef .tc main_arg1)) := by
  simp only [ops1, pre1, takeOps, List.cons_append, List.nil_append]
  after_results_simp
  simp only [ofBuf_toBuf]
  rfl

theorem pre2_writes : (pre2 (F := F)).Forall fun (op : HloOp τ sig (Elt F)) => op.writes ⊆ (([main_v10, main_v11, main_v12, main_v13] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops2_writes : (ops2 (F := F)).Forall fun (op : HloOp τ sig (Elt F)) => op.writes ⊆ (W2.map (Proc.devRef (τ := τ) .tc)).toFinset :=
  field_writes _ _ _ pre2_writes
/-- A buffer field 2 does not write keeps its contents through it. -/
theorem ops2_keep (V : Valuation τ sig (Elt F)) (r : Ref sig .tc) (h : r ∉ W2) : after ops2 V (Proc.devRef .tc r) = V (Proc.devRef .tc r) :=
  after_of_writes_sub ops2 V ops2_writes h
set_option maxRecDepth 65536 in
set_option maxHeartbeats 2000000 in
/-- Field 2's result buffer after its operations: the field's lookup of the two argument buffers' contents. -/
theorem ops2_val (V : Valuation τ sig (Elt F)) :
    after ops2 V (Proc.devRef .tc main_v14) = fieldVal 2 slices_S26x1000x128_S1x1000x128_2_0_0 slices_S16384x26_S16384x1_0_2 (V (Proc.devRef .tc main_arg0)) (V (Proc.devRef .tc main_arg1)) := by
  simp only [ops2, pre2, takeOps, List.cons_append, List.nil_append]
  after_results_simp
  simp only [ofBuf_toBuf]
  rfl

theorem pre3_writes : (pre3 (F := F)).Forall fun (op : HloOp τ sig (Elt F)) => op.writes ⊆ (([main_v15, main_v16, main_v17, main_v18] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops3_writes : (ops3 (F := F)).Forall fun (op : HloOp τ sig (Elt F)) => op.writes ⊆ (W3.map (Proc.devRef (τ := τ) .tc)).toFinset :=
  field_writes _ _ _ pre3_writes
/-- A buffer field 3 does not write keeps its contents through it. -/
theorem ops3_keep (V : Valuation τ sig (Elt F)) (r : Ref sig .tc) (h : r ∉ W3) : after ops3 V (Proc.devRef .tc r) = V (Proc.devRef .tc r) :=
  after_of_writes_sub ops3 V ops3_writes h
set_option maxRecDepth 65536 in
set_option maxHeartbeats 2000000 in
/-- Field 3's result buffer after its operations: the field's lookup of the two argument buffers' contents. -/
theorem ops3_val (V : Valuation τ sig (Elt F)) :
    after ops3 V (Proc.devRef .tc main_v19) = fieldVal 3 slices_S26x1000x128_S1x1000x128_3_0_0 slices_S16384x26_S16384x1_0_3 (V (Proc.devRef .tc main_arg0)) (V (Proc.devRef .tc main_arg1)) := by
  simp only [ops3, pre3, takeOps, List.cons_append, List.nil_append]
  after_results_simp
  simp only [ofBuf_toBuf]
  rfl

theorem pre4_writes : (pre4 (F := F)).Forall fun (op : HloOp τ sig (Elt F)) => op.writes ⊆ (([main_v20, main_v21, main_v22, main_v23] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops4_writes : (ops4 (F := F)).Forall fun (op : HloOp τ sig (Elt F)) => op.writes ⊆ (W4.map (Proc.devRef (τ := τ) .tc)).toFinset :=
  field_writes _ _ _ pre4_writes
/-- A buffer field 4 does not write keeps its contents through it. -/
theorem ops4_keep (V : Valuation τ sig (Elt F)) (r : Ref sig .tc) (h : r ∉ W4) : after ops4 V (Proc.devRef .tc r) = V (Proc.devRef .tc r) :=
  after_of_writes_sub ops4 V ops4_writes h
set_option maxRecDepth 65536 in
set_option maxHeartbeats 2000000 in
/-- Field 4's result buffer after its operations: the field's lookup of the two argument buffers' contents. -/
theorem ops4_val (V : Valuation τ sig (Elt F)) :
    after ops4 V (Proc.devRef .tc main_v24) = fieldVal 4 slices_S26x1000x128_S1x1000x128_4_0_0 slices_S16384x26_S16384x1_0_4 (V (Proc.devRef .tc main_arg0)) (V (Proc.devRef .tc main_arg1)) := by
  simp only [ops4, pre4, takeOps, List.cons_append, List.nil_append]
  after_results_simp
  simp only [ofBuf_toBuf]
  rfl

theorem pre5_writes : (pre5 (F := F)).Forall fun (op : HloOp τ sig (Elt F)) => op.writes ⊆ (([main_v25, main_v26, main_v27, main_v28] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops5_writes : (ops5 (F := F)).Forall fun (op : HloOp τ sig (Elt F)) => op.writes ⊆ (W5.map (Proc.devRef (τ := τ) .tc)).toFinset :=
  field_writes _ _ _ pre5_writes
/-- A buffer field 5 does not write keeps its contents through it. -/
theorem ops5_keep (V : Valuation τ sig (Elt F)) (r : Ref sig .tc) (h : r ∉ W5) : after ops5 V (Proc.devRef .tc r) = V (Proc.devRef .tc r) :=
  after_of_writes_sub ops5 V ops5_writes h
set_option maxRecDepth 65536 in
set_option maxHeartbeats 2000000 in
/-- Field 5's result buffer after its operations: the field's lookup of the two argument buffers' contents. -/
theorem ops5_val (V : Valuation τ sig (Elt F)) :
    after ops5 V (Proc.devRef .tc main_v29) = fieldVal 5 slices_S26x1000x128_S1x1000x128_5_0_0 slices_S16384x26_S16384x1_0_5 (V (Proc.devRef .tc main_arg0)) (V (Proc.devRef .tc main_arg1)) := by
  simp only [ops5, pre5, takeOps, List.cons_append, List.nil_append]
  after_results_simp
  simp only [ofBuf_toBuf]
  rfl

theorem pre6_writes : (pre6 (F := F)).Forall fun (op : HloOp τ sig (Elt F)) => op.writes ⊆ (([main_v30, main_v31, main_v32, main_v33] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops6_writes : (ops6 (F := F)).Forall fun (op : HloOp τ sig (Elt F)) => op.writes ⊆ (W6.map (Proc.devRef (τ := τ) .tc)).toFinset :=
  field_writes _ _ _ pre6_writes
/-- A buffer field 6 does not write keeps its contents through it. -/
theorem ops6_keep (V : Valuation τ sig (Elt F)) (r : Ref sig .tc) (h : r ∉ W6) : after ops6 V (Proc.devRef .tc r) = V (Proc.devRef .tc r) :=
  after_of_writes_sub ops6 V ops6_writes h
set_option maxRecDepth 65536 in
set_option maxHeartbeats 2000000 in
/-- Field 6's result buffer after its operations: the field's lookup of the two argument buffers' contents. -/
theorem ops6_val (V : Valuation τ sig (Elt F)) :
    after ops6 V (Proc.devRef .tc main_v34) = fieldVal 6 slices_S26x1000x128_S1x1000x128_6_0_0 slices_S16384x26_S16384x1_0_6 (V (Proc.devRef .tc main_arg0)) (V (Proc.devRef .tc main_arg1)) := by
  simp only [ops6, pre6, takeOps, List.cons_append, List.nil_append]
  after_results_simp
  simp only [ofBuf_toBuf]
  rfl

theorem pre7_writes : (pre7 (F := F)).Forall fun (op : HloOp τ sig (Elt F)) => op.writes ⊆ (([main_v35, main_v36, main_v37, main_v38] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops7_writes : (ops7 (F := F)).Forall fun (op : HloOp τ sig (Elt F)) => op.writes ⊆ (W7.map (Proc.devRef (τ := τ) .tc)).toFinset :=
  field_writes _ _ _ pre7_writes
/-- A buffer field 7 does not write keeps its contents through it. -/
theorem ops7_keep (V : Valuation τ sig (Elt F)) (r : Ref sig .tc) (h : r ∉ W7) : after ops7 V (Proc.devRef .tc r) = V (Proc.devRef .tc r) :=
  after_of_writes_sub ops7 V ops7_writes h
set_option maxRecDepth 65536 in
set_option maxHeartbeats 2000000 in
/-- Field 7's result buffer after its operations: the field's lookup of the two argument buffers' contents. -/
theorem ops7_val (V : Valuation τ sig (Elt F)) :
    after ops7 V (Proc.devRef .tc main_v39) = fieldVal 7 slices_S26x1000x128_S1x1000x128_7_0_0 slices_S16384x26_S16384x1_0_7 (V (Proc.devRef .tc main_arg0)) (V (Proc.devRef .tc main_arg1)) := by
  simp only [ops7, pre7, takeOps, List.cons_append, List.nil_append]
  after_results_simp
  simp only [ofBuf_toBuf]
  rfl

theorem pre8_writes : (pre8 (F := F)).Forall fun (op : HloOp τ sig (Elt F)) => op.writes ⊆ (([main_v40, main_v41, main_v42, main_v43] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops8_writes : (ops8 (F := F)).Forall fun (op : HloOp τ sig (Elt F)) => op.writes ⊆ (W8.map (Proc.devRef (τ := τ) .tc)).toFinset :=
  field_writes _ _ _ pre8_writes
/-- A buffer field 8 does not write keeps its contents through it. -/
theorem ops8_keep (V : Valuation τ sig (Elt F)) (r : Ref sig .tc) (h : r ∉ W8) : after ops8 V (Proc.devRef .tc r) = V (Proc.devRef .tc r) :=
  after_of_writes_sub ops8 V ops8_writes h
set_option maxRecDepth 65536 in
set_option maxHeartbeats 2000000 in
/-- Field 8's result buffer after its operations: the field's lookup of the two argument buffers' contents. -/
theorem ops8_val (V : Valuation τ sig (Elt F)) :
    after ops8 V (Proc.devRef .tc main_v44) = fieldVal 8 slices_S26x1000x128_S1x1000x128_8_0_0 slices_S16384x26_S16384x1_0_8 (V (Proc.devRef .tc main_arg0)) (V (Proc.devRef .tc main_arg1)) := by
  simp only [ops8, pre8, takeOps, List.cons_append, List.nil_append]
  after_results_simp
  simp only [ofBuf_toBuf]
  rfl

theorem pre9_writes : (pre9 (F := F)).Forall fun (op : HloOp τ sig (Elt F)) => op.writes ⊆ (([main_v45, main_v46, main_v47, main_v48] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops9_writes : (ops9 (F := F)).Forall fun (op : HloOp τ sig (Elt F)) => op.writes ⊆ (W9.map (Proc.devRef (τ := τ) .tc)).toFinset :=
  field_writes _ _ _ pre9_writes
/-- A buffer field 9 does not write keeps its contents through it. -/
theorem ops9_keep (V : Valuation τ sig (Elt F)) (r : Ref sig .tc) (h : r ∉ W9) : after ops9 V (Proc.devRef .tc r) = V (Proc.devRef .tc r) :=
  after_of_writes_sub ops9 V ops9_writes h
set_option maxRecDepth 65536 in
set_option maxHeartbeats 2000000 in
/-- Field 9's result buffer after its operations: the field's lookup of the two argument buffers' contents. -/
theorem ops9_val (V : Valuation τ sig (Elt F)) :
    after ops9 V (Proc.devRef .tc main_v49) = fieldVal 9 slices_S26x1000x128_S1x1000x128_9_0_0 slices_S16384x26_S16384x1_0_9 (V (Proc.devRef .tc main_arg0)) (V (Proc.devRef .tc main_arg1)) := by
  simp only [ops9, pre9, takeOps, List.cons_append, List.nil_append]
  after_results_simp
  simp only [ofBuf_toBuf]
  rfl

theorem pre10_writes : (pre10 (F := F)).Forall fun (op : HloOp τ sig (Elt F)) => op.writes ⊆ (([main_v50, main_v51, main_v52, main_v53] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops10_writes : (ops10 (F := F)).Forall fun (op : HloOp τ sig (Elt F)) => op.writes ⊆ (W10.map (Proc.devRef (τ := τ) .tc)).toFinset :=
  field_writes _ _ _ pre10_writes
/-- A buffer field 10 does not write keeps its contents through it. -/
theorem ops10_keep (V : Valuation τ sig (Elt F)) (r : Ref sig .tc) (h : r ∉ W10) : after ops10 V (Proc.devRef .tc r) = V (Proc.devRef .tc r) :=
  after_of_writes_sub ops10 V ops10_writes h
set_option maxRecDepth 65536 in
set_option maxHeartbeats 2000000 in
/-- Field 10's result buffer after its operations: the field's lookup of the two argument buffers' contents. -/
theorem ops10_val (V : Valuation τ sig (Elt F)) :
    after ops10 V (Proc.devRef .tc main_v54) = fieldVal 10 slices_S26x1000x128_S1x1000x128_10_0_0 slices_S16384x26_S16384x1_0_10 (V (Proc.devRef .tc main_arg0)) (V (Proc.devRef .tc main_arg1)) := by
  simp only [ops10, pre10, takeOps, List.cons_append, List.nil_append]
  after_results_simp
  simp only [ofBuf_toBuf]
  rfl

theorem pre11_writes : (pre11 (F := F)).Forall fun (op : HloOp τ sig (Elt F)) => op.writes ⊆ (([main_v55, main_v56, main_v57, main_v58] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops11_writes : (ops11 (F := F)).Forall fun (op : HloOp τ sig (Elt F)) => op.writes ⊆ (W11.map (Proc.devRef (τ := τ) .tc)).toFinset :=
  field_writes _ _ _ pre11_writes
/-- A buffer field 11 does not write keeps its contents through it. -/
theorem ops11_keep (V : Valuation τ sig (Elt F)) (r : Ref sig .tc) (h : r ∉ W11) : after ops11 V (Proc.devRef .tc r) = V (Proc.devRef .tc r) :=
  after_of_writes_sub ops11 V ops11_writes h
set_option maxRecDepth 65536 in
set_option maxHeartbeats 2000000 in
/-- Field 11's result buffer after its operations: the field's lookup of the two argument buffers' contents. -/
theorem ops11_val (V : Valuation τ sig (Elt F)) :
    after ops11 V (Proc.devRef .tc main_v59) = fieldVal 11 slices_S26x1000x128_S1x1000x128_11_0_0 slices_S16384x26_S16384x1_0_11 (V (Proc.devRef .tc main_arg0)) (V (Proc.devRef .tc main_arg1)) := by
  simp only [ops11, pre11, takeOps, List.cons_append, List.nil_append]
  after_results_simp
  simp only [ofBuf_toBuf]
  rfl

theorem pre12_writes : (pre12 (F := F)).Forall fun (op : HloOp τ sig (Elt F)) => op.writes ⊆ (([main_v60, main_v61, main_v62, main_v63] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops12_writes : (ops12 (F := F)).Forall fun (op : HloOp τ sig (Elt F)) => op.writes ⊆ (W12.map (Proc.devRef (τ := τ) .tc)).toFinset :=
  field_writes _ _ _ pre12_writes
/-- A buffer field 12 does not write keeps its contents through it. -/
theorem ops12_keep (V : Valuation τ sig (Elt F)) (r : Ref sig .tc) (h : r ∉ W12) : after ops12 V (Proc.devRef .tc r) = V (Proc.devRef .tc r) :=
  after_of_writes_sub ops12 V ops12_writes h
set_option maxRecDepth 65536 in
set_option maxHeartbeats 2000000 in
/-- Field 12's result buffer after its operations: the field's lookup of the two argument buffers' contents. -/
theorem ops12_val (V : Valuation τ sig (Elt F)) :
    after ops12 V (Proc.devRef .tc main_v64) = fieldVal 12 slices_S26x1000x128_S1x1000x128_12_0_0 slices_S16384x26_S16384x1_0_12 (V (Proc.devRef .tc main_arg0)) (V (Proc.devRef .tc main_arg1)) := by
  simp only [ops12, pre12, takeOps, List.cons_append, List.nil_append]
  after_results_simp
  simp only [ofBuf_toBuf]
  rfl

theorem pre13_writes : (pre13 (F := F)).Forall fun (op : HloOp τ sig (Elt F)) => op.writes ⊆ (([main_v65, main_v66, main_v67, main_v68] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops13_writes : (ops13 (F := F)).Forall fun (op : HloOp τ sig (Elt F)) => op.writes ⊆ (W13.map (Proc.devRef (τ := τ) .tc)).toFinset :=
  field_writes _ _ _ pre13_writes
/-- A buffer field 13 does not write keeps its contents through it. -/
theorem ops13_keep (V : Valuation τ sig (Elt F)) (r : Ref sig .tc) (h : r ∉ W13) : after ops13 V (Proc.devRef .tc r) = V (Proc.devRef .tc r) :=
  after_of_writes_sub ops13 V ops13_writes h
set_option maxRecDepth 65536 in
set_option maxHeartbeats 2000000 in
/-- Field 13's result buffer after its operations: the field's lookup of the two argument buffers' contents. -/
theorem ops13_val (V : Valuation τ sig (Elt F)) :
    after ops13 V (Proc.devRef .tc main_v69) = fieldVal 13 slices_S26x1000x128_S1x1000x128_13_0_0 slices_S16384x26_S16384x1_0_13 (V (Proc.devRef .tc main_arg0)) (V (Proc.devRef .tc main_arg1)) := by
  simp only [ops13, pre13, takeOps, List.cons_append, List.nil_append]
  after_results_simp
  simp only [ofBuf_toBuf]
  rfl

theorem pre14_writes : (pre14 (F := F)).Forall fun (op : HloOp τ sig (Elt F)) => op.writes ⊆ (([main_v70, main_v71, main_v72, main_v73] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops14_writes : (ops14 (F := F)).Forall fun (op : HloOp τ sig (Elt F)) => op.writes ⊆ (W14.map (Proc.devRef (τ := τ) .tc)).toFinset :=
  field_writes _ _ _ pre14_writes
/-- A buffer field 14 does not write keeps its contents through it. -/
theorem ops14_keep (V : Valuation τ sig (Elt F)) (r : Ref sig .tc) (h : r ∉ W14) : after ops14 V (Proc.devRef .tc r) = V (Proc.devRef .tc r) :=
  after_of_writes_sub ops14 V ops14_writes h
set_option maxRecDepth 65536 in
set_option maxHeartbeats 2000000 in
/-- Field 14's result buffer after its operations: the field's lookup of the two argument buffers' contents. -/
theorem ops14_val (V : Valuation τ sig (Elt F)) :
    after ops14 V (Proc.devRef .tc main_v74) = fieldVal 14 slices_S26x1000x128_S1x1000x128_14_0_0 slices_S16384x26_S16384x1_0_14 (V (Proc.devRef .tc main_arg0)) (V (Proc.devRef .tc main_arg1)) := by
  simp only [ops14, pre14, takeOps, List.cons_append, List.nil_append]
  after_results_simp
  simp only [ofBuf_toBuf]
  rfl

theorem pre15_writes : (pre15 (F := F)).Forall fun (op : HloOp τ sig (Elt F)) => op.writes ⊆ (([main_v75, main_v76, main_v77, main_v78] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops15_writes : (ops15 (F := F)).Forall fun (op : HloOp τ sig (Elt F)) => op.writes ⊆ (W15.map (Proc.devRef (τ := τ) .tc)).toFinset :=
  field_writes _ _ _ pre15_writes
/-- A buffer field 15 does not write keeps its contents through it. -/
theorem ops15_keep (V : Valuation τ sig (Elt F)) (r : Ref sig .tc) (h : r ∉ W15) : after ops15 V (Proc.devRef .tc r) = V (Proc.devRef .tc r) :=
  after_of_writes_sub ops15 V ops15_writes h
set_option maxRecDepth 65536 in
set_option maxHeartbeats 2000000 in
/-- Field 15's result buffer after its operations: the field's lookup of the two argument buffers' contents. -/
theorem ops15_val (V : Valuation τ sig (Elt F)) :
    after ops15 V (Proc.devRef .tc main_v79) = fieldVal 15 slices_S26x1000x128_S1x1000x128_15_0_0 slices_S16384x26_S16384x1_0_15 (V (Proc.devRef .tc main_arg0)) (V (Proc.devRef .tc main_arg1)) := by
  simp only [ops15, pre15, takeOps, List.cons_append, List.nil_append]
  after_results_simp
  simp only [ofBuf_toBuf]
  rfl

theorem pre16_writes : (pre16 (F := F)).Forall fun (op : HloOp τ sig (Elt F)) => op.writes ⊆ (([main_v80, main_v81, main_v82, main_v83] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops16_writes : (ops16 (F := F)).Forall fun (op : HloOp τ sig (Elt F)) => op.writes ⊆ (W16.map (Proc.devRef (τ := τ) .tc)).toFinset :=
  field_writes _ _ _ pre16_writes
/-- A buffer field 16 does not write keeps its contents through it. -/
theorem ops16_keep (V : Valuation τ sig (Elt F)) (r : Ref sig .tc) (h : r ∉ W16) : after ops16 V (Proc.devRef .tc r) = V (Proc.devRef .tc r) :=
  after_of_writes_sub ops16 V ops16_writes h
set_option maxRecDepth 65536 in
set_option maxHeartbeats 2000000 in
/-- Field 16's result buffer after its operations: the field's lookup of the two argument buffers' contents. -/
theorem ops16_val (V : Valuation τ sig (Elt F)) :
    after ops16 V (Proc.devRef .tc main_v84) = fieldVal 16 slices_S26x1000x128_S1x1000x128_16_0_0 slices_S16384x26_S16384x1_0_16 (V (Proc.devRef .tc main_arg0)) (V (Proc.devRef .tc main_arg1)) := by
  simp only [ops16, pre16, takeOps, List.cons_append, List.nil_append]
  after_results_simp
  simp only [ofBuf_toBuf]
  rfl

theorem pre17_writes : (pre17 (F := F)).Forall fun (op : HloOp τ sig (Elt F)) => op.writes ⊆ (([main_v85, main_v86, main_v87, main_v88] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops17_writes : (ops17 (F := F)).Forall fun (op : HloOp τ sig (Elt F)) => op.writes ⊆ (W17.map (Proc.devRef (τ := τ) .tc)).toFinset :=
  field_writes _ _ _ pre17_writes
/-- A buffer field 17 does not write keeps its contents through it. -/
theorem ops17_keep (V : Valuation τ sig (Elt F)) (r : Ref sig .tc) (h : r ∉ W17) : after ops17 V (Proc.devRef .tc r) = V (Proc.devRef .tc r) :=
  after_of_writes_sub ops17 V ops17_writes h
set_option maxRecDepth 65536 in
set_option maxHeartbeats 2000000 in
/-- Field 17's result buffer after its operations: the field's lookup of the two argument buffers' contents. -/
theorem ops17_val (V : Valuation τ sig (Elt F)) :
    after ops17 V (Proc.devRef .tc main_v89) = fieldVal 17 slices_S26x1000x128_S1x1000x128_17_0_0 slices_S16384x26_S16384x1_0_17 (V (Proc.devRef .tc main_arg0)) (V (Proc.devRef .tc main_arg1)) := by
  simp only [ops17, pre17, takeOps, List.cons_append, List.nil_append]
  after_results_simp
  simp only [ofBuf_toBuf]
  rfl

theorem pre18_writes : (pre18 (F := F)).Forall fun (op : HloOp τ sig (Elt F)) => op.writes ⊆ (([main_v90, main_v91, main_v92, main_v93] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops18_writes : (ops18 (F := F)).Forall fun (op : HloOp τ sig (Elt F)) => op.writes ⊆ (W18.map (Proc.devRef (τ := τ) .tc)).toFinset :=
  field_writes _ _ _ pre18_writes
/-- A buffer field 18 does not write keeps its contents through it. -/
theorem ops18_keep (V : Valuation τ sig (Elt F)) (r : Ref sig .tc) (h : r ∉ W18) : after ops18 V (Proc.devRef .tc r) = V (Proc.devRef .tc r) :=
  after_of_writes_sub ops18 V ops18_writes h
set_option maxRecDepth 65536 in
set_option maxHeartbeats 2000000 in
/-- Field 18's result buffer after its operations: the field's lookup of the two argument buffers' contents. -/
theorem ops18_val (V : Valuation τ sig (Elt F)) :
    after ops18 V (Proc.devRef .tc main_v94) = fieldVal 18 slices_S26x1000x128_S1x1000x128_18_0_0 slices_S16384x26_S16384x1_0_18 (V (Proc.devRef .tc main_arg0)) (V (Proc.devRef .tc main_arg1)) := by
  simp only [ops18, pre18, takeOps, List.cons_append, List.nil_append]
  after_results_simp
  simp only [ofBuf_toBuf]
  rfl

theorem pre19_writes : (pre19 (F := F)).Forall fun (op : HloOp τ sig (Elt F)) => op.writes ⊆ (([main_v95, main_v96, main_v97, main_v98] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops19_writes : (ops19 (F := F)).Forall fun (op : HloOp τ sig (Elt F)) => op.writes ⊆ (W19.map (Proc.devRef (τ := τ) .tc)).toFinset :=
  field_writes _ _ _ pre19_writes
/-- A buffer field 19 does not write keeps its contents through it. -/
theorem ops19_keep (V : Valuation τ sig (Elt F)) (r : Ref sig .tc) (h : r ∉ W19) : after ops19 V (Proc.devRef .tc r) = V (Proc.devRef .tc r) :=
  after_of_writes_sub ops19 V ops19_writes h
set_option maxRecDepth 65536 in
set_option maxHeartbeats 2000000 in
/-- Field 19's result buffer after its operations: the field's lookup of the two argument buffers' contents. -/
theorem ops19_val (V : Valuation τ sig (Elt F)) :
    after ops19 V (Proc.devRef .tc main_v99) = fieldVal 19 slices_S26x1000x128_S1x1000x128_19_0_0 slices_S16384x26_S16384x1_0_19 (V (Proc.devRef .tc main_arg0)) (V (Proc.devRef .tc main_arg1)) := by
  simp only [ops19, pre19, takeOps, List.cons_append, List.nil_append]
  after_results_simp
  simp only [ofBuf_toBuf]
  rfl

theorem pre20_writes : (pre20 (F := F)).Forall fun (op : HloOp τ sig (Elt F)) => op.writes ⊆ (([main_v100, main_v101, main_v102, main_v103] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops20_writes : (ops20 (F := F)).Forall fun (op : HloOp τ sig (Elt F)) => op.writes ⊆ (W20.map (Proc.devRef (τ := τ) .tc)).toFinset :=
  field_writes _ _ _ pre20_writes
/-- A buffer field 20 does not write keeps its contents through it. -/
theorem ops20_keep (V : Valuation τ sig (Elt F)) (r : Ref sig .tc) (h : r ∉ W20) : after ops20 V (Proc.devRef .tc r) = V (Proc.devRef .tc r) :=
  after_of_writes_sub ops20 V ops20_writes h
set_option maxRecDepth 65536 in
set_option maxHeartbeats 2000000 in
/-- Field 20's result buffer after its operations: the field's lookup of the two argument buffers' contents. -/
theorem ops20_val (V : Valuation τ sig (Elt F)) :
    after ops20 V (Proc.devRef .tc main_v104) = fieldVal 20 slices_S26x1000x128_S1x1000x128_20_0_0 slices_S16384x26_S16384x1_0_20 (V (Proc.devRef .tc main_arg0)) (V (Proc.devRef .tc main_arg1)) := by
  simp only [ops20, pre20, takeOps, List.cons_append, List.nil_append]
  after_results_simp
  simp only [ofBuf_toBuf]
  rfl

theorem pre21_writes : (pre21 (F := F)).Forall fun (op : HloOp τ sig (Elt F)) => op.writes ⊆ (([main_v105, main_v106, main_v107, main_v108] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops21_writes : (ops21 (F := F)).Forall fun (op : HloOp τ sig (Elt F)) => op.writes ⊆ (W21.map (Proc.devRef (τ := τ) .tc)).toFinset :=
  field_writes _ _ _ pre21_writes
/-- A buffer field 21 does not write keeps its contents through it. -/
theorem ops21_keep (V : Valuation τ sig (Elt F)) (r : Ref sig .tc) (h : r ∉ W21) : after ops21 V (Proc.devRef .tc r) = V (Proc.devRef .tc r) :=
  after_of_writes_sub ops21 V ops21_writes h
set_option maxRecDepth 65536 in
set_option maxHeartbeats 2000000 in
/-- Field 21's result buffer after its operations: the field's lookup of the two argument buffers' contents. -/
theorem ops21_val (V : Valuation τ sig (Elt F)) :
    after ops21 V (Proc.devRef .tc main_v109) = fieldVal 21 slices_S26x1000x128_S1x1000x128_21_0_0 slices_S16384x26_S16384x1_0_21 (V (Proc.devRef .tc main_arg0)) (V (Proc.devRef .tc main_arg1)) := by
  simp only [ops21, pre21, takeOps, List.cons_append, List.nil_append]
  after_results_simp
  simp only [ofBuf_toBuf]
  rfl

theorem pre22_writes : (pre22 (F := F)).Forall fun (op : HloOp τ sig (Elt F)) => op.writes ⊆ (([main_v110, main_v111, main_v112, main_v113] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops22_writes : (ops22 (F := F)).Forall fun (op : HloOp τ sig (Elt F)) => op.writes ⊆ (W22.map (Proc.devRef (τ := τ) .tc)).toFinset :=
  field_writes _ _ _ pre22_writes
/-- A buffer field 22 does not write keeps its contents through it. -/
theorem ops22_keep (V : Valuation τ sig (Elt F)) (r : Ref sig .tc) (h : r ∉ W22) : after ops22 V (Proc.devRef .tc r) = V (Proc.devRef .tc r) :=
  after_of_writes_sub ops22 V ops22_writes h
set_option maxRecDepth 65536 in
set_option maxHeartbeats 2000000 in
/-- Field 22's result buffer after its operations: the field's lookup of the two argument buffers' contents. -/
theorem ops22_val (V : Valuation τ sig (Elt F)) :
    after ops22 V (Proc.devRef .tc main_v114) = fieldVal 22 slices_S26x1000x128_S1x1000x128_22_0_0 slices_S16384x26_S16384x1_0_22 (V (Proc.devRef .tc main_arg0)) (V (Proc.devRef .tc main_arg1)) := by
  simp only [ops22, pre22, takeOps, List.cons_append, List.nil_append]
  after_results_simp
  simp only [ofBuf_toBuf]
  rfl

theorem pre23_writes : (pre23 (F := F)).Forall fun (op : HloOp τ sig (Elt F)) => op.writes ⊆ (([main_v115, main_v116, main_v117, main_v118] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops23_writes : (ops23 (F := F)).Forall fun (op : HloOp τ sig (Elt F)) => op.writes ⊆ (W23.map (Proc.devRef (τ := τ) .tc)).toFinset :=
  field_writes _ _ _ pre23_writes
/-- A buffer field 23 does not write keeps its contents through it. -/
theorem ops23_keep (V : Valuation τ sig (Elt F)) (r : Ref sig .tc) (h : r ∉ W23) : after ops23 V (Proc.devRef .tc r) = V (Proc.devRef .tc r) :=
  after_of_writes_sub ops23 V ops23_writes h
set_option maxRecDepth 65536 in
set_option maxHeartbeats 2000000 in
/-- Field 23's result buffer after its operations: the field's lookup of the two argument buffers' contents. -/
theorem ops23_val (V : Valuation τ sig (Elt F)) :
    after ops23 V (Proc.devRef .tc main_v119) = fieldVal 23 slices_S26x1000x128_S1x1000x128_23_0_0 slices_S16384x26_S16384x1_0_23 (V (Proc.devRef .tc main_arg0)) (V (Proc.devRef .tc main_arg1)) := by
  simp only [ops23, pre23, takeOps, List.cons_append, List.nil_append]
  after_results_simp
  simp only [ofBuf_toBuf]
  rfl

theorem pre24_writes : (pre24 (F := F)).Forall fun (op : HloOp τ sig (Elt F)) => op.writes ⊆ (([main_v120, main_v121, main_v122, main_v123] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops24_writes : (ops24 (F := F)).Forall fun (op : HloOp τ sig (Elt F)) => op.writes ⊆ (W24.map (Proc.devRef (τ := τ) .tc)).toFinset :=
  field_writes _ _ _ pre24_writes
/-- A buffer field 24 does not write keeps its contents through it. -/
theorem ops24_keep (V : Valuation τ sig (Elt F)) (r : Ref sig .tc) (h : r ∉ W24) : after ops24 V (Proc.devRef .tc r) = V (Proc.devRef .tc r) :=
  after_of_writes_sub ops24 V ops24_writes h
set_option maxRecDepth 65536 in
set_option maxHeartbeats 2000000 in
/-- Field 24's result buffer after its operations: the field's lookup of the two argument buffers' contents. -/
theorem ops24_val (V : Valuation τ sig (Elt F)) :
    after ops24 V (Proc.devRef .tc main_v124) = fieldVal 24 slices_S26x1000x128_S1x1000x128_24_0_0 slices_S16384x26_S16384x1_0_24 (V (Proc.devRef .tc main_arg0)) (V (Proc.devRef .tc main_arg1)) := by
  simp only [ops24, pre24, takeOps, List.cons_append, List.nil_append]
  after_results_simp
  simp only [ofBuf_toBuf]
  rfl

theorem pre25_writes : (pre25 (F := F)).Forall fun (op : HloOp τ sig (Elt F)) => op.writes ⊆ (([main_v125, main_v126, main_v127, main_v128] : List (Ref sig .tc)).map (Proc.devRef (τ := τ) .tc)).toFinset := by
  simp only [List.Forall]
  exact ⟨by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide),
    by simp only [unary_writes, reshape_writes, Finset.singleton_subset_iff, List.mem_toFinset]; exact List.mem_map_of_mem (by decide)⟩
theorem ops25_writes : (ops25 (F := F)).Forall fun (op : HloOp τ sig (Elt F)) => op.writes ⊆ (W25.map (Proc.devRef (τ := τ) .tc)).toFinset :=
  field_writes _ _ _ pre25_writes
/-- A buffer field 25 does not write keeps its contents through it. -/
theorem ops25_keep (V : Valuation τ sig (Elt F)) (r : Ref sig .tc) (h : r ∉ W25) : after ops25 V (Proc.devRef .tc r) = V (Proc.devRef .tc r) :=
  after_of_writes_sub ops25 V ops25_writes h
set_option maxRecDepth 65536 in
set_option maxHeartbeats 2000000 in
/-- Field 25's result buffer after its operations: the field's lookup of the two argument buffers' contents. -/
theorem ops25_val (V : Valuation τ sig (Elt F)) :
    after ops25 V (Proc.devRef .tc main_v129) = fieldVal 25 slices_S26x1000x128_S1x1000x128_25_0_0 slices_S16384x26_S16384x1_0_25 (V (Proc.devRef .tc main_arg0)) (V (Proc.devRef .tc main_arg1)) := by
  simp only [ops25, pre25, takeOps, List.cons_append, List.nil_append]
  after_results_simp
  simp only [ofBuf_toBuf]
  rfl

end Cert.RefSide
end
-- ==== Proof.RefCat.lean ====
/-
  The 26 fields' lookups as one family, and the program's way of laying 26 blocks of 128 columns side by side.
-/
import proofs.«206644_g35837207118489_cont_8to1_b_589_28_alg».proof.Proof.RefTerm

noncomputable section

namespace Cert.RefSide

open Cert.ReferenceIdeal Cert.ReferenceIdeal.Facts₀ Cert.ReferenceIdeal.Facts Idealize.ShloMosaic

variable {F : FTy → Type} [FloatOps F] [Cert.ReferenceIdeal.Facts]

/-- Every field's table slice and index-column slice are inside their arrays. -/
theorem slT (o : Fin 26) : S26x1000x128.Slices ![o.val, 0, 0] S1x1000x128 := by revert o; decide
theorem slX (o : Fin 26) : S16384x26.Slices ![0, o.val] S16384x1 := by revert o; decide

/-- The 26 fields' lookups, by field. -/
def fieldG (x : IVec S16384x26 32) (t : FVec F S26x1000x128 .f32) (o : Fin 26) : FVec F S16384x128 .f32 :=
  fieldVal o.val (slT o) (slX o) x t

/-- 26 blocks of 128 columns laid side by side as the program does it: the first sixteen joined, the last ten joined, the two
    results joined. -/
def catAll (G : Fin 26 → FVec F S16384x128 .f32) : FVec F S16384x3328 .f32 :=
  concatenate S16384x3328 1
    [⟨S16384x2048, concatenate S16384x2048 1
        (List.ofFn fun n : Fin 16 => (⟨S16384x128, G ⟨n.val, by have := n.isLt; omega⟩⟩ : (s : Shape) × (s.Idx → F .f32)))
        concatenates_S16384x128_S16384x128_S16384x128_S16384x128_S16384x128_S16384x128_S16384x128_S16384x128_S16384x128_S16384x128_S16384x128_S16384x128_S16384x128_S16384x128_S16384x128_S16384x128_S16384x2048_d1⟩,
     ⟨S16384x1280, concatenate S16384x1280 1
        (List.ofFn fun n : Fin 10 => (⟨S16384x128, G ⟨16 + n.val, by have := n.isLt; omega⟩⟩ : (s : Shape) × (s.Idx → F .f32)))
        concatenates_S16384x128_S16384x128_S16384x128_S16384x128_S16384x128_S16384x128_S16384x128_S16384x128_S16384x128_S16384x128_S16384x1280_d1⟩]
    concatenates_S16384x2048_S16384x1280_S16384x3328_d1

end Cert.RefSide

end
-- ==== Proof.RefChain.lean ====
/-
  The fields one after the other, and the three concatenations: what the whole program leaves in its result buffer and in
  its two argument buffers.

  `val k` is the buffers' contents after the first `k` fields.  No field writes an argument buffer or an earlier field's result
  buffer, so through every later field each keeps what it held: the arguments their launch contents, field `k`'s result the
  field's lookup of the launch contents of the arguments.  The three concatenations then read the 26 results.
-/
import proofs.«206644_g35837207118489_cont_8to1_b_589_28_alg».proof.Proof.RefFields
import proofs.«206644_g35837207118489_cont_8to1_b_589_28_alg».proof.Proof.RefCat

noncomputable section
namespace Cert.RefSide
open Cert.ReferenceIdeal Cert.ReferenceIdeal.Facts₀ Cert.ReferenceIdeal.Facts Idealize.ShloMosaic Idealize.ShloMosaic.TcCoe Idealize.SL.Sem Idealize.ShloMosaic.StableHlo
variable {F : FTy → Type} [FloatOps F] [Cert.ReferenceIdeal.Facts]

/-- The buffers' contents before the first field. -/
def val0 (V0 : Valuation τ sig (Elt F)) : Valuation τ sig (Elt F) := V0
theorem val0_arg0 (V0 : Valuation τ sig (Elt F)) : val0 V0 (Proc.devRef .tc main_arg0) = V0 (Proc.devRef .tc main_arg0) := rfl
theorem val0_arg1 (V0 : Valuation τ sig (Elt F)) : val0 V0 (Proc.devRef .tc main_arg1) = V0 (Proc.devRef .tc main_arg1) := rfl

/-- The buffers' contents after fields 0 … 0. -/
def val1 (V0 : Valuation τ sig (Elt F)) : Valuation τ sig (Elt F) := after ops0 (val0 V0)
theorem val1_arg0 (V0 : Valuation τ sig (Elt F)) : val1 V0 (Proc.devRef .tc main_arg0) = V0 (Proc.devRef .tc main_arg0) :=
  (ops0_keep _ main_arg0 (by decide)).trans (val0_arg0 V0)
theorem val1_arg1 (V0 : Valuation τ sig (Elt F)) : val1 V0 (Proc.devRef .tc main_arg1) = V0 (Proc.devRef .tc main_arg1) :=
  (ops0_keep _ main_arg1 (by decide)).trans (val0_arg1 V0)
theorem val1_res0 (V0 : Valuation τ sig (Elt F)) : val1 V0 (Proc.devRef .tc main_v4) = fieldVal 0 slices_S26x1000x128_S1x1000x128_0_0_0 slices_S16384x26_S16384x1_0_0 (V0 (Proc.devRef .tc main_arg0)) (V0 (Proc.devRef .tc main_arg1)) := by
  unfold val1; rw [ops0_val, val0_arg0, val0_arg1]

/-- The buffers' contents after fields 0 … 1. -/
def val2 (V0 : Valuation τ sig (Elt F)) : Valuation τ sig (Elt F) := after ops1 (val1 V0)
theorem val2_arg0 (V0 : Valuation τ sig (Elt F)) : val2 V0 (Proc.devRef .tc main_arg0) = V0 (Proc.devRef .tc main_arg0) :=
  (ops1_keep _ main_arg0 (by decide)).trans (val1_arg0 V0)
theorem val2_arg1 (V0 : Valuation τ sig (Elt F)) : val2 V0 (Proc.devRef .tc main_arg1) = V0 (Proc.devRef .tc main_arg1) :=
  (ops1_keep _ main_arg1 (by decide)).trans (val1_arg1 V0)
theorem val2_res1 (V0 : Valuation τ sig (Elt F)) : val2 V0 (Proc.devRef .tc main_v9) = fieldVal 1 slices_S26x1000x128_S1x1000x128_1_0_0 slices_S16384x26_S16384x1_0_1 (V0 (Proc.devRef .tc main_arg0)) (V0 (Proc.devRef .tc main_arg1)) := by
  unfold val2; rw [ops1_val, val1_arg0, val1_arg1]
theorem val2_res0 (V0 : Valuation τ sig (Elt F)) : val2 V0 (Proc.devRef .tc main_v4) = fieldVal 0 slices_S26x1000x128_S1x1000x128_0_0_0 slices_S16384x26_S16384x1_0_0 (V0 (Proc.devRef .tc main_arg0)) (V0 (Proc.devRef .tc main_arg1)) :=
  (ops1_keep _ main_v4 (by decide)).trans (val1_res0 V0)

/-- The buffers' contents after fields 0 … 2. -/
def val3 (V0 : Valuation τ sig (Elt F)) : Valuation τ sig (Elt F) := after ops2 (val2 V0)
theorem val3_arg0 (V0 : Valuation τ sig (Elt F)) : val3 V0 (Proc.devRef .tc main_arg0) = V0 (Proc.devRef .tc main_arg0) :=
  (ops2_keep _ main_arg0 (by decide)).trans (val2_arg0 V0)
theorem val3_arg1 (V0 : Valuation τ sig (Elt F)) : val3 V0 (Proc.devRef .tc main_arg1) = V0 (Proc.devRef .tc main_arg1) :=
  (ops2_keep _ main_arg1 (by decide)).trans (val2_arg1 V0)
theorem val3_res2 (V0 : Valuation τ sig (Elt F)) : val3 V0 (Proc.devRef .tc main_v14) = fieldVal 2 slices_S26x1000x128_S1x1000x128_2_0_0 slices_S16384x26_S16384x1_0_2 (V0 (Proc.devRef .tc main_arg0)) (V0 (Proc.devRef .tc main_arg1)) := by
  unfold val3; rw [ops2_val, val2_arg0, val2_arg1]
theorem val3_res0 (V0 : Valuation τ sig (Elt F)) : val3 V0 (Proc.devRef .tc main_v4) = fieldVal 0 slices_S26x1000x128_S1x1000x128_0_0_0 slices_S16384x26_S16384x1_0_0 (V0 (Proc.devRef .tc main_arg0)) (V0 (Proc.devRef .tc main_arg1)) :=
  (ops2_keep _ main_v4 (by decide)).trans (val2_res0 V0)
theorem val3_res1 (V0 : Valuation τ sig (Elt F)) : val3 V0 (Proc.devRef .tc main_v9) = fieldVal 1 slices_S26x1000x128_S1x1000x128_1_0_0 slices_S16384x26_S16384x1_0_1 (V0 (Proc.devRef .tc main_arg0)) (V0 (Proc.devRef .tc main_arg1)) :=
  (ops2_keep _ main_v9 (by decide)).trans (val2_res1 V0)

/-- The buffers' contents after fields 0 … 3. -/
def val4 (V0 : Valuation τ sig (Elt F)) : Valuation τ sig (Elt F) := after ops3 (val3 V0)
theorem val4_arg0 (V0 : Valuation τ sig (Elt F)) : val4 V0 (Proc.devRef .tc main_arg0) = V0 (Proc.devRef .tc main_arg0) :=
  (ops3_keep _ main_arg0 (by decide)).trans (val3_arg0 V0)
theorem val4_arg1 (V0 : Valuation τ sig (Elt F)) : val4 V0 (Proc.devRef .tc main_arg1) = V0 (Proc.devRef .tc main_arg1) :=
  (ops3_keep _ main_arg1 (by decide)).trans (val3_arg1 V0)
theorem val4_res3 (V0 : Valuation τ sig (Elt F)) : val4 V0 (Proc.devRef .tc main_v19) = fieldVal 3 slices_S26x1000x128_S1x1000x128_3_0_0 slices_S16384x26_S16384x1_0_3 (V0 (Proc.devRef .tc main_arg0)) (V0 (Proc.devRef .tc main_arg1)) := by
  unfold val4; rw [ops3_val, val3_arg0, val3_arg1]
theorem val4_res0 (V0 : Valuation τ sig (Elt F)) : val4 V0 (Proc.devRef .tc main_v4) = fieldVal 0 slices_S26x1000x128_S1x1000x128_0_0_0 slices_S16384x26_S16384x1_0_0 (V0 (Proc.devRef .tc main_arg0)) (V0 (Proc.devRef .tc main_arg1)) :=
  (ops3_keep _ main_v4 (by decide)).trans (val3_res0 V0)
theorem val4_res1 (V0 : Valuation τ sig (Elt F)) : val4 V0 (Proc.devRef .tc main_v9) = fieldVal 1 slices_S26x1000x128_S1x1000x128_1_0_0 slices_S16384x26_S16384x1_0_1 (V0 (Proc.devRef .tc main_arg0)) (V0 (Proc.devRef .tc main_arg1)) :=
  (ops3_keep _ main_v9 (by decide)).trans (val3_res1 V0)
theorem val4_res2 (V0 : Valuation τ sig (Elt F)) : val4 V0 (Proc.devRef .tc main_v14) = fieldVal 2 slices_S26x1000x128_S1x1000x128_2_0_0 slices_S16384x26_S16384x1_0_2 (V0 (Proc.devRef .tc main_arg0)) (V0 (Proc.devRef .tc main_arg1)) :=
  (ops3_keep _ main_v14 (by decide)).trans (val3_res2 V0)

/-- The buffers' contents after fields 0 … 4. -/
def val5 (V0 : Valuation τ sig (Elt F)) : Valuation τ sig (Elt F) := after ops4 (val4 V0)
theorem val5_arg0 (V0 : Valuation τ sig (Elt F)) : val5 V0 (Proc.devRef .tc main_arg0) = V0 (Proc.devRef .tc main_arg0) :=
  (ops4_keep _ main_arg0 (by decide)).trans (val4_arg0 V0)
theorem val5_arg1 (V0 : Valuation τ sig (Elt F)) : val5 V0 (Proc.devRef .tc main_arg1) = V0 (Proc.devRef .tc main_arg1) :=
  (ops4_keep _ main_arg1 (by decide)).trans (val4_arg1 V0)
theorem val5_res4 (V0 : Valuation τ sig (Elt F)) : val5 V0 (Proc.devRef .tc main_v24) = fieldVal 4 slices_S26x1000x128_S1x1000x128_4_0_0 slices_S16384x26_S16384x1_0_4 (V0 (Proc.devRef .tc main_arg0)) (V0 (Proc.devRef .tc main_arg1)) := by
  unfold val5; rw [ops4_val, val4_arg0, val4_arg1]
theorem val5_res0 (V0 : Valuation τ sig (Elt F)) : val5 V0 (Proc.devRef .tc main_v4) = fieldVal 0 slices_S26x1000x128_S1x1000x128_0_0_0 slices_S16384x26_S16384x1_0_0 (V0 (Proc.devRef .tc main_arg0)) (V0 (Proc.devRef .tc main_arg1)) :=
  (ops4_keep _ main_v4 (by decide)).trans (val4_res0 V0)
theorem val5_res1 (V0 : Valuation τ sig (Elt F)) : val5 V0 (Proc.devRef .tc main_v9) = fieldVal 1 slices_S26x1000x128_S1x1000x128_1_0_0 slices_S16384x26_S16384x1_0_1 (V0 (Proc.devRef .tc main_arg0)) (V0 (Proc.devRef .tc main_arg1)) :=
  (ops4_keep _ main_v9 (by decide)).trans (val4_res1 V0)
theorem val5_res2 (V0 : Valuation τ sig (Elt F)) : val5 V0 (Proc.devRef .tc main_v14) = fieldVal 2 slices_S26x1000x128_S1x1000x128_2_0_0 slices_S16384x26_S16384x1_0_2 (V0 (Proc.devRef .tc main_arg0)) (V0 (Proc.devRef .tc main_arg1)) :=
  (ops4_keep _ main_v14 (by decide)).trans (val4_res2 V0)
theorem val5_res3 (V0 : Valuation τ sig (Elt F)) : val5 V0 (Proc.devRef .tc main_v19) = fieldVal 3 slices_S26x1000x128_S1x1000x128_3_0_0 slices_S16384x26_S16384x1_0_3 (V0 (Proc.devRef .tc main_arg0)) (V0 (Proc.devRef .tc main_arg1)) :=
  (ops4_keep _ main_v19 (by decide)).trans (val4_res3 V0)

/-- The buffers' contents after fields 0 … 5. -/
def val6 (V0 : Valuation τ sig (Elt F)) : Valuation τ sig (Elt F) := after ops5 (val5 V0)
theorem val6_arg0 (V0 : Valuation τ sig (Elt F)) : val6 V0 (Proc.devRef .tc main_arg0) = V0 (Proc.devRef .tc main_arg0) :=
  (ops5_keep _ main_arg0 (by decide)).trans (val5_arg0 V0)
theorem val6_arg1 (V0 : Valuation τ sig (Elt F)) : val6 V0 (Proc.devRef .tc main_arg1) = V0 (Proc.devRef .tc main_arg1) :=
  (ops5_keep _ main_arg1 (by decide)).trans (val5_arg1 V0)
theorem val6_res5 (V0 : Valuation τ sig (Elt F)) : val6 V0 (Proc.devRef .tc main_v29) = fieldVal 5 slices_S26x1000x128_S1x1000x128_5_0_0 slices_S16384x26_S16384x1_0_5 (V0 (Proc.devRef .tc main_arg0)) (V0 (Proc.devRef .tc main_arg1)) := by
  unfold val6; rw [ops5_val, val5_arg0, val5_arg1]
theorem val6_res0 (V0 : Valuation τ sig (Elt F)) : val6 V0 (Proc.devRef .tc main_v4) = fieldVal 0 slices_S26x1000x128_S1x1000x128_0_0_0 slices_S16384x26_S16384x1_0_0 (V0 (Proc.devRef .tc main_arg0)) (V0 (Proc.devRef .tc main_arg1)) :=
  (ops5_keep _ main_v4 (by decide)).trans (val5_res0 V0)
theorem val6_res1 (V0 : Valuation τ sig (Elt F)) : val6 V0 (Proc.devRef .tc main_v9) = fieldVal 1 slices_S26x1000x128_S1x1000x128_1_0_0 slices_S16384x26_S16384x1_0_1 (V0 (Proc.devRef .tc main_arg0)) (V0 (Proc.devRef .tc main_arg1)) :=
  (ops5_keep _ main_v9 (by decide)).trans (val5_res1 V0)
theorem val6_res2 (V0 : Valuation τ sig (Elt F)) : val6 V0 (Proc.devRef .tc main_v14) = fieldVal 2 slices_S26x1000x128_S1x1000x128_2_0_0 slices_S16384x26_S16384x1_0_2 (V0 (Proc.devRef .tc main_arg0)) (V0 (Proc.devRef .tc main_arg1)) :=
  (ops5_keep _ main_v14 (by decide)).trans (val5_res2 V0)
theorem val6_res3 (V0 : Valuation τ sig (Elt F)) : val6 V0 (Proc.devRef .tc main_v19) = fieldVal 3 slices_S26x1000x128_S1x1000x128_3_0_0 slices_S16384x26_S16384x1_0_3 (V0 (Proc.devRef .tc main_arg0)) (V0 (Proc.devRef .tc main_arg1)) :=
  (ops5_keep _ main_v19 (by decide)).trans (val5_res3 V0)
theorem val6_res4 (V0 : Valuation τ sig (Elt F)) : val6 V0 (Proc.devRef .tc main_v24) = fieldVal 4 slices_S26x1000x128_S1x1000x128_4_0_0 slices_S16384x26_S16384x1_0_4 (V0 (Proc.devRef .tc main_arg0)) (V0 (Proc.devRef .tc main_arg1)) :=
  (ops5_keep _ main_v24 (by decide)).trans (val5_res4 V0)

/-- The buffers' contents after fields 0 … 6. -/
def val7 (V0 : Valuation τ sig (Elt F)) : Valuation τ sig (Elt F) := after ops6 (val6 V0)
theorem val7_arg0 (V0 : Valuation τ sig (Elt F)) : val7 V0 (Proc.devRef .tc main_arg0) = V0 (Proc.devRef .tc main_arg0) :=
  (ops6_keep _ main_arg0 (by decide)).trans (val6_arg0 V0)
theorem val7_arg1 (V0 : Valuation τ sig (Elt F)) : val7 V0 (Proc.devRef .tc main_arg1) = V0 (Proc.devRef .tc main_arg1) :=
  (ops6_keep _ main_arg1 (by decide)).trans (val6_arg1 V0)
theorem val7_res6 (V0 : Valuation τ sig (Elt F)) : val7 V0 (Proc.devRef .tc main_v34) = fieldVal 6 slices_S26x1000x128_S1x1000x128_6_0_0 slices_S16384x26_S16384x1_0_6 (V0 (Proc.devRef .tc main_arg0)) (V0 (Proc.devRef .tc main_arg1)) := by
  unfold val7; rw [ops6_val, val6_arg0, val6_arg1]
theorem val7_res0 (V0 : Valuation τ sig (Elt F)) : val7 V0 (Proc.devRef .tc main_v4) = fieldVal 0 slices_S26x1000x128_S1x1000x128_0_0_0 slices_S16384x26_S16384x1_0_0 (V0 (Proc.devRef .tc main_arg0)) (V0 (Proc.devRef .tc main_arg1)) :=
  (ops6_keep _ main_v4 (by decide)).trans (val6_res0 V0)
theorem val7_res1 (V0 : Valuation τ sig (Elt F)) : val7 V0 (Proc.devRef .tc main_v9) = fieldVal 1 slices_S26x1000x128_S1x1000x128_1_0_0 slices_S16384x26_S16384x1_0_1 (V0 (Proc.devRef .tc main_arg0)) (V0 (Proc.devRef .tc main_arg1)) :=
  (ops6_keep _ main_v9 (by decide)).trans (val6_res1 V0)
theorem val7_res2 (V0 : Valuation τ sig (Elt F)) : val7 V0 (Proc.devRef .tc main_v14) = fieldVal 2 slices_S26x1000x128_S1x1000x128_2_0_0 slices_S16384x26_S16384x1_0_2 (V0 (Proc.devRef .tc main_arg0)) (V0 (Proc.devRef .tc main_arg1)) :=
  (ops6_keep _ main_v14 (by decide)).trans (val6_res2 V0)
theorem val7_res3 (V0 : Valuation τ sig (Elt F)) : val7 V0 (Proc.devRef .tc main_v19) = fieldVal 3 slices_S26x1000x128_S1x1000x128_3_0_0 slices_S16384x26_S16384x1_0_3 (V0 (Proc.devRef .tc main_arg0)) (V0 (Proc.devRef .tc main_arg1)) :=
  (ops6_keep _ main_v19 (by decide)).trans (val6_res3 V0)
theorem val7_res4 (V0 : Valuation τ sig (Elt F)) : val7 V0 (Proc.devRef .tc main_v24) = fieldVal 4 slices_S26x1000x128_S1x1000x128_4_0_0 slices_S16384x26_S16384x1_0_4 (V0 (Proc.devRef .tc main_arg0)) (V0 (Proc.devRef .tc main_arg1)) :=
  (ops6_keep _ main_v24 (by decide)).trans (val6_res4 V0)
theorem val7_res5 (V0 : Valuation τ sig (Elt F)) : val7 V0 (Proc.devRef .tc main_v29) = fieldVal 5 slices_S26x1000x128_S1x1000x128_5_0_0 slices_S16384x26_S16384x1_0_5 (V0 (Proc.devRef .tc main_arg0)) (V0 (Proc.devRef .tc main_arg1)) :=
  (ops6_keep _ main_v29 (by decide)).trans (val6_res5 V0)

/-- The buffers' contents after fields 0 … 7. -/
def val8 (V0 : Valuation τ sig (Elt F)) : Valuation τ sig (Elt F) := after ops7 (val7 V0)
theorem val8_arg0 (V0 : Valuation τ sig (Elt F)) : val8 V0 (Proc.devRef .tc main_arg0) = V0 (Proc.devRef .tc main_arg0) :=
  (ops7_keep _ main_arg0 (by decide)).trans (val7_arg0 V0)
theorem val8_arg1 (V0 : Valuation τ sig (Elt F)) : val8 V0 (Proc.devRef .tc main_arg1) = V0 (Proc.devRef .tc main_arg1) :=
  (ops7_keep _ main_arg1 (by decide)).trans (val7_arg1 V0)
theorem val8_res7 (V0 : Valuation τ sig (Elt F)) : val8 V0 (Proc.devRef .tc main_v39) = fieldVal 7 slices_S26x1000x128_S1x1000x128_7_0_0 slices_S16384x26_S16384x1_0_7 (V0 (Proc.devRef .tc main_arg0)) (V0 (Proc.devRef .tc main_arg1)) := by
  unfold val8; rw [ops7_val, val7_arg0, val7_arg1]
theorem val8_res0 (V0 : Valuation τ sig (Elt F)) : val8 V0 (Proc.devRef .tc main_v4) = fieldVal 0 slices_S26x1000x128_S1x1000x128_0_0_0 slices_S16384x26_S16384x1_0_0 (V0 (Proc.devRef .tc main_arg0)) (V0 (Proc.devRef .tc main_arg1)) :=
  (ops7_keep _ main_v4 (by decide)).trans (val7_res0 V0)
theorem val8_res1 (V0 : Valuation τ sig (Elt F)) : val8 V0 (Proc.devRef .tc main_v9) = fieldVal 1 slices_S26x1000x128_S1x1000x128_1_0_0 slices_S16384x26_S16384x1_0_1 (V0 (Proc.devRef .tc main_arg0)) (V0 (Proc.devRef .tc main_arg1)) :=
  (ops7_keep _ main_v9 (by decide)).trans (val7_res1 V0)
theorem val8_res2 (V0 : Valuation τ sig (Elt F)) : val8 V0 (Proc.devRef .tc main_v14) = fieldVal 2 slices_S26x1000x128_S1x1000x128_2_0_0 slices_S16384x26_S16384x1_0_2 (V0 (Proc.devRef .tc main_arg0)) (V0 (Proc.devRef .tc main_arg1)) :=
  (ops7_keep _ main_v14 (by decide)).trans (val7_res2 V0)
theorem val8_res3 (V0 : Valuation τ sig (Elt F)) : val8 V0 (Proc.devRef .tc main_v19) = fieldVal 3 slices_S26x1000x128_S1x1000x128_3_0_0 slices_S16384x26_S16384x1_0_3 (V0 (Proc.devRef .tc main_arg0)) (V0 (Proc.devRef .tc main_arg1)) :=
  (ops7_keep _ main_v19 (by decide)).trans (val7_res3 V0)
theorem val8_res4 (V0 : Valuation τ sig (Elt F)) : val8 V0 (Proc.devRef .tc main_v24) = fieldVal 4 slices_S26x1000x128_S1x1000x128_4_0_0 slices_S16384x26_S16384x1_0_4 (V0 (Proc.devRef .tc main_arg0)) (V0 (Proc.devRef .tc main_arg1)) :=
  (ops7_keep _ main_v24 (by decide)).trans (val7_res4 V0)
theorem val8_res5 (V0 : Valuation τ sig (Elt F)) : val8 V0 (Proc.devRef .tc main_v29) = fieldVal 5 slices_S26x1000x128_S1x1000x128_5_0_0 slices_S16384x26_S16384x1_0_5 (V0 (Proc.devRef .tc main_arg0)) (V0 (Proc.devRef .tc main_arg1)) :=
  (ops7_keep _ main_v29 (by decide)).trans (val7_res5 V0)
theorem val8_res6 (V0 : Valuation τ sig (Elt F)) : val8 V0 (Proc.devRef .tc main_v34) = fieldVal 6 slices_S26x1000x128_S1x1000x128_6_0_0 slices_S16384x26_S16384x1_0_6 (V0 (Proc.devRef .tc main_arg0)) (V0 (Proc.devRef .tc main_arg1)) :=
  (ops7_keep _ main_v34 (by decide)).trans (val7_res6 V0)

/-- The buffers' contents after fields 0 … 8. -/
def val9 (V0 : Valuation τ sig (Elt F)) : Valuation τ sig (Elt F) := after ops8 (val8 V0)
theorem val9_arg0 (V0 : Valuation τ sig (Elt F)) : val9 V0 (Proc.devRef .tc main_arg0) = V0 (Proc.devRef .tc main_arg0) :=
  (ops8_keep _ main_arg0 (by decide)).trans (val8_arg0 V0)
theorem val9_arg1 (V0 : Valuation τ sig (Elt F)) : val9 V0 (Proc.devRef .tc main_arg1) = V0 (Proc.devRef .tc main_arg1) :=
  (ops8_keep _ main_arg1 (by decide)).trans (val8_arg1 V0)
theorem val9_res8 (V0 : Valuation τ sig (Elt F)) : val9 V0 (Proc.devRef .tc main_v44) = fieldVal 8 slices_S26x1000x128_S1x1000x128_8_0_0 slices_S16384x26_S16384x1_0_8 (V0 (Proc.devRef .tc main_arg0)) (V0 (Proc.devRef .tc main_arg1)) := by
  unfold val9; rw [ops8_val, val8_arg0, val8_arg1]
theorem val9_res0 (V0 : Valuation τ sig (Elt F)) : val9 V0 (Proc.devRef .tc main_v4) = fieldVal 0 slices_S26x1000x128_S1x1000x128_0_0_0 slices_S16384x26_S16384x1_0_0 (V0 (Proc.devRef .tc main_arg0)) (V0 (Proc.devRef .tc main_arg1)) :=
  (ops8_keep _ main_v4 (by decide)).trans (val8_res0 V0)
theorem val9_res1 (V0 : Valuation τ sig (Elt F)) : val9 V0 (Proc.devRef .tc main_v9) = fieldVal 1 slices_S26x1000x128_S1x1000x128_1_0_0 slices_S16384x26_S16384x1_0_1 (V0 (Proc.devRef .tc main_arg0)) (V0 (Proc.devRef .tc main_arg1)) :=
  (ops8_keep _ main_v9 (by decide)).trans (val8_res1 V0)
theorem val9_res2 (V0 : Valuation τ sig (Elt F)) : val9 V0 (Proc.devRef .tc main_v14) = fieldVal 2 slices_S26x1000x128_S1x1000x128_2_0_0 slices_S16384x26_S16384x1_0_2 (V0 (Proc.devRef .tc main_arg0)) (V0 (Proc.devRef .tc main_arg1)) :=
  (ops8_keep _ main_v14 (by decide)).trans (val8_res2 V0)
theorem val9_res3 (V0 : Valuation τ sig (Elt F)) : val9 V0 (Proc.devRef .tc main_v19) = fieldVal 3 slices_S26x1000x128_S1x1000x128_3_0_0 slices_S16384x26_S16384x1_0_3 (V0 (Proc.devRef .tc main_arg0)) (V0 (Proc.devRef .tc main_arg1)) :=
  (ops8_keep _ main_v19 (by decide)).trans (val8_res3 V0)
theorem val9_res4 (V0 : Valuation τ sig (Elt F)) : val9 V0 (Proc.devRef .tc main_v24) = fieldVal 4 slices_S26x1000x128_S1x1000x128_4_0_0 slices_S16384x26_S16384x1_0_4 (V0 (Proc.devRef .tc main_arg0)) (V0 (Proc.devRef .tc main_arg1)) :=
  (ops8_keep _ main_v24 (by decide)).trans (val8_res4 V0)
theorem val9_res5 (V0 : Valuation τ sig (Elt F)) : val9 V0 (Proc.devRef .tc main_v29) = fieldVal 5 slices_S26x1000x128_S1x1000x128_5_0_0 slices_S16384x26_S16384x1_0_5 (V0 (Proc.devRef .tc main_arg0)) (V0 (Proc.devRef .tc main_arg1)) :=
  (ops8_keep _ main_v29 (by decide)).trans (val8_res5 V0)
theorem val9_res6 (V0 : Valuation τ sig (Elt F)) : val9 V0 (Proc.devRef .tc main_v34) = fieldVal 6 slices_S26x1000x128_S1x1000x128_6_0_0 slices_S16384x26_S16384x1_0_6 (V0 (Proc.devRef .tc main_arg0)) (V0 (Proc.devRef .tc main_arg1)) :=
  (ops8_keep _ main_v34 (by decide)).trans (val8_res6 V0)
theorem val9_res7 (V0 : Valuation τ sig (Elt F)) : val9 V0 (Proc.devRef .tc main_v39) = fieldVal 7 slices_S26x1000x128_S1x1000x128_7_0_0 slices_S16384x26_S16384x1_0_7 (V0 (Proc.devRef .tc main_arg0)) (V0 (Proc.devRef .tc main_arg1)) :=
  (ops8_keep _ main_v39 (by decide)).trans (val8_res7 V0)

/-- The buffers' contents after fields 0 … 9. -/
def val10 (V0 : Valuation τ sig (Elt F)) : Valuation τ sig (Elt F) := after ops9 (val9 V0)
theorem val10_arg0 (V0 : Valuation τ sig (Elt F)) : val10 V0 (Proc.devRef .tc main_arg0) = V0 (Proc.devRef .tc main_arg0) :=
  (ops9_keep _ main_arg0 (by decide)).trans (val9_arg0 V0)
theorem val10_arg1 (V0 : Valuation τ sig (Elt F)) : val10 V0 (Proc.devRef .tc main_arg1) = V0 (Proc.devRef .tc main_arg1) :=
  (ops9_keep _ main_arg1 (by decide)).trans (val9_arg1 V0)
theorem val10_res9 (V0 : Valuation τ sig (Elt F)) : val10 V0 (Proc.devRef .tc main_v49) = fieldVal 9 slices_S26x1000x128_S1x1000x128_9_0_0 slices_S16384x26_S16384x1_0_9 (V0 (Proc.devRef .tc main_arg0)) (V0 (Proc.devRef .tc main_arg1)) := by
  unfold val10; rw [ops9_val, val9_arg0, val9_arg1]
theorem val10_res0 (V0 : Valuation τ sig (Elt F)) : val10 V0 (Proc.devRef .tc main_v4) = fieldVal 0 slices_S26x1000x128_S1x1000x128_0_0_0 slices_S16384x26_S16384x1_0_0 (V0 (Proc.devRef .tc main_arg0)) (V0 (Proc.devRef .tc main_arg1)) :=
  (ops9_keep _ main_v4 (by decide)).trans (val9_res0 V0)
theorem val10_res1 (V0 : Valuation τ sig (Elt F)) : val10 V0 (Proc.devRef .tc main_v9) = fieldVal 1 slices_S26x1000x128_S1x1000x128_1_0_0 slices_S16384x26_S16384x1_0_1 (V0 (Proc.devRef .tc main_arg0)) (V0 (Proc.devRef .tc main_arg1)) :=
  (ops9_keep _ main_v9 (by decide)).trans (val9_res1 V0)
theorem val10_res2 (V0 : Valuation τ sig (Elt F)) : val10 V0 (Proc.devRef .tc main_v14) = fieldVal 2 slices_S26x1000x128_S1x1000x128_2_0_0 slices_S16384x26_S16384x1_0_2 (V0 (Proc.devRef .tc main_arg0)) (V0 (Proc.devRef .tc main_arg1)) :=
  (ops9_keep _ main_v14 (by decide)).trans (val9_res2 V0)
theorem val10_res3 (V0 : Valuation τ sig (Elt F)) : val10 V0 (Proc.devRef .tc main_v19) = fieldVal 3 slices_S26x1000x128_S1x1000x128_3_0_0 slices_S16384x26_S16384x1_0_3 (V0 (Proc.devRef .tc main_arg0)) (V0 (Proc.devRef .tc main_arg1)) :=
  (ops9_keep _ main_v19 (by decide)).trans (val9_res3 V0)
theorem val10_res4 (V0 : Valuation τ sig (Elt F)) : val10 V0 (Proc.devRef .tc main_v24) = fieldVal 4 slices_S26x1000x128_S1x1000x128_4_0_0 slices_S16384x26_S16384x1_0_4 (V0 (Proc.devRef .tc main_arg0)) (V0 (Proc.devRef .tc main_arg1)) :=
  (ops9_keep _ main_v24 (by decide)).trans (val9_res4 V0)
theorem val10_res5 (V0 : Valuation τ sig (Elt F)) : val10 V0 (Proc.devRef .tc main_v29) = fieldVal 5 slices_S26x1000x128_S1x1000x128_5_0_0 slices_S16384x26_S16384x1_0_5 (V0 (Proc.devRef .tc main_arg0)) (V0 (Proc.devRef .tc main_arg1)) :=
  (ops9_keep _ main_v29 (by decide)).trans (val9_res5 V0)
theorem val10_res6 (V0 : Valuation τ sig (Elt F)) : val10 V0 (Proc.devRef .tc main_v34) = fieldVal 6 slices_S26x1000x128_S1x1000x128_6_0_0 slices_S16384x26_S16384x1_0_6 (V0 (Proc.devRef .tc main_arg0)) (V0 (Proc.devRef .tc main_arg1)) :=
  (ops9_keep _ main_v34 (by decide)).trans (val9_res6 V0)
theorem val10_res7 (V0 : Valuation τ sig (Elt F)) : val10 V0 (Proc.devRef .tc main_v39) = fieldVal 7 slices_S26x1000x128_S1x1000x128_7_0_0 slices_S16384x26_S16384x1_0_7 (V0 (Proc.devRef .tc main_arg0)) (V0 (Proc.devRef .tc main_arg1)) :=
  (ops9_keep _ main_v39 (by decide)).trans (val9_res7 V0)
theorem val10_res8 (V0 : Valuation τ sig (Elt F)) : val10 V0 (Proc.devRef .tc main_v44) = fieldVal 8 slices_S26x1000x128_S1x1000x128_8_0_0 slices_S16384x26_S16384x1_0_8 (V0 (Proc.devRef .tc main_arg0)) (V0 (Proc.devRef .tc main_arg1)) :=
  (ops9_keep _ main_v44 (by decide)).trans (val9_res8 V0)

/-- The buffers' contents after fields 0 … 10. -/
def val11 (V0 : Valuation τ sig (Elt F)) : Valuation τ sig (Elt F) := after ops10 (val10 V0)
theorem val11_arg0 (V0 : Valuation τ sig (Elt F)) : val11 V0 (Proc.devRef .tc main_arg0) = V0 (Proc.devRef .tc main_arg0) :=
  (ops10_keep _ main_arg0 (by decide)).trans (val10_arg0 V0)
theorem val11_arg1 (V0 : Valuation τ sig (Elt F)) : val11 V0 (Proc.devRef .tc main_arg1) = V0 (Proc.devRef .tc main_arg1) :=
  (ops10_keep _ main_arg1 (by decide)).trans (val10_arg1 V0)
theorem val11_res10 (V0 : Valuation τ sig (Elt F)) : val11 V0 (Proc.devRef .tc main_v54) = fieldVal 10 slices_S26x1000x128_S1x1000x128_10_0_0 slices_S16384x26_S16384x1_0_10 (V0 (Proc.devRef .tc main_arg0)) (V0 (Proc.devRef .tc main_arg1)) := by
  unfold val11; rw [ops10_val, val10_arg0, val10_arg1]
theorem val11_res0 (V0 : Valuation τ sig (Elt F)) : val11 V0 (Proc.devRef .tc main_v4) = fieldVal 0 slices_S26x1000x128_S1x1000x128_0_0_0 slices_S16384x26_S16384x1_0_0 (V0 (Proc.devRef .tc main_arg0)) (V0 (Proc.devRef .tc main_arg1)) :=
  (ops10_keep _ main_v4 (by decide)).trans (val10_res0 V0)
theorem val11_res1 (V0 : Valuation τ sig (Elt F)) : val11 V0 (Proc.devRef .tc main_v9) = fieldVal 1 slices_S26x1000x128_S1x1000x128_1_0_0 slices_S16384x26_S16384x1_0_1 (V0 (Proc.devRef .tc main_arg0)) (V0 (Proc.devRef .tc main_arg1)) :=
  (ops10_keep _ main_v9 (by decide)).trans (val10_res1 V0)
theorem val11_res2 (V0 : Valuation τ sig (Elt F)) : val11 V0 (Proc.devRef .tc main_v14) = fieldVal 2 slices_S26x1000x128_S1x1000x128_2_0_0 slices_S16384x26_S16384x1_0_2 (V0 (Proc.devRef .tc main_arg0)) (V0 (Proc.devRef .tc main_arg1)) :=
  (ops10_keep _ main_v14 (by decide)).trans (val10_res2 V0)
theorem val11_res3 (V0 : Valuation τ sig (Elt F)) : val11 V0 (Proc.devRef .tc main_v19) = fieldVal 3 slices_S26x1000x128_S1x1000x128_3_0_0 slices_S16384x26_S16384x1_0_3 (V0 (Proc.devRef .tc main_arg0)) (V0 (Proc.devRef .tc main_arg1)) :=
  (ops10_keep _ main_v19 (by decide)).trans (val10_res3 V0)
theorem val11_res4 (V0 : Valuation τ sig (Elt F)) : val11 V0 (Proc.devRef .tc main_v24) = fieldVal 4 slices_S26x1000x128_S1x1000x128_4_0_0 slices_S16384x26_S16384x1_0_4 (V0 (Proc.devRef .tc main_arg0)) (V0 (Proc.devRef .tc main_arg1)) :=
  (ops10_keep _ main_v24 (by decide)).trans (val10_res4 V0)
theorem val11_res5 (V0 : Valuation τ sig (Elt F)) : val11 V0 (Proc.devRef .tc main_v29) = fieldVal 5 slices_S26x1000x128_S1x1000x128_5_0_0 slices_S16384x26_S16384x1_0_5 (V0 (Proc.devRef .tc main_arg0)) (V0 (Proc.devRef .tc main_arg1)) :=
  (ops10_keep _ main_v29 (by decide)).trans (val10_res5 V0)
theorem val11_res6 (V0 : Valuation τ sig (Elt F)) : val11 V0 (Proc.devRef .tc main_v34) = fieldVal 6 slices_S26x1000x128_S1x1000x128_6_0_0 slices_S16384x26_S16384x1_0_6 (V0 (Proc.devRef .tc main_arg0)) (V0 (Proc.devRef .tc main_arg1)) :=
  (ops10_keep _ main_v34 (by decide)).trans (val10_res6 V0)
theorem val11_res7 (V0 : Valuation τ sig (Elt F)) : val11 V0 (Proc.devRef .tc main_v39) = fieldVal 7 slices_S26x1000x128_S1x1000x128_7_0_0 slices_S16384x26_S16384x1_0_7 (V0 (Proc.devRef .tc main_arg0)) (V0 (Proc.devRef .tc main_arg1)) :=
  (ops10_keep _ main_v39 (by decide)).trans (val10_res7 V0)
theorem val11_res8 (V0 : Valuation τ sig (Elt F)) : val11 V0 (Proc.devRef .tc main_v44) = fieldVal 8 slices_S26x1000x128_S1x1000x128_8_0_0 slices_S16384x26_S16384x1_0_8 (V0 (Proc.devRef .tc main_arg0)) (V0 (Proc.devRef .tc main_arg1)) :=
  (ops10_keep _ main_v44 (by decide)).trans (val10_res8 V0)
theorem val11_res9 (V0 : Valuation τ sig (Elt F)) : val11 V0 (Proc.devRef .tc main_v49) = fieldVal 9 slices_S26x1000x128_S1x1000x128_9_0_0 slices_S16384x26_S16384x1_0_9 (V0 (Proc.devRef .tc main_arg0)) (V0 (Proc.devRef .tc main_arg1)) :=
  (ops10_keep _ main_v49 (by decide)).trans (val10_res9 V0)

/-- The buffers' contents after fields 0 … 11. -/
def val12 (V0 : Valuation τ sig (Elt F)) : Valuation τ sig (Elt F) := after ops11 (val11 V0)
theorem val12_arg0 (V0 : Valuation τ sig (Elt F)) : val12 V0 (Proc.devRef .tc main_arg0) = V0 (Proc.devRef .tc main_arg0) :=
  (ops11_keep _ main_arg0 (by decide)).trans (val11_arg0 V0)
theorem val12_arg1 (V0 : Valuation τ sig (Elt F)) : val12 V0 (Proc.devRef .tc main_arg1) = V0 (Proc.devRef .tc main_arg1) :=
  (ops11_keep _ main_arg1 (by decide)).trans (val11_arg1 V0)
theorem val12_res11 (V0 : Valuation τ sig (Elt F)) : val12 V0 (Proc.devRef .tc main_v59) = fieldVal 11 slices_S26x1000x128_S1x1000x128_11_0_0 slices_S16384x26_S16384x1_0_11 (V0 (Proc.devRef .tc main_arg0)) (V0 (Proc.devRef .tc main_arg1)) := by
  unfold val12; rw [ops11_val, val11_arg0, val11_arg1]
theorem val12_res0 (V0 : Valuation τ sig (Elt F)) : val12 V0 (Proc.devRef .tc main_v4) = fieldVal 0 slices_S26x1000x128_S1x1000x128_0_0_0 slices_S16384x26_S16384x1_0_0 (V0 (Proc.devRef .tc main_arg0)) (V0 (Proc.devRef .tc main_arg1)) :=
  (ops11_keep _ main_v4 (by decide)).trans (val11_res0 V0)
theorem val12_res1 (V0 : Valuation τ sig (Elt F)) : val12 V0 (Proc.devRef .tc main_v9) = fieldVal 1 slices_S26x1000x128_S1x1000x128_1_0_0 slices_S16384x26_S16384x1_0_1 (V0 (Proc.devRef .tc main_arg0)) (V0 (Proc.devRef .tc main_arg1)) :=
  (ops11_keep _ main_v9 (by decide)).trans (val11_res1 V0)
theorem val12_res2 (V0 : Valuation τ sig (Elt F)) : val12 V0 (Proc.devRef .tc main_v14) = fieldVal 2 slices_S26x1000x128_S1x1000x128_2_0_0 slices_S16384x26_S16384x1_0_2 (V0 (Proc.devRef .tc main_arg0)) (V0 (Proc.devRef .tc main_arg1)) :=
  (ops11_keep _ main_v14 (by decide)).trans (val11_res2 V0)
theorem val12_res3 (V0 : Valuation τ sig (Elt F)) : val12 V0 (Proc.devRef .tc main_v19) = fieldVal 3 slices_S26x1000x128_S1x1000x128_3_0_0 slices_S16384x26_S16384x1_0_3 (V0 (Proc.devRef .tc main_arg0)) (V0 (Proc.devRef .tc main_arg1)) :=
  (ops11_keep _ main_v19 (by decide)).trans (val11_res3 V0)
theorem val12_res4 (V0 : Valuation τ sig (Elt F)) : val12 V0 (Proc.devRef .tc main_v24) = fieldVal 4 slices_S26x1000x128_S1x1000x128_4_0_0 slices_S16384x26_S16384x1_0_4 (V0 (Proc.devRef .tc main_arg0)) (V0 (Proc.devRef .tc main_arg1)) :=
  (ops11_keep _ main_v24 (by decide)).trans (val11_res4 V0)
theorem val12_res5 (V0 : Valuation τ sig (Elt F)) : val12 V0 (Proc.devRef .tc main_v29) = fieldVal 5 slices_S26x1000x128_S1x1000x128_5_0_0 slices_S16384x26_S16384x1_0_5 (V0 (Proc.devRef .tc main_arg0)) (V0 (Proc.devRef .tc main_arg1)) :=
  (ops11_keep _ main_v29 (by decide)).trans (val11_res5 V0)
theorem val12_res6 (V0 : Valuation τ sig (Elt F)) : val12 V0 (Proc.devRef .tc main_v34) = fieldVal 6 slices_S26x1000x128_S1x1000x128_6_0_0 slices_S16384x26_S16384x1_0_6 (V0 (Proc.devRef .tc main_arg0)) (V0 (Proc.devRef .tc main_arg1)) :=
  (ops11_keep _ main_v34 (by decide)).trans (val11_res6 V0)
theorem val12_res7 (V0 : Valuation τ sig (Elt F)) : val12 V0 (Proc.devRef .tc main_v39) = fieldVal 7 slices_S26x1000x128_S1x1000x128_7_0_0 slices_S16384x26_S16384x1_0_7 (V0 (Proc.devRef .tc main_arg0)) (V0 (Proc.devRef .tc main_arg1)) :=
  (ops11_keep _ main_v39 (by decide)).trans (val11_res7 V0)
theorem val12_res8 (V0 : Valuation τ sig (Elt F)) : val12 V0 (Proc.devRef .tc main_v44) = fieldVal 8 slices_S26x1000x128_S1x1000x128_8_0_0 slices_S16384x26_S16384x1_0_8 (V0 (Proc.devRef .tc main_arg0)) (V0 (Proc.devRef .tc main_arg1)) :=
  (ops11_keep _ main_v44 (by decide)).trans (val11_res8 V0)
theorem val12_res9 (V0 : Valuation τ sig (Elt F)) : val12 V0 (Proc.devRef .tc main_v49) = fieldVal 9 slices_S26x1000x128_S1x1000x128_9_0_0 slices_S16384x26_S16384x1_0_9 (V0 (Proc.devRef .tc main_arg0)) (V0 (Proc.devRef .tc main_arg1)) :=
  (ops11_keep _ main_v49 (by decide)).trans (val11_res9 V0)
theorem val12_res10 (V0 : Valuation τ sig (Elt F)) : val12 V0 (Proc.devRef .tc main_v54) = fieldVal 10 slices_S26x1000x128_S1x1000x128_10_0_0 slices_S16384x26_S16384x1_0_10 (V0 (Proc.devRef .tc main_arg0)) (V0 (Proc.devRef .tc main_arg1)) :=
  (ops11_keep _ main_v54 (by decide)).trans (val11_res10 V0)

/-- The buffers' contents after fields 0 … 12. -/
def val13 (V0 : Valuation τ sig (Elt F)) : Valuation τ sig (Elt F) := after ops12 (val12 V0)
theorem val13_arg0 (V0 : Valuation τ sig (Elt F)) : val13 V0 (Proc.devRef .tc main_arg0) = V0 (Proc.devRef .tc main_arg0) :=
  (ops12_keep _ main_arg0 (by decide)).trans (val12_arg0 V0)
theorem val13_arg1 (V0 : Valuation τ sig (Elt F)) : val13 V0 (Proc.devRef .tc main_arg1) = V0 (Proc.devRef .tc main_arg1) :=
  (ops12_keep _ main_arg1 (by decide)).trans (val12_arg1 V0)
theorem val13_res12 (V0 : Valuation τ sig (Elt F)) : val13 V0 (Proc.devRef .tc main_v64) = fieldVal 12 slices_S26x1000x128_S1x1000x128_12_0_0 slices_S16384x26_S16384x1_0_12 (V0 (Proc.devRef .tc main_arg0)) (V0 (Proc.devRef .tc main_arg1)) := by
  unfold val13; rw [ops12_val, val12_arg0, val12_arg1]
theorem val13_res0 (V0 : Valuation τ sig (Elt F)) : val13 V0 (Proc.devRef .tc main_v4) = fieldVal 0 slices_S26x1000x128_S1x1000x128_0_0_0 slices_S16384x26_S16384x1_0_0 (V0 (Proc.devRef .tc main_arg0)) (V0 (Proc.devRef .tc main_arg1)) :=
  (ops12_keep _ main_v4 (by decide)).trans (val12_res0 V0)
theorem val13_res1 (V0 : Valuation τ sig (Elt F)) : val13 V0 (Proc.devRef .tc main_v9) = fieldVal 1 slices_S26x1000x128_S1x1000x128_1_0_0 slices_S16384x26_S16384x1_0_1 (V0 (Proc.devRef .tc main_arg0)) (V0 (Proc.devRef .tc main_arg1)) :=
  (ops12_keep _ main_v9 (by decide)).trans (val12_res1 V0)
theorem val13_res2 (V0 : Valuation τ sig (Elt F)) : val13 V0 (Proc.devRef .tc main_v14) = fieldVal 2 slices_S26x1000x128_S1x1000x128_2_0_0 slices_S16384x26_S16384x1_0_2 (V0 (Proc.devRef .tc main_arg0)) (V0 (Proc.devRef .tc main_arg1)) :=
  (ops12_keep _ main_v14 (by decide)).trans (val12_res2 V0)
theorem val13_res3 (V0 : Valuation τ sig (Elt F)) : val13 V0 (Proc.devRef .tc main_v19) = fieldVal 3 slices_S26x1000x128_S1x1000x128_3_0_0 slices_S16384x26_S16384x1_0_3 (V0 (Proc.devRef .tc main_arg0)) (V0 (Proc.devRef .tc main_arg1)) :=
  (ops12_keep _ main_v19 (by decide)).trans (val12_res3 V0)
theorem val13_res4 (V0 : Valuation τ sig (Elt F)) : val13 V0 (Proc.devRef .tc main_v24) = fieldVal 4 slices_S26x1000x128_S1x1000x128_4_0_0 slices_S16384x26_S16384x1_0_4 (V0 (Proc.devRef .tc main_arg0)) (V0 (Proc.devRef .tc main_arg1)) :=
  (ops12_keep _ main_v24 (by decide)).trans (val12_res4 V0)
theorem val13_res5 (V0 : Valuation τ sig (Elt F)) : val13 V0 (Proc.devRef .tc main_v29) = fieldVal 5 slices_S26x1000x128_S1x1000x128_5_0_0 slices_S16384x26_S16384x1_0_5 (V0 (Proc.devRef .tc main_arg0)) (V0 (Proc.devRef .tc main_arg1)) :=
  (ops12_keep _ main_v29 (by decide)).trans (val12_res5 V0)
theorem val13_res6 (V0 : Valuation τ sig (Elt F)) : val13 V0 (Proc.devRef .tc main_v34) = fieldVal 6 slices_S26x1000x128_S1x1000x128_6_0_0 slices_S16384x26_S16384x1_0_6 (V0 (Proc.devRef .tc main_arg0)) (V0 (Proc.devRef .tc main_arg1)) :=
  (ops12_keep _ main_v34 (by decide)).trans (val12_res6 V0)
theorem val13_res7 (V0 : Valuation τ sig (Elt F)) : val13 V0 (Proc.devRef .tc main_v39) = fieldVal 7 slices_S26x1000x128_S1x1000x128_7_0_0 slices_S16384x26_S16384x1_0_7 (V0 (Proc.devRef .tc main_arg0)) (V0 (Proc.devRef .tc main_arg1)) :=
  (ops12_keep _ main_v39 (by decide)).trans (val12_res7 V0)
theorem val13_res8 (V0 : Valuation τ sig (Elt F)) : val13 V0 (Proc.devRef .tc main_v44) = fieldVal 8 slices_S26x1000x128_S1x1000x128_8_0_0 slices_S16384x26_S16384x1_0_8 (V0 (Proc.devRef .tc main_arg0)) (V0 (Proc.devRef .tc main_arg1)) :=
  (ops12_keep _ main_v44 (by decide)).trans (val12_res8 V0)
theorem val13_res9 (V0 : Valuation τ sig (Elt F)) : val13 V0 (Proc.devRef .tc main_v49) = fieldVal 9 slices_S26x1000x128_S1x1000x128_9_0_0 slices_S16384x26_S16384x1_0_9 (V0 (Proc.devRef .tc main_arg0)) (V0 (Proc.devRef .tc main_arg1)) :=
  (ops12_keep _ main_v49 (by decide)).trans (val12_res9 V0)
theorem val13_res10 (V0 : Valuation τ sig (Elt F)) : val13 V0 (Proc.devRef .tc main_v54) = fieldVal 10 slices_S26x1000x128_S1x1000x128_10_0_0 slices_S16384x26_S16384x1_0_10 (V0 (Proc.devRef .tc main_arg0)) (V0 (Proc.devRef .tc main_arg1)) :=
  (ops12_keep _ main_v54 (by decide)).trans (val12_res10 V0)
theorem val13_res11 (V0 : Valuation τ sig (Elt F)) : val13 V0 (Proc.devRef .tc main_v59) = fieldVal 11 slices_S26x1000x128_S1x1000x128_11_0_0 slices_S16384x26_S16384x1_0_11 (V0 (Proc.devRef .tc main_arg0)) (V0 (Proc.devRef .tc main_arg1)) :=
  (ops12_keep _ main_v59 (by decide)).trans (val12_res11 V0)

/-- The buffers' contents after fields 0 … 13. -/
def val14 (V0 : Valuation τ sig (Elt F)) : Valuation τ sig (Elt F) := after ops13 (val13 V0)
theorem val14_arg0 (V0 : Valuation τ sig (Elt F)) : val14 V0 (Proc.devRef .tc main_arg0) = V0 (Proc.devRef .tc main_arg0) :=
  (ops13_keep _ main_arg0 (by decide)).trans (val13_arg0 V0)
theorem val14_arg1 (V0 : Valuation τ sig (Elt F)) : val14 V0 (Proc.devRef .tc main_arg1) = V0 (Proc.devRef .tc main_arg1) :=
  (ops13_keep _ main_arg1 (by decide)).trans (val13_arg1 V0)
theorem val14_res13 (V0 : Valuation τ sig (Elt F)) : val14 V0 (Proc.devRef .tc main_v69) = fieldVal 13 slices_S26x1000x128_S1x1000x128_13_0_0 slices_S16384x26_S16384x1_0_13 (V0 (Proc.devRef .tc main_arg0)) (V0 (Proc.devRef .tc main_arg1)) := by
  unfold val14; rw [ops13_val, val13_arg0, val13_arg1]
theorem val14_res0 (V0 : Valuation τ sig (Elt F)) : val14 V0 (Proc.devRef .tc main_v4) = fieldVal 0 slices_S26x1000x128_S1x1000x128_0_0_0 slices_S16384x26_S16384x1_0_0 (V0 (Proc.devRef .tc main_arg0)) (V0 (Proc.devRef .tc main_arg1)) :=
  (ops13_keep _ main_v4 (by decide)).trans (val13_res0 V0)
theorem val14_res1 (V0 : Valuation τ sig (Elt F)) : val14 V0 (Proc.devRef .tc main_v9) = fieldVal 1 slices_S26x1000x128_S1x1000x128_1_0_0 slices_S16384x26_S16384x1_0_1 (V0 (Proc.devRef .tc main_arg0)) (V0 (Proc.devRef .tc main_arg1)) :=
  (ops13_keep _ main_v9 (by decide)).trans (val13_res1 V0)
theorem val14_res2 (V0 : Valuation τ sig (Elt F)) : val14 V0 (Proc.devRef .tc main_v14) = fieldVal 2 slices_S26x1000x128_S1x1000x128_2_0_0 slices_S16384x26_S16384x1_0_2 (V0 (Proc.devRef .tc main_arg0)) (V0 (Proc.devRef .tc main_arg1)) :=
  (ops13_keep _ main_v14 (by decide)).trans (val13_res2 V0)
theorem val14_res3 (V0 : Valuation τ sig (Elt F)) : val14 V0 (Proc.devRef .tc main_v19) = fieldVal 3 slices_S26x1000x128_S1x1000x128_3_0_0 slices_S16384x26_S16384x1_0_3 (V0 (Proc.devRef .tc main_arg0)) (V0 (Proc.devRef .tc main_arg1)) :=
  (ops13_keep _ main_v19 (by decide)).trans (val13_res3 V0)
theorem val14_res4 (V0 : Valuation τ sig (Elt F)) : val14 V0 (Proc.devRef .tc main_v24) = fieldVal 4 slices_S26x1000x128_S1x1000x128_4_0_0 slices_S16384x26_S16384x1_0_4 (V0 (Proc.devRef .tc main_arg0)) (V0 (Proc.devRef .tc main_arg1)) :=
  (ops13_keep _ main_v24 (by decide)).trans (val13_res4 V0)
theorem val14_res5 (V0 : Valuation τ sig (Elt F)) : val14 V0 (Proc.devRef .tc main_v29) = fieldVal 5 slices_S26x1000x128_S1x1000x128_5_0_0 slices_S16384x26_S16384x1_0_5 (V0 (Proc.devRef .tc main_arg0)) (V0 (Proc.devRef .tc main_arg1)) :=
  (ops13_keep _ main_v29 (by decide)).trans (val13_res5 V0)
theorem val14_res6 (V0 : Valuation τ sig (Elt F)) : val14 V0 (Proc.devRef .tc main_v34) = fieldVal 6 slices_S26x1000x128_S1x1000x128_6_0_0 slices_S16384x26_S16384x1_0_6 (V0 (Proc.devRef .tc main_arg0)) (V0 (Proc.devRef .tc main_arg1)) :=
  (ops13_keep _ main_v34 (by decide)).trans (val13_res6 V0)
theorem val14_res7 (V0 : Valuation τ sig (Elt F)) : val14 V0 (Proc.devRef .tc main_v39) = fieldVal 7 slices_S26x1000x128_S1x1000x128_7_0_0 slices_S16384x26_S16384x1_0_7 (V0 (Proc.devRef .tc main_arg0)) (V0 (Proc.devRef .tc main_arg1)) :=
  (ops13_keep _ main_v39 (by decide)).trans (val13_res7 V0)
theorem val14_res8 (V0 : Valuation τ sig (Elt F)) : val14 V0 (Proc.devRef .tc main_v44) = fieldVal 8 slices_S26x1000x128_S1x1000x128_8_0_0 slices_S16384x26_S16384x1_0_8 (V0 (Proc.devRef .tc main_arg0)) (V0 (Proc.devRef .tc main_arg1)) :=
  (ops13_keep _ main_v44 (by decide)).trans (val13_res8 V0)
theorem val14_res9 (V0 : Valuation τ sig (Elt F)) : val14 V0 (Proc.devRef .tc main_v49) = fieldVal 9 slices_S26x1000x128_S1x1000x128_9_0_0 slices_S16384x26_S16384x1_0_9 (V0 (Proc.devRef .tc main_arg0)) (V0 (Proc.devRef .tc main_arg1)) :=
  (ops13_keep _ main_v49 (by decide)).trans (val13_res9 V0)
theorem val14_res10 (V0 : Valuation τ sig (Elt F)) : val14 V0 (Proc.devRef .tc main_v54) = fieldVal 10 slices_S26x1000x128_S1x1000x128_10_0_0 slices_S16384x26_S16384x1_0_10 (V0 (Proc.devRef .tc main_arg0)) (V0 (Proc.devRef .tc main_arg1)) :=
  (ops13_keep _ main_v54 (by decide)).trans (val13_res10 V0)
theorem val14_res11 (V0 : Valuation τ sig (Elt F)) : val14 V0 (Proc.devRef .tc main_v59) = fieldVal 11 slices_S26x1000x128_S1x1000x128_11_0_0 slices_S16384x26_S16384x1_0_11 (V0 (Proc.devRef .tc main_arg0)) (V0 (Proc.devRef .tc main_arg1)) :=
  (ops13_keep _ main_v59 (by decide)).trans (val13_res11 V0)
theorem val14_res12 (V0 : Valuation τ sig (Elt F)) : val14 V0 (Proc.devRef .tc main_v64) = fieldVal 12 slices_S26x1000x128_S1x1000x128_12_0_0 slices_S16384x26_S16384x1_0_12 (V0 (Proc.devRef .tc main_arg0)) (V0 (Proc.devRef .tc main_arg1)) :=
  (ops13_keep _ main_v64 (by decide)).trans (val13_res12 V0)

/-- The buffers' contents after fields 0 … 14. -/
def val15 (V0 : Valuation τ sig (Elt F)) : Valuation τ sig (Elt F) := after ops14 (val14 V0)
theorem val15_arg0 (V0 : Valuation τ sig (Elt F)) : val15 V0 (Proc.devRef .tc main_arg0) = V0 (Proc.devRef .tc main_arg0) :=
  (ops14_keep _ main_arg0 (by decide)).trans (val14_arg0 V0)
theorem val15_arg1 (V0 : Valuation τ sig (Elt F)) : val15 V0 (Proc.devRef .tc main_arg1) = V0 (Proc.devRef .tc main_arg1) :=
  (ops14_keep _ main_arg1 (by decide)).trans (val14_arg1 V0)
theorem val15_res14 (V0 : Valuation τ sig (Elt F)) : val15 V0 (Proc.devRef .tc main_v74) = fieldVal 14 slices_S26x1000x128_S1x1000x128_14_0_0 slices_S16384x26_S16384x1_0_14 (V0 (Proc.devRef .tc main_arg0)) (V0 (Proc.devRef .tc main_arg1)) := by
  unfold val15; rw [ops14_val, val14_arg0, val14_arg1]
theorem val15_res0 (V0 : Valuation τ sig (Elt F)) : val15 V0 (Proc.devRef .tc main_v4) = fieldVal 0 slices_S26x1000x128_S1x1000x128_0_0_0 slices_S16384x26_S16384x1_0_0 (V0 (Proc.devRef .tc main_arg0)) (V0 (Proc.devRef .tc main_arg1)) :=
  (ops14_keep _ main_v4 (by decide)).trans (val14_res0 V0)
theorem val15_res1 (V0 : Valuation τ sig (Elt F)) : val15 V0 (Proc.devRef .tc main_v9) = fieldVal 1 slices_S26x1000x128_S1x1000x128_1_0_0 slices_S16384x26_S16384x1_0_1 (V0 (Proc.devRef .tc main_arg0)) (V0 (Proc.devRef .tc main_arg1)) :=
  (ops14_keep _ main_v9 (by decide)).trans (val14_res1 V0)
theorem val15_res2 (V0 : Valuation τ sig (Elt F)) : val15 V0 (Proc.devRef .tc main_v14) = fieldVal 2 slices_S26x1000x128_S1x1000x128_2_0_0 slices_S16384x26_S16384x1_0_2 (V0 (Proc.devRef .tc main_arg0)) (V0 (Proc.devRef .tc main_arg1)) :=
  (ops14_keep _ main_v14 (by decide)).trans (val14_res2 V0)
theorem val15_res3 (V0 : Valuation τ sig (Elt F)) : val15 V0 (Proc.devRef .tc main_v19) = fieldVal 3 slices_S26x1000x128_S1x1000x128_3_0_0 slices_S16384x26_S16384x1_0_3 (V0 (Proc.devRef .tc main_arg0)) (V0 (Proc.devRef .tc main_arg1)) :=
  (ops14_keep _ main_v19 (by decide)).trans (val14_res3 V0)
theorem val15_res4 (V0 : Valuation τ sig (Elt F)) : val15 V0 (Proc.devRef .tc main_v24) = fieldVal 4 slices_S26x1000x128_S1x1000x128_4_0_0 slices_S16384x26_S16384x1_0_4 (V0 (Proc.devRef .tc main_arg0)) (V0 (Proc.devRef .tc main_arg1)) :=
  (ops14_keep _ main_v24 (by decide)).trans (val14_res4 V0)
theorem val15_res5 (V0 : Valuation τ sig (Elt F)) : val15 V0 (Proc.devRef .tc main_v29) = fieldVal 5 slices_S26x1000x128_S1x1000x128_5_0_0 slices_S16384x26_S16384x1_0_5 (V0 (Proc.devRef .tc main_arg0)) (V0 (Proc.devRef .tc main_arg1)) :=
  (ops14_keep _ main_v29 (by decide)).trans (val14_res5 V0)
theorem val15_res6 (V0 : Valuation τ sig (Elt F)) : val15 V0 (Proc.devRef .tc main_v34) = fieldVal 6 slices_S26x1000x128_S1x1000x128_6_0_0 slices_S16384x26_S16384x1_0_6 (V0 (Proc.devRef .tc main_arg0)) (V0 (Proc.devRef .tc main_arg1)) :=
  (ops14_keep _ main_v34 (by decide)).trans (val14_res6 V0)
theorem val15_res7 (V0 : Valuation τ sig (Elt F)) : val15 V0 (Proc.devRef .tc main_v39) = fieldVal 7 slices_S26x1000x128_S1x1000x128_7_0_0 slices_S16384x26_S16384x1_0_7 (V0 (Proc.devRef .tc main_arg0)) (V0 (Proc.devRef .tc main_arg1)) :=
  (ops14_keep _ main_v39 (by decide)).trans (val14_res7 V0)
theorem val15_res8 (V0 : Valuation τ sig (Elt F)) : val15 V0 (Proc.devRef .tc main_v44) = fieldVal 8 slices_S26x1000x128_S1x1000x128_8_0_0 slices_S16384x26_S16384x1_0_8 (V0 (Proc.devRef .tc main_arg0)) (V0 (Proc.devRef .tc main_arg1)) :=
  (ops14_keep _ main_v44 (by decide)).trans (val14_res8 V0)
theorem val15_res9 (V0 : Valuation τ sig (Elt F)) : val15 V0 (Proc.devRef .tc main_v49) = fieldVal 9 slices_S26x1000x128_S1x1000x128_9_0_0 slices_S16384x26_S16384x1_0_9 (V0 (Proc.devRef .tc main_arg0)) (V0 (Proc.devRef .tc main_arg1)) :=
  (ops14_keep _ main_v49 (by decide)).trans (val14_res9 V0)
theorem val15_res10 (V0 : Valuation τ sig (Elt F)) : val15 V0 (Proc.devRef .tc main_v54) = fieldVal 10 slices_S26x1000x128_S1x1000x128_10_0_0 slices_S16384x26_S16384x1_0_10 (V0 (Proc.devRef .tc main_arg0)) (V0 (Proc.devRef .tc main_arg1)) :=
  (ops14_keep _ main_v54 (by decide)).trans (val14_res10 V0)
theorem val15_res11 (V0 : Valuation τ sig (Elt F)) : val15 V0 (Proc.devRef .tc main_v59) = fieldVal 11 slices_S26x1000x128_S1x1000x128_11_0_0 slices_S16384x26_S16384x1_0_11 (V0 (Proc.devRef .tc main_arg0)) (V0 (Proc.devRef .tc main_arg1)) :=
  (ops14_keep _ main_v59 (by decide)).trans (val14_res11 V0)
theorem val15_res12 (V0 : Valuation τ sig (Elt F)) : val15 V0 (Proc.devRef .tc main_v64) = fieldVal 12 slices_S26x1000x128_S1x1000x128_12_0_0 slices_S16384x26_S16384x1_0_12 (V0 (Proc.devRef .tc main_arg0)) (V0 (Proc.devRef .tc main_arg1)) :=
  (ops14_keep _ main_v64 (by decide)).trans (val14_res12 V0)
theorem val15_res13 (V0 : Valuation τ sig (Elt F)) : val15 V0 (Proc.devRef .tc main_v69) = fieldVal 13 slices_S26x1000x128_S1x1000x128_13_0_0 slices_S16384x26_S16384x1_0_13 (V0 (Proc.devRef .tc main_arg0)) (V0 (Proc.devRef .tc main_arg1)) :=
  (ops14_keep _ main_v69 (by decide)).trans (val14_res13 V0)

/-- The buffers' contents after fields 0 … 15. -/
def val16 (V0 : Valuation τ sig (Elt F)) : Valuation τ sig (Elt F) := after ops15 (val15 V0)
theorem val16_arg0 (V0 : Valuation τ sig (Elt F)) : val16 V0 (Proc.devRef .tc main_arg0) = V0 (Proc.devRef .tc main_arg0) :=
  (ops15_keep _ main_arg0 (by decide)).trans (val15_arg0 V0)
theorem val16_arg1 (V0 : Valuation τ sig (Elt F)) : val16 V0 (Proc.devRef .tc main_arg1) = V0 (Proc.devRef .tc main_arg1) :=
  (ops15_keep _ main_arg1 (by decide)).trans (val15_arg1 V0)
theorem val16_res15 (V0 : Valuation τ sig (Elt F)) : val16 V0 (Proc.devRef .tc main_v79) = fieldVal 15 slices_S26x1000x128_S1x1000x128_15_0_0 slices_S16384x26_S16384x1_0_15 (V0 (Proc.devRef .tc main_arg0)) (V0 (Proc.devRef .tc main_arg1)) := by
  unfold val16; rw [ops15_val, val15_arg0, val15_arg1]
theorem val16_res0 (V0 : Valuation τ sig (Elt F)) : val16 V0 (Proc.devRef .tc main_v4) = fieldVal 0 slices_S26x1000x128_S1x1000x128_0_0_0 slices_S16384x26_S16384x1_0_0 (V0 (Proc.devRef .tc main_arg0)) (V0 (Proc.devRef .tc main_arg1)) :=
  (ops15_keep _ main_v4 (by decide)).trans (val15_res0 V0)
theorem val16_res1 (V0 : Valuation τ sig (Elt F)) : val16 V0 (Proc.devRef .tc main_v9) = fieldVal 1 slices_S26x1000x128_S1x1000x128_1_0_0 slices_S16384x26_S16384x1_0_1 (V0 (Proc.devRef .tc main_arg0)) (V0 (Proc.devRef .tc main_arg1)) :=
  (ops15_keep _ main_v9 (by decide)).trans (val15_res1 V0)
theorem val16_res2 (V0 : Valuation τ sig (Elt F)) : val16 V0 (Proc.devRef .tc main_v14) = fieldVal 2 slices_S26x1000x128_S1x1000x128_2_0_0 slices_S16384x26_S16384x1_0_2 (V0 (Proc.devRef .tc main_arg0)) (V0 (Proc.devRef .tc main_arg1)) :=
  (ops15_keep _ main_v14 (by decide)).trans (val15_res2 V0)
theorem val16_res3 (V0 : Valuation τ sig (Elt F)) : val16 V0 (Proc.devRef .tc main_v19) = fieldVal 3 slices_S26x1000x128_S1x1000x128_3_0_0 slices_S16384x26_S16384x1_0_3 (V0 (Proc.devRef .tc main_arg0)) (V0 (Proc.devRef .tc main_arg1)) :=
  (ops15_keep _ main_v19 (by decide)).trans (val15_res3 V0)
theorem val16_res4 (V0 : Valuation τ sig (Elt F)) : val16 V0 (Proc.devRef .tc main_v24) = fieldVal 4 slices_S26x1000x128_S1x1000x128_4_0_0 slices_S16384x26_S16384x1_0_4 (V0 (Proc.devRef .tc main_arg0)) (V0 (Proc.devRef .tc main_arg1)) :=
  (ops15_keep _ main_v24 (by decide)).trans (val15_res4 V0)
theorem val16_res5 (V0 : Valuation τ sig (Elt F)) : val16 V0 (Proc.devRef .tc main_v29) = fieldVal 5 slices_S26x1000x128_S1x1000x128_5_0_0 slices_S16384x26_S16384x1_0_5 (V0 (Proc.devRef .tc main_arg0)) (V0 (Proc.devRef .tc main_arg1)) :=
  (ops15_keep _ main_v29 (by decide)).trans (val15_res5 V0)
theorem val16_res6 (V0 : Valuation τ sig (Elt F)) : val16 V0 (Proc.devRef .tc main_v34) = fieldVal 6 slices_S26x1000x128_S1x1000x128_6_0_0 slices_S16384x26_S16384x1_0_6 (V0 (Proc.devRef .tc main_arg0)) (V0 (Proc.devRef .tc main_arg1)) :=
  (ops15_keep _ main_v34 (by decide)).trans (val15_res6 V0)
theorem val16_res7 (V0 : Valuation τ sig (Elt F)) : val16 V0 (Proc.devRef .tc main_v39) = fieldVal 7 slices_S26x1000x128_S1x1000x128_7_0_0 slices_S16384x26_S16384x1_0_7 (V0 (Proc.devRef .tc main_arg0)) (V0 (Proc.devRef .tc main_arg1)) :=
  (ops15_keep _ main_v39 (by decide)).trans (val15_res7 V0)
theorem val16_res8 (V0 : Valuation τ sig (Elt F)) : val16 V0 (Proc.devRef .tc main_v44) = fieldVal 8 slices_S26x1000x128_S1x1000x128_8_0_0 slices_S16384x26_S16384x1_0_8 (V0 (Proc.devRef .tc main_arg0)) (V0 (Proc.devRef .tc main_arg1)) :=
  (ops15_keep _ main_v44 (by decide)).trans (val15_res8 V0)
theorem val16_res9 (V0 : Valuation τ sig (Elt F)) : val16 V0 (Proc.devRef .tc main_v49) = fieldVal 9 slices_S26x1000x128_S1x1000x128_9_0_0 slices_S16384x26_S16384x1_0_9 (V0 (Proc.devRef .tc main_arg0)) (V0 (Proc.devRef .tc main_arg1)) :=
  (ops15_keep _ main_v49 (by decide)).trans (val15_res9 V0)
theorem val16_res10 (V0 : Valuation τ sig (Elt F)) : val16 V0 (Proc.devRef .tc main_v54) = fieldVal 10 slices_S26x1000x128_S1x1000x128_10_0_0 slices_S16384x26_S16384x1_0_10 (V0 (Proc.devRef .tc main_arg0)) (V0 (Proc.devRef .tc main_arg1)) :=
  (ops15_keep _ main_v54 (by decide)).trans (val15_res10 V0)
theorem val16_res11 (V0 : Valuation τ sig (Elt F)) : val16 V0 (Proc.devRef .tc main_v59) = fieldVal 11 slices_S26x1000x128_S1x1000x128_11_0_0 slices_S16384x26_S16384x1_0_11 (V0 (Proc.devRef .tc main_arg0)) (V0 (Proc.devRef .tc main_arg1)) :=
  (ops15_keep _ main_v59 (by decide)).trans (val15_res11 V0)
theorem val16_res12 (V0 : Valuation τ sig (Elt F)) : val16 V0 (Proc.devRef .tc main_v64) = fieldVal 12 slices_S26x1000x128_S1x1000x128_12_0_0 slices_S16384x26_S16384x1_0_12 (V0 (Proc.devRef .tc main_arg0)) (V0 (Proc.devRef .tc main_arg1)) :=
  (ops15_keep _ main_v64 (by decide)).trans (val15_res12 V0)
theorem val16_res13 (V0 : Valuation τ sig (Elt F)) : val16 V0 (Proc.devRef .tc main_v69) = fieldVal 13 slices_S26x1000x128_S1x1000x128_13_0_0 slices_S16384x26_S16384x1_0_13 (V0 (Proc.devRef .tc main_arg0)) (V0 (Proc.devRef .tc main_arg1)) :=
  (ops15_keep _ main_v69 (by decide)).trans (val15_res13 V0)
theorem val16_res14 (V0 : Valuation τ sig (Elt F)) : val16 V0 (Proc.devRef .tc main_v74) = fieldVal 14 slices_S26x1000x128_S1x1000x128_14_0_0 slices_S16384x26_S16384x1_0_14 (V0 (Proc.devRef .tc main_arg0)) (V0 (Proc.devRef .tc main_arg1)) :=
  (ops15_keep _ main_v74 (by decide)).trans (val15_res14 V0)

/-- The buffers' contents after fields 0 … 16. -/
def val17 (V0 : Valuation τ sig (Elt F)) : Valuation τ sig (Elt F) := after ops16 (val16 V0)
theorem val17_arg0 (V0 : Valuation τ sig (Elt F)) : val17 V0 (Proc.devRef .tc main_arg0) = V0 (Proc.devRef .tc main_arg0) :=
  (ops16_keep _ main_arg0 (by decide)).trans (val16_arg0 V0)
theorem val17_arg1 (V0 : Valuation τ sig (Elt F)) : val17 V0 (Proc.devRef .tc main_arg1) = V0 (Proc.devRef .tc main_arg1) :=
  (ops16_keep _ main_arg1 (by decide)).trans (val16_arg1 V0)
theorem val17_res16 (V0 : Valuation τ sig (Elt F)) : val17 V0 (Proc.devRef .tc main_v84) = fieldVal 16 slices_S26x1000x128_S1x1000x128_16_0_0 slices_S16384x26_S16384x1_0_16 (V0 (Proc.devRef .tc main_arg0)) (V0 (Proc.devRef .tc main_arg1)) := by
  unfold val17; rw [ops16_val, val16_arg0, val16_arg1]
theorem val17_res0 (V0 : Valuation τ sig (Elt F)) : val17 V0 (Proc.devRef .tc main_v4) = fieldVal 0 slices_S26x1000x128_S1x1000x128_0_0_0 slices_S16384x26_S16384x1_0_0 (V0 (Proc.devRef .tc main_arg0)) (V0 (Proc.devRef .tc main_arg1)) :=
  (ops16_keep _ main_v4 (by decide)).trans (val16_res0 V0)
theorem val17_res1 (V0 : Valuation τ sig (Elt F)) : val17 V0 (Proc.devRef .tc main_v9) = fieldVal 1 slices_S26x1000x128_S1x1000x128_1_0_0 slices_S16384x26_S16384x1_0_1 (V0 (Proc.devRef .tc main_arg0)) (V0 (Proc.devRef .tc main_arg1)) :=
  (ops16_keep _ main_v9 (by decide)).trans (val16_res1 V0)
theorem val17_res2 (V0 : Valuation τ sig (Elt F)) : val17 V0 (Proc.devRef .tc main_v14) = fieldVal 2 slices_S26x1000x128_S1x1000x128_2_0_0 slices_S16384x26_S16384x1_0_2 (V0 (Proc.devRef .tc main_arg0)) (V0 (Proc.devRef .tc main_arg1)) :=
  (ops16_keep _ main_v14 (by decide)).trans (val16_res2 V0)
theorem val17_res3 (V0 : Valuation τ sig (Elt F)) : val17 V0 (Proc.devRef .tc main_v19) = fieldVal 3 slices_S26x1000x128_S1x1000x128_3_0_0 slices_S16384x26_S16384x1_0_3 (V0 (Proc.devRef .tc main_arg0)) (V0 (Proc.devRef .tc main_arg1)) :=
  (ops16_keep _ main_v19 (by decide)).trans (val16_res3 V0)
theorem val17_res4 (V0 : Valuation τ sig (Elt F)) : val17 V0 (Proc.devRef .tc main_v24) = fieldVal 4 slices_S26x1000x128_S1x1000x128_4_0_0 slices_S16384x26_S16384x1_0_4 (V0 (Proc.devRef .tc main_arg0)) (V0 (Proc.devRef .tc main_arg1)) :=
  (ops16_keep _ main_v24 (by decide)).trans (val16_res4 V0)
theorem val17_res5 (V0 : Valuation τ sig (Elt F)) : val17 V0 (Proc.devRef .tc main_v29) = fieldVal 5 slices_S26x1000x128_S1x1000x128_5_0_0 slices_S16384x26_S16384x1_0_5 (V0 (Proc.devRef .tc main_arg0)) (V0 (Proc.devRef .tc main_arg1)) :=
  (ops16_keep _ main_v29 (by decide)).trans (val16_res5 V0)
theorem val17_res6 (V0 : Valuation τ sig (Elt F)) : val17 V0 (Proc.devRef .tc main_v34) = fieldVal 6 slices_S26x1000x128_S1x1000x128_6_0_0 slices_S16384x26_S16384x1_0_6 (V0 (Proc.devRef .tc main_arg0)) (V0 (Proc.devRef .tc main_arg1)) :=
  (ops16_keep _ main_v34 (by decide)).trans (val16_res6 V0)
theorem val17_res7 (V0 : Valuation τ sig (Elt F)) : val17 V0 (Proc.devRef .tc main_v39) = fieldVal 7 slices_S26x1000x128_S1x1000x128_7_0_0 slices_S16384x26_S16384x1_0_7 (V0 (Proc.devRef .tc main_arg0)) (V0 (Proc.devRef .tc main_arg1)) :=
  (ops16_keep _ main_v39 (by decide)).trans (val16_res7 V0)
theorem val17_res8 (V0 : Valuation τ sig (Elt F)) : val17 V0 (Proc.devRef .tc main_v44) = fieldVal 8 slices_S26x1000x128_S1x1000x128_8_0_0 slices_S16384x26_S16384x1_0_8 (V0 (Proc.devRef .tc main_arg0)) (V0 (Proc.devRef .tc main_arg1)) :=
  (ops16_keep _ main_v44 (by decide)).trans (val16_res8 V0)
theorem val17_res9 (V0 : Valuation τ sig (Elt F)) : val17 V0 (Proc.devRef .tc main_v49) = fieldVal 9 slices_S26x1000x128_S1x1000x128_9_0_0 slices_S16384x26_S16384x1_0_9 (V0 (Proc.devRef .tc main_arg0)) (V0 (Proc.devRef .tc main_arg1)) :=
  (ops16_keep _ main_v49 (by decide)).trans (val16_res9 V0)
theorem val17_res10 (V0 : Valuation τ sig (Elt F)) : val17 V0 (Proc.devRef .tc main_v54) = fieldVal 10 slices_S26x1000x128_S1x1000x128_10_0_0 slices_S16384x26_S16384x1_0_10 (V0 (Proc.devRef .tc main_arg0)) (V0 (Proc.devRef .tc main_arg1)) :=
  (ops16_keep _ main_v54 (by decide)).trans (val16_res10 V0)
theorem val17_res11 (V0 : Valuation τ sig (Elt F)) : val17 V0 (Proc.devRef .tc main_v59) = fieldVal 11 slices_S26x1000x128_S1x1000x128_11_0_0 slices_S16384x26_S16384x1_0_11 (V0 (Proc.devRef .tc main_arg0)) (V0 (Proc.devRef .tc main_arg1)) :=
  (ops16_keep _ main_v59 (by decide)).trans (val16_res11 V0)
theorem val17_res12 (V0 : Valuation τ sig (Elt F)) : val17 V0 (Proc.devRef .tc main_v64) = fieldVal 12 slices_S26x1000x128_S1x1000x128_12_0_0 slices_S16384x26_S16384x1_0_12 (V0 (Proc.devRef .tc main_arg0)) (V0 (Proc.devRef .tc main_arg1)) :=
  (ops16_keep _ main_v64 (by decide)).trans (val16_res12 V0)
theorem val17_res13 (V0 : Valuation τ sig (Elt F)) : val17 V0 (Proc.devRef .tc main_v69) = fieldVal 13 slices_S26x1000x128_S1x1000x128_13_0_0 slices_S16384x26_S16384x1_0_13 (V0 (Proc.devRef .tc main_arg0)) (V0 (Proc.devRef .tc main_arg1)) :=
  (ops16_keep _ main_v69 (by decide)).trans (val16_res13 V0)
theorem val17_res14 (V0 : Valuation τ sig (Elt F)) : val17 V0 (Proc.devRef .tc main_v74) = fieldVal 14 slices_S26x1000x128_S1x1000x128_14_0_0 slices_S16384x26_S16384x1_0_14 (V0 (Proc.devRef .tc main_arg0)) (V0 (Proc.devRef .tc main_arg1)) :=
  (ops16_keep _ main_v74 (by decide)).trans (val16_res14 V0)
theorem val17_res15 (V0 : Valuation τ sig (Elt F)) : val17 V0 (Proc.devRef .tc main_v79) = fieldVal 15 slices_S26x1000x128_S1x1000x128_15_0_0 slices_S16384x26_S16384x1_0_15 (V0 (Proc.devRef .tc main_arg0)) (V0 (Proc.devRef .tc main_arg1)) :=
  (ops16_keep _ main_v79 (by decide)).trans (val16_res15 V0)

/-- The buffers' contents after fields 0 … 17. -/
def val18 (V0 : Valuation τ sig (Elt F)) : Valuation τ sig (Elt F) := after ops17 (val17 V0)
theorem val18_arg0 (V0 : Valuation τ sig (Elt F)) : val18 V0 (Proc.devRef .tc main_arg0) = V0 (Proc.devRef .tc main_arg0) :=
  (ops17_keep _ main_arg0 (by decide)).trans (val17_arg0 V0)
theorem val18_arg1 (V0 : Valuation τ sig (Elt F)) : val18 V0 (Proc.devRef .tc main_arg1) = V0 (Proc.devRef .tc main_arg1) :=
  (ops17_keep _ main_arg1 (by decide)).trans (val17_arg1 V0)
theorem val18_res17 (V0 : Valuation τ sig (Elt F)) : val18 V0 (Proc.devRef .tc main_v89) = fieldVal 17 slices_S26x1000x128_S1x1000x128_17_0_0 slices_S16384x26_S16384x1_0_17 (V0 (Proc.devRef .tc main_arg0)) (V0 (Proc.devRef .tc main_arg1)) := by
  unfold val18; rw [ops17_val, val17_arg0, val17_arg1]
theorem val18_res0 (V0 : Valuation τ sig (Elt F)) : val18 V0 (Proc.devRef .tc main_v4) = fieldVal 0 slices_S26x1000x128_S1x1000x128_0_0_0 slices_S16384x26_S16384x1_0_0 (V0 (Proc.devRef .tc main_arg0)) (V0 (Proc.devRef .tc main_arg1)) :=
  (ops17_keep _ main_v4 (by decide)).trans (val17_res0 V0)
theorem val18_res1 (V0 : Valuation τ sig (Elt F)) : val18 V0 (Proc.devRef .tc main_v9) = fieldVal 1 slices_S26x1000x128_S1x1000x128_1_0_0 slices_S16384x26_S16384x1_0_1 (V0 (Proc.devRef .tc main_arg0)) (V0 (Proc.devRef .tc main_arg1)) :=
  (ops17_keep _ main_v9 (by decide)).trans (val17_res1 V0)
theorem val18_res2 (V0 : Valuation τ sig (Elt F)) : val18 V0 (Proc.devRef .tc main_v14) = fieldVal 2 slices_S26x1000x128_S1x1000x128_2_0_0 slices_S16384x26_S16384x1_0_2 (V0 (Proc.devRef .tc main_arg0)) (V0 (Proc.devRef .tc main_arg1)) :=
  (ops17_keep _ main_v14 (by decide)).trans (val17_res2 V0)
theorem val18_res3 (V0 : Valuation τ sig (Elt F)) : val18 V0 (Proc.devRef .tc main_v19) = fieldVal 3 slices_S26x1000x128_S1x1000x128_3_0_0 slices_S16384x26_S16384x1_0_3 (V0 (Proc.devRef .tc main_arg0)) (V0 (Proc.devRef .tc main_arg1)) :=
  (ops17_keep _ main_v19 (by decide)).trans (val17_res3 V0)
theorem val18_res4 (V0 : Valuation τ sig (Elt F)) : val18 V0 (Proc.devRef .tc main_v24) = fieldVal 4 slices_S26x1000x128_S1x1000x128_4_0_0 slices_S16384x26_S16384x1_0_4 (V0 (Proc.devRef .tc main_arg0)) (V0 (Proc.devRef .tc main_arg1)) :=
  (ops17_keep _ main_v24 (by decide)).trans (val17_res4 V0)
theorem val18_res5 (V0 : Valuation τ sig (Elt F)) : val18 V0 (Proc.devRef .tc main_v29) = fieldVal 5 slices_S26x1000x128_S1x1000x128_5_0_0 slices_S16384x26_S16384x1_0_5 (V0 (Proc.devRef .tc main_arg0)) (V0 (Proc.devRef .tc main_arg1)) :=
  (ops17_keep _ main_v29 (by decide)).trans (val17_res5 V0)
theorem val18_res6 (V0 : Valuation τ sig (Elt F)) : val18 V0 (Proc.devRef .tc main_v34) = fieldVal 6 slices_S26x1000x128_S1x1000x128_6_0_0 slices_S16384x26_S16384x1_0_6 (V0 (Proc.devRef .tc main_arg0)) (V0 (Proc.devRef .tc main_arg1)) :=
  (ops17_keep _ main_v34 (by decide)).trans (val17_res6 V0)
theorem val18_res7 (V0 : Valuation τ sig (Elt F)) : val18 V0 (Proc.devRef .tc main_v39) = fieldVal 7 slices_S26x1000x128_S1x1000x128_7_0_0 slices_S16384x26_S16384x1_0_7 (V0 (Proc.devRef .tc main_arg0)) (V0 (Proc.devRef .tc main_arg1)) :=
  (ops17_keep _ main_v39 (by decide)).trans (val17_res7 V0)
theorem val18_res8 (V0 : Valuation τ sig (Elt F)) : val18 V0 (Proc.devRef .tc main_v44) = fieldVal 8 slices_S26x1000x128_S1x1000x128_8_0_0 slices_S16384x26_S16384x1_0_8 (V0 (Proc.devRef .tc main_arg0)) (V0 (Proc.devRef .tc main_arg1)) :=
  (ops17_keep _ main_v44 (by decide)).trans (val17_res8 V0)
theorem val18_res9 (V0 : Valuation τ sig (Elt F)) : val18 V0 (Proc.devRef .tc main_v49) = fieldVal 9 slices_S26x1000x128_S1x1000x128_9_0_0 slices_S16384x26_S16384x1_0_9 (V0 (Proc.devRef .tc main_arg0)) (V0 (Proc.devRef .tc main_arg1)) :=
  (ops17_keep _ main_v49 (by decide)).trans (val17_res9 V0)
theorem val18_res10 (V0 : Valuation τ sig (Elt F)) : val18 V0 (Proc.devRef .tc main_v54) = fieldVal 10 slices_S26x1000x128_S1x1000x128_10_0_0 slices_S16384x26_S16384x1_0_10 (V0 (Proc.devRef .tc main_arg0)) (V0 (Proc.devRef .tc main_arg1)) :=
  (ops17_keep _ main_v54 (by decide)).trans (val17_res10 V0)
theorem val18_res11 (V0 : Valuation τ sig (Elt F)) : val18 V0 (Proc.devRef .tc main_v59) = fieldVal 11 slices_S26x1000x128_S1x1000x128_11_0_0 slices_S16384x26_S16384x1_0_11 (V0 (Proc.devRef .tc main_arg0)) (V0 (Proc.devRef .tc main_arg1)) :=
  (ops17_keep _ main_v59 (by decide)).trans (val17_res11 V0)
theorem val18_res12 (V0 : Valuation τ sig (Elt F)) : val18 V0 (Proc.devRef .tc main_v64) = fieldVal 12 slices_S26x1000x128_S1x1000x128_12_0_0 slices_S16384x26_S16384x1_0_12 (V0 (Proc.devRef .tc main_arg0)) (V0 (Proc.devRef .tc main_arg1)) :=
  (ops17_keep _ main_v64 (by decide)).trans (val17_res12 V0)
theorem val18_res13 (V0 : Valuation τ sig (Elt F)) : val18 V0 (Proc.devRef .tc main_v69) = fieldVal 13 slices_S26x1000x128_S1x1000x128_13_0_0 slices_S16384x26_S16384x1_0_13 (V0 (Proc.devRef .tc main_arg0)) (V0 (Proc.devRef .tc main_arg1)) :=
  (ops17_keep _ main_v69 (by decide)).trans (val17_res13 V0)
theorem val18_res14 (V0 : Valuation τ sig (Elt F)) : val18 V0 (Proc.devRef .tc main_v74) = fieldVal 14 slices_S26x1000x128_S1x1000x128_14_0_0 slices_S16384x26_S16384x1_0_14 (V0 (Proc.devRef .tc main_arg0)) (V0 (Proc.devRef .tc main_arg1)) :=
  (ops17_keep _ main_v74 (by decide)).trans (val17_res14 V0)
theorem val18_res15 (V0 : Valuation τ sig (Elt F)) : val18 V0 (Proc.devRef .tc main_v79) = fieldVal 15 slices_S26x1000x128_S1x1000x128_15_0_0 slices_S16384x26_S16384x1_0_15 (V0 (Proc.devRef .tc main_arg0)) (V0 (Proc.devRef .tc main_arg1)) :=
  (ops17_keep _ main_v79 (by decide)).trans (val17_res15 V0)
theorem val18_res16 (V0 : Valuation τ sig (Elt F)) : val18 V0 (Proc.devRef .tc main_v84) = fieldVal 16 slices_S26x1000x128_S1x1000x128_16_0_0 slices_S16384x26_S16384x1_0_16 (V0 (Proc.devRef .tc main_arg0)) (V0 (Proc.devRef .tc main_arg1)) :=
  (ops17_keep _ main_v84 (by decide)).trans (val17_res16 V0)

/-- The buffers' contents after fields 0 … 18. -/
def val19 (V0 : Valuation τ sig (Elt F)) : Valuation τ sig (Elt F) := after ops18 (val18 V0)
theorem val19_arg0 (V0 : Valuation τ sig (Elt F)) : val19 V0 (Proc.devRef .tc main_arg0) = V0 (Proc.devRef .tc main_arg0) :=
  (ops18_keep _ main_arg0 (by decide)).trans (val18_arg0 V0)
theorem val19_arg1 (V0 : Valuation τ sig (Elt F)) : val19 V0 (Proc.devRef .tc main_arg1) = V0 (Proc.devRef .tc main_arg1) :=
  (ops18_keep _ main_arg1 (by decide)).trans (val18_arg1 V0)
theorem val19_res18 (V0 : Valuation τ sig (Elt F)) : val19 V0 (Proc.devRef .tc main_v94) = fieldVal 18 slices_S26x1000x128_S1x1000x128_18_0_0 slices_S16384x26_S16384x1_0_18 (V0 (Proc.devRef .tc main_arg0)) (V0 (Proc.devRef .tc main_arg1)) := by
  unfold val19; rw [ops18_val, val18_arg0, val18_arg1]
theorem val19_res0 (V0 : Valuation τ sig (Elt F)) : val19 V0 (Proc.devRef .tc main_v4) = fieldVal 0 slices_S26x1000x128_S1x1000x128_0_0_0 slices_S16384x26_S16384x1_0_0 (V0 (Proc.devRef .tc main_arg0)) (V0 (Proc.devRef .tc main_arg1)) :=
  (ops18_keep _ main_v4 (by decide)).trans (val18_res0 V0)
theorem val19_res1 (V0 : Valuation τ sig (Elt F)) : val19 V0 (Proc.devRef .tc main_v9) = fieldVal 1 slices_S26x1000x128_S1x1000x128_1_0_0 slices_S16384x26_S16384x1_0_1 (V0 (Proc.devRef .tc main_arg0)) (V0 (Proc.devRef .tc main_arg1)) :=
  (ops18_keep _ main_v9 (by decide)).trans (val18_res1 V0)
theorem val19_res2 (V0 : Valuation τ sig (Elt F)) : val19 V0 (Proc.devRef .tc main_v14) = fieldVal 2 slices_S26x1000x128_S1x1000x128_2_0_0 slices_S16384x26_S16384x1_0_2 (V0 (Proc.devRef .tc main_arg0)) (V0 (Proc.devRef .tc main_arg1)) :=
  (ops18_keep _ main_v14 (by decide)).trans (val18_res2 V0)
theorem val19_res3 (V0 : Valuation τ sig (Elt F)) : val19 V0 (Proc.devRef .tc main_v19) = fieldVal 3 slices_S26x1000x128_S1x1000x128_3_0_0 slices_S16384x26_S16384x1_0_3 (V0 (Proc.devRef .tc main_arg0)) (V0 (Proc.devRef .tc main_arg1)) :=
  (ops18_keep _ main_v19 (by decide)).trans (val18_res3 V0)
theorem val19_res4 (V0 : Valuation τ sig (Elt F)) : val19 V0 (Proc.devRef .tc main_v24) = fieldVal 4 slices_S26x1000x128_S1x1000x128_4_0_0 slices_S16384x26_S16384x1_0_4 (V0 (Proc.devRef .tc main_arg0)) (V0 (Proc.devRef .tc main_arg1)) :=
  (ops18_keep _ main_v24 (by decide)).trans (val18_res4 V0)
theorem val19_res5 (V0 : Valuation τ sig (Elt F)) : val19 V0 (Proc.devRef .tc main_v29) = fieldVal 5 slices_S26x1000x128_S1x1000x128_5_0_0 slices_S16384x26_S16384x1_0_5 (V0 (Proc.devRef .tc main_arg0)) (V0 (Proc.devRef .tc main_arg1)) :=
  (ops18_keep _ main_v29 (by decide)).trans (val18_res5 V0)
theorem val19_res6 (V0 : Valuation τ sig (Elt F)) : val19 V0 (Proc.devRef .tc main_v34) = fieldVal 6 slices_S26x1000x128_S1x1000x128_6_0_0 slices_S16384x26_S16384x1_0_6 (V0 (Proc.devRef .tc main_arg0)) (V0 (Proc.devRef .tc main_arg1)) :=
  (ops18_keep _ main_v34 (by decide)).trans (val18_res6 V0)
theorem val19_res7 (V0 : Valuation τ sig (Elt F)) : val19 V0 (Proc.devRef .tc main_v39) = fieldVal 7 slices_S26x1000x128_S1x1000x128_7_0_0 slices_S16384x26_S16384x1_0_7 (V0 (Proc.devRef .tc main_arg0)) (V0 (Proc.devRef .tc main_arg1)) :=
  (ops18_keep _ main_v39 (by decide)).trans (val18_res7 V0)
theorem val19_res8 (V0 : Valuation τ sig (Elt F)) : val19 V0 (Proc.devRef .tc main_v44) = fieldVal 8 slices_S26x1000x128_S1x1000x128_8_0_0 slices_S16384x26_S16384x1_0_8 (V0 (Proc.devRef .tc main_arg0)) (V0 (Proc.devRef .tc main_arg1)) :=
  (ops18_keep _ main_v44 (by decide)).trans (val18_res8 V0)
theorem val19_res9 (V0 : Valuation τ sig (Elt F)) : val19 V0 (Proc.devRef .tc main_v49) = fieldVal 9 slices_S26x1000x128_S1x1000x128_9_0_0 slices_S16384x26_S16384x1_0_9 (V0 (Proc.devRef .tc main_arg0)) (V0 (Proc.devRef .tc main_arg1)) :=
  (ops18_keep _ main_v49 (by decide)).trans (val18_res9 V0)
theorem val19_res10 (V0 : Valuation τ sig (Elt F)) : val19 V0 (Proc.devRef .tc main_v54) = fieldVal 10 slices_S26x1000x128_S1x1000x128_10_0_0 slices_S16384x26_S16384x1_0_10 (V0 (Proc.devRef .tc main_arg0)) (V0 (Proc.devRef .tc main_arg1)) :=
  (ops18_keep _ main_v54 (by decide)).trans (val18_res10 V0)
theorem val19_res11 (V0 : Valuation τ sig (Elt F)) : val19 V0 (Proc.devRef .tc main_v59) = fieldVal 11 slices_S26x1000x128_S1x1000x128_11_0_0 slices_S16384x26_S16384x1_0_11 (V0 (Proc.devRef .tc main_arg0)) (V0 (Proc.devRef .tc main_arg1)) :=
  (ops18_keep _ main_v59 (by decide)).trans (val18_res11 V0)
theorem val19_res12 (V0 : Valuation τ sig (Elt F)) : val19 V0 (Proc.devRef .tc main_v64) = fieldVal 12 slices_S26x1000x128_S1x1000x128_12_0_0 slices_S16384x26_S16384x1_0_12 (V0 (Proc.devRef .tc main_arg0)) (V0 (Proc.devRef .tc main_arg1)) :=
  (ops18_keep _ main_v64 (by decide)).trans (val18_res12 V0)
theorem val19_res13 (V0 : Valuation τ sig (Elt F)) : val19 V0 (Proc.devRef .tc main_v69) = fieldVal 13 slices_S26x1000x128_S1x1000x128_13_0_0 slices_S16384x26_S16384x1_0_13 (V0 (Proc.devRef .tc main_arg0)) (V0 (Proc.devRef .tc main_arg1)) :=
  (ops18_keep _ main_v69 (by decide)).trans (val18_res13 V0)
theorem val19_res14 (V0 : Valuation τ sig (Elt F)) : val19 V0 (Proc.devRef .tc main_v74) = fieldVal 14 slices_S26x1000x128_S1x1000x128_14_0_0 slices_S16384x26_S16384x1_0_14 (V0 (Proc.devRef .tc main_arg0)) (V0 (Proc.devRef .tc main_arg1)) :=
  (ops18_keep _ main_v74 (by decide)).trans (val18_res14 V0)
theorem val19_res15 (V0 : Valuation τ sig (Elt F)) : val19 V0 (Proc.devRef .tc main_v79) = fieldVal 15 slices_S26x1000x128_S1x1000x128_15_0_0 slices_S16384x26_S16384x1_0_15 (V0 (Proc.devRef .tc main_arg0)) (V0 (Proc.devRef .tc main_arg1)) :=
  (ops18_keep _ main_v79 (by decide)).trans (val18_res15 V0)
theorem val19_res16 (V0 : Valuation τ sig (Elt F)) : val19 V0 (Proc.devRef .tc main_v84) = fieldVal 16 slices_S26x1000x128_S1x1000x128_16_0_0 slices_S16384x26_S16384x1_0_16 (V0 (Proc.devRef .tc main_arg0)) (V0 (Proc.devRef .tc main_arg1)) :=
  (ops18_keep _ main_v84 (by decide)).trans (val18_res16 V0)
theorem val19_res17 (V0 : Valuation τ sig (Elt F)) : val19 V0 (Proc.devRef .tc main_v89) = fieldVal 17 slices_S26x1000x128_S1x1000x128_17_0_0 slices_S16384x26_S16384x1_0_17 (V0 (Proc.devRef .tc main_arg0)) (V0 (Proc.devRef .tc main_arg1)) :=
  (ops18_keep _ main_v89 (by decide)).trans (val18_res17 V0)

/-- The buffers' contents after fields 0 … 19. -/
def val20 (V0 : Valuation τ sig (Elt F)) : Valuation τ sig (Elt F) := after ops19 (val19 V0)
theorem val20_arg0 (V0 : Valuation τ sig (Elt F)) : val20 V0 (Proc.devRef .tc main_arg0) = V0 (Proc.devRef .tc main_arg0) :=
  (ops19_keep _ main_arg0 (by decide)).trans (val19_arg0 V0)
theorem val20_arg1 (V0 : Valuation τ sig (Elt F)) : val20 V0 (Proc.devRef .tc main_arg1) = V0 (Proc.devRef .tc main_arg1) :=
  (ops19_keep _ main_arg1 (by decide)).trans (val19_arg1 V0)
theorem val20_res19 (V0 : Valuation τ sig (Elt F)) : val20 V0 (Proc.devRef .tc main_v99) = fieldVal 19 slices_S26x1000x128_S1x1000x128_19_0_0 slices_S16384x26_S16384x1_0_19 (V0 (Proc.devRef .tc main_arg0)) (V0 (Proc.devRef .tc main_arg1)) := by
  unfold val20; rw [ops19_val, val19_arg0, val19_arg1]
theorem val20_res0 (V0 : Valuation τ sig (Elt F)) : val20 V0 (Proc.devRef .tc main_v4) = fieldVal 0 slices_S26x1000x128_S1x1000x128_0_0_0 slices_S16384x26_S16384x1_0_0 (V0 (Proc.devRef .tc main_arg0)) (V0 (Proc.devRef .tc main_arg1)) :=
  (ops19_keep _ main_v4 (by decide)).trans (val19_res0 V0)
theorem val20_res1 (V0 : Valuation τ sig (Elt F)) : val20 V0 (Proc.devRef .tc main_v9) = fieldVal 1 slices_S26x1000x128_S1x1000x128_1_0_0 slices_S16384x26_S16384x1_0_1 (V0 (Proc.devRef .tc main_arg0)) (V0 (Proc.devRef .tc main_arg1)) :=
  (ops19_keep _ main_v9 (by decide)).trans (val19_res1 V0)
theorem val20_res2 (V0 : Valuation τ sig (Elt F)) : val20 V0 (Proc.devRef .tc main_v14) = fieldVal 2 slices_S26x1000x128_S1x1000x128_2_0_0 slices_S16384x26_S16384x1_0_2 (V0 (Proc.devRef .tc main_arg0)) (V0 (Proc.devRef .tc main_arg1)) :=
  (ops19_keep _ main_v14 (by decide)).trans (val19_res2 V0)
theorem val20_res3 (V0 : Valuation τ sig (Elt F)) : val20 V0 (Proc.devRef .tc main_v19) = fieldVal 3 slices_S26x1000x128_S1x1000x128_3_0_0 slices_S16384x26_S16384x1_0_3 (V0 (Proc.devRef .tc main_arg0)) (V0 (Proc.devRef .tc main_arg1)) :=
  (ops19_keep _ main_v19 (by decide)).trans (val19_res3 V0)
theorem val20_res4 (V0 : Valuation τ sig (Elt F)) : val20 V0 (Proc.devRef .tc main_v24) = fieldVal 4 slices_S26x1000x128_S1x1000x128_4_0_0 slices_S16384x26_S16384x1_0_4 (V0 (Proc.devRef .tc main_arg0)) (V0 (Proc.devRef .tc main_arg1)) :=
  (ops19_keep _ main_v24 (by decide)).trans (val19_res4 V0)
theorem val20_res5 (V0 : Valuation τ sig (Elt F)) : val20 V0 (Proc.devRef .tc main_v29) = fieldVal 5 slices_S26x1000x128_S1x1000x128_5_0_0 slices_S16384x26_S16384x1_0_5 (V0 (Proc.devRef .tc main_arg0)) (V0 (Proc.devRef .tc main_arg1)) :=
  (ops19_keep _ main_v29 (by decide)).trans (val19_res5 V0)
theorem val20_res6 (V0 : Valuation τ sig (Elt F)) : val20 V0 (Proc.devRef .tc main_v34) = fieldVal 6 slices_S26x1000x128_S1x1000x128_6_0_0 slices_S16384x26_S16384x1_0_6 (V0 (Proc.devRef .tc main_arg0)) (V0 (Proc.devRef .tc main_arg1)) :=
  (ops19_keep _ main_v34 (by decide)).trans (val19_res6 V0)
theorem val20_res7 (V0 : Valuation τ sig (Elt F)) : val20 V0 (Proc.devRef .tc main_v39) = fieldVal 7 slices_S26x1000x128_S1x1000x128_7_0_0 slices_S16384x26_S16384x1_0_7 (V0 (Proc.devRef .tc main_arg0)) (V0 (Proc.devRef .tc main_arg1)) :=
  (ops19_keep _ main_v39 (by decide)).trans (val19_res7 V0)
theorem val20_res8 (V0 : Valuation τ sig (Elt F)) : val20 V0 (Proc.devRef .tc main_v44) = fieldVal 8 slices_S26x1000x128_S1x1000x128_8_0_0 slices_S16384x26_S16384x1_0_8 (V0 (Proc.devRef .tc main_arg0)) (V0 (Proc.devRef .tc main_arg1)) :=
  (ops19_keep _ main_v44 (by decide)).trans (val19_res8 V0)
theorem val20_res9 (V0 : Valuation τ sig (Elt F)) : val20 V0 (Proc.devRef .tc main_v49) = fieldVal 9 slices_S26x1000x128_S1x1000x128_9_0_0 slices_S16384x26_S16384x1_0_9 (V0 (Proc.devRef .tc main_arg0)) (V0 (Proc.devRef .tc main_arg1)) :=
  (ops19_keep _ main_v49 (by decide)).trans (val19_res9 V0)
theorem val20_res10 (V0 : Valuation τ sig (Elt F)) : val20 V0 (Proc.devRef .tc main_v54) = fieldVal 10 slices_S26x1000x128_S1x1000x128_10_0_0 slices_S16384x26_S16384x1_0_10 (V0 (Proc.devRef .tc main_arg0)) (V0 (Proc.devRef .tc main_arg1)) :=
  (ops19_keep _ main_v54 (by decide)).trans (val19_res10 V0)
theorem val20_res11 (V0 : Valuation τ sig (Elt F)) : val20 V0 (Proc.devRef .tc main_v59) = fieldVal 11 slices_S26x1000x128_S1x1000x128_11_0_0 slices_S16384x26_S16384x1_0_11 (V0 (Proc.devRef .tc main_arg0)) (V0 (Proc.devRef .tc main_arg1)) :=
  (ops19_keep _ main_v59 (by decide)).trans (val19_res11 V0)
theorem val20_res12 (V0 : Valuation τ sig (Elt F)) : val20 V0 (Proc.devRef .tc main_v64) = fieldVal 12 slices_S26x1000x128_S1x1000x128_12_0_0 slices_S16384x26_S16384x1_0_12 (V0 (Proc.devRef .tc main_arg0)) (V0 (Proc.devRef .tc main_arg1)) :=
  (ops19_keep _ main_v64 (by decide)).trans (val19_res12 V0)
theorem val20_res13 (V0 : Valuation τ sig (Elt F)) : val20 V0 (Proc.devRef .tc main_v69) = fieldVal 13 slices_S26x1000x128_S1x1000x128_13_0_0 slices_S16384x26_S16384x1_0_13 (V0 (Proc.devRef .tc main_arg0)) (V0 (Proc.devRef .tc main_arg1)) :=
  (ops19_keep _ main_v69 (by decide)).trans (val19_res13 V0)
theorem val20_res14 (V0 : Valuation τ sig (Elt F)) : val20 V0 (Proc.devRef .tc main_v74) = fieldVal 14 slices_S26x1000x128_S1x1000x128_14_0_0 slices_S16384x26_S16384x1_0_14 (V0 (Proc.devRef .tc main_arg0)) (V0 (Proc.devRef .tc main_arg1)) :=
  (ops19_keep _ main_v74 (by decide)).trans (val19_res14 V0)
theorem val20_res15 (V0 : Valuation τ sig (Elt F)) : val20 V0 (Proc.devRef .tc main_v79) = fieldVal 15 slices_S26x1000x128_S1x1000x128_15_0_0 slices_S16384x26_S16384x1_0_15 (V0 (Proc.devRef .tc main_arg0)) (V0 (Proc.devRef .tc main_arg1)) :=
  (ops19_keep _ main_v79 (by decide)).trans (val19_res15 V0)
theorem val20_res16 (V0 : Valuation τ sig (Elt F)) : val20 V0 (Proc.devRef .tc main_v84) = fieldVal 16 slices_S26x1000x128_S1x1000x128_16_0_0 slices_S16384x26_S16384x1_0_16 (V0 (Proc.devRef .tc main_arg0)) (V0 (Proc.devRef .tc main_arg1)) :=
  (ops19_keep _ main_v84 (by decide)).trans (val19_res16 V0)
theorem val20_res17 (V0 : Valuation τ sig (Elt F)) : val20 V0 (Proc.devRef .tc main_v89) = fieldVal 17 slices_S26x1000x128_S1x1000x128_17_0_0 slices_S16384x26_S16384x1_0_17 (V0 (Proc.devRef .tc main_arg0)) (V0 (Proc.devRef .tc main_arg1)) :=
  (ops19_keep _ main_v89 (by decide)).trans (val19_res17 V0)
theorem val20_res18 (V0 : Valuation τ sig (Elt F)) : val20 V0 (Proc.devRef .tc main_v94) = fieldVal 18 slices_S26x1000x128_S1x1000x128_18_0_0 slices_S16384x26_S16384x1_0_18 (V0 (Proc.devRef .tc main_arg0)) (V0 (Proc.devRef .tc main_arg1)) :=
  (ops19_keep _ main_v94 (by decide)).trans (val19_res18 V0)

/-- The buffers' contents after fields 0 … 20. -/
def val21 (V0 : Valuation τ sig (Elt F)) : Valuation τ sig (Elt F) := after ops20 (val20 V0)
theorem val21_arg0 (V0 : Valuation τ sig (Elt F)) : val21 V0 (Proc.devRef .tc main_arg0) = V0 (Proc.devRef .tc main_arg0) :=
  (ops20_keep _ main_arg0 (by decide)).trans (val20_arg0 V0)
theorem val21_arg1 (V0 : Valuation τ sig (Elt F)) : val21 V0 (Proc.devRef .tc main_arg1) = V0 (Proc.devRef .tc main_arg1) :=
  (ops20_keep _ main_arg1 (by decide)).trans (val20_arg1 V0)
theorem val21_res20 (V0 : Valuation τ sig (Elt F)) : val21 V0 (Proc.devRef .tc main_v104) = fieldVal 20 slices_S26x1000x128_S1x1000x128_20_0_0 slices_S16384x26_S16384x1_0_20 (V0 (Proc.devRef .tc main_arg0)) (V0 (Proc.devRef .tc main_arg1)) := by
  unfold val21; rw [ops20_val, val20_arg0, val20_arg1]
theorem val21_res0 (V0 : Valuation τ sig (Elt F)) : val21 V0 (Proc.devRef .tc main_v4) = fieldVal 0 slices_S26x1000x128_S1x1000x128_0_0_0 slices_S16384x26_S16384x1_0_0 (V0 (Proc.devRef .tc main_arg0)) (V0 (Proc.devRef .tc main_arg1)) :=
  (ops20_keep _ main_v4 (by decide)).trans (val20_res0 V0)
theorem val21_res1 (V0 : Valuation τ sig (Elt F)) : val21 V0 (Proc.devRef .tc main_v9) = fieldVal 1 slices_S26x1000x128_S1x1000x128_1_0_0 slices_S16384x26_S16384x1_0_1 (V0 (Proc.devRef .tc main_arg0)) (V0 (Proc.devRef .tc main_arg1)) :=
  (ops20_keep _ main_v9 (by decide)).trans (val20_res1 V0)
theorem val21_res2 (V0 : Valuation τ sig (Elt F)) : val21 V0 (Proc.devRef .tc main_v14) = fieldVal 2 slices_S26x1000x128_S1x1000x128_2_0_0 slices_S16384x26_S16384x1_0_2 (V0 (Proc.devRef .tc main_arg0)) (V0 (Proc.devRef .tc main_arg1)) :=
  (ops20_keep _ main_v14 (by decide)).trans (val20_res2 V0)
theorem val21_res3 (V0 : Valuation τ sig (Elt F)) : val21 V0 (Proc.devRef .tc main_v19) = fieldVal 3 slices_S26x1000x128_S1x1000x128_3_0_0 slices_S16384x26_S16384x1_0_3 (V0 (Proc.devRef .tc main_arg0)) (V0 (Proc.devRef .tc main_arg1)) :=
  (ops20_keep _ main_v19 (by decide)).trans (val20_res3 V0)
theorem val21_res4 (V0 : Valuation τ sig (Elt F)) : val21 V0 (Proc.devRef .tc main_v24) = fieldVal 4 slices_S26x1000x128_S1x1000x128_4_0_0 slices_S16384x26_S16384x1_0_4 (V0 (Proc.devRef .tc main_arg0)) (V0 (Proc.devRef .tc main_arg1)) :=
  (ops20_keep _ main_v24 (by decide)).trans (val20_res4 V0)
theorem val21_res5 (V0 : Valuation τ sig (Elt F)) : val21 V0 (Proc.devRef .tc main_v29) = fieldVal 5 slices_S26x1000x128_S1x1000x128_5_0_0 slices_S16384x26_S16384x1_0_5 (V0 (Proc.devRef .tc main_arg0)) (V0 (Proc.devRef .tc main_arg1)) :=
  (ops20_keep _ main_v29 (by decide)).trans (val20_res5 V0)
theorem val21_res6 (V0 : Valuation τ sig (Elt F)) : val21 V0 (Proc.devRef .tc main_v34) = fieldVal 6 slices_S26x1000x128_S1x1000x128_6_0_0 slices_S16384x26_S16384x1_0_6 (V0 (Proc.devRef .tc main_arg0)) (V0 (Proc.devRef .tc main_arg1)) :=
  (ops20_keep _ main_v34 (by decide)).trans (val20_res6 V0)
theorem val21_res7 (V0 : Valuation τ sig (Elt F)) : val21 V0 (Proc.devRef .tc main_v39) = fieldVal 7 slices_S26x1000x128_S1x1000x128_7_0_0 slices_S16384x26_S16384x1_0_7 (V0 (Proc.devRef .tc main_arg0)) (V0 (Proc.devRef .tc main_arg1)) :=
  (ops20_keep _ main_v39 (by decide)).trans (val20_res7 V0)
theorem val21_res8 (V0 : Valuation τ sig (Elt F)) : val21 V0 (Proc.devRef .tc main_v44) = fieldVal 8 slices_S26x1000x128_S1x1000x128_8_0_0 slices_S16384x26_S16384x1_0_8 (V0 (Proc.devRef .tc main_arg0)) (V0 (Proc.devRef .tc main_arg1)) :=
  (ops20_keep _ main_v44 (by decide)).trans (val20_res8 V0)
theorem val21_res9 (V0 : Valuation τ sig (Elt F)) : val21 V0 (Proc.devRef .tc main_v49) = fieldVal 9 slices_S26x1000x128_S1x1000x128_9_0_0 slices_S16384x26_S16384x1_0_9 (V0 (Proc.devRef .tc main_arg0)) (V0 (Proc.devRef .tc main_arg1)) :=
  (ops20_keep _ main_v49 (by decide)).trans (val20_res9 V0)
theorem val21_res10 (V0 : Valuation τ sig (Elt F)) : val21 V0 (Proc.devRef .tc main_v54) = fieldVal 10 slices_S26x1000x128_S1x1000x128_10_0_0 slices_S16384x26_S16384x1_0_10 (V0 (Proc.devRef .tc main_arg0)) (V0 (Proc.devRef .tc main_arg1)) :=
  (ops20_keep _ main_v54 (by decide)).trans (val20_res10 V0)
theorem val21_res11 (V0 : Valuation τ sig (Elt F)) : val21 V0 (Proc.devRef .tc main_v59) = fieldVal 11 slices_S26x1000x128_S1x1000x128_11_0_0 slices_S16384x26_S16384x1_0_11 (V0 (Proc.devRef .tc main_arg0)) (V0 (Proc.devRef .tc main_arg1)) :=
  (ops20_keep _ main_v59 (by decide)).trans (val20_res11 V0)
theorem val21_res12 (V0 : Valuation τ sig (Elt F)) : val21 V0 (Proc.devRef .tc main_v64) = fieldVal 12 slices_S26x1000x128_S1x1000x128_12_0_0 slices_S16384x26_S16384x1_0_12 (V0 (Proc.devRef .tc main_arg0)) (V0 (Proc.devRef .tc main_arg1)) :=
  (ops20_keep _ main_v64 (by decide)).trans (val20_res12 V0)
theorem val21_res13 (V0 : Valuation τ sig (Elt F)) : val21 V0 (Proc.devRef .tc main_v69) = fieldVal 13 slices_S26x1000x128_S1x1000x128_13_0_0 slices_S16384x26_S16384x1_0_13 (V0 (Proc.devRef .tc main_arg0)) (V0 (Proc.devRef .tc main_arg1)) :=
  (ops20_keep _ main_v69 (by decide)).trans (val20_res13 V0)
theorem val21_res14 (V0 : Valuation τ sig (Elt F)) : val21 V0 (Proc.devRef .tc main_v74) = fieldVal 14 slices_S26x1000x128_S1x1000x128_14_0_0 slices_S16384x26_S16384x1_0_14 (V0 (Proc.devRef .tc main_arg0)) (V0 (Proc.devRef .tc main_arg1)) :=
  (ops20_keep _ main_v74 (by decide)).trans (val20_res14 V0)
theorem val21_res15 (V0 : Valuation τ sig (Elt F)) : val21 V0 (Proc.devRef .tc main_v79) = fieldVal 15 slices_S26x1000x128_S1x1000x128_15_0_0 slices_S16384x26_S16384x1_0_15 (V0 (Proc.devRef .tc main_arg0)) (V0 (Proc.devRef .tc main_arg1)) :=
  (ops20_keep _ main_v79 (by decide)).trans (val20_res15 V0)
theorem val21_res16 (V0 : Valuation τ sig (Elt F)) : val21 V0 (Proc.devRef .tc main_v84) = fieldVal 16 slices_S26x1000x128_S1x1000x128_16_0_0 slices_S16384x26_S16384x1_0_16 (V0 (Proc.devRef .tc main_arg0)) (V0 (Proc.devRef .tc main_arg1)) :=
  (ops20_keep _ main_v84 (by decide)).trans (val20_res16 V0)
theorem val21_res17 (V0 : Valuation τ sig (Elt F)) : val21 V0 (Proc.devRef .tc main_v89) = fieldVal 17 slices_S26x1000x128_S1x1000x128_17_0_0 slices_S16384x26_S16384x1_0_17 (V0 (Proc.devRef .tc main_arg0)) (V0 (Proc.devRef .tc main_arg1)) :=
  (ops20_keep _ main_v89 (by decide)).trans (val20_res17 V0)
theorem val21_res18 (V0 : Valuation τ sig (Elt F)) : val21 V0 (Proc.devRef .tc main_v94) = fieldVal 18 slices_S26x1000x128_S1x1000x128_18_0_0 slices_S16384x26_S16384x1_0_18 (V0 (Proc.devRef .tc main_arg0)) (V0 (Proc.devRef .tc main_arg1)) :=
  (ops20_keep _ main_v94 (by decide)).trans (val20_res18 V0)
theorem val21_res19 (V0 : Valuation τ sig (Elt F)) : val21 V0 (Proc.devRef .tc main_v99) = fieldVal 19 slices_S26x1000x128_S1x1000x128_19_0_0 slices_S16384x26_S16384x1_0_19 (V0 (Proc.devRef .tc main_arg0)) (V0 (Proc.devRef .tc main_arg1)) :=
  (ops20_keep _ main_v99 (by decide)).trans (val20_res19 V0)

/-- The buffers' contents after fields 0 … 21. -/
def val22 (V0 : Valuation τ sig (Elt F)) : Valuation τ sig (Elt F) := after ops21 (val21 V0)
theorem val22_arg0 (V0 : Valuation τ sig (Elt F)) : val22 V0 (Proc.devRef .tc main_arg0) = V0 (Proc.devRef .tc main_arg0) :=
  (ops21_keep _ main_arg0 (by decide)).trans (val21_arg0 V0)
theorem val22_arg1 (V0 : Valuation τ sig (Elt F)) : val22 V0 (Proc.devRef .tc main_arg1) = V0 (Proc.devRef .tc main_arg1) :=
  (ops21_keep _ main_arg1 (by decide)).trans (val21_arg1 V0)
theorem val22_res21 (V0 : Valuation τ sig (Elt F)) : val22 V0 (Proc.devRef .tc main_v109) = fieldVal 21 slices_S26x1000x128_S1x1000x128_21_0_0 slices_S16384x26_S16384x1_0_21 (V0 (Proc.devRef .tc main_arg0)) (V0 (Proc.devRef .tc main_arg1)) := by
  unfold val22; rw [ops21_val, val21_arg0, val21_arg1]
theorem val22_res0 (V0 : Valuation τ sig (Elt F)) : val22 V0 (Proc.devRef .tc main_v4) = fieldVal 0 slices_S26x1000x128_S1x1000x128_0_0_0 slices_S16384x26_S16384x1_0_0 (V0 (Proc.devRef .tc main_arg0)) (V0 (Proc.devRef .tc main_arg1)) :=
  (ops21_keep _ main_v4 (by decide)).trans (val21_res0 V0)
theorem val22_res1 (V0 : Valuation τ sig (Elt F)) : val22 V0 (Proc.devRef .tc main_v9) = fieldVal 1 slices_S26x1000x128_S1x1000x128_1_0_0 slices_S16384x26_S16384x1_0_1 (V0 (Proc.devRef .tc main_arg0)) (V0 (Proc.devRef .tc main_arg1)) :=
  (ops21_keep _ main_v9 (by decide)).trans (val21_res1 V0)
theorem val22_res2 (V0 : Valuation τ sig (Elt F)) : val22 V0 (Proc.devRef .tc main_v14) = fieldVal 2 slices_S26x1000x128_S1x1000x128_2_0_0 slices_S16384x26_S16384x1_0_2 (V0 (Proc.devRef .tc main_arg0)) (V0 (Proc.devRef .tc main_arg1)) :=
  (ops21_keep _ main_v14 (by decide)).trans (val21_res2 V0)
theorem val22_res3 (V0 : Valuation τ sig (Elt F)) : val22 V0 (Proc.devRef .tc main_v19) = fieldVal 3 slices_S26x1000x128_S1x1000x128_3_0_0 slices_S16384x26_S16384x1_0_3 (V0 (Proc.devRef .tc main_arg0)) (V0 (Proc.devRef .tc main_arg1)) :=
  (ops21_keep _ main_v19 (by decide)).trans (val21_res3 V0)
theorem val22_res4 (V0 : Valuation τ sig (Elt F)) : val22 V0 (Proc.devRef .tc main_v24) = fieldVal 4 slices_S26x1000x128_S1x1000x128_4_0_0 slices_S16384x26_S16384x1_0_4 (V0 (Proc.devRef .tc main_arg0)) (V0 (Proc.devRef .tc main_arg1)) :=
  (ops21_keep _ main_v24 (by decide)).trans (val21_res4 V0)
theorem val22_res5 (V0 : Valuation τ sig (Elt F)) : val22 V0 (Proc.devRef .tc main_v29) = fieldVal 5 slices_S26x1000x128_S1x1000x128_5_0_0 slices_S16384x26_S16384x1_0_5 (V0 (Proc.devRef .tc main_arg0)) (V0 (Proc.devRef .tc main_arg1)) :=
  (ops21_keep _ main_v29 (by decide)).trans (val21_res5 V0)
theorem val22_res6 (V0 : Valuation τ sig (Elt F)) : val22 V0 (Proc.devRef .tc main_v34) = fieldVal 6 slices_S26x1000x128_S1x1000x128_6_0_0 slices_S16384x26_S16384x1_0_6 (V0 (Proc.devRef .tc main_arg0)) (V0 (Proc.devRef .tc main_arg1)) :=
  (ops21_keep _ main_v34 (by decide)).trans (val21_res6 V0)
theorem val22_res7 (V0 : Valuation τ sig (Elt F)) : val22 V0 (Proc.devRef .tc main_v39) = fieldVal 7 slices_S26x1000x128_S1x1000x128_7_0_0 slices_S16384x26_S16384x1_0_7 (V0 (Proc.devRef .tc main_arg0)) (V0 (Proc.devRef .tc main_arg1)) :=
  (ops21_keep _ main_v39 (by decide)).trans (val21_res7 V0)
theorem val22_res8 (V0 : Valuation τ sig (Elt F)) : val22 V0 (Proc.devRef .tc main_v44) = fieldVal 8 slices_S26x1000x128_S1x1000x128_8_0_0 slices_S16384x26_S16384x1_0_8 (V0 (Proc.devRef .tc main_arg0)) (V0 (Proc.devRef .tc main_arg1)) :=
  (ops21_keep _ main_v44 (by decide)).trans (val21_res8 V0)
theorem val22_res9 (V0 : Valuation τ sig (Elt F)) : val22 V0 (Proc.devRef .tc main_v49) = fieldVal 9 slices_S26x1000x128_S1x1000x128_9_0_0 slices_S16384x26_S16384x1_0_9 (V0 (Proc.devRef .tc main_arg0)) (V0 (Proc.devRef .tc main_arg1)) :=
  (ops21_keep _ main_v49 (by decide)).trans (val21_res9 V0)
theorem val22_res10 (V0 : Valuation τ sig (Elt F)) : val22 V0 (Proc.devRef .tc main_v54) = fieldVal 10 slices_S26x1000x128_S1x1000x128_10_0_0 slices_S16384x26_S16384x1_0_10 (V0 (Proc.devRef .tc main_arg0)) (V0 (Proc.devRef .tc main_arg1)) :=
  (ops21_keep _ main_v54 (by decide)).trans (val21_res10 V0)
theorem val22_res11 (V0 : Valuation τ sig (Elt F)) : val22 V0 (Proc.devRef .tc main_v59) = fieldVal 11 slices_S26x1000x128_S1x1000x128_11_0_0 slices_S16384x26_S16384x1_0_11 (V0 (Proc.devRef .tc main_arg0)) (V0 (Proc.devRef .tc main_arg1)) :=
  (ops21_keep _ main_v59 (by decide)).trans (val21_res11 V0)
theorem val22_res12 (V0 : Valuation τ sig (Elt F)) : val22 V0 (Proc.devRef .tc main_v64) = fieldVal 12 slices_S26x1000x128_S1x1000x128_12_0_0 slices_S16384x26_S16384x1_0_12 (V0 (Proc.devRef .tc main_arg0)) (V0 (Proc.devRef .tc main_arg1)) :=
  (ops21_keep _ main_v64 (by decide)).trans (val21_res12 V0)
theorem val22_res13 (V0 : Valuation τ sig (Elt F)) : val22 V0 (Proc.devRef .tc main_v69) = fieldVal 13 slices_S26x1000x128_S1x1000x128_13_0_0 slices_S16384x26_S16384x1_0_13 (V0 (Proc.devRef .tc main_arg0)) (V0 (Proc.devRef .tc main_arg1)) :=
  (ops21_keep _ main_v69 (by decide)).trans (val21_res13 V0)
theorem val22_res14 (V0 : Valuation τ sig (Elt F)) : val22 V0 (Proc.devRef .tc main_v74) = fieldVal 14 slices_S26x1000x128_S1x1000x128_14_0_0 slices_S16384x26_S16384x1_0_14 (V0 (Proc.devRef .tc main_arg0)) (V0 (Proc.devRef .tc main_arg1)) :=
  (ops21_keep _ main_v74 (by decide)).trans (val21_res14 V0)
theorem val22_res15 (V0 : Valuation τ sig (Elt F)) : val22 V0 (Proc.devRef .tc main_v79) = fieldVal 15 slices_S26x1000x128_S1x1000x128_15_0_0 slices_S16384x26_S16384x1_0_15 (V0 (Proc.devRef .tc main_arg0)) (V0 (Proc.devRef .tc main_arg1)) :=
  (ops21_keep _ main_v79 (by decide)).trans (val21_res15 V0)
theorem val22_res16 (V0 : Valuation τ sig (Elt F)) : val22 V0 (Proc.devRef .tc main_v84) = fieldVal 16 slices_S26x1000x128_S1x1000x128_16_0_0 slices_S16384x26_S16384x1_0_16 (V0 (Proc.devRef .tc main_arg0)) (V0 (Proc.devRef .tc main_arg1)) :=
  (ops21_keep _ main_v84 (by decide)).trans (val21_res16 V0)
theorem val22_res17 (V0 : Valuation τ sig (Elt F)) : val22 V0 (Proc.devRef .tc main_v89) = fieldVal 17 slices_S26x1000x128_S1x1000x128_17_0_0 slices_S16384x26_S16384x1_0_17 (V0 (Proc.devRef .tc main_arg0)) (V0 (Proc.devRef .tc main_arg1)) :=
  (ops21_keep _ main_v89 (by decide)).trans (val21_res17 V0)
theorem val22_res18 (V0 : Valuation τ sig (Elt F)) : val22 V0 (Proc.devRef .tc main_v94) = fieldVal 18 slices_S26x1000x128_S1x1000x128_18_0_0 slices_S16384x26_S16384x1_0_18 (V0 (Proc.devRef .tc main_arg0)) (V0 (Proc.devRef .tc main_arg1)) :=
  (ops21_keep _ main_v94 (by decide)).trans (val21_res18 V0)
theorem val22_res19 (V0 : Valuation τ sig (Elt F)) : val22 V0 (Proc.devRef .tc main_v99) = fieldVal 19 slices_S26x1000x128_S1x1000x128_19_0_0 slices_S16384x26_S16384x1_0_19 (V0 (Proc.devRef .tc main_arg0)) (V0 (Proc.devRef .tc main_arg1)) :=
  (ops21_keep _ main_v99 (by decide)).trans (val21_res19 V0)
theorem val22_res20 (V0 : Valuation τ sig (Elt F)) : val22 V0 (Proc.devRef .tc main_v104) = fieldVal 20 slices_S26x1000x128_S1x1000x128_20_0_0 slices_S16384x26_S16384x1_0_20 (V0 (Proc.devRef .tc main_arg0)) (V0 (Proc.devRef .tc main_arg1)) :=
  (ops21_keep _ main_v104 (by decide)).trans (val21_res20 V0)

/-- The buffers' contents after fields 0 … 22. -/
def val23 (V0 : Valuation τ sig (Elt F)) : Valuation τ sig (Elt F) := after ops22 (val22 V0)
theorem val23_arg0 (V0 : Valuation τ sig (Elt F)) : val23 V0 (Proc.devRef .tc main_arg0) = V0 (Proc.devRef .tc main_arg0) :=
  (ops22_keep _ main_arg0 (by decide)).trans (val22_arg0 V0)
theorem val23_arg1 (V0 : Valuation τ sig (Elt F)) : val23 V0 (Proc.devRef .tc main_arg1) = V0 (Proc.devRef .tc main_arg1) :=
  (ops22_keep _ main_arg1 (by decide)).trans (val22_arg1 V0)
theorem val23_res22 (V0 : Valuation τ sig (Elt F)) : val23 V0 (Proc.devRef .tc main_v114) = fieldVal 22 slices_S26x1000x128_S1x1000x128_22_0_0 slices_S16384x26_S16384x1_0_22 (V0 (Proc.devRef .tc main_arg0)) (V0 (Proc.devRef .tc main_arg1)) := by
  unfold val23; rw [ops22_val, val22_arg0, val22_arg1]
theorem val23_res0 (V0 : Valuation τ sig (Elt F)) : val23 V0 (Proc.devRef .tc main_v4) = fieldVal 0 slices_S26x1000x128_S1x1000x128_0_0_0 slices_S16384x26_S16384x1_0_0 (V0 (Proc.devRef .tc main_arg0)) (V0 (Proc.devRef .tc main_arg1)) :=
  (ops22_keep _ main_v4 (by decide)).trans (val22_res0 V0)
theorem val23_res1 (V0 : Valuation τ sig (Elt F)) : val23 V0 (Proc.devRef .tc main_v9) = fieldVal 1 slices_S26x1000x128_S1x1000x128_1_0_0 slices_S16384x26_S16384x1_0_1 (V0 (Proc.devRef .tc main_arg0)) (V0 (Proc.devRef .tc main_arg1)) :=
  (ops22_keep _ main_v9 (by decide)).trans (val22_res1 V0)
theorem val23_res2 (V0 : Valuation τ sig (Elt F)) : val23 V0 (Proc.devRef .tc main_v14) = fieldVal 2 slices_S26x1000x128_S1x1000x128_2_0_0 slices_S16384x26_S16384x1_0_2 (V0 (Proc.devRef .tc main_arg0)) (V0 (Proc.devRef .tc main_arg1)) :=
  (ops22_keep _ main_v14 (by decide)).trans (val22_res2 V0)
theorem val23_res3 (V0 : Valuation τ sig (Elt F)) : val23 V0 (Proc.devRef .tc main_v19) = fieldVal 3 slices_S26x1000x128_S1x1000x128_3_0_0 slices_S16384x26_S16384x1_0_3 (V0 (Proc.devRef .tc main_arg0)) (V0 (Proc.devRef .tc main_arg1)) :=
  (ops22_keep _ main_v19 (by decide)).trans (val22_res3 V0)
theorem val23_res4 (V0 : Valuation τ sig (Elt F)) : val23 V0 (Proc.devRef .tc main_v24) = fieldVal 4 slices_S26x1000x128_S1x1000x128_4_0_0 slices_S16384x26_S16384x1_0_4 (V0 (Proc.devRef .tc main_arg0)) (V0 (Proc.devRef .tc main_arg1)) :=
  (ops22_keep _ main_v24 (by decide)).trans (val22_res4 V0)
theorem val23_res5 (V0 : Valuation τ sig (Elt F)) : val23 V0 (Proc.devRef .tc main_v29) = fieldVal 5 slices_S26x1000x128_S1x1000x128_5_0_0 slices_S16384x26_S16384x1_0_5 (V0 (Proc.devRef .tc main_arg0)) (V0 (Proc.devRef .tc main_arg1)) :=
  (ops22_keep _ main_v29 (by decide)).trans (val22_res5 V0)
theorem val23_res6 (V0 : Valuation τ sig (Elt F)) : val23 V0 (Proc.devRef .tc main_v34) = fieldVal 6 slices_S26x1000x128_S1x1000x128_6_0_0 slices_S16384x26_S16384x1_0_6 (V0 (Proc.devRef .tc main_arg0)) (V0 (Proc.devRef .tc main_arg1)) :=
  (ops22_keep _ main_v34 (by decide)).trans (val22_res6 V0)
theorem val23_res7 (V0 : Valuation τ sig (Elt F)) : val23 V0 (Proc.devRef .tc main_v39) = fieldVal 7 slices_S26x1000x128_S1x1000x128_7_0_0 slices_S16384x26_S16384x1_0_7 (V0 (Proc.devRef .tc main_arg0)) (V0 (Proc.devRef .tc main_arg1)) :=
  (ops22_keep _ main_v39 (by decide)).trans (val22_res7 V0)
theorem val23_res8 (V0 : Valuation τ sig (Elt F)) : val23 V0 (Proc.devRef .tc main_v44) = fieldVal 8 slices_S26x1000x128_S1x1000x128_8_0_0 slices_S16384x26_S16384x1_0_8 (V0 (Proc.devRef .tc main_arg0)) (V0 (Proc.devRef .tc main_arg1)) :=
  (ops22_keep _ main_v44 (by decide)).trans (val22_res8 V0)
theorem val23_res9 (V0 : Valuation τ sig (Elt F)) : val23 V0 (Proc.devRef .tc main_v49) = fieldVal 9 slices_S26x1000x128_S1x1000x128_9_0_0 slices_S16384x26_S16384x1_0_9 (V0 (Proc.devRef .tc main_arg0)) (V0 (Proc.devRef .tc main_arg1)) :=
  (ops22_keep _ main_v49 (by decide)).trans (val22_res9 V0)
theorem val23_res10 (V0 : Valuation τ sig (Elt F)) : val23 V0 (Proc.devRef .tc main_v54) = fieldVal 10 slices_S26x1000x128_S1x1000x128_10_0_0 slices_S16384x26_S16384x1_0_10 (V0 (Proc.devRef .tc main_arg0)) (V0 (Proc.devRef .tc main_arg1)) :=
  (ops22_keep _ main_v54 (by decide)).trans (val22_res10 V0)
theorem val23_res11 (V0 : Valuation τ sig (Elt F)) : val23 V0 (Proc.devRef .tc main_v59) = fieldVal 11 slices_S26x1000x128_S1x1000x128_11_0_0 slices_S16384x26_S16384x1_0_11 (V0 (Proc.devRef .tc main_arg0)) (V0 (Proc.devRef .tc main_arg1)) :=
  (ops22_keep _ main_v59 (by decide)).trans (val22_res11 V0)
theorem val23_res12 (V0 : Valuation τ sig (Elt F)) : val23 V0 (Proc.devRef .tc main_v64) = fieldVal 12 slices_S26x1000x128_S1x1000x128_12_0_0 slices_S16384x26_S16384x1_0_12 (V0 (Proc.devRef .tc main_arg0)) (V0 (Proc.devRef .tc main_arg1)) :=
  (ops22_keep _ main_v64 (by decide)).trans (val22_res12 V0)
theorem val23_res13 (V0 : Valuation τ sig (Elt F)) : val23 V0 (Proc.devRef .tc main_v69) = fieldVal 13 slices_S26x1000x128_S1x1000x128_13_0_0 slices_S16384x26_S16384x1_0_13 (V0 (Proc.devRef .tc main_arg0)) (V0 (Proc.devRef .tc main_arg1)) :=
  (ops22_keep _ main_v69 (by decide)).trans (val22_res13 V0)
theorem val23_res14 (V0 : Valuation τ sig (Elt F)) : val23 V0 (Proc.devRef .tc main_v74) = fieldVal 14 slices_S26x1000x128_S1x1000x128_14_0_0 slices_S16384x26_S16384x1_0_14 (V0 (Proc.devRef .tc main_arg0)) (V0 (Proc.devRef .tc main_arg1)) :=
  (ops22_keep _ main_v74 (by decide)).trans (val22_res14 V0)
theorem val23_res15 (V0 : Valuation τ sig (Elt F)) : val23 V0 (Proc.devRef .tc main_v79) = fieldVal 15 slices_S26x1000x128_S1x1000x128_15_0_0 slices_S16384x26_S16384x1_0_15 (V0 (Proc.devRef .tc main_arg0)) (V0 (Proc.devRef .tc main_arg1)) :=
  (ops22_keep _ main_v79 (by decide)).trans (val22_res15 V0)
theorem val23_res16 (V0 : Valuation τ sig (Elt F)) : val23 V0 (Proc.devRef .tc main_v84) = fieldVal 16 slices_S26x1000x128_S1x1000x128_16_0_0 slices_S16384x26_S16384x1_0_16 (V0 (Proc.devRef .tc main_arg0)) (V0 (Proc.devRef .tc main_arg1)) :=
  (ops22_keep _ main_v84 (by decide)).trans (val22_res16 V0)
theorem val23_res17 (V0 : Valuation τ sig (Elt F)) : val23 V0 (Proc.devRef .tc main_v89) = fieldVal 17 slices_S26x1000x128_S1x1000x128_17_0_0 slices_S16384x26_S16384x1_0_17 (V0 (Proc.devRef .tc main_arg0)) (V0 (Proc.devRef .tc main_arg1)) :=
  (ops22_keep _ main_v89 (by decide)).trans (val22_res17 V0)
theorem val23_res18 (V0 : Valuation τ sig (Elt F)) : val23 V0 (Proc.devRef .tc main_v94) = fieldVal 18 slices_S26x1000x128_S1x1000x128_18_0_0 slices_S16384x26_S16384x1_0_18 (V0 (Proc.devRef .tc main_arg0)) (V0 (Proc.devRef .tc main_arg1)) :=
  (ops22_keep _ main_v94 (by decide)).trans (val22_res18 V0)
theorem val23_res19 (V0 : Valuation τ sig (Elt F)) : val23 V0 (Proc.devRef .tc main_v99) = fieldVal 19 slices_S26x1000x128_S1x1000x128_19_0_0 slices_S16384x26_S16384x1_0_19 (V0 (Proc.devRef .tc main_arg0)) (V0 (Proc.devRef .tc main_arg1)) :=
  (ops22_keep _ main_v99 (by decide)).trans (val22_res19 V0)
theorem val23_res20 (V0 : Valuation τ sig (Elt F)) : val23 V0 (Proc.devRef .tc main_v104) = fieldVal 20 slices_S26x1000x128_S1x1000x128_20_0_0 slices_S16384x26_S16384x1_0_20 (V0 (Proc.devRef .tc main_arg0)) (V0 (Proc.devRef .tc main_arg1)) :=
  (ops22_keep _ main_v104 (by decide)).trans (val22_res20 V0)
theorem val23_res21 (V0 : Valuation τ sig (Elt F)) : val23 V0 (Proc.devRef .tc main_v109) = fieldVal 21 slices_S26x1000x128_S1x1000x128_21_0_0 slices_S16384x26_S16384x1_0_21 (V0 (Proc.devRef .tc main_arg0)) (V0 (Proc.devRef .tc main_arg1)) :=
  (ops22_keep _ main_v109 (by decide)).trans (val22_res21 V0)

/-- The buffers' contents after fields 0 … 23. -/
def val24 (V0 : Valuation τ sig (Elt F)) : Valuation τ sig (Elt F) := after ops23 (val23 V0)
theorem val24_arg0 (V0 : Valuation τ sig (Elt F)) : val24 V0 (Proc.devRef .tc main_arg0) = V0 (Proc.devRef .tc main_arg0) :=
  (ops23_keep _ main_arg0 (by decide)).trans (val23_arg0 V0)
theorem val24_arg1 (V0 : Valuation τ sig (Elt F)) : val24 V0 (Proc.devRef .tc main_arg1) = V0 (Proc.devRef .tc main_arg1) :=
  (ops23_keep _ main_arg1 (by decide)).trans (val23_arg1 V0)
theorem val24_res23 (V0 : Valuation τ sig (Elt F)) : val24 V0 (Proc.devRef .tc main_v119) = fieldVal 23 slices_S26x1000x128_S1x1000x128_23_0_0 slices_S16384x26_S16384x1_0_23 (V0 (Proc.devRef .tc main_arg0)) (V0 (Proc.devRef .tc main_arg1)) := by
  unfold val24; rw [ops23_val, val23_arg0, val23_arg1]
theorem val24_res0 (V0 : Valuation τ sig (Elt F)) : val24 V0 (Proc.devRef .tc main_v4) = fieldVal 0 slices_S26x1000x128_S1x1000x128_0_0_0 slices_S16384x26_S16384x1_0_0 (V0 (Proc.devRef .tc main_arg0)) (V0 (Proc.devRef .tc main_arg1)) :=
  (ops23_keep _ main_v4 (by decide)).trans (val23_res0 V0)
theorem val24_res1 (V0 : Valuation τ sig (Elt F)) : val24 V0 (Proc.devRef .tc main_v9) = fieldVal 1 slices_S26x1000x128_S1x1000x128_1_0_0 slices_S16384x26_S16384x1_0_1 (V0 (Proc.devRef .tc main_arg0)) (V0 (Proc.devRef .tc main_arg1)) :=
  (ops23_keep _ main_v9 (by decide)).trans (val23_res1 V0)
theorem val24_res2 (V0 : Valuation τ sig (Elt F)) : val24 V0 (Proc.devRef .tc main_v14) = fieldVal 2 slices_S26x1000x128_S1x1000x128_2_0_0 slices_S16384x26_S16384x1_0_2 (V0 (Proc.devRef .tc main_arg0)) (V0 (Proc.devRef .tc main_arg1)) :=
  (ops23_keep _ main_v14 (by decide)).trans (val23_res2 V0)
theorem val24_res3 (V0 : Valuation τ sig (Elt F)) : val24 V0 (Proc.devRef .tc main_v19) = fieldVal 3 slices_S26x1000x128_S1x1000x128_3_0_0 slices_S16384x26_S16384x1_0_3 (V0 (Proc.devRef .tc main_arg0)) (V0 (Proc.devRef .tc main_arg1)) :=
  (ops23_keep _ main_v19 (by decide)).trans (val23_res3 V0)
theorem val24_res4 (V0 : Valuation τ sig (Elt F)) : val24 V0 (Proc.devRef .tc main_v24) = fieldVal 4 slices_S26x1000x128_S1x1000x128_4_0_0 slices_S16384x26_S16384x1_0_4 (V0 (Proc.devRef .tc main_arg0)) (V0 (Proc.devRef .tc main_arg1)) :=
  (ops23_keep _ main_v24 (by decide)).trans (val23_res4 V0)
theorem val24_res5 (V0 : Valuation τ sig (Elt F)) : val24 V0 (Proc.devRef .tc main_v29) = fieldVal 5 slices_S26x1000x128_S1x1000x128_5_0_0 slices_S16384x26_S16384x1_0_5 (V0 (Proc.devRef .tc main_arg0)) (V0 (Proc.devRef .tc main_arg1)) :=
  (ops23_keep _ main_v29 (by decide)).trans (val23_res5 V0)
theorem val24_res6 (V0 : Valuation τ sig (Elt F)) : val24 V0 (Proc.devRef .tc main_v34) = fieldVal 6 slices_S26x1000x128_S1x1000x128_6_0_0 slices_S16384x26_S16384x1_0_6 (V0 (Proc.devRef .tc main_arg0)) (V0 (Proc.devRef .tc main_arg1)) :=
  (ops23_keep _ main_v34 (by decide)).trans (val23_res6 V0)
theorem val24_res7 (V0 : Valuation τ sig (Elt F)) : val24 V0 (Proc.devRef .tc main_v39) = fieldVal 7 slices_S26x1000x128_S1x1000x128_7_0_0 slices_S16384x26_S16384x1_0_7 (V0 (Proc.devRef .tc main_arg0)) (V0 (Proc.devRef .tc main_arg1)) :=
  (ops23_keep _ main_v39 (by decide)).trans (val23_res7 V0)
theorem val24_res8 (V0 : Valuation τ sig (Elt F)) : val24 V0 (Proc.devRef .tc main_v44) = fieldVal 8 slices_S26x1000x128_S1x1000x128_8_0_0 slices_S16384x26_S16384x1_0_8 (V0 (Proc.devRef .tc main_arg0)) (V0 (Proc.devRef .tc main_arg1)) :=
  (ops23_keep _ main_v44 (by decide)).trans (val23_res8 V0)
theorem val24_res9 (V0 : Valuation τ sig (Elt F)) : val24 V0 (Proc.devRef .tc main_v49) = fieldVal 9 slices_S26x1000x128_S1x1000x128_9_0_0 slices_S16384x26_S16384x1_0_9 (V0 (Proc.devRef .tc main_arg0)) (V0 (Proc.devRef .tc main_arg1)) :=
  (ops23_keep _ main_v49 (by decide)).trans (val23_res9 V0)
theorem val24_res10 (V0 : Valuation τ sig (Elt F)) : val24 V0 (Proc.devRef .tc main_v54) = fieldVal 10 slices_S26x1000x128_S1x1000x128_10_0_0 slices_S16384x26_S16384x1_0_10 (V0 (Proc.devRef .tc main_arg0)) (V0 (Proc.devRef .tc main_arg1)) :=
  (ops23_keep _ main_v54 (by decide)).trans (val23_res10 V0)
theorem val24_res11 (V0 : Valuation τ sig (Elt F)) : val24 V0 (Proc.devRef .tc main_v59) = fieldVal 11 slices_S26x1000x128_S1x1000x128_11_0_0 slices_S16384x26_S16384x1_0_11 (V0 (Proc.devRef .tc main_arg0)) (V0 (Proc.devRef .tc main_arg1)) :=
  (ops23_keep _ main_v59 (by decide)).trans (val23_res11 V0)
theorem val24_res12 (V0 : Valuation τ sig (Elt F)) : val24 V0 (Proc.devRef .tc main_v64) = fieldVal 12 slices_S26x1000x128_S1x1000x128_12_0_0 slices_S16384x26_S16384x1_0_12 (V0 (Proc.devRef .tc main_arg0)) (V0 (Proc.devRef .tc main_arg1)) :=
  (ops23_keep _ main_v64 (by decide)).trans (val23_res12 V0)
theorem val24_res13 (V0 : Valuation τ sig (Elt F)) : val24 V0 (Proc.devRef .tc main_v69) = fieldVal 13 slices_S26x1000x128_S1x1000x128_13_0_0 slices_S16384x26_S16384x1_0_13 (V0 (Proc.devRef .tc main_arg0)) (V0 (Proc.devRef .tc main_arg1)) :=
  (ops23_keep _ main_v69 (by decide)).trans (val23_res13 V0)
theorem val24_res14 (V0 : Valuation τ sig (Elt F)) : val24 V0 (Proc.devRef .tc main_v74) = fieldVal 14 slices_S26x1000x128_S1x1000x128_14_0_0 slices_S16384x26_S16384x1_0_14 (V0 (Proc.devRef .tc main_arg0)) (V0 (Proc.devRef .tc main_arg1)) :=
  (ops23_keep _ main_v74 (by decide)).trans (val23_res14 V0)
theorem val24_res15 (V0 : Valuation τ sig (Elt F)) : val24 V0 (Proc.devRef .tc main_v79) = fieldVal 15 slices_S26x1000x128_S1x1000x128_15_0_0 slices_S16384x26_S16384x1_0_15 (V0 (Proc.devRef .tc main_arg0)) (V0 (Proc.devRef .tc main_arg1)) :=
  (ops23_keep _ main_v79 (by decide)).trans (val23_res15 V0)
theorem val24_res16 (V0 : Valuation τ sig (Elt F)) : val24 V0 (Proc.devRef .tc main_v84) = fieldVal 16 slices_S26x1000x128_S1x1000x128_16_0_0 slices_S16384x26_S16384x1_0_16 (V0 (Proc.devRef .tc main_arg0)) (V0 (Proc.devRef .tc main_arg1)) :=
  (ops23_keep _ main_v84 (by decide)).trans (val23_res16 V0)
theorem val24_res17 (V0 : Valuation τ sig (Elt F)) : val24 V0 (Proc.devRef .tc main_v89) = fieldVal 17 slices_S26x1000x128_S1x1000x128_17_0_0 slices_S16384x26_S16384x1_0_17 (V0 (Proc.devRef .tc main_arg0)) (V0 (Proc.devRef .tc main_arg1)) :=
  (ops23_keep _ main_v89 (by decide)).trans (val23_res17 V0)
theorem val24_res18 (V0 : Valuation τ sig (Elt F)) : val24 V0 (Proc.devRef .tc main_v94) = fieldVal 18 slices_S26x1000x128_S1x1000x128_18_0_0 slices_S16384x26_S16384x1_0_18 (V0 (Proc.devRef .tc main_arg0)) (V0 (Proc.devRef .tc main_arg1)) :=
  (ops23_keep _ main_v94 (by decide)).trans (val23_res18 V0)
theorem val24_res19 (V0 : Valuation τ sig (Elt F)) : val24 V0 (Proc.devRef .tc main_v99) = fieldVal 19 slices_S26x1000x128_S1x1000x128_19_0_0 slices_S16384x26_S16384x1_0_19 (V0 (Proc.devRef .tc main_arg0)) (V0 (Proc.devRef .tc main_arg1)) :=
  (ops23_keep _ main_v99 (by decide)).trans (val23_res19 V0)
theorem val24_res20 (V0 : Valuation τ sig (Elt F)) : val24 V0 (Proc.devRef .tc main_v104) = fieldVal 20 slices_S26x1000x128_S1x1000x128_20_0_0 slices_S16384x26_S16384x1_0_20 (V0 (Proc.devRef .tc main_arg0)) (V0 (Proc.devRef .tc main_arg1)) :=
  (ops23_keep _ main_v104 (by decide)).trans (val23_res20 V0)
theorem val24_res21 (V0 : Valuation τ sig (Elt F)) : val24 V0 (Proc.devRef .tc main_v109) = fieldVal 21 slices_S26x1000x128_S1x1000x128_21_0_0 slices_S16384x26_S16384x1_0_21 (V0 (Proc.devRef .tc main_arg0)) (V0 (Proc.devRef .tc main_arg1)) :=
  (ops23_keep _ main_v109 (by decide)).trans (val23_res21 V0)
theorem val24_res22 (V0 : Valuation τ sig (Elt F)) : val24 V0 (Proc.devRef .tc main_v114) = fieldVal 22 slices_S26x1000x128_S1x1000x128_22_0_0 slices_S16384x26_S16384x1_0_22 (V0 (Proc.devRef .tc main_arg0)) (V0 (Proc.devRef .tc main_arg1)) :=
  (ops23_keep _ main_v114 (by decide)).trans (val23_res22 V0)

/-- The buffers' contents after fields 0 … 24. -/
def val25 (V0 : Valuation τ sig (Elt F)) : Valuation τ sig (Elt F) := after ops24 (val24 V0)
theorem val25_arg0 (V0 : Valuation τ sig (Elt F)) : val25 V0 (Proc.devRef .tc main_arg0) = V0 (Proc.devRef .tc main_arg0) :=
  (ops24_keep _ main_arg0 (by decide)).trans (val24_arg0 V0)
theorem val25_arg1 (V0 : Valuation τ sig (Elt F)) : val25 V0 (Proc.devRef .tc main_arg1) = V0 (Proc.devRef .tc main_arg1) :=
  (ops24_keep _ main_arg1 (by decide)).trans (val24_arg1 V0)
theorem val25_res24 (V0 : Valuation τ sig (Elt F)) : val25 V0 (Proc.devRef .tc main_v124) = fieldVal 24 slices_S26x1000x128_S1x1000x128_24_0_0 slices_S16384x26_S16384x1_0_24 (V0 (Proc.devRef .tc main_arg0)) (V0 (Proc.devRef .tc main_arg1)) := by
  unfold val25; rw [ops24_val, val24_arg0, val24_arg1]
theorem val25_res0 (V0 : Valuation τ sig (Elt F)) : val25 V0 (Proc.devRef .tc main_v4) = fieldVal 0 slices_S26x1000x128_S1x1000x128_0_0_0 slices_S16384x26_S16384x1_0_0 (V0 (Proc.devRef .tc main_arg0)) (V0 (Proc.devRef .tc main_arg1)) :=
  (ops24_keep _ main_v4 (by decide)).trans (val24_res0 V0)
theorem val25_res1 (V0 : Valuation τ sig (Elt F)) : val25 V0 (Proc.devRef .tc main_v9) = fieldVal 1 slices_S26x1000x128_S1x1000x128_1_0_0 slices_S16384x26_S16384x1_0_1 (V0 (Proc.devRef .tc main_arg0)) (V0 (Proc.devRef .tc main_arg1)) :=
  (ops24_keep _ main_v9 (by decide)).trans (val24_res1 V0)
theorem val25_res2 (V0 : Valuation τ sig (Elt F)) : val25 V0 (Proc.devRef .tc main_v14) = fieldVal 2 slices_S26x1000x128_S1x1000x128_2_0_0 slices_S16384x26_S16384x1_0_2 (V0 (Proc.devRef .tc main_arg0)) (V0 (Proc.devRef .tc main_arg1)) :=
  (ops24_keep _ main_v14 (by decide)).trans (val24_res2 V0)
theorem val25_res3 (V0 : Valuation τ sig (Elt F)) : val25 V0 (Proc.devRef .tc main_v19) = fieldVal 3 slices_S26x1000x128_S1x1000x128_3_0_0 slices_S16384x26_S16384x1_0_3 (V0 (Proc.devRef .tc main_arg0)) (V0 (Proc.devRef .tc main_arg1)) :=
  (ops24_keep _ main_v19 (by decide)).trans (val24_res3 V0)
theorem val25_res4 (V0 : Valuation τ sig (Elt F)) : val25 V0 (Proc.devRef .tc main_v24) = fieldVal 4 slices_S26x1000x128_S1x1000x128_4_0_0 slices_S16384x26_S16384x1_0_4 (V0 (Proc.devRef .tc main_arg0)) (V0 (Proc.devRef .tc main_arg1)) :=
  (ops24_keep _ main_v24 (by decide)).trans (val24_res4 V0)
theorem val25_res5 (V0 : Valuation τ sig (Elt F)) : val25 V0 (Proc.devRef .tc main_v29) = fieldVal 5 slices_S26x1000x128_S1x1000x128_5_0_0 slices_S16384x26_S16384x1_0_5 (V0 (Proc.devRef .tc main_arg0)) (V0 (Proc.devRef .tc main_arg1)) :=
  (ops24_keep _ main_v29 (by decide)).trans (val24_res5 V0)
theorem val25_res6 (V0 : Valuation τ sig (Elt F)) : val25 V0 (Proc.devRef .tc main_v34) = fieldVal 6 slices_S26x1000x128_S1x1000x128_6_0_0 slices_S16384x26_S16384x1_0_6 (V0 (Proc.devRef .tc main_arg0)) (V0 (Proc.devRef .tc main_arg1)) :=
  (ops24_keep _ main_v34 (by decide)).trans (val24_res6 V0)
theorem val25_res7 (V0 : Valuation τ sig (Elt F)) : val25 V0 (Proc.devRef .tc main_v39) = fieldVal 7 slices_S26x1000x128_S1x1000x128_7_0_0 slices_S16384x26_S16384x1_0_7 (V0 (Proc.devRef .tc main_arg0)) (V0 (Proc.devRef .tc main_arg1)) :=
  (ops24_keep _ main_v39 (by decide)).trans (val24_res7 V0)
theorem val25_res8 (V0 : Valuation τ sig (Elt F)) : val25 V0 (Proc.devRef .tc main_v44) = fieldVal 8 slices_S26x1000x128_S1x1000x128_8_0_0 slices_S16384x26_S16384x1_0_8 (V0 (Proc.devRef .tc main_arg0)) (V0 (Proc.devRef .tc main_arg1)) :=
  (ops24_keep _ main_v44 (by decide)).trans (val24_res8 V0)
theorem val25_res9 (V0 : Valuation τ sig (Elt F)) : val25 V0 (Proc.devRef .tc main_v49) = fieldVal 9 slices_S26x1000x128_S1x1000x128_9_0_0 slices_S16384x26_S16384x1_0_9 (V0 (Proc.devRef .tc main_arg0)) (V0 (Proc.devRef .tc main_arg1)) :=
  (ops24_keep _ main_v49 (by decide)).trans (val24_res9 V0)
theorem val25_res10 (V0 : Valuation τ sig (Elt F)) : val25 V0 (Proc.devRef .tc main_v54) = fieldVal 10 slices_S26x1000x128_S1x1000x128_10_0_0 slices_S16384x26_S16384x1_0_10 (V0 (Proc.devRef .tc main_arg0)) (V0 (Proc.devRef .tc main_arg1)) :=
  (ops24_keep _ main_v54 (by decide)).trans (val24_res10 V0)
theorem val25_res11 (V0 : Valuation τ sig (Elt F)) : val25 V0 (Proc.devRef .tc main_v59) = fieldVal 11 slices_S26x1000x128_S1x1000x128_11_0_0 slices_S16384x26_S16384x1_0_11 (V0 (Proc.devRef .tc main_arg0)) (V0 (Proc.devRef .tc main_arg1)) :=
  (ops24_keep _ main_v59 (by decide)).trans (val24_res11 V0)
theorem val25_res12 (V0 : Valuation τ sig (Elt F)) : val25 V0 (Proc.devRef .tc main_v64) = fieldVal 12 slices_S26x1000x128_S1x1000x128_12_0_0 slices_S16384x26_S16384x1_0_12 (V0 (Proc.devRef .tc main_arg0)) (V0 (Proc.devRef .tc main_arg1)) :=
  (ops24_keep _ main_v64 (by decide)).trans (val24_res12 V0)
theorem val25_res13 (V0 : Valuation τ sig (Elt F)) : val25 V0 (Proc.devRef .tc main_v69) = fieldVal 13 slices_S26x1000x128_S1x1000x128_13_0_0 slices_S16384x26_S16384x1_0_13 (V0 (Proc.devRef .tc main_arg0)) (V0 (Proc.devRef .tc main_arg1)) :=
  (ops24_keep _ main_v69 (by decide)).trans (val24_res13 V0)
theorem val25_res14 (V0 : Valuation τ sig (Elt F)) : val25 V0 (Proc.devRef .tc main_v74) = fieldVal 14 slices_S26x1000x128_S1x1000x128_14_0_0 slices_S16384x26_S16384x1_0_14 (V0 (Proc.devRef .tc main_arg0)) (V0 (Proc.devRef .tc main_arg1)) :=
  (ops24_keep _ main_v74 (by decide)).trans (val24_res14 V0)
theorem val25_res15 (V0 : Valuation τ sig (Elt F)) : val25 V0 (Proc.devRef .tc main_v79) = fieldVal 15 slices_S26x1000x128_S1x1000x128_15_0_0 slices_S16384x26_S16384x1_0_15 (V0 (Proc.devRef .tc main_arg0)) (V0 (Proc.devRef .tc main_arg1)) :=
  (ops24_keep _ main_v79 (by decide)).trans (val24_res15 V0)
theorem val25_res16 (V0 : Valuation τ sig (Elt F)) : val25 V0 (Proc.devRef .tc main_v84) = fieldVal 16 slices_S26x1000x128_S1x1000x128_16_0_0 slices_S16384x26_S16384x1_0_16 (V0 (Proc.devRef .tc main_arg0)) (V0 (Proc.devRef .tc main_arg1)) :=
  (ops24_keep _ main_v84 (by decide)).trans (val24_res16 V0)
theorem val25_res17 (V0 : Valuation τ sig (Elt F)) : val25 V0 (Proc.devRef .tc main_v89) = fieldVal 17 slices_S26x1000x128_S1x1000x128_17_0_0 slices_S16384x26_S16384x1_0_17 (V0 (Proc.devRef .tc main_arg0)) (V0 (Proc.devRef .tc main_arg1)) :=
  (ops24_keep _ main_v89 (by decide)).trans (val24_res17 V0)
theorem val25_res18 (V0 : Valuation τ sig (Elt F)) : val25 V0 (Proc.devRef .tc main_v94) = fieldVal 18 slices_S26x1000x128_S1x1000x128_18_0_0 slices_S16384x26_S16384x1_0_18 (V0 (Proc.devRef .tc main_arg0)) (V0 (Proc.devRef .tc main_arg1)) :=
  (ops24_keep _ main_v94 (by decide)).trans (val24_res18 V0)
theorem val25_res19 (V0 : Valuation τ sig (Elt F)) : val25 V0 (Proc.devRef .tc main_v99) = fieldVal 19 slices_S26x1000x128_S1x1000x128_19_0_0 slices_S16384x26_S16384x1_0_19 (V0 (Proc.devRef .tc main_arg0)) (V0 (Proc.devRef .tc main_arg1)) :=
  (ops24_keep _ main_v99 (by decide)).trans (val24_res19 V0)
theorem val25_res20 (V0 : Valuation τ sig (Elt F)) : val25 V0 (Proc.devRef .tc main_v104) = fieldVal 20 slices_S26x1000x128_S1x1000x128_20_0_0 slices_S16384x26_S16384x1_0_20 (V0 (Proc.devRef .tc main_arg0)) (V0 (Proc.devRef .tc main_arg1)) :=
  (ops24_keep _ main_v104 (by decide)).trans (val24_res20 V0)
theorem val25_res21 (V0 : Valuation τ sig (Elt F)) : val25 V0 (Proc.devRef .tc main_v109) = fieldVal 21 slices_S26x1000x128_S1x1000x128_21_0_0 slices_S16384x26_S16384x1_0_21 (V0 (Proc.devRef .tc main_arg0)) (V0 (Proc.devRef .tc main_arg1)) :=
  (ops24_keep _ main_v109 (by decide)).trans (val24_res21 V0)
theorem val25_res22 (V0 : Valuation τ sig (Elt F)) : val25 V0 (Proc.devRef .tc main_v114) = fieldVal 22 slices_S26x1000x128_S1x1000x128_22_0_0 slices_S16384x26_S16384x1_0_22 (V0 (Proc.devRef .tc main_arg0)) (V0 (Proc.devRef .tc main_arg1)) :=
  (ops24_keep _ main_v114 (by decide)).trans (val24_res22 V0)
theorem val25_res23 (V0 : Valuation τ sig (Elt F)) : val25 V0 (Proc.devRef .tc main_v119) = fieldVal 23 slices_S26x1000x128_S1x1000x128_23_0_0 slices_S16384x26_S16384x1_0_23 (V0 (Proc.devRef .tc main_arg0)) (V0 (Proc.devRef .tc main_arg1)) :=
  (ops24_keep _ main_v119 (by decide)).trans (val24_res23 V0)

/-- The buffers' contents after fields 0 … 25. -/
def val26 (V0 : Valuation τ sig (Elt F)) : Valuation τ sig (Elt F) := after ops25 (val25 V0)
theorem val26_arg0 (V0 : Valuation τ sig (Elt F)) : val26 V0 (Proc.devRef .tc main_arg0) = V0 (Proc.devRef .tc main_arg0) :=
  (ops25_keep _ main_arg0 (by decide)).trans (val25_arg0 V0)
theorem val26_arg1 (V0 : Valuation τ sig (Elt F)) : val26 V0 (Proc.devRef .tc main_arg1) = V0 (Proc.devRef .tc main_arg1) :=
  (ops25_keep _ main_arg1 (by decide)).trans (val25_arg1 V0)
theorem val26_res25 (V0 : Valuation τ sig (Elt F)) : val26 V0 (Proc.devRef .tc main_v129) = fieldVal 25 slices_S26x1000x128_S1x1000x128_25_0_0 slices_S16384x26_S16384x1_0_25 (V0 (Proc.devRef .tc main_arg0)) (V0 (Proc.devRef .tc main_arg1)) := by
  unfold val26; rw [ops25_val, val25_arg0, val25_arg1]
theorem val26_res0 (V0 : Valuation τ sig (Elt F)) : val26 V0 (Proc.devRef .tc main_v4) = fieldVal 0 slices_S26x1000x128_S1x1000x128_0_0_0 slices_S16384x26_S16384x1_0_0 (V0 (Proc.devRef .tc main_arg0)) (V0 (Proc.devRef .tc main_arg1)) :=
  (ops25_keep _ main_v4 (by decide)).trans (val25_res0 V0)
theorem val26_res1 (V0 : Valuation τ sig (Elt F)) : val26 V0 (Proc.devRef .tc main_v9) = fieldVal 1 slices_S26x1000x128_S1x1000x128_1_0_0 slices_S16384x26_S16384x1_0_1 (V0 (Proc.devRef .tc main_arg0)) (V0 (Proc.devRef .tc main_arg1)) :=
  (ops25_keep _ main_v9 (by decide)).trans (val25_res1 V0)
theorem val26_res2 (V0 : Valuation τ sig (Elt F)) : val26 V0 (Proc.devRef .tc main_v14) = fieldVal 2 slices_S26x1000x128_S1x1000x128_2_0_0 slices_S16384x26_S16384x1_0_2 (V0 (Proc.devRef .tc main_arg0)) (V0 (Proc.devRef .tc main_arg1)) :=
  (ops25_keep _ main_v14 (by decide)).trans (val25_res2 V0)
theorem val26_res3 (V0 : Valuation τ sig (Elt F)) : val26 V0 (Proc.devRef .tc main_v19) = fieldVal 3 slices_S26x1000x128_S1x1000x128_3_0_0 slices_S16384x26_S16384x1_0_3 (V0 (Proc.devRef .tc main_arg0)) (V0 (Proc.devRef .tc main_arg1)) :=
  (ops25_keep _ main_v19 (by decide)).trans (val25_res3 V0)
theorem val26_res4 (V0 : Valuation τ sig (Elt F)) : val26 V0 (Proc.devRef .tc main_v24) = fieldVal 4 slices_S26x1000x128_S1x1000x128_4_0_0 slices_S16384x26_S16384x1_0_4 (V0 (Proc.devRef .tc main_arg0)) (V0 (Proc.devRef .tc main_arg1)) :=
  (ops25_keep _ main_v24 (by decide)).trans (val25_res4 V0)
theorem val26_res5 (V0 : Valuation τ sig (Elt F)) : val26 V0 (Proc.devRef .tc main_v29) = fieldVal 5 slices_S26x1000x128_S1x1000x128_5_0_0 slices_S16384x26_S16384x1_0_5 (V0 (Proc.devRef .tc main_arg0)) (V0 (Proc.devRef .tc main_arg1)) :=
  (ops25_keep _ main_v29 (by decide)).trans (val25_res5 V0)
theorem val26_res6 (V0 : Valuation τ sig (Elt F)) : val26 V0 (Proc.devRef .tc main_v34) = fieldVal 6 slices_S26x1000x128_S1x1000x128_6_0_0 slices_S16384x26_S16384x1_0_6 (V0 (Proc.devRef .tc main_arg0)) (V0 (Proc.devRef .tc main_arg1)) :=
  (ops25_keep _ main_v34 (by decide)).trans (val25_res6 V0)
theorem val26_res7 (V0 : Valuation τ sig (Elt F)) : val26 V0 (Proc.devRef .tc main_v39) = fieldVal 7 slices_S26x1000x128_S1x1000x128_7_0_0 slices_S16384x26_S16384x1_0_7 (V0 (Proc.devRef .tc main_arg0)) (V0 (Proc.devRef .tc main_arg1)) :=
  (ops25_keep _ main_v39 (by decide)).trans (val25_res7 V0)
theorem val26_res8 (V0 : Valuation τ sig (Elt F)) : val26 V0 (Proc.devRef .tc main_v44) = fieldVal 8 slices_S26x1000x128_S1x1000x128_8_0_0 slices_S16384x26_S16384x1_0_8 (V0 (Proc.devRef .tc main_arg0)) (V0 (Proc.devRef .tc main_arg1)) :=
  (ops25_keep _ main_v44 (by decide)).trans (val25_res8 V0)
theorem val26_res9 (V0 : Valuation τ sig (Elt F)) : val26 V0 (Proc.devRef .tc main_v49) = fieldVal 9 slices_S26x1000x128_S1x1000x128_9_0_0 slices_S16384x26_S16384x1_0_9 (V0 (Proc.devRef .tc main_arg0)) (V0 (Proc.devRef .tc main_arg1)) :=
  (ops25_keep _ main_v49 (by decide)).trans (val25_res9 V0)
theorem val26_res10 (V0 : Valuation τ sig (Elt F)) : val26 V0 (Proc.devRef .tc main_v54) = fieldVal 10 slices_S26x1000x128_S1x1000x128_10_0_0 slices_S16384x26_S16384x1_0_10 (V0 (Proc.devRef .tc main_arg0)) (V0 (Proc.devRef .tc main_arg1)) :=
  (ops25_keep _ main_v54 (by decide)).trans (val25_res10 V0)
theorem val26_res11 (V0 : Valuation τ sig (Elt F)) : val26 V0 (Proc.devRef .tc main_v59) = fieldVal 11 slices_S26x1000x128_S1x1000x128_11_0_0 slices_S16384x26_S16384x1_0_11 (V0 (Proc.devRef .tc main_arg0)) (V0 (Proc.devRef .tc main_arg1)) :=
  (ops25_keep _ main_v59 (by decide)).trans (val25_res11 V0)
theorem val26_res12 (V0 : Valuation τ sig (Elt F)) : val26 V0 (Proc.devRef .tc main_v64) = fieldVal 12 slices_S26x1000x128_S1x1000x128_12_0_0 slices_S16384x26_S16384x1_0_12 (V0 (Proc.devRef .tc main_arg0)) (V0 (Proc.devRef .tc main_arg1)) :=
  (ops25_keep _ main_v64 (by decide)).trans (val25_res12 V0)
theorem val26_res13 (V0 : Valuation τ sig (Elt F)) : val26 V0 (Proc.devRef .tc main_v69) = fieldVal 13 slices_S26x1000x128_S1x1000x128_13_0_0 slices_S16384x26_S16384x1_0_13 (V0 (Proc.devRef .tc main_arg0)) (V0 (Proc.devRef .tc main_arg1)) :=
  (ops25_keep _ main_v69 (by decide)).trans (val25_res13 V0)
theorem val26_res14 (V0 : Valuation τ sig (Elt F)) : val26 V0 (Proc.devRef .tc main_v74) = fieldVal 14 slices_S26x1000x128_S1x1000x128_14_0_0 slices_S16384x26_S16384x1_0_14 (V0 (Proc.devRef .tc main_arg0)) (V0 (Proc.devRef .tc main_arg1)) :=
  (ops25_keep _ main_v74 (by decide)).trans (val25_res14 V0)
theorem val26_res15 (V0 : Valuation τ sig (Elt F)) : val26 V0 (Proc.devRef .tc main_v79) = fieldVal 15 slices_S26x1000x128_S1x1000x128_15_0_0 slices_S16384x26_S16384x1_0_15 (V0 (Proc.devRef .tc main_arg0)) (V0 (Proc.devRef .tc main_arg1)) :=
  (ops25_keep _ main_v79 (by decide)).trans (val25_res15 V0)
theorem val26_res16 (V0 : Valuation τ sig (Elt F)) : val26 V0 (Proc.devRef .tc main_v84) = fieldVal 16 slices_S26x1000x128_S1x1000x128_16_0_0 slices_S16384x26_S16384x1_0_16 (V0 (Proc.devRef .tc main_arg0)) (V0 (Proc.devRef .tc main_arg1)) :=
  (ops25_keep _ main_v84 (by decide)).trans (val25_res16 V0)
theorem val26_res17 (V0 : Valuation τ sig (Elt F)) : val26 V0 (Proc.devRef .tc main_v89) = fieldVal 17 slices_S26x1000x128_S1x1000x128_17_0_0 slices_S16384x26_S16384x1_0_17 (V0 (Proc.devRef .tc main_arg0)) (V0 (Proc.devRef .tc main_arg1)) :=
  (ops25_keep _ main_v89 (by decide)).trans (val25_res17 V0)
theorem val26_res18 (V0 : Valuation τ sig (Elt F)) : val26 V0 (Proc.devRef .tc main_v94) = fieldVal 18 slices_S26x1000x128_S1x1000x128_18_0_0 slices_S16384x26_S16384x1_0_18 (V0 (Proc.devRef .tc main_arg0)) (V0 (Proc.devRef .tc main_arg1)) :=
  (ops25_keep _ main_v94 (by decide)).trans (val25_res18 V0)
theorem val26_res19 (V0 : Valuation τ sig (Elt F)) : val26 V0 (Proc.devRef .tc main_v99) = fieldVal 19 slices_S26x1000x128_S1x1000x128_19_0_0 slices_S16384x26_S16384x1_0_19 (V0 (Proc.devRef .tc main_arg0)) (V0 (Proc.devRef .tc main_arg1)) :=
  (ops25_keep _ main_v99 (by decide)).trans (val25_res19 V0)
theorem val26_res20 (V0 : Valuation τ sig (Elt F)) : val26 V0 (Proc.devRef .tc main_v104) = fieldVal 20 slices_S26x1000x128_S1x1000x128_20_0_0 slices_S16384x26_S16384x1_0_20 (V0 (Proc.devRef .tc main_arg0)) (V0 (Proc.devRef .tc main_arg1)) :=
  (ops25_keep _ main_v104 (by decide)).trans (val25_res20 V0)
theorem val26_res21 (V0 : Valuation τ sig (Elt F)) : val26 V0 (Proc.devRef .tc main_v109) = fieldVal 21 slices_S26x1000x128_S1x1000x128_21_0_0 slices_S16384x26_S16384x1_0_21 (V0 (Proc.devRef .tc main_arg0)) (V0 (Proc.devRef .tc main_arg1)) :=
  (ops25_keep _ main_v109 (by decide)).trans (val25_res21 V0)
theorem val26_res22 (V0 : Valuation τ sig (Elt F)) : val26 V0 (Proc.devRef .tc main_v114) = fieldVal 22 slices_S26x1000x128_S1x1000x128_22_0_0 slices_S16384x26_S16384x1_0_22 (V0 (Proc.devRef .tc main_arg0)) (V0 (Proc.devRef .tc main_arg1)) :=
  (ops25_keep _ main_v114 (by decide)).trans (val25_res22 V0)
theorem val26_res23 (V0 : Valuation τ sig (Elt F)) : val26 V0 (Proc.devRef .tc main_v119) = fieldVal 23 slices_S26x1000x128_S1x1000x128_23_0_0 slices_S16384x26_S16384x1_0_23 (V0 (Proc.devRef .tc main_arg0)) (V0 (Proc.devRef .tc main_arg1)) :=
  (ops25_keep _ main_v119 (by decide)).trans (val25_res23 V0)
theorem val26_res24 (V0 : Valuation τ sig (Elt F)) : val26 V0 (Proc.devRef .tc main_v124) = fieldVal 24 slices_S26x1000x128_S1x1000x128_24_0_0 slices_S16384x26_S16384x1_0_24 (V0 (Proc.devRef .tc main_arg0)) (V0 (Proc.devRef .tc main_arg1)) :=
  (ops25_keep _ main_v124 (by decide)).trans (val25_res24 V0)

/-! ## The whole program -/

/-- The whole list is the 26 fields in order and then the concatenations. -/
theorem after_ops (V0 : Valuation τ sig (Elt F)) : after ops V0 = after opsT (val26 V0) := by
  simp only [ops, part0Ops, part1Ops, part2Ops, after_append]
  rfl

theorem val26_res0' (V0 : Valuation τ sig (Elt F)) : val26 V0 (no_index (Proc.devRef .tc main_v4)) = fieldG (V0 (Proc.devRef .tc main_arg0)) (V0 (Proc.devRef .tc main_arg1)) ⟨0, by decide⟩ := val26_res0 V0
theorem val26_res1' (V0 : Valuation τ sig (Elt F)) : val26 V0 (no_index (Proc.devRef .tc main_v9)) = fieldG (V0 (Proc.devRef .tc main_arg0)) (V0 (Proc.devRef .tc main_arg1)) ⟨1, by decide⟩ := val26_res1 V0
theorem val26_res2' (V0 : Valuation τ sig (Elt F)) : val26 V0 (no_index (Proc.devRef .tc main_v14)) = fieldG (V0 (Proc.devRef .tc main_arg0)) (V0 (Proc.devRef .tc main_arg1)) ⟨2, by decide⟩ := val26_res2 V0
theorem val26_res3' (V0 : Valuation τ sig (Elt F)) : val26 V0 (no_index (Proc.devRef .tc main_v19)) = fieldG (V0 (Proc.devRef .tc main_arg0)) (V0 (Proc.devRef .tc main_arg1)) ⟨3, by decide⟩ := val26_res3 V0
theorem val26_res4' (V0 : Valuation τ sig (Elt F)) : val26 V0 (no_index (Proc.devRef .tc main_v24)) = fieldG (V0 (Proc.devRef .tc main_arg0)) (V0 (Proc.devRef .tc main_arg1)) ⟨4, by decide⟩ := val26_res4 V0
theorem val26_res5' (V0 : Valuation τ sig (Elt F)) : val26 V0 (no_index (Proc.devRef .tc main_v29)) = fieldG (V0 (Proc.devRef .tc main_arg0)) (V0 (Proc.devRef .tc main_arg1)) ⟨5, by decide⟩ := val26_res5 V0
theorem val26_res6' (V0 : Valuation τ sig (Elt F)) : val26 V0 (no_index (Proc.devRef .tc main_v34)) = fieldG (V0 (Proc.devRef .tc main_arg0)) (V0 (Proc.devRef .tc main_arg1)) ⟨6, by decide⟩ := val26_res6 V0
theorem val26_res7' (V0 : Valuation τ sig (Elt F)) : val26 V0 (no_index (Proc.devRef .tc main_v39)) = fieldG (V0 (Proc.devRef .tc main_arg0)) (V0 (Proc.devRef .tc main_arg1)) ⟨7, by decide⟩ := val26_res7 V0
theorem val26_res8' (V0 : Valuation τ sig (Elt F)) : val26 V0 (no_index (Proc.devRef .tc main_v44)) = fieldG (V0 (Proc.devRef .tc main_arg0)) (V0 (Proc.devRef .tc main_arg1)) ⟨8, by decide⟩ := val26_res8 V0
theorem val26_res9' (V0 : Valuation τ sig (Elt F)) : val26 V0 (no_index (Proc.devRef .tc main_v49)) = fieldG (V0 (Proc.devRef .tc main_arg0)) (V0 (Proc.devRef .tc main_arg1)) ⟨9, by decide⟩ := val26_res9 V0
theorem val26_res10' (V0 : Valuation τ sig (Elt F)) : val26 V0 (no_index (Proc.devRef .tc main_v54)) = fieldG (V0 (Proc.devRef .tc main_arg0)) (V0 (Proc.devRef .tc main_arg1)) ⟨10, by decide⟩ := val26_res10 V0
theorem val26_res11' (V0 : Valuation τ sig (Elt F)) : val26 V0 (no_index (Proc.devRef .tc main_v59)) = fieldG (V0 (Proc.devRef .tc main_arg0)) (V0 (Proc.devRef .tc main_arg1)) ⟨11, by decide⟩ := val26_res11 V0
theorem val26_res12' (V0 : Valuation τ sig (Elt F)) : val26 V0 (no_index (Proc.devRef .tc main_v64)) = fieldG (V0 (Proc.devRef .tc main_arg0)) (V0 (Proc.devRef .tc main_arg1)) ⟨12, by decide⟩ := val26_res12 V0
theorem val26_res13' (V0 : Valuation τ sig (Elt F)) : val26 V0 (no_index (Proc.devRef .tc main_v69)) = fieldG (V0 (Proc.devRef .tc main_arg0)) (V0 (Proc.devRef .tc main_arg1)) ⟨13, by decide⟩ := val26_res13 V0
theorem val26_res14' (V0 : Valuation τ sig (Elt F)) : val26 V0 (no_index (Proc.devRef .tc main_v74)) = fieldG (V0 (Proc.devRef .tc main_arg0)) (V0 (Proc.devRef .tc main_arg1)) ⟨14, by decide⟩ := val26_res14 V0
theorem val26_res15' (V0 : Valuation τ sig (Elt F)) : val26 V0 (no_index (Proc.devRef .tc main_v79)) = fieldG (V0 (Proc.devRef .tc main_arg0)) (V0 (Proc.devRef .tc main_arg1)) ⟨15, by decide⟩ := val26_res15 V0
theorem val26_res16' (V0 : Valuation τ sig (Elt F)) : val26 V0 (no_index (Proc.devRef .tc main_v84)) = fieldG (V0 (Proc.devRef .tc main_arg0)) (V0 (Proc.devRef .tc main_arg1)) ⟨16, by decide⟩ := val26_res16 V0
theorem val26_res17' (V0 : Valuation τ sig (Elt F)) : val26 V0 (no_index (Proc.devRef .tc main_v89)) = fieldG (V0 (Proc.devRef .tc main_arg0)) (V0 (Proc.devRef .tc main_arg1)) ⟨17, by decide⟩ := val26_res17 V0
theorem val26_res18' (V0 : Valuation τ sig (Elt F)) : val26 V0 (no_index (Proc.devRef .tc main_v94)) = fieldG (V0 (Proc.devRef .tc main_arg0)) (V0 (Proc.devRef .tc main_arg1)) ⟨18, by decide⟩ := val26_res18 V0
theorem val26_res19' (V0 : Valuation τ sig (Elt F)) : val26 V0 (no_index (Proc.devRef .tc main_v99)) = fieldG (V0 (Proc.devRef .tc main_arg0)) (V0 (Proc.devRef .tc main_arg1)) ⟨19, by decide⟩ := val26_res19 V0
theorem val26_res20' (V0 : Valuation τ sig (Elt F)) : val26 V0 (no_index (Proc.devRef .tc main_v104)) = fieldG (V0 (Proc.devRef .tc main_arg0)) (V0 (Proc.devRef .tc main_arg1)) ⟨20, by decide⟩ := val26_res20 V0
theorem val26_res21' (V0 : Valuation τ sig (Elt F)) : val26 V0 (no_index (Proc.devRef .tc main_v109)) = fieldG (V0 (Proc.devRef .tc main_arg0)) (V0 (Proc.devRef .tc main_arg1)) ⟨21, by decide⟩ := val26_res21 V0
theorem val26_res22' (V0 : Valuation τ sig (Elt F)) : val26 V0 (no_index (Proc.devRef .tc main_v114)) = fieldG (V0 (Proc.devRef .tc main_arg0)) (V0 (Proc.devRef .tc main_arg1)) ⟨22, by decide⟩ := val26_res22 V0
theorem val26_res23' (V0 : Valuation τ sig (Elt F)) : val26 V0 (no_index (Proc.devRef .tc main_v119)) = fieldG (V0 (Proc.devRef .tc main_arg0)) (V0 (Proc.devRef .tc main_arg1)) ⟨23, by decide⟩ := val26_res23 V0
theorem val26_res24' (V0 : Valuation τ sig (Elt F)) : val26 V0 (no_index (Proc.devRef .tc main_v124)) = fieldG (V0 (Proc.devRef .tc main_arg0)) (V0 (Proc.devRef .tc main_arg1)) ⟨24, by decide⟩ := val26_res24 V0
theorem val26_res25' (V0 : Valuation τ sig (Elt F)) : val26 V0 (no_index (Proc.devRef .tc main_v129)) = fieldG (V0 (Proc.devRef .tc main_arg0)) (V0 (Proc.devRef .tc main_arg1)) ⟨25, by decide⟩ := val26_res25 V0

end Cert.RefSide
end
-- ==== Proof.RefOut.lean ====
/-
  What the whole program leaves in its result buffer and in its two argument buffers: the three concatenations read the 26
  fields' results, and write neither argument.
-/
import proofs.«206644_g35837207118489_cont_8to1_b_589_28_alg».proof.Proof.RefChain

noncomputable section
namespace Cert.RefSide
open Cert.ReferenceIdeal Cert.ReferenceIdeal.Facts₀ Cert.ReferenceIdeal.Facts Idealize.ShloMosaic Idealize.ShloMosaic.TcCoe Idealize.SL.Sem Idealize.ShloMosaic.StableHlo
variable {F : FTy → Type} [FloatOps F] [Cert.ReferenceIdeal.Facts]

set_option maxRecDepth 65536 in
set_option maxHeartbeats 2000000 in
/-- The result buffer ends at the 26 fields' lookups of the arguments' launch contents, laid side by side. -/
theorem out_eq (V0 : Valuation τ sig (Elt F)) :
    after ops V0 (Proc.devRef .tc main_v132) = catAll (fieldG (V0 (Proc.devRef .tc main_arg0)) (V0 (Proc.devRef .tc main_arg1))) := by
  rw [after_ops]
  simp only [opsT]
  after_results
  dsimp only [Matrix.cons_val]
  repeat (rw [nary_result_ne]; rotate_left; decide)
  rw [val26_res0 V0, val26_res1 V0, val26_res2 V0, val26_res3 V0, val26_res4 V0, val26_res5 V0, val26_res6 V0, val26_res7 V0, val26_res8 V0, val26_res9 V0, val26_res10 V0, val26_res11 V0, val26_res12 V0, val26_res13 V0, val26_res14 V0, val26_res15 V0, val26_res16 V0, val26_res17 V0, val26_res18 V0, val26_res19 V0, val26_res20 V0, val26_res21 V0, val26_res22 V0, val26_res23 V0, val26_res24 V0, val26_res25 V0]
  rfl

/-- The argument buffers end as they started. -/
theorem arg0_eq (V0 : Valuation τ sig (Elt F)) : after ops V0 (Proc.devRef .tc main_arg0) = V0 (Proc.devRef .tc main_arg0) := by
  rw [after_ops]
  simp only [opsT]
  after_results_simp
  exact val26_arg0 V0
theorem arg1_eq (V0 : Valuation τ sig (Elt F)) : after ops V0 (Proc.devRef .tc main_arg1) = V0 (Proc.devRef .tc main_arg1) := by
  rw [after_ops]
  simp only [opsT]
  after_results_simp
  exact val26_arg1 V0

end Cert.RefSide
end
-- ==== Proof.RefValue.lean ====
/-
  The mathematics of the reference: laid side by side, the 26 fields' lookups are the lookup function, where every index word
  lies in `[0, 999]`.

  One field, read at batch entry `b` and lane `d`: the index word `w = x[b, o]` is nonnegative, so the wrap of negative indices
  keeps it; it lies in `[0, 999]`, so the validity mask holds at `b` and the select keeps the gathered row; the gather reads the
  table's row `w` (its clamp into `[0, 999]` changes nothing) at lane `d`; and the field's table and index column are the stacked
  tables at field `o` and the index matrix's column `o`.  So the field's entry is `tables[o, w, d]`.
  The layout: column `q` of the result lies in block `q / 128` at lane `q % 128`, whichever of the two halves (the first sixteen
  blocks, the last ten) it falls in.
-/
import proofs.«206644_g35837207118489_cont_8to1_b_589_28_alg».proof.Proof.RefCat
import proofs.«206644_g35837207118489_cont_8to1_b_589_28_alg».proof.Proof.Spec
import Idealize.ShloMosaic.Lib.ReduceAll
import Idealize.ShloMosaic.Lib.ValueIdx
import Idealize.ShloMosaic.Lib.ValueLayout
import Idealize.ShloMosaic.Lib.Pipeline.Value

noncomputable section
namespace Cert.RefSide
open Cert.ReferenceIdeal Cert.ReferenceIdeal.Facts₀ Cert.ReferenceIdeal.Facts Idealize.ShloMosaic Idealize.ShloMosaic.ValueIdx
variable {F : FTy → Type} [FloatOps F] [Cert.ReferenceIdeal.Facts]

/-! ## A word in `[0, 999]` -/

section Word
variable {w : BitVec 32}

/-- Such a word reads the same signed and unsigned. -/
theorem toInt_of_lt (h : w.toNat < 1000) : w.toInt = (w.toNat : Int) :=
  BitVec.toInt_eq_toNat_of_lt (by omega)

theorem slt_zero_of_lt (h : w.toNat < 1000) : IntOp.cmpi .slt w 0#32 = 0#1 :=
  eq_zero_of_ne_one fun e => by
    have := IntOp.cmpi_slt.1 e
    rw [toInt_of_lt h, show (0#32 : BitVec 32).toInt = 0 from by decide] at this; omega

theorem sge_zero_of_lt (h : w.toNat < 1000) : IntOp.cmpi .sge w 0#32 = 1#1 :=
  IntOp.cmpi_sge.2 (by rw [toInt_of_lt h, show (0#32 : BitVec 32).toInt = 0 from by decide]; omega)

theorem sle_999_of_lt (h : w.toNat < 1000) : IntOp.cmpi .sle w 999#32 = 1#1 :=
  IntOp.cmpi_sle.2 (by rw [toInt_of_lt h, show (999#32 : BitVec 32).toInt = 999 from by decide]; omega)

end Word

/-! ## A conjunction of ones -/

/-- A conjunction, from 1, of bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduce by `and`, from 1, of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_one x _ fun i _ => hx i

/-! ## The gather of rows at an index -/

local notation "GD" => gather_S1000x128_S16384x1_S16384x128_1_0_n_n_0_1_1128

/-- The gather of rows read at `(b, d)`: the table at row `col[b, 0]` (read signed, clamped into `[0, 999]`), lane `d`. -/
theorem gather_row_apply {α : Type} (tab : S1000x128.Idx → α) (col : IVec S16384x1 32) (b : Fin 16384) (d : Fin 128) :
    Host.gather GD tab col (ix2 b d)
      = tab (ix2 ⟨min (col (ix2 b (0 : Fin 1))).toInt.toNat 999, by omega⟩ d) := by
  have h0 : (GD).start (ix2 b d) col (0 : Fin 2) + (GD).batchCoord (ix2 b d) (0 : Fin 2) + (GD).offCoord (ix2 b d) (0 : Fin 2)
      = min (col (ix2 b (0 : Fin 1))).toInt.toNat 999 := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (GD).startIndexMap from List.mem_singleton.mpr rfl)]
    have hsi : (GD).siIdx (ix2 b d) ⟨List.idxOf (0 : Fin 2) (GD).startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  have h1 : (GD).start (ix2 b d) col (1 : Fin 2) + (GD).batchCoord (ix2 b d) (1 : Fin 2) + (GD).offCoord (ix2 b d) (1 : Fin 2) = d.val := by
    rw [GatherDims.batchCoord_eq_zero _ _ _ List.not_mem_nil, Nat.add_zero]
    have hs : (GD).start (ix2 b d) col (1 : Fin 2) = 0 := by
      unfold GatherDims.start
      rw [dif_neg (show ¬ ((1 : Fin 2) ∈ (GD).startIndexMap) from by show (1 : Fin 2) ∉ [(0 : Fin 2)]; decide)]
    rw [hs, Nat.zero_add]
    unfold GatherDims.offCoord
    rw [dif_pos (show (1 : Fin 2) ∈ (GD).sKept from by show (1 : Fin 2) ∈ [(1 : Fin 2)]; decide)]
    rfl
  unfold Host.gather
  refine congrArg tab (funext fun a => Fin.ext ?_)
  match a with
  | ⟨0, _⟩ => exact h0
  | ⟨1, _⟩ => exact h1

/-! ## The row lookup at an index -/

/-- A word in range is not wrapped. -/
theorem wrapIdx_apply (idx : IVec S16384 32) (a : S16384.Idx) (h : (idx a).toNat < 1000) : wrapIdx idx a = idx a := by
  show Scalar.select (IntOp.cmpi .slt (idx a) 0#32) _ _ = _
  rw [slt_zero_of_lt h, select_zero]

/-- The index column's entry `(b, 0)` is the wrapped index of batch entry `b`. -/
theorem idxCol_apply (idx : IVec S16384 32) (i : S16384x1.Idx) :
    idxCol idx i = wrapIdx idx (ix1 ⟨(i 0).val, idx2_lt0 i⟩) :=
  broadcastInDim_apply _ _ _ _ _ (fun a => by match a with | ⟨0, _⟩ => rfl)

/-- Where every index is in range the mask holds everywhere. -/
theorem maskOf_apply (idx : IVec S16384 32) (hidx : ∀ a, (idx a).toNat < 1000) (a : S16384.Idx) : maskOf idx a = 1#1 :=
  reduce_andi_one _ _ _ _ _ rfl fun i => by
    show IntOp.andi (IntOp.cmpi .sge (idxCol idx i) 0#32) (IntOp.cmpi .sle (idxCol idx i) 999#32) = 1#1
    rw [idxCol_apply, wrapIdx_apply idx _ (hidx _), sge_zero_of_lt (hidx _), sle_999_of_lt (hidx _)]
    decide

/-- THE ROW LOOKUP AT `(b, d)`, every index in range: the table's row `idx[b]` at lane `d`. -/
theorem takeVal_apply (tab : FVec F S1000x128 .f32) (idx : IVec S16384 32) (hidx : ∀ a, (idx a).toNat < 1000)
    (b : Fin 16384) (d : Fin 128) :
    takeVal tab idx (ix2 b d) = tab (ix2 ⟨(idx (ix1 b)).toNat, hidx _⟩ d) := by
  have hm : broadcastInDim S16384x128 ![0] bcast_S16384_S16384x128_0 (maskOf idx) (ix2 b d) = 1#1 := by
    rw [broadcastInDim_apply _ _ _ (ix2 b d) (ix1 b) (fun a => by match a with | ⟨0, _⟩ => rfl)]
    exact maskOf_apply idx hidx _
  have hc : idxCol idx (ix2 b (0 : Fin 1)) = idx (ix1 b) := by
    rw [idxCol_apply]; exact wrapIdx_apply idx (ix1 b) (hidx _)
  unfold takeVal
  rw [select_apply, hm, select_one, gather_row_apply]
  refine congrArg tab (congrArg (fun r => ix2 r d) (Fin.ext ?_))
  show min (idxCol idx (ix2 b (0 : Fin 1))).toInt.toNat 999 = (idx (ix1 b)).toNat
  rw [hc, toInt_of_lt (hidx _), Int.toNat_natCast]
  have := hidx (ix1 b); omega

/-! ## One field at an index -/

/-- Field `o`'s table at `(r, d)` is the stacked tables at `(o, r, d)`. -/
theorem tabOf_apply (o : Fin 26) (hs : S26x1000x128.Slices ![o.val, 0, 0] S1x1000x128) (t : FVec F S26x1000x128 .f32)
    (r : Fin 1000) (d : Fin 128) : tabOf o.val hs t (ix2 r d) = t (ix3 o r d) := by
  unfold tabOf
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

/-- Field `o`'s index column at `b` is the index matrix at `(b, o)`. -/
theorem colOf_apply (o : Fin 26) (hs : S16384x26.Slices ![0, o.val] S16384x1) (x : IVec S16384x26 32) (b : Fin 16384) :
    colOf o.val hs x (ix1 b) = x (ix2 b o) := by
  unfold colOf
  rw [shapeCast_apply _ _ (ix1 b) (ix2 b (0 : Fin 1)) (by
    rw [Shape.rowMajor_val_two, Shape.rowMajor_val_one]
    show b.val * 1 + 0 = b.val
    omega)]
  exact slice2_axis1_apply o.val x hs b (0 : Fin 1) o rfl

/-- FIELD `o` AT `(b, d)`, every index in range: `tables[o, x[b, o], d]`. -/
theorem fieldG_apply (x : IVec S16384x26 32) (t : FVec F S26x1000x128 .f32) (hx : ∀ i, (x i).toNat < 1000)
    (o : Fin 26) (b : Fin 16384) (d : Fin 128) :
    fieldG x t o (ix2 b d) = t (ix3 o (Cert.Lookup.rowOf (x (ix2 b o))) d) := by
  have hidx : ∀ a, (colOf o.val (slX o) x a).toNat < 1000 := fun a => by
    obtain ⟨b', rfl⟩ : ∃ b' : Fin 16384, a = ix1 b' := ⟨a 0, eq_ix1 a⟩
    rw [colOf_apply]; exact hx _
  unfold fieldG fieldVal
  refine (takeVal_apply _ _ hidx b d).trans ((tabOf_apply o (slT o) t _ d).trans (congrArg t ?_))
  refine congrArg (fun r => ix3 o r d) (Fin.ext ?_)
  show (colOf o.val (slX o) x (ix1 b)).toNat = (x (ix2 b o)).toNat % 1000
  rw [colOf_apply, Nat.mod_eq_of_lt (hx _)]

/-! ## The 26 blocks side by side at an index -/

/-- COLUMN `q` OF THE RESULT lies in block `q / 128` at lane `q % 128`. -/
theorem catAll_apply (G : Fin 26 → FVec F S16384x128 .f32) (b : Fin 16384) (q : Fin 3328) :
    catAll G (ix2 b q) = G (Cert.Lookup.fieldOf q) (ix2 b (Cert.Lookup.laneOf q)) := by
  unfold catAll
  by_cases hq : q.val < 2048
  · -- the first sixteen blocks
    rw [concatenate_pair_apply_left (t := S16384x3328) (s₁ := S16384x2048) (s₂ := S16384x1280) (1 : Fin S16384x3328.rank) _ _ _ (ix2 b q) rfl (ix2 b (⟨q.val, hq⟩ : Fin 2048))
      (fun a => by match a with | ⟨0, _⟩ => rfl | ⟨1, _⟩ => rfl)]
    exact concatenate_ofFn_apply (t := S16384x2048) (s₁ := S16384x128) (1 : Fin S16384x2048.rank) (fun n : Fin 16 => G ⟨n.val, by have := n.isLt; omega⟩) _ rfl 128 rfl
      (ix2 b (⟨q.val, hq⟩ : Fin 2048)) ⟨q.val / 128, by omega⟩ rfl (ix2 b (Cert.Lookup.laneOf q)) rfl
      (fun a ha => by match a with | ⟨0, _⟩ => rfl | ⟨1, _⟩ => exact absurd rfl ha)
  · -- the last ten
    have hq' : q.val - 2048 < 1280 := by have := q.isLt; omega
    rw [concatenate_pair_apply_right (t := S16384x3328) (s₁ := S16384x2048) (s₂ := S16384x1280) (1 : Fin S16384x3328.rank) _ _ _ (ix2 b q) rfl rfl (ix2 b (⟨q.val - 2048, hq'⟩ : Fin 1280))
      (fun a ha => by match a with | ⟨0, _⟩ => rfl | ⟨1, _⟩ => exact absurd rfl ha)
      (by show q.val - 2048 + 2048 = q.val; omega)]
    refine (concatenate_ofFn_apply (t := S16384x1280) (s₁ := S16384x128) (1 : Fin S16384x1280.rank) (fun n : Fin 10 => G ⟨16 + n.val, by have := n.isLt; omega⟩) _ rfl 128 rfl
      (ix2 b (⟨q.val - 2048, hq'⟩ : Fin 1280)) ⟨(q.val - 2048) / 128, by omega⟩ rfl (ix2 b (Cert.Lookup.laneOf q))
      (by show q.val % 128 = (q.val - 2048) % 128; omega)
      (fun a ha => by match a with | ⟨0, _⟩ => rfl | ⟨1, _⟩ => exact absurd rfl ha)).trans ?_
    exact congrArg (fun o => G o (ix2 b (Cert.Lookup.laneOf q)))
      (Fin.ext (by show 16 + (q.val - 2048) / 128 = q.val / 128; omega))

/-- THE REFERENCE'S RESULT IS THE LOOKUP, where every index word lies in `[0, 999]`. -/
theorem catAll_fieldG (x : IVec S16384x26 32) (t : FVec F S26x1000x128 .f32) (hx : ∀ i, (x i).toNat < 1000) :
    catAll (fieldG x t) = Cert.Lookup.lookup x t := by
  funext j
  obtain ⟨b, q, rfl⟩ : ∃ (b : Fin 16384) (q : Fin 3328), j = ix2 b q := ⟨j 0, j 1, eq_ix2 j⟩
  rw [catAll_apply, fieldG_apply x t hx]
  rfl

end Cert.RefSide
end
-- ==== Proof.Range.lean ====
/-
  The precondition read back: where the input predicate is all ones, every index word of `x`, read unsigned, is below 1000.

  The predicate's second conjunct is the conjunction over all entries of `0 ≤ x[b, f]` and `x[b, f] ≤ 999`, both compares
  SIGNED.  A 32-bit word whose signed reading lies in `[0, 999]` has its top bit clear, so its unsigned reading is the same
  number, and is at most 999.
-/
import proofs.«206644_g35837207118489_cont_8to1_b_589_28_alg».proof.Pre_input_domain
import Idealize.ShloMosaic.Lib.ReduceAll
import Idealize.ShloMosaic.Lib.ValueIdx

namespace Cert.Lookup

open Idealize.ShloMosaic

/-- The rank-0 shape has one index. -/
instance : Subsingleton Cert.Pre_input_domain.S_.Idx := ⟨fun a b => funext fun d => d.elim0⟩

/-- A word whose signed reading lies in `[0, 999]` reads, unsigned, below 1000. -/
theorem toNat_lt_of_signed {w : BitVec 32} (h0 : (0#32 : BitVec 32).toInt ≤ w.toInt) (h1 : w.toInt ≤ (999#32 : BitVec 32).toInt) :
    w.toNat < 1000 := by
  have e0 : (0#32 : BitVec 32).toInt = 0 := by decide
  have e1 : (999#32 : BitVec 32).toInt = 999 := by decide
  rw [e0] at h0; rw [e1] at h1
  have := BitVec.toInt_eq_toNat_cond w
  split at this <;> omega

/-- Under the input predicate every index word is below 1000. -/
theorem range_of_pre {F : FTy → Type} [FloatOps F] [Cert.Pre_input_domain.Facts]
    (x : IVec Cert.Pre_input_domain.S16384x26 32) (t : FVec F Cert.Pre_input_domain.S26x1000x128 .f32)
    (h : Cert.Pre_input_domain.fn (F := F) x t = fun _ => 1#1) : ∀ i, (x i).toNat < 1000 := by
  intro i
  have h0 := congrFun h ValueIdx.ix0
  dsimp only [Cert.Pre_input_domain.fn] at h0
  obtain ⟨-, h9⟩ := IntOp.andi_eq_one.1 h0
  have h8 := Host.reduce_andi_all _ _ _ _ _ h9 i
  obtain ⟨h5, h7⟩ := IntOp.andi_eq_one.1 h8
  exact toNat_lt_of_signed (IntOp.cmpi_sge.1 h5) (IntOp.cmpi_sle.1 h7)

end Cert.Lookup
-- ==== Proof.RefRun.lean ====
/-
  The reference side of the certificate: under the input predicate the idealized reference runs to the end, leaves in its
  result buffer the lookup of its two argument arrays, and leaves the arguments as they were.

  The program is a straight line of host operations, so every execution ends with each buffer at the fold of the operations
  over the launch contents; that fold at the result buffer is the 26 fields' lookups laid side by side; the predicate puts every
  index word in `[0, 999]`; and there the 26 lookups side by side are the lookup function.
-/
import proofs.«206644_g35837207118489_cont_8to1_b_589_28_alg».proof.Defs
import proofs.«206644_g35837207118489_cont_8to1_b_589_28_alg».proof.Proof.RefOut
import proofs.«206644_g35837207118489_cont_8to1_b_589_28_alg».proof.Proof.RefValue
import proofs.«206644_g35837207118489_cont_8to1_b_589_28_alg».proof.Proof.Range

noncomputable section
namespace Cert.RefSide
open Idealize.ShloMosaic Idealize.ShloMosaic.TcCoe Idealize.SL.Sem Idealize.ShloMosaic.StableHlo

theorem run [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v132)
            = Cert.Lookup.lookup (m ((c.tc : Thread _ Cert.ReferenceIdeal.τ).loc Cert.ReferenceIdeal.main_arg0)) (m ((c.tc : Thread _ Cert.ReferenceIdeal.τ).loc Cert.ReferenceIdeal.main_arg1))
        ∧ r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)) :=
  (θ_run Cert.ReferenceIdeal.defs _ _).mono (fun _ h c =>
      ⟨(h c Cert.ReferenceIdeal.main_v132).trans ((out_eq _).trans
          (catAll_fieldG _ _ (Cert.Lookup.range_of_pre (F := Ideal) _ _ (hpre c)))),
        (h c Cert.ReferenceIdeal.main_arg0).trans (arg0_eq _),
        (h c Cert.ReferenceIdeal.main_arg1).trans (arg1_eq _)⟩)
    (run_ops m g)

end Cert.RefSide
end
-- ==== Proof.Assemble.lean ====
/-
  The certificate's five claims, from the two programs' runs.

  Each program's run gives more than its frame claim asks (the result too), so the frame claims are the runs with the result
  dropped; the precondition gives the runs their hypothesis (every index word below 1000).  The kernel and the reference
  both end with the lookup of their arguments in the result array, so from memories that agree on the arguments they end
  with equal results: the common value is the lookup of the kernel's arguments.
-/
import proofs.«206644_g35837207118489_cont_8to1_b_589_28_alg».proof.Defs
import proofs.«206644_g35837207118489_cont_8to1_b_589_28_alg».proof.Proof.Gen.Kernel
import proofs.«206644_g35837207118489_cont_8to1_b_589_28_alg».proof.Proof.Gen.KernelIdeal
import proofs.«206644_g35837207118489_cont_8to1_b_589_28_alg».proof.Proof.Gen.ReferenceIdeal
import proofs.«206644_g35837207118489_cont_8to1_b_589_28_alg».proof.Proof.Gen.Pre_input_domain
import proofs.«206644_g35837207118489_cont_8to1_b_589_28_alg».proof.Proof.Main
import proofs.«206644_g35837207118489_cont_8to1_b_589_28_alg».proof.Proof.KB.Main
import proofs.«206644_g35837207118489_cont_8to1_b_589_28_alg».proof.Proof.RefRun
import proofs.«206644_g35837207118489_cont_8to1_b_589_28_alg».proof.Proof.Range

noncomputable section

namespace Cert.Proof.Assemble

open Idealize.ShloMosaic Idealize.ShloMosaic.TcCoe Idealize.SL.Sem

/-- The kernel's run, as it is proved from the tile body's obligation: where every index word is below 1000, every
    execution ends with the result array at the lookup of the two arguments and the arguments unchanged. -/
def RunKB : Prop :=
  ∀ (m : (ℓ : Loc Cert.Kernel.nD Cert.Kernel.τ Cert.Kernel.sig) → Buf (Elt Bits) ℓ) (ρ : Dev Cert.Kernel.nD → PrngReg),
    Cert.Proof.KB.TileBody (F := Bits) →
    (∀ d j, (m ((SparseCore.T d).loc Cert.Kernel.main_arg0) j).toNat < 1000) →
    θ_run (Cert.Kernel.defs (F := Bits)) (Cert.Kernel.threads (F := Bits)) ⟨m, fun _ => 0, ρ⟩ (fun r => ∀ c : Dev Cert.Kernel.nD,
      r.2.mem ((c.tc : Thread Cert.Kernel.nD Cert.Kernel.τ).loc Cert.Kernel.main_v3) = Cert.Lookup.lookup (m ((c.tc : Thread Cert.Kernel.nD Cert.Kernel.τ).loc Cert.Kernel.main_arg0)) (m ((c.tc : Thread Cert.Kernel.nD Cert.Kernel.τ).loc Cert.Kernel.main_arg1))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

/-- The idealized kernel's run, as it is proved from the tile body's obligation: where every index word is below 1000, every
    execution ends with the result array at the lookup of the two arguments and the arguments unchanged. -/
def RunKI : Prop :=
  ∀ (m : (ℓ : Loc Cert.KernelIdeal.nD Cert.KernelIdeal.τ Cert.KernelIdeal.sig) → Buf (Elt Ideal) ℓ) (ρ : Dev Cert.KernelIdeal.nD → PrngReg),
    Cert.Proof.KI.TileBody (F := Ideal) →
    (∀ d j, (m ((SparseCore.T d).loc Cert.KernelIdeal.main_arg0) j).toNat < 1000) →
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v3) = Cert.Lookup.lookup (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

theorem runKB : RunKB := fun m ρ hb hp => Cert.Proof.KB.run_main (F := Bits) m ρ hb hp

theorem runKI : RunKI := fun m ρ hb hp => Cert.Proof.KI.run_main (F := Ideal) m ρ hb hp

theorem frame_Kernel (hKB : Cert.Proof.KB.TileBody (F := Bits)) : Cert.frame_Kernel := fun m ρ hpre =>
  (θ_run (Cert.Kernel.defs (F := Bits)) _ _).mono (fun _ h c => (h c).2)
    (runKB m ρ hKB fun d j => Cert.Lookup.range_of_pre (F := Bits) _ _ (hpre d) j)

theorem frame_KernelIdeal (hKI : Cert.Proof.KI.TileBody (F := Ideal)) : Cert.frame_KernelIdeal := fun m ρ hpre =>
  (θ_run (Cert.KernelIdeal.defs (F := Ideal)) _ _).mono (fun _ h c => (h c).2)
    (runKI m ρ hKI fun d j => Cert.Lookup.range_of_pre (F := Ideal) _ _ (hpre d) j)

theorem frame_ReferenceIdeal : Cert.frame_ReferenceIdeal := fun m ρ hpre =>
  (θ_run (Cert.ReferenceIdeal.defs (F := Ideal)) _ _).mono (fun _ h c => (h c).2) (Cert.RefSide.run m ρ hpre)

theorem preserves : Cert.preserves_Kernel_KernelIdeal := trivial

theorem algebraic (hKI : Cert.Proof.KI.TileBody (F := Ideal)) : Cert.algebraic_KernelIdeal_ReferenceIdeal := by
  intro m ρ m' ρ' hpre hagree
  have hpre' : Cert.Pre_ReferenceIdeal m' := fun c => by rw [(hagree c).1, (hagree c).2]; exact hpre c
  refine ⟨fun c => Cert.Lookup.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    runKI m ρ hKI fun d j => Cert.Lookup.range_of_pre (F := Ideal) _ _ (hpre d) j, ?_⟩
  refine (θ_run (Cert.ReferenceIdeal.defs (F := Ideal)) _ _).mono (fun _ h c => ⟨(h c).1.trans ?_, (h c).2⟩)
    (Cert.RefSide.run m' ρ' hpre')
  rw [(hagree c).1, (hagree c).2]

/-- Everything the certificate claims, from the two tile-body obligations. -/
theorem claim (hKB : Cert.Proof.KB.TileBody (F := Bits)) (hKI : Cert.Proof.KI.TileBody (F := Ideal)) : Cert.Claim :=
  ⟨inferInstance, inferInstance, inferInstance, inferInstance,
    frame_Kernel hKB, frame_KernelIdeal hKI, frame_ReferenceIdeal, preserves, algebraic hKI⟩

end Cert.Proof.Assemble

end
-- ==== Proof.Views.lean ====
/-
  The pieces of memory a tile's copies move, each spelt as the kernel program slices it, with the slot, the list's place, the table's
  first row and the result block's corner as parameters.

  A tile works through 416 chunks.  Chunk `n` belongs to field `n / 32` (of the SparseCore's thirteen) and to block `n % 32` of the
  tile's 1024 batch entries; it uses slot `n % 6` of the ring of six 32 × 128 buffers, and semaphore `n % 6` of the gathers' six and of the
  copy-outs' six.  Its 32 index words sit in the index scratch at `(n / 32 % 2) * 1024 + (n % 32) * 32`: the scratch has two halves of 1024
  words, and field `f` is fetched into half `f % 2`.  Its table is rows `1000 * (n / 32) … + 999` of the shared scratch, and its
  result block is rows `1024 s + 32 (n % 32) … + 31`, columns `128 (13 c + n / 32) … + 127` of the result, for tile `s` of SparseCore `c`.
-/
import proofs.«206644_g35837207118489_cont_8to1_b_589_28_alg».proof.Proof.Setup

noncomputable section

namespace Cert.Proof.KI

open Cert.KernelIdeal Cert.KernelIdeal.Gen
open Idealize.ShloMosaic

/-- Slot `s` of the ring lies inside the ring. -/
theorem slot_inb (s : ℕ) (h : s < 6) : ∀ a, (![s, 0, 0] : Fin 3 → Nat) a + S1x32x128.size a ≤ S6x32x128.size a := by
  intro a; fin_cases a <;> simp <;> omega
/-- Slot `s` of the ring, as a 32 × 128 buffer. -/
abbrev slotM (s : ℕ) (h : s < 6) : Memref sig .scVector .vmem S32x128 .f32 :=
  ((Memref.whole cc0_scratch2 : Memref sig .scVector .vmem S6x32x128 .f32).slice (Rect.unit (s := S6x32x128) ![s, 0, 0] S1x32x128.size (slot_inb s h)) (fun _ => rfl)).squeeze S32x128 squeezes_S1x32x128_S32x128

/-- Thirty-two words of the index scratch from place `o` lie inside it. -/
theorem list_inb (o : ℕ) (h : o + 32 ≤ 2048) : ∀ a, (![o] : Fin 1 → Nat) a + S32.size a ≤ S2048.size a := by
  intro a; fin_cases a; simp; omega
/-- The list of 32 index words at place `o` of the index scratch. -/
abbrev listM (o : ℕ) (h : o + 32 ≤ 2048) : Memref sig .scVector .vmem S32 .i32 :=
  (Memref.whole cc0_scratch1 : Memref sig .scVector .vmem S2048 .i32).slice (Rect.unit (s := S2048) ![o] S32.size (list_inb o h)) (fun _ => rfl)

/-- A half of the index scratch from place `o`. -/
theorem half_inb (o : ℕ) (h : o + 1024 ≤ 2048) : ∀ a, (![o] : Fin 1 → Nat) a + S1024.size a ≤ S2048.size a := by
  intro a; fin_cases a; simp; omega
abbrev halfM (o : ℕ) (h : o + 1024 ≤ 2048) : Memref sig .scVector .vmem S1024 .i32 :=
  (Memref.whole cc0_scratch1 : Memref sig .scVector .vmem S2048 .i32).slice (Rect.unit (s := S2048) ![o] S1024.size (half_inb o h)) (fun _ => rfl)

/-- A thousand rows of the shared scratch from row `r` lie inside it. -/
theorem tab_inb (r : ℕ) (h : r + 1000 ≤ 13000) : ∀ a, (![r, 0] : Fin 2 → Nat) a + S1000x128.size a ≤ S13000x128.size a := by
  intro a; fin_cases a <;> simp <;> omega
/-- The table at rows `r … r + 999` of the shared scratch, as the gathers name it (the program slices it twice). -/
abbrev tabM (r : ℕ) (h : r + 1000 ≤ 13000) : Memref sig .scVector .shared S1000x128 .f32 :=
  ((Memref.whole cc0_scratch0 : Memref sig .scVector .shared S13000x128 .f32).slice (Rect.unit (s := S13000x128) ![r, 0] S1000x128.size (tab_inb r h)) (fun _ => rfl)).slice
    (Rect.unit (s := S1000x128) ![0, 0] S1000x128.size inb_S1000x128_S1000x128_0_0) (fun _ => rfl)

/-- A 32 × 128 block of the result with corner `(r, c)` lies inside it. -/
theorem out_inb (r c : ℕ) (hr : r + 32 ≤ 16384) (hc : c + 128 ≤ 3328) : ∀ a, (![r, c] : Fin 2 → Nat) a + S32x128.size a ≤ S16384x3328.size a := by
  intro a; fin_cases a <;> simp <;> omega
/-- The result block with corner `(r, c)`. -/
abbrev outM (r c : ℕ) (hr : r + 32 ≤ 16384) (hc : c + 128 ≤ 3328) : Memref sig .scVector .hbm S32x128 .f32 :=
  (Memref.whole main_v3_scv : Memref sig .scVector .hbm S16384x3328 .f32).slice (Rect.unit (s := S16384x3328) ![r, c] S32x128.size (out_inb r c hr hc)) (fun _ => rfl)

/-- One of six semaphores. -/
theorem sem6_inb (s : ℕ) (h : s < 6) : ∀ a, (![s] : Fin 1 → Nat) a + S1.size a ≤ S6.size a := by
  intro a; fin_cases a; simp; omega
/-- The gathers' semaphore of slot `s`. -/
abbrev gsemM (s : ℕ) (h : s < 6) : DmaSems sig S_ := (cc0_scratch4.slice (Rect.unit (s := S6) ![s] S1.size (sem6_inb s h))).squeeze S_ squeezes_S1_S_
/-- The copy-outs' semaphore of slot `s`. -/
abbrev ssemM (s : ℕ) (h : s < 6) : DmaSems sig S_ := (cc0_scratch5.slice (Rect.unit (s := S6) ![s] S1.size (sem6_inb s h))).squeeze S_ squeezes_S1_S_
/-- One of the two semaphores of the index fetches. -/
theorem sem2_inb (p : ℕ) (h : p < 2) : ∀ a, (![p] : Fin 1 → Nat) a + S1.size a ≤ S2.size a := by
  intro a; fin_cases a; simp; omega
abbrev isemM (p : ℕ) (h : p < 2) : DmaSems sig S_ := (cc0_scratch3.slice (Rect.unit (s := S2) ![p] S1.size (sem2_inb p h))).squeeze S_ squeezes_S1_S_

end Cert.Proof.KI

end
-- ==== Proof.Offsets.lean ====
/-
  The addresses the tile's body computes, in closed form.

  The body addresses memory through chains of 32-bit word operations over the grid point `i = (c, s)` and the loop's trip
  `k` (0 ≤ k < 205; the trip runs the two chunks 2k + 6 and 2k + 7).  Every chain is, over these finite ranges, an
  arithmetic expression of the chunk number `n` it concerns:
    ring slot and ring semaphore             n % 6
    index words of chunk n                   (n / 32 % 2) * 1024 + (n % 32) * 32      (field n / 32, block n % 32)
    index half and its semaphore, field fl   fl % 2 * 1024   and   fl % 2
    result block of chunk n                  rows 1024 s + 32 (n % 32),  columns 128 (13 c + n / 32)
  No word operation overflows on these ranges, so each equation is checked by evaluating both sides at every trip (and
  grid point); one instance of the word constants a site passes per equation keeps every evaluation small.
  The conditions of the loop's two guarded steps are stated the same way, as conditions on the chunk number.
-/
import proofs.«206644_g35837207118489_cont_8to1_b_589_28_alg».proof.Proof.Setup

namespace Cert.Proof.KI

open Cert.KernelIdeal Cert.KernelIdeal.Gen
open Idealize.ShloMosaic

/-! ## Result blocks at literal chunks (before and after the loop): chunk `n` is rows `1024 s + 32 (n % 32)`, columns `128 (13 c + n / 32)` -/

/-- The result block of chunk 0 (block 0 of field 0). -/
theorem k0_off4_eq_0_0 : ∀ i : grid0.Coords, k0_off4 i 0#32 0#32 = ![1024 * (i 1).val + 0, 128 * (13 * (i 0).val + 0)] := by decide +kernel
instance closedOff_k0_off4_0_0 (i : grid0.Coords) : ClosedOff (k0_off4 i 0#32 0#32) := ⟨![1024 * (i 1).val + 0, 128 * (13 * (i 0).val + 0)], k0_off4_eq_0_0 i⟩
/-- The result block of chunk 1 (block 1 of field 0). -/
theorem k0_off4_eq_32_0 : ∀ i : grid0.Coords, k0_off4 i 32#32 0#32 = ![1024 * (i 1).val + 32, 128 * (13 * (i 0).val + 0)] := by decide +kernel
instance closedOff_k0_off4_32_0 (i : grid0.Coords) : ClosedOff (k0_off4 i 32#32 0#32) := ⟨![1024 * (i 1).val + 32, 128 * (13 * (i 0).val + 0)], k0_off4_eq_32_0 i⟩
/-- The result block of chunk 2 (block 2 of field 0). -/
theorem k0_off4_eq_64_0 : ∀ i : grid0.Coords, k0_off4 i 64#32 0#32 = ![1024 * (i 1).val + 64, 128 * (13 * (i 0).val + 0)] := by decide +kernel
instance closedOff_k0_off4_64_0 (i : grid0.Coords) : ClosedOff (k0_off4 i 64#32 0#32) := ⟨![1024 * (i 1).val + 64, 128 * (13 * (i 0).val + 0)], k0_off4_eq_64_0 i⟩
/-- The result block of chunk 410 (block 26 of field 12). -/
theorem k0_off4_eq_832_12 : ∀ i : grid0.Coords, k0_off4 i 832#32 12#32 = ![1024 * (i 1).val + 832, 128 * (13 * (i 0).val + 12)] := by decide +kernel
instance closedOff_k0_off4_832_12 (i : grid0.Coords) : ClosedOff (k0_off4 i 832#32 12#32) := ⟨![1024 * (i 1).val + 832, 128 * (13 * (i 0).val + 12)], k0_off4_eq_832_12 i⟩
/-- The result block of chunk 411 (block 27 of field 12). -/
theorem k0_off4_eq_864_12 : ∀ i : grid0.Coords, k0_off4 i 864#32 12#32 = ![1024 * (i 1).val + 864, 128 * (13 * (i 0).val + 12)] := by decide +kernel
instance closedOff_k0_off4_864_12 (i : grid0.Coords) : ClosedOff (k0_off4 i 864#32 12#32) := ⟨![1024 * (i 1).val + 864, 128 * (13 * (i 0).val + 12)], k0_off4_eq_864_12 i⟩
/-- The result block of chunk 412 (block 28 of field 12). -/
theorem k0_off4_eq_896_12 : ∀ i : grid0.Coords, k0_off4 i 896#32 12#32 = ![1024 * (i 1).val + 896, 128 * (13 * (i 0).val + 12)] := by decide +kernel
instance closedOff_k0_off4_896_12 (i : grid0.Coords) : ClosedOff (k0_off4 i 896#32 12#32) := ⟨![1024 * (i 1).val + 896, 128 * (13 * (i 0).val + 12)], k0_off4_eq_896_12 i⟩
/-- The result block of chunk 413 (block 29 of field 12). -/
theorem k0_off4_eq_928_12 : ∀ i : grid0.Coords, k0_off4 i 928#32 12#32 = ![1024 * (i 1).val + 928, 128 * (13 * (i 0).val + 12)] := by decide +kernel
instance closedOff_k0_off4_928_12 (i : grid0.Coords) : ClosedOff (k0_off4 i 928#32 12#32) := ⟨![1024 * (i 1).val + 928, 128 * (13 * (i 0).val + 12)], k0_off4_eq_928_12 i⟩
/-- The result block of chunk 414 (block 30 of field 12). -/
theorem k0_off4_eq_960_12 : ∀ i : grid0.Coords, k0_off4 i 960#32 12#32 = ![1024 * (i 1).val + 960, 128 * (13 * (i 0).val + 12)] := by decide +kernel
instance closedOff_k0_off4_960_12 (i : grid0.Coords) : ClosedOff (k0_off4 i 960#32 12#32) := ⟨![1024 * (i 1).val + 960, 128 * (13 * (i 0).val + 12)], k0_off4_eq_960_12 i⟩
/-- The result block of chunk 415 (block 31 of field 12). -/
theorem k0_off4_eq_992_12 : ∀ i : grid0.Coords, k0_off4 i 992#32 12#32 = ![1024 * (i 1).val + 992, 128 * (13 * (i 0).val + 12)] := by decide +kernel
instance closedOff_k0_off4_992_12 (i : grid0.Coords) : ClosedOff (k0_off4 i 992#32 12#32) := ⟨![1024 * (i 1).val + 992, 128 * (13 * (i 0).val + 12)], k0_off4_eq_992_12 i⟩

/-! ## The chunks whose gather is waited for and whose copy out is started (n = 2k + 3, 2k + 4) or waited for (n = 2k, 2k + 1) -/

/-- The ring slot of chunk `2k + 3`. -/
theorem k0_off5_eq_0_3 : ∀ k0_t1 : Fin k0_t1_loop.trips, k0_off5 k0_t1 0#32 3#32 = ![(2 * k0_t1.val + 3) % 6, 0, 0] := by decide +kernel
instance closedOff_k0_off5_0_3 (k0_t1 : Fin k0_t1_loop.trips) : ClosedOff (k0_off5 k0_t1 0#32 3#32) := ⟨![(2 * k0_t1.val + 3) % 6, 0, 0], k0_off5_eq_0_3 k0_t1⟩
/-- The ring slot of chunk `2k + 4`. -/
theorem k0_off5_eq_1_3 : ∀ k0_t1 : Fin k0_t1_loop.trips, k0_off5 k0_t1 1#32 3#32 = ![(2 * k0_t1.val + 4) % 6, 0, 0] := by decide +kernel
instance closedOff_k0_off5_1_3 (k0_t1 : Fin k0_t1_loop.trips) : ClosedOff (k0_off5 k0_t1 1#32 3#32) := ⟨![(2 * k0_t1.val + 4) % 6, 0, 0], k0_off5_eq_1_3 k0_t1⟩
/-- The ring slot of chunk `2k + 0`. -/
theorem k0_off5_eq_0_6 : ∀ k0_t1 : Fin k0_t1_loop.trips, k0_off5 k0_t1 0#32 6#32 = ![(2 * k0_t1.val + 0) % 6, 0, 0] := by decide +kernel
instance closedOff_k0_off5_0_6 (k0_t1 : Fin k0_t1_loop.trips) : ClosedOff (k0_off5 k0_t1 0#32 6#32) := ⟨![(2 * k0_t1.val + 0) % 6, 0, 0], k0_off5_eq_0_6 k0_t1⟩
/-- The ring slot of chunk `2k + 1`. -/
theorem k0_off5_eq_1_6 : ∀ k0_t1 : Fin k0_t1_loop.trips, k0_off5 k0_t1 1#32 6#32 = ![(2 * k0_t1.val + 1) % 6, 0, 0] := by decide +kernel
instance closedOff_k0_off5_1_6 (k0_t1 : Fin k0_t1_loop.trips) : ClosedOff (k0_off5 k0_t1 1#32 6#32) := ⟨![(2 * k0_t1.val + 1) % 6, 0, 0], k0_off5_eq_1_6 k0_t1⟩
/-- The index words of chunk `2k + 3`: half `(n / 32) % 2` of the index scratch, block `n % 32`. -/
theorem k0_off6_eq_0 : ∀ k0_t1 : Fin k0_t1_loop.trips, k0_off6 k0_t1 0#32 = ![(2 * k0_t1.val + 3) / 32 % 2 * 1024 + (2 * k0_t1.val + 3) % 32 * 32] := by decide +kernel
instance closedOff_k0_off6_0 (k0_t1 : Fin k0_t1_loop.trips) : ClosedOff (k0_off6 k0_t1 0#32) := ⟨![(2 * k0_t1.val + 3) / 32 % 2 * 1024 + (2 * k0_t1.val + 3) % 32 * 32], k0_off6_eq_0 k0_t1⟩
/-- The index words of chunk `2k + 4`: half `(n / 32) % 2` of the index scratch, block `n % 32`. -/
theorem k0_off6_eq_1 : ∀ k0_t1 : Fin k0_t1_loop.trips, k0_off6 k0_t1 1#32 = ![(2 * k0_t1.val + 4) / 32 % 2 * 1024 + (2 * k0_t1.val + 4) % 32 * 32] := by decide +kernel
instance closedOff_k0_off6_1 (k0_t1 : Fin k0_t1_loop.trips) : ClosedOff (k0_off6 k0_t1 1#32) := ⟨![(2 * k0_t1.val + 4) / 32 % 2 * 1024 + (2 * k0_t1.val + 4) % 32 * 32], k0_off6_eq_1 k0_t1⟩
/-- The ring semaphore of chunk `2k + 3`. -/
theorem k0_off8_eq_0_3 : ∀ k0_t1 : Fin k0_t1_loop.trips, k0_off8 k0_t1 0#32 3#32 = ![(2 * k0_t1.val + 3) % 6] := by decide +kernel
instance closedOff_k0_off8_0_3 (k0_t1 : Fin k0_t1_loop.trips) : ClosedOff (k0_off8 k0_t1 0#32 3#32) := ⟨![(2 * k0_t1.val + 3) % 6], k0_off8_eq_0_3 k0_t1⟩
/-- The ring semaphore of chunk `2k + 4`. -/
theorem k0_off8_eq_1_3 : ∀ k0_t1 : Fin k0_t1_loop.trips, k0_off8 k0_t1 1#32 3#32 = ![(2 * k0_t1.val + 4) % 6] := by decide +kernel
instance closedOff_k0_off8_1_3 (k0_t1 : Fin k0_t1_loop.trips) : ClosedOff (k0_off8 k0_t1 1#32 3#32) := ⟨![(2 * k0_t1.val + 4) % 6], k0_off8_eq_1_3 k0_t1⟩
/-- The ring semaphore of chunk `2k + 0`. -/
theorem k0_off8_eq_0_6 : ∀ k0_t1 : Fin k0_t1_loop.trips, k0_off8 k0_t1 0#32 6#32 = ![(2 * k0_t1.val + 0) % 6] := by decide +kernel
instance closedOff_k0_off8_0_6 (k0_t1 : Fin k0_t1_loop.trips) : ClosedOff (k0_off8 k0_t1 0#32 6#32) := ⟨![(2 * k0_t1.val + 0) % 6], k0_off8_eq_0_6 k0_t1⟩
/-- The ring semaphore of chunk `2k + 1`. -/
theorem k0_off8_eq_1_6 : ∀ k0_t1 : Fin k0_t1_loop.trips, k0_off8 k0_t1 1#32 6#32 = ![(2 * k0_t1.val + 1) % 6] := by decide +kernel
instance closedOff_k0_off8_1_6 (k0_t1 : Fin k0_t1_loop.trips) : ClosedOff (k0_off8 k0_t1 1#32 6#32) := ⟨![(2 * k0_t1.val + 1) % 6], k0_off8_eq_1_6 k0_t1⟩
/-- The result block of chunk `2k + 3`. -/
theorem k0_off9_eq_0_3 : ∀ (i : grid0.Coords) (k0_t1 : Fin k0_t1_loop.trips), k0_off9 i k0_t1 0#32 3#32 = ![1024 * (i 1).val + 32 * ((2 * k0_t1.val + 3) % 32), 128 * (13 * (i 0).val + (2 * k0_t1.val + 3) / 32)] := by decide +kernel
instance closedOff_k0_off9_0_3 (i : grid0.Coords) (k0_t1 : Fin k0_t1_loop.trips) : ClosedOff (k0_off9 i k0_t1 0#32 3#32) := ⟨![1024 * (i 1).val + 32 * ((2 * k0_t1.val + 3) % 32), 128 * (13 * (i 0).val + (2 * k0_t1.val + 3) / 32)], k0_off9_eq_0_3 i k0_t1⟩
/-- The result block of chunk `2k + 4`. -/
theorem k0_off9_eq_1_3 : ∀ (i : grid0.Coords) (k0_t1 : Fin k0_t1_loop.trips), k0_off9 i k0_t1 1#32 3#32 = ![1024 * (i 1).val + 32 * ((2 * k0_t1.val + 4) % 32), 128 * (13 * (i 0).val + (2 * k0_t1.val + 4) / 32)] := by decide +kernel
instance closedOff_k0_off9_1_3 (i : grid0.Coords) (k0_t1 : Fin k0_t1_loop.trips) : ClosedOff (k0_off9 i k0_t1 1#32 3#32) := ⟨![1024 * (i 1).val + 32 * ((2 * k0_t1.val + 4) % 32), 128 * (13 * (i 0).val + (2 * k0_t1.val + 4) / 32)], k0_off9_eq_1_3 i k0_t1⟩
/-- The result block of chunk `2k + 0`. -/
theorem k0_off9_eq_0_6 : ∀ (i : grid0.Coords) (k0_t1 : Fin k0_t1_loop.trips), k0_off9 i k0_t1 0#32 6#32 = ![1024 * (i 1).val + 32 * ((2 * k0_t1.val + 0) % 32), 128 * (13 * (i 0).val + (2 * k0_t1.val + 0) / 32)] := by decide +kernel
instance closedOff_k0_off9_0_6 (i : grid0.Coords) (k0_t1 : Fin k0_t1_loop.trips) : ClosedOff (k0_off9 i k0_t1 0#32 6#32) := ⟨![1024 * (i 1).val + 32 * ((2 * k0_t1.val + 0) % 32), 128 * (13 * (i 0).val + (2 * k0_t1.val + 0) / 32)], k0_off9_eq_0_6 i k0_t1⟩
/-- The result block of chunk `2k + 1`. -/
theorem k0_off9_eq_1_6 : ∀ (i : grid0.Coords) (k0_t1 : Fin k0_t1_loop.trips), k0_off9 i k0_t1 1#32 6#32 = ![1024 * (i 1).val + 32 * ((2 * k0_t1.val + 1) % 32), 128 * (13 * (i 0).val + (2 * k0_t1.val + 1) / 32)] := by decide +kernel
instance closedOff_k0_off9_1_6 (i : grid0.Coords) (k0_t1 : Fin k0_t1_loop.trips) : ClosedOff (k0_off9 i k0_t1 1#32 6#32) := ⟨![1024 * (i 1).val + 32 * ((2 * k0_t1.val + 1) % 32), 128 * (13 * (i 0).val + (2 * k0_t1.val + 1) / 32)], k0_off9_eq_1_6 i k0_t1⟩

/-! ## The index columns: the next field's is fetched into the other half, the current field's is waited for -/

/-- The half of the index scratch that field `(2k + 6) / 32 + 1`'s column is fetched into. -/
theorem k0_off10_eq : ∀ k0_t1 : Fin k0_t1_loop.trips, k0_off10 k0_t1 = ![((2 * k0_t1.val + 6) / 32 + 1) % 2 * 1024] := by decide +kernel
instance closedOff_k0_off10 (k0_t1 : Fin k0_t1_loop.trips) : ClosedOff (k0_off10 k0_t1) := ⟨![((2 * k0_t1.val + 6) / 32 + 1) % 2 * 1024], k0_off10_eq k0_t1⟩
/-- The semaphore of that fetch. -/
theorem k0_off12_eq : ∀ k0_t1 : Fin k0_t1_loop.trips, k0_off12 k0_t1 = ![((2 * k0_t1.val + 6) / 32 + 1) % 2] := by decide +kernel
instance closedOff_k0_off12 (k0_t1 : Fin k0_t1_loop.trips) : ClosedOff (k0_off12 k0_t1) := ⟨![((2 * k0_t1.val + 6) / 32 + 1) % 2], k0_off12_eq k0_t1⟩
/-- The half of the index scratch that holds field `(2k + 6) / 32`'s column. -/
theorem k0_off13_eq : ∀ k0_t1 : Fin k0_t1_loop.trips, k0_off13 k0_t1 = ![((2 * k0_t1.val + 6) / 32) % 2 * 1024] := by decide +kernel
instance closedOff_k0_off13 (k0_t1 : Fin k0_t1_loop.trips) : ClosedOff (k0_off13 k0_t1) := ⟨![((2 * k0_t1.val + 6) / 32) % 2 * 1024], k0_off13_eq k0_t1⟩
/-- The semaphore that column's fetch is waited on. -/
theorem k0_off15_eq : ∀ k0_t1 : Fin k0_t1_loop.trips, k0_off15 k0_t1 = ![((2 * k0_t1.val + 6) / 32) % 2] := by decide +kernel
instance closedOff_k0_off15 (k0_t1 : Fin k0_t1_loop.trips) : ClosedOff (k0_off15 k0_t1) := ⟨![((2 * k0_t1.val + 6) / 32) % 2], k0_off15_eq k0_t1⟩

/-! ## The chunks whose gather is started (n = 2k + 6, 2k + 7) -/

/-- The ring slot of chunk `2k + 6`. -/
theorem k0_off16_eq_0 : ∀ k0_t1 : Fin k0_t1_loop.trips, k0_off16 k0_t1 0#32 = ![(2 * k0_t1.val + 6) % 6, 0, 0] := by decide +kernel
instance closedOff_k0_off16_0 (k0_t1 : Fin k0_t1_loop.trips) : ClosedOff (k0_off16 k0_t1 0#32) := ⟨![(2 * k0_t1.val + 6) % 6, 0, 0], k0_off16_eq_0 k0_t1⟩
/-- The index words of chunk `2k + 6`. -/
theorem k0_off17_eq_0 : ∀ k0_t1 : Fin k0_t1_loop.trips, k0_off17 k0_t1 0#32 = ![(2 * k0_t1.val + 6) / 32 % 2 * 1024 + (2 * k0_t1.val + 6) % 32 * 32] := by decide +kernel
instance closedOff_k0_off17_0 (k0_t1 : Fin k0_t1_loop.trips) : ClosedOff (k0_off17 k0_t1 0#32) := ⟨![(2 * k0_t1.val + 6) / 32 % 2 * 1024 + (2 * k0_t1.val + 6) % 32 * 32], k0_off17_eq_0 k0_t1⟩
/-- The ring semaphore of chunk `2k + 6`. -/
theorem k0_off19_eq_0 : ∀ k0_t1 : Fin k0_t1_loop.trips, k0_off19 k0_t1 0#32 = ![(2 * k0_t1.val + 6) % 6] := by decide +kernel
instance closedOff_k0_off19_0 (k0_t1 : Fin k0_t1_loop.trips) : ClosedOff (k0_off19 k0_t1 0#32) := ⟨![(2 * k0_t1.val + 6) % 6], k0_off19_eq_0 k0_t1⟩
/-- The ring slot of chunk `2k + 7`. -/
theorem k0_off16_eq_1 : ∀ k0_t1 : Fin k0_t1_loop.trips, k0_off16 k0_t1 1#32 = ![(2 * k0_t1.val + 7) % 6, 0, 0] := by decide +kernel
instance closedOff_k0_off16_1 (k0_t1 : Fin k0_t1_loop.trips) : ClosedOff (k0_off16 k0_t1 1#32) := ⟨![(2 * k0_t1.val + 7) % 6, 0, 0], k0_off16_eq_1 k0_t1⟩
/-- The index words of chunk `2k + 7`. -/
theorem k0_off17_eq_1 : ∀ k0_t1 : Fin k0_t1_loop.trips, k0_off17 k0_t1 1#32 = ![(2 * k0_t1.val + 7) / 32 % 2 * 1024 + (2 * k0_t1.val + 7) % 32 * 32] := by decide +kernel
instance closedOff_k0_off17_1 (k0_t1 : Fin k0_t1_loop.trips) : ClosedOff (k0_off17 k0_t1 1#32) := ⟨![(2 * k0_t1.val + 7) / 32 % 2 * 1024 + (2 * k0_t1.val + 7) % 32 * 32], k0_off17_eq_1 k0_t1⟩
/-- The ring semaphore of chunk `2k + 7`. -/
theorem k0_off19_eq_1 : ∀ k0_t1 : Fin k0_t1_loop.trips, k0_off19 k0_t1 1#32 = ![(2 * k0_t1.val + 7) % 6] := by decide +kernel
instance closedOff_k0_off19_1 (k0_t1 : Fin k0_t1_loop.trips) : ClosedOff (k0_off19 k0_t1 1#32) := ⟨![(2 * k0_t1.val + 7) % 6], k0_off19_eq_1 k0_t1⟩

/-! ## The same two guarded steps at the odd chunk 2k + 7 (their conditions never hold: see below) -/

/-- The half of the index scratch for field `(2k + 7) / 32 + 1`. -/
theorem k0_off20_eq : ∀ k0_t1 : Fin k0_t1_loop.trips, k0_off20 k0_t1 = ![((2 * k0_t1.val + 7) / 32 + 1) % 2 * 1024] := by decide +kernel
instance closedOff_k0_off20 (k0_t1 : Fin k0_t1_loop.trips) : ClosedOff (k0_off20 k0_t1) := ⟨![((2 * k0_t1.val + 7) / 32 + 1) % 2 * 1024], k0_off20_eq k0_t1⟩
/-- Its semaphore. -/
theorem k0_off22_eq : ∀ k0_t1 : Fin k0_t1_loop.trips, k0_off22 k0_t1 = ![((2 * k0_t1.val + 7) / 32 + 1) % 2] := by decide +kernel
instance closedOff_k0_off22 (k0_t1 : Fin k0_t1_loop.trips) : ClosedOff (k0_off22 k0_t1) := ⟨![((2 * k0_t1.val + 7) / 32 + 1) % 2], k0_off22_eq k0_t1⟩
/-- The half of the index scratch for field `(2k + 7) / 32`. -/
theorem k0_off23_eq : ∀ k0_t1 : Fin k0_t1_loop.trips, k0_off23 k0_t1 = ![((2 * k0_t1.val + 7) / 32) % 2 * 1024] := by decide +kernel
instance closedOff_k0_off23 (k0_t1 : Fin k0_t1_loop.trips) : ClosedOff (k0_off23 k0_t1) := ⟨![((2 * k0_t1.val + 7) / 32) % 2 * 1024], k0_off23_eq k0_t1⟩
/-- Its semaphore. -/
theorem k0_off25_eq : ∀ k0_t1 : Fin k0_t1_loop.trips, k0_off25 k0_t1 = ![((2 * k0_t1.val + 7) / 32) % 2] := by decide +kernel
instance closedOff_k0_off25 (k0_t1 : Fin k0_t1_loop.trips) : ClosedOff (k0_off25 k0_t1) := ⟨![((2 * k0_t1.val + 7) / 32) % 2], k0_off25_eq k0_t1⟩

/-! ## The conditions

Chunk `n = 2k + 6` has block `n % 32` and field `n / 32`.  The next field's index column is fetched at block 2 of every field
but the first and the last; the current field's column is waited for at block 0 of every field but the first.  The odd chunk
`2k + 7` is never at an even block, so neither step runs for it.  The tables are staged by the first thirteen tiles. -/

theorem k0_cond1_eq : ∀ i : grid0.Coords, k0_cond1 i = 1#1 ↔ (i 1).val < 13 := by decide +kernel
theorem k0_cond2_eq : ∀ k0_t1 : Fin k0_t1_loop.trips, k0_cond2 k0_t1 = 1#1 ↔ (2 * k0_t1.val + 6) % 32 = 2 ∧ 1 ≤ (2 * k0_t1.val + 6) / 32 ∧ (2 * k0_t1.val + 6) / 32 < 12 := by decide +kernel
theorem k0_cond3_eq : ∀ k0_t1 : Fin k0_t1_loop.trips, k0_cond3 k0_t1 = 1#1 ↔ (2 * k0_t1.val + 6) % 32 = 0 ∧ 1 ≤ (2 * k0_t1.val + 6) / 32 := by decide +kernel
theorem k0_cond4_ne : ∀ k0_t1 : Fin k0_t1_loop.trips, k0_cond4 k0_t1 ≠ 1#1 := by decide +kernel
theorem k0_cond5_ne : ∀ k0_t1 : Fin k0_t1_loop.trips, k0_cond5 k0_t1 ≠ 1#1 := by decide +kernel

end Cert.Proof.KI
-- ==== Proof.BodyHead.lean ====
/-
  The head of a tile's body — the first index fetch, the staging of one table, the subcore barrier, the second index fetch —
  and the wrapping of the body: what the tile holds when the head has run, what it must hold when the kernel returns, the
  rest of the kernel as a program of its own, and the body's obligation from the obligation of that rest.

  Before the barrier a staging tile copies its table's thousand rows from the flattened tables into the shared scratch and
  waits for them; at the barrier it hands a sixteenth share of those rows, at the contents copied, to each tile of its
  SparseCore, and every tile receives thirteen such shares, one per table: together the whole scratch at its sixteenth
  share, at the rows of the flattened tables that belong to the SparseCore.  After the barrier the first index column has
  landed in the first half of the index scratch and the second is on its way into the second half.
-/
import proofs.«206644_g35837207118489_cont_8to1_b_589_28_alg».proof.Proof.Pay
import proofs.«206644_g35837207118489_cont_8to1_b_589_28_alg».proof.Proof.Split
import proofs.«206644_g35837207118489_cont_8to1_b_589_28_alg».proof.Proof.Views
import proofs.«206644_g35837207118489_cont_8to1_b_589_28_alg».proof.Proof.Offsets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-! ## The rest of the kernel after its first part -/

/-- The kernel's second-level part after its first part has returned `⟨v0, v1, c0_i32_11⟩`: the same statements, in the
    same words. -/
noncomputable def part22Rest (i : grid0.Coords) (arg2 : Memref sig .scVector .hbm S425984 .i32) (harg2 : arg2.IsWhole) (arg3 : Memref sig .scVector .hbm S26000x128 .f32) (harg3 : arg3.IsWhole) (arg4 : Memref sig .scVector .hbm S16384x3328 .f32) (harg4 : arg4.IsWhole) (arg5 : Memref sig .scVector .shared S13000x128 .f32) (harg5 : arg5.IsWhole) (arg6 : Memref sig .scVector .vmem S2048 .i32) (harg6 : arg6.IsWhole) (arg7 : Memref sig .scVector .vmem S6x32x128 .f32) (harg7 : arg7.IsWhole) (arg8 : DmaSems sig S2) (arg9 : DmaSems sig S6) (arg10 : DmaSems sig S6) (v270_r0 : DmaSems sig S_) (v0 v1 c0_i32_11 : BitVec 32) :
    Prog (TpuEff nD τ sig (Elt F) Λ₀ (.scVector ((i 0).castLE hcore0) ((i 1).castLE hsub0))) PUnit := do
  k0_part15 i arg2 harg2 arg3 harg3 arg4 harg4 arg5 harg5 arg6 harg6 arg7 harg7 arg8 arg9 arg10 v270_r0 c0_i32_11
  k0_part16 i arg2 harg2 arg3 harg3 arg4 harg4 arg5 harg5 arg6 harg6 arg7 harg7 arg8 arg9 arg10 v270_r0 v0 v1
  k0_part17 i arg2 harg2 arg3 harg3 arg4 harg4 arg5 harg5 arg6 harg6 arg7 harg7 arg8 arg9 arg10 v270_r0 v0 v1
  k0_part18 i arg2 harg2 arg3 harg3 arg4 harg4 arg5 harg5 arg6 harg6 arg7 harg7 arg8 arg9 arg10 v270_r0 v0 v1
  k0_part19 i arg2 harg2 arg3 harg3 arg4 harg4 arg5 harg5 arg6 harg6 arg7 harg7 arg8 arg9 arg10 v270_r0 v0 v1
  k0_part20 i arg2 harg2 arg3 harg3 arg4 harg4 arg5 harg5 arg6 harg6 arg7 harg7 arg8 arg9 arg10 v270_r0 v0 v1
  k0_part21 i arg2 harg2 arg3 harg3 arg4 harg4 arg5 harg5 arg6 harg6 arg7 harg7 arg8 arg9 arg10 v270_r0 v0 v1
  let v238 : DmaSems sig S1 := arg10.slice (Rect.unit (s := S6) ![5] S1.size inb_S6_S1_5)
  let v239 : DmaSems sig S_ := v238.squeeze S_ squeezes_S1_S_
  let v240 : Memref sig .scVector .hbm S32x128 .f32 := arg4.slice (Rect.unit (s := S16384x3328) (k0_off4 i 928#32 12#32) S32x128.size (k0_off4_inb i 3)) (fun _ => rfl)
  let v241 : Memref sig .scVector .vmem S1x32x128 .f32 := arg7.slice (Rect.unit (s := S6x32x128) ![5, 0, 0] S1x32x128.size inb_S6x32x128_S1x32x128_5_0_0) (fun _ => rfl)
  let v242 : Memref sig .scVector .vmem S32x128 .f32 := v241.squeeze S32x128 squeezes_S1x32x128_S32x128
  Prog.lift (.waitDma2 v239.sem v242 v240 ((View.wordExact_bits rfl).reshape _ _) (View.wordExact_bits rfl))
  let v249 : DmaSems sig S1 := arg10.slice (Rect.unit (s := S6) ![0] S1.size inb_S6_S1_0)
  let v250 : DmaSems sig S_ := v249.squeeze S_ squeezes_S1_S_
  let v251 : Memref sig .scVector .hbm S32x128 .f32 := arg4.slice (Rect.unit (s := S16384x3328) (k0_off4 i 960#32 12#32) S32x128.size (k0_off4_inb i 4)) (fun _ => rfl)
  let v252 : Memref sig .scVector .vmem S1x32x128 .f32 := arg7.slice (Rect.unit (s := S6x32x128) ![0, 0, 0] S1x32x128.size inb_S6x32x128_S1x32x128_0_0_0) (fun _ => rfl)
  let v253 : Memref sig .scVector .vmem S32x128 .f32 := v252.squeeze S32x128 squeezes_S1x32x128_S32x128
  Prog.lift (.waitDma2 v250.sem v253 v251 ((View.wordExact_bits rfl).reshape _ _) (View.wordExact_bits rfl))
  pure ⟨⟩

/-- The kernel after that part: the last wait and the return. -/
noncomputable def kernelRest (i : grid0.Coords) (arg2 : Memref sig .scVector .hbm S425984 .i32) (harg2 : arg2.IsWhole) (arg3 : Memref sig .scVector .hbm S26000x128 .f32) (harg3 : arg3.IsWhole) (arg4 : Memref sig .scVector .hbm S16384x3328 .f32) (harg4 : arg4.IsWhole) (arg5 : Memref sig .scVector .shared S13000x128 .f32) (harg5 : arg5.IsWhole) (arg6 : Memref sig .scVector .vmem S2048 .i32) (harg6 : arg6.IsWhole) (arg7 : Memref sig .scVector .vmem S6x32x128 .f32) (harg7 : arg7.IsWhole) (arg8 : DmaSems sig S2) (arg9 : DmaSems sig S6) (arg10 : DmaSems sig S6) (v270_r0 : DmaSems sig S_) :
    Prog (TpuEff nD τ sig (Elt F) Λ₀ (.scVector ((i 0).castLE hcore0) ((i 1).castLE hsub0))) PUnit := do
  let v263 : Memref sig .scVector .vmem S1x32x128 .f32 := arg7.slice (Rect.unit (s := S6x32x128) ![1, 0, 0] S1x32x128.size inb_S6x32x128_S1x32x128_1_0_0) (fun _ => rfl)
  let v264 : Memref sig .scVector .vmem S32x128 .f32 := v263.squeeze S32x128 squeezes_S1x32x128_S32x128
  let v260 : DmaSems sig S1 := arg10.slice (Rect.unit (s := S6) ![1] S1.size inb_S6_S1_1)
  let v261 : DmaSems sig S_ := v260.squeeze S_ squeezes_S1_S_
  let v262 : Memref sig .scVector .hbm S32x128 .f32 := arg4.slice (Rect.unit (s := S16384x3328) (k0_off4 i 992#32 12#32) S32x128.size (k0_off4_inb i 5)) (fun _ => rfl)
  Prog.lift (.waitDma2 v261.sem v264 v262 ((View.wordExact_bits rfl).reshape _ _) (View.wordExact_bits rfl))
  pure ⟨⟩

/-- The whole rest of tile `L`'s kernel, on the arrays and scratch the body table passes. -/
noncomputable def tailProg (L : grid0.Coords) (v0 v1 c : BitVec 32) : Prog (TpuEff nD τ sig (Elt F) Λ₀ (.scVector (cV L) (jV L))) PUnit :=
  part22Rest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 v0 v1 c >>= fun _ =>
    kernelRest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0

/-- The kernel is its first part followed by the rest. -/
theorem kernel_eq_head_tail (L : grid0.Coords) :
    cc0__gather_kernel (F := F) L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0
      = (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 >>= fun r => part22Rest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 r.1 r.2.1 r.2.2)
          >>= fun _ => kernelRest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 := rfl

/-! ## Views the head leaves in use -/

variable (d : Dev nD) (L : grid0.Coords)

/-- The second half of the index scratch, and the second index column of the tile in the flattened columns, as the
    program slices them. -/
abbrev halfB : Memref sig .scVector .vmem S1024 .i32 := (ixsV).slice (Rect.unit (s := S2048) ![1024] S1024.size inb_S2048_S1024_1024) (fun _ => rfl)
abbrev halfA : Memref sig .scVector .vmem S1024 .i32 := (ixsV).slice (Rect.unit (s := S2048) ![0] S1024.size inb_S2048_S1024_0) (fun _ => rfl)
abbrev colM (r : Fin 2) : Memref sig .scVector .hbm S1024 .i32 :=
  (xfV).slice (Rect.unit (s := S425984) (k0_off1 L (BitVec.ofNat 32 r.val)) S1024.size (k0_off1_inb L r)) (fun _ => rfl)

/-- The tile's own buffers other than its two scratch buffers, each at some contents: handed back untouched. -/
def restBufs : sProp 𝕄 :=
  bigSep (((ownRefs (τ := τ) (.scVector (cV L) (jV L))).erase ((Proc.scVector (cV L) (jV L)).devRef cc0_scratch1)).erase ((Proc.scVector (cV L) (jV L)).devRef cc0_scratch2))
    fun b => iprop(∃ f, ((d, b) : Loc nD τ sig) ↦{fullShare} f)

/-- Word `16384 (13 c + p) + 1024 s + y` of the flattened columns: entry `y` of the tile's index column of field `p`. -/
theorem colIx_lt (p : ℕ) (hp : p < 13) (y : S1024.Idx) : 16384 * (13 * (L 0).val + p) + 1024 * (L 1).val + (y 0).val < 425984 := by
  have h0 : (L 0).val < 2 := (L 0).isLt
  have h1 : (L 1).val < 16 := (L 1).isLt
  have hy : (y 0).val < 1024 := (y 0).isLt
  omega

/-! ## What the tile holds when the head has run -/

/-- After the head: the waits' evidence at what the tile still owes; what it owes; the shared scratch whole at the tile's
    sixteenth share, staged; the tables' share back; the index columns' share but the second column's words, which the
    second fetch holds in flight with the second half of the index scratch; the rest of the index scratch, whose first half
    holds the tile's first index column; the ring; the tile's rectangle of the result; every semaphore but the second
    fetch's at zero; the rest of the tile's buffers. -/
def HeadPost (X : Buf (Elt F) (ixLoc d)) (Tb : Buf (Elt F) (tbLoc d)) (f0 : Buf (Elt F) (outLoc d))
    (O : CellTallies nD τ sig (HIx 1)) (W : Waits sig (HIx 1)) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ ((spV).view.loc (V d (cV L) (jV L)) ↦{shq (jV L)} spVal Tb (cV L))
    ∗ ((tbV).view.loc (V d (cV L) (jV L)) ↦{shareOf L} Tb)
    ∗ ((xfV).view.loc (V d (cV L) (jV L)) ↦[Finset.univ \ (colM L 1).view.set]{shareOf L} X)
    ∗ (∃ fi : Buf (Elt F) ((V d (cV L) (jV L)).loc cc0_scratch1),
        ⌜(∀ y : S1024.Idx, (halfA).view.read (Elt F) fi y = X (ix1 (n := 425984) ⟨16384 * (13 * (L 0).val + 0) + 1024 * (L 1).val + (y 0).val, colIx_lt L 0 (by decide) y⟩))
          ∧ (∀ y : S1024.Idx, (halfB).view.read (Elt F) fi y = X (ix1 (n := 425984) ⟨16384 * (13 * (L 0).val + 1) + 1024 * (L 1).val + (y 0).val, colIx_lt L 1 (by decide) y⟩))⌝
        ∗ ((ixsV).view.loc (V d (cV L) (jV L)) ↦[Finset.univ \ (halfB).view.set]{fullShare} fi)
        ∗ Transfers.Flight countersEmb (V d (cV L) (jV L)) (SemLoc.dma ((cc0_scratch3.slice (Rect.unit (s := S2) ![1] S1.size inb_S2_S1_1)).squeeze S_ squeezes_S1_S_).sem) (default : HIx 1) 32768
            iprop(((ixsV).view.loc (V d (cV L) (jV L)) ↦[(halfB).view.set]{fullShare} fi)
              ∗ ((xfV).view.loc (V d (cV L) (jV L)) ↦[(colM L 1).view.set]{shareOf L} X)))
    ∗ (∃ fb, (bufV).view.loc (V d (cV L) (jV L)) ↦{fullShare} fb)
    ∗ ((outV).view.loc (V d (cV L) (jV L)) ↦[outSet L]{fullShare} f0)
    ∗ semVal ((V d (cV L) (jV L)), SemLoc.dma ((cc0_scratch3.slice (Rect.unit (s := S2) ![0] S1.size inb_S2_S1_0)).squeeze S_ squeezes_S1_S_).sem) 0
    ∗ semVal ((V d (cV L) (jV L)), SemLoc.dma ((cc0_scratch4.slice (Rect.unit (s := S6) ![0] S1.size inb_S6_S1_0)).squeeze S_ squeezes_S1_S_).sem) 0
    ∗ semVal ((V d (cV L) (jV L)), SemLoc.dma ((cc0_scratch4.slice (Rect.unit (s := S6) ![1] S1.size inb_S6_S1_1)).squeeze S_ squeezes_S1_S_).sem) 0
    ∗ semVal ((V d (cV L) (jV L)), SemLoc.dma ((cc0_scratch4.slice (Rect.unit (s := S6) ![2] S1.size inb_S6_S1_2)).squeeze S_ squeezes_S1_S_).sem) 0
    ∗ semVal ((V d (cV L) (jV L)), SemLoc.dma ((cc0_scratch4.slice (Rect.unit (s := S6) ![3] S1.size inb_S6_S1_3)).squeeze S_ squeezes_S1_S_).sem) 0
    ∗ semVal ((V d (cV L) (jV L)), SemLoc.dma ((cc0_scratch4.slice (Rect.unit (s := S6) ![4] S1.size inb_S6_S1_4)).squeeze S_ squeezes_S1_S_).sem) 0
    ∗ semVal ((V d (cV L) (jV L)), SemLoc.dma ((cc0_scratch4.slice (Rect.unit (s := S6) ![5] S1.size inb_S6_S1_5)).squeeze S_ squeezes_S1_S_).sem) 0
    ∗ semVal ((V d (cV L) (jV L)), SemLoc.dma ((cc0_scratch5.slice (Rect.unit (s := S6) ![0] S1.size inb_S6_S1_0)).squeeze S_ squeezes_S1_S_).sem) 0
    ∗ semVal ((V d (cV L) (jV L)), SemLoc.dma ((cc0_scratch5.slice (Rect.unit (s := S6) ![1] S1.size inb_S6_S1_1)).squeeze S_ squeezes_S1_S_).sem) 0
    ∗ semVal ((V d (cV L) (jV L)), SemLoc.dma ((cc0_scratch5.slice (Rect.unit (s := S6) ![2] S1.size inb_S6_S1_2)).squeeze S_ squeezes_S1_S_).sem) 0
    ∗ semVal ((V d (cV L) (jV L)), SemLoc.dma ((cc0_scratch5.slice (Rect.unit (s := S6) ![3] S1.size inb_S6_S1_3)).squeeze S_ squeezes_S1_S_).sem) 0
    ∗ semVal ((V d (cV L) (jV L)), SemLoc.dma ((cc0_scratch5.slice (Rect.unit (s := S6) ![4] S1.size inb_S6_S1_4)).squeeze S_ squeezes_S1_S_).sem) 0
    ∗ semVal ((V d (cV L) (jV L)), SemLoc.dma ((cc0_scratch5.slice (Rect.unit (s := S6) ![5] S1.size inb_S6_S1_5)).squeeze S_ squeezes_S1_S_).sem) 0
    ∗ semVal ((V d (cV L) (jV L)), SemLoc.dma cc0_scoped0.sem) 0
    ∗ restBufs d L)

/-! ## What the tile must hold when the kernel returns -/

def EndPost (X : Buf (Elt F) (ixLoc d)) (Tb : Buf (Elt F) (tbLoc d))
    (O : CellTallies nD τ sig (HIx 1)) (W : Waits sig (HIx 1)) : sProp 𝕄 :=
  iprop((∃ W', ⌜∀ p ∈ W', p ∈ W ∨ p.2 = none ∨ p.2 = some (0 : Fin 1)⌝ ∗ owes (V d (cV L) (jV L)) O W')
    ∗ ((xfV).view.loc (V d (cV L) (jV L)) ↦{shareOf L} X)
    ∗ ((tbV).view.loc (V d (cV L) (jV L)) ↦{shareOf L} Tb)
    ∗ ((spV).view.loc (V d (cV L) (jV L)) ↦{shq (jV L)} spVal Tb (cV L))
    ∗ (∃ fi, (ixsV).view.loc (V d (cV L) (jV L)) ↦{fullShare} fi)
    ∗ (∃ fb, (bufV).view.loc (V d (cV L) (jV L)) ↦{fullShare} fb)
    ∗ ((outV).view.loc (V d (cV L) (jV L)) ↦[outSet L]{fullShare} Cert.Lookup.gathered X Tb)
    ∗ semVal ((V d (cV L) (jV L)), SemLoc.dma ((cc0_scratch3.slice (Rect.unit (s := S2) ![0] S1.size inb_S2_S1_0)).squeeze S_ squeezes_S1_S_).sem) 0
    ∗ semVal ((V d (cV L) (jV L)), SemLoc.dma ((cc0_scratch3.slice (Rect.unit (s := S2) ![1] S1.size inb_S2_S1_1)).squeeze S_ squeezes_S1_S_).sem) 0
    ∗ semVal ((V d (cV L) (jV L)), SemLoc.dma ((cc0_scratch4.slice (Rect.unit (s := S6) ![0] S1.size inb_S6_S1_0)).squeeze S_ squeezes_S1_S_).sem) 0
    ∗ semVal ((V d (cV L) (jV L)), SemLoc.dma ((cc0_scratch4.slice (Rect.unit (s := S6) ![1] S1.size inb_S6_S1_1)).squeeze S_ squeezes_S1_S_).sem) 0
    ∗ semVal ((V d (cV L) (jV L)), SemLoc.dma ((cc0_scratch4.slice (Rect.unit (s := S6) ![2] S1.size inb_S6_S1_2)).squeeze S_ squeezes_S1_S_).sem) 0
    ∗ semVal ((V d (cV L) (jV L)), SemLoc.dma ((cc0_scratch4.slice (Rect.unit (s := S6) ![3] S1.size inb_S6_S1_3)).squeeze S_ squeezes_S1_S_).sem) 0
    ∗ semVal ((V d (cV L) (jV L)), SemLoc.dma ((cc0_scratch4.slice (Rect.unit (s := S6) ![4] S1.size inb_S6_S1_4)).squeeze S_ squeezes_S1_S_).sem) 0
    ∗ semVal ((V d (cV L) (jV L)), SemLoc.dma ((cc0_scratch4.slice (Rect.unit (s := S6) ![5] S1.size inb_S6_S1_5)).squeeze S_ squeezes_S1_S_).sem) 0
    ∗ semVal ((V d (cV L) (jV L)), SemLoc.dma ((cc0_scratch5.slice (Rect.unit (s := S6) ![0] S1.size inb_S6_S1_0)).squeeze S_ squeezes_S1_S_).sem) 0
    ∗ semVal ((V d (cV L) (jV L)), SemLoc.dma ((cc0_scratch5.slice (Rect.unit (s := S6) ![1] S1.size inb_S6_S1_1)).squeeze S_ squeezes_S1_S_).sem) 0
    ∗ semVal ((V d (cV L) (jV L)), SemLoc.dma ((cc0_scratch5.slice (Rect.unit (s := S6) ![2] S1.size inb_S6_S1_2)).squeeze S_ squeezes_S1_S_).sem) 0
    ∗ semVal ((V d (cV L) (jV L)), SemLoc.dma ((cc0_scratch5.slice (Rect.unit (s := S6) ![3] S1.size inb_S6_S1_3)).squeeze S_ squeezes_S1_S_).sem) 0
    ∗ semVal ((V d (cV L) (jV L)), SemLoc.dma ((cc0_scratch5.slice (Rect.unit (s := S6) ![4] S1.size inb_S6_S1_4)).squeeze S_ squeezes_S1_S_).sem) 0
    ∗ semVal ((V d (cV L) (jV L)), SemLoc.dma ((cc0_scratch5.slice (Rect.unit (s := S6) ![5] S1.size inb_S6_S1_5)).squeeze S_ squeezes_S1_S_).sem) 0
    ∗ semVal ((V d (cV L) (jV L)), SemLoc.dma cc0_scoped0.sem) 0
    ∗ restBufs d L)

/-! ## The rest's obligation -/

/-- The obligation of the rest of the kernel: from what the head leaves, it runs and ends with what the return needs. -/
def TailSpec : Prop :=
  ∀ (d : Dev nD) (L : grid0.Coords) (X : Buf (Elt F) (ixLoc d)) (_hX : ∀ j, (X j).toNat < 1000) (Tb : Buf (Elt F) (tbLoc d))
    (f0 : Buf (Elt F) (outLoc d)) (O : CellTallies nD τ sig (HIx 1)) (W : Waits sig (HIx 1)) (_hO : ∀ g, O g none = 0),
    HeadPost d L X Tb f0 O W
      ⊢ wp frame (wpE (defs₀ (F := F)) 𝒱₀ (V d (cV L) (jV L)) none) Set.univ
          (tailProg (F := F) L (Scalar.muli (BitVec.ofNat 32 (L 1).val) 1024#32) (Scalar.muli (BitVec.ofNat 32 (L 0).val) 13#32) 0#32)
          fun _ => EndPost d L X Tb O W

end Cert.Proof.KI

end
-- ==== Proof.BodyWrap.lean ====
/-
  The body's obligation from the obligation of the rest of the kernel: the head is run here.

  The head's copies and waits are run one step at a time.  Between them the proof intervenes once, at the barrier: a staging tile's
  staged rows are restated as the rows of the flattened tables they were copied from, cut into sixteen shares and presented
  as the payloads of the tile's sixteen duties; what the tile receives, thirteen tables' rows at its own sixteenth share,
  is the shared scratch whole at that share.  At the end the contents of the index scratch are read back: its halves hold
  the tile's first two index columns.
-/
import proofs.«206644_g35837207118489_cont_8to1_b_589_28_alg».proof.Proof.BodyHead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

variable (d : Dev nD) (L : grid0.Coords)

/-! ## The tile's own semaphores and buffers -/

theorem scopedSems_eq : (Finset.univ.filter fun sm : SemLoc sig => sm.isScoped Kind.scVector = true)
    = {SemLoc.dma 0, SemLoc.dma 1, SemLoc.dma 2, SemLoc.dma 3, SemLoc.dma 4, SemLoc.dma 5, SemLoc.dma 6, SemLoc.dma 7,
       SemLoc.dma 8, SemLoc.dma 9, SemLoc.dma 10, SemLoc.dma 11, SemLoc.dma 12, SemLoc.dma 13, SemLoc.dma 14} := by decide

omit [FloatOps F] in
/-- The tile's scoped semaphores are its fifteen DMA semaphores. -/
theorem ownSems0_V15 :
    (ownSems0 (V d (cV L) (jV L)) : sProp 𝕄)
      = iprop(semVal ((V d (cV L) (jV L)), SemLoc.dma ((cc0_scratch3.slice (Rect.unit (s := S2) ![0] S1.size inb_S2_S1_0)).squeeze S_ squeezes_S1_S_).sem) 0
          ∗ semVal ((V d (cV L) (jV L)), SemLoc.dma ((cc0_scratch3.slice (Rect.unit (s := S2) ![1] S1.size inb_S2_S1_1)).squeeze S_ squeezes_S1_S_).sem) 0
          ∗ semVal ((V d (cV L) (jV L)), SemLoc.dma ((cc0_scratch4.slice (Rect.unit (s := S6) ![0] S1.size inb_S6_S1_0)).squeeze S_ squeezes_S1_S_).sem) 0
          ∗ semVal ((V d (cV L) (jV L)), SemLoc.dma ((cc0_scratch4.slice (Rect.unit (s := S6) ![1] S1.size inb_S6_S1_1)).squeeze S_ squeezes_S1_S_).sem) 0
          ∗ semVal ((V d (cV L) (jV L)), SemLoc.dma ((cc0_scratch4.slice (Rect.unit (s := S6) ![2] S1.size inb_S6_S1_2)).squeeze S_ squeezes_S1_S_).sem) 0
          ∗ semVal ((V d (cV L) (jV L)), SemLoc.dma ((cc0_scratch4.slice (Rect.unit (s := S6) ![3] S1.size inb_S6_S1_3)).squeeze S_ squeezes_S1_S_).sem) 0
          ∗ semVal ((V d (cV L) (jV L)), SemLoc.dma ((cc0_scratch4.slice (Rect.unit (s := S6) ![4] S1.size inb_S6_S1_4)).squeeze S_ squeezes_S1_S_).sem) 0
          ∗ semVal ((V d (cV L) (jV L)), SemLoc.dma ((cc0_scratch4.slice (Rect.unit (s := S6) ![5] S1.size inb_S6_S1_5)).squeeze S_ squeezes_S1_S_).sem) 0
          ∗ semVal ((V d (cV L) (jV L)), SemLoc.dma ((cc0_scratch5.slice (Rect.unit (s := S6) ![0] S1.size inb_S6_S1_0)).squeeze S_ squeezes_S1_S_).sem) 0
          ∗ semVal ((V d (cV L) (jV L)), SemLoc.dma ((cc0_scratch5.slice (Rect.unit (s := S6) ![1] S1.size inb_S6_S1_1)).squeeze S_ squeezes_S1_S_).sem) 0
          ∗ semVal ((V d (cV L) (jV L)), SemLoc.dma ((cc0_scratch5.slice (Rect.unit (s := S6) ![2] S1.size inb_S6_S1_2)).squeeze S_ squeezes_S1_S_).sem) 0
          ∗ semVal ((V d (cV L) (jV L)), SemLoc.dma ((cc0_scratch5.slice (Rect.unit (s := S6) ![3] S1.size inb_S6_S1_3)).squeeze S_ squeezes_S1_S_).sem) 0
          ∗ semVal ((V d (cV L) (jV L)), SemLoc.dma ((cc0_scratch5.slice (Rect.unit (s := S6) ![4] S1.size inb_S6_S1_4)).squeeze S_ squeezes_S1_S_).sem) 0
          ∗ semVal ((V d (cV L) (jV L)), SemLoc.dma ((cc0_scratch5.slice (Rect.unit (s := S6) ![5] S1.size inb_S6_S1_5)).squeeze S_ squeezes_S1_S_).sem) 0
          ∗ semVal ((V d (cV L) (jV L)), SemLoc.dma cc0_scoped0.sem) 0) := by
  rw [SparseCore.Cfg.ownSems0_eq]
  show bigSep (Finset.univ.filter fun sm : SemLoc sig => sm.isScoped Kind.scVector = true) _ = _
  rw [scopedSems_eq]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The tile's two scratch buffers are among its own: they are they, at some contents, and the rest. -/
theorem ownBufs_V2 :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f) ∗ restBufs d L) := by
  unfold SparseCore.Cfg.ownBufs restBufs
  refine (SparseCore.bigSep_erase' (SparseCore.Cfg.mem_ownRefs_of_owner (p := Proc.scVector (cV L) (jV L))
    (b := (Proc.scVector (cV L) (jV L)).devRef cc0_scratch1) rfl)).trans ?_
  rw [SparseCore.bigSep_erase' (Finset.mem_erase.mpr ⟨fun e => absurd (Proc.devRef_injective _ e) (show (cc0_scratch2 : Ref sig .scVector) ≠ cc0_scratch1 by decide),
    SparseCore.Cfg.mem_ownRefs_of_owner (p := Proc.scVector (cV L) (jV L)) (b := (Proc.scVector (cV L) (jV L)).devRef cc0_scratch2) rfl⟩)]

/-! ## The arrays, addressed through the tile's own memrefs -/

omit [FloatOps F] in
theorem pts_xf (q : PosShare TreeShare) (f : Buf (Elt F) (ixLoc d)) : ((xfV).view.loc (V d (cV L) (jV L)) ↦{q} f : sProp 𝕄) = (ixLoc d ↦{q} f) := rfl
omit [FloatOps F] in
theorem pts_tb (q : PosShare TreeShare) (f : Buf (Elt F) (tbLoc d)) : ((tbV).view.loc (V d (cV L) (jV L)) ↦{q} f : sProp 𝕄) = (tbLoc d ↦{q} f) := rfl
omit [FloatOps F] in
theorem pts_ixs (f : Buf (Elt F) ((V d (cV L) (jV L)).loc cc0_scratch1)) : ((ixsV).view.loc (V d (cV L) (jV L)) ↦{fullShare} f : sProp 𝕄) = ((V d (cV L) (jV L)).loc cc0_scratch1 ↦{fullShare} f) := rfl

/-- A staging tile number. -/
theorem lt_of_cond (hc : k0_cond1 L = 1#1) : (L 1).val < 13 := (k0_cond1_eq L).mp hc
theorem not_lt_of_cond (hc : ¬ k0_cond1 L = 1#1) : ¬ (L 1).val < 13 := fun h => hc ((k0_cond1_eq L).mpr h)

/-- The rows a staging tile stages, as the program slices them. -/
abbrev stageM (hc : k0_cond1 L = 1#1) : Memref sig .scVector .shared S1000x128 .f32 :=
  (spV).slice (Rect.unit (s := S13000x128) (k0_off2 L) S1000x128.size (k0_off2_inb L hc)) (fun _ => rfl)
/-- The rows of the flattened tables it copies. -/
abbrev srcM (hc : k0_cond1 L = 1#1) : Memref sig .scVector .hbm S1000x128 .f32 :=
  (tbV).slice (Rect.unit (s := S26000x128) (k0_off3 L) S1000x128.size (k0_off3_inb L hc)) (fun _ => rfl)

omit [FloatOps F] in
theorem stage_set (hc : k0_cond1 L = 1#1) : (stageM L hc).view.set = tabSet ⟨(L 1).val, lt_of_cond L hc⟩ := by
  show ((spV).view.slice (Rect.unit (s := S13000x128) (k0_off2 L) S1000x128.size (k0_off2_inb L hc))).set = ((spV).view.slice (tabRows ⟨(L 1).val, lt_of_cond L hc⟩)).set
  have e : (Rect.unit (s := S13000x128) (k0_off2 L) S1000x128.size (k0_off2_inb L hc)).set = (tabRows ⟨(L 1).val, lt_of_cond L hc⟩).set :=
    Finset.ext fun j => by rw [mem_unit2, mem_unit2, k0_off2_eq]
  rw [View.set_slice, View.set_slice, e]

omit [FloatOps F] in
theorem pts_stage (hc : k0_cond1 L = 1#1) (f : Buf (Elt F) (shLoc d (cV L))) :
    ((stageM L hc).view.loc (V d (cV L) (jV L)) ↦[(stageM L hc).view.set]{fullShare} f : sProp 𝕄)
      = (shLoc d (cV L) ↦[tabSet ⟨(L 1).val, lt_of_cond L hc⟩]{fullShare} f) := by
  rw [stage_set]; rfl

/-! ## The staged contents -/

/-- What the staging copy moves: the rows of the flattened tables, read through the program's slice. -/
abbrev stagedW (hc : k0_cond1 L = 1#1) (Tb : Buf (Elt F) (tbLoc d)) : S1000x128.Idx → Elt F .f32 :=
  ReadAs.same.apply (View.read (Elt F) (srcM L hc).view Tb)

set_option maxHeartbeats 4000000 in
omit [FloatOps F] in
/-- The staged rows hold the SparseCore's rows of the flattened tables. -/
theorem staged_val (hc : k0_cond1 L = 1#1) (Tb : Buf (Elt F) (tbLoc d)) (fsh : Buf (Elt F) (shLoc d (cV L))) :
    ∀ i ∈ tabSet ⟨(L 1).val, lt_of_cond L hc⟩,
      ((stageM L hc).view.writes (Elt F) fsh [⟨Rect.whole S1000x128, stagedW d L hc Tb⟩] : Buf (Elt F) (shLoc d (cV L))) i = spVal Tb (cV L) i := by
  intro i hi
  rw [← stage_set L hc] at hi
  obtain ⟨x, -, rfl⟩ := Finset.mem_map.mp hi
  have h1 := View.read_writes_cons_emb (v := (stageM L hc).view) (f := fsh) (Rect.whole S1000x128) (stagedW d L hc Tb) [] x
  rw [Rect.emb_whole_apply] at h1
  have h2 : ((stageM L hc).view.writes (Elt F) fsh [⟨Rect.whole S1000x128, stagedW d L hc Tb⟩]) ((stageM L hc).view.emb x) = stagedW d L hc Tb x := h1
  rw [h2]
  show Tb ((srcM L hc).view.emb x) = spVal Tb (cV L) ((stageM L hc).view.emb x)
  unfold spVal
  refine congrArg Tb (funext fun a => ?_)
  have e2 := k0_off2_eq L
  have e3 := k0_off3_eq L
  match a with
  | ⟨0, _⟩ =>
    apply Fin.ext
    show k0_off3 L 0 + 1 * (x 0).val = 13000 * (L 0).val + (k0_off2 L 0 + 1 * (x 0).val)
    rw [e2, e3]; show 13000 * (L 0).val + 1000 * (L 1).val + 1 * (x 0).val = 13000 * (L 0).val + (1000 * (L 1).val + 1 * (x 0).val); omega
  | ⟨1, _⟩ =>
    apply Fin.ext
    show k0_off3 L 1 + 1 * (x 1).val = k0_off2 L 1 + 1 * (x 1).val
    rw [e2, e3]; rfl

/-! ## The payloads -/

/-- A staging tile's staged rows, cut into sixteen shares, are the payloads of its sixteen duties. -/
theorem pays_stage (TbA : (d : Dev nD) → Buf (Elt F) (tbLoc d)) (hc : k0_cond1 L = 1#1) (g : Buf (Elt F) (shLoc d (cV L)))
    (hg : ∀ i ∈ tabSet ⟨(L 1).val, lt_of_cond L hc⟩, g i = spVal (TbA d) (cV L) i) :
    ((stageM L hc).view.loc (V d (cV L) (jV L)) ↦[(stageM L hc).view.set]{fullShare} g : sProp 𝕄)
      ⊢ bigSep Finset.univ fun j : Fin (grid0.bound 1) => (bRd (F := F) TbA).payload (bcell d (cV L) (j.castLE hsub0)) 0 (jV L).val := by
  rw [pts_stage, pointsTo_congr hg, pointsTo_leaves _ _ 4 fullShare]
  refine Entails.of_eq (bigSep_congr fun j _ => ?_)
  rw [bRd_payload_lt TbA d (cV L) _ 0 (jV L).val (lt_of_cond L hc)]
  rfl

/-- The other tiles' duties carry nothing. -/
theorem pays_none (TbA : (d : Dev nD) → Buf (Elt F) (tbLoc d)) (hc : ¬ k0_cond1 L = 1#1) :
    (iprop(emp) : sProp 𝕄)
      ⊢ bigSep Finset.univ fun j : Fin (grid0.bound 1) => (bRd (F := F) TbA).payload (bcell d (cV L) (j.castLE hsub0)) 0 (jV L).val := by
  rw [bigSep_congr fun j _ => bRd_payload_ge TbA d (cV L) (j.castLE hsub0) 0 (jV L).val (not_lt_of_cond L hc), bigSep_emp']

theorem toks_bundle (TbA : (d : Dev nD) → Buf (Elt F) (tbLoc d)) :
    iprop((bigSep Finset.univ fun j : Fin (grid0.bound 1) => dutyTok EB (bcell d (cV L) (j.castLE hsub0)) 0 (jV L).val)
        ∗ (bigSep Finset.univ fun j : Fin (grid0.bound 1) => (bRd (F := F) TbA).payload (bcell d (cV L) (j.castLE hsub0)) 0 (jV L).val)
        ∗ (bigSep Finset.univ fun j : Fin (grid0.bound 1) => reached EB (bcell d (cV L) (j.castLE hsub0)) 0))
      ⊢ (bigSep Finset.univ fun j : Fin (grid0.bound 1) => iprop(dutyTok EB (bcell d (cV L) (j.castLE hsub0)) 0 (jV L).val
          ∗ (bRd (F := F) TbA).payload (bcell d (cV L) (j.castLE hsub0)) 0 (jV L).val ∗ reached EB (bcell d (cV L) (j.castLE hsub0)) 0) : sProp 𝕄) := by
  rw [bigSep_sep', bigSep_sep']

omit [FloatOps F] in
/-- The shared scratch at a share is the thirteen tables' rows at that share. -/
theorem sp_tabs (q : PosShare TreeShare) (f : Buf (Elt F) (shLoc d (cV L))) :
    (shLoc d (cV L) ↦{q} f : sProp 𝕄) = bigSep Finset.univ fun i : Fin (grid0.bound 1) => shLoc d (cV L) ↦[tabSetN i.val]{q} f := by
  rw [← pointsTo_biUnion (ℓ := shLoc d (cV L)) Finset.univ (fun i : Fin (grid0.bound 1) => tabSetN i.val) tabSetN_disjoint, tabSetN_cover]; try rfl

/-- What the tile receives at the barrier — thirteen tables' rows at its own sixteenth share — is the shared scratch
    whole at that share. -/
theorem got_whole (TbA : (d : Dev nD) → Buf (Elt F) (tbLoc d)) :
    (bigSep ((bRd (F := F) TbA).duties ((V d (cV L) (jV L)), SemLoc.reg sc_bar0) 0 \ ∅) fun m => (bRd (F := F) TbA).payload ((V d (cV L) (jV L)), SemLoc.reg sc_bar0) 0 m)
      ⊢ ((spV).view.loc (V d (cV L) (jV L)) ↦{shq (jV L)} spVal (TbA d) (cV L) : sProp 𝕄) := by
  have e : ∀ n : Fin τ.nSub, (bRd (F := F) TbA).payload (bcell d (cV L) (jV L)) 0 n.val
      = (shLoc d (cV L) ↦[tabSetN n.val]{shq (jV L)} spVal (TbA d) (cV L) : sProp 𝕄) := by
    intro n
    unfold tabSetN
    by_cases h : n.val < 13
    · rw [bRd_payload_lt TbA d (cV L) (jV L) 0 n.val h, dif_pos h]
    · rw [bRd_payload_ge TbA d (cV L) (jV L) 0 n.val h, dif_neg h, pointsTo_empty]
  rw [show (bRd (F := F) TbA).duties ((V d (cV L) (jV L)), SemLoc.reg sc_bar0) 0 = (Finset.univ : Finset (Fin τ.nSub)).image Fin.val from bRd_duties₀ TbA d (cV L) (jV L),
    Finset.sdiff_empty, SparseCore.bigSep_image_of_injOn (fun a _ b _ e => Fin.val_injective e)]
  rw [bigSep_congr fun n _ => e n]
  exact Entails.of_eq (sp_tabs (F := F) d L (shq (jV L)) (spVal (TbA d) (cV L))).symm

/-! ## The index scratch after the head -/

/-- Word `z` of the index scratch once both halves hold their columns: half `z / 1024` holds the tile's column of field
    `z / 1024`. -/
def ixsG (X : Buf (Elt F) (ixLoc d)) : S2048.Idx → Elt F .i32 := fun z =>
  X (ix1 (n := 425984) ⟨16384 * (13 * (L 0).val + (z 0).val / 1024) + 1024 * (L 1).val + (z 0).val % 1024, by
    have h0 : (L 0).val < 2 := (L 0).isLt
    have h1 : (L 1).val < 16 := (L 1).isLt
    have hz : (z 0).val < 2048 := (z 0).isLt
    omega⟩)

/-- What an index fetch moves: the tile's column `r` of the flattened columns, read through the program's slice. -/
abbrev colW (r : Fin 2) (X : Buf (Elt F) (ixLoc d)) : S1024.Idx → Elt F .i32 :=
  ReadAs.same.apply (View.read (Elt F) (colM L r).view X)

omit [FloatOps F] in
/-- The index scratch's halves hold the tile's first two index columns. -/
theorem ixs_facts (X : Buf (Elt F) (ixLoc d)) (fi : Buf (Elt F) ((V d (cV L) (jV L)).loc cc0_scratch1)) :
    (∀ y : S1024.Idx, (halfA).view.read (Elt F)
        ((ixsV).view.writes (Elt F) fi [⟨Rect.unit (s := S2048) ![1024] S1024.size inb_S2048_S1024_1024, colW d L 1 X⟩, ⟨Rect.unit (s := S2048) ![0] S1024.size inb_S2048_S1024_0, colW d L 0 X⟩]) y
          = X (ix1 (n := 425984) ⟨16384 * (13 * (L 0).val + 0) + 1024 * (L 1).val + (y 0).val, colIx_lt L 0 (by decide) y⟩))
    ∧ (∀ y : S1024.Idx, (halfB).view.read (Elt F)
        ((ixsV).view.writes (Elt F) fi [⟨Rect.unit (s := S2048) ![1024] S1024.size inb_S2048_S1024_1024, colW d L 1 X⟩, ⟨Rect.unit (s := S2048) ![0] S1024.size inb_S2048_S1024_0, colW d L 0 X⟩]) y
          = X (ix1 (n := 425984) ⟨16384 * (13 * (L 0).val + 1) + 1024 * (L 1).val + (y 0).val, colIx_lt L 1 (by decide) y⟩)) := by
  have hcol : ∀ (r : Fin 2) (x : S1024.Idx), colW d L r X x
      = X (ix1 (n := 425984) ⟨16384 * (13 * (L 0).val + r.val) + 1024 * (L 1).val + (x 0).val, colIx_lt L r.val (by have := r.isLt; omega) x⟩) := by
    intro r x
    show X ((colM L r).view.emb x) = _
    refine congrArg X (funext fun a => ?_)
    have e1 := k0_off1_eq L r
    match a with
    | ⟨0, _⟩ =>
      apply Fin.ext
      show k0_off1 L (BitVec.ofNat 32 r.val) 0 + 1 * (x 0).val = 16384 * (13 * (L 0).val + r.val) + 1024 * (L 1).val + (x 0).val
      rw [e1]; show 212992 * (L 0).val + 16384 * r.val + 1024 * (L 1).val + 1 * (x 0).val = _; omega
  have hpieces : ∀ p ∈ ([⟨Rect.unit (s := S2048) ![1024] S1024.size inb_S2048_S1024_1024, colW d L 1 X⟩, ⟨Rect.unit (s := S2048) ![0] S1024.size inb_S2048_S1024_0, colW d L 0 X⟩] : List (View.Piece (Elt F) S2048 .i32)),
      ∀ x : p.1.shape.Idx, p.2 x = ixsG d L X (p.1.emb x) := by
    intro p hp x
    simp only [List.mem_cons, List.not_mem_nil, or_false] at hp
    rcases hp with rfl | rfl
    · refine (hcol 1 x).trans ?_; unfold ixsG
      refine congrArg X (congrArg ix1 (Fin.ext ?_))
      have hx : (x 0).val < 1024 := (x 0).isLt
      show 16384 * (13 * (L 0).val + 1) + 1024 * (L 1).val + (x 0).val = 16384 * (13 * (L 0).val + (1024 + 1 * (x 0).val) / 1024) + 1024 * (L 1).val + (1024 + 1 * (x 0).val) % 1024
      omega
    · refine (hcol 0 x).trans ?_; unfold ixsG
      refine congrArg X (congrArg ix1 (Fin.ext ?_))
      have hx : (x 0).val < 1024 := (x 0).isLt
      show 16384 * (13 * (L 0).val + 0) + 1024 * (L 1).val + (x 0).val = 16384 * (13 * (L 0).val + (0 + 1 * (x 0).val) / 1024) + 1024 * (L 1).val + (0 + 1 * (x 0).val) % 1024
      omega
  refine ⟨fun y => ?_, fun y => ?_⟩
  · have hcov : ∃ p ∈ ([⟨Rect.unit (s := S2048) ![1024] S1024.size inb_S2048_S1024_1024, colW d L 1 X⟩, ⟨Rect.unit (s := S2048) ![0] S1024.size inb_S2048_S1024_0, colW d L 0 X⟩] : List (View.Piece (Elt F) S2048 .i32)),
        (Rect.unit (s := S2048) ![0] S1024.size inb_S2048_S1024_0).emb y ∈ p.1.set :=
      ⟨_, List.mem_cons_of_mem _ List.mem_cons_self, (Rect.unit (s := S2048) ![0] S1024.size inb_S2048_S1024_0).idx_mem y⟩
    have h := View.read_writes_apply_of_pieces (v := (ixsV).view) (f := fi) (ixsG d L X) _ hpieces _ hcov
    refine Eq.trans h ?_
    unfold ixsG
    refine congrArg X (congrArg ix1 (Fin.ext ?_))
    have hy : (y 0).val < 1024 := (y 0).isLt
    show 16384 * (13 * (L 0).val + (0 + 1 * (y 0).val) / 1024) + 1024 * (L 1).val + (0 + 1 * (y 0).val) % 1024 = 16384 * (13 * (L 0).val + 0) + 1024 * (L 1).val + (y 0).val
    omega
  · have hcov : ∃ p ∈ ([⟨Rect.unit (s := S2048) ![1024] S1024.size inb_S2048_S1024_1024, colW d L 1 X⟩, ⟨Rect.unit (s := S2048) ![0] S1024.size inb_S2048_S1024_0, colW d L 0 X⟩] : List (View.Piece (Elt F) S2048 .i32)),
        (Rect.unit (s := S2048) ![1024] S1024.size inb_S2048_S1024_1024).emb y ∈ p.1.set :=
      ⟨_, List.mem_cons_self, (Rect.unit (s := S2048) ![1024] S1024.size inb_S2048_S1024_1024).idx_mem y⟩
    have h := View.read_writes_apply_of_pieces (v := (ixsV).view) (f := fi) (ixsG d L X) _ hpieces _ hcov
    refine Eq.trans h ?_
    unfold ixsG
    refine congrArg X (congrArg ix1 (Fin.ext ?_))
    have hy : (y 0).val < 1024 := (y 0).isLt
    show 16384 * (13 * (L 0).val + (1024 + 1 * (y 0).val) / 1024) + 1024 * (L 1).val + (1024 + 1 * (y 0).val) % 1024 = 16384 * (13 * (L 0).val + 1) + 1024 * (L 1).val + (y 0).val
    omega

/-! ## The head -/

set_option maxHeartbeats 8000000 in
set_option sl_exec.dmaWindow true in
set_option sl_exec.dmaWindowSet true in
set_option sl_exec.dmaWindowLent true in
theorem head_stage (hF : (K (F := F)).Facts) (TbA : (d : Dev nD) → Buf (Elt F) (tbLoc d)) (hc : k0_cond1 L = 1#1)
    (X : Buf (Elt F) (ixLoc d)) (f0 : Buf (Elt F) (outLoc d))
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0)
          fun r => iprop(⌜r = ⟨(Scalar.muli (BitVec.ofNat 32 (L 1).val) 1024#32), (Scalar.muli (BitVec.ofNat 32 (L 0).val) 13#32), 0#32⟩⌝ ∗ HeadPost d L X (TbA d) f0 O W) := by
  rw [k0_part14_eq_skeleton]; unfold k0_part14_skel
  rw [(K (F := F)).scopedBufs_V hF d (cV L) (jV L), SparseCore.Cfg.scopedSems0_V (Val := Elt F) d (cV L) (jV L), ownSems0_V15, ownBufs_V2]
  unfold bkit goRes
  rw [dif_pos (lt_of_cond L hc)]
  iintro ⟨#Hlv, ⟨⟨%κ, #Hinv⟩, Hdt, #Hrch, Hat, Hcred⟩, ⟨Hx, Htb, Hout, ⟨%fsh, Hst⟩⟩, ⟨⟨%fi, Hi⟩, ⟨%fb, Hb⟩, Hrest⟩, ⟨Hs0, Hs1, Hg0, Hg1, Hg2, Hg3, Hg4, Hg5, Ht0, Ht1, Ht2, Ht3, Ht4, Ht5, Hsc⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  icases Hmw1 with #Hmw1
  icases Hmw2 with #Hmw2
  ihave Hx' := (Entails.of_eq (pts_xf (F := F) d L _ _).symm) $$ Hx
  ihave Htb' := (Entails.of_eq (pts_tb (F := F) d L _ _).symm) $$ Htb
  ihave Hi' := (Entails.of_eq (pts_ixs (F := F) d L _).symm) $$ Hi
  ihave Hst' := (Entails.of_eq (pts_stage (F := F) d L hc _).symm) $$ Hst
  -- the first fetch's start, the staging copy and its wait
  sl_exec
  -- the payloads of the tile's sixteen duties
  sl_unfold_run_names
  ihave Hpay := (pays_stage (F := F) d L TbA hc _ (staged_val (F := F) d L hc (TbA d) fsh)) $$ Hst'
  ihave Htoks := (toks_bundle (F := F) d L TbA) $$ [Hdt Hpay]
  · isplitl [Hdt]; · iexact Hdt
    isplitl [Hpay]; · iexact Hpay
    iexact Hrch
  -- the barrier
  iapply (SparseCore.wp_subcoreBarrier 𝒱₀ none EB (bRd (F := F) TbA) d (sc := cV L) (i := jV L) sc_bar0 (grid0.bound 1) hsub0 (L 1) rfl κ (fun _ => 0) (jV L).val
      (fun j => bRd_mem₀ TbA d _ _ _) (fun _ => rfl) (bRd_expect TbA d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsp := (got_whole (F := F) d L TbA) $$ Hgot
  -- the first fetch's wait, the second fetch's start
  sl_exec
  iapply (Idealize.SL.Sem.le_wp_ret _ _)
  sl_unfold_run_names
  isplitr; · ipureintro; rfl
  unfold HeadPost
  isplitr; · iexact Hmw2
  isplitl [HO]
  · iexists _; isplitr
    swap; · iexact HO
    ipureintro; intro p hp
    simp only [Finset.mem_insert] at hp
    rcases hp with rfl | rfl | rfl | hp
    · exact .inr (.inl rfl)
    · exact .inr (.inr rfl)
    · exact .inr (.inl rfl)
    · exact .inl hp
  isplitl [Hsp]; · iexact Hsp
  isplitl [Htb']; · iexact Htb'
  isplitl [Hx']; · iexact Hx'
  isplitl [Hi' Hs1]
  · iexists _
    isplitr; · ipureintro; exact ixs_facts (F := F) d L X fi
    isplitl [Hi']; · iexact Hi'
    iexact Hs1
  isplitl [Hb]; · iexists fb; iexact Hb
  isplitl [Hout]; · iexact Hout
  isplitl [Hs0]; · iexact Hs0
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hsc]; · iexact Hsc
  iexact Hrest

set_option maxHeartbeats 8000000 in
set_option sl_exec.dmaWindow true in
set_option sl_exec.dmaWindowSet true in
set_option sl_exec.dmaWindowLent true in
theorem head_plain (hF : (K (F := F)).Facts) (TbA : (d : Dev nD) → Buf (Elt F) (tbLoc d)) (hc : ¬ k0_cond1 L = 1#1)
    (X : Buf (Elt F) (ixLoc d)) (f0 : Buf (Elt F) (outLoc d))
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0)
          fun r => iprop(⌜r = ⟨(Scalar.muli (BitVec.ofNat 32 (L 1).val) 1024#32), (Scalar.muli (BitVec.ofNat 32 (L 0).val) 13#32), 0#32⟩⌝ ∗ HeadPost d L X (TbA d) f0 O W) := by
  rw [k0_part14_eq_skeleton]; unfold k0_part14_skel
  rw [(K (F := F)).scopedBufs_V hF d (cV L) (jV L), SparseCore.Cfg.scopedSems0_V (Val := Elt F) d (cV L) (jV L), ownSems0_V15, ownBufs_V2]
  unfold bkit goRes
  rw [dif_neg (not_lt_of_cond L hc)]
  iintro ⟨#Hlv, ⟨⟨%κ, #Hinv⟩, Hdt, #Hrch, Hat, Hcred⟩, ⟨Hx, Htb, Hout, -⟩, ⟨⟨%fi, Hi⟩, ⟨%fb, Hb⟩, Hrest⟩, ⟨Hs0, Hs1, Hg0, Hg1, Hg2, Hg3, Hg4, Hg5, Ht0, Ht1, Ht2, Ht3, Ht4, Ht5, Hsc⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  icases Hmw1 with #Hmw1
  icases Hmw2 with #Hmw2
  ihave Hx' := (Entails.of_eq (pts_xf (F := F) d L _ _).symm) $$ Hx
  ihave Htb' := (Entails.of_eq (pts_tb (F := F) d L _ _).symm) $$ Htb
  ihave Hi' := (Entails.of_eq (pts_ixs (F := F) d L _).symm) $$ Hi
  -- the first fetch's start
  sl_exec
  -- the payloads of the tile's sixteen duties
  sl_unfold_run_names
  ihave Hpay := (pays_none (F := F) d L TbA hc) $$ []
  · iempintro
  ihave Htoks := (toks_bundle (F := F) d L TbA) $$ [Hdt Hpay]
  · isplitl [Hdt]; · iexact Hdt
    isplitl [Hpay]; · iexact Hpay
    iexact Hrch
  -- the barrier
  iapply (SparseCore.wp_subcoreBarrier 𝒱₀ none EB (bRd (F := F) TbA) d (sc := cV L) (i := jV L) sc_bar0 (grid0.bound 1) hsub0 (L 1) rfl κ (fun _ => 0) (jV L).val
      (fun j => bRd_mem₀ TbA d _ _ _) (fun _ => rfl) (bRd_expect TbA d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsp := (got_whole (F := F) d L TbA) $$ Hgot
  -- the first fetch's wait, the second fetch's start
  sl_exec
  iapply (Idealize.SL.Sem.le_wp_ret _ _)
  sl_unfold_run_names
  isplitr; · ipureintro; rfl
  unfold HeadPost
  isplitr; · iexact Hmw2
  isplitl [HO]
  · iexists _; isplitr
    swap; · iexact HO
    ipureintro; intro p hp
    simp only [Finset.mem_insert] at hp
    rcases hp with rfl | rfl | hp
    · exact .inr (.inl rfl)
    · exact .inr (.inr rfl)
    · exact .inl hp
  isplitl [Hsp]; · iexact Hsp
  isplitl [Htb']; · iexact Htb'
  isplitl [Hx']; · iexact Hx'
  isplitl [Hi' Hs1]
  · iexists _
    isplitr; · ipureintro; exact ixs_facts (F := F) d L X fi
    isplitl [Hi']; · iexact Hi'
    iexact Hs1
  isplitl [Hb]; · iexists fb; iexact Hb
  isplitl [Hout]; · iexact Hout
  isplitl [Hs0]; · iexact Hs0
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hsc]; · iexact Hsc
  iexact Hrest

/-! ## The return, and the body's obligation -/

/-- What the rest leaves is what the task hands back, the tile's scratch and its semaphores at zero. -/
theorem end_repack (hF : (K (F := F)).Facts) (X : Buf (Elt F) (ixLoc d)) (Tb : Buf (Elt F) (tbLoc d))
    (O : CellTallies nD τ sig (HIx 1)) (W : Waits sig (HIx 1)) :
    EndPost d L X Tb O W
      ⊢ iprop(tdRes X Tb L ∗ scopedBufs (V d (cV L) (jV L)) ∗ scopedSems0 (V d (cV L) (jV L))
          ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V15, ownBufs_V2]
  unfold EndPost tdRes
  iintro ⟨HW, Hx, Htb, Hsp, Hi, Hb, Hout, Hs0, Hs1, Hg0, Hg1, Hg2, Hg3, Hg4, Hg5, Ht0, Ht1, Ht2, Ht3, Ht4, Ht5, Hsc, Hrest⟩
  isplitl [Hx Htb Hout Hsp]
  · isplitl [Hx]; · iexact Hx
    isplitl [Htb]; · iexact Htb
    isplitl [Hout]; · iexact Hout
    iexact Hsp
  isplitl [Hi Hb Hrest]
  · isplitl [Hi]; · iexact Hi
    isplitl [Hb]; · iexact Hb
    iexact Hrest
  isplitl [Hs0 Hs1 Hg0 Hg1 Hg2 Hg3 Hg4 Hg5 Ht0 Ht1 Ht2 Ht3 Ht4 Ht5 Hsc]
  · isplitl [Hs0]; · iexact Hs0
    isplitl [Hs1]; · iexact Hs1
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    iexact Hsc
  iexact HW

/-- The body's obligation from the obligation of the rest of the kernel. -/
theorem tileBody_of_tail (h : TailSpec (F := F)) : TileBody (F := F) := by
  intro hF TbA d L X hX f0 O W hO hOlev
  rw [kernel_eq_head_tail, wp_bind, wp_bind]
  have htail := h d L X hX (TbA d) f0 O W hO
  unfold tailProg at htail
  rw [wp_bind] at htail
  have hhead := (show _ from (by
    by_cases hc : k0_cond1 L = 1#1
    · exact head_stage d L hF TbA hc X f0 O W hO hOlev
    · exact head_plain d L hF TbA hc X f0 O W hO hOlev :
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0)
          fun r => iprop(⌜r = ⟨(Scalar.muli (BitVec.ofNat 32 (L 1).val) 1024#32), (Scalar.muli (BitVec.ofNat 32 (L 0).val) 13#32), 0#32⟩⌝ ∗ HeadPost d L X (TbA d) f0 O W)))
  refine hhead.trans (wp_mono frame _ _ fun r => ?_)
  iintro ⟨%hr, H⟩
  subst hr
  iapply (htail.trans (wp_mono frame _ _ fun _ => wp_mono frame _ _ fun _ => end_repack d L hF X (TbA d) O W))
  iexact H

end Cert.Proof.KI

end
-- ==== Proof.InvDefs.lean ====
/-
  Names for the loop's invariant: the pieces of memory by their offsets, the offsets of chunk `n` in closed form, and what a piece
  must hold for the result to be the lookup.

  Chunk `n` of tile `(c, s)` (field `n / 32` of the SparseCore's thirteen, block `n % 32` of the tile's thousand and twenty-four batch
  entries) gathers, for each of its 32 batch entries `i`, row `x[1024 s + 32 (n % 32) + i, 13 c + n / 32]` of that field's table into row `i` of ring
  slot `n % 6`, and copies the slot out to rows `1024 s + 32 (n % 32) … + 31`, columns `128 (13 c + n / 32) … + 127` of the result.  A slot is right for
  chunk `n` when entry `(i, q)` of it is the result's entry at that place; a result block is right when it holds the result's entries; the
  32 index words of chunk `n` are right when word `i` is the flattened index column's entry for batch entry `1024 s + 32 (n % 32) + i` of
  field `13 c + n / 32`.
-/
import proofs.«206644_g35837207118489_cont_8to1_b_589_28_alg».proof.Proof.BodyHead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## Views by their offsets, as the program spells them -/

abbrev slotO (off : Fin 3 → ℕ) (h : ∀ a, off a + S1x32x128.size a ≤ S6x32x128.size a) : Memref sig .scVector .vmem S32x128 .f32 :=
  ((Memref.whole cc0_scratch2 : Memref sig .scVector .vmem S6x32x128 .f32).slice (Rect.unit (s := S6x32x128) off S1x32x128.size h) (fun _ => rfl)).squeeze S32x128 squeezes_S1x32x128_S32x128
abbrev listO (off : Fin 1 → ℕ) (h : ∀ a, off a + S32.size a ≤ S2048.size a) : Memref sig .scVector .vmem S32 .i32 :=
  (Memref.whole cc0_scratch1 : Memref sig .scVector .vmem S2048 .i32).slice (Rect.unit (s := S2048) off S32.size h) (fun _ => rfl)
abbrev halfO (off : Fin 1 → ℕ) (h : ∀ a, off a + S1024.size a ≤ S2048.size a) : Memref sig .scVector .vmem S1024 .i32 :=
  (Memref.whole cc0_scratch1 : Memref sig .scVector .vmem S2048 .i32).slice (Rect.unit (s := S2048) off S1024.size h) (fun _ => rfl)
abbrev colO (off : Fin 1 → ℕ) (h : ∀ a, off a + S1024.size a ≤ S425984.size a) : Memref sig .scVector .hbm S1024 .i32 :=
  (Memref.whole main_v1_scv : Memref sig .scVector .hbm S425984 .i32).slice (Rect.unit (s := S425984) off S1024.size h) (fun _ => rfl)
abbrev tabO (off : Fin 2 → ℕ) (h : ∀ a, off a + S1000x128.size a ≤ S13000x128.size a) : Memref sig .scVector .shared S1000x128 .f32 :=
  ((Memref.whole cc0_scratch0 : Memref sig .scVector .shared S13000x128 .f32).slice (Rect.unit (s := S13000x128) off S1000x128.size h) (fun _ => rfl)).slice
    (Rect.unit (s := S1000x128) ![0, 0] S1000x128.size inb_S1000x128_S1000x128_0_0) (fun _ => rfl)
abbrev outO (off : Fin 2 → ℕ) (h : ∀ a, off a + S32x128.size a ≤ S16384x3328.size a) : Memref sig .scVector .hbm S32x128 .f32 :=
  (Memref.whole main_v3_scv : Memref sig .scVector .hbm S16384x3328 .f32).slice (Rect.unit (s := S16384x3328) off S32x128.size h) (fun _ => rfl)
abbrev gsemO (off : Fin 1 → ℕ) (h : ∀ a, off a + S1.size a ≤ S6.size a) : DmaSems sig S_ := (cc0_scratch4.slice (Rect.unit (s := S6) off S1.size h)).squeeze S_ squeezes_S1_S_
abbrev ssemO (off : Fin 1 → ℕ) (h : ∀ a, off a + S1.size a ≤ S6.size a) : DmaSems sig S_ := (cc0_scratch5.slice (Rect.unit (s := S6) off S1.size h)).squeeze S_ squeezes_S1_S_
abbrev isemO (off : Fin 1 → ℕ) (h : ∀ a, off a + S1.size a ≤ S2.size a) : DmaSems sig S_ := (cc0_scratch3.slice (Rect.unit (s := S2) off S1.size h)).squeeze S_ squeezes_S1_S_

/-! ## Chunk `n`'s offsets in closed form -/

abbrev cSlot (n : ℕ) : Fin 3 → ℕ := ![n % 6, 0, 0]
theorem cSlot_inb (n : ℕ) : ∀ a, cSlot n a + S1x32x128.size a ≤ S6x32x128.size a := slot_inb (n % 6) (Nat.mod_lt _ (by decide))
abbrev cSem (n : ℕ) : Fin 1 → ℕ := ![n % 6]
theorem cSem_inb (n : ℕ) : ∀ a, cSem n a + S1.size a ≤ S6.size a := sem6_inb (n % 6) (Nat.mod_lt _ (by decide))
abbrev cList (n : ℕ) : Fin 1 → ℕ := ![n / 32 % 2 * 1024 + n % 32 * 32]
theorem cList_inb (n : ℕ) : ∀ a, cList n a + S32.size a ≤ S2048.size a := list_inb _ (by omega)
abbrev cTab (n : ℕ) : Fin 2 → ℕ := ![1000 * (n / 32), 0]
theorem cTab_inb (n : ℕ) (h : n < 416) : ∀ a, cTab n a + S1000x128.size a ≤ S13000x128.size a := tab_inb _ (by omega)
abbrev cOut (L : grid0.Coords) (n : ℕ) : Fin 2 → ℕ := ![1024 * (L 1).val + 32 * (n % 32), 128 * (13 * (L 0).val + n / 32)]
theorem cOut_inb (L : grid0.Coords) (n : ℕ) (h : n < 416) : ∀ a, cOut L n a + S32x128.size a ≤ S16384x3328.size a := by
  have h0 : (L 0).val < 2 := (L 0).isLt
  have h1 : (L 1).val < 16 := (L 1).isLt
  exact out_inb _ _ (by omega) (by omega)
/-- The half of the index scratch that field `f`'s column is fetched into, and that column in the flattened columns. -/
abbrev cHalf (f : ℕ) : Fin 1 → ℕ := ![f % 2 * 1024]
theorem cHalf_inb (f : ℕ) : ∀ a, cHalf f a + S1024.size a ≤ S2048.size a := half_inb _ (by omega)
abbrev cIsem (f : ℕ) : Fin 1 → ℕ := ![f % 2]
theorem cIsem_inb (f : ℕ) : ∀ a, cIsem f a + S1.size a ≤ S2.size a := sem2_inb _ (Nat.mod_lt _ (by decide))
abbrev cCol (L : grid0.Coords) (f : ℕ) : Fin 1 → ℕ := ![212992 * (L 0).val + 16384 * f + 1024 * (L 1).val]
theorem cCol_inb (L : grid0.Coords) (f : ℕ) (h : f < 13) : ∀ a, cCol L f a + S1024.size a ≤ S425984.size a := by
  have h0 : (L 0).val < 2 := (L 0).isLt
  have h1 : (L 1).val < 16 := (L 1).isLt
  intro a; fin_cases a; simp; omega

/-! ## What a piece must hold -/

variable {d : Dev nD}

theorem resRow_lt (L : grid0.Coords) (n : ℕ) (y : S32x128.Idx) : 1024 * (L 1).val + 32 * (n % 32) + (y 0).val < 16384 := by
  have h1 : (L 1).val < 16 := (L 1).isLt
  have hy : (y 0).val < 32 := (y 0).isLt
  omega
theorem resCol_lt (L : grid0.Coords) (n : ℕ) (h : n < 416) (y : S32x128.Idx) : 128 * (13 * (L 0).val + n / 32) + (y 1).val < 3328 := by
  have h0 : (L 0).val < 2 := (L 0).isLt
  have hy : (y 1).val < 128 := (y 1).isLt
  omega
/-- The result's entry that entry `y` of chunk `n`'s block is. -/
def resAt (X : Buf (Elt F) (ixLoc d)) (Tb : Buf (Elt F) (tbLoc d)) (L : grid0.Coords) (n : ℕ) (h : n < 416) (y : S32x128.Idx) : Elt F .f32 :=
  Cert.Lookup.gathered X Tb (ix2 (n0 := 16384) (n1 := 3328) ⟨1024 * (L 1).val + 32 * (n % 32) + (y 0).val, resRow_lt L n y⟩ ⟨128 * (13 * (L 0).val + n / 32) + (y 1).val, resCol_lt L n h y⟩)

/-- Ring slot `n % 6` holds chunk `n`'s rows. -/
def SlotOK (X : Buf (Elt F) (ixLoc d)) (Tb : Buf (Elt F) (tbLoc d)) (L : grid0.Coords) (n : ℕ) (h : n < 416)
    (g : Buf (Elt F) ((V d (cV L) (jV L)).loc cc0_scratch2)) : Prop :=
  ∀ y : S32x128.Idx, (slotO (cSlot n) (cSlot_inb n)).view.read (Elt F) g y = resAt X Tb L n h y

/-- Chunk `n`'s block of the result holds the result's entries. -/
def OutOK (X : Buf (Elt F) (ixLoc d)) (Tb : Buf (Elt F) (tbLoc d)) (L : grid0.Coords) (n : ℕ) (h : n < 416)
    (fo : Buf (Elt F) (outLoc d)) : Prop :=
  ∀ y : S32x128.Idx, (outO (cOut L n) (cOut_inb L n h)).view.read (Elt F) fo y = resAt X Tb L n h y

theorem colWord_lt (L : grid0.Coords) (f : ℕ) (h : f < 13) (r : ℕ) (hr : r < 1024) : 16384 * (13 * (L 0).val + f) + 1024 * (L 1).val + r < 425984 := by
  have h0 : (L 0).val < 2 := (L 0).isLt
  have h1 : (L 1).val < 16 := (L 1).isLt
  omega
/-- The half of the index scratch for field `f` holds the tile's index column of field `f`. -/
def HalfOK (X : Buf (Elt F) (ixLoc d)) (L : grid0.Coords) (f : ℕ) (h : f < 13)
    (fi : Buf (Elt F) ((V d (cV L) (jV L)).loc cc0_scratch1)) : Prop :=
  ∀ y : S1024.Idx, (halfO (cHalf f) (cHalf_inb f)).view.read (Elt F) fi y = X (ix1 (n := 425984) ⟨16384 * (13 * (L 0).val + f) + 1024 * (L 1).val + (y 0).val, colWord_lt L f h _ (y 0).isLt⟩)

end Cert.Proof.KI

end
-- ==== Proof.InvFlights.lean ====
import proofs.«206644_g35837207118489_cont_8to1_b_589_28_alg».proof.Proof.InvDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-! ## Copies in flight, by the offsets of what they hold -/

section Flights

variable (d : Dev nD) (L : grid0.Coords)

/-- A gather in flight on the gathers' semaphore at `gs`: it will hand back the slot at `sl` holding `g`, the list at `li` holding
    `fi`, and the share `q` of the table at `tb`. -/
def GFo (gs : Fin 1 → ℕ) (hgs : ∀ a, gs a + S1.size a ≤ S6.size a) (sl : Fin 3 → ℕ) (hsl : ∀ a, sl a + S1x32x128.size a ≤ S6x32x128.size a)
    (li : Fin 1 → ℕ) (hli : ∀ a, li a + S32.size a ≤ S2048.size a) (tb : Fin 2 → ℕ) (htb : ∀ a, tb a + S1000x128.size a ≤ S13000x128.size a)
    (q : PosShare TreeShare) (g : Buf (Elt F) ((V d (cV L) (jV L)).loc cc0_scratch2)) (fi : Buf (Elt F) ((V d (cV L) (jV L)).loc cc0_scratch1))
    (Sp : Buf (Elt F) ((V d (cV L) (jV L)).loc cc0_scratch0)) : sProp 𝕄 :=
  Transfers.Flight countersEmb (V d (cV L) (jV L)) (SemLoc.dma (gsemO gs hgs).sem) (default : HIx 1) 131072
    iprop((((slotO sl hsl).view.loc (V d (cV L) (jV L)) ↦[(slotO sl hsl).view.set]{fullShare} g)
        ∗ ((listO li hli).view.loc (V d (cV L) (jV L)) ↦[(listO li hli).view.set]{fullShare} fi))
      ∗ ((tabO tb htb).view.loc (V d (cV L) (jV L)) ↦[(tabO tb htb).view.set]{q} Sp))

theorem GFo_congr {gs gs' : Fin 1 → ℕ} {hgs hgs'} {sl sl' : Fin 3 → ℕ} {hsl hsl'} {li li' : Fin 1 → ℕ} {hli hli'} {tb tb' : Fin 2 → ℕ} {htb htb'}
    (e1 : gs = gs') (e2 : sl = sl') (e3 : li = li') (e4 : tb = tb') (q : PosShare TreeShare) (g) (fi) (Sp) :
    GFo (F := F) d L gs hgs sl hsl li hli tb htb q g fi Sp = GFo d L gs' hgs' sl' hsl' li' hli' tb' htb' q g fi Sp := by
  subst e1 e2 e3 e4; rfl

/-- A copy-out in flight on the copy-outs' semaphore at `ss`: it will hand back the result block at `ou` holding `fo` and the slot at
    `sl` holding `g`. -/
def SFo (ss : Fin 1 → ℕ) (hss : ∀ a, ss a + S1.size a ≤ S6.size a) (ou : Fin 2 → ℕ) (hou : ∀ a, ou a + S32x128.size a ≤ S16384x3328.size a)
    (sl : Fin 3 → ℕ) (hsl : ∀ a, sl a + S1x32x128.size a ≤ S6x32x128.size a)
    (fo : Buf (Elt F) (outLoc d)) (g : Buf (Elt F) ((V d (cV L) (jV L)).loc cc0_scratch2)) : sProp 𝕄 :=
  Transfers.Flight countersEmb (V d (cV L) (jV L)) (SemLoc.dma (ssemO ss hss).sem) (default : HIx 1) 131072
    iprop(((outO ou hou).view.loc (V d (cV L) (jV L)) ↦[(outO ou hou).view.set]{fullShare} fo)
      ∗ ((slotO sl hsl).view.loc (V d (cV L) (jV L)) ↦[(slotO sl hsl).view.set]{fullShare} g))

theorem SFo_congr {ss ss' : Fin 1 → ℕ} {hss hss'} {ou ou' : Fin 2 → ℕ} {hou hou'} {sl sl' : Fin 3 → ℕ} {hsl hsl'}
    (e1 : ss = ss') (e2 : ou = ou') (e3 : sl = sl') (fo) (g) :
    SFo (F := F) d L ss hss ou hou sl hsl fo g = SFo d L ss' hss' ou' hou' sl' hsl' fo g := by
  subst e1 e2 e3; rfl

/-- The rest of a share of the shared scratch beside the table a gather borrowed. -/
def spRest (tb : Fin 2 → ℕ) (htb : ∀ a, tb a + S1000x128.size a ≤ S13000x128.size a) (q : PosShare TreeShare)
    (Sp : Buf (Elt F) ((V d (cV L) (jV L)).loc cc0_scratch0)) : sProp 𝕄 :=
  (spV).view.loc (V d (cV L) (jV L)) ↦[Finset.univ \ (tabO tb htb).view.set]{q} Sp

theorem spRest_congr {tb tb' : Fin 2 → ℕ} {htb htb'} (e : tb = tb') (q) (Sp) :
    spRest (F := F) d L tb htb q Sp = spRest d L tb' htb' q Sp := by subst e; rfl

/-- A semaphore of the gathers, of the copy-outs, at zero. -/
def gsem0 (gs : Fin 1 → ℕ) (hgs : ∀ a, gs a + S1.size a ≤ S6.size a) : sProp 𝕄 := semVal ((V d (cV L) (jV L)), SemLoc.dma (gsemO gs hgs).sem) 0
def ssem0 (ss : Fin 1 → ℕ) (hss : ∀ a, ss a + S1.size a ≤ S6.size a) : sProp 𝕄 := semVal ((V d (cV L) (jV L)), SemLoc.dma (ssemO ss hss).sem) 0
theorem gsem0_congr {gs gs' : Fin 1 → ℕ} {hgs hgs'} (e : gs = gs') : gsem0 (F := F) d L gs hgs = gsem0 d L gs' hgs' := by subst e; rfl
theorem ssem0_congr {ss ss' : Fin 1 → ℕ} {hss hss'} (e : ss = ss') : ssem0 (F := F) d L ss hss = ssem0 d L ss' hss' := by subst e; rfl

/-- A result block held at `fo`. -/
def outPts (ou : Fin 2 → ℕ) (hou : ∀ a, ou a + S32x128.size a ≤ S16384x3328.size a) (fo : Buf (Elt F) (outLoc d)) : sProp 𝕄 :=
  (outO ou hou).view.loc (V d (cV L) (jV L)) ↦[(outO ou hou).view.set]{fullShare} fo
theorem outPts_congr {ou ou' : Fin 2 → ℕ} {hou hou'} (e : ou = ou') (fo) : outPts (F := F) d L ou hou fo = outPts d L ou' hou' fo := by subst e; rfl

/-- The index scratch but three lists. -/
def ixRest3 (base : Finset (Idx ((ixsV).view.loc (V d (cV L) (jV L))))) (a : Fin 1 → ℕ) (ha : ∀ x, a x + S32.size x ≤ S2048.size x) (b : Fin 1 → ℕ) (hb : ∀ x, b x + S32.size x ≤ S2048.size x)
    (c : Fin 1 → ℕ) (hc : ∀ x, c x + S32.size x ≤ S2048.size x) (fi : Buf (Elt F) ((V d (cV L) (jV L)).loc cc0_scratch1)) : sProp 𝕄 :=
  (ixsV).view.loc (V d (cV L) (jV L)) ↦[@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set]{fullShare} fi
theorem ixRest3_congr {base} {a a' b b' c c' : Fin 1 → ℕ} {ha ha' hb hb' hc hc'} (e1 : a = a') (e2 : b = b') (e3 : c = c') (fi) :
    ixRest3 (F := F) d L base a ha b hb c hc fi = ixRest3 d L base a' ha' b' hb' c' hc' fi := by subst e1 e2 e3; rfl

end Flights

end Cert.Proof.KI

end
-- ==== Proof.Inv.lean ====
import proofs.«206644_g35837207118489_cont_8to1_b_589_28_alg».proof.Proof.InvFlights

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-! ## The loop's invariant

  Before trip `k` (its chunks are `2k + 6` and `2k + 7`): the gathers of chunks `2k + 3, 2k + 4, 2k + 5` are in flight, each into its slot with
  the right rows promised; the copy-outs of chunks `2k, 2k + 1, 2k + 2` are in flight, each onto its block with the right entries promised;
  the blocks of chunks below `2k` hold the result; those from `2k + 3` on are untouched.  The index scratch holds, in the half of the field
  the latest gathers belong to, that field's column, and in the other half the column of the next field (perhaps still on its way) or
  of the previous one. -/

section Inv

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

/-- The share of the shared scratch chunk `n`'s gather borrows from: the one numbered as the gathers' semaphore of the chunk's slot. -/
abbrev qs (n : ℕ) : PosShare TreeShare := Transfers.shareTokN (shq (jV L)) (2 + n % 6)
/-- The shared scratch's contents: the SparseCore's thirteen tables. -/
abbrev SpC : Buf (Elt F) ((V d (cV L) (jV L)).loc cc0_scratch0) := spVal Tb (cV L)

/-- Chunk `n`'s gather in flight, its slot promised right, beside the rest of the share it borrowed from. -/
def GatC (n : ℕ) (h : n < 416) (fi : Buf (Elt F) ((V d (cV L) (jV L)).loc cc0_scratch1)) : sProp 𝕄 :=
  iprop(∃ g, ⌜SlotOK X Tb L n h g⌝
    ∗ GFo d L (cSem n) (cSem_inb n) (cSlot n) (cSlot_inb n) (cList n) (cList_inb n) (cTab n) (cTab_inb n h) (qs L n) g fi (SpC d L Tb)
    ∗ spRest d L (cTab n) (cTab_inb n h) (qs L n) (SpC d L Tb))

/-- Chunk `n`'s copy-out in flight, its block promised right. -/
def ScaC (n : ℕ) (h : n < 416) : sProp 𝕄 :=
  iprop(∃ g fo, ⌜OutOK X Tb L n h fo⌝ ∗ SFo d L (cSem n) (cSem_inb n) (cOut L n) (cOut_inb L n h) (cSlot n) (cSlot_inb n) fo g)

theorem GatC_congr {n n' : ℕ} {h h'} (e : n = n') (fi) : GatC (F := F) d L X Tb n h fi = GatC d L X Tb n' h' fi := by subst e; rfl
theorem ScaC_congr {n n' : ℕ} {h h'} (e : n = n') : ScaC (F := F) d L X Tb n h = ScaC d L X Tb n' h' := by subst e; rfl

/-- An idle share of the shared scratch. -/
def idleSh (n : ℕ) : sProp 𝕄 := (spV).view.loc (V d (cV L) (jV L)) ↦{qs L n} SpC d L Tb

/-- The blocks of chunks from `m` on, untouched; those below `m`, holding the result. -/
def OutRest (m : ℕ) : sProp 𝕄 :=
  bigSep ((Finset.range 416).filter fun n => m ≤ n) fun n => if h : n < 416 then outPts d L (cOut L n) (cOut_inb L n h) f0 else iprop(emp)
def OutDone (m : ℕ) : sProp 𝕄 :=
  bigSep (Finset.range m) fun n => if h : n < 416 then outPts d L (cOut L n) (cOut_inb L n h) (Cert.Lookup.gathered X Tb) else iprop(emp)

/-- The field of the latest gathers, and the field whose column the other half holds (or will, once its fetch lands). -/
abbrev curF (k : ℕ) : ℕ := (2 * k + 5) / 32
abbrev othF (k : ℕ) : ℕ := if (2 * k + 6) % 32 = 2 then curF k - 1 else if curF k + 1 < 13 then curF k + 1 else curF k - 1
/-- Whether a column's fetch is on its way before trip `k`. -/
abbrev pending (k : ℕ) : Prop := ¬ ((2 * k + 6) % 32 = 2) ∧ curF k + 1 < 13

theorem curF_lt (k : ℕ) (hk : k ≤ 205) : curF k < 13 := by unfold curF; omega
theorem othF_lt (k : ℕ) (hk : k ≤ 205) : othF k < 13 := by unfold othF curF; split <;> [omega; (split <;> omega)]

/-- The index scratch and the fetches while the column of field `cf + 1` is on its way: the scratch but that column's half and
    three lists; the other fetch semaphore at zero; the fetch in flight; the flattened columns but that column. -/
def IxPend (cf : ℕ) (h : cf + 1 < 13) (a b c : ℕ) (fi : Buf (Elt F) ((V d (cV L) (jV L)).loc cc0_scratch1)) : sProp 𝕄 :=
  iprop(ixRest3 d L (@SDiff.sdiff (Finset (Idx ((ixsV).view.loc (V d (cV L) (jV L))))) _ Finset.univ (halfO (cHalf (cf + 1)) (cHalf_inb (cf + 1))).view.set) (cList a) (cList_inb a) (cList b) (cList_inb b) (cList c) (cList_inb c) fi
    ∗ semVal ((V d (cV L) (jV L)), SemLoc.dma (isemO (cIsem cf) (cIsem_inb cf)).sem) 0
    ∗ Transfers.Flight countersEmb (V d (cV L) (jV L)) (SemLoc.dma (isemO (cIsem (cf + 1)) (cIsem_inb (cf + 1))).sem) (default : HIx 1) 32768
        iprop(((ixsV).view.loc (V d (cV L) (jV L)) ↦[(halfO (cHalf (cf + 1)) (cHalf_inb (cf + 1))).view.set]{fullShare} fi)
          ∗ ((xfV).view.loc (V d (cV L) (jV L)) ↦[(colO (cCol L (cf + 1)) (cCol_inb L (cf + 1) h)).view.set]{shareOf L} X))
    ∗ ((xfV).view.loc (V d (cV L) (jV L)) ↦[Finset.univ \ (colO (cCol L (cf + 1)) (cCol_inb L (cf + 1) h)).view.set]{shareOf L} X))

theorem IxPend_congr {cf cf' : ℕ} {h h'} {a a' b b' c c' : ℕ} (e0 : cf = cf') (e1 : a = a') (e2 : b = b') (e3 : c = c') (fi) :
    IxPend (F := F) d L X cf h a b c fi = IxPend d L X cf' h' a' b' c' fi := by subst e0 e1 e2 e3; rfl

/-- The index scratch and the fetches while no column is on its way: the scratch but three lists; both fetch semaphores at zero;
    the flattened columns' share whole. -/
def IxNone (a b c : ℕ) (fi : Buf (Elt F) ((V d (cV L) (jV L)).loc cc0_scratch1)) : sProp 𝕄 :=
  iprop(ixRest3 d L Finset.univ (cList a) (cList_inb a) (cList b) (cList_inb b) (cList c) (cList_inb c) fi
    ∗ semVal ((V d (cV L) (jV L)), SemLoc.dma (isemO ![0] inb_S2_S1_0).sem) 0
    ∗ semVal ((V d (cV L) (jV L)), SemLoc.dma (isemO ![1] inb_S2_S1_1).sem) 0
    ∗ ((xfV).view.loc (V d (cV L) (jV L)) ↦{shareOf L} X))

theorem IxNone_congr {a a' b b' c c' : ℕ} (e1 : a = a') (e2 : b = b') (e3 : c = c') (fi) :
    IxNone (F := F) d L X a b c fi = IxNone d L X a' b' c' fi := by subst e1 e2 e3; rfl

/-- The index scratch and the fetches' state before trip `k`. -/
def IxPart (k : ℕ) (fi : Buf (Elt F) ((V d (cV L) (jV L)).loc cc0_scratch1)) : sProp 𝕄 :=
  if h : pending k then IxPend d L X (curF k) h.2 (2 * k + 3) (2 * k + 4) (2 * k + 5) fi else IxNone d L X (2 * k + 3) (2 * k + 4) (2 * k + 5) fi

/-- The invariant before trip `k ≤ 205`. -/
def InvAt (k : ℕ) (hk : k ≤ 205) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ (∃ fi, ⌜HalfOK X L (curF k) (curF_lt k hk) fi ∧ HalfOK X L (othF k) (othF_lt k hk) fi⌝
        ∗ GatC d L X Tb (2 * k + 3) (by omega) fi ∗ GatC d L X Tb (2 * k + 4) (by omega) fi ∗ GatC d L X Tb (2 * k + 5) (by omega) fi
        ∗ IxPart d L X k fi)
    ∗ idleSh d L Tb (2 * k + 6) ∗ idleSh d L Tb (2 * k + 7) ∗ idleSh d L Tb (2 * k + 8)
    ∗ ((spV).view.loc (V d (cV L) (jV L)) ↦{Transfers.shareDrop (shq (jV L)) 8} SpC d L Tb)
    ∗ ScaC d L X Tb (2 * k + 0) (by omega) ∗ ScaC d L X Tb (2 * k + 1) (by omega) ∗ ScaC d L X Tb (2 * k + 2) (by omega)
    ∗ gsem0 d L (cSem (2 * k + 6)) (cSem_inb (2 * k + 6)) ∗ gsem0 d L (cSem (2 * k + 7)) (cSem_inb (2 * k + 7)) ∗ gsem0 d L (cSem (2 * k + 8)) (cSem_inb (2 * k + 8))
    ∗ ssem0 d L (cSem (2 * k + 3)) (cSem_inb (2 * k + 3)) ∗ ssem0 d L (cSem (2 * k + 4)) (cSem_inb (2 * k + 4)) ∗ ssem0 d L (cSem (2 * k + 5)) (cSem_inb (2 * k + 5))
    ∗ OutRest d L f0 (2 * k + 3) ∗ OutDone d L X Tb (2 * k)
    ∗ ((tbV).view.loc (V d (cV L) (jV L)) ↦{shareOf L} Tb)
    ∗ semVal ((V d (cV L) (jV L)), SemLoc.dma cc0_scoped0.sem) 0
    ∗ restBufs d L)

/-- The invariant, for the loop rule: trips beyond the last never occur. -/
def Inv (k : ℕ) (_ : BitVec 32) : sProp 𝕄 := if hk : k ≤ 205 then InvAt d L X Tb f0 O W k hk else iprop(False)

end Inv

end Cert.Proof.KI

end
-- ==== Proof.RegionDef.lean ====
import proofs.«206644_g35837207118489_cont_8to1_b_589_28_alg».proof.Proof.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-- The loop's region: one trip takes the invariant before it to the invariant after it. -/
def Region : Prop :=
  ∀ (d : Dev nD) (L : grid0.Coords) (X : Buf (Elt F) (ixLoc d)) (_hX : ∀ j, (X j).toNat < 1000) (Tb : Buf (Elt F) (tbLoc d))
    (f0 : Buf (Elt F) (outLoc d)) (O : CellTallies nD τ sig (HIx 1)) (W : Waits sig (HIx 1)) (_hO : ∀ g, O g none = 0)
    (k : Fin k0_t1_loop.trips) (acc : BitVec 32),
    Inv d L X Tb f0 O W k.val acc
      ⊢ wp frame (wpE (defs₀ (F := F)) 𝒱₀ (V d (cV L) (jV L)) none) Set.univ
          (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (Inv d L X Tb f0 O W (k.val + 1))

end Cert.Proof.KI

end
-- ==== Proof.InvGlue.lean ====
import proofs.«206644_g35837207118489_cont_8to1_b_589_28_alg».proof.Proof.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-! ## Taking the next untouched block, adding a finished one -/

section Glue

variable (d : Dev nD) (L : grid0.Coords) (X : Buf (Elt F) (ixLoc d)) (Tb : Buf (Elt F) (tbLoc d)) (f0 : Buf (Elt F) (outLoc d))

/-- The untouched blocks from `m` on are block `m` and those from `m + 1` on. -/
theorem outRest_pop (m : ℕ) (hm : m < 416) :
    OutRest (F := F) d L f0 m = iprop(outPts d L (cOut L m) (cOut_inb L m hm) f0 ∗ OutRest d L f0 (m + 1)) := by
  unfold OutRest
  have hs : ((Finset.range 416).filter fun n => m ≤ n) = insert m ((Finset.range 416).filter fun n => m + 1 ≤ n) := by
    ext n; simp only [Finset.mem_filter, Finset.mem_range, Finset.mem_insert]; omega
  rw [hs, bigSep_insert (by simp), dif_pos hm]; rfl

/-- The finished blocks below `m + 1` are block `m` and those below `m`. -/
theorem outDone_push (m : ℕ) (hm : m < 416) :
    OutDone (F := F) d L X Tb (m + 1) = iprop(outPts d L (cOut L m) (cOut_inb L m hm) (Cert.Lookup.gathered X Tb) ∗ OutDone d L X Tb m) := by
  unfold OutDone
  rw [Finset.range_add_one, bigSep_insert (by simp), dif_pos hm]; rfl

end Glue

end Cert.Proof.KI

end
-- ==== Proof.BodyDisj.lean ====
/-
  Which pieces of the index scratch the copies in flight during one trip of the loop use, and that they do not overlap.

  The index scratch has two halves of 1024 words; field `f`'s column lives in half `f % 2`, and chunk `n` (field `n / 32`, block
  `n % 32`) reads the 32 words from `(n / 32 % 2) * 1024 + (n % 32) * 32`: word-block `n % 64` of the scratch's sixty-four.  Two
  different chunks less than 64 apart therefore read different blocks.  During trip `k` the gathers of chunks `2k + 3 … 2k + 7`
  hold their lists.  On a trip that fetches the next field's column (chunk `2k + 6` is block 2 of field `fl`) the fetch goes into
  half `(fl + 1) % 2`: chunks `2k + 4 … 2k + 7` (blocks 0 to 3 of field `fl`) read the other half, and chunk `2k + 3` (block 31
  of field `fl - 1`) read this one — its words lie inside the half fetched into.
-/
import proofs.«206644_g35837207118489_cont_8to1_b_589_28_alg».proof.Proof.InvDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD}

/-! ## The element sets of a list and of a half -/

theorem listO_set (off : Fin 1 → ℕ) (h : ∀ a, off a + S32.size a ≤ S2048.size a) :
    (listO off h).view.set = (Rect.unit (s := S2048) off S32.size h).set := by
  show ((View.whole (cc0_scratch1 : Ref sig .scVector)).slice (Rect.unit (s := S2048) off S32.size h)).set = _
  rw [View.set_slice]; exact Finset.map_refl

theorem halfO_set (off : Fin 1 → ℕ) (h : ∀ a, off a + S1024.size a ≤ S2048.size a) :
    (halfO off h).view.set = (Rect.unit (s := S2048) off S1024.size h).set := by
  show ((View.whole (cc0_scratch1 : Ref sig .scVector)).slice (Rect.unit (s := S2048) off S1024.size h)).set = _
  rw [View.set_slice]; exact Finset.map_refl

/-- Two lists whose word ranges are apart share no word. -/
theorem listO_disjoint {o o' : Fin 1 → ℕ} {h : ∀ a, o a + S32.size a ≤ S2048.size a} {h' : ∀ a, o' a + S32.size a ≤ S2048.size a}
    (hsep : o 0 + 32 ≤ o' 0 ∨ o' 0 + 32 ≤ o 0) : Disjoint (listO o h).view.set (listO o' h').view.set := by
  rw [listO_set, listO_set]; exact Rect.unit_disjoint 0 hsep

/-- A half and a list whose word ranges are apart share no word. -/
theorem halfO_listO_disjoint {o o' : Fin 1 → ℕ} {h : ∀ a, o a + S1024.size a ≤ S2048.size a} {h' : ∀ a, o' a + S32.size a ≤ S2048.size a}
    (hsep : o 0 + 1024 ≤ o' 0 ∨ o' 0 + 32 ≤ o 0) : Disjoint (halfO o h).view.set (listO o' h').view.set := by
  rw [halfO_set, listO_set]; exact Rect.unit_disjoint 0 hsep

/-- A list whose word range lies inside a half's is part of the half. -/
theorem listO_subset_halfO {o o' : Fin 1 → ℕ} {h : ∀ a, o a + S32.size a ≤ S2048.size a} {h' : ∀ a, o' a + S1024.size a ≤ S2048.size a}
    (hsub : o' 0 ≤ o 0 ∧ o 0 + 32 ≤ o' 0 + 1024) : (listO o h).view.set ⊆ (halfO o' h').view.set := by
  rw [listO_set, halfO_set]
  intro i hi
  rw [Rect.mem_set_unit] at hi ⊢
  have h0 : o 0 ≤ (i 0).val ∧ (i 0).val < o 0 + 32 := hi 0
  exact Fin.forall_fin_one.mpr (show o' 0 ≤ (i 0).val ∧ (i 0).val < o' 0 + 1024 by omega)

theorem trip_lt (k : Fin k0_t1_loop.trips) : k.val < 205 := Nat.lt_of_lt_of_le k.isLt k0_t1_abs.2.1

/-! ## The lists of one trip, in the program's spelling -/

theorem list17_0_list6_0 (k : Fin k0_t1_loop.trips) :
    Disjoint (listO (k0_off17 k 0#32) (k0_off17_inb k 0)).view.set (listO (k0_off6 k 0#32) (k0_off6_inb k 0)).view.set := by
  have hk := trip_lt k
  refine listO_disjoint ?_
  rw [k0_off17_eq_0 k, k0_off6_eq_0 k]
  simp only [Matrix.cons_val_zero]
  omega
theorem list17_0_list6_1 (k : Fin k0_t1_loop.trips) :
    Disjoint (listO (k0_off17 k 0#32) (k0_off17_inb k 0)).view.set (listO (k0_off6 k 1#32) (k0_off6_inb k 1)).view.set := by
  have hk := trip_lt k
  refine listO_disjoint ?_
  rw [k0_off17_eq_0 k, k0_off6_eq_1 k]
  simp only [Matrix.cons_val_zero]
  omega
theorem list17_1_list6_0 (k : Fin k0_t1_loop.trips) :
    Disjoint (listO (k0_off17 k 1#32) (k0_off17_inb k 1)).view.set (listO (k0_off6 k 0#32) (k0_off6_inb k 0)).view.set := by
  have hk := trip_lt k
  refine listO_disjoint ?_
  rw [k0_off17_eq_1 k, k0_off6_eq_0 k]
  simp only [Matrix.cons_val_zero]
  omega
theorem list17_1_list6_1 (k : Fin k0_t1_loop.trips) :
    Disjoint (listO (k0_off17 k 1#32) (k0_off17_inb k 1)).view.set (listO (k0_off6 k 1#32) (k0_off6_inb k 1)).view.set := by
  have hk := trip_lt k
  refine listO_disjoint ?_
  rw [k0_off17_eq_1 k, k0_off6_eq_1 k]
  simp only [Matrix.cons_val_zero]
  omega
theorem list17_1_list17_0 (k : Fin k0_t1_loop.trips) :
    Disjoint (listO (k0_off17 k 1#32) (k0_off17_inb k 1)).view.set (listO (k0_off17 k 0#32) (k0_off17_inb k 0)).view.set := by
  have hk := trip_lt k
  refine listO_disjoint ?_
  rw [k0_off17_eq_1 k, k0_off17_eq_0 k]
  simp only [Matrix.cons_val_zero]
  omega
theorem list17_0_list5 (k : Fin k0_t1_loop.trips) :
    Disjoint (listO (k0_off17 k 0#32) (k0_off17_inb k 0)).view.set (listO (cList (2 * k.val + 5)) (cList_inb (2 * k.val + 5))).view.set := by
  have hk := trip_lt k
  refine listO_disjoint ?_
  rw [k0_off17_eq_0 k]
  simp only [Matrix.cons_val_zero]
  omega
theorem list17_1_list5 (k : Fin k0_t1_loop.trips) :
    Disjoint (listO (k0_off17 k 1#32) (k0_off17_inb k 1)).view.set (listO (cList (2 * k.val + 5)) (cList_inb (2 * k.val + 5))).view.set := by
  have hk := trip_lt k
  refine listO_disjoint ?_
  rw [k0_off17_eq_1 k]
  simp only [Matrix.cons_val_zero]
  omega
theorem list6_0_list6_1 (k : Fin k0_t1_loop.trips) :
    Disjoint (listO (k0_off6 k 0#32) (k0_off6_inb k 0)).view.set (listO (k0_off6 k 1#32) (k0_off6_inb k 1)).view.set := by
  have hk := trip_lt k
  refine listO_disjoint ?_
  rw [k0_off6_eq_0 k, k0_off6_eq_1 k]
  simp only [Matrix.cons_val_zero]
  omega
theorem list6_0_list5 (k : Fin k0_t1_loop.trips) :
    Disjoint (listO (k0_off6 k 0#32) (k0_off6_inb k 0)).view.set (listO (cList (2 * k.val + 5)) (cList_inb (2 * k.val + 5))).view.set := by
  have hk := trip_lt k
  refine listO_disjoint ?_
  rw [k0_off6_eq_0 k]
  simp only [Matrix.cons_val_zero]
  omega
theorem list6_1_list5 (k : Fin k0_t1_loop.trips) :
    Disjoint (listO (k0_off6 k 1#32) (k0_off6_inb k 1)).view.set (listO (cList (2 * k.val + 5)) (cList_inb (2 * k.val + 5))).view.set := by
  have hk := trip_lt k
  refine listO_disjoint ?_
  rw [k0_off6_eq_1 k]
  simp only [Matrix.cons_val_zero]
  omega

/-! ## The half the next field's column is fetched into -/

theorem half10_list6_1 (k : Fin k0_t1_loop.trips) (h2 : k0_cond2 k = 1#1) :
    Disjoint (halfO (k0_off10 k) (k0_off10_inb k h2)).view.set (listO (k0_off6 k 1#32) (k0_off6_inb k 1)).view.set := by
  have hk := trip_lt k
  have hc := (k0_cond2_eq k).mp h2
  refine halfO_listO_disjoint ?_
  rw [k0_off10_eq k, k0_off6_eq_1 k]
  simp only [Matrix.cons_val_zero]
  omega
theorem half10_list5 (k : Fin k0_t1_loop.trips) (h2 : k0_cond2 k = 1#1) :
    Disjoint (halfO (k0_off10 k) (k0_off10_inb k h2)).view.set (listO (cList (2 * k.val + 5)) (cList_inb (2 * k.val + 5))).view.set := by
  have hk := trip_lt k
  have hc := (k0_cond2_eq k).mp h2
  refine halfO_listO_disjoint ?_
  rw [k0_off10_eq k]
  simp only [Matrix.cons_val_zero]
  omega
theorem half10_list17_0 (k : Fin k0_t1_loop.trips) (h2 : k0_cond2 k = 1#1) :
    Disjoint (halfO (k0_off10 k) (k0_off10_inb k h2)).view.set (listO (k0_off17 k 0#32) (k0_off17_inb k 0)).view.set := by
  have hk := trip_lt k
  have hc := (k0_cond2_eq k).mp h2
  refine halfO_listO_disjoint ?_
  rw [k0_off10_eq k, k0_off17_eq_0 k]
  simp only [Matrix.cons_val_zero]
  omega
theorem half10_list17_1 (k : Fin k0_t1_loop.trips) (h2 : k0_cond2 k = 1#1) :
    Disjoint (halfO (k0_off10 k) (k0_off10_inb k h2)).view.set (listO (k0_off17 k 1#32) (k0_off17_inb k 1)).view.set := by
  have hk := trip_lt k
  have hc := (k0_cond2_eq k).mp h2
  refine halfO_listO_disjoint ?_
  rw [k0_off10_eq k, k0_off17_eq_1 k]
  simp only [Matrix.cons_val_zero]
  omega
/-- Chunk `2k + 3` is the last block of the field before: its words are the last 32 of the half fetched into. -/
theorem list6_0_subset_half10 (k : Fin k0_t1_loop.trips) (h2 : k0_cond2 k = 1#1) :
    (listO (k0_off6 k 0#32) (k0_off6_inb k 0)).view.set ⊆ (halfO (k0_off10 k) (k0_off10_inb k h2)).view.set := by
  have hk := trip_lt k
  have hc := (k0_cond2_eq k).mp h2
  refine listO_subset_halfO ?_
  rw [k0_off10_eq k, k0_off6_eq_0 k]
  simp only [Matrix.cons_val_zero]
  omega

end Cert.Proof.KI
end
-- ==== Proof.InvIx.lean ====
/-
  The index scratch's bookkeeping at the end of a trip of the loop.

  During a trip five lists of the index scratch are out with gathers; at its end the two oldest have come back, and what is
  held of the scratch — everything but the five lists — and the two returned lists are, together, everything but the three
  lists still out.  The sets are disjoint word ranges: chunk `n` reads word-block `n % 64` of the scratch's sixty-four, and
  on a trip in the middle of a field (chunk `2k + 6` neither block 0 nor block 2 of its field) the five chunks `2k + 3 …
  2k + 7` all belong to the field whose half is NOT the one a pending column fetch is filling.
-/
import proofs.«206644_g35837207118489_cont_8to1_b_589_28_alg».proof.Proof.Inv
import proofs.«206644_g35837207118489_cont_8to1_b_589_28_alg».proof.Proof.BodyDisj

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

variable (d : Dev nD) (L : grid0.Coords)

/-! ## Rejoining two returned lists -/

/-- The scratch but five lists, with two of the lists, is the scratch but the other three. -/
theorem ix_rejoin (base : Finset (Idx ((ixsV).view.loc (V d (cV L) (jV L)))))
    (a b c n0 n1 : Fin 1 → ℕ) (ha : ∀ x, a x + S32.size x ≤ S2048.size x) (hb : ∀ x, b x + S32.size x ≤ S2048.size x)
    (hc : ∀ x, c x + S32.size x ≤ S2048.size x) (hn0 : ∀ x, n0 x + S32.size x ≤ S2048.size x) (hn1 : ∀ x, n1 x + S32.size x ≤ S2048.size x)
    (fi : Buf (Elt F) ((V d (cV L) (jV L)).loc cc0_scratch1))
    (hAb : ((listO a ha).view.set : Finset (Idx ((ixsV).view.loc (V d (cV L) (jV L))))) ⊆ base) (hBb : ((listO b hb).view.set : Finset (Idx ((ixsV).view.loc (V d (cV L) (jV L))))) ⊆ base)
    (hAB : Disjoint ((listO a ha).view.set : Finset (Idx ((ixsV).view.loc (V d (cV L) (jV L))))) (listO b hb).view.set)
    (hAC : Disjoint ((listO a ha).view.set : Finset (Idx ((ixsV).view.loc (V d (cV L) (jV L))))) (listO c hc).view.set)
    (hA0 : Disjoint ((listO a ha).view.set : Finset (Idx ((ixsV).view.loc (V d (cV L) (jV L))))) (listO n0 hn0).view.set)
    (hA1 : Disjoint ((listO a ha).view.set : Finset (Idx ((ixsV).view.loc (V d (cV L) (jV L))))) (listO n1 hn1).view.set)
    (hBC : Disjoint ((listO b hb).view.set : Finset (Idx ((ixsV).view.loc (V d (cV L) (jV L))))) (listO c hc).view.set)
    (hB0 : Disjoint ((listO b hb).view.set : Finset (Idx ((ixsV).view.loc (V d (cV L) (jV L))))) (listO n0 hn0).view.set)
    (hB1 : Disjoint ((listO b hb).view.set : Finset (Idx ((ixsV).view.loc (V d (cV L) (jV L))))) (listO n1 hn1).view.set) :
    iprop(((ixsV).view.loc (V d (cV L) (jV L)) ↦[@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set) (listO n0 hn0).view.set) (listO n1 hn1).view.set]{fullShare} fi)
        ∗ ((listO a ha).view.loc (V d (cV L) (jV L)) ↦[(listO a ha).view.set]{fullShare} fi)
        ∗ ((listO b hb).view.loc (V d (cV L) (jV L)) ↦[(listO b hb).view.set]{fullShare} fi))
      ⊢ ixRest3 d L base c hc n0 hn0 n1 hn1 fi := by
  unfold ixRest3
  have hA_T : ((listO a ha).view.set : Finset (Idx ((ixsV).view.loc (V d (cV L) (jV L)))))
      ⊆ @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO c hc).view.set) (listO n0 hn0).view.set) (listO n1 hn1).view.set := by
    intro x hx
    simp only [Finset.mem_sdiff]
    exact ⟨⟨⟨hAb hx, Finset.disjoint_left.mp hAC hx⟩, Finset.disjoint_left.mp hA0 hx⟩, Finset.disjoint_left.mp hA1 hx⟩
  have hB_TA : ((listO b hb).view.set : Finset (Idx ((ixsV).view.loc (V d (cV L) (jV L)))))
      ⊆ @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO c hc).view.set) (listO n0 hn0).view.set) (listO n1 hn1).view.set) (listO a ha).view.set := by
    intro x hx
    simp only [Finset.mem_sdiff]
    exact ⟨⟨⟨⟨hBb hx, Finset.disjoint_left.mp hBC hx⟩, Finset.disjoint_left.mp hB0 hx⟩, Finset.disjoint_left.mp hB1 hx⟩, Finset.disjoint_right.mp hAB hx⟩
  have hS : @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO c hc).view.set) (listO n0 hn0).view.set) (listO n1 hn1).view.set) (listO a ha).view.set) (listO b hb).view.set
      = @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set) (listO n0 hn0).view.set) (listO n1 hn1).view.set := by
    ext x
    simp only [Finset.mem_sdiff]
    tauto
  iintro ⟨Hi, Ha, Hb⟩
  iapply (pointsTo_split_subset hA_T).2
  isplitl [Ha]; · iexact Ha
  iapply (pointsTo_split_subset hB_TA).2
  isplitl [Hb]; · iexact Hb
  rw [hS]; iexact Hi

omit [FloatOps F] in
/-- A list that misses a half lies in the scratch but that half. -/
theorem listO_subset_but_half {o : Fin 1 → ℕ} {h : ∀ a, o a + S32.size a ≤ S2048.size a} {o' : Fin 1 → ℕ} {h' : ∀ a, o' a + S1024.size a ≤ S2048.size a}
    (hd : Disjoint (halfO o' h').view.set (listO o h).view.set) :
    ((listO o h).view.set : Finset (Idx ((ixsV).view.loc (V d (cV L) (jV L))))) ⊆ @SDiff.sdiff (Finset (Idx ((ixsV).view.loc (V d (cV L) (jV L))))) _ Finset.univ (halfO o' h').view.set := by
  intro x hx
  rw [Finset.mem_sdiff]
  exact ⟨Finset.mem_univ x, fun hx' => Finset.disjoint_left.mp hd hx' hx⟩

/-! ## A pending column fetch's half against the five lists of a trip in the middle of a field -/

omit [FloatOps F] in
theorem pend_list6_0 (k : Fin k0_t1_loop.trips) (hp : pending k.val) (h0 : (2 * k.val + 6) % 32 ≠ 0) :
    Disjoint (halfO (cHalf (curF k.val + 1)) (cHalf_inb (curF k.val + 1))).view.set (listO (k0_off6 k 0#32) (k0_off6_inb k 0)).view.set := by
  have hk := trip_lt k
  have h2 := hp.1
  refine halfO_listO_disjoint ?_
  rw [k0_off6_eq_0 k]
  simp only [Matrix.cons_val_zero]
  unfold curF
  omega
omit [FloatOps F] in
theorem pend_list6_1 (k : Fin k0_t1_loop.trips) (hp : pending k.val) (h0 : (2 * k.val + 6) % 32 ≠ 0) :
    Disjoint (halfO (cHalf (curF k.val + 1)) (cHalf_inb (curF k.val + 1))).view.set (listO (k0_off6 k 1#32) (k0_off6_inb k 1)).view.set := by
  have hk := trip_lt k
  have h2 := hp.1
  refine halfO_listO_disjoint ?_
  rw [k0_off6_eq_1 k]
  simp only [Matrix.cons_val_zero]
  unfold curF
  omega
omit [FloatOps F] in
theorem pend_list5 (k : Fin k0_t1_loop.trips) (hp : pending k.val) (h0 : (2 * k.val + 6) % 32 ≠ 0) :
    Disjoint (halfO (cHalf (curF k.val + 1)) (cHalf_inb (curF k.val + 1))).view.set (listO (cList (2 * k.val + 5)) (cList_inb (2 * k.val + 5))).view.set := by
  have hk := trip_lt k
  have h2 := hp.1
  refine halfO_listO_disjoint ?_
  skip
  simp only [Matrix.cons_val_zero]
  unfold curF
  omega
omit [FloatOps F] in
theorem pend_list17_0 (k : Fin k0_t1_loop.trips) (hp : pending k.val) (h0 : (2 * k.val + 6) % 32 ≠ 0) :
    Disjoint (halfO (cHalf (curF k.val + 1)) (cHalf_inb (curF k.val + 1))).view.set (listO (k0_off17 k 0#32) (k0_off17_inb k 0)).view.set := by
  have hk := trip_lt k
  have h2 := hp.1
  refine halfO_listO_disjoint ?_
  rw [k0_off17_eq_0 k]
  simp only [Matrix.cons_val_zero]
  unfold curF
  omega
omit [FloatOps F] in
theorem pend_list17_1 (k : Fin k0_t1_loop.trips) (hp : pending k.val) (h0 : (2 * k.val + 6) % 32 ≠ 0) :
    Disjoint (halfO (cHalf (curF k.val + 1)) (cHalf_inb (curF k.val + 1))).view.set (listO (k0_off17 k 1#32) (k0_off17_inb k 1)).view.set := by
  have hk := trip_lt k
  have h2 := hp.1
  refine halfO_listO_disjoint ?_
  rw [k0_off17_eq_1 k]
  simp only [Matrix.cons_val_zero]
  unfold curF
  omega

end Cert.Proof.KI

end
-- ==== Proof.Chunks.lean ====
/-
  The rectangle of the result one tile writes, cut into the 416 blocks it writes one at a time, and the thirty-two tiles'
  rectangles together.

  Tile `(c, s)` owns rows `[1024 s, 1024 s + 1024)` of columns `[1664 c, 1664 c + 1664)`.  It writes them as 416 blocks of
  32 rows by 128 columns: block `n` is block `n % 32` of the tile's rows (32 blocks of 32 rows) in field `n / 32` of the
  tile's thirteen fields (128 columns each).  The blocks of one tile are pairwise disjoint and fill the tile's rectangle;
  the rectangles of the thirty-two tiles are pairwise disjoint and fill the result.  Every statement is read through the
  two coordinates of an element, where it is linear arithmetic with division by the literals 32, 128, 1024 and 1664.
-/
import proofs.«206644_g35837207118489_cont_8to1_b_589_28_alg».proof.Proof.Geom

namespace Cert.Proof.KI

open Cert.KernelIdeal Cert.KernelIdeal.Gen
open Idealize.ShloMosaic Idealize.ShloMosaic.ValueIdx

/-- An element lies in a unit-stride rectangle of the result exactly when each of its two coordinates lies in the
    rectangle's range on that axis. -/
theorem mem_unit_out {off size : Fin 2 → Nat} {inb : ∀ a, off a + size a ≤ S16384x3328.size a} {j : S16384x3328.Idx} :
    j ∈ (Rect.unit (s := S16384x3328) off size inb).set ↔
      (off 0 ≤ (j 0).val ∧ (j 0).val < off 0 + size 0) ∧ (off 1 ≤ (j 1).val ∧ (j 1).val < off 1 + size 1) := by
  rw [Rect.mem_set_unit]; exact Fin.forall_fin_two

/-- Block `n` of tile `L = (c, s)`: rows `1024 s + 32 (n % 32) …` (32 of them), columns `128 (13 c + n / 32) …` (128 of them). -/
abbrev chunkRect (L : grid0.Coords) (n : Fin 416) : Rect S16384x3328 :=
  Rect.unit (s := S16384x3328) ![1024 * (L 1).val + 32 * (n.val % 32), 128 * (13 * (L 0).val + n.val / 32)] S32x128.size
    (Rect.inb₂ (d := ![16384, 3328])
      (by have h : (L 1).val < 16 := (L 1).isLt; show 1024 * (L 1).val + 32 * (n.val % 32) + 32 ≤ 16384; omega)
      (by have h : (L 0).val < 2 := (L 0).isLt; have hn := n.isLt; show 128 * (13 * (L 0).val + n.val / 32) + 128 ≤ 3328; omega))

/-- The tile's rectangle by coordinates. -/
theorem mem_outRect {L : grid0.Coords} {j : S16384x3328.Idx} :
    j ∈ (outRect L).set ↔
      (1024 * (L 1).val ≤ (j 0).val ∧ (j 0).val < 1024 * (L 1).val + 1024) ∧
        (1664 * (L 0).val ≤ (j 1).val ∧ (j 1).val < 1664 * (L 0).val + 1664) := mem_unit_out

/-- A block by coordinates. -/
theorem mem_chunkRect {L : grid0.Coords} {n : Fin 416} {j : S16384x3328.Idx} :
    j ∈ (chunkRect L n).set ↔
      (1024 * (L 1).val + 32 * (n.val % 32) ≤ (j 0).val ∧ (j 0).val < 1024 * (L 1).val + 32 * (n.val % 32) + 32) ∧
        (128 * (13 * (L 0).val + n.val / 32) ≤ (j 1).val ∧ (j 1).val < 128 * (13 * (L 0).val + n.val / 32) + 128) := mem_unit_out

/-- The block an element of the tile's rectangle lies in: its field within the tile and its block of rows. -/
def chunkOf (L : grid0.Coords) (j : S16384x3328.Idx) (h : j ∈ (outRect L).set) : Fin 416 :=
  ⟨((j 1).val - 1664 * (L 0).val) / 128 * 32 + ((j 0).val - 1024 * (L 1).val) / 32, by
    have h' := mem_outRect.mp h; omega⟩

theorem mem_chunkRect_chunkOf (L : grid0.Coords) (j : S16384x3328.Idx) (h : j ∈ (outRect L).set) :
    j ∈ (chunkRect L (chunkOf L j h)).set := by
  have h' := mem_outRect.mp h
  have e : (chunkOf L j h).val = ((j 1).val - 1664 * (L 0).val) / 128 * 32 + ((j 0).val - 1024 * (L 1).val) / 32 := rfl
  rw [mem_chunkRect]
  omega

/-- Two different blocks of one tile share no element: they differ in the block of rows or in the field. -/
theorem chunkRect_disjoint (L : grid0.Coords) {n m : Fin 416} (h : n ≠ m) : Disjoint (chunkRect L n).set (chunkRect L m).set :=
  Finset.disjoint_left.mpr fun j hn hm => by
    rw [mem_chunkRect] at hn hm
    have hn' := n.isLt; have hm' := m.isLt
    exact h (Fin.ext (by omega))

/-- Every block lies in the tile's rectangle. -/
theorem chunkRect_subset (L : grid0.Coords) (n : Fin 416) : (chunkRect L n).set ⊆ (outRect L).set := fun j hj => by
  rw [mem_chunkRect] at hj
  have hn := n.isLt
  rw [mem_outRect]; omega

/-- The 416 blocks fill the tile's rectangle. -/
theorem biUnion_chunkRect (L : grid0.Coords) : (Finset.univ : Finset (Fin 416)).biUnion (fun n => (chunkRect L n).set) = (outRect L).set := by
  ext j
  rw [Finset.mem_biUnion]
  exact ⟨fun ⟨n, _, hn⟩ => chunkRect_subset L n hn, fun h => ⟨chunkOf L j h, Finset.mem_univ _, mem_chunkRect_chunkOf L j h⟩⟩

/-- The hypothesis a split of a points-to along the blocks asks for. -/
theorem chunkRect_pairwise (L : grid0.Coords) :
    ∀ n ∈ (Finset.univ : Finset (Fin 416)), ∀ m ∈ (Finset.univ : Finset (Fin 416)), n ≠ m → Disjoint (chunkRect L n).set (chunkRect L m).set :=
  fun _ _ _ _ h => chunkRect_disjoint L h

/-- Two different tiles' rectangles share no element. -/
theorem outRect_disjoint {L L' : grid0.Coords} (h : L ≠ L') : Disjoint (outRect L).set (outRect L').set :=
  Finset.disjoint_left.mpr fun j hL hL' => by
    rw [mem_outRect] at hL hL'
    have h0 : (L 0).val = (L' 0).val := by omega
    have h1 : (L 1).val = (L' 1).val := by omega
    exact h (funext fun a => match a with | ⟨0, _⟩ => Fin.ext h0 | ⟨1, _⟩ => Fin.ext h1)

/-- The tile whose rectangle holds an element. -/
def tileOf (j : S16384x3328.Idx) : grid0.Coords :=
  coordsV ⟨(j 1).val / 1664, by have := idx2_lt1 j; show (j 1).val / 1664 < 2; omega⟩
    ⟨(j 0).val / 1024, by have := idx2_lt0 j; show (j 0).val / 1024 < 16; omega⟩

theorem mem_outRect_tileOf (j : S16384x3328.Idx) : j ∈ (outRect (tileOf j)).set := by
  rw [mem_outRect]
  show (1024 * ((j 0).val / 1024) ≤ (j 0).val ∧ (j 0).val < 1024 * ((j 0).val / 1024) + 1024) ∧
    (1664 * ((j 1).val / 1664) ≤ (j 1).val ∧ (j 1).val < 1664 * ((j 1).val / 1664) + 1664)
  omega

/-- The thirty-two rectangles fill the result. -/
theorem biUnion_outRect : (Finset.univ : Finset grid0.Coords).biUnion (fun L => (outRect L).set) = Finset.univ := by
  ext j
  rw [Finset.mem_biUnion]
  exact ⟨fun _ => Finset.mem_univ _, fun _ => ⟨tileOf j, Finset.mem_univ _, mem_outRect_tileOf j⟩⟩

theorem outRect_pairwise :
    ∀ L ∈ (Finset.univ : Finset grid0.Coords), ∀ L' ∈ (Finset.univ : Finset grid0.Coords), L ≠ L' → Disjoint (outRect L).set (outRect L').set :=
  fun _ _ _ _ h => outRect_disjoint h

/-- The same two facts over the sets as a tile addresses them. -/
theorem outSet_disjoint {L L' : grid0.Coords} (h : L ≠ L') : Disjoint (outSet L) (outSet L') := by
  rw [outSet_eq, outSet_eq]; exact outRect_disjoint h
theorem biUnion_outSet : (Finset.univ : Finset grid0.Coords).biUnion outSet = Finset.univ := by
  rw [show outSet = fun L => (outRect L).set from funext outSet_eq]; exact biUnion_outRect

end Cert.Proof.KI
-- ==== Proof.BodyLemmas.lean ====
/-
  What the copies of one chunk move, as facts about values.

  Chunk `n` of tile `(c, s)` gathers into ring slot `n % 6`, for each of its 32 batch entries `i`, the row of the staged shared scratch
  that the `i`-th word of the chunk's list names, out of the thousand rows `1000 (n / 32) …` of its field's table.  The staged scratch
  of SparseCore `c` holds rows `13000 c …` of the flattened tables, so that row is row `1000 (13 c + n / 32) + w` of the flattened
  tables; the list's word `i` is the flattened index columns' word at `16384 (13 c + n / 32) + 1024 s + 32 (n % 32) + i`, which is
  below 1000, so wrapping it into the thousand rows changes nothing: the slot's entry `(i, q)` is the result's entry at row
  `1024 s + 32 (n % 32) + i`, column `128 (13 c + n / 32) + q`.  The copy out moves the slot unchanged onto those rows and columns.
  Reading a slice is reading the array at the slice's offsets plus the index: each step is one such equation and linear arithmetic.
-/
import proofs.«206644_g35837207118489_cont_8to1_b_589_28_alg».proof.Proof.InvDefs
import proofs.«206644_g35837207118489_cont_8to1_b_589_28_alg».proof.Proof.Chunks
import proofs.«206644_g35837207118489_cont_8to1_b_589_28_alg».proof.Proof.Flat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD}

/-! ## Reading through a view, by position -/

theorem listO_read (L : grid0.Coords) (off : Fin 1 → ℕ) (h : ∀ a, off a + S32.size a ≤ S2048.size a)
    (fi : Buf (Elt F) ((V d (cV L) (jV L)).loc cc0_scratch1)) (k : S32.Idx) (hk : off 0 + (k 0).val < 2048) :
    (listO off h).view.read (Elt F) fi k = fi (ix1 (n := 2048) ⟨off 0 + (k 0).val, hk⟩) := by
  show fi _ = fi _
  refine congrArg fi (funext fun a => ?_)
  match a with
  | ⟨0, _⟩ => exact Fin.ext (by show off 0 + 1 * (k 0).val = off 0 + (k 0).val; omega)

theorem halfO_read (L : grid0.Coords) (off : Fin 1 → ℕ) (h : ∀ a, off a + S1024.size a ≤ S2048.size a)
    (fi : Buf (Elt F) ((V d (cV L) (jV L)).loc cc0_scratch1)) (k : S1024.Idx) (hk : off 0 + (k 0).val < 2048) :
    (halfO off h).view.read (Elt F) fi k = fi (ix1 (n := 2048) ⟨off 0 + (k 0).val, hk⟩) := by
  show fi _ = fi _
  refine congrArg fi (funext fun a => ?_)
  match a with
  | ⟨0, _⟩ => exact Fin.ext (by show off 0 + 1 * (k 0).val = off 0 + (k 0).val; omega)

theorem tabO_read (L : grid0.Coords) (off : Fin 2 → ℕ) (h : ∀ a, off a + S1000x128.size a ≤ S13000x128.size a)
    (Sp : Buf (Elt F) ((V d (cV L) (jV L)).loc cc0_scratch0)) (z : S1000x128.Idx) (h0 : off 0 + (z 0).val < 13000) (h1 : off 1 + (z 1).val < 128) :
    (tabO off h).view.read (Elt F) Sp z = Sp (ix2 (n0 := 13000) (n1 := 128) ⟨off 0 + (z 0).val, h0⟩ ⟨off 1 + (z 1).val, h1⟩) := by
  show Sp _ = Sp _
  refine congrArg Sp (funext fun a => ?_)
  match a with
  | ⟨0, _⟩ => exact Fin.ext (by show off 0 + 1 * (0 + 1 * (z 0).val) = off 0 + (z 0).val; omega)
  | ⟨1, _⟩ => exact Fin.ext (by show off 1 + 1 * (0 + 1 * (z 1).val) = off 1 + (z 1).val; omega)

theorem outO_read (off : Fin 2 → ℕ) (h : ∀ a, off a + S32x128.size a ≤ S16384x3328.size a)
    (fo : Buf (Elt F) (outLoc d)) (y : S32x128.Idx) (h0 : off 0 + (y 0).val < 16384) (h1 : off 1 + (y 1).val < 3328) :
    (outO off h).view.read (Elt F) fo y = fo (ix2 (n0 := 16384) (n1 := 3328) ⟨off 0 + (y 0).val, h0⟩ ⟨off 1 + (y 1).val, h1⟩) := by
  show fo _ = fo _
  refine congrArg fo (funext fun a => ?_)
  match a with
  | ⟨0, _⟩ => exact Fin.ext (by show off 0 + 1 * (y 0).val = off 0 + (y 0).val; omega)
  | ⟨1, _⟩ => exact Fin.ext (by show off 1 + 1 * (y 1).val = off 1 + (y 1).val; omega)

theorem ix1_congr {n : ℕ} {a a' : Fin n} (ha : a.val = a'.val) : ix1 a = ix1 a' := by rw [Fin.ext ha]
theorem ix2_congr {n0 n1 : ℕ} {a a' : Fin n0} {b b' : Fin n1} (ha : a.val = a'.val) (hb : b.val = b'.val) : ix2 a b = ix2 a' b' := by
  rw [Fin.ext ha, Fin.ext hb]

/-! ## The index words of a chunk -/

/-- Word `k` of chunk `n`'s list is the flattened index columns' word for batch entry `1024 s + 32 (n % 32) + k` of field `13 c + n / 32`. -/
theorem list_word (X : Buf (Elt F) (ixLoc d)) (L : grid0.Coords) (n : ℕ) (h : n < 416)
    (fi : Buf (Elt F) ((V d (cV L) (jV L)).loc cc0_scratch1)) (hfi : HalfOK X L (n / 32) (by omega) fi) (k : S32.Idx)
    (hw : 16384 * (13 * (L 0).val + n / 32) + 1024 * (L 1).val + (n % 32 * 32 + (k 0).val) < 425984) :
    (listO (cList n) (cList_inb n)).view.read (Elt F) fi k
      = X (ix1 (n := 425984) ⟨16384 * (13 * (L 0).val + n / 32) + 1024 * (L 1).val + (n % 32 * 32 + (k 0).val), hw⟩) := by
  have hk : (k 0).val < 32 := (k 0).isLt
  have e := hfi (ix1 (n := 1024) ⟨n % 32 * 32 + (k 0).val, by omega⟩)
  rw [halfO_read L _ _ fi _ (by show n / 32 % 2 * 1024 + (n % 32 * 32 + (k 0).val) < 2048; omega)] at e
  rw [listO_read L _ _ fi k (by show n / 32 % 2 * 1024 + n % 32 * 32 + (k 0).val < 2048; omega)]
  refine Eq.trans (congrArg fi (ix1_congr ?_)) e
  show n / 32 % 2 * 1024 + n % 32 * 32 + (k 0).val = n / 32 % 2 * 1024 + (n % 32 * 32 + (k 0).val)
  omega

/-! ## A gather lands the right rows -/

/-- Entry `z` of chunk `n`'s table in the staged shared scratch is the flattened tables' entry at row `13000 c + 1000 (n / 32) + z 0`. -/
theorem tabO_entry (Tb : Buf (Elt F) (tbLoc d)) (L : grid0.Coords) (n : ℕ) (h : n < 416) (z : S1000x128.Idx) :
    (tabO (cTab n) (cTab_inb n h)).view.read (Elt F) (spVal Tb (cV L)) z
      = Tb (ix2 (n0 := 26000) (n1 := 128) ⟨13000 * (L 0).val + 1000 * (n / 32) + (z 0).val, by
          have hc : (L 0).val < 2 := (L 0).isLt; have hz : (z 0).val < 1000 := idx2_lt0 z; omega⟩ ⟨(z 1).val, idx2_lt1 z⟩) := by
  have hc : (L 0).val < 2 := (L 0).isLt
  have hz0 : (z 0).val < 1000 := idx2_lt0 z
  have hz1 : (z 1).val < 128 := idx2_lt1 z
  rw [tabO_read (d := d) L _ _ _ z (by show 1000 * (n / 32) + (z 0).val < 13000; omega) (by show 0 + (z 1).val < 128; omega)]
  refine congrArg Tb (ix2_congr ?_ ?_)
  · show 13000 * (L 0).val + (1000 * (n / 32) + (z 0).val) = 13000 * (L 0).val + 1000 * (n / 32) + (z 0).val
    omega
  · show 0 + (z 1).val = (z 1).val
    omega

/-- The rank-one index at a row-major position has that position as its coordinate. -/
theorem rowMajor_symm_val (t : Fin S32.numel) : ((S32.rowMajor.symm t) 0).val = t.val := by
  have e := Shape.rowMajor_val_one (d := ![32]) (S32.rowMajor.symm t)
  rw [Equiv.apply_symm_apply] at e
  exact e.symm

theorem slotOK_of_gather (X : Buf (Elt F) (ixLoc d)) (hX : ∀ j, (X j).toNat < 1000) (Tb : Buf (Elt F) (tbLoc d)) (L : grid0.Coords) (n : ℕ) (h : n < 416)
    (fi : Buf (Elt F) ((V d (cV L) (jV L)).loc cc0_scratch1)) (hfi : HalfOK X L (n / 32) (by omega) fi)
    (g : Buf (Elt F) ((V d (cV L) (jV L)).loc cc0_scratch2))
    (hn : S32.numel = S32x128.size gathers_S1000x128_S32x128.axis')
    (hin' : ∀ x, ((listO (cList n) (cList_inb n)).view.read (Elt F) fi x).toNat < S1000x128.size gathers_S1000x128_S32x128.axis) :
    SlotOK X Tb L n h ((slotO (cSlot n) (cSlot_inb n)).view.writes (Elt F) g
      [⟨Rect.whole S32x128, SparseCore.gatherPayload gathers_S1000x128_S32x128 ((tabO (cTab n) (cTab_inb n h)).view.read (Elt F) (spVal Tb (cV L)))
        (SparseCore.rows ((listO (cList n) (cList_inb n)).view.read (Elt F) fi) hn hin')⟩]) := by
  intro y
  rw [View.read_writes_whole]
  have hy0 : (y 0).val < 32 := idx2_lt0 y
  have hy1 : (y 1).val < 128 := idx2_lt1 y
  have hc : (L 0).val < 2 := (L 0).isLt
  have hs : (L 1).val < 16 := (L 1).isLt
  -- the row the list names for row `y 0` of the slot
  have hrow : ((gathers_S1000x128_S32x128.idx (SparseCore.rows ((listO (cList n) (cList_inb n)).view.read (Elt F) fi) hn hin') y) 0).val
      = (X (ix1 (n := 425984) ⟨16384 * (13 * (L 0).val + n / 32) + 1024 * (L 1).val + (n % 32 * 32 + (y 0).val), by omega⟩)).toNat := by
    have e0 := Shape.Gathers.idx_axis gathers_S1000x128_S32x128 (SparseCore.rows ((listO (cList n) (cList_inb n)).view.read (Elt F) fi) hn hin') y
    have e1 : (gathers_S1000x128_S32x128.idx (SparseCore.rows ((listO (cList n) (cList_inb n)).view.read (Elt F) fi) hn hin') y) 0
        = SparseCore.rows ((listO (cList n) (cList_inb n)).view.read (Elt F) fi) hn hin' (y 0) := e0
    rw [e1]
    show ((listO (cList n) (cList_inb n)).view.read (Elt F) fi (S32.rowMajor.symm ((y 0).cast hn.symm))).toNat = _
    have hk0 : ((S32.rowMajor.symm ((y 0).cast hn.symm)) 0).val = (y 0).val := rowMajor_symm_val _
    rw [list_word X L n h fi hfi _ (by rw [hk0]; omega)]
    refine congrArg (fun w : BitVec 32 => w.toNat) (congrArg X (ix1_congr ?_))
    show 16384 * (13 * (L 0).val + n / 32) + 1024 * (L 1).val + (n % 32 * 32 + ((S32.rowMajor.symm ((y 0).cast hn.symm)) 0).val) = _
    rw [hk0]
  have hlane : ((gathers_S1000x128_S32x128.idx (SparseCore.rows ((listO (cList n) (cList_inb n)).view.read (Elt F) fi) hn hin') y) 1).val = (y 1).val :=
    Shape.Gathers.idx_of_ne gathers_S1000x128_S32x128 _ y 1 (by decide)
  have hz0 : ((gathers_S1000x128_S32x128.idx (SparseCore.rows ((listO (cList n) (cList_inb n)).view.read (Elt F) fi) hn hin') y) 0).val < 1000 :=
    idx2_lt0 _
  show (tabO (cTab n) (cTab_inb n h)).view.read (Elt F) (spVal Tb (cV L)) (gathers_S1000x128_S32x128.idx (SparseCore.rows ((listO (cList n) (cList_inb n)).view.read (Elt F) fi) hn hin') y) = _
  generalize gathers_S1000x128_S32x128.idx (SparseCore.rows ((listO (cList n) (cList_inb n)).view.read (Elt F) fi) hn hin') y = z at hrow hlane hz0
  rw [tabO_entry Tb L n h z]
  have hw := hX (ix1 (n := 425984) ⟨16384 * (13 * (L 0).val + n / 32) + 1024 * (L 1).val + (n % 32 * 32 + (y 0).val), by omega⟩)
  unfold resAt
  rw [Cert.Lookup.gathered_apply X Tb _ (X (ix1 (n := 425984) ⟨16384 * (13 * (L 0).val + n / 32) + 1024 * (L 1).val + (n % 32 * 32 + (y 0).val), by omega⟩))
    (by show (128 * (13 * (L 0).val + n / 32) + (y 1).val) / 128 * 16384 + (1024 * (L 1).val + 32 * (n % 32) + (y 0).val) < 425984; omega)
    (congrArg X (ix1_congr (by
      show (128 * (13 * (L 0).val + n / 32) + (y 1).val) / 128 * 16384 + (1024 * (L 1).val + 32 * (n % 32) + (y 0).val) = 16384 * (13 * (L 0).val + n / 32) + 1024 * (L 1).val + (n % 32 * 32 + (y 0).val)
      omega)))]
  refine congrArg Tb (ix2_congr ?_ ?_)
  · show 13000 * (L 0).val + 1000 * (n / 32) + (z 0).val = (128 * (13 * (L 0).val + n / 32) + (y 1).val) / 128 * 1000 + (X (ix1 (n := 425984) ⟨16384 * (13 * (L 0).val + n / 32) + 1024 * (L 1).val + (n % 32 * 32 + (y 0).val), by omega⟩)).toNat % 1000
    rw [hrow]; omega
  · show (z 1).val = (128 * (13 * (L 0).val + n / 32) + (y 1).val) % 128
    rw [hlane]; omega

/-! ## A copy out carries them, and a right block is the result there -/

theorem outOK_of_copy (X : Buf (Elt F) (ixLoc d)) (Tb : Buf (Elt F) (tbLoc d)) (L : grid0.Coords) (n : ℕ) (h : n < 416)
    (g : Buf (Elt F) ((V d (cV L) (jV L)).loc cc0_scratch2)) (hg : SlotOK X Tb L n h g) (f0 : Buf (Elt F) (outLoc d)) :
    OutOK X Tb L n h ((outO (cOut L n) (cOut_inb L n h)).view.writes (Elt F) f0
      [⟨Rect.whole S32x128, ReadAs.same.apply ((slotO (cSlot n) (cSlot_inb n)).view.read (Elt F) g)⟩]) := by
  intro y
  rw [View.read_writes_whole]
  exact hg y

/-- The element of the result under entry `x` of a block. -/
theorem outO_emb (off : Fin 2 → ℕ) (h : ∀ a, off a + S32x128.size a ≤ S16384x3328.size a) (x : S32x128.Idx)
    (h0 : off 0 + (x 0).val < 16384) (h1 : off 1 + (x 1).val < 3328) :
    (outO off h).view.emb x = ix2 (n0 := 16384) (n1 := 3328) ⟨off 0 + (x 0).val, h0⟩ ⟨off 1 + (x 1).val, h1⟩ := by
  refine funext fun a => ?_
  match a with
  | ⟨0, _⟩ => exact Fin.ext (by show off 0 + 1 * (x 0).val = off 0 + (x 0).val; omega)
  | ⟨1, _⟩ => exact Fin.ext (by show off 1 + 1 * (x 1).val = off 1 + (x 1).val; omega)

/-- A block that holds the result's entries agrees with the result on the block's elements. -/
theorem outOK_agrees (X : Buf (Elt F) (ixLoc d)) (Tb : Buf (Elt F) (tbLoc d)) (L : grid0.Coords) (n : ℕ) (h : n < 416)
    (fo : Buf (Elt F) (outLoc d)) (hfo : OutOK X Tb L n h fo) :
    ∀ i ∈ (outO (cOut L n) (cOut_inb L n h)).view.set, fo i = Cert.Lookup.gathered X Tb i := by
  intro i hi
  obtain ⟨x, -, rfl⟩ := Finset.mem_map.mp hi
  have e := hfo x
  have ee := outO_emb (cOut L n) (cOut_inb L n h) x (resRow_lt L n x) (resCol_lt L n h x)
  rw [outO_read (cOut L n) (cOut_inb L n h) fo x (resRow_lt L n x) (resCol_lt L n h x)] at e
  rw [ee]
  exact e

theorem out_pts_of_OK (X : Buf (Elt F) (ixLoc d)) (Tb : Buf (Elt F) (tbLoc d)) (L : grid0.Coords) (n : ℕ) (h : n < 416)
    (fo : Buf (Elt F) (outLoc d)) (hfo : OutOK X Tb L n h fo) :
    ((outO (cOut L n) (cOut_inb L n h)).view.loc (V d (cV L) (jV L)) ↦[(outO (cOut L n) (cOut_inb L n h)).view.set]{fullShare} fo : sProp 𝕄)
      ⊢ (outO (cOut L n) (cOut_inb L n h)).view.loc (V d (cV L) (jV L)) ↦[(outO (cOut L n) (cOut_inb L n h)).view.set]{fullShare} Cert.Lookup.gathered X Tb :=
  Entails.of_eq (pointsTo_congr (outOK_agrees X Tb L n h fo hfo))

/-! ## Every word of the index scratch names a row -/

theorem hin_of_halves (X : Buf (Elt F) (ixLoc d)) (hX : ∀ j, (X j).toNat < 1000) (L : grid0.Coords) (fa fb : ℕ) (ha : fa < 13) (hb : fb < 13)
    (hpar : fa % 2 ≠ fb % 2) (fi : Buf (Elt F) ((V d (cV L) (jV L)).loc cc0_scratch1)) (hA : HalfOK X L fa ha fi) (hB : HalfOK X L fb hb fi) :
    ∀ (off : Fin 1 → ℕ) (h : ∀ a, off a + S32.size a ≤ S2048.size a) (h' : ∀ a, (Rect.unit (s := S2048) off S32.size h).stride a = 1) x,
      ((((Memref.whole cc0_scratch1 : Memref sig .scVector .vmem S2048 .i32).slice (Rect.unit (s := S2048) off S32.size h) h').view.read (Elt F) fi) x).toNat
        < S1000x128.size gathers_S1000x128_S32x128.axis := by
  intro off h h' x
  have hx : (x 0).val < 32 := (x 0).isLt
  have h0 : off 0 + 32 ≤ 2048 := h 0
  have hc : (L 0).val < 2 := (L 0).isLt
  have hs : (L 1).val < 16 := (L 1).isLt
  have key : ∃ j, (listO off h).view.read (Elt F) fi x = X j := by
    rw [listO_read L off h fi x (by omega)]
    by_cases hp : (off 0 + (x 0).val) / 1024 = fa % 2
    · have e := hA (ix1 (n := 1024) ⟨off 0 + (x 0).val - fa % 2 * 1024, by omega⟩)
      rw [halfO_read L _ _ fi _ (by show fa % 2 * 1024 + (off 0 + (x 0).val - fa % 2 * 1024) < 2048; omega)] at e
      exact ⟨_, Eq.trans (congrArg fi (ix1_congr (by show off 0 + (x 0).val = fa % 2 * 1024 + (off 0 + (x 0).val - fa % 2 * 1024); omega))) e⟩
    · have e := hB (ix1 (n := 1024) ⟨off 0 + (x 0).val - fb % 2 * 1024, by omega⟩)
      rw [halfO_read L _ _ fi _ (by show fb % 2 * 1024 + (off 0 + (x 0).val - fb % 2 * 1024) < 2048; omega)] at e
      exact ⟨_, Eq.trans (congrArg fi (ix1_congr (by show off 0 + (x 0).val = fb % 2 * 1024 + (off 0 + (x 0).val - fb % 2 * 1024); omega))) e⟩
  obtain ⟨j, hj⟩ := key
  show ((listO off h).view.read (Elt F) fi x).toNat < 1000
  rw [hj]
  exact hX j

end Cert.Proof.KI
end
-- ==== Proof.BodyLemmas2.lean ====
import proofs.«206644_g35837207118489_cont_8to1_b_589_28_alg».proof.Proof.InvGlue
import proofs.«206644_g35837207118489_cont_8to1_b_589_28_alg».proof.Proof.BodyLemmas
import proofs.«206644_g35837207118489_cont_8to1_b_589_28_alg».proof.Proof.BodyDisj

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-! ## The value lemmas at offsets spelt otherwise, and small equalities -/

section Lem2

variable {d : Dev nD}

/-- A result block held at `fo`, under another spelling of its corner. -/
theorem outPts_respell (d : Dev nD) (L : grid0.Coords) {ou ou' : Fin 2 → ℕ} {hou : ∀ a, ou a + S32x128.size a ≤ S16384x3328.size a} {hou' : ∀ a, ou' a + S32x128.size a ≤ S16384x3328.size a}
    (e : ou = ou') (fo : Buf (Elt F) (outLoc d)) :
    ((outO ou hou).view.loc (V d (cV L) (jV L)) ↦[(outO ou hou).view.set]{fullShare} fo : sProp 𝕄)
      ⊢ (outO ou' hou').view.loc (V d (cV L) (jV L)) ↦[(outO ou' hou').view.set]{fullShare} fo := by
  subst e; exact BI.Entails.refl _

theorem HalfOK_congr (X : Buf (Elt F) (ixLoc d)) (L : grid0.Coords) {f f' : ℕ} {h h'} (e : f = f') (fi) :
    HalfOK X L f h fi → HalfOK X L f' h' fi := by subst e; exact id

/-- A gather lands the right rows, whatever the spelling of its slot's, table's and list's offsets. -/
theorem slotOK_of_gather' (X : Buf (Elt F) (ixLoc d)) (hX : ∀ j, (X j).toNat < 1000) (Tb : Buf (Elt F) (tbLoc d)) (L : grid0.Coords) (n : ℕ) (h : n < 416)
    (fi : Buf (Elt F) ((V d (cV L) (jV L)).loc cc0_scratch1)) (hfi : HalfOK X L (n / 32) (by omega) fi) (g : Buf (Elt F) ((V d (cV L) (jV L)).loc cc0_scratch2))
    (sl : Fin 3 → ℕ) (hsl) (esl : sl = cSlot n) (tb : Fin 2 → ℕ) (htb) (etb : tb = cTab n) (li : Fin 1 → ℕ) (hli) (eli : li = cList n)
    (hn : S32.numel = S32x128.size gathers_S1000x128_S32x128.axis')
    (hin' : ∀ x, ((listO li hli).view.read (Elt F) fi x).toNat < S1000x128.size gathers_S1000x128_S32x128.axis) :
    SlotOK X Tb L n h ((slotO sl hsl).view.writes (Elt F) g [⟨Rect.whole S32x128, SparseCore.gatherPayload gathers_S1000x128_S32x128
      ((tabO tb htb).view.read (Elt F) (spVal Tb (cV L))) (SparseCore.rows ((listO li hli).view.read (Elt F) fi) hn hin')⟩]) := by
  subst esl etb eli; exact slotOK_of_gather X hX Tb L n h fi hfi g hn hin'

/-- A copy-out carries the right rows, whatever the spelling of its block's and slot's offsets. -/
theorem outOK_of_copy' (X : Buf (Elt F) (ixLoc d)) (Tb : Buf (Elt F) (tbLoc d)) (L : grid0.Coords) (n : ℕ) (h : n < 416) (g : Buf (Elt F) ((V d (cV L) (jV L)).loc cc0_scratch2)) (hg : SlotOK X Tb L n h g) (f0 : Buf (Elt F) (outLoc d))
    (ou : Fin 2 → ℕ) (hou) (eou : ou = cOut L n) (sl : Fin 3 → ℕ) (hsl) (esl : sl = cSlot n) :
    OutOK X Tb L n h ((outO ou hou).view.writes (Elt F) f0 [⟨Rect.whole S32x128, ReadAs.same.apply ((slotO sl hsl).view.read (Elt F) g)⟩]) := by
  subst eou esl; exact outOK_of_copy X Tb L n h g hg f0

theorem SlotOK_congr (X : Buf (Elt F) (ixLoc d)) (Tb) (L) {n n' : ℕ} {h h'} (e : n = n') (g) : SlotOK X Tb L n h g → SlotOK X Tb L n' h' g := by subst e; exact id
theorem OutOK_congr (X : Buf (Elt F) (ixLoc d)) (Tb) (L) {n n' : ℕ} {h h'} (e : n = n') (fo) : OutOK X Tb L n h fo → OutOK X Tb L n' h' fo := by subst e; exact id

theorem qs_eq (L : grid0.Coords) {a b : ℕ} (h : a % 6 = b % 6) : qs L a = qs L b := by unfold qs; rw [h]
theorem cSem_eq {a b : ℕ} (h : a % 6 = b % 6) : cSem a = cSem b := by unfold cSem; rw [h]
theorem cSlot_eq {a b : ℕ} (h : a % 6 = b % 6) : cSlot a = cSlot b := by unfold cSlot; rw [h]

end Lem2

end Cert.Proof.KI

end
-- ==== Proof.BodySplit.lean ====
/-
  Two arrays held whole are held piece by piece: the ring of six buffers is its six slots, and the rectangle of the result a tile
  writes is its 416 blocks.

  Slot `s` of the ring is the elements whose first coordinate is `s`; the six slots are pairwise disjoint and together are the
  ring.  Block `n` of the tile's rectangle is rows `1024 s + 32 (n % 32) …`, columns `128 (13 c + n / 32) …`; the 416 blocks are
  pairwise disjoint and together are the rectangle.  A points-to over a disjoint union is the separating product of the
  points-to's over the parts; when every block holds the result's entries the product is the rectangle at the result.
-/
import proofs.«206644_g35837207118489_cont_8to1_b_589_28_alg».proof.Proof.InvDefs
import proofs.«206644_g35837207118489_cont_8to1_b_589_28_alg».proof.Proof.Chunks
import proofs.«206644_g35837207118489_cont_8to1_b_589_28_alg».proof.Proof.BodyLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD}

/-! ## The tile's rectangle of the result is its 416 blocks -/

theorem outO_set (off : Fin 2 → ℕ) (h : ∀ a, off a + S32x128.size a ≤ S16384x3328.size a) :
    (outO off h).view.set = (Rect.unit (s := S16384x3328) off S32x128.size h).set := by
  show ((View.whole (main_v3_scv : Ref sig .scVector)).slice (Rect.unit (s := S16384x3328) off S32x128.size h)).set = _
  rw [View.set_slice]; exact Finset.map_refl

/-- Block `n`'s elements; nothing past the last block. -/
def blockSet (L : grid0.Coords) (n : ℕ) : Finset S16384x3328.Idx :=
  if h : n < 416 then (outO (cOut L n) (cOut_inb L n h)).view.set else ∅

theorem blockSet_lt (L : grid0.Coords) {n : ℕ} (h : n < 416) : blockSet L n = (chunkRect L ⟨n, h⟩).set := by
  unfold blockSet; rw [dif_pos h]; exact outO_set _ _

theorem blockSet_pairwise (L : grid0.Coords) :
    ∀ n ∈ Finset.range 416, ∀ m ∈ Finset.range 416, n ≠ m → Disjoint (blockSet L n) (blockSet L m) := by
  intro n hn m hm hne
  have hn' := Finset.mem_range.mp hn
  have hm' := Finset.mem_range.mp hm
  rw [blockSet_lt L hn', blockSet_lt L hm']
  exact chunkRect_disjoint L (fun e => hne (congrArg Fin.val e))

theorem biUnion_blockSet (L : grid0.Coords) : (Finset.range 416).biUnion (blockSet L) = outSet L := by
  rw [outSet_eq]
  ext j
  rw [Finset.mem_biUnion]
  constructor
  · rintro ⟨n, hn, hj⟩
    have hn' := Finset.mem_range.mp hn
    rw [blockSet_lt L hn'] at hj
    exact chunkRect_subset L _ hj
  · intro hj
    refine ⟨(chunkOf L j hj).val, Finset.mem_range.mpr (chunkOf L j hj).isLt, ?_⟩
    rw [blockSet_lt L (chunkOf L j hj).isLt]
    exact mem_chunkRect_chunkOf L j hj

/-- The rectangle held at `f` is its 416 blocks held at `f`. -/
theorem blocks_eq (L : grid0.Coords) (f : Buf (Elt F) (outLoc d)) :
    ((Memref.whole main_v3_scv : Memref sig .scVector .hbm S16384x3328 .f32).view.loc (V d (cV L) (jV L)) ↦[outSet L]{fullShare} f : sProp 𝕄)
      = bigSep (Finset.range 416) (fun n => if h : n < 416 then
          ((outO (cOut L n) (cOut_inb L n h)).view.loc (V d (cV L) (jV L)) ↦[(outO (cOut L n) (cOut_inb L n h)).view.set]{fullShare} f)
        else iprop(emp)) := by
  rw [← biUnion_blockSet L, pointsTo_biUnion _ _ (blockSet_pairwise L)]
  refine bigSep_congr fun n hn => ?_
  have hn' := Finset.mem_range.mp hn
  rw [dif_pos hn']
  unfold blockSet; rw [dif_pos hn']

theorem blocks_split (L : grid0.Coords) (f : Buf (Elt F) (outLoc d)) :
    ((Memref.whole main_v3_scv : Memref sig .scVector .hbm S16384x3328 .f32).view.loc (V d (cV L) (jV L)) ↦[outSet L]{fullShare} f : sProp 𝕄)
      ⊢ bigSep (Finset.range 416) (fun n => if h : n < 416 then
          ((outO (cOut L n) (cOut_inb L n h)).view.loc (V d (cV L) (jV L)) ↦[(outO (cOut L n) (cOut_inb L n h)).view.set]{fullShare} f)
        else iprop(emp)) := Entails.of_eq (blocks_eq L f)

theorem blocks_join_same (L : grid0.Coords) (f : Buf (Elt F) (outLoc d)) :
    bigSep (Finset.range 416) (fun n => if h : n < 416 then
          ((outO (cOut L n) (cOut_inb L n h)).view.loc (V d (cV L) (jV L)) ↦[(outO (cOut L n) (cOut_inb L n h)).view.set]{fullShare} f)
        else iprop(emp))
      ⊢ ((Memref.whole main_v3_scv : Memref sig .scVector .hbm S16384x3328 .f32).view.loc (V d (cV L) (jV L)) ↦[outSet L]{fullShare} f : sProp 𝕄) :=
  Entails.of_eq (blocks_eq L f).symm

/-- Every block at contents of its own that are the result's entries there: the rectangle at the result. -/
theorem blocks_join (X : Buf (Elt F) (ixLoc d)) (Tb : Buf (Elt F) (tbLoc d)) (L : grid0.Coords) (fs : ℕ → Buf (Elt F) (outLoc d))
    (hfs : ∀ n (h : n < 416), OutOK X Tb L n h (fs n)) :
    bigSep (Finset.range 416) (fun n => if h : n < 416 then
          ((outO (cOut L n) (cOut_inb L n h)).view.loc (V d (cV L) (jV L)) ↦[(outO (cOut L n) (cOut_inb L n h)).view.set]{fullShare} fs n)
        else iprop(emp))
      ⊢ ((Memref.whole main_v3_scv : Memref sig .scVector .hbm S16384x3328 .f32).view.loc (V d (cV L) (jV L)) ↦[outSet L]{fullShare} Cert.Lookup.gathered X Tb : sProp 𝕄) := by
  rw [blocks_eq L (Cert.Lookup.gathered X Tb)]
  refine bigSep_mono fun n hn => ?_
  have hn' := Finset.mem_range.mp hn
  rw [dif_pos hn', dif_pos hn']
  exact out_pts_of_OK X Tb L n hn' (fs n) (hfs n hn')

/-! ## The ring is its six slots -/

theorem slotO_set (off : Fin 3 → ℕ) (h : ∀ a, off a + S1x32x128.size a ≤ S6x32x128.size a) :
    (slotO off h).view.set = (Rect.unit (s := S6x32x128) off S1x32x128.size h).set := by
  show (((View.whole (cc0_scratch2 : Ref sig .scVector)).slice (Rect.unit (s := S6x32x128) off S1x32x128.size h)).reshape S32x128
    squeezes_S1x32x128_S32x128.numel_eq).set = _
  rw [View.set_reshape, View.set_slice]; exact Finset.map_refl

/-- Slot `s` is the elements of the ring whose first coordinate is `s`. -/
theorem mem_slotRect {s : ℕ} (h : s < 6) (i : S6x32x128.Idx) :
    i ∈ (Rect.unit (s := S6x32x128) ![s, 0, 0] S1x32x128.size (slot_inb s h)).set ↔ (i 0).val = s := by
  have h1 : (i 1).val < 32 := (i 1).isLt
  have h2 : (i 2).val < 128 := (i 2).isLt
  rw [Rect.mem_set_unit]
  constructor
  · intro hh
    have h0 : s ≤ (i 0).val ∧ (i 0).val < s + 1 := hh 0
    omega
  · intro e a
    match a with
    | ⟨0, _⟩ => show s ≤ (i 0).val ∧ (i 0).val < s + 1; omega
    | ⟨1, _⟩ => show 0 ≤ (i 1).val ∧ (i 1).val < 0 + 32; omega
    | ⟨2, _⟩ => show 0 ≤ (i 2).val ∧ (i 2).val < 0 + 128; omega

/-- Slot `s`'s elements; nothing past the sixth slot. -/
def slotSet (s : ℕ) : Finset S6x32x128.Idx := if h : s < 6 then (slotO ![s, 0, 0] (slot_inb s h)).view.set else ∅

theorem mem_slotSet {s : ℕ} (h : s < 6) (i : S6x32x128.Idx) : i ∈ slotSet s ↔ (i 0).val = s := by
  unfold slotSet; rw [dif_pos h, slotO_set]; exact mem_slotRect h i

theorem six_lt {s : ℕ} (hs : s ∈ ({0, 1, 2, 3, 4, 5} : Finset ℕ)) : s < 6 := by
  simp only [Finset.mem_insert, Finset.mem_singleton] at hs; omega

theorem slotSet_pairwise :
    ∀ s ∈ ({0, 1, 2, 3, 4, 5} : Finset ℕ), ∀ t ∈ ({0, 1, 2, 3, 4, 5} : Finset ℕ), s ≠ t → Disjoint (slotSet s) (slotSet t) := by
  intro s hs t ht hne
  refine Finset.disjoint_left.mpr fun i hi hj => hne ?_
  rw [mem_slotSet (six_lt hs)] at hi
  rw [mem_slotSet (six_lt ht)] at hj
  omega

theorem biUnion_slotSet : ({0, 1, 2, 3, 4, 5} : Finset ℕ).biUnion slotSet = Finset.univ := by
  ext i
  have hi : (i 0).val < 6 := (i 0).isLt
  simp only [Finset.mem_biUnion, Finset.mem_univ, iff_true]
  refine ⟨(i 0).val, by simp only [Finset.mem_insert, Finset.mem_singleton]; omega, (mem_slotSet hi i).mpr rfl⟩

theorem lt6_0 : 0 < 6 := by decide
theorem lt6_1 : 1 < 6 := by decide
theorem lt6_2 : 2 < 6 := by decide
theorem lt6_3 : 3 < 6 := by decide
theorem lt6_4 : 4 < 6 := by decide
theorem lt6_5 : 5 < 6 := by decide

/-- The ring held whole at `fb` is its six slots held at `fb`. -/
theorem ring_eq (L : grid0.Coords) (fb : Buf (Elt F) ((V d (cV L) (jV L)).loc cc0_scratch2)) :
    ((Memref.whole cc0_scratch2 : Memref sig .scVector .vmem S6x32x128 .f32).view.loc (V d (cV L) (jV L)) ↦{fullShare} fb : sProp 𝕄)
      = iprop(((slotO ![0, 0, 0] (slot_inb 0 lt6_0)).view.loc (V d (cV L) (jV L)) ↦[(slotO ![0, 0, 0] (slot_inb 0 lt6_0)).view.set]{fullShare} fb)
          ∗ ((slotO ![1, 0, 0] (slot_inb 1 lt6_1)).view.loc (V d (cV L) (jV L)) ↦[(slotO ![1, 0, 0] (slot_inb 1 lt6_1)).view.set]{fullShare} fb)
          ∗ ((slotO ![2, 0, 0] (slot_inb 2 lt6_2)).view.loc (V d (cV L) (jV L)) ↦[(slotO ![2, 0, 0] (slot_inb 2 lt6_2)).view.set]{fullShare} fb)
          ∗ ((slotO ![3, 0, 0] (slot_inb 3 lt6_3)).view.loc (V d (cV L) (jV L)) ↦[(slotO ![3, 0, 0] (slot_inb 3 lt6_3)).view.set]{fullShare} fb)
          ∗ ((slotO ![4, 0, 0] (slot_inb 4 lt6_4)).view.loc (V d (cV L) (jV L)) ↦[(slotO ![4, 0, 0] (slot_inb 4 lt6_4)).view.set]{fullShare} fb)
          ∗ ((slotO ![5, 0, 0] (slot_inb 5 lt6_5)).view.loc (V d (cV L) (jV L)) ↦[(slotO ![5, 0, 0] (slot_inb 5 lt6_5)).view.set]{fullShare} fb)) := by
  have e1 : ((Memref.whole cc0_scratch2 : Memref sig .scVector .vmem S6x32x128 .f32).view.loc (V d (cV L) (jV L)) ↦{fullShare} fb : sProp 𝕄)
      = (Memref.whole cc0_scratch2 : Memref sig .scVector .vmem S6x32x128 .f32).view.loc (V d (cV L) (jV L)) ↦[({0, 1, 2, 3, 4, 5} : Finset ℕ).biUnion slotSet]{fullShare} fb := by
    rw [biUnion_slotSet]
  rw [e1, pointsTo_biUnion _ _ slotSet_pairwise]
  rw [bigSep_insert (by decide), bigSep_insert (by decide), bigSep_insert (by decide), bigSep_insert (by decide), bigSep_insert (by decide), bigSep_singleton]
  rfl

theorem ring_split (L : grid0.Coords) (fb : Buf (Elt F) ((V d (cV L) (jV L)).loc cc0_scratch2)) :
    ((Memref.whole cc0_scratch2 : Memref sig .scVector .vmem S6x32x128 .f32).view.loc (V d (cV L) (jV L)) ↦{fullShare} fb : sProp 𝕄)
      ⊢ iprop(((slotO ![0, 0, 0] (slot_inb 0 lt6_0)).view.loc (V d (cV L) (jV L)) ↦[(slotO ![0, 0, 0] (slot_inb 0 lt6_0)).view.set]{fullShare} fb)
          ∗ ((slotO ![1, 0, 0] (slot_inb 1 lt6_1)).view.loc (V d (cV L) (jV L)) ↦[(slotO ![1, 0, 0] (slot_inb 1 lt6_1)).view.set]{fullShare} fb)
          ∗ ((slotO ![2, 0, 0] (slot_inb 2 lt6_2)).view.loc (V d (cV L) (jV L)) ↦[(slotO ![2, 0, 0] (slot_inb 2 lt6_2)).view.set]{fullShare} fb)
          ∗ ((slotO ![3, 0, 0] (slot_inb 3 lt6_3)).view.loc (V d (cV L) (jV L)) ↦[(slotO ![3, 0, 0] (slot_inb 3 lt6_3)).view.set]{fullShare} fb)
          ∗ ((slotO ![4, 0, 0] (slot_inb 4 lt6_4)).view.loc (V d (cV L) (jV L)) ↦[(slotO ![4, 0, 0] (slot_inb 4 lt6_4)).view.set]{fullShare} fb)
          ∗ ((slotO ![5, 0, 0] (slot_inb 5 lt6_5)).view.loc (V d (cV L) (jV L)) ↦[(slotO ![5, 0, 0] (slot_inb 5 lt6_5)).view.set]{fullShare} fb)) :=
  Entails.of_eq (ring_eq L fb)

theorem ring_join (L : grid0.Coords) (fb : Buf (Elt F) ((V d (cV L) (jV L)).loc cc0_scratch2)) :
    iprop(((slotO ![0, 0, 0] (slot_inb 0 lt6_0)).view.loc (V d (cV L) (jV L)) ↦[(slotO ![0, 0, 0] (slot_inb 0 lt6_0)).view.set]{fullShare} fb)
          ∗ ((slotO ![1, 0, 0] (slot_inb 1 lt6_1)).view.loc (V d (cV L) (jV L)) ↦[(slotO ![1, 0, 0] (slot_inb 1 lt6_1)).view.set]{fullShare} fb)
          ∗ ((slotO ![2, 0, 0] (slot_inb 2 lt6_2)).view.loc (V d (cV L) (jV L)) ↦[(slotO ![2, 0, 0] (slot_inb 2 lt6_2)).view.set]{fullShare} fb)
          ∗ ((slotO ![3, 0, 0] (slot_inb 3 lt6_3)).view.loc (V d (cV L) (jV L)) ↦[(slotO ![3, 0, 0] (slot_inb 3 lt6_3)).view.set]{fullShare} fb)
          ∗ ((slotO ![4, 0, 0] (slot_inb 4 lt6_4)).view.loc (V d (cV L) (jV L)) ↦[(slotO ![4, 0, 0] (slot_inb 4 lt6_4)).view.set]{fullShare} fb)
          ∗ ((slotO ![5, 0, 0] (slot_inb 5 lt6_5)).view.loc (V d (cV L) (jV L)) ↦[(slotO ![5, 0, 0] (slot_inb 5 lt6_5)).view.set]{fullShare} fb))
      ⊢ ((Memref.whole cc0_scratch2 : Memref sig .scVector .vmem S6x32x128 .f32).view.loc (V d (cV L) (jV L)) ↦{fullShare} fb : sProp 𝕄) :=
  Entails.of_eq (ring_eq L fb).symm

end Cert.Proof.KI
end
-- ==== Proof.BodyTail.lean ====
/-
  The rest of a tile's kernel around its loop, from the loop's region.

  What the head leaves is cut into the pieces the rest works on: the shared scratch's share into eight read tokens and a
  remainder (a gather borrows, for as long as it flies, the token numbered as its semaphore's cell), the ring into its six
  slots, the tile's rectangle of the result into its 416 blocks.  The statements before the loop start the gathers of chunks
  0 … 5, wait for the first three and start their copies out: that is the loop's invariant before its first trip — each
  gathered slot holds its chunk's rows because every index word names a row, each copied block holds the result there.  The
  loop is the region, 205 times.  After it the invariant at 205 is taken apart, spelt in the words of the statements that
  follow, and those run: the last three gathers are awaited and copied out, the last six copies awaited.  What is left is
  put back together: the 416 blocks, each holding the result on its elements, are the tile's rectangle at the result; the
  six slots are the ring; the tokens and the remainder are the share; every semaphore is at zero.
-/
import proofs.«206644_g35837207118489_cont_8to1_b_589_28_alg».proof.Proof.RegionDef
import proofs.«206644_g35837207118489_cont_8to1_b_589_28_alg».proof.Proof.InvGlue
import proofs.«206644_g35837207118489_cont_8to1_b_589_28_alg».proof.Proof.InvIx
import proofs.«206644_g35837207118489_cont_8to1_b_589_28_alg».proof.Proof.BodyLemmas
import proofs.«206644_g35837207118489_cont_8to1_b_589_28_alg».proof.Proof.BodyLemmas2
import proofs.«206644_g35837207118489_cont_8to1_b_589_28_alg».proof.Proof.BodySplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

section Tail
variable (d : Dev nD) (L : grid0.Coords)

/-- One more read token off what remains of a share. -/
theorem tok_step {ℓ : Loc nD τ sig} (f : Buf (Elt F) ℓ) (q : PosShare TreeShare) (k : ℕ) :
    (ℓ ↦{Transfers.shareDrop q k} f : sProp 𝕄) ⊣⊢ iprop((ℓ ↦{Transfers.shareDrop q (k + 1)} f) ∗ ℓ ↦{Transfers.shareTokN q k} f) :=
  pointsTo_share (PosShare.mem_left_op_right _)

theorem tok_step0 {ℓ : Loc nD τ sig} (f : Buf (Elt F) ℓ) (q : PosShare TreeShare) :
    (ℓ ↦{q} f : sProp 𝕄) ⊣⊢ iprop((ℓ ↦{Transfers.shareDrop q 1} f) ∗ ℓ ↦{Transfers.shareTokN q 0} f) :=
  tok_step f q 0

theorem colO_congr {o o' : Fin 1 → ℕ} {h : ∀ a, o a + S1024.size a ≤ S425984.size a} {h' : ∀ a, o' a + S1024.size a ≤ S425984.size a} (e : o = o') :
    colO o h = colO o' h' := by subst e; rfl

/-- The tile's index column of its `r`-th field, at its closed offset. -/
theorem colM_eq (r : Fin 2) : colM L r = colO (cCol L r.val) (cCol_inb L r.val (by omega)) :=
  colO_congr (k0_off1_eq L r)

/-- A block of the result, its offsets respelt. -/
theorem outBlock_congr {ou ou' : Fin 2 → ℕ} {hou : ∀ a, ou a + S32x128.size a ≤ S16384x3328.size a} {hou' : ∀ a, ou' a + S32x128.size a ≤ S16384x3328.size a}
    (e : ou = ou') (fo : Buf (Elt F) (outLoc d)) :
    ((outO ou hou).view.loc (V d (cV L) (jV L)) ↦[(outO ou hou).view.set]{fullShare} fo : sProp 𝕄)
      = ((outO ou' hou').view.loc (V d (cV L) (jV L)) ↦[(outO ou' hou').view.set]{fullShare} fo) := by subst e; rfl

/-- All the tile's blocks of the result, finished. -/
theorem outDone_full (X : Buf (Elt F) (ixLoc d)) (Tb : Buf (Elt F) (tbLoc d)) :
    OutDone (F := F) d L X Tb 416 = bigSep (Finset.range 416) (fun n => if h : n < 416 then
      ((outO (cOut L n) (cOut_inb L n h)).view.loc (V d (cV L) (jV L)) ↦[(outO (cOut L n) (cOut_inb L n h)).view.set]{fullShare} Cert.Lookup.gathered X Tb) else iprop(emp)) := by
  unfold OutDone outPts; rfl

/-- One contents for the ring that is, on each slot, that slot's contents. -/
def ringAll (c0 c1 c2 c3 c4 c5 : Buf (Elt F) ((V d (cV L) (jV L)).loc cc0_scratch2)) : Buf (Elt F) ((V d (cV L) (jV L)).loc cc0_scratch2) :=
  fun (i : S6x32x128.Idx) => if (i 0).val = 0 then c0 i else if (i 0).val = 1 then c1 i else if (i 0).val = 2 then c2 i
    else if (i 0).val = 3 then c3 i else if (i 0).val = 4 then c4 i else c5 i

/-- A slot held at its own contents is the slot held at contents that agree with them on the slot. -/
theorem slot_to_all (s : ℕ) (hs : s < 6) (hsl : ∀ a, (![s, 0, 0] : Fin 3 → ℕ) a + S1x32x128.size a ≤ S6x32x128.size a)
    (c all : Buf (Elt F) ((V d (cV L) (jV L)).loc cc0_scratch2)) (h : ∀ i : S6x32x128.Idx, (i 0).val = s → c i = all i) :
    ((slotO ![s, 0, 0] hsl).view.loc (V d (cV L) (jV L)) ↦[(slotO ![s, 0, 0] hsl).view.set]{fullShare} c : sProp 𝕄)
      = ((slotO ![s, 0, 0] hsl).view.loc (V d (cV L) (jV L)) ↦[(slotO ![s, 0, 0] hsl).view.set]{fullShare} all) :=
  pointsTo_congr fun i hi => h i ((mem_slotSet hs i).mp (by unfold slotSet; rw [dif_pos hs]; exact hi))

/-- The last trip is trip 205. -/
theorem trips_eq : Scf.trips k0_t1_loop.lb k0_t1_loop.ub k0_t1_loop.st = 205 := by decide

/-- A fetch of an index column in flight, and the flattened columns beside that column, by the column's offset. -/
abbrev FetchFl (X : Buf (Elt F) (ixLoc d)) (o : Fin 1 → ℕ) (ho : ∀ a, o a + S1024.size a ≤ S425984.size a) (hf : Fin 1 → ℕ) (hhf : ∀ a, hf a + S1024.size a ≤ S2048.size a)
    (sm : Fin 1 → ℕ) (hsm : ∀ a, sm a + S1.size a ≤ S2.size a) (fi : Buf (Elt F) ((V d (cV L) (jV L)).loc cc0_scratch1)) : sProp 𝕄 :=
  Transfers.Flight countersEmb (V d (cV L) (jV L)) (SemLoc.dma (isemO sm hsm).sem) (default : HIx 1) 32768
    iprop(((ixsV).view.loc (V d (cV L) (jV L)) ↦[(halfO hf hhf).view.set]{fullShare} fi)
      ∗ ((xfV).view.loc (V d (cV L) (jV L)) ↦[(colO o ho).view.set]{shareOf L} X))
abbrev XfRest (X : Buf (Elt F) (ixLoc d)) (o : Fin 1 → ℕ) (ho : ∀ a, o a + S1024.size a ≤ S425984.size a) : sProp 𝕄 :=
  (xfV).view.loc (V d (cV L) (jV L)) ↦[Finset.univ \ (colO o ho).view.set]{shareOf L} X
theorem FetchFl_congr (X : Buf (Elt F) (ixLoc d)) {o o' : Fin 1 → ℕ} {ho ho'} (e : o = o') (hf hhf sm hsm fi) :
    FetchFl (F := F) d L X o ho hf hhf sm hsm fi = FetchFl d L X o' ho' hf hhf sm hsm fi := by subst e; rfl
theorem XfRest_congr (X : Buf (Elt F) (ixLoc d)) {o o' : Fin 1 → ℕ} {ho ho'} (e : o = o') :
    XfRest (F := F) d L X o ho = XfRest d L X o' ho' := by subst e; rfl

theorem FetchFl_congr3 (X : Buf (Elt F) (ixLoc d)) {o o' : Fin 1 → ℕ} {ho ho'} {hf hf' : Fin 1 → ℕ} {hhf hhf'} {sm sm' : Fin 1 → ℕ} {hsm hsm'}
    (e1 : o = o') (e2 : hf = hf') (e3 : sm = sm') (fi) :
    FetchFl (F := F) d L X o ho hf hhf sm hsm fi = FetchFl d L X o' ho' hf' hhf' sm' hsm' fi := by subst e1 e2 e3; rfl

/-- After the last trip the invariant is the invariant at 205. -/
theorem inv_last (X : Buf (Elt F) (ixLoc d)) (Tb : Buf (Elt F) (tbLoc d)) (f0 : Buf (Elt F) (outLoc d)) (O : CellTallies nD τ sig (HIx 1)) (W : Waits sig (HIx 1)) (acc : BitVec 32) :
    Inv d L X Tb f0 O W (Scf.trips k0_t1_loop.lb k0_t1_loop.ub k0_t1_loop.st) acc = InvAt d L X Tb f0 O W 205 (le_refl 205) := by
  rw [trips_eq]; unfold Inv; rw [dif_pos (le_refl 205)]
theorem ixPart_last (X : Buf (Elt F) (ixLoc d)) (fi) : IxPart (F := F) d L X 205 fi = IxNone d L X (2 * 205 + 3) (2 * 205 + 4) (2 * 205 + 5) fi := by
  unfold IxPart; rw [dif_neg (by decide)]
theorem ixPart_first (X : Buf (Elt F) (ixLoc d)) (fi) : IxPart (F := F) d L X 0 fi = IxPend d L X 0 (by decide) 3 4 5 fi := by
  unfold IxPart; rw [dif_pos (by decide)]

/-- All the tile's blocks of the result, untouched. -/
theorem outRest_zero (fo : Buf (Elt F) (outLoc d)) :
    OutRest (F := F) d L fo 0 = bigSep (Finset.range 416) (fun n => if h : n < 416 then
      ((outO (cOut L n) (cOut_inb L n h)).view.loc (V d (cV L) (jV L)) ↦[(outO (cOut L n) (cOut_inb L n h)).view.set]{fullShare} fo) else iprop(emp)) := by
  unfold OutRest outPts
  rw [Finset.filter_true_of_mem (fun n _ => Nat.zero_le n)]

/-- A gather fills its slot with the right rows, the slot's new contents spelt as a write over what it held. -/
theorem slotOK_write (X : Buf (Elt F) (ixLoc d)) (hX : ∀ j, (X j).toNat < 1000) (Tb : Buf (Elt F) (tbLoc d)) (n : ℕ) (h : n < 416)
    (fi : Buf (Elt F) ((V d (cV L) (jV L)).loc cc0_scratch1)) (hfi : HalfOK X L (n / 32) (by omega) fi) (g : Buf (Elt F) ((V d (cV L) (jV L)).loc cc0_scratch2))
    (sl : Fin 3 → ℕ) (hsl) (esl : sl = cSlot n) (tb : Fin 2 → ℕ) (htb) (etb : tb = cTab n) (li : Fin 1 → ℕ) (hli) (eli : li = cList n)
    (hn : S32.numel = S32x128.size gathers_S1000x128_S32x128.axis')
    (hin' : ∀ x, ((listO li hli).view.read (Elt F) fi x).toNat < S1000x128.size gathers_S1000x128_S32x128.axis) :
    SlotOK X Tb L n h (View.write (Elt F) (slotO sl hsl).view g (SparseCore.gatherPayload gathers_S1000x128_S32x128
      ((tabO tb htb).view.read (Elt F) (spVal Tb (cV L))) (SparseCore.rows ((listO li hli).view.read (Elt F) fi) hn hin')) Finset.univ) := by
  have e := View.write_univ_eq_writes_whole (slotO sl hsl).view g [] (SparseCore.gatherPayload gathers_S1000x128_S32x128
      ((tabO tb htb).view.read (Elt F) (spVal Tb (cV L))) (SparseCore.rows ((listO li hli).view.read (Elt F) fi) hn hin'))
  rw [View.writes_nil] at e
  rw [e]
  exact slotOK_of_gather' X hX Tb L n h fi hfi g sl hsl esl tb htb etb li hli eli hn hin'

set_option maxHeartbeats 32000000 in
set_option maxRecDepth 100000 in
set_option sl_exec.dmaWindow true in
set_option sl_exec.dmaWindowSet true in
set_option sl_exec.dmaWindowLent true in
theorem tailSpec_of_region (hreg : Region (F := F)) : TailSpec (F := F) := by
  intro d L X hX Tb f0 O W hO
  unfold HeadPost
  iintro ⟨#Hmw, ⟨%W', %hW', HO⟩, Hsp, Htb, Hxf, ⟨%fi, %hfi, Hixs, HFl⟩, ⟨%fb, Hbuf⟩, Hout, His0, Hg0, Hg1, Hg2, Hg3, Hg4, Hg5, Hs0, Hs1, Hs2, Hs3, Hs4, Hs5, Hsc, Hrest⟩
  have hA : HalfOK X L 0 (by decide) fi := fun y => hfi.1 y
  have hB : HalfOK X L 1 (by decide) fi := fun y => hfi.2 y
  have hin := hin_of_halves X hX L 0 1 (by decide) (by decide) (by decide) fi hA hB
  -- the eight read tokens of the shared scratch
  ihave Ht0 := (tok_step0 (F := F) _ (shq (jV L))).1 $$ Hsp
  icases Ht0 with ⟨Hd1, Hq0⟩
  ihave Ht1 := (tok_step (F := F) _ (shq (jV L)) 1).1 $$ Hd1
  icases Ht1 with ⟨Hd2, Hq1⟩
  ihave Ht2 := (tok_step (F := F) _ (shq (jV L)) 2).1 $$ Hd2
  icases Ht2 with ⟨Hd3, Hq2⟩
  ihave Ht3 := (tok_step (F := F) _ (shq (jV L)) 3).1 $$ Hd3
  icases Ht3 with ⟨Hd4, Hq3⟩
  ihave Ht4 := (tok_step (F := F) _ (shq (jV L)) 4).1 $$ Hd4
  icases Ht4 with ⟨Hd5, Hq4⟩
  ihave Ht5 := (tok_step (F := F) _ (shq (jV L)) 5).1 $$ Hd5
  icases Ht5 with ⟨Hd6, Hq5⟩
  ihave Ht6 := (tok_step (F := F) _ (shq (jV L)) 6).1 $$ Hd6
  icases Ht6 with ⟨Hd7, Hq6⟩
  ihave Ht7 := (tok_step (F := F) _ (shq (jV L)) 7).1 $$ Hd7
  icases Ht7 with ⟨Hd8, Hq7⟩
  -- the ring's six slots
  ihave Hring := (ring_split (F := F) L fb) $$ Hbuf
  icases Hring with ⟨Hb0, Hb1, Hb2, Hb3, Hb4, Hb5⟩
  -- the first three blocks of the result
  ihave Hout' := (blocks_split (F := F) L f0) $$ Hout
  ihave Hout'' := (Entails.of_eq (outRest_zero (F := F) d L f0).symm) $$ Hout'
  ihave Hp0 := (Entails.of_eq (outRest_pop (F := F) d L f0 0 (by decide))) $$ Hout''
  icases Hp0 with ⟨Ho0, HoR1⟩
  ihave Hp1 := (Entails.of_eq (outRest_pop (F := F) d L f0 1 (by decide))) $$ HoR1
  icases Hp1 with ⟨Ho1, HoR2⟩
  ihave Hp2 := (Entails.of_eq (outRest_pop (F := F) d L f0 2 (by decide))) $$ HoR2
  icases Hp2 with ⟨Ho2, HoR⟩
  ihave Ho0 := (Entails.of_eq (outPts_congr (F := F) d L (ou' := k0_off4 L 0#32 0#32) (hou' := k0_off4_inb L 0) ((k0_off4_eq_0_0 L).trans rfl).symm f0)) $$ Ho0
  ihave Ho1 := (Entails.of_eq (outPts_congr (F := F) d L (ou' := k0_off4 L 32#32 0#32) (hou' := k0_off4_inb L 1) ((k0_off4_eq_32_0 L).trans rfl).symm f0)) $$ Ho1
  ihave Ho2 := (Entails.of_eq (outPts_congr (F := F) d L (ou' := k0_off4 L 64#32 0#32) (hou' := k0_off4_inb L 2) ((k0_off4_eq_64_0 L).trans rfl).symm f0)) $$ Ho2
  unfold outPts outO
  unfold tailProg part22Rest
  rw [k0_part18_eq_skeleton]
  unfold k0_part18_skel
  sl_exec
  rw [bind_assoc]
  sl_for (Inv d L X Tb f0 O W) $$ [Hmw HO Hg3 Hq5 Hg4 Hq6 Hg5 Hq7 Hixs His0 HFl Hxf Hq2 Hq3 Hq4 Hd8 Hs0 Hs1 Hs2 Hg0 Hg1 Hg2 Hs3 Hs4 Hs5 HoR Htb Hsc Hrest]
  case region => exact hreg d L X hX Tb f0 O W hO
  · -- the invariant before the first trip
    unfold Inv
    rw [dif_pos (show (0 : ℕ) ≤ 205 by decide)]
    unfold InvAt
    isplitl []; · iexact Hmw
    isplitl [HO]
    · iexists _
      isplitr
      rotate_left
      · iexact HO
      · ipureintro
        intro p hp
        simp only [Finset.mem_insert] at hp
        rcases hp with rfl | rfl | rfl | hp
        exacts [Or.inr (Or.inl rfl), Or.inr (Or.inl rfl), Or.inr (Or.inl rfl), hW' p hp]
    isplitl [Hg3 Hq5 Hg4 Hq6 Hg5 Hq7 Hixs His0 HFl Hxf]
    · iexists fi
      isplitr
      · ipureintro; exact ⟨HalfOK_congr X L (by decide) fi hA, HalfOK_congr X L (by decide) fi hB⟩
      isplitl [Hg3 Hq5]
      · unfold GatC
        iexists _
        isplitr
        rotate_left
        · isplitl [Hg3]
          · unfold GFo; iexact Hg3
          · unfold spRest; iexact Hq5
        · ipureintro
          exact slotOK_of_gather' X hX Tb L 3 (by decide) fi (HalfOK_congr X L (by decide) fi hA) fb ![3, 0, 0] _ rfl ![0, 0] _ rfl ![96] _ rfl _ _
      isplitl [Hg4 Hq6]
      · unfold GatC
        iexists _
        isplitr
        rotate_left
        · isplitl [Hg4]
          · unfold GFo; iexact Hg4
          · unfold spRest; iexact Hq6
        · ipureintro
          exact slotOK_of_gather' X hX Tb L 4 (by decide) fi (HalfOK_congr X L (by decide) fi hA) fb ![4, 0, 0] _ rfl ![0, 0] _ rfl ![128] _ rfl _ _
      isplitl [Hg5 Hq7]
      · unfold GatC
        iexists _
        isplitr
        rotate_left
        · isplitl [Hg5]
          · unfold GFo; iexact Hg5
          · unfold spRest; iexact Hq7
        · ipureintro
          exact slotOK_of_gather' X hX Tb L 5 (by decide) fi (HalfOK_congr X L (by decide) fi hA) fb ![5, 0, 0] _ rfl ![0, 0] _ rfl ![160] _ rfl _ _
      · iapply (Entails.of_eq (ixPart_first (F := F) d L X fi).symm)
        unfold IxPend ixRest3
        isplitl [Hixs]; · iexact Hixs
        isplitl [His0]; · iexact His0
        isplitl [HFl]
        · iapply (Entails.of_eq (FetchFl_congr3 (F := F) d L X (ho := k0_off1_inb L 1) (o' := cCol L (0 + 1)) (ho' := cCol_inb L (0 + 1) (by decide)) (hhf := inb_S2048_S1024_1024) (hf' := cHalf (0 + 1)) (hhf' := cHalf_inb (0 + 1)) (hsm := inb_S2_S1_1) (sm' := cIsem (0 + 1)) (hsm' := cIsem_inb (0 + 1)) (k0_off1_eq L 1) rfl rfl fi))
          unfold FetchFl; iexact HFl
        · iapply (Entails.of_eq (XfRest_congr (F := F) d L X (ho := k0_off1_inb L 1) (o' := cCol L (0 + 1)) (ho' := cCol_inb L (0 + 1) (by decide)) (k0_off1_eq L 1)))
          unfold XfRest; iexact Hxf
    isplitl [Hq2]; · unfold idleSh; iexact Hq2
    isplitl [Hq3]; · unfold idleSh; iexact Hq3
    isplitl [Hq4]; · unfold idleSh; iexact Hq4
    isplitl [Hd8]; · iexact Hd8
    isplitl [Hs0]
    · unfold ScaC
      iexists _, _
      isplitr
      rotate_left
      · iapply (Entails.of_eq (SFo_congr (F := F) d L (ss := ![0]) (hss := inb_S6_S1_0) (ou := k0_off4 L 0#32 0#32) (hou := k0_off4_inb L 0) (sl := ![0, 0, 0]) (hsl := inb_S6x32x128_S1x32x128_0_0_0) rfl ((k0_off4_eq_0_0 L).trans rfl) rfl _ _))
        unfold SFo; iexact Hs0
      · ipureintro
        refine outOK_of_copy' X Tb L 0 (by decide) _ ?_ f0 (k0_off4 L 0#32 0#32) _ ((k0_off4_eq_0_0 L).trans rfl) ![0, 0, 0] _ rfl
        exact slotOK_of_gather' X hX Tb L 0 (by decide) fi (HalfOK_congr X L (by decide) fi hA) fb ![0, 0, 0] _ rfl ![0, 0] _ rfl ![0] _ rfl _ _
    isplitl [Hs1]
    · unfold ScaC
      iexists _, _
      isplitr
      rotate_left
      · iapply (Entails.of_eq (SFo_congr (F := F) d L (ss := ![1]) (hss := inb_S6_S1_1) (ou := k0_off4 L 32#32 0#32) (hou := k0_off4_inb L 1) (sl := ![1, 0, 0]) (hsl := inb_S6x32x128_S1x32x128_1_0_0) rfl ((k0_off4_eq_32_0 L).trans rfl) rfl _ _))
        unfold SFo; iexact Hs1
      · ipureintro
        refine outOK_of_copy' X Tb L 1 (by decide) _ ?_ f0 (k0_off4 L 32#32 0#32) _ ((k0_off4_eq_32_0 L).trans rfl) ![1, 0, 0] _ rfl
        exact slotOK_of_gather' X hX Tb L 1 (by decide) fi (HalfOK_congr X L (by decide) fi hA) fb ![1, 0, 0] _ rfl ![0, 0] _ rfl ![32] _ rfl _ _
    isplitl [Hs2]
    · unfold ScaC
      iexists _, _
      isplitr
      rotate_left
      · iapply (Entails.of_eq (SFo_congr (F := F) d L (ss := ![2]) (hss := inb_S6_S1_2) (ou := k0_off4 L 64#32 0#32) (hou := k0_off4_inb L 2) (sl := ![2, 0, 0]) (hsl := inb_S6x32x128_S1x32x128_2_0_0) rfl ((k0_off4_eq_64_0 L).trans rfl) rfl _ _))
        unfold SFo; iexact Hs2
      · ipureintro
        refine outOK_of_copy' X Tb L 2 (by decide) _ ?_ f0 (k0_off4 L 64#32 0#32) _ ((k0_off4_eq_64_0 L).trans rfl) ![2, 0, 0] _ rfl
        exact slotOK_of_gather' X hX Tb L 2 (by decide) fi (HalfOK_congr X L (by decide) fi hA) fb ![2, 0, 0] _ rfl ![0, 0] _ rfl ![64] _ rfl _ _
    isplitl [Hg0]; · unfold gsem0; iexact Hg0
    isplitl [Hg1]; · unfold gsem0; iexact Hg1
    isplitl [Hg2]; · unfold gsem0; iexact Hg2
    isplitl [Hs3]; · unfold ssem0; iexact Hs3
    isplitl [Hs4]; · unfold ssem0; iexact Hs4
    isplitl [Hs5]; · unfold ssem0; iexact Hs5
    isplitl [HoR]; · iexact HoR
    isplitl []
    · unfold OutDone
      rw [show (2 * 0 : ℕ) = 0 from rfl, Finset.range_zero, BI.bigSep_empty]
      iempintro
    isplitl [Htb]; · iexact Htb
    isplitl [Hsc]; · iexact Hsc
    iexact Hrest
  -- after the loop
  iintro %acc HI
  ihave HI' := (Entails.of_eq (inv_last (F := F) d L X Tb f0 O W acc)) $$ HI
  unfold InvAt
  icases HI' with ⟨-, ⟨%W2, %hW2, HO⟩, ⟨%fi2, %hfi2, HG3, HG4, HG5, HIx⟩, Hi6, Hi7, Hi8, Hd8, HS0, HS1, HS2, Hgs6, Hgs7, Hgs8, Hss3, Hss4, Hss5, HoR, HoD, Htb, Hsc, Hrest⟩
  unfold GatC ScaC
  icases HG3 with ⟨%g3, %hg3, HGF3, HR3⟩
  icases HG4 with ⟨%g4, %hg4, HGF4, HR4⟩
  icases HG5 with ⟨%g5, %hg5, HGF5, HR5⟩
  icases HS0 with ⟨%s0, %fo0, %hfo0, HSF0⟩
  icases HS1 with ⟨%s1, %fo1, %hfo1, HSF1⟩
  icases HS2 with ⟨%s2, %fo2, %hfo2, HSF2⟩
  ihave HIx' := (Entails.of_eq (ixPart_last (F := F) d L X fi2)) $$ HIx
  unfold IxNone
  icases HIx' with ⟨Hixs, His0, His1, Hxf⟩
  -- the flights and semaphores in the drain's own words
  ihave HGF3 := (Entails.of_eq (GFo_congr (F := F) d L (gs' := ![5]) (hgs' := inb_S6_S1_5) (sl' := ![5, 0, 0]) (hsl' := inb_S6x32x128_S1x32x128_5_0_0) (li' := ![928]) (hli' := inb_S2048_S32_928) (tb' := ![12000, 0]) (htb' := inb_S13000x128_S1000x128_12000_0) rfl rfl rfl rfl _ _ _ _)) $$ HGF3
  ihave HGF4 := (Entails.of_eq (GFo_congr (F := F) d L (gs' := ![0]) (hgs' := inb_S6_S1_0) (sl' := ![0, 0, 0]) (hsl' := inb_S6x32x128_S1x32x128_0_0_0) (li' := ![960]) (hli' := inb_S2048_S32_960) (tb' := ![12000, 0]) (htb' := inb_S13000x128_S1000x128_12000_0) rfl rfl rfl rfl _ _ _ _)) $$ HGF4
  ihave HGF5 := (Entails.of_eq (GFo_congr (F := F) d L (gs' := ![1]) (hgs' := inb_S6_S1_1) (sl' := ![1, 0, 0]) (hsl' := inb_S6x32x128_S1x32x128_1_0_0) (li' := ![992]) (hli' := inb_S2048_S32_992) (tb' := ![12000, 0]) (htb' := inb_S13000x128_S1000x128_12000_0) rfl rfl rfl rfl _ _ _ _)) $$ HGF5
  ihave HR3 := (Entails.of_eq (spRest_congr (F := F) d L (tb' := ![12000, 0]) (htb' := inb_S13000x128_S1000x128_12000_0) rfl _ _)) $$ HR3
  ihave HR4 := (Entails.of_eq (spRest_congr (F := F) d L (tb' := ![12000, 0]) (htb' := inb_S13000x128_S1000x128_12000_0) rfl _ _)) $$ HR4
  ihave HR5 := (Entails.of_eq (spRest_congr (F := F) d L (tb' := ![12000, 0]) (htb' := inb_S13000x128_S1000x128_12000_0) rfl _ _)) $$ HR5
  ihave HSF0 := (Entails.of_eq (SFo_congr (F := F) d L (ss' := ![2]) (hss' := inb_S6_S1_2) (ou' := k0_off4 L 832#32 12#32) (hou' := k0_off4_inb L 6) (sl' := ![2, 0, 0]) (hsl' := inb_S6x32x128_S1x32x128_2_0_0) rfl ((k0_off4_eq_832_12 L).trans rfl).symm rfl _ _)) $$ HSF0
  ihave HSF1 := (Entails.of_eq (SFo_congr (F := F) d L (ss' := ![3]) (hss' := inb_S6_S1_3) (ou' := k0_off4 L 864#32 12#32) (hou' := k0_off4_inb L 7) (sl' := ![3, 0, 0]) (hsl' := inb_S6x32x128_S1x32x128_3_0_0) rfl ((k0_off4_eq_864_12 L).trans rfl).symm rfl _ _)) $$ HSF1
  ihave HSF2 := (Entails.of_eq (SFo_congr (F := F) d L (ss' := ![4]) (hss' := inb_S6_S1_4) (ou' := k0_off4 L 896#32 12#32) (hou' := k0_off4_inb L 8) (sl' := ![4, 0, 0]) (hsl' := inb_S6x32x128_S1x32x128_4_0_0) rfl ((k0_off4_eq_896_12 L).trans rfl).symm rfl _ _)) $$ HSF2
  ihave Hss3 := (Entails.of_eq (ssem0_congr (F := F) d L (ss' := ![5]) (hss' := inb_S6_S1_5) rfl)) $$ Hss3
  ihave Hss4 := (Entails.of_eq (ssem0_congr (F := F) d L (ss' := ![0]) (hss' := inb_S6_S1_0) rfl)) $$ Hss4
  ihave Hss5 := (Entails.of_eq (ssem0_congr (F := F) d L (ss' := ![1]) (hss' := inb_S6_S1_1) rfl)) $$ Hss5
  ihave Hgs6 := (Entails.of_eq (gsem0_congr (F := F) d L (gs' := ![2]) (hgs' := inb_S6_S1_2) rfl)) $$ Hgs6
  ihave Hgs7 := (Entails.of_eq (gsem0_congr (F := F) d L (gs' := ![3]) (hgs' := inb_S6_S1_3) rfl)) $$ Hgs7
  ihave Hgs8 := (Entails.of_eq (gsem0_congr (F := F) d L (gs' := ![4]) (hgs' := inb_S6_S1_4) rfl)) $$ Hgs8
  -- the last three blocks of the result
  ihave Hp3 := (Entails.of_eq (outRest_pop (F := F) d L f0 413 (by decide))) $$ HoR
  icases Hp3 with ⟨Ho3, HoR4⟩
  ihave Hp4 := (Entails.of_eq (outRest_pop (F := F) d L f0 414 (by decide))) $$ HoR4
  icases Hp4 with ⟨Ho4, HoR5⟩
  ihave Hp5 := (Entails.of_eq (outRest_pop (F := F) d L f0 415 (by decide))) $$ HoR5
  icases Hp5 with ⟨Ho5, HoR6⟩
  ihave Ho3 := (Entails.of_eq (outPts_congr (F := F) d L (ou' := k0_off4 L 928#32 12#32) (hou' := k0_off4_inb L 3) ((k0_off4_eq_928_12 L).trans rfl).symm f0)) $$ Ho3
  ihave Ho4 := (Entails.of_eq (outPts_congr (F := F) d L (ou' := k0_off4 L 960#32 12#32) (hou' := k0_off4_inb L 4) ((k0_off4_eq_960_12 L).trans rfl).symm f0)) $$ Ho4
  ihave Ho5 := (Entails.of_eq (outPts_congr (F := F) d L (ou' := k0_off4 L 992#32 12#32) (hou' := k0_off4_inb L 5) ((k0_off4_eq_992_12 L).trans rfl).symm f0)) $$ Ho5
  unfold GFo SFo spRest gsem0 ssem0 outPts ixRest3
  have hin2 := hin_of_halves X hX L (curF 205) (othF 205) (curF_lt 205 (le_refl _)) (othF_lt 205 (le_refl _)) (by decide) fi2 hfi2.1 hfi2.2
  sl_exec
  sl_step
  unfold EndPost idleSh
  have hOK3 : OutOK X Tb L 413 (by decide) ((outO (k0_off4 L 928#32 12#32) (k0_off4_inb L 3)).view.writes (Elt F) f0
      [⟨Rect.whole S32x128, ReadAs.same.apply ((slotO ![5, 0, 0] inb_S6x32x128_S1x32x128_5_0_0).view.read (Elt F) g3)⟩]) :=
    outOK_of_copy' X Tb L 413 (by decide) g3 hg3 f0 (k0_off4 L 928#32 12#32) _ ((k0_off4_eq_928_12 L).trans rfl) ![5, 0, 0] _ rfl
  have hOK4 : OutOK X Tb L 414 (by decide) ((outO (k0_off4 L 960#32 12#32) (k0_off4_inb L 4)).view.writes (Elt F) f0
      [⟨Rect.whole S32x128, ReadAs.same.apply ((slotO ![0, 0, 0] inb_S6x32x128_S1x32x128_0_0_0).view.read (Elt F) g4)⟩]) :=
    outOK_of_copy' X Tb L 414 (by decide) g4 hg4 f0 (k0_off4 L 960#32 12#32) _ ((k0_off4_eq_960_12 L).trans rfl) ![0, 0, 0] _ rfl
  have hOK5 : OutOK X Tb L 415 (by decide) ((outO (k0_off4 L 992#32 12#32) (k0_off4_inb L 5)).view.writes (Elt F) f0
      [⟨Rect.whole S32x128, ReadAs.same.apply ((slotO ![1, 0, 0] inb_S6x32x128_S1x32x128_1_0_0).view.read (Elt F) g5)⟩]) :=
    outOK_of_copy' X Tb L 415 (by decide) g5 hg5 f0 (k0_off4 L 992#32 12#32) _ ((k0_off4_eq_992_12 L).trans rfl) ![1, 0, 0] _ rfl
  isplitl [HO]
  · iexists _
    isplitr
    rotate_left
    · iexact HO
    · ipureintro
      intro p hp
      simp only [Finset.mem_insert] at hp
      rcases hp with rfl | rfl | rfl | rfl | rfl | rfl | rfl | rfl | rfl | hp
      exacts [Or.inr (Or.inl rfl), Or.inr (Or.inl rfl), Or.inr (Or.inl rfl), Or.inr (Or.inl rfl), Or.inr (Or.inl rfl), Or.inr (Or.inl rfl), Or.inr (Or.inl rfl), Or.inr (Or.inl rfl), Or.inr (Or.inl rfl), hW2 p hp]
  isplitl [Hxf]; · iexact Hxf
  isplitl [Htb]; · iexact Htb
  isplitl [Hq0 Hq1 HR4 HR5 Hi6 Hi7 Hi8 HR3 Hd8]
  · iapply (tok_step0 (F := F) _ (shq (jV L))).2
    isplitr [Hq0]
    rotate_left
    · iexact Hq0
    iapply (tok_step (F := F) _ (shq (jV L)) 1).2
    isplitr [Hq1]
    rotate_left
    · iexact Hq1
    iapply (tok_step (F := F) _ (shq (jV L)) 2).2
    isplitr [HR4]
    rotate_left
    · iexact HR4
    iapply (tok_step (F := F) _ (shq (jV L)) 3).2
    isplitr [HR5]
    rotate_left
    · iexact HR5
    iapply (tok_step (F := F) _ (shq (jV L)) 4).2
    isplitr [Hi6]
    rotate_left
    · iexact Hi6
    iapply (tok_step (F := F) _ (shq (jV L)) 5).2
    isplitr [Hi7]
    rotate_left
    · iexact Hi7
    iapply (tok_step (F := F) _ (shq (jV L)) 6).2
    isplitr [Hi8]
    rotate_left
    · iexact Hi8
    iapply (tok_step (F := F) _ (shq (jV L)) 7).2
    isplitr [HR3]
    rotate_left
    · iexact HR3
    iexact Hd8
  isplitl [Hixs]; · iexists fi2; iexact Hixs
  isplitl [HGF4_dst HGF5_dst HSF0_src HSF1_src HSF2_src HGF3_dst]
  · iexists (ringAll d L g4 g5 s0 s1 s2 g3)
    iapply (ring_join (F := F) L _)
    isplitl [HGF4_dst]
    · iapply (Entails.of_eq (slot_to_all (F := F) d L 0 (by decide) _ g4 _ (fun i h => by unfold ringAll; rw [if_pos h])))
      iexact HGF4_dst
    isplitl [HGF5_dst]
    · iapply (Entails.of_eq (slot_to_all (F := F) d L 1 (by decide) _ g5 _ (fun i h => by unfold ringAll; rw [if_neg (by omega), if_pos h])))
      iexact HGF5_dst
    isplitl [HSF0_src]
    · iapply (Entails.of_eq (slot_to_all (F := F) d L 2 (by decide) _ s0 _ (fun i h => by unfold ringAll; rw [if_neg (by omega), if_neg (by omega), if_pos h])))
      iexact HSF0_src
    isplitl [HSF1_src]
    · iapply (Entails.of_eq (slot_to_all (F := F) d L 3 (by decide) _ s1 _ (fun i h => by unfold ringAll; rw [if_neg (by omega), if_neg (by omega), if_neg (by omega), if_pos h])))
      iexact HSF1_src
    isplitl [HSF2_src]
    · iapply (Entails.of_eq (slot_to_all (F := F) d L 4 (by decide) _ s2 _ (fun i h => by unfold ringAll; rw [if_neg (by omega), if_neg (by omega), if_neg (by omega), if_neg (by omega), if_pos h])))
      iexact HSF2_src
    · iapply (Entails.of_eq (slot_to_all (F := F) d L 5 (by decide) _ g3 _ (fun i h => by unfold ringAll; rw [if_neg (by omega), if_neg (by omega), if_neg (by omega), if_neg (by omega), if_neg (by omega)])))
      iexact HGF3_dst
  isplitl [HoD HSF0_dst HSF1_dst HSF2_dst Ho3 Ho4 Ho5]
  · iapply (blocks_join_same (F := F) L (Cert.Lookup.gathered X Tb))
    iapply (Entails.of_eq (outDone_full (F := F) d L X Tb))
    iapply (Entails.of_eq (outDone_push (F := F) d L X Tb 415 (by decide)).symm)
    isplitl [Ho5]
    · unfold outPts
      iapply (out_pts_of_OK X Tb L 415 (by decide) _ hOK5)
      iapply (Entails.of_eq (outBlock_congr (F := F) d L (ou := k0_off4 L 992#32 12#32) (hou := k0_off4_inb L 5) ((k0_off4_eq_992_12 L).trans rfl) _))
      iexact Ho5
    iapply (Entails.of_eq (outDone_push (F := F) d L X Tb 414 (by decide)).symm)
    isplitl [Ho4]
    · unfold outPts
      iapply (out_pts_of_OK X Tb L 414 (by decide) _ hOK4)
      iapply (Entails.of_eq (outBlock_congr (F := F) d L (ou := k0_off4 L 960#32 12#32) (hou := k0_off4_inb L 4) ((k0_off4_eq_960_12 L).trans rfl) _))
      iexact Ho4
    iapply (Entails.of_eq (outDone_push (F := F) d L X Tb 413 (by decide)).symm)
    isplitl [Ho3]
    · unfold outPts
      iapply (out_pts_of_OK X Tb L 413 (by decide) _ hOK3)
      iapply (Entails.of_eq (outBlock_congr (F := F) d L (ou := k0_off4 L 928#32 12#32) (hou := k0_off4_inb L 3) ((k0_off4_eq_928_12 L).trans rfl) _))
      iexact Ho3
    iapply (Entails.of_eq (outDone_push (F := F) d L X Tb 412 (by decide)).symm)
    isplitl [HSF2_dst]
    · unfold outPts
      iapply (out_pts_of_OK X Tb L 412 (by decide) _ hfo2)
      iapply (Entails.of_eq (outBlock_congr (F := F) d L (ou := k0_off4 L 896#32 12#32) (hou := k0_off4_inb L 8) ((k0_off4_eq_896_12 L).trans rfl) _))
      iexact HSF2_dst
    iapply (Entails.of_eq (outDone_push (F := F) d L X Tb 411 (by decide)).symm)
    isplitl [HSF1_dst]
    · unfold outPts
      iapply (out_pts_of_OK X Tb L 411 (by decide) _ hfo1)
      iapply (Entails.of_eq (outBlock_congr (F := F) d L (ou := k0_off4 L 864#32 12#32) (hou := k0_off4_inb L 7) ((k0_off4_eq_864_12 L).trans rfl) _))
      iexact HSF1_dst
    iapply (Entails.of_eq (outDone_push (F := F) d L X Tb 410 (by decide)).symm)
    isplitl [HSF0_dst]
    · unfold outPts
      iapply (out_pts_of_OK X Tb L 410 (by decide) _ hfo0)
      iapply (Entails.of_eq (outBlock_congr (F := F) d L (ou := k0_off4 L 832#32 12#32) (hou := k0_off4_inb L 6) ((k0_off4_eq_832_12 L).trans rfl) _))
      iexact HSF0_dst
    iexact HoD
  isplitl [His0]; · iexact His0
  isplitl [His1]; · iexact His1
  isplitl [HGF4]; · iexact HGF4
  isplitl [HGF5]; · iexact HGF5
  isplitl [Hgs6]; · iexact Hgs6
  isplitl [Hgs7]; · iexact Hgs7
  isplitl [Hgs8]; · iexact Hgs8
  isplitl [HGF3]; · iexact HGF3
  isplitl [Hss4]; · iexact Hss4
  isplitl [Hss5]; · iexact Hss5
  isplitl [HSF0]; · iexact HSF0
  isplitl [HSF1]; · iexact HSF1
  isplitl [HSF2]; · iexact HSF2
  isplitl [Hss3]; · iexact Hss3
  isplitl [Hsc]; · iexact Hsc
  iexact Hrest

end Tail
end Cert.Proof.KI
end
-- ==== Proof.BodyLoopN0.lean ====
/-
  One trip of the loop from the invariant, when no index column's fetch is on its way and none is issued or awaited in the trip:
  the gathers of chunks `2k + 3` and `2k + 4` land and their slots are copied out; the copy-outs of chunks `2k` and `2k + 1` land and their
  blocks hold the result; the gathers of chunks `2k + 6` and `2k + 7` start into the two slots just freed.  Every piece is first respelt from
  its chunk number's closed form to the trip's own offsets, the trip is run, and the pieces are respelt to the next trip's chunk numbers.
-/
import proofs.«206644_g35837207118489_cont_8to1_b_589_28_alg».proof.Proof.BodyLemmas2
import proofs.«206644_g35837207118489_cont_8to1_b_589_28_alg».proof.Proof.InvIx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

set_option maxHeartbeats 32000000 in
set_option sl_exec.dmaWindow true in
set_option sl_exec.dmaWindowSet true in
set_option sl_exec.dmaWindowLent true in
theorem region_normal_none (k : Fin k0_t1_loop.trips) (acc : BitVec 32) (hk : k.val ≤ 205) (hk1 : k.val + 1 ≤ 205) (hkk : k.val < 205)
    (hc2 : ¬ k0_cond2 k = 1#1) (hc3 : ¬ k0_cond3 k = 1#1) (hp : ¬ pending k.val)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  ihave Hix := (Entails.of_eq (show IxPart d L X k.val fi = IxNone d L X (2 * k.val + 3) (2 * k.val + 4) (2 * k.val + 5) fi from dif_neg hp)) $$ Hix
  unfold IxNone
  icases Hix with ⟨Hi, His0, His1, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3
  sl_exec

  subst hQ
  sl_step
  -- the state of the fetches does not change on this trip
  have h2 := (k0_cond2_eq k).not.mp hc2
  have h3 := (k0_cond3_eq k).not.mp hc3
  have hp' : ¬ pending (k.val + 1) := by unfold pending curF at hp ⊢; omega
  have hcur : curF k.val = curF (k.val + 1) := by unfold curF; omega
  have hoth : othF k.val = othF (k.val + 1) := by unfold othF curF; split_ifs <;> omega
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch and the three gathers in flight
  isplitl [HG5 Hr5 Hgs6 Hq6 Hgs7 Hq7 Hi HG3_dst_and HG4_dst_and His0 His1 Hxf]
  · iexists fi
    isplitr
    · ipureintro; exact ⟨HalfOK_congr X L hcur fi hhalf.1, HalfOK_congr X L hoth fi hhalf.2⟩
    isplitl [HG5 Hr5]
    · iapply (Entails.of_eq (GatC_congr (h := by omega) d L X Tb (show 2 * k.val + 5 = 2 * (k.val + 1) + 3 by omega) fi))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) fi))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) fi (HalfOK_congr X L (by unfold curF; omega) fi hhalf.1) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) fi))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) fi (HalfOK_congr X L (by unfold curF; omega) fi hhalf.1) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch: the two returned lists rejoin it
    iapply (Entails.of_eq (show IxPart d L X (k.val + 1) fi = IxNone d L X (2 * (k.val + 1) + 3) (2 * (k.val + 1) + 4) (2 * (k.val + 1) + 5) fi from dif_neg hp').symm)
    unfold IxNone
    isplitl [Hi HG3_dst_and HG4_dst_and]
    · iapply (Entails.of_eq (ixRest3_congr (ha := cList_inb (2 * k.val + 5)) (hb := k0_off17_inb k 0) (hc := k0_off17_inb k 1) d L
          (show cList (2 * k.val + 5) = cList (2 * (k.val + 1) + 3) from congrArg cList (by omega))
          ((k0_off17_eq_0 k).trans (congrArg cList (by omega : 2 * k.val + 6 = 2 * (k.val + 1) + 4)))
          ((k0_off17_eq_1 k).trans (congrArg cList (by omega : 2 * k.val + 7 = 2 * (k.val + 1) + 5))) fi))
      iapply (ix_rejoin d L Finset.univ (k0_off6 k 0#32) (k0_off6 k 1#32) (cList (2 * k.val + 5)) (k0_off17 k 0#32) (k0_off17 k 1#32)
          (k0_off6_inb k 0) (k0_off6_inb k 1) (cList_inb (2 * k.val + 5)) (k0_off17_inb k 0) (k0_off17_inb k 1) fi
          (Finset.subset_univ _) (Finset.subset_univ _) (list6_0_list6_1 k) (list6_0_list5 k) (list17_0_list6_0 k).symm (list17_1_list6_0 k).symm
          (list6_1_list5 k) (list17_0_list6_1 k).symm (list17_1_list6_1 k).symm)
      isplitl [Hi]; · iexact Hi
      isplitl [HG3_dst_and]; · iexact HG3_dst_and
      iexact HG4_dst_and
    isplitl [His0]; · iexact His0
    isplitl [His1]; · iexact His1
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KI

end
-- ==== Proof.BodyLoopN1.lean ====
/-
  One trip of the loop from the invariant, while the next field's index column is on its way and is neither issued nor awaited in the trip:
  the gathers of chunks `2k + 3` and `2k + 4` land and their slots are copied out; the copy-outs of chunks `2k` and `2k + 1` land and their
  blocks hold the result; the gathers of chunks `2k + 6` and `2k + 7` start into the two slots just freed.  Every piece is first respelt from
  its chunk number's closed form to the trip's own offsets, the trip is run, and the pieces are respelt to the next trip's chunk numbers.
-/
import proofs.«206644_g35837207118489_cont_8to1_b_589_28_alg».proof.Proof.BodyLemmas2
import proofs.«206644_g35837207118489_cont_8to1_b_589_28_alg».proof.Proof.InvIx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

set_option maxHeartbeats 32000000 in
set_option sl_exec.dmaWindow true in
set_option sl_exec.dmaWindowSet true in
set_option sl_exec.dmaWindowLent true in
theorem region_normal_pend (k : Fin k0_t1_loop.trips) (acc : BitVec 32) (hk : k.val ≤ 205) (hk1 : k.val + 1 ≤ 205) (hkk : k.val < 205)
    (hc2 : ¬ k0_cond2 k = 1#1) (hc3 : ¬ k0_cond3 k = 1#1) (hp : pending k.val)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  have h0' : (2 * k.val + 6) % 32 ≠ 0 := by have := (k0_cond3_eq k).not.mp hc3; omega
  have hb0 := (pend_list17_0 k hp h0').symm
  have hb1 := (pend_list17_1 k hp h0').symm
  have hb0' := pend_list17_0 k hp h0'
  have hb1' := pend_list17_1 k hp h0'
  ihave Hix := (Entails.of_eq (show IxPart d L X k.val fi = IxPend d L X (curF k.val) hp.2 (2 * k.val + 3) (2 * k.val + 4) (2 * k.val + 5) fi from dif_pos hp)) $$ Hix
  unfold IxPend
  icases Hix with ⟨Hi, His, HFl, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3
  sl_exec

  subst hQ
  sl_step
  -- the state of the fetches does not change on this trip
  have h2 := (k0_cond2_eq k).not.mp hc2
  have h3 := (k0_cond3_eq k).not.mp hc3
  have hp' : pending (k.val + 1) := by unfold pending curF at hp ⊢; omega
  have hcur : curF k.val = curF (k.val + 1) := by unfold curF; omega
  have hoth : othF k.val = othF (k.val + 1) := by unfold othF curF; split_ifs <;> omega
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch and the three gathers in flight
  isplitl [HG5 Hr5 Hgs6 Hq6 Hgs7 Hq7 Hi HG3_dst_and HG4_dst_and His HFl Hxf]
  · iexists fi
    isplitr
    · ipureintro; exact ⟨HalfOK_congr X L hcur fi hhalf.1, HalfOK_congr X L hoth fi hhalf.2⟩
    isplitl [HG5 Hr5]
    · iapply (Entails.of_eq (GatC_congr (h := by omega) d L X Tb (show 2 * k.val + 5 = 2 * (k.val + 1) + 3 by omega) fi))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) fi))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) fi (HalfOK_congr X L (by unfold curF; omega) fi hhalf.1) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) fi))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) fi (HalfOK_congr X L (by unfold curF; omega) fi hhalf.1) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch: the two returned lists rejoin it
    iapply (Entails.of_eq (show IxPart d L X (k.val + 1) fi = IxPend d L X (curF (k.val + 1)) hp'.2 (2 * (k.val + 1) + 3) (2 * (k.val + 1) + 4) (2 * (k.val + 1) + 5) fi from dif_pos hp').symm)
    iapply (Entails.of_eq (IxPend_congr (h := hp.2) d L X hcur (show 2 * k.val + 5 = 2 * (k.val + 1) + 3 by omega) (show 2 * k.val + 6 = 2 * (k.val + 1) + 4 by omega) (show 2 * k.val + 7 = 2 * (k.val + 1) + 5 by omega) fi))
    unfold IxPend
    isplitl [Hi HG3_dst_and HG4_dst_and]
    · iapply (Entails.of_eq (ixRest3_congr (ha := cList_inb (2 * k.val + 5)) (hb := k0_off17_inb k 0) (hc := k0_off17_inb k 1) d L
          (rfl : cList (2 * k.val + 5) = cList (2 * k.val + 5))
          (k0_off17_eq_0 k)
          (k0_off17_eq_1 k) fi))
      iapply (ix_rejoin d L (@SDiff.sdiff (Finset (Idx ((ixsV).view.loc (V d (cV L) (jV L))))) _ Finset.univ (halfO (cHalf (curF k.val + 1)) (cHalf_inb (curF k.val + 1))).view.set) (k0_off6 k 0#32) (k0_off6 k 1#32) (cList (2 * k.val + 5)) (k0_off17 k 0#32) (k0_off17 k 1#32)
          (k0_off6_inb k 0) (k0_off6_inb k 1) (cList_inb (2 * k.val + 5)) (k0_off17_inb k 0) (k0_off17_inb k 1) fi
          (listO_subset_but_half d L (pend_list6_0 k hp h0')) (listO_subset_but_half d L (pend_list6_1 k hp h0')) (list6_0_list6_1 k) (list6_0_list5 k) (list17_0_list6_0 k).symm (list17_1_list6_0 k).symm
          (list6_1_list5 k) (list17_0_list6_1 k).symm (list17_1_list6_1 k).symm)
      isplitl [Hi]; · iexact Hi
      isplitl [HG3_dst_and]; · iexact HG3_dst_and
      iexact HG4_dst_and
    isplitl [His]; · iexact His
    isplitl [HFl]; · iexact HFl
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KI

end
-- ==== Proof.InvPre.lean ====
/-
  The index scratch across the fetch of the next field's column.

  The fetch of field `fl + 1`'s column (`fl` the field of chunk `2k + 6`) writes the half `(fl + 1) % 2` of the index scratch with
  the tile's column of that field.  Off that half nothing changes, so what is held of the scratch outside it, and the lists of
  the gathers in flight, hold the same words before and after; the other half still holds field `fl`'s column; and the half
  written holds field `fl + 1`'s.
-/
import proofs.«206644_g35837207118489_cont_8to1_b_589_28_alg».proof.Proof.Inv
import proofs.«206644_g35837207118489_cont_8to1_b_589_28_alg».proof.Proof.BodyDisj
import proofs.«206644_g35837207118489_cont_8to1_b_589_28_alg».proof.Proof.BodyLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

variable (d : Dev nD) (L : grid0.Coords) (X : Buf (Elt F) (ixLoc d)) (k : Fin k0_t1_loop.trips) (hc2 : k0_cond2 k = 1#1)

/-- What the fetch moves: the tile's column of the next field, read through the program's slice of the flattened columns. -/
abbrev preW : S1024.Idx → Elt F .i32 :=
  ReadAs.same.apply (View.read (Elt F) (colO (k0_off11 L k) (k0_off11_inb L k hc2)).view X)

/-- The index scratch's contents once the fetch is issued: its half written with that column. -/
abbrev fiP (fi : Buf (Elt F) ((V d (cV L) (jV L)).loc cc0_scratch1)) : Buf (Elt F) ((V d (cV L) (jV L)).loc cc0_scratch1) :=
  (ixsV).view.writes (Elt F) fi [⟨Rect.unit (s := S2048) (k0_off10 k) S1024.size (k0_off10_inb k hc2), preW d L X k hc2⟩]

omit [FloatOps F] in
/-- Off the half written, the contents are the old ones. -/
theorem fiP_off (fi : Buf (Elt F) ((V d (cV L) (jV L)).loc cc0_scratch1)) (i : Idx ((ixsV).view.loc (V d (cV L) (jV L))))
    (hi : i ∉ (halfO (k0_off10 k) (k0_off10_inb k hc2)).view.set) : fiP d L X k hc2 fi i = fi i := by
  show (((ixsV).view.slice (Rect.unit (s := S2048) (k0_off10 k) S1024.size (k0_off10_inb k hc2))).write (Elt F) fi (preW d L X k hc2) Finset.univ) i = fi i
  exact View.write_of_not_mem _ _ _ (by rw [View.setOn_univ]; exact hi)

omit [FloatOps F] in
/-- A piece of the scratch that misses the half holds the same words before and after. -/
theorem pts_fiP (fi : Buf (Elt F) ((V d (cV L) (jV L)).loc cc0_scratch1)) (I : Finset (Idx ((ixsV).view.loc (V d (cV L) (jV L))))) (q : PosShare TreeShare)
    (hI : Disjoint I (halfO (k0_off10 k) (k0_off10_inb k hc2)).view.set) :
    ((ixsV).view.loc (V d (cV L) (jV L)) ↦[I]{q} fi : sProp 𝕄) = ((ixsV).view.loc (V d (cV L) (jV L)) ↦[I]{q} fiP d L X k hc2 fi) :=
  pointsTo_congr fun i hi => (fiP_off d L X k hc2 fi i (Finset.disjoint_left.mp hI hi)).symm

/-- The half of a field of the other parity still holds that field's column. -/
theorem halfOK_keep (fi : Buf (Elt F) ((V d (cV L) (jV L)).loc cc0_scratch1)) (f : ℕ) (h : f < 13) (hf : f % 2 ≠ ((2 * k.val + 6) / 32 + 1) % 2)
    (H : HalfOK X L f h fi) : HalfOK X L f h (fiP d L X k hc2 fi) := by
  intro y
  have hy : (y 0).val < 1024 := (y 0).isLt
  rw [← H y, halfO_read L _ _ _ y (by show f % 2 * 1024 + (y 0).val < 2048; omega), halfO_read L _ _ _ y (by show f % 2 * 1024 + (y 0).val < 2048; omega)]
  refine fiP_off d L X k hc2 fi _ ?_
  rw [halfO_set, Rect.mem_set_unit]
  intro hm
  have h0 := hm 0
  rw [k0_off10_eq k] at h0
  have h1 : ((2 * k.val + 6) / 32 + 1) % 2 * 1024 ≤ f % 2 * 1024 + (y 0).val ∧ f % 2 * 1024 + (y 0).val < ((2 * k.val + 6) / 32 + 1) % 2 * 1024 + 1024 := h0
  omega

set_option maxHeartbeats 4000000 in
/-- The half written holds the next field's column. -/
theorem halfOK_new (fi : Buf (Elt F) ((V d (cV L) (jV L)).loc cc0_scratch1)) (h : (2 * k.val + 6) / 32 + 1 < 13) :
    HalfOK X L ((2 * k.val + 6) / 32 + 1) h (fiP d L X k hc2 fi) := by
  intro y
  have hy : (y 0).val < 1024 := (y 0).isLt
  have e10 := k0_off10_eq k
  have e11 := k0_off11_eq L k
  rw [halfO_read L _ _ _ y (by show ((2 * k.val + 6) / 32 + 1) % 2 * 1024 + (y 0).val < 2048; omega)]
  have h1 := View.read_writes_cons_emb (v := (ixsV).view) (f := fi) (Rect.unit (s := S2048) (k0_off10 k) S1024.size (k0_off10_inb k hc2)) (preW d L X k hc2) [] y
  have h2 : fiP d L X k hc2 fi ((Rect.unit (s := S2048) (k0_off10 k) S1024.size (k0_off10_inb k hc2)).emb y) = preW d L X k hc2 y := h1
  have e : (ix1 (n := 2048) ⟨((2 * k.val + 6) / 32 + 1) % 2 * 1024 + (y 0).val, by omega⟩ : S2048.Idx)
      = (Rect.unit (s := S2048) (k0_off10 k) S1024.size (k0_off10_inb k hc2)).emb y := by
    funext a
    match a with
    | ⟨0, _⟩ =>
      apply Fin.ext
      show ((2 * k.val + 6) / 32 + 1) % 2 * 1024 + (y 0).val = k0_off10 k 0 + 1 * (y 0).val
      rw [e10]; show _ = ((2 * k.val + 6) / 32 + 1) % 2 * 1024 + 1 * (y 0).val; omega
  show fiP d L X k hc2 fi (ix1 (n := 2048) ⟨((2 * k.val + 6) / 32 + 1) % 2 * 1024 + (y 0).val, _⟩) = _
  rw [e, h2]
  show X ((colO (k0_off11 L k) (k0_off11_inb L k hc2)).view.emb y) = _
  refine congrArg X (funext fun a => ?_)
  match a with
  | ⟨0, _⟩ =>
    apply Fin.ext
    show k0_off11 L k 0 + 1 * (y 0).val = 16384 * (13 * (L 0).val + ((2 * k.val + 6) / 32 + 1)) + 1024 * (L 1).val + (y 0).val
    rw [e11]; show 212992 * (L 0).val + 16384 * ((2 * k.val + 6) / 32) + 1024 * (L 1).val + 16384 + 1 * (y 0).val = _; omega

omit [FloatOps F] in
/-- A piece held through a list's own location is held through the scratch's. -/
theorem ixs_loc_respell {o : Fin 1 → ℕ} {h : ∀ a, o a + S32.size a ≤ S2048.size a} (S : Finset (Idx ((ixsV).view.loc (V d (cV L) (jV L)))))
    (q : PosShare TreeShare) (f : Buf (Elt F) ((V d (cV L) (jV L)).loc cc0_scratch1)) :
    ((listO o h).view.loc (V d (cV L) (jV L)) ↦[S]{q} f : sProp 𝕄) ⊢ ((ixsV).view.loc (V d (cV L) (jV L)) ↦[S]{q} f) := BI.Entails.refl _

end Cert.Proof.KI

end
-- ==== Proof.InvFi.lean ====
/-
  The index scratch's contents may change where a piece does not look: a gather in flight, the scratch's rest and a chunk's gather
  assertion are the same under two contents that agree on the piece's own words.
-/
import proofs.«206644_g35837207118489_cont_8to1_b_589_28_alg».proof.Proof.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

section Fi

variable (d : Dev nD) (L : grid0.Coords)

theorem GFo_fi_congr (gs : Fin 1 → ℕ) (hgs) (sl : Fin 3 → ℕ) (hsl) (li : Fin 1 → ℕ) (hli) (tb : Fin 2 → ℕ) (htb) (q : PosShare TreeShare)
    (g : Buf (Elt F) ((V d (cV L) (jV L)).loc cc0_scratch2)) (fi fi' : Buf (Elt F) ((V d (cV L) (jV L)).loc cc0_scratch1)) (Sp : Buf (Elt F) ((V d (cV L) (jV L)).loc cc0_scratch0))
    (h : ∀ i ∈ (listO li hli).view.set, fi i = fi' i) :
    GFo (F := F) d L gs hgs sl hsl li hli tb htb q g fi Sp = GFo d L gs hgs sl hsl li hli tb htb q g fi' Sp := by
  unfold GFo
  rw [show ((listO li hli).view.loc (V d (cV L) (jV L)) ↦[(listO li hli).view.set]{fullShare} fi : sProp 𝕄)
      = (listO li hli).view.loc (V d (cV L) (jV L)) ↦[(listO li hli).view.set]{fullShare} fi' from pointsTo_congr h]

theorem ixRest3_fi_congr (base) (a : Fin 1 → ℕ) (ha) (b : Fin 1 → ℕ) (hb) (c : Fin 1 → ℕ) (hc) (fi fi' : Buf (Elt F) ((V d (cV L) (jV L)).loc cc0_scratch1))
    (h : ∀ i ∈ @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set, fi i = fi' i) :
    ixRest3 (F := F) d L base a ha b hb c hc fi = ixRest3 d L base a ha b hb c hc fi' := by
  unfold ixRest3; rw [pointsTo_congr h]

theorem GatC_fi_congr (X : Buf (Elt F) (ixLoc d)) (Tb : Buf (Elt F) (tbLoc d)) (n : ℕ) (hn : n < 416) (fi fi' : Buf (Elt F) ((V d (cV L) (jV L)).loc cc0_scratch1))
    (h : ∀ i ∈ (listO (cList n) (cList_inb n)).view.set, fi i = fi' i) :
    GatC (F := F) d L X Tb n hn fi = GatC d L X Tb n hn fi' := by
  unfold GatC; simp only [GFo_fi_congr d L _ _ _ _ _ _ _ _ _ _ fi fi' _ h]

end Fi

end Cert.Proof.KI

end
-- ==== Proof.BodyLoopP.lean ====
/-
  One trip of the loop from the invariant, on a trip that fetches the next field's index column: chunk `2k + 6` is block 2 of
  its field `fl`, no fetch is on its way at the start, and during the trip the column of field `fl + 1` is fetched into the half of
  the index scratch that held field `fl - 1`'s column — whose last list, chunk `2k + 3`'s, has come back just before.  The index
  scratch's contents change on that half only, so every piece of it held outside the half, and the list of the gather still in
  flight, hold the same words before and after; the invariant after the trip is at the new contents, with the fetch on its way.
-/
import proofs.«206644_g35837207118489_cont_8to1_b_589_28_alg».proof.Proof.BodyLemmas2
import proofs.«206644_g35837207118489_cont_8to1_b_589_28_alg».proof.Proof.InvIx
import proofs.«206644_g35837207118489_cont_8to1_b_589_28_alg».proof.Proof.InvPre
import proofs.«206644_g35837207118489_cont_8to1_b_589_28_alg».proof.Proof.InvFi

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

section Sems
variable (d : Dev nD) (L : grid0.Coords)
omit [FloatOps F] in
theorem isem0_congr {o o' : Fin 1 → ℕ} {h : ∀ a, o a + S1.size a ≤ S2.size a} {h' : ∀ a, o' a + S1.size a ≤ S2.size a} (e : o = o') :
    (semVal ((V d (cV L) (jV L)), SemLoc.dma (isemO o h).sem) 0 : sProp 𝕄) = semVal ((V d (cV L) (jV L)), SemLoc.dma (isemO o' h').sem) 0 := by
  subst e; rfl

omit [FloatOps F] in
/-- The two fetch semaphores, named by a field's parity and the next field's. -/
theorem isems_by_parity (cf : ℕ) :
    iprop(semVal ((V d (cV L) (jV L)), SemLoc.dma (isemO ![0] inb_S2_S1_0).sem) 0 ∗ semVal ((V d (cV L) (jV L)), SemLoc.dma (isemO ![1] inb_S2_S1_1).sem) 0)
      ⊢ (iprop(semVal ((V d (cV L) (jV L)), SemLoc.dma (isemO (cIsem cf) (cIsem_inb cf)).sem) 0
          ∗ semVal ((V d (cV L) (jV L)), SemLoc.dma (isemO (cIsem (cf + 1)) (cIsem_inb (cf + 1))).sem) 0) : sProp 𝕄) := by
  rcases Nat.mod_two_eq_zero_or_one cf with h | h
  · have h' : (cf + 1) % 2 = 1 := by omega
    rw [isem0_congr (F := F) d L (o := cIsem cf) (o' := ![0]) (h' := inb_S2_S1_0) (by unfold cIsem; rw [h]),
      isem0_congr (F := F) d L (o := cIsem (cf + 1)) (o' := ![1]) (h' := inb_S2_S1_1) (by unfold cIsem; rw [h'])]
  · have h' : (cf + 1) % 2 = 0 := by omega
    rw [isem0_congr (F := F) d L (o := cIsem cf) (o' := ![1]) (h' := inb_S2_S1_1) (by unfold cIsem; rw [h]),
      isem0_congr (F := F) d L (o := cIsem (cf + 1)) (o' := ![0]) (h' := inb_S2_S1_0) (by unfold cIsem; rw [h'])]
    iintro ⟨A, B⟩
    isplitl [B]; · iexact B
    iexact A
end Sems

section Pend
variable (d : Dev nD) (L : grid0.Coords) (X : Buf (Elt F) (ixLoc d))

/-- A column fetch in flight, by the offsets of its semaphore, its half of the index scratch and its column. -/
abbrev pFlight (is : Fin 1 → ℕ) (his : ∀ a, is a + S1.size a ≤ S2.size a) (hf : Fin 1 → ℕ) (hhf : ∀ a, hf a + S1024.size a ≤ S2048.size a)
    (co : Fin 1 → ℕ) (hco : ∀ a, co a + S1024.size a ≤ S425984.size a) (fi : Buf (Elt F) ((V d (cV L) (jV L)).loc cc0_scratch1)) : sProp 𝕄 :=
  Transfers.Flight countersEmb (V d (cV L) (jV L)) (SemLoc.dma (isemO is his).sem) (default : HIx 1) 32768
    iprop(((ixsV).view.loc (V d (cV L) (jV L)) ↦[(halfO hf hhf).view.set]{fullShare} fi)
      ∗ ((xfV).view.loc (V d (cV L) (jV L)) ↦[(colO co hco).view.set]{shareOf L} X))
omit [FloatOps F] in
theorem pFlight_congr {is is' : Fin 1 → ℕ} {his his'} {hf hf' : Fin 1 → ℕ} {hhf hhf'} {co co' : Fin 1 → ℕ} {hco hco'}
    (e1 : is = is') (e2 : hf = hf') (e3 : co = co') (fi) :
    pFlight (F := F) d L X is his hf hhf co hco fi = pFlight d L X is' his' hf' hhf' co' hco' fi := by subst e1 e2 e3; rfl

/-- The flattened columns' share but a column. -/
abbrev xfRest (co : Fin 1 → ℕ) (hco : ∀ a, co a + S1024.size a ≤ S425984.size a) : sProp 𝕄 :=
  (xfV).view.loc (V d (cV L) (jV L)) ↦[Finset.univ \ (colO co hco).view.set]{shareOf L} X
omit [FloatOps F] in
theorem xfRest_congr {co co' : Fin 1 → ℕ} {hco hco'} (e : co = co') : xfRest (F := F) d L X co hco = xfRest d L X co' hco' := by subst e; rfl

omit [FloatOps F] in
theorem ixRest3_half_congr {hf hf' : Fin 1 → ℕ} {hhf : ∀ a, hf a + S1024.size a ≤ S2048.size a} {hhf' : ∀ a, hf' a + S1024.size a ≤ S2048.size a} (e : hf = hf')
    (a : Fin 1 → ℕ) (ha) (b : Fin 1 → ℕ) (hb) (c : Fin 1 → ℕ) (hc) (fi : Buf (Elt F) ((V d (cV L) (jV L)).loc cc0_scratch1)) :
    ixRest3 (F := F) d L (@SDiff.sdiff (Finset (Idx ((ixsV).view.loc (V d (cV L) (jV L))))) _ Finset.univ (halfO hf hhf).view.set) a ha b hb c hc fi
      = ixRest3 d L (@SDiff.sdiff (Finset (Idx ((ixsV).view.loc (V d (cV L) (jV L))))) _ Finset.univ (halfO hf' hhf').view.set) a ha b hb c hc fi := by subst e; rfl
end Pend

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

set_option maxHeartbeats 32000000 in
set_option sl_exec.dmaWindow true in
set_option sl_exec.dmaWindowSet true in
set_option sl_exec.dmaWindowLent true in
theorem region_prefetch (k : Fin k0_t1_loop.trips) (acc : BitVec 32) (hk : k.val ≤ 205) (hk1 : k.val + 1 ≤ 205) (hkk : k.val < 205)
    (hc2 : k0_cond2 k = 1#1)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have h2 := (k0_cond2_eq k).mp hc2
  have hc3 : ¬ k0_cond3 k = 1#1 := fun h => by have := (k0_cond3_eq k).mp h; omega
  have hp : ¬ pending k.val := fun h => h.1 h2.1
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  have hh1 := half10_list6_1 k hc2
  have hh2 := half10_list5 k hc2
  have hh3 := half10_list17_0 k hc2
  have hh4 := half10_list17_1 k hc2
  have hh1' := (half10_list6_1 k hc2).symm
  have hh2' := (half10_list5 k hc2).symm
  have hh3' := (half10_list17_0 k hc2).symm
  have hh4' := (half10_list17_1 k hc2).symm
  have hsub := list6_0_subset_half10 k hc2
  have hd7 := list6_0_list6_1 k
  have hd8 := list6_0_list5 k
  have hd9 := list6_1_list5 k
  ihave Hix := (Entails.of_eq (show IxPart d L X k.val fi = IxNone d L X (2 * k.val + 3) (2 * k.val + 4) (2 * k.val + 5) fi from dif_neg hp)) $$ Hix
  unfold IxNone
  icases Hix with ⟨Hi, His0, His1, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3
  set_option sl_exec.stopBefore "k0_cond2" in sl_exec
  ihave Hi := (ixs_loc_respell (F := F) d L _ _ _) $$ Hi
  have hcf : curF k.val = (2 * k.val + 6) / 32 := by unfold curF; omega
  ihave Hpar := (isems_by_parity (F := F) d L (curF k.val)) $$ [His0 His1]
  · isplitl [His0]; · iexact His0
    iexact His1
  icases Hpar with ⟨Hisc, Hisn⟩
  ihave Hisn := (Entails.of_eq (isem0_congr (F := F) d L (h' := k0_off12_inb k hc2) (show cIsem (curF k.val + 1) = k0_off12 k from by rw [k0_off12_eq k, hcf]))) $$ Hisn
  sl_exec
  sl_unfold_run_names
  have hfl : (2 * k.val + 6) / 32 + 1 < 13 := by omega
  have hpar2 : curF k.val % 2 ≠ ((2 * k.val + 6) / 32 + 1) % 2 := by rw [hcf]; omega
  have hK := halfOK_keep d L X k hc2 fi (curF k.val) (curF_lt k.val hk) hpar2 hhalf.1
  have hN := halfOK_new d L X k hc2 fi hfl
  have hin2 := hin_of_halves X hX L (curF k.val) ((2 * k.val + 6) / 32 + 1) (curF_lt k.val hk) hfl hpar2 (fiP d L X k hc2 fi) hK hN
  sl_exec
  ihave Hi := (ixs_loc_respell (F := F) d L _ _ _) $$ Hi
  sl_exec
  subst hQ
  sl_step
  have hp' : pending (k.val + 1) := by unfold pending curF; omega
  have hcur : curF k.val = curF (k.val + 1) := by unfold curF; omega
  have hoth : (2 * k.val + 6) / 32 + 1 = othF (k.val + 1) := by unfold othF curF; split_ifs <;> omega
  have hp2 : curF k.val + 1 < 13 := by rw [hcf]; omega
  have e10 : k0_off10 k = cHalf (curF k.val + 1) := by rw [k0_off10_eq k, hcf]
  have e11 : k0_off11 L k = cCol L (curF k.val + 1) := by
    rw [k0_off11_eq L k, hcf]; show (![_] : Fin 1 → ℕ) = ![_]; congr 1; omega
  have e12 : k0_off12 k = cIsem (curF k.val + 1) := by rw [k0_off12_eq k, hcf]
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch, at its new contents, and the three gathers in flight
  isplitl [HG5 Hr5 Hgs6 Hq6 Hgs7 Hq7 Hi Hisc Hisn Hxf]
  · iexists (fiP d L X k hc2 fi)
    isplitr
    · ipureintro; exact ⟨HalfOK_congr X L hcur _ hK, HalfOK_congr X L hoth _ hN⟩
    isplitl [HG5 Hr5]
    · iapply (Entails.of_eq (GatC_congr (h := by omega) d L X Tb (show 2 * k.val + 5 = 2 * (k.val + 1) + 3 by omega) (fiP d L X k hc2 fi)))
      iapply (Entails.of_eq (GatC_fi_congr d L X Tb (2 * k.val + 5) _ fi (fiP d L X k hc2 fi)
        (by intro i hi; exact (fiP_off d L X k hc2 fi _ (Finset.disjoint_left.mp hh2' hi)).symm)))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) (fiP d L X k hc2 fi)))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) (fiP d L X k hc2 fi) (HalfOK_congr X L (by unfold curF; omega) _ hK) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) (fiP d L X k hc2 fi)))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) (fiP d L X k hc2 fi) (HalfOK_congr X L (by unfold curF; omega) _ hK) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch and the column fetch now on its way
    iapply (Entails.of_eq (show IxPart d L X (k.val + 1) (fiP d L X k hc2 fi) = IxPend d L X (curF (k.val + 1)) hp'.2 (2 * (k.val + 1) + 3) (2 * (k.val + 1) + 4) (2 * (k.val + 1) + 5) (fiP d L X k hc2 fi) from dif_pos hp').symm)
    iapply (Entails.of_eq (IxPend_congr (h := hp2) d L X hcur (show 2 * k.val + 5 = 2 * (k.val + 1) + 3 by omega) (show 2 * k.val + 6 = 2 * (k.val + 1) + 4 by omega) (show 2 * k.val + 7 = 2 * (k.val + 1) + 5 by omega) (fiP d L X k hc2 fi)))
    unfold IxPend
    isplitl [Hi]
    · iapply (Entails.of_eq (ixRest3_half_congr (F := F) d L (hhf := k0_off10_inb k hc2) e10 _ _ _ _ _ _ (fiP d L X k hc2 fi)))
      iapply (Entails.of_eq (ixRest3_congr (ha := cList_inb (2 * k.val + 5)) (hb := k0_off17_inb k 0) (hc := k0_off17_inb k 1) d L
          (rfl : cList (2 * k.val + 5) = cList (2 * k.val + 5)) (k0_off17_eq_0 k) (k0_off17_eq_1 k) (fiP d L X k hc2 fi)))
      unfold ixRest3
      rw [show @SDiff.sdiff (Finset (Idx ((ixsV).view.loc (V d (cV L) (jV L))))) _ (@SDiff.sdiff (Finset (Idx ((ixsV).view.loc (V d (cV L) (jV L))))) _ (Finset.univ) (halfO (k0_off10 k) (k0_off10_inb k hc2)).view.set) (listO (cList (2 * k.val + 5)) (cList_inb (2 * k.val + 5))).view.set = @SDiff.sdiff (Finset (Idx ((ixsV).view.loc (V d (cV L) (jV L))))) _ (@SDiff.sdiff (Finset (Idx ((ixsV).view.loc (V d (cV L) (jV L))))) _ (Finset.univ) (listO (cList (2 * k.val + 5)) (cList_inb (2 * k.val + 5))).view.set) (halfO (k0_off10 k) (k0_off10_inb k hc2)).view.set from sdiff_right_comm _ _ _]
      iexact Hi
    isplitl [Hisc]; · iexact Hisc
    isplitl [Hisn]
    · iapply (Entails.of_eq (pFlight_congr (F := F) d L X (his := k0_off12_inb k hc2) (hhf := k0_off10_inb k hc2) (hco := k0_off11_inb L k hc2) e12 e10 e11 (fiP d L X k hc2 fi)))
      iexact Hisn
    iapply (Entails.of_eq (xfRest_congr (F := F) d L X (hco := k0_off11_inb L k hc2) e11))
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KI

end
-- ==== Proof.BodyLoopC.lean ====
/-
  One trip of the loop from the invariant, on a trip that waits for the next field's index column: chunk `2k + 6` is the first block of
  field `fl = (2k + 6) / 32`, whose column was fetched into half `fl % 2` of the index scratch while the chunks of field `fl - 1` were read
  from the other half.  The trip waits for that fetch, which hands back the half holding the column and the column's words of the flattened
  columns; the gathers of chunks `2k + 6` and `2k + 7` then read their lists inside that half.  Afterwards no fetch is on its way.
-/
import proofs.«206644_g35837207118489_cont_8to1_b_589_28_alg».proof.Proof.BodyLemmas2
import proofs.«206644_g35837207118489_cont_8to1_b_589_28_alg».proof.Proof.InvIx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

/-! ## The fetch's pieces under other spellings of their offsets -/

omit [FloatOps F] in
theorem butHalf_congr {o o' : Fin 1 → ℕ} {h : ∀ a, o a + S1024.size a ≤ S2048.size a} {h' : ∀ a, o' a + S1024.size a ≤ S2048.size a} (e : o = o') :
    (@SDiff.sdiff (Finset (Idx ((ixsV).view.loc (V d (cV L) (jV L))))) _ Finset.univ (halfO o h).view.set)
      = @SDiff.sdiff (Finset (Idx ((ixsV).view.loc (V d (cV L) (jV L))))) _ Finset.univ (halfO o' h').view.set := by subst e; rfl

theorem ixRest3_base_congr {base base' : Finset (Idx ((ixsV).view.loc (V d (cV L) (jV L))))} (e : base = base')
    (a : Fin 1 → ℕ) (ha) (b : Fin 1 → ℕ) (hb) (c : Fin 1 → ℕ) (hc) (fi : Buf (Elt F) ((V d (cV L) (jV L)).loc cc0_scratch1)) :
    ixRest3 (F := F) d L base a ha b hb c hc fi = ixRest3 d L base' a ha b hb c hc fi := by subst e; rfl

/-- The fetch in flight, by the offsets of its semaphore, of the half it fills and of the column it reads. -/
abbrev fetchFl (se : Fin 1 → ℕ) (hse : ∀ a, se a + S1.size a ≤ S2.size a) (ha : Fin 1 → ℕ) (hha : ∀ a, ha a + S1024.size a ≤ S2048.size a)
    (co : Fin 1 → ℕ) (hco : ∀ a, co a + S1024.size a ≤ S425984.size a) (fi : Buf (Elt F) ((V d (cV L) (jV L)).loc cc0_scratch1)) : sProp 𝕄 :=
  Transfers.Flight countersEmb (V d (cV L) (jV L)) (SemLoc.dma (isemO se hse).sem) (default : HIx 1) 32768
    iprop(((ixsV).view.loc (V d (cV L) (jV L)) ↦[(halfO ha hha).view.set]{fullShare} fi)
      ∗ ((xfV).view.loc (V d (cV L) (jV L)) ↦[(colO co hco).view.set]{shareOf L} X))
theorem fetchFl_congr {se se' : Fin 1 → ℕ} {hse hse'} {ha ha' : Fin 1 → ℕ} {hha hha'} {co co' : Fin 1 → ℕ} {hco hco'}
    (e1 : se = se') (e2 : ha = ha') (e3 : co = co') (fi) :
    fetchFl (F := F) d L X se hse ha hha co hco fi = fetchFl d L X se' hse' ha' hha' co' hco' fi := by subst e1 e2 e3; rfl

/-- A fetch semaphore at zero, under another spelling of its place. -/
theorem isemC_congr {p p' : Fin 1 → ℕ} {hp : ∀ a, p a + S1.size a ≤ S2.size a} {hp' : ∀ a, p' a + S1.size a ≤ S2.size a} (e : p = p') :
    (semVal ((V d (cV L) (jV L)), SemLoc.dma (isemO p hp).sem) 0 : sProp 𝕄) = semVal ((V d (cV L) (jV L)), SemLoc.dma (isemO p' hp').sem) 0 := by
  subst e; rfl

/-- After the wait both fetch semaphores are at zero: the one left alone (field `fl - 1`'s) and the one waited on (field `fl`'s) are the
    two cells, in the order of `fl`'s parity. -/
theorem isems_after_consume (k : Fin k0_t1_loop.trips) (hc3 : k0_cond3 k = 1#1) :
    iprop((semVal ((V d (cV L) (jV L)), SemLoc.dma (isemO (cIsem (curF k.val)) (cIsem_inb (curF k.val))).sem) 0 : sProp 𝕄)
        ∗ semVal ((V d (cV L) (jV L)), SemLoc.dma (isemO (k0_off15 k) (k0_off15_inb k hc3)).sem) 0)
      ⊢ iprop((semVal ((V d (cV L) (jV L)), SemLoc.dma (isemO ![0] inb_S2_S1_0).sem) 0 : sProp 𝕄)
        ∗ semVal ((V d (cV L) (jV L)), SemLoc.dma (isemO ![1] inb_S2_S1_1).sem) 0) := by
  have hk := trip_lt k
  have h3 := (k0_cond3_eq k).mp hc3
  have e15 : k0_off15 k = cIsem (curF k.val + 1) := by
    rw [k0_off15_eq k, show (2 * k.val + 6) / 32 = curF k.val + 1 by unfold curF; omega]
  rcases Nat.mod_two_eq_zero_or_one (curF k.val) with hpar | hpar
  · have e0 : cIsem (curF k.val) = ![0] := by unfold cIsem; rw [hpar]
    have e1 : cIsem (curF k.val + 1) = ![1] := by unfold cIsem; rw [show (curF k.val + 1) % 2 = 1 by omega]
    rw [isemC_congr (hp' := inb_S2_S1_0) d L e0, isemC_congr (hp' := inb_S2_S1_1) d L (e15.trans e1)]
  · have e1 : cIsem (curF k.val) = ![1] := by unfold cIsem; rw [hpar]
    have e0 : cIsem (curF k.val + 1) = ![0] := by unfold cIsem; rw [show (curF k.val + 1) % 2 = 0 by omega]
    rw [isemC_congr (hp' := inb_S2_S1_1) d L e1, isemC_congr (hp' := inb_S2_S1_0) d L (e15.trans e0)]
    iintro ⟨H1, H0⟩
    isplitl [H0]; · iexact H0
    iexact H1

/-- The flattened columns but one column. -/
abbrev colRest (co : Fin 1 → ℕ) (hco : ∀ a, co a + S1024.size a ≤ S425984.size a) : sProp 𝕄 :=
  (xfV).view.loc (V d (cV L) (jV L)) ↦[Finset.univ \ (colO co hco).view.set]{shareOf L} X
theorem colRest_congr {co co' : Fin 1 → ℕ} {hco hco'} (e : co = co') : colRest (F := F) d L X co hco = colRest d L X co' hco' := by subst e; rfl

/-! ## The half a consuming trip's wait hands back, against the trip's five lists -/

omit [FloatOps F] in
theorem cons_half_list6_0 (k : Fin k0_t1_loop.trips) (hc3 : k0_cond3 k = 1#1) :
    Disjoint (halfO (k0_off13 k) (k0_off13_inb k hc3)).view.set (listO (k0_off6 k 0#32) (k0_off6_inb k 0)).view.set := by
  have hk := trip_lt k
  have hc := (k0_cond3_eq k).mp hc3
  refine halfO_listO_disjoint ?_
  rw [k0_off13_eq k, k0_off6_eq_0 k]
  simp only [Matrix.cons_val_zero]
  omega
omit [FloatOps F] in
theorem cons_half_list6_1 (k : Fin k0_t1_loop.trips) (hc3 : k0_cond3 k = 1#1) :
    Disjoint (halfO (k0_off13 k) (k0_off13_inb k hc3)).view.set (listO (k0_off6 k 1#32) (k0_off6_inb k 1)).view.set := by
  have hk := trip_lt k
  have hc := (k0_cond3_eq k).mp hc3
  refine halfO_listO_disjoint ?_
  rw [k0_off13_eq k, k0_off6_eq_1 k]
  simp only [Matrix.cons_val_zero]
  omega
omit [FloatOps F] in
theorem cons_half_list5 (k : Fin k0_t1_loop.trips) (hc3 : k0_cond3 k = 1#1) :
    Disjoint (halfO (k0_off13 k) (k0_off13_inb k hc3)).view.set (listO (cList (2 * k.val + 5)) (cList_inb (2 * k.val + 5))).view.set := by
  have hk := trip_lt k
  have hc := (k0_cond3_eq k).mp hc3
  refine halfO_listO_disjoint ?_
  rw [k0_off13_eq k]
  simp only [Matrix.cons_val_zero]
  omega
omit [FloatOps F] in
theorem cons_list17_0_sub (k : Fin k0_t1_loop.trips) (hc3 : k0_cond3 k = 1#1) :
    (listO (k0_off17 k 0#32) (k0_off17_inb k 0)).view.set ⊆ (halfO (k0_off13 k) (k0_off13_inb k hc3)).view.set := by
  have hk := trip_lt k
  have hc := (k0_cond3_eq k).mp hc3
  refine listO_subset_halfO ?_
  rw [k0_off13_eq k, k0_off17_eq_0 k]
  simp only [Matrix.cons_val_zero]
  omega
omit [FloatOps F] in
theorem cons_list17_1_sub (k : Fin k0_t1_loop.trips) (hc3 : k0_cond3 k = 1#1) :
    (listO (k0_off17 k 1#32) (k0_off17_inb k 1)).view.set ⊆ (halfO (k0_off13 k) (k0_off13_inb k hc3)).view.set := by
  have hk := trip_lt k
  have hc := (k0_cond3_eq k).mp hc3
  refine listO_subset_halfO ?_
  rw [k0_off13_eq k, k0_off17_eq_1 k]
  simp only [Matrix.cons_val_zero]
  omega

set_option maxHeartbeats 32000000 in
set_option sl_exec.dmaWindow true in
set_option sl_exec.dmaWindowSet true in
set_option sl_exec.dmaWindowLent true in
theorem region_consume (k : Fin k0_t1_loop.trips) (acc : BitVec 32) (hk : k.val ≤ 205) (hk1 : k.val + 1 ≤ 205) (hkk : k.val < 205)
    (hc3 : k0_cond3 k = 1#1)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have h3 := (k0_cond3_eq k).mp hc3
  have hc2 : ¬ k0_cond2 k = 1#1 := fun h => by have := (k0_cond2_eq k).mp h; omega
  have hp : pending k.val := by unfold pending curF; omega
  have e_fl : curF k.val + 1 = (2 * k.val + 6) / 32 := by unfold curF; omega
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  have e_i15 : cIsem (curF k.val + 1) = k0_off15 k := by rw [k0_off15_eq k, e_fl]
  have e_h13 : cHalf (curF k.val + 1) = k0_off13 k := by rw [k0_off13_eq k, e_fl]
  have e_c14 : cCol L (curF k.val + 1) = k0_off14 L k := by rw [k0_off14_eq L k, e_fl]

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  have hh0 := cons_half_list6_0 k hc3
  have hh1 := cons_half_list6_1 k hc3
  have hh2 := cons_half_list5 k hc3
  have hh0' := (cons_half_list6_0 k hc3).symm
  have hh1' := (cons_half_list6_1 k hc3).symm
  have hh2' := (cons_half_list5 k hc3).symm
  have hsub0 := cons_list17_0_sub k hc3
  have hsub1 := cons_list17_1_sub k hc3
  ihave Hix := (Entails.of_eq (show IxPart d L X k.val fi = IxPend d L X (curF k.val) hp.2 (2 * k.val + 3) (2 * k.val + 4) (2 * k.val + 5) fi from dif_pos hp)) $$ Hix
  unfold IxPend
  icases Hix with ⟨Hi, His, HFl, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave HFl := (Entails.of_eq (fetchFl_congr (hse' := k0_off15_inb k hc3) (hha' := k0_off13_inb k hc3) (hco' := k0_off14_inb L k hc3) d L X e_i15 e_h13 e_c14 fi)) $$ HFl
  ihave Hxf := (Entails.of_eq (colRest_congr (hco' := k0_off14_inb L k hc3) d L X e_c14)) $$ Hxf
  ihave Hi := (Entails.of_eq (ixRest3_base_congr d L (butHalf_congr (h' := k0_off13_inb k hc3) d L e_h13) _ _ _ _ _ _ fi)) $$ Hi
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3 fetchFl colRest
  sl_exec

  subst hQ
  sl_step
  -- the awaited column's field becomes the latest gathers' field; no fetch is on its way any more
  have hp' : ¬ pending (k.val + 1) := by unfold pending curF; omega
  have hcur : othF k.val = curF (k.val + 1) := by unfold othF curF; split_ifs <;> omega
  have hoth : curF k.val = othF (k.val + 1) := by unfold othF curF; split_ifs <;> omega
  have hoth6 : othF k.val = (2 * k.val + 6) / 32 := by unfold othF curF; split_ifs <;> omega
  have hoth7 : othF k.val = (2 * k.val + 7) / 32 := by unfold othF curF; split_ifs <;> omega
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch and the three gathers in flight
  isplitl [HG5 Hr5 Hgs6 Hq6 Hgs7 Hq7 Hi HG3_dst_and HG4_dst_and His HFl Hxf]
  · iexists fi
    isplitr
    · ipureintro; exact ⟨HalfOK_congr X L hcur fi hhalf.2, HalfOK_congr X L hoth fi hhalf.1⟩
    isplitl [HG5 Hr5]
    · iapply (Entails.of_eq (GatC_congr (h := by omega) d L X Tb (show 2 * k.val + 5 = 2 * (k.val + 1) + 3 by omega) fi))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) fi))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) fi (HalfOK_congr X L hoth6 fi hhalf.2) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) fi))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) fi (HalfOK_congr X L hoth7 fi hhalf.2) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch: the two returned lists rejoin it
    iapply (Entails.of_eq (show IxPart d L X (k.val + 1) fi = IxNone d L X (2 * (k.val + 1) + 3) (2 * (k.val + 1) + 4) (2 * (k.val + 1) + 5) fi from dif_neg hp').symm)
    unfold IxNone
    isplitl [Hi HG3_dst_and HG4_dst_and]
    · iapply (Entails.of_eq (ixRest3_congr (ha := cList_inb (2 * k.val + 5)) (hb := k0_off17_inb k 0) (hc := k0_off17_inb k 1) d L
          (show cList (2 * k.val + 5) = cList (2 * (k.val + 1) + 3) from congrArg cList (by omega))
          ((k0_off17_eq_0 k).trans (congrArg cList (by omega : 2 * k.val + 6 = 2 * (k.val + 1) + 4)))
          ((k0_off17_eq_1 k).trans (congrArg cList (by omega : 2 * k.val + 7 = 2 * (k.val + 1) + 5))) fi))
      iapply (ix_rejoin d L Finset.univ (k0_off6 k 0#32) (k0_off6 k 1#32) (cList (2 * k.val + 5)) (k0_off17 k 0#32) (k0_off17 k 1#32)
          (k0_off6_inb k 0) (k0_off6_inb k 1) (cList_inb (2 * k.val + 5)) (k0_off17_inb k 0) (k0_off17_inb k 1) fi
          (Finset.subset_univ _) (Finset.subset_univ _) (list6_0_list6_1 k) (list6_0_list5 k) (list17_0_list6_0 k).symm (list17_1_list6_0 k).symm
          (list6_1_list5 k) (list17_0_list6_1 k).symm (list17_1_list6_1 k).symm)
      isplitl [Hi]; · iexact Hi
      isplitl [HG3_dst_and]; · iexact HG3_dst_and
      iexact HG4_dst_and
    -- the two fetch semaphores: the one left alone and the one just waited on
    ihave Hpair := (isems_after_consume d L k hc3) $$ [His HFl]
    · isplitl [His]; · iexact His
      iexact HFl
    icases Hpair with ⟨His0, His1⟩
    isplitl [His0]; · iexact His0
    isplitl [His1]; · iexact His1
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KI

end
-- ==== Proof.BodyLoop.lean ====
/-
  One trip of the loop from the invariant: by the kind of trip.  A trip either awaits the column of the field its chunks begin (their block
  number is 0), or issues the fetch of the next field's column (block number 2, not the last field), or does neither; in the last case a
  column may or may not be on its way.
-/
import proofs.«206644_g35837207118489_cont_8to1_b_589_28_alg».proof.Proof.RegionDef
import proofs.«206644_g35837207118489_cont_8to1_b_589_28_alg».proof.Proof.BodyLoopN0
import proofs.«206644_g35837207118489_cont_8to1_b_589_28_alg».proof.Proof.BodyLoopN1
import proofs.«206644_g35837207118489_cont_8to1_b_589_28_alg».proof.Proof.BodyLoopP
import proofs.«206644_g35837207118489_cont_8to1_b_589_28_alg».proof.Proof.BodyLoopC

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.KernelIdeal.main_v1_scv : Memref Cert.KernelIdeal.sig Kind.scVector Space.hbm Cert.KernelIdeal.S425984 EltTy.i32)
local notation "tbV" => (Memref.whole Cert.KernelIdeal.main_v2_scv : Memref Cert.KernelIdeal.sig Kind.scVector Space.hbm Cert.KernelIdeal.S26000x128 EltTy.f32)
local notation "outV" => (Memref.whole Cert.KernelIdeal.main_v3_scv : Memref Cert.KernelIdeal.sig Kind.scVector Space.hbm Cert.KernelIdeal.S16384x3328 EltTy.f32)
local notation "spV" => (Memref.whole Cert.KernelIdeal.cc0_scratch0 : Memref Cert.KernelIdeal.sig Kind.scVector Space.shared Cert.KernelIdeal.S13000x128 EltTy.f32)
local notation "ixsV" => (Memref.whole Cert.KernelIdeal.cc0_scratch1 : Memref Cert.KernelIdeal.sig Kind.scVector Space.vmem Cert.KernelIdeal.S2048 EltTy.i32)
local notation "bufV" => (Memref.whole Cert.KernelIdeal.cc0_scratch2 : Memref Cert.KernelIdeal.sig Kind.scVector Space.vmem Cert.KernelIdeal.S6x32x128 EltTy.f32)

/-- The loop's region obligation. -/
theorem region : Region (F := F) := by
  intro d L X hX Tb f0 O W _hO k acc
  have hkk : k.val < 205 := trip_lt k
  have hk : k.val ≤ 205 := by omega
  have hk1 : k.val + 1 ≤ 205 := by omega
  unfold Inv
  rw [dif_pos hk, dif_pos hk1]
  by_cases hc3 : k0_cond3 k = 1#1
  · exact region_consume d L X Tb f0 O W k acc hk hk1 hkk hc3 hX
  by_cases hc2 : k0_cond2 k = 1#1
  · exact region_prefetch d L X Tb f0 O W k acc hk hk1 hkk hc2 hX
  by_cases hp : pending k.val
  · exact region_normal_pend d L X Tb f0 O W k acc hk hk1 hkk hc2 hc3 hp hX
  · exact region_normal_none d L X Tb f0 O W k acc hk hk1 hkk hc2 hc3 hp hX

end Cert.Proof.KI

end
-- ==== Proof.KB.Views.lean ====
/-
  The pieces of memory a tile's copies move, each spelt as the kernel program slices it, with the slot, the list's place, the table's
  first row and the result block's corner as parameters.

  A tile works through 416 chunks.  Chunk `n` belongs to field `n / 32` (of the SparseCore's thirteen) and to block `n % 32` of the
  tile's 1024 batch entries; it uses slot `n % 6` of the ring of six 32 × 128 buffers, and semaphore `n % 6` of the gathers' six and of the
  copy-outs' six.  Its 32 index words sit in the index scratch at `(n / 32 % 2) * 1024 + (n % 32) * 32`: the scratch has two halves of 1024
  words, and field `f` is fetched into half `f % 2`.  Its table is rows `1000 * (n / 32) … + 999` of the shared scratch, and its
  result block is rows `1024 s + 32 (n % 32) … + 31`, columns `128 (13 c + n / 32) … + 127` of the result, for tile `s` of SparseCore `c`.
-/
import proofs.«206644_g35837207118489_cont_8to1_b_589_28_alg».proof.Proof.KB.Setup

noncomputable section

namespace Cert.Proof.KB

open Cert.Kernel Cert.Kernel.Gen
open Idealize.ShloMosaic

/-- Slot `s` of the ring lies inside the ring. -/
theorem slot_inb (s : ℕ) (h : s < 6) : ∀ a, (![s, 0, 0] : Fin 3 → Nat) a + S1x32x128.size a ≤ S6x32x128.size a := by
  intro a; fin_cases a <;> simp <;> omega
/-- Slot `s` of the ring, as a 32 × 128 buffer. -/
abbrev slotM (s : ℕ) (h : s < 6) : Memref sig .scVector .vmem S32x128 .f32 :=
  ((Memref.whole cc0_scratch2 : Memref sig .scVector .vmem S6x32x128 .f32).slice (Rect.unit (s := S6x32x128) ![s, 0, 0] S1x32x128.size (slot_inb s h)) (fun _ => rfl)).squeeze S32x128 squeezes_S1x32x128_S32x128

/-- Thirty-two words of the index scratch from place `o` lie inside it. -/
theorem list_inb (o : ℕ) (h : o + 32 ≤ 2048) : ∀ a, (![o] : Fin 1 → Nat) a + S32.size a ≤ S2048.size a := by
  intro a; fin_cases a; simp; omega
/-- The list of 32 index words at place `o` of the index scratch. -/
abbrev listM (o : ℕ) (h : o + 32 ≤ 2048) : Memref sig .scVector .vmem S32 .i32 :=
  (Memref.whole cc0_scratch1 : Memref sig .scVector .vmem S2048 .i32).slice (Rect.unit (s := S2048) ![o] S32.size (list_inb o h)) (fun _ => rfl)

/-- A half of the index scratch from place `o`. -/
theorem half_inb (o : ℕ) (h : o + 1024 ≤ 2048) : ∀ a, (![o] : Fin 1 → Nat) a + S1024.size a ≤ S2048.size a := by
  intro a; fin_cases a; simp; omega
abbrev halfM (o : ℕ) (h : o + 1024 ≤ 2048) : Memref sig .scVector .vmem S1024 .i32 :=
  (Memref.whole cc0_scratch1 : Memref sig .scVector .vmem S2048 .i32).slice (Rect.unit (s := S2048) ![o] S1024.size (half_inb o h)) (fun _ => rfl)

/-- A thousand rows of the shared scratch from row `r` lie inside it. -/
theorem tab_inb (r : ℕ) (h : r + 1000 ≤ 13000) : ∀ a, (![r, 0] : Fin 2 → Nat) a + S1000x128.size a ≤ S13000x128.size a := by
  intro a; fin_cases a <;> simp <;> omega
/-- The table at rows `r … r + 999` of the shared scratch, as the gathers name it (the program slices it twice). -/
abbrev tabM (r : ℕ) (h : r + 1000 ≤ 13000) : Memref sig .scVector .shared S1000x128 .f32 :=
  ((Memref.whole cc0_scratch0 : Memref sig .scVector .shared S13000x128 .f32).slice (Rect.unit (s := S13000x128) ![r, 0] S1000x128.size (tab_inb r h)) (fun _ => rfl)).slice
    (Rect.unit (s := S1000x128) ![0, 0] S1000x128.size inb_S1000x128_S1000x128_0_0) (fun _ => rfl)

/-- A 32 × 128 block of the result with corner `(r, c)` lies inside it. -/
theorem out_inb (r c : ℕ) (hr : r + 32 ≤ 16384) (hc : c + 128 ≤ 3328) : ∀ a, (![r, c] : Fin 2 → Nat) a + S32x128.size a ≤ S16384x3328.size a := by
  intro a; fin_cases a <;> simp <;> omega
/-- The result block with corner `(r, c)`. -/
abbrev outM (r c : ℕ) (hr : r + 32 ≤ 16384) (hc : c + 128 ≤ 3328) : Memref sig .scVector .hbm S32x128 .f32 :=
  (Memref.whole main_v3_scv : Memref sig .scVector .hbm S16384x3328 .f32).slice (Rect.unit (s := S16384x3328) ![r, c] S32x128.size (out_inb r c hr hc)) (fun _ => rfl)

/-- One of six semaphores. -/
theorem sem6_inb (s : ℕ) (h : s < 6) : ∀ a, (![s] : Fin 1 → Nat) a + S1.size a ≤ S6.size a := by
  intro a; fin_cases a; simp; omega
/-- The gathers' semaphore of slot `s`. -/
abbrev gsemM (s : ℕ) (h : s < 6) : DmaSems sig S_ := (cc0_scratch4.slice (Rect.unit (s := S6) ![s] S1.size (sem6_inb s h))).squeeze S_ squeezes_S1_S_
/-- The copy-outs' semaphore of slot `s`. -/
abbrev ssemM (s : ℕ) (h : s < 6) : DmaSems sig S_ := (cc0_scratch5.slice (Rect.unit (s := S6) ![s] S1.size (sem6_inb s h))).squeeze S_ squeezes_S1_S_
/-- One of the two semaphores of the index fetches. -/
theorem sem2_inb (p : ℕ) (h : p < 2) : ∀ a, (![p] : Fin 1 → Nat) a + S1.size a ≤ S2.size a := by
  intro a; fin_cases a; simp; omega
abbrev isemM (p : ℕ) (h : p < 2) : DmaSems sig S_ := (cc0_scratch3.slice (Rect.unit (s := S2) ![p] S1.size (sem2_inb p h))).squeeze S_ squeezes_S1_S_

end Cert.Proof.KB

end
-- ==== Proof.KB.Offsets.lean ====
/-
  The addresses the tile's body computes, in closed form.

  The body addresses memory through chains of 32-bit word operations over the grid point `i = (c, s)` and the loop's trip
  `k` (0 ≤ k < 205; the trip runs the two chunks 2k + 6 and 2k + 7).  Every chain is, over these finite ranges, an
  arithmetic expression of the chunk number `n` it concerns:
    ring slot and ring semaphore             n % 6
    index words of chunk n                   (n / 32 % 2) * 1024 + (n % 32) * 32      (field n / 32, block n % 32)
    index half and its semaphore, field fl   fl % 2 * 1024   and   fl % 2
    result block of chunk n                  rows 1024 s + 32 (n % 32),  columns 128 (13 c + n / 32)
  No word operation overflows on these ranges, so each equation is checked by evaluating both sides at every trip (and
  grid point); one instance of the word constants a site passes per equation keeps every evaluation small.
  The conditions of the loop's two guarded steps are stated the same way, as conditions on the chunk number.
-/
import proofs.«206644_g35837207118489_cont_8to1_b_589_28_alg».proof.Proof.KB.Setup

namespace Cert.Proof.KB

open Cert.Kernel Cert.Kernel.Gen
open Idealize.ShloMosaic

/-! ## Result blocks at literal chunks (before and after the loop): chunk `n` is rows `1024 s + 32 (n % 32)`, columns `128 (13 c + n / 32)` -/

/-- The result block of chunk 0 (block 0 of field 0). -/
theorem k0_off4_eq_0_0 : ∀ i : grid0.Coords, k0_off4 i 0#32 0#32 = ![1024 * (i 1).val + 0, 128 * (13 * (i 0).val + 0)] := by decide +kernel
instance closedOff_k0_off4_0_0 (i : grid0.Coords) : ClosedOff (k0_off4 i 0#32 0#32) := ⟨![1024 * (i 1).val + 0, 128 * (13 * (i 0).val + 0)], k0_off4_eq_0_0 i⟩
/-- The result block of chunk 1 (block 1 of field 0). -/
theorem k0_off4_eq_32_0 : ∀ i : grid0.Coords, k0_off4 i 32#32 0#32 = ![1024 * (i 1).val + 32, 128 * (13 * (i 0).val + 0)] := by decide +kernel
instance closedOff_k0_off4_32_0 (i : grid0.Coords) : ClosedOff (k0_off4 i 32#32 0#32) := ⟨![1024 * (i 1).val + 32, 128 * (13 * (i 0).val + 0)], k0_off4_eq_32_0 i⟩
/-- The result block of chunk 2 (block 2 of field 0). -/
theorem k0_off4_eq_64_0 : ∀ i : grid0.Coords, k0_off4 i 64#32 0#32 = ![1024 * (i 1).val + 64, 128 * (13 * (i 0).val + 0)] := by decide +kernel
instance closedOff_k0_off4_64_0 (i : grid0.Coords) : ClosedOff (k0_off4 i 64#32 0#32) := ⟨![1024 * (i 1).val + 64, 128 * (13 * (i 0).val + 0)], k0_off4_eq_64_0 i⟩
/-- The result block of chunk 410 (block 26 of field 12). -/
theorem k0_off4_eq_832_12 : ∀ i : grid0.Coords, k0_off4 i 832#32 12#32 = ![1024 * (i 1).val + 832, 128 * (13 * (i 0).val + 12)] := by decide +kernel
instance closedOff_k0_off4_832_12 (i : grid0.Coords) : ClosedOff (k0_off4 i 832#32 12#32) := ⟨![1024 * (i 1).val + 832, 128 * (13 * (i 0).val + 12)], k0_off4_eq_832_12 i⟩
/-- The result block of chunk 411 (block 27 of field 12). -/
theorem k0_off4_eq_864_12 : ∀ i : grid0.Coords, k0_off4 i 864#32 12#32 = ![1024 * (i 1).val + 864, 128 * (13 * (i 0).val + 12)] := by decide +kernel
instance closedOff_k0_off4_864_12 (i : grid0.Coords) : ClosedOff (k0_off4 i 864#32 12#32) := ⟨![1024 * (i 1).val + 864, 128 * (13 * (i 0).val + 12)], k0_off4_eq_864_12 i⟩
/-- The result block of chunk 412 (block 28 of field 12). -/
theorem k0_off4_eq_896_12 : ∀ i : grid0.Coords, k0_off4 i 896#32 12#32 = ![1024 * (i 1).val + 896, 128 * (13 * (i 0).val + 12)] := by decide +kernel
instance closedOff_k0_off4_896_12 (i : grid0.Coords) : ClosedOff (k0_off4 i 896#32 12#32) := ⟨![1024 * (i 1).val + 896, 128 * (13 * (i 0).val + 12)], k0_off4_eq_896_12 i⟩
/-- The result block of chunk 413 (block 29 of field 12). -/
theorem k0_off4_eq_928_12 : ∀ i : grid0.Coords, k0_off4 i 928#32 12#32 = ![1024 * (i 1).val + 928, 128 * (13 * (i 0).val + 12)] := by decide +kernel
instance closedOff_k0_off4_928_12 (i : grid0.Coords) : ClosedOff (k0_off4 i 928#32 12#32) := ⟨![1024 * (i 1).val + 928, 128 * (13 * (i 0).val + 12)], k0_off4_eq_928_12 i⟩
/-- The result block of chunk 414 (block 30 of field 12). -/
theorem k0_off4_eq_960_12 : ∀ i : grid0.Coords, k0_off4 i 960#32 12#32 = ![1024 * (i 1).val + 960, 128 * (13 * (i 0).val + 12)] := by decide +kernel
instance closedOff_k0_off4_960_12 (i : grid0.Coords) : ClosedOff (k0_off4 i 960#32 12#32) := ⟨![1024 * (i 1).val + 960, 128 * (13 * (i 0).val + 12)], k0_off4_eq_960_12 i⟩
/-- The result block of chunk 415 (block 31 of field 12). -/
theorem k0_off4_eq_992_12 : ∀ i : grid0.Coords, k0_off4 i 992#32 12#32 = ![1024 * (i 1).val + 992, 128 * (13 * (i 0).val + 12)] := by decide +kernel
instance closedOff_k0_off4_992_12 (i : grid0.Coords) : ClosedOff (k0_off4 i 992#32 12#32) := ⟨![1024 * (i 1).val + 992, 128 * (13 * (i 0).val + 12)], k0_off4_eq_992_12 i⟩

/-! ## The chunks whose gather is waited for and whose copy out is started (n = 2k + 3, 2k + 4) or waited for (n = 2k, 2k + 1) -/

/-- The ring slot of chunk `2k + 3`. -/
theorem k0_off5_eq_0_3 : ∀ k0_t1 : Fin k0_t1_loop.trips, k0_off5 k0_t1 0#32 3#32 = ![(2 * k0_t1.val + 3) % 6, 0, 0] := by decide +kernel
instance closedOff_k0_off5_0_3 (k0_t1 : Fin k0_t1_loop.trips) : ClosedOff (k0_off5 k0_t1 0#32 3#32) := ⟨![(2 * k0_t1.val + 3) % 6, 0, 0], k0_off5_eq_0_3 k0_t1⟩
/-- The ring slot of chunk `2k + 4`. -/
theorem k0_off5_eq_1_3 : ∀ k0_t1 : Fin k0_t1_loop.trips, k0_off5 k0_t1 1#32 3#32 = ![(2 * k0_t1.val + 4) % 6, 0, 0] := by decide +kernel
instance closedOff_k0_off5_1_3 (k0_t1 : Fin k0_t1_loop.trips) : ClosedOff (k0_off5 k0_t1 1#32 3#32) := ⟨![(2 * k0_t1.val + 4) % 6, 0, 0], k0_off5_eq_1_3 k0_t1⟩
/-- The ring slot of chunk `2k + 0`. -/
theorem k0_off5_eq_0_6 : ∀ k0_t1 : Fin k0_t1_loop.trips, k0_off5 k0_t1 0#32 6#32 = ![(2 * k0_t1.val + 0) % 6, 0, 0] := by decide +kernel
instance closedOff_k0_off5_0_6 (k0_t1 : Fin k0_t1_loop.trips) : ClosedOff (k0_off5 k0_t1 0#32 6#32) := ⟨![(2 * k0_t1.val + 0) % 6, 0, 0], k0_off5_eq_0_6 k0_t1⟩
/-- The ring slot of chunk `2k + 1`. -/
theorem k0_off5_eq_1_6 : ∀ k0_t1 : Fin k0_t1_loop.trips, k0_off5 k0_t1 1#32 6#32 = ![(2 * k0_t1.val + 1) % 6, 0, 0] := by decide +kernel
instance closedOff_k0_off5_1_6 (k0_t1 : Fin k0_t1_loop.trips) : ClosedOff (k0_off5 k0_t1 1#32 6#32) := ⟨![(2 * k0_t1.val + 1) % 6, 0, 0], k0_off5_eq_1_6 k0_t1⟩
/-- The index words of chunk `2k + 3`: half `(n / 32) % 2` of the index scratch, block `n % 32`. -/
theorem k0_off6_eq_0 : ∀ k0_t1 : Fin k0_t1_loop.trips, k0_off6 k0_t1 0#32 = ![(2 * k0_t1.val + 3) / 32 % 2 * 1024 + (2 * k0_t1.val + 3) % 32 * 32] := by decide +kernel
instance closedOff_k0_off6_0 (k0_t1 : Fin k0_t1_loop.trips) : ClosedOff (k0_off6 k0_t1 0#32) := ⟨![(2 * k0_t1.val + 3) / 32 % 2 * 1024 + (2 * k0_t1.val + 3) % 32 * 32], k0_off6_eq_0 k0_t1⟩
/-- The index words of chunk `2k + 4`: half `(n / 32) % 2` of the index scratch, block `n % 32`. -/
theorem k0_off6_eq_1 : ∀ k0_t1 : Fin k0_t1_loop.trips, k0_off6 k0_t1 1#32 = ![(2 * k0_t1.val + 4) / 32 % 2 * 1024 + (2 * k0_t1.val + 4) % 32 * 32] := by decide +kernel
instance closedOff_k0_off6_1 (k0_t1 : Fin k0_t1_loop.trips) : ClosedOff (k0_off6 k0_t1 1#32) := ⟨![(2 * k0_t1.val + 4) / 32 % 2 * 1024 + (2 * k0_t1.val + 4) % 32 * 32], k0_off6_eq_1 k0_t1⟩
/-- The ring semaphore of chunk `2k + 3`. -/
theorem k0_off8_eq_0_3 : ∀ k0_t1 : Fin k0_t1_loop.trips, k0_off8 k0_t1 0#32 3#32 = ![(2 * k0_t1.val + 3) % 6] := by decide +kernel
instance closedOff_k0_off8_0_3 (k0_t1 : Fin k0_t1_loop.trips) : ClosedOff (k0_off8 k0_t1 0#32 3#32) := ⟨![(2 * k0_t1.val + 3) % 6], k0_off8_eq_0_3 k0_t1⟩
/-- The ring semaphore of chunk `2k + 4`. -/
theorem k0_off8_eq_1_3 : ∀ k0_t1 : Fin k0_t1_loop.trips, k0_off8 k0_t1 1#32 3#32 = ![(2 * k0_t1.val + 4) % 6] := by decide +kernel
instance closedOff_k0_off8_1_3 (k0_t1 : Fin k0_t1_loop.trips) : ClosedOff (k0_off8 k0_t1 1#32 3#32) := ⟨![(2 * k0_t1.val + 4) % 6], k0_off8_eq_1_3 k0_t1⟩
/-- The ring semaphore of chunk `2k + 0`. -/
theorem k0_off8_eq_0_6 : ∀ k0_t1 : Fin k0_t1_loop.trips, k0_off8 k0_t1 0#32 6#32 = ![(2 * k0_t1.val + 0) % 6] := by decide +kernel
instance closedOff_k0_off8_0_6 (k0_t1 : Fin k0_t1_loop.trips) : ClosedOff (k0_off8 k0_t1 0#32 6#32) := ⟨![(2 * k0_t1.val + 0) % 6], k0_off8_eq_0_6 k0_t1⟩
/-- The ring semaphore of chunk `2k + 1`. -/
theorem k0_off8_eq_1_6 : ∀ k0_t1 : Fin k0_t1_loop.trips, k0_off8 k0_t1 1#32 6#32 = ![(2 * k0_t1.val + 1) % 6] := by decide +kernel
instance closedOff_k0_off8_1_6 (k0_t1 : Fin k0_t1_loop.trips) : ClosedOff (k0_off8 k0_t1 1#32 6#32) := ⟨![(2 * k0_t1.val + 1) % 6], k0_off8_eq_1_6 k0_t1⟩
/-- The result block of chunk `2k + 3`. -/
theorem k0_off9_eq_0_3 : ∀ (i : grid0.Coords) (k0_t1 : Fin k0_t1_loop.trips), k0_off9 i k0_t1 0#32 3#32 = ![1024 * (i 1).val + 32 * ((2 * k0_t1.val + 3) % 32), 128 * (13 * (i 0).val + (2 * k0_t1.val + 3) / 32)] := by decide +kernel
instance closedOff_k0_off9_0_3 (i : grid0.Coords) (k0_t1 : Fin k0_t1_loop.trips) : ClosedOff (k0_off9 i k0_t1 0#32 3#32) := ⟨![1024 * (i 1).val + 32 * ((2 * k0_t1.val + 3) % 32), 128 * (13 * (i 0).val + (2 * k0_t1.val + 3) / 32)], k0_off9_eq_0_3 i k0_t1⟩
/-- The result block of chunk `2k + 4`. -/
theorem k0_off9_eq_1_3 : ∀ (i : grid0.Coords) (k0_t1 : Fin k0_t1_loop.trips), k0_off9 i k0_t1 1#32 3#32 = ![1024 * (i 1).val + 32 * ((2 * k0_t1.val + 4) % 32), 128 * (13 * (i 0).val + (2 * k0_t1.val + 4) / 32)] := by decide +kernel
instance closedOff_k0_off9_1_3 (i : grid0.Coords) (k0_t1 : Fin k0_t1_loop.trips) : ClosedOff (k0_off9 i k0_t1 1#32 3#32) := ⟨![1024 * (i 1).val + 32 * ((2 * k0_t1.val + 4) % 32), 128 * (13 * (i 0).val + (2 * k0_t1.val + 4) / 32)], k0_off9_eq_1_3 i k0_t1⟩
/-- The result block of chunk `2k + 0`. -/
theorem k0_off9_eq_0_6 : ∀ (i : grid0.Coords) (k0_t1 : Fin k0_t1_loop.trips), k0_off9 i k0_t1 0#32 6#32 = ![1024 * (i 1).val + 32 * ((2 * k0_t1.val + 0) % 32), 128 * (13 * (i 0).val + (2 * k0_t1.val + 0) / 32)] := by decide +kernel
instance closedOff_k0_off9_0_6 (i : grid0.Coords) (k0_t1 : Fin k0_t1_loop.trips) : ClosedOff (k0_off9 i k0_t1 0#32 6#32) := ⟨![1024 * (i 1).val + 32 * ((2 * k0_t1.val + 0) % 32), 128 * (13 * (i 0).val + (2 * k0_t1.val + 0) / 32)], k0_off9_eq_0_6 i k0_t1⟩
/-- The result block of chunk `2k + 1`. -/
theorem k0_off9_eq_1_6 : ∀ (i : grid0.Coords) (k0_t1 : Fin k0_t1_loop.trips), k0_off9 i k0_t1 1#32 6#32 = ![1024 * (i 1).val + 32 * ((2 * k0_t1.val + 1) % 32), 128 * (13 * (i 0).val + (2 * k0_t1.val + 1) / 32)] := by decide +kernel
instance closedOff_k0_off9_1_6 (i : grid0.Coords) (k0_t1 : Fin k0_t1_loop.trips) : ClosedOff (k0_off9 i k0_t1 1#32 6#32) := ⟨![1024 * (i 1).val + 32 * ((2 * k0_t1.val + 1) % 32), 128 * (13 * (i 0).val + (2 * k0_t1.val + 1) / 32)], k0_off9_eq_1_6 i k0_t1⟩

/-! ## The index columns: the next field's is fetched into the other half, the current field's is waited for -/

/-- The half of the index scratch that field `(2k + 6) / 32 + 1`'s column is fetched into. -/
theorem k0_off10_eq : ∀ k0_t1 : Fin k0_t1_loop.trips, k0_off10 k0_t1 = ![((2 * k0_t1.val + 6) / 32 + 1) % 2 * 1024] := by decide +kernel
instance closedOff_k0_off10 (k0_t1 : Fin k0_t1_loop.trips) : ClosedOff (k0_off10 k0_t1) := ⟨![((2 * k0_t1.val + 6) / 32 + 1) % 2 * 1024], k0_off10_eq k0_t1⟩
/-- The semaphore of that fetch. -/
theorem k0_off12_eq : ∀ k0_t1 : Fin k0_t1_loop.trips, k0_off12 k0_t1 = ![((2 * k0_t1.val + 6) / 32 + 1) % 2] := by decide +kernel
instance closedOff_k0_off12 (k0_t1 : Fin k0_t1_loop.trips) : ClosedOff (k0_off12 k0_t1) := ⟨![((2 * k0_t1.val + 6) / 32 + 1) % 2], k0_off12_eq k0_t1⟩
/-- The half of the index scratch that holds field `(2k + 6) / 32`'s column. -/
theorem k0_off13_eq : ∀ k0_t1 : Fin k0_t1_loop.trips, k0_off13 k0_t1 = ![((2 * k0_t1.val + 6) / 32) % 2 * 1024] := by decide +kernel
instance closedOff_k0_off13 (k0_t1 : Fin k0_t1_loop.trips) : ClosedOff (k0_off13 k0_t1) := ⟨![((2 * k0_t1.val + 6) / 32) % 2 * 1024], k0_off13_eq k0_t1⟩
/-- The semaphore that column's fetch is waited on. -/
theorem k0_off15_eq : ∀ k0_t1 : Fin k0_t1_loop.trips, k0_off15 k0_t1 = ![((2 * k0_t1.val + 6) / 32) % 2] := by decide +kernel
instance closedOff_k0_off15 (k0_t1 : Fin k0_t1_loop.trips) : ClosedOff (k0_off15 k0_t1) := ⟨![((2 * k0_t1.val + 6) / 32) % 2], k0_off15_eq k0_t1⟩

/-! ## The chunks whose gather is started (n = 2k + 6, 2k + 7) -/

/-- The ring slot of chunk `2k + 6`. -/
theorem k0_off16_eq_0 : ∀ k0_t1 : Fin k0_t1_loop.trips, k0_off16 k0_t1 0#32 = ![(2 * k0_t1.val + 6) % 6, 0, 0] := by decide +kernel
instance closedOff_k0_off16_0 (k0_t1 : Fin k0_t1_loop.trips) : ClosedOff (k0_off16 k0_t1 0#32) := ⟨![(2 * k0_t1.val + 6) % 6, 0, 0], k0_off16_eq_0 k0_t1⟩
/-- The index words of chunk `2k + 6`. -/
theorem k0_off17_eq_0 : ∀ k0_t1 : Fin k0_t1_loop.trips, k0_off17 k0_t1 0#32 = ![(2 * k0_t1.val + 6) / 32 % 2 * 1024 + (2 * k0_t1.val + 6) % 32 * 32] := by decide +kernel
instance closedOff_k0_off17_0 (k0_t1 : Fin k0_t1_loop.trips) : ClosedOff (k0_off17 k0_t1 0#32) := ⟨![(2 * k0_t1.val + 6) / 32 % 2 * 1024 + (2 * k0_t1.val + 6) % 32 * 32], k0_off17_eq_0 k0_t1⟩
/-- The ring semaphore of chunk `2k + 6`. -/
theorem k0_off19_eq_0 : ∀ k0_t1 : Fin k0_t1_loop.trips, k0_off19 k0_t1 0#32 = ![(2 * k0_t1.val + 6) % 6] := by decide +kernel
instance closedOff_k0_off19_0 (k0_t1 : Fin k0_t1_loop.trips) : ClosedOff (k0_off19 k0_t1 0#32) := ⟨![(2 * k0_t1.val + 6) % 6], k0_off19_eq_0 k0_t1⟩
/-- The ring slot of chunk `2k + 7`. -/
theorem k0_off16_eq_1 : ∀ k0_t1 : Fin k0_t1_loop.trips, k0_off16 k0_t1 1#32 = ![(2 * k0_t1.val + 7) % 6, 0, 0] := by decide +kernel
instance closedOff_k0_off16_1 (k0_t1 : Fin k0_t1_loop.trips) : ClosedOff (k0_off16 k0_t1 1#32) := ⟨![(2 * k0_t1.val + 7) % 6, 0, 0], k0_off16_eq_1 k0_t1⟩
/-- The index words of chunk `2k + 7`. -/
theorem k0_off17_eq_1 : ∀ k0_t1 : Fin k0_t1_loop.trips, k0_off17 k0_t1 1#32 = ![(2 * k0_t1.val + 7) / 32 % 2 * 1024 + (2 * k0_t1.val + 7) % 32 * 32] := by decide +kernel
instance closedOff_k0_off17_1 (k0_t1 : Fin k0_t1_loop.trips) : ClosedOff (k0_off17 k0_t1 1#32) := ⟨![(2 * k0_t1.val + 7) / 32 % 2 * 1024 + (2 * k0_t1.val + 7) % 32 * 32], k0_off17_eq_1 k0_t1⟩
/-- The ring semaphore of chunk `2k + 7`. -/
theorem k0_off19_eq_1 : ∀ k0_t1 : Fin k0_t1_loop.trips, k0_off19 k0_t1 1#32 = ![(2 * k0_t1.val + 7) % 6] := by decide +kernel
instance closedOff_k0_off19_1 (k0_t1 : Fin k0_t1_loop.trips) : ClosedOff (k0_off19 k0_t1 1#32) := ⟨![(2 * k0_t1.val + 7) % 6], k0_off19_eq_1 k0_t1⟩

/-! ## The same two guarded steps at the odd chunk 2k + 7 (their conditions never hold: see below) -/

/-- The half of the index scratch for field `(2k + 7) / 32 + 1`. -/
theorem k0_off20_eq : ∀ k0_t1 : Fin k0_t1_loop.trips, k0_off20 k0_t1 = ![((2 * k0_t1.val + 7) / 32 + 1) % 2 * 1024] := by decide +kernel
instance closedOff_k0_off20 (k0_t1 : Fin k0_t1_loop.trips) : ClosedOff (k0_off20 k0_t1) := ⟨![((2 * k0_t1.val + 7) / 32 + 1) % 2 * 1024], k0_off20_eq k0_t1⟩
/-- Its semaphore. -/
theorem k0_off22_eq : ∀ k0_t1 : Fin k0_t1_loop.trips, k0_off22 k0_t1 = ![((2 * k0_t1.val + 7) / 32 + 1) % 2] := by decide +kernel
instance closedOff_k0_off22 (k0_t1 : Fin k0_t1_loop.trips) : ClosedOff (k0_off22 k0_t1) := ⟨![((2 * k0_t1.val + 7) / 32 + 1) % 2], k0_off22_eq k0_t1⟩
/-- The half of the index scratch for field `(2k + 7) / 32`. -/
theorem k0_off23_eq : ∀ k0_t1 : Fin k0_t1_loop.trips, k0_off23 k0_t1 = ![((2 * k0_t1.val + 7) / 32) % 2 * 1024] := by decide +kernel
instance closedOff_k0_off23 (k0_t1 : Fin k0_t1_loop.trips) : ClosedOff (k0_off23 k0_t1) := ⟨![((2 * k0_t1.val + 7) / 32) % 2 * 1024], k0_off23_eq k0_t1⟩
/-- Its semaphore. -/
theorem k0_off25_eq : ∀ k0_t1 : Fin k0_t1_loop.trips, k0_off25 k0_t1 = ![((2 * k0_t1.val + 7) / 32) % 2] := by decide +kernel
instance closedOff_k0_off25 (k0_t1 : Fin k0_t1_loop.trips) : ClosedOff (k0_off25 k0_t1) := ⟨![((2 * k0_t1.val + 7) / 32) % 2], k0_off25_eq k0_t1⟩

/-! ## The conditions

Chunk `n = 2k + 6` has block `n % 32` and field `n / 32`.  The next field's index column is fetched at block 2 of every field
but the first and the last; the current field's column is waited for at block 0 of every field but the first.  The odd chunk
`2k + 7` is never at an even block, so neither step runs for it.  The tables are staged by the first thirteen tiles. -/

theorem k0_cond1_eq : ∀ i : grid0.Coords, k0_cond1 i = 1#1 ↔ (i 1).val < 13 := by decide +kernel
theorem k0_cond2_eq : ∀ k0_t1 : Fin k0_t1_loop.trips, k0_cond2 k0_t1 = 1#1 ↔ (2 * k0_t1.val + 6) % 32 = 2 ∧ 1 ≤ (2 * k0_t1.val + 6) / 32 ∧ (2 * k0_t1.val + 6) / 32 < 12 := by decide +kernel
theorem k0_cond3_eq : ∀ k0_t1 : Fin k0_t1_loop.trips, k0_cond3 k0_t1 = 1#1 ↔ (2 * k0_t1.val + 6) % 32 = 0 ∧ 1 ≤ (2 * k0_t1.val + 6) / 32 := by decide +kernel
theorem k0_cond4_ne : ∀ k0_t1 : Fin k0_t1_loop.trips, k0_cond4 k0_t1 ≠ 1#1 := by decide +kernel
theorem k0_cond5_ne : ∀ k0_t1 : Fin k0_t1_loop.trips, k0_cond5 k0_t1 ≠ 1#1 := by decide +kernel

end Cert.Proof.KB
-- ==== Proof.KB.BodyHead.lean ====
/-
  The head of a tile's body — the first index fetch, the staging of one table, the subcore barrier, the second index fetch —
  and the wrapping of the body: what the tile holds when the head has run, what it must hold when the kernel returns, the
  rest of the kernel as a program of its own, and the body's obligation from the obligation of that rest.

  Before the barrier a staging tile copies its table's thousand rows from the flattened tables into the shared scratch and
  waits for them; at the barrier it hands a sixteenth share of those rows, at the contents copied, to each tile of its
  SparseCore, and every tile receives thirteen such shares, one per table: together the whole scratch at its sixteenth
  share, at the rows of the flattened tables that belong to the SparseCore.  After the barrier the first index column has
  landed in the first half of the index scratch and the second is on its way into the second half.
-/
import proofs.«206644_g35837207118489_cont_8to1_b_589_28_alg».proof.Proof.KB.Pay
import proofs.«206644_g35837207118489_cont_8to1_b_589_28_alg».proof.Proof.KB.Split
import proofs.«206644_g35837207118489_cont_8to1_b_589_28_alg».proof.Proof.KB.Views
import proofs.«206644_g35837207118489_cont_8to1_b_589_28_alg».proof.Proof.KB.Offsets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-! ## The rest of the kernel after its first part -/

/-- The kernel's second-level part after its first part has returned `⟨v0, v1, c0_i32_11⟩`: the same statements, in the
    same words. -/
noncomputable def part22Rest (i : grid0.Coords) (arg2 : Memref sig .scVector .hbm S425984 .i32) (harg2 : arg2.IsWhole) (arg3 : Memref sig .scVector .hbm S26000x128 .f32) (harg3 : arg3.IsWhole) (arg4 : Memref sig .scVector .hbm S16384x3328 .f32) (harg4 : arg4.IsWhole) (arg5 : Memref sig .scVector .shared S13000x128 .f32) (harg5 : arg5.IsWhole) (arg6 : Memref sig .scVector .vmem S2048 .i32) (harg6 : arg6.IsWhole) (arg7 : Memref sig .scVector .vmem S6x32x128 .f32) (harg7 : arg7.IsWhole) (arg8 : DmaSems sig S2) (arg9 : DmaSems sig S6) (arg10 : DmaSems sig S6) (v270_r0 : DmaSems sig S_) (v0 v1 c0_i32_11 : BitVec 32) :
    Prog (TpuEff nD τ sig (Elt F) Λ₀ (.scVector ((i 0).castLE hcore0) ((i 1).castLE hsub0))) PUnit := do
  k0_part15 i arg2 harg2 arg3 harg3 arg4 harg4 arg5 harg5 arg6 harg6 arg7 harg7 arg8 arg9 arg10 v270_r0 c0_i32_11
  k0_part16 i arg2 harg2 arg3 harg3 arg4 harg4 arg5 harg5 arg6 harg6 arg7 harg7 arg8 arg9 arg10 v270_r0 v0 v1
  k0_part17 i arg2 harg2 arg3 harg3 arg4 harg4 arg5 harg5 arg6 harg6 arg7 harg7 arg8 arg9 arg10 v270_r0 v0 v1
  k0_part18 i arg2 harg2 arg3 harg3 arg4 harg4 arg5 harg5 arg6 harg6 arg7 harg7 arg8 arg9 arg10 v270_r0 v0 v1
  k0_part19 i arg2 harg2 arg3 harg3 arg4 harg4 arg5 harg5 arg6 harg6 arg7 harg7 arg8 arg9 arg10 v270_r0 v0 v1
  k0_part20 i arg2 harg2 arg3 harg3 arg4 harg4 arg5 harg5 arg6 harg6 arg7 harg7 arg8 arg9 arg10 v270_r0 v0 v1
  k0_part21 i arg2 harg2 arg3 harg3 arg4 harg4 arg5 harg5 arg6 harg6 arg7 harg7 arg8 arg9 arg10 v270_r0 v0 v1
  let v238 : DmaSems sig S1 := arg10.slice (Rect.unit (s := S6) ![5] S1.size inb_S6_S1_5)
  let v239 : DmaSems sig S_ := v238.squeeze S_ squeezes_S1_S_
  let v240 : Memref sig .scVector .hbm S32x128 .f32 := arg4.slice (Rect.unit (s := S16384x3328) (k0_off4 i 928#32 12#32) S32x128.size (k0_off4_inb i 3)) (fun _ => rfl)
  let v241 : Memref sig .scVector .vmem S1x32x128 .f32 := arg7.slice (Rect.unit (s := S6x32x128) ![5, 0, 0] S1x32x128.size inb_S6x32x128_S1x32x128_5_0_0) (fun _ => rfl)
  let v242 : Memref sig .scVector .vmem S32x128 .f32 := v241.squeeze S32x128 squeezes_S1x32x128_S32x128
  Prog.lift (.waitDma2 v239.sem v242 v240 ((View.wordExact_bits rfl).reshape _ _) (View.wordExact_bits rfl))
  let v249 : DmaSems sig S1 := arg10.slice (Rect.unit (s := S6) ![0] S1.size inb_S6_S1_0)
  let v250 : DmaSems sig S_ := v249.squeeze S_ squeezes_S1_S_
  let v251 : Memref sig .scVector .hbm S32x128 .f32 := arg4.slice (Rect.unit (s := S16384x3328) (k0_off4 i 960#32 12#32) S32x128.size (k0_off4_inb i 4)) (fun _ => rfl)
  let v252 : Memref sig .scVector .vmem S1x32x128 .f32 := arg7.slice (Rect.unit (s := S6x32x128) ![0, 0, 0] S1x32x128.size inb_S6x32x128_S1x32x128_0_0_0) (fun _ => rfl)
  let v253 : Memref sig .scVector .vmem S32x128 .f32 := v252.squeeze S32x128 squeezes_S1x32x128_S32x128
  Prog.lift (.waitDma2 v250.sem v253 v251 ((View.wordExact_bits rfl).reshape _ _) (View.wordExact_bits rfl))
  pure ⟨⟩

/-- The kernel after that part: the last wait and the return. -/
noncomputable def kernelRest (i : grid0.Coords) (arg2 : Memref sig .scVector .hbm S425984 .i32) (harg2 : arg2.IsWhole) (arg3 : Memref sig .scVector .hbm S26000x128 .f32) (harg3 : arg3.IsWhole) (arg4 : Memref sig .scVector .hbm S16384x3328 .f32) (harg4 : arg4.IsWhole) (arg5 : Memref sig .scVector .shared S13000x128 .f32) (harg5 : arg5.IsWhole) (arg6 : Memref sig .scVector .vmem S2048 .i32) (harg6 : arg6.IsWhole) (arg7 : Memref sig .scVector .vmem S6x32x128 .f32) (harg7 : arg7.IsWhole) (arg8 : DmaSems sig S2) (arg9 : DmaSems sig S6) (arg10 : DmaSems sig S6) (v270_r0 : DmaSems sig S_) :
    Prog (TpuEff nD τ sig (Elt F) Λ₀ (.scVector ((i 0).castLE hcore0) ((i 1).castLE hsub0))) PUnit := do
  let v263 : Memref sig .scVector .vmem S1x32x128 .f32 := arg7.slice (Rect.unit (s := S6x32x128) ![1, 0, 0] S1x32x128.size inb_S6x32x128_S1x32x128_1_0_0) (fun _ => rfl)
  let v264 : Memref sig .scVector .vmem S32x128 .f32 := v263.squeeze S32x128 squeezes_S1x32x128_S32x128
  let v260 : DmaSems sig S1 := arg10.slice (Rect.unit (s := S6) ![1] S1.size inb_S6_S1_1)
  let v261 : DmaSems sig S_ := v260.squeeze S_ squeezes_S1_S_
  let v262 : Memref sig .scVector .hbm S32x128 .f32 := arg4.slice (Rect.unit (s := S16384x3328) (k0_off4 i 992#32 12#32) S32x128.size (k0_off4_inb i 5)) (fun _ => rfl)
  Prog.lift (.waitDma2 v261.sem v264 v262 ((View.wordExact_bits rfl).reshape _ _) (View.wordExact_bits rfl))
  pure ⟨⟩

/-- The whole rest of tile `L`'s kernel, on the arrays and scratch the body table passes. -/
noncomputable def tailProg (L : grid0.Coords) (v0 v1 c : BitVec 32) : Prog (TpuEff nD τ sig (Elt F) Λ₀ (.scVector (cV L) (jV L))) PUnit :=
  part22Rest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 v0 v1 c >>= fun _ =>
    kernelRest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0

/-- The kernel is its first part followed by the rest. -/
theorem kernel_eq_head_tail (L : grid0.Coords) :
    cc0__gather_kernel (F := F) L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0
      = (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 >>= fun r => part22Rest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 r.1 r.2.1 r.2.2)
          >>= fun _ => kernelRest L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 := rfl

/-! ## Views the head leaves in use -/

variable (d : Dev nD) (L : grid0.Coords)

/-- The second half of the index scratch, and the second index column of the tile in the flattened columns, as the
    program slices them. -/
abbrev halfB : Memref sig .scVector .vmem S1024 .i32 := (ixsV).slice (Rect.unit (s := S2048) ![1024] S1024.size inb_S2048_S1024_1024) (fun _ => rfl)
abbrev halfA : Memref sig .scVector .vmem S1024 .i32 := (ixsV).slice (Rect.unit (s := S2048) ![0] S1024.size inb_S2048_S1024_0) (fun _ => rfl)
abbrev colM (r : Fin 2) : Memref sig .scVector .hbm S1024 .i32 :=
  (xfV).slice (Rect.unit (s := S425984) (k0_off1 L (BitVec.ofNat 32 r.val)) S1024.size (k0_off1_inb L r)) (fun _ => rfl)

/-- The tile's own buffers other than its two scratch buffers, each at some contents: handed back untouched. -/
def restBufs : sProp 𝕄 :=
  bigSep (((ownRefs (τ := τ) (.scVector (cV L) (jV L))).erase ((Proc.scVector (cV L) (jV L)).devRef cc0_scratch1)).erase ((Proc.scVector (cV L) (jV L)).devRef cc0_scratch2))
    fun b => iprop(∃ f, ((d, b) : Loc nD τ sig) ↦{fullShare} f)

/-- Word `16384 (13 c + p) + 1024 s + y` of the flattened columns: entry `y` of the tile's index column of field `p`. -/
theorem colIx_lt (p : ℕ) (hp : p < 13) (y : S1024.Idx) : 16384 * (13 * (L 0).val + p) + 1024 * (L 1).val + (y 0).val < 425984 := by
  have h0 : (L 0).val < 2 := (L 0).isLt
  have h1 : (L 1).val < 16 := (L 1).isLt
  have hy : (y 0).val < 1024 := (y 0).isLt
  omega

/-! ## What the tile holds when the head has run -/

/-- After the head: the waits' evidence at what the tile still owes; what it owes; the shared scratch whole at the tile's
    sixteenth share, staged; the tables' share back; the index columns' share but the second column's words, which the
    second fetch holds in flight with the second half of the index scratch; the rest of the index scratch, whose first half
    holds the tile's first index column; the ring; the tile's rectangle of the result; every semaphore but the second
    fetch's at zero; the rest of the tile's buffers. -/
def HeadPost (X : Buf (Elt F) (ixLoc d)) (Tb : Buf (Elt F) (tbLoc d)) (f0 : Buf (Elt F) (outLoc d))
    (O : CellTallies nD τ sig (HIx 1)) (W : Waits sig (HIx 1)) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ ((spV).view.loc (V d (cV L) (jV L)) ↦{shq (jV L)} spVal Tb (cV L))
    ∗ ((tbV).view.loc (V d (cV L) (jV L)) ↦{shareOf L} Tb)
    ∗ ((xfV).view.loc (V d (cV L) (jV L)) ↦[Finset.univ \ (colM L 1).view.set]{shareOf L} X)
    ∗ (∃ fi : Buf (Elt F) ((V d (cV L) (jV L)).loc cc0_scratch1),
        ⌜(∀ y : S1024.Idx, (halfA).view.read (Elt F) fi y = X (ix1 (n := 425984) ⟨16384 * (13 * (L 0).val + 0) + 1024 * (L 1).val + (y 0).val, colIx_lt L 0 (by decide) y⟩))
          ∧ (∀ y : S1024.Idx, (halfB).view.read (Elt F) fi y = X (ix1 (n := 425984) ⟨16384 * (13 * (L 0).val + 1) + 1024 * (L 1).val + (y 0).val, colIx_lt L 1 (by decide) y⟩))⌝
        ∗ ((ixsV).view.loc (V d (cV L) (jV L)) ↦[Finset.univ \ (halfB).view.set]{fullShare} fi)
        ∗ Transfers.Flight countersEmb (V d (cV L) (jV L)) (SemLoc.dma ((cc0_scratch3.slice (Rect.unit (s := S2) ![1] S1.size inb_S2_S1_1)).squeeze S_ squeezes_S1_S_).sem) (default : HIx 1) 32768
            iprop(((ixsV).view.loc (V d (cV L) (jV L)) ↦[(halfB).view.set]{fullShare} fi)
              ∗ ((xfV).view.loc (V d (cV L) (jV L)) ↦[(colM L 1).view.set]{shareOf L} X)))
    ∗ (∃ fb, (bufV).view.loc (V d (cV L) (jV L)) ↦{fullShare} fb)
    ∗ ((outV).view.loc (V d (cV L) (jV L)) ↦[outSet L]{fullShare} f0)
    ∗ semVal ((V d (cV L) (jV L)), SemLoc.dma ((cc0_scratch3.slice (Rect.unit (s := S2) ![0] S1.size inb_S2_S1_0)).squeeze S_ squeezes_S1_S_).sem) 0
    ∗ semVal ((V d (cV L) (jV L)), SemLoc.dma ((cc0_scratch4.slice (Rect.unit (s := S6) ![0] S1.size inb_S6_S1_0)).squeeze S_ squeezes_S1_S_).sem) 0
    ∗ semVal ((V d (cV L) (jV L)), SemLoc.dma ((cc0_scratch4.slice (Rect.unit (s := S6) ![1] S1.size inb_S6_S1_1)).squeeze S_ squeezes_S1_S_).sem) 0
    ∗ semVal ((V d (cV L) (jV L)), SemLoc.dma ((cc0_scratch4.slice (Rect.unit (s := S6) ![2] S1.size inb_S6_S1_2)).squeeze S_ squeezes_S1_S_).sem) 0
    ∗ semVal ((V d (cV L) (jV L)), SemLoc.dma ((cc0_scratch4.slice (Rect.unit (s := S6) ![3] S1.size inb_S6_S1_3)).squeeze S_ squeezes_S1_S_).sem) 0
    ∗ semVal ((V d (cV L) (jV L)), SemLoc.dma ((cc0_scratch4.slice (Rect.unit (s := S6) ![4] S1.size inb_S6_S1_4)).squeeze S_ squeezes_S1_S_).sem) 0
    ∗ semVal ((V d (cV L) (jV L)), SemLoc.dma ((cc0_scratch4.slice (Rect.unit (s := S6) ![5] S1.size inb_S6_S1_5)).squeeze S_ squeezes_S1_S_).sem) 0
    ∗ semVal ((V d (cV L) (jV L)), SemLoc.dma ((cc0_scratch5.slice (Rect.unit (s := S6) ![0] S1.size inb_S6_S1_0)).squeeze S_ squeezes_S1_S_).sem) 0
    ∗ semVal ((V d (cV L) (jV L)), SemLoc.dma ((cc0_scratch5.slice (Rect.unit (s := S6) ![1] S1.size inb_S6_S1_1)).squeeze S_ squeezes_S1_S_).sem) 0
    ∗ semVal ((V d (cV L) (jV L)), SemLoc.dma ((cc0_scratch5.slice (Rect.unit (s := S6) ![2] S1.size inb_S6_S1_2)).squeeze S_ squeezes_S1_S_).sem) 0
    ∗ semVal ((V d (cV L) (jV L)), SemLoc.dma ((cc0_scratch5.slice (Rect.unit (s := S6) ![3] S1.size inb_S6_S1_3)).squeeze S_ squeezes_S1_S_).sem) 0
    ∗ semVal ((V d (cV L) (jV L)), SemLoc.dma ((cc0_scratch5.slice (Rect.unit (s := S6) ![4] S1.size inb_S6_S1_4)).squeeze S_ squeezes_S1_S_).sem) 0
    ∗ semVal ((V d (cV L) (jV L)), SemLoc.dma ((cc0_scratch5.slice (Rect.unit (s := S6) ![5] S1.size inb_S6_S1_5)).squeeze S_ squeezes_S1_S_).sem) 0
    ∗ semVal ((V d (cV L) (jV L)), SemLoc.dma cc0_scoped0.sem) 0
    ∗ restBufs d L)

/-! ## What the tile must hold when the kernel returns -/

def EndPost (X : Buf (Elt F) (ixLoc d)) (Tb : Buf (Elt F) (tbLoc d))
    (O : CellTallies nD τ sig (HIx 1)) (W : Waits sig (HIx 1)) : sProp 𝕄 :=
  iprop((∃ W', ⌜∀ p ∈ W', p ∈ W ∨ p.2 = none ∨ p.2 = some (0 : Fin 1)⌝ ∗ owes (V d (cV L) (jV L)) O W')
    ∗ ((xfV).view.loc (V d (cV L) (jV L)) ↦{shareOf L} X)
    ∗ ((tbV).view.loc (V d (cV L) (jV L)) ↦{shareOf L} Tb)
    ∗ ((spV).view.loc (V d (cV L) (jV L)) ↦{shq (jV L)} spVal Tb (cV L))
    ∗ (∃ fi, (ixsV).view.loc (V d (cV L) (jV L)) ↦{fullShare} fi)
    ∗ (∃ fb, (bufV).view.loc (V d (cV L) (jV L)) ↦{fullShare} fb)
    ∗ ((outV).view.loc (V d (cV L) (jV L)) ↦[outSet L]{fullShare} Cert.LookupKB.gathered X Tb)
    ∗ semVal ((V d (cV L) (jV L)), SemLoc.dma ((cc0_scratch3.slice (Rect.unit (s := S2) ![0] S1.size inb_S2_S1_0)).squeeze S_ squeezes_S1_S_).sem) 0
    ∗ semVal ((V d (cV L) (jV L)), SemLoc.dma ((cc0_scratch3.slice (Rect.unit (s := S2) ![1] S1.size inb_S2_S1_1)).squeeze S_ squeezes_S1_S_).sem) 0
    ∗ semVal ((V d (cV L) (jV L)), SemLoc.dma ((cc0_scratch4.slice (Rect.unit (s := S6) ![0] S1.size inb_S6_S1_0)).squeeze S_ squeezes_S1_S_).sem) 0
    ∗ semVal ((V d (cV L) (jV L)), SemLoc.dma ((cc0_scratch4.slice (Rect.unit (s := S6) ![1] S1.size inb_S6_S1_1)).squeeze S_ squeezes_S1_S_).sem) 0
    ∗ semVal ((V d (cV L) (jV L)), SemLoc.dma ((cc0_scratch4.slice (Rect.unit (s := S6) ![2] S1.size inb_S6_S1_2)).squeeze S_ squeezes_S1_S_).sem) 0
    ∗ semVal ((V d (cV L) (jV L)), SemLoc.dma ((cc0_scratch4.slice (Rect.unit (s := S6) ![3] S1.size inb_S6_S1_3)).squeeze S_ squeezes_S1_S_).sem) 0
    ∗ semVal ((V d (cV L) (jV L)), SemLoc.dma ((cc0_scratch4.slice (Rect.unit (s := S6) ![4] S1.size inb_S6_S1_4)).squeeze S_ squeezes_S1_S_).sem) 0
    ∗ semVal ((V d (cV L) (jV L)), SemLoc.dma ((cc0_scratch4.slice (Rect.unit (s := S6) ![5] S1.size inb_S6_S1_5)).squeeze S_ squeezes_S1_S_).sem) 0
    ∗ semVal ((V d (cV L) (jV L)), SemLoc.dma ((cc0_scratch5.slice (Rect.unit (s := S6) ![0] S1.size inb_S6_S1_0)).squeeze S_ squeezes_S1_S_).sem) 0
    ∗ semVal ((V d (cV L) (jV L)), SemLoc.dma ((cc0_scratch5.slice (Rect.unit (s := S6) ![1] S1.size inb_S6_S1_1)).squeeze S_ squeezes_S1_S_).sem) 0
    ∗ semVal ((V d (cV L) (jV L)), SemLoc.dma ((cc0_scratch5.slice (Rect.unit (s := S6) ![2] S1.size inb_S6_S1_2)).squeeze S_ squeezes_S1_S_).sem) 0
    ∗ semVal ((V d (cV L) (jV L)), SemLoc.dma ((cc0_scratch5.slice (Rect.unit (s := S6) ![3] S1.size inb_S6_S1_3)).squeeze S_ squeezes_S1_S_).sem) 0
    ∗ semVal ((V d (cV L) (jV L)), SemLoc.dma ((cc0_scratch5.slice (Rect.unit (s := S6) ![4] S1.size inb_S6_S1_4)).squeeze S_ squeezes_S1_S_).sem) 0
    ∗ semVal ((V d (cV L) (jV L)), SemLoc.dma ((cc0_scratch5.slice (Rect.unit (s := S6) ![5] S1.size inb_S6_S1_5)).squeeze S_ squeezes_S1_S_).sem) 0
    ∗ semVal ((V d (cV L) (jV L)), SemLoc.dma cc0_scoped0.sem) 0
    ∗ restBufs d L)

/-! ## The rest's obligation -/

/-- The obligation of the rest of the kernel: from what the head leaves, it runs and ends with what the return needs. -/
def TailSpec : Prop :=
  ∀ (d : Dev nD) (L : grid0.Coords) (X : Buf (Elt F) (ixLoc d)) (_hX : ∀ j, (X j).toNat < 1000) (Tb : Buf (Elt F) (tbLoc d))
    (f0 : Buf (Elt F) (outLoc d)) (O : CellTallies nD τ sig (HIx 1)) (W : Waits sig (HIx 1)) (_hO : ∀ g, O g none = 0),
    HeadPost d L X Tb f0 O W
      ⊢ wp frame (wpE (defs₀ (F := F)) 𝒱₀ (V d (cV L) (jV L)) none) Set.univ
          (tailProg (F := F) L (Scalar.muli (BitVec.ofNat 32 (L 1).val) 1024#32) (Scalar.muli (BitVec.ofNat 32 (L 0).val) 13#32) 0#32)
          fun _ => EndPost d L X Tb O W

end Cert.Proof.KB

end
-- ==== Proof.KB.BodyWrap.lean ====
/-
  The body's obligation from the obligation of the rest of the kernel: the head is run here.

  The head's copies and waits are run one step at a time.  Between them the proof intervenes once, at the barrier: a staging tile's
  staged rows are restated as the rows of the flattened tables they were copied from, cut into sixteen shares and presented
  as the payloads of the tile's sixteen duties; what the tile receives, thirteen tables' rows at its own sixteenth share,
  is the shared scratch whole at that share.  At the end the contents of the index scratch are read back: its halves hold
  the tile's first two index columns.
-/
import proofs.«206644_g35837207118489_cont_8to1_b_589_28_alg».proof.Proof.KB.BodyHead

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

variable (d : Dev nD) (L : grid0.Coords)

/-! ## The tile's own semaphores and buffers -/

theorem scopedSems_eq : (Finset.univ.filter fun sm : SemLoc sig => sm.isScoped Kind.scVector = true)
    = {SemLoc.dma 0, SemLoc.dma 1, SemLoc.dma 2, SemLoc.dma 3, SemLoc.dma 4, SemLoc.dma 5, SemLoc.dma 6, SemLoc.dma 7,
       SemLoc.dma 8, SemLoc.dma 9, SemLoc.dma 10, SemLoc.dma 11, SemLoc.dma 12, SemLoc.dma 13, SemLoc.dma 14} := by decide

omit [FloatOps F] in
/-- The tile's scoped semaphores are its fifteen DMA semaphores. -/
theorem ownSems0_V15 :
    (ownSems0 (V d (cV L) (jV L)) : sProp 𝕄)
      = iprop(semVal ((V d (cV L) (jV L)), SemLoc.dma ((cc0_scratch3.slice (Rect.unit (s := S2) ![0] S1.size inb_S2_S1_0)).squeeze S_ squeezes_S1_S_).sem) 0
          ∗ semVal ((V d (cV L) (jV L)), SemLoc.dma ((cc0_scratch3.slice (Rect.unit (s := S2) ![1] S1.size inb_S2_S1_1)).squeeze S_ squeezes_S1_S_).sem) 0
          ∗ semVal ((V d (cV L) (jV L)), SemLoc.dma ((cc0_scratch4.slice (Rect.unit (s := S6) ![0] S1.size inb_S6_S1_0)).squeeze S_ squeezes_S1_S_).sem) 0
          ∗ semVal ((V d (cV L) (jV L)), SemLoc.dma ((cc0_scratch4.slice (Rect.unit (s := S6) ![1] S1.size inb_S6_S1_1)).squeeze S_ squeezes_S1_S_).sem) 0
          ∗ semVal ((V d (cV L) (jV L)), SemLoc.dma ((cc0_scratch4.slice (Rect.unit (s := S6) ![2] S1.size inb_S6_S1_2)).squeeze S_ squeezes_S1_S_).sem) 0
          ∗ semVal ((V d (cV L) (jV L)), SemLoc.dma ((cc0_scratch4.slice (Rect.unit (s := S6) ![3] S1.size inb_S6_S1_3)).squeeze S_ squeezes_S1_S_).sem) 0
          ∗ semVal ((V d (cV L) (jV L)), SemLoc.dma ((cc0_scratch4.slice (Rect.unit (s := S6) ![4] S1.size inb_S6_S1_4)).squeeze S_ squeezes_S1_S_).sem) 0
          ∗ semVal ((V d (cV L) (jV L)), SemLoc.dma ((cc0_scratch4.slice (Rect.unit (s := S6) ![5] S1.size inb_S6_S1_5)).squeeze S_ squeezes_S1_S_).sem) 0
          ∗ semVal ((V d (cV L) (jV L)), SemLoc.dma ((cc0_scratch5.slice (Rect.unit (s := S6) ![0] S1.size inb_S6_S1_0)).squeeze S_ squeezes_S1_S_).sem) 0
          ∗ semVal ((V d (cV L) (jV L)), SemLoc.dma ((cc0_scratch5.slice (Rect.unit (s := S6) ![1] S1.size inb_S6_S1_1)).squeeze S_ squeezes_S1_S_).sem) 0
          ∗ semVal ((V d (cV L) (jV L)), SemLoc.dma ((cc0_scratch5.slice (Rect.unit (s := S6) ![2] S1.size inb_S6_S1_2)).squeeze S_ squeezes_S1_S_).sem) 0
          ∗ semVal ((V d (cV L) (jV L)), SemLoc.dma ((cc0_scratch5.slice (Rect.unit (s := S6) ![3] S1.size inb_S6_S1_3)).squeeze S_ squeezes_S1_S_).sem) 0
          ∗ semVal ((V d (cV L) (jV L)), SemLoc.dma ((cc0_scratch5.slice (Rect.unit (s := S6) ![4] S1.size inb_S6_S1_4)).squeeze S_ squeezes_S1_S_).sem) 0
          ∗ semVal ((V d (cV L) (jV L)), SemLoc.dma ((cc0_scratch5.slice (Rect.unit (s := S6) ![5] S1.size inb_S6_S1_5)).squeeze S_ squeezes_S1_S_).sem) 0
          ∗ semVal ((V d (cV L) (jV L)), SemLoc.dma cc0_scoped0.sem) 0) := by
  rw [SparseCore.Cfg.ownSems0_eq]
  show bigSep (Finset.univ.filter fun sm : SemLoc sig => sm.isScoped Kind.scVector = true) _ = _
  rw [scopedSems_eq]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The tile's two scratch buffers are among its own: they are they, at some contents, and the rest. -/
theorem ownBufs_V2 :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f) ∗ restBufs d L) := by
  unfold SparseCore.Cfg.ownBufs restBufs
  refine (SparseCore.bigSep_erase' (SparseCore.Cfg.mem_ownRefs_of_owner (p := Proc.scVector (cV L) (jV L))
    (b := (Proc.scVector (cV L) (jV L)).devRef cc0_scratch1) rfl)).trans ?_
  rw [SparseCore.bigSep_erase' (Finset.mem_erase.mpr ⟨fun e => absurd (Proc.devRef_injective _ e) (show (cc0_scratch2 : Ref sig .scVector) ≠ cc0_scratch1 by decide),
    SparseCore.Cfg.mem_ownRefs_of_owner (p := Proc.scVector (cV L) (jV L)) (b := (Proc.scVector (cV L) (jV L)).devRef cc0_scratch2) rfl⟩)]

/-! ## The arrays, addressed through the tile's own memrefs -/

omit [FloatOps F] in
theorem pts_xf (q : PosShare TreeShare) (f : Buf (Elt F) (ixLoc d)) : ((xfV).view.loc (V d (cV L) (jV L)) ↦{q} f : sProp 𝕄) = (ixLoc d ↦{q} f) := rfl
omit [FloatOps F] in
theorem pts_tb (q : PosShare TreeShare) (f : Buf (Elt F) (tbLoc d)) : ((tbV).view.loc (V d (cV L) (jV L)) ↦{q} f : sProp 𝕄) = (tbLoc d ↦{q} f) := rfl
omit [FloatOps F] in
theorem pts_ixs (f : Buf (Elt F) ((V d (cV L) (jV L)).loc cc0_scratch1)) : ((ixsV).view.loc (V d (cV L) (jV L)) ↦{fullShare} f : sProp 𝕄) = ((V d (cV L) (jV L)).loc cc0_scratch1 ↦{fullShare} f) := rfl

/-- A staging tile number. -/
theorem lt_of_cond (hc : k0_cond1 L = 1#1) : (L 1).val < 13 := (k0_cond1_eq L).mp hc
theorem not_lt_of_cond (hc : ¬ k0_cond1 L = 1#1) : ¬ (L 1).val < 13 := fun h => hc ((k0_cond1_eq L).mpr h)

/-- The rows a staging tile stages, as the program slices them. -/
abbrev stageM (hc : k0_cond1 L = 1#1) : Memref sig .scVector .shared S1000x128 .f32 :=
  (spV).slice (Rect.unit (s := S13000x128) (k0_off2 L) S1000x128.size (k0_off2_inb L hc)) (fun _ => rfl)
/-- The rows of the flattened tables it copies. -/
abbrev srcM (hc : k0_cond1 L = 1#1) : Memref sig .scVector .hbm S1000x128 .f32 :=
  (tbV).slice (Rect.unit (s := S26000x128) (k0_off3 L) S1000x128.size (k0_off3_inb L hc)) (fun _ => rfl)

omit [FloatOps F] in
theorem stage_set (hc : k0_cond1 L = 1#1) : (stageM L hc).view.set = tabSet ⟨(L 1).val, lt_of_cond L hc⟩ := by
  show ((spV).view.slice (Rect.unit (s := S13000x128) (k0_off2 L) S1000x128.size (k0_off2_inb L hc))).set = ((spV).view.slice (tabRows ⟨(L 1).val, lt_of_cond L hc⟩)).set
  have e : (Rect.unit (s := S13000x128) (k0_off2 L) S1000x128.size (k0_off2_inb L hc)).set = (tabRows ⟨(L 1).val, lt_of_cond L hc⟩).set :=
    Finset.ext fun j => by rw [mem_unit2, mem_unit2, k0_off2_eq]
  rw [View.set_slice, View.set_slice, e]

omit [FloatOps F] in
theorem pts_stage (hc : k0_cond1 L = 1#1) (f : Buf (Elt F) (shLoc d (cV L))) :
    ((stageM L hc).view.loc (V d (cV L) (jV L)) ↦[(stageM L hc).view.set]{fullShare} f : sProp 𝕄)
      = (shLoc d (cV L) ↦[tabSet ⟨(L 1).val, lt_of_cond L hc⟩]{fullShare} f) := by
  rw [stage_set]; rfl

/-! ## The staged contents -/

/-- What the staging copy moves: the rows of the flattened tables, read through the program's slice. -/
abbrev stagedW (hc : k0_cond1 L = 1#1) (Tb : Buf (Elt F) (tbLoc d)) : S1000x128.Idx → Elt F .f32 :=
  ReadAs.same.apply (View.read (Elt F) (srcM L hc).view Tb)

set_option maxHeartbeats 4000000 in
omit [FloatOps F] in
/-- The staged rows hold the SparseCore's rows of the flattened tables. -/
theorem staged_val (hc : k0_cond1 L = 1#1) (Tb : Buf (Elt F) (tbLoc d)) (fsh : Buf (Elt F) (shLoc d (cV L))) :
    ∀ i ∈ tabSet ⟨(L 1).val, lt_of_cond L hc⟩,
      ((stageM L hc).view.writes (Elt F) fsh [⟨Rect.whole S1000x128, stagedW d L hc Tb⟩] : Buf (Elt F) (shLoc d (cV L))) i = spVal Tb (cV L) i := by
  intro i hi
  rw [← stage_set L hc] at hi
  obtain ⟨x, -, rfl⟩ := Finset.mem_map.mp hi
  have h1 := View.read_writes_cons_emb (v := (stageM L hc).view) (f := fsh) (Rect.whole S1000x128) (stagedW d L hc Tb) [] x
  rw [Rect.emb_whole_apply] at h1
  have h2 : ((stageM L hc).view.writes (Elt F) fsh [⟨Rect.whole S1000x128, stagedW d L hc Tb⟩]) ((stageM L hc).view.emb x) = stagedW d L hc Tb x := h1
  rw [h2]
  show Tb ((srcM L hc).view.emb x) = spVal Tb (cV L) ((stageM L hc).view.emb x)
  unfold spVal
  refine congrArg Tb (funext fun a => ?_)
  have e2 := k0_off2_eq L
  have e3 := k0_off3_eq L
  match a with
  | ⟨0, _⟩ =>
    apply Fin.ext
    show k0_off3 L 0 + 1 * (x 0).val = 13000 * (L 0).val + (k0_off2 L 0 + 1 * (x 0).val)
    rw [e2, e3]; show 13000 * (L 0).val + 1000 * (L 1).val + 1 * (x 0).val = 13000 * (L 0).val + (1000 * (L 1).val + 1 * (x 0).val); omega
  | ⟨1, _⟩ =>
    apply Fin.ext
    show k0_off3 L 1 + 1 * (x 1).val = k0_off2 L 1 + 1 * (x 1).val
    rw [e2, e3]; rfl

/-! ## The payloads -/

/-- A staging tile's staged rows, cut into sixteen shares, are the payloads of its sixteen duties. -/
theorem pays_stage (TbA : (d : Dev nD) → Buf (Elt F) (tbLoc d)) (hc : k0_cond1 L = 1#1) (g : Buf (Elt F) (shLoc d (cV L)))
    (hg : ∀ i ∈ tabSet ⟨(L 1).val, lt_of_cond L hc⟩, g i = spVal (TbA d) (cV L) i) :
    ((stageM L hc).view.loc (V d (cV L) (jV L)) ↦[(stageM L hc).view.set]{fullShare} g : sProp 𝕄)
      ⊢ bigSep Finset.univ fun j : Fin (grid0.bound 1) => (bRd (F := F) TbA).payload (bcell d (cV L) (j.castLE hsub0)) 0 (jV L).val := by
  rw [pts_stage, pointsTo_congr hg, pointsTo_leaves _ _ 4 fullShare]
  refine Entails.of_eq (bigSep_congr fun j _ => ?_)
  rw [bRd_payload_lt TbA d (cV L) _ 0 (jV L).val (lt_of_cond L hc)]
  rfl

/-- The other tiles' duties carry nothing. -/
theorem pays_none (TbA : (d : Dev nD) → Buf (Elt F) (tbLoc d)) (hc : ¬ k0_cond1 L = 1#1) :
    (iprop(emp) : sProp 𝕄)
      ⊢ bigSep Finset.univ fun j : Fin (grid0.bound 1) => (bRd (F := F) TbA).payload (bcell d (cV L) (j.castLE hsub0)) 0 (jV L).val := by
  rw [bigSep_congr fun j _ => bRd_payload_ge TbA d (cV L) (j.castLE hsub0) 0 (jV L).val (not_lt_of_cond L hc), bigSep_emp']

theorem toks_bundle (TbA : (d : Dev nD) → Buf (Elt F) (tbLoc d)) :
    iprop((bigSep Finset.univ fun j : Fin (grid0.bound 1) => dutyTok EB (bcell d (cV L) (j.castLE hsub0)) 0 (jV L).val)
        ∗ (bigSep Finset.univ fun j : Fin (grid0.bound 1) => (bRd (F := F) TbA).payload (bcell d (cV L) (j.castLE hsub0)) 0 (jV L).val)
        ∗ (bigSep Finset.univ fun j : Fin (grid0.bound 1) => reached EB (bcell d (cV L) (j.castLE hsub0)) 0))
      ⊢ (bigSep Finset.univ fun j : Fin (grid0.bound 1) => iprop(dutyTok EB (bcell d (cV L) (j.castLE hsub0)) 0 (jV L).val
          ∗ (bRd (F := F) TbA).payload (bcell d (cV L) (j.castLE hsub0)) 0 (jV L).val ∗ reached EB (bcell d (cV L) (j.castLE hsub0)) 0) : sProp 𝕄) := by
  rw [bigSep_sep', bigSep_sep']

omit [FloatOps F] in
/-- The shared scratch at a share is the thirteen tables' rows at that share. -/
theorem sp_tabs (q : PosShare TreeShare) (f : Buf (Elt F) (shLoc d (cV L))) :
    (shLoc d (cV L) ↦{q} f : sProp 𝕄) = bigSep Finset.univ fun i : Fin (grid0.bound 1) => shLoc d (cV L) ↦[tabSetN i.val]{q} f := by
  rw [← pointsTo_biUnion (ℓ := shLoc d (cV L)) Finset.univ (fun i : Fin (grid0.bound 1) => tabSetN i.val) tabSetN_disjoint, tabSetN_cover]; try rfl

/-- What the tile receives at the barrier — thirteen tables' rows at its own sixteenth share — is the shared scratch
    whole at that share. -/
theorem got_whole (TbA : (d : Dev nD) → Buf (Elt F) (tbLoc d)) :
    (bigSep ((bRd (F := F) TbA).duties ((V d (cV L) (jV L)), SemLoc.reg sc_bar0) 0 \ ∅) fun m => (bRd (F := F) TbA).payload ((V d (cV L) (jV L)), SemLoc.reg sc_bar0) 0 m)
      ⊢ ((spV).view.loc (V d (cV L) (jV L)) ↦{shq (jV L)} spVal (TbA d) (cV L) : sProp 𝕄) := by
  have e : ∀ n : Fin τ.nSub, (bRd (F := F) TbA).payload (bcell d (cV L) (jV L)) 0 n.val
      = (shLoc d (cV L) ↦[tabSetN n.val]{shq (jV L)} spVal (TbA d) (cV L) : sProp 𝕄) := by
    intro n
    unfold tabSetN
    by_cases h : n.val < 13
    · rw [bRd_payload_lt TbA d (cV L) (jV L) 0 n.val h, dif_pos h]
    · rw [bRd_payload_ge TbA d (cV L) (jV L) 0 n.val h, dif_neg h, pointsTo_empty]
  rw [show (bRd (F := F) TbA).duties ((V d (cV L) (jV L)), SemLoc.reg sc_bar0) 0 = (Finset.univ : Finset (Fin τ.nSub)).image Fin.val from bRd_duties₀ TbA d (cV L) (jV L),
    Finset.sdiff_empty, SparseCore.bigSep_image_of_injOn (fun a _ b _ e => Fin.val_injective e)]
  rw [bigSep_congr fun n _ => e n]
  exact Entails.of_eq (sp_tabs (F := F) d L (shq (jV L)) (spVal (TbA d) (cV L))).symm

/-! ## The index scratch after the head -/

/-- Word `z` of the index scratch once both halves hold their columns: half `z / 1024` holds the tile's column of field
    `z / 1024`. -/
def ixsG (X : Buf (Elt F) (ixLoc d)) : S2048.Idx → Elt F .i32 := fun z =>
  X (ix1 (n := 425984) ⟨16384 * (13 * (L 0).val + (z 0).val / 1024) + 1024 * (L 1).val + (z 0).val % 1024, by
    have h0 : (L 0).val < 2 := (L 0).isLt
    have h1 : (L 1).val < 16 := (L 1).isLt
    have hz : (z 0).val < 2048 := (z 0).isLt
    omega⟩)

/-- What an index fetch moves: the tile's column `r` of the flattened columns, read through the program's slice. -/
abbrev colW (r : Fin 2) (X : Buf (Elt F) (ixLoc d)) : S1024.Idx → Elt F .i32 :=
  ReadAs.same.apply (View.read (Elt F) (colM L r).view X)

omit [FloatOps F] in
/-- The index scratch's halves hold the tile's first two index columns. -/
theorem ixs_facts (X : Buf (Elt F) (ixLoc d)) (fi : Buf (Elt F) ((V d (cV L) (jV L)).loc cc0_scratch1)) :
    (∀ y : S1024.Idx, (halfA).view.read (Elt F)
        ((ixsV).view.writes (Elt F) fi [⟨Rect.unit (s := S2048) ![1024] S1024.size inb_S2048_S1024_1024, colW d L 1 X⟩, ⟨Rect.unit (s := S2048) ![0] S1024.size inb_S2048_S1024_0, colW d L 0 X⟩]) y
          = X (ix1 (n := 425984) ⟨16384 * (13 * (L 0).val + 0) + 1024 * (L 1).val + (y 0).val, colIx_lt L 0 (by decide) y⟩))
    ∧ (∀ y : S1024.Idx, (halfB).view.read (Elt F)
        ((ixsV).view.writes (Elt F) fi [⟨Rect.unit (s := S2048) ![1024] S1024.size inb_S2048_S1024_1024, colW d L 1 X⟩, ⟨Rect.unit (s := S2048) ![0] S1024.size inb_S2048_S1024_0, colW d L 0 X⟩]) y
          = X (ix1 (n := 425984) ⟨16384 * (13 * (L 0).val + 1) + 1024 * (L 1).val + (y 0).val, colIx_lt L 1 (by decide) y⟩)) := by
  have hcol : ∀ (r : Fin 2) (x : S1024.Idx), colW d L r X x
      = X (ix1 (n := 425984) ⟨16384 * (13 * (L 0).val + r.val) + 1024 * (L 1).val + (x 0).val, colIx_lt L r.val (by have := r.isLt; omega) x⟩) := by
    intro r x
    show X ((colM L r).view.emb x) = _
    refine congrArg X (funext fun a => ?_)
    have e1 := k0_off1_eq L r
    match a with
    | ⟨0, _⟩ =>
      apply Fin.ext
      show k0_off1 L (BitVec.ofNat 32 r.val) 0 + 1 * (x 0).val = 16384 * (13 * (L 0).val + r.val) + 1024 * (L 1).val + (x 0).val
      rw [e1]; show 212992 * (L 0).val + 16384 * r.val + 1024 * (L 1).val + 1 * (x 0).val = _; omega
  have hpieces : ∀ p ∈ ([⟨Rect.unit (s := S2048) ![1024] S1024.size inb_S2048_S1024_1024, colW d L 1 X⟩, ⟨Rect.unit (s := S2048) ![0] S1024.size inb_S2048_S1024_0, colW d L 0 X⟩] : List (View.Piece (Elt F) S2048 .i32)),
      ∀ x : p.1.shape.Idx, p.2 x = ixsG d L X (p.1.emb x) := by
    intro p hp x
    simp only [List.mem_cons, List.not_mem_nil, or_false] at hp
    rcases hp with rfl | rfl
    · refine (hcol 1 x).trans ?_; unfold ixsG
      refine congrArg X (congrArg ix1 (Fin.ext ?_))
      have hx : (x 0).val < 1024 := (x 0).isLt
      show 16384 * (13 * (L 0).val + 1) + 1024 * (L 1).val + (x 0).val = 16384 * (13 * (L 0).val + (1024 + 1 * (x 0).val) / 1024) + 1024 * (L 1).val + (1024 + 1 * (x 0).val) % 1024
      omega
    · refine (hcol 0 x).trans ?_; unfold ixsG
      refine congrArg X (congrArg ix1 (Fin.ext ?_))
      have hx : (x 0).val < 1024 := (x 0).isLt
      show 16384 * (13 * (L 0).val + 0) + 1024 * (L 1).val + (x 0).val = 16384 * (13 * (L 0).val + (0 + 1 * (x 0).val) / 1024) + 1024 * (L 1).val + (0 + 1 * (x 0).val) % 1024
      omega
  refine ⟨fun y => ?_, fun y => ?_⟩
  · have hcov : ∃ p ∈ ([⟨Rect.unit (s := S2048) ![1024] S1024.size inb_S2048_S1024_1024, colW d L 1 X⟩, ⟨Rect.unit (s := S2048) ![0] S1024.size inb_S2048_S1024_0, colW d L 0 X⟩] : List (View.Piece (Elt F) S2048 .i32)),
        (Rect.unit (s := S2048) ![0] S1024.size inb_S2048_S1024_0).emb y ∈ p.1.set :=
      ⟨_, List.mem_cons_of_mem _ List.mem_cons_self, (Rect.unit (s := S2048) ![0] S1024.size inb_S2048_S1024_0).idx_mem y⟩
    have h := View.read_writes_apply_of_pieces (v := (ixsV).view) (f := fi) (ixsG d L X) _ hpieces _ hcov
    refine Eq.trans h ?_
    unfold ixsG
    refine congrArg X (congrArg ix1 (Fin.ext ?_))
    have hy : (y 0).val < 1024 := (y 0).isLt
    show 16384 * (13 * (L 0).val + (0 + 1 * (y 0).val) / 1024) + 1024 * (L 1).val + (0 + 1 * (y 0).val) % 1024 = 16384 * (13 * (L 0).val + 0) + 1024 * (L 1).val + (y 0).val
    omega
  · have hcov : ∃ p ∈ ([⟨Rect.unit (s := S2048) ![1024] S1024.size inb_S2048_S1024_1024, colW d L 1 X⟩, ⟨Rect.unit (s := S2048) ![0] S1024.size inb_S2048_S1024_0, colW d L 0 X⟩] : List (View.Piece (Elt F) S2048 .i32)),
        (Rect.unit (s := S2048) ![1024] S1024.size inb_S2048_S1024_1024).emb y ∈ p.1.set :=
      ⟨_, List.mem_cons_self, (Rect.unit (s := S2048) ![1024] S1024.size inb_S2048_S1024_1024).idx_mem y⟩
    have h := View.read_writes_apply_of_pieces (v := (ixsV).view) (f := fi) (ixsG d L X) _ hpieces _ hcov
    refine Eq.trans h ?_
    unfold ixsG
    refine congrArg X (congrArg ix1 (Fin.ext ?_))
    have hy : (y 0).val < 1024 := (y 0).isLt
    show 16384 * (13 * (L 0).val + (1024 + 1 * (y 0).val) / 1024) + 1024 * (L 1).val + (1024 + 1 * (y 0).val) % 1024 = 16384 * (13 * (L 0).val + 1) + 1024 * (L 1).val + (y 0).val
    omega

/-! ## The head -/

set_option maxHeartbeats 8000000 in
set_option sl_exec.dmaWindow true in
set_option sl_exec.dmaWindowSet true in
set_option sl_exec.dmaWindowLent true in
theorem head_stage (hF : (K (F := F)).Facts) (TbA : (d : Dev nD) → Buf (Elt F) (tbLoc d)) (hc : k0_cond1 L = 1#1)
    (X : Buf (Elt F) (ixLoc d)) (f0 : Buf (Elt F) (outLoc d))
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0)
          fun r => iprop(⌜r = ⟨(Scalar.muli (BitVec.ofNat 32 (L 1).val) 1024#32), (Scalar.muli (BitVec.ofNat 32 (L 0).val) 13#32), 0#32⟩⌝ ∗ HeadPost d L X (TbA d) f0 O W) := by
  rw [k0_part14_eq_skeleton]; unfold k0_part14_skel
  rw [(K (F := F)).scopedBufs_V hF d (cV L) (jV L), SparseCore.Cfg.scopedSems0_V (Val := Elt F) d (cV L) (jV L), ownSems0_V15, ownBufs_V2]
  unfold bkit goRes
  rw [dif_pos (lt_of_cond L hc)]
  iintro ⟨#Hlv, ⟨⟨%κ, #Hinv⟩, Hdt, #Hrch, Hat, Hcred⟩, ⟨Hx, Htb, Hout, ⟨%fsh, Hst⟩⟩, ⟨⟨%fi, Hi⟩, ⟨%fb, Hb⟩, Hrest⟩, ⟨Hs0, Hs1, Hg0, Hg1, Hg2, Hg3, Hg4, Hg5, Ht0, Ht1, Ht2, Ht3, Ht4, Ht5, Hsc⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  icases Hmw1 with #Hmw1
  icases Hmw2 with #Hmw2
  ihave Hx' := (Entails.of_eq (pts_xf (F := F) d L _ _).symm) $$ Hx
  ihave Htb' := (Entails.of_eq (pts_tb (F := F) d L _ _).symm) $$ Htb
  ihave Hi' := (Entails.of_eq (pts_ixs (F := F) d L _).symm) $$ Hi
  ihave Hst' := (Entails.of_eq (pts_stage (F := F) d L hc _).symm) $$ Hst
  -- the first fetch's start, the staging copy and its wait
  sl_exec
  -- the payloads of the tile's sixteen duties
  sl_unfold_run_names
  ihave Hpay := (pays_stage (F := F) d L TbA hc _ (staged_val (F := F) d L hc (TbA d) fsh)) $$ Hst'
  ihave Htoks := (toks_bundle (F := F) d L TbA) $$ [Hdt Hpay]
  · isplitl [Hdt]; · iexact Hdt
    isplitl [Hpay]; · iexact Hpay
    iexact Hrch
  -- the barrier
  iapply (SparseCore.wp_subcoreBarrier 𝒱₀ none EB (bRd (F := F) TbA) d (sc := cV L) (i := jV L) sc_bar0 (grid0.bound 1) hsub0 (L 1) rfl κ (fun _ => 0) (jV L).val
      (fun j => bRd_mem₀ TbA d _ _ _) (fun _ => rfl) (bRd_expect TbA d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsp := (got_whole (F := F) d L TbA) $$ Hgot
  -- the first fetch's wait, the second fetch's start
  sl_exec
  iapply (Idealize.SL.Sem.le_wp_ret _ _)
  sl_unfold_run_names
  isplitr; · ipureintro; rfl
  unfold HeadPost
  isplitr; · iexact Hmw2
  isplitl [HO]
  · iexists _; isplitr
    swap; · iexact HO
    ipureintro; intro p hp
    simp only [Finset.mem_insert] at hp
    rcases hp with rfl | rfl | rfl | hp
    · exact .inr (.inl rfl)
    · exact .inr (.inr rfl)
    · exact .inr (.inl rfl)
    · exact .inl hp
  isplitl [Hsp]; · iexact Hsp
  isplitl [Htb']; · iexact Htb'
  isplitl [Hx']; · iexact Hx'
  isplitl [Hi' Hs1]
  · iexists _
    isplitr; · ipureintro; exact ixs_facts (F := F) d L X fi
    isplitl [Hi']; · iexact Hi'
    iexact Hs1
  isplitl [Hb]; · iexists fb; iexact Hb
  isplitl [Hout]; · iexact Hout
  isplitl [Hs0]; · iexact Hs0
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hsc]; · iexact Hsc
  iexact Hrest

set_option maxHeartbeats 8000000 in
set_option sl_exec.dmaWindow true in
set_option sl_exec.dmaWindowSet true in
set_option sl_exec.dmaWindowLent true in
theorem head_plain (hF : (K (F := F)).Facts) (TbA : (d : Dev nD) → Buf (Elt F) (tbLoc d)) (hc : ¬ k0_cond1 L = 1#1)
    (X : Buf (Elt F) (ixLoc d)) (f0 : Buf (Elt F) (outLoc d))
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0)
          fun r => iprop(⌜r = ⟨(Scalar.muli (BitVec.ofNat 32 (L 1).val) 1024#32), (Scalar.muli (BitVec.ofNat 32 (L 0).val) 13#32), 0#32⟩⌝ ∗ HeadPost d L X (TbA d) f0 O W) := by
  rw [k0_part14_eq_skeleton]; unfold k0_part14_skel
  rw [(K (F := F)).scopedBufs_V hF d (cV L) (jV L), SparseCore.Cfg.scopedSems0_V (Val := Elt F) d (cV L) (jV L), ownSems0_V15, ownBufs_V2]
  unfold bkit goRes
  rw [dif_neg (not_lt_of_cond L hc)]
  iintro ⟨#Hlv, ⟨⟨%κ, #Hinv⟩, Hdt, #Hrch, Hat, Hcred⟩, ⟨Hx, Htb, Hout, -⟩, ⟨⟨%fi, Hi⟩, ⟨%fb, Hb⟩, Hrest⟩, ⟨Hs0, Hs1, Hg0, Hg1, Hg2, Hg3, Hg4, Hg5, Ht0, Ht1, Ht2, Ht3, Ht4, Ht5, Hsc⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hmw2 := (show levAts (K (F := F)).L (K (F := F)).lev ⊢ Transfers.MayWaits (V d (cV L) (jV L)) (default : HIx 1) O from
    (K (F := F)).mayWaits_none (thr := (V d (cV L) (jV L))) hO) $$ Hlv
  icases Hmw1 with #Hmw1
  icases Hmw2 with #Hmw2
  ihave Hx' := (Entails.of_eq (pts_xf (F := F) d L _ _).symm) $$ Hx
  ihave Htb' := (Entails.of_eq (pts_tb (F := F) d L _ _).symm) $$ Htb
  ihave Hi' := (Entails.of_eq (pts_ixs (F := F) d L _).symm) $$ Hi
  -- the first fetch's start
  sl_exec
  -- the payloads of the tile's sixteen duties
  sl_unfold_run_names
  ihave Hpay := (pays_none (F := F) d L TbA hc) $$ []
  · iempintro
  ihave Htoks := (toks_bundle (F := F) d L TbA) $$ [Hdt Hpay]
  · isplitl [Hdt]; · iexact Hdt
    isplitl [Hpay]; · iexact Hpay
    iexact Hrch
  -- the barrier
  iapply (SparseCore.wp_subcoreBarrier 𝒱₀ none EB (bRd (F := F) TbA) d (sc := cV L) (i := jV L) sc_bar0 (grid0.bound 1) hsub0 (L 1) rfl κ (fun _ => 0) (jV L).val
      (fun j => bRd_mem₀ TbA d _ _ _) (fun _ => rfl) (bRd_expect TbA d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsp := (got_whole (F := F) d L TbA) $$ Hgot
  -- the first fetch's wait, the second fetch's start
  sl_exec
  iapply (Idealize.SL.Sem.le_wp_ret _ _)
  sl_unfold_run_names
  isplitr; · ipureintro; rfl
  unfold HeadPost
  isplitr; · iexact Hmw2
  isplitl [HO]
  · iexists _; isplitr
    swap; · iexact HO
    ipureintro; intro p hp
    simp only [Finset.mem_insert] at hp
    rcases hp with rfl | rfl | hp
    · exact .inr (.inl rfl)
    · exact .inr (.inr rfl)
    · exact .inl hp
  isplitl [Hsp]; · iexact Hsp
  isplitl [Htb']; · iexact Htb'
  isplitl [Hx']; · iexact Hx'
  isplitl [Hi' Hs1]
  · iexists _
    isplitr; · ipureintro; exact ixs_facts (F := F) d L X fi
    isplitl [Hi']; · iexact Hi'
    iexact Hs1
  isplitl [Hb]; · iexists fb; iexact Hb
  isplitl [Hout]; · iexact Hout
  isplitl [Hs0]; · iexact Hs0
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hsc]; · iexact Hsc
  iexact Hrest

/-! ## The return, and the body's obligation -/

/-- What the rest leaves is what the task hands back, the tile's scratch and its semaphores at zero. -/
theorem end_repack (hF : (K (F := F)).Facts) (X : Buf (Elt F) (ixLoc d)) (Tb : Buf (Elt F) (tbLoc d))
    (O : CellTallies nD τ sig (HIx 1)) (W : Waits sig (HIx 1)) :
    EndPost d L X Tb O W
      ⊢ iprop(tdRes X Tb L ∗ scopedBufs (V d (cV L) (jV L)) ∗ scopedSems0 (V d (cV L) (jV L))
          ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V15, ownBufs_V2]
  unfold EndPost tdRes
  iintro ⟨HW, Hx, Htb, Hsp, Hi, Hb, Hout, Hs0, Hs1, Hg0, Hg1, Hg2, Hg3, Hg4, Hg5, Ht0, Ht1, Ht2, Ht3, Ht4, Ht5, Hsc, Hrest⟩
  isplitl [Hx Htb Hout Hsp]
  · isplitl [Hx]; · iexact Hx
    isplitl [Htb]; · iexact Htb
    isplitl [Hout]; · iexact Hout
    iexact Hsp
  isplitl [Hi Hb Hrest]
  · isplitl [Hi]; · iexact Hi
    isplitl [Hb]; · iexact Hb
    iexact Hrest
  isplitl [Hs0 Hs1 Hg0 Hg1 Hg2 Hg3 Hg4 Hg5 Ht0 Ht1 Ht2 Ht3 Ht4 Ht5 Hsc]
  · isplitl [Hs0]; · iexact Hs0
    isplitl [Hs1]; · iexact Hs1
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    iexact Hsc
  iexact HW

/-- The body's obligation from the obligation of the rest of the kernel. -/
theorem tileBody_of_tail (h : TailSpec (F := F)) : TileBody (F := F) := by
  intro hF TbA d L X hX f0 O W hO hOlev
  rw [kernel_eq_head_tail, wp_bind, wp_bind]
  have htail := h d L X hX (TbA d) f0 O W hO
  unfold tailProg at htail
  rw [wp_bind] at htail
  have hhead := (show _ from (by
    by_cases hc : k0_cond1 L = 1#1
    · exact head_stage d L hF TbA hc X f0 O W hO hOlev
    · exact head_plain d L hF TbA hc X f0 O W hO hOlev :
    iprop(levAts (K (F := F)).L (K (F := F)).lev ∗ bkit TbA d (cV L) (jV L) ∗ goRes X (TbA d) f0 L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k0_part14 L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0)
          fun r => iprop(⌜r = ⟨(Scalar.muli (BitVec.ofNat 32 (L 1).val) 1024#32), (Scalar.muli (BitVec.ofNat 32 (L 0).val) 13#32), 0#32⟩⌝ ∗ HeadPost d L X (TbA d) f0 O W)))
  refine hhead.trans (wp_mono frame _ _ fun r => ?_)
  iintro ⟨%hr, H⟩
  subst hr
  iapply (htail.trans (wp_mono frame _ _ fun _ => wp_mono frame _ _ fun _ => end_repack d L hF X (TbA d) O W))
  iexact H

end Cert.Proof.KB

end
-- ==== Proof.KB.InvDefs.lean ====
/-
  Names for the loop's invariant: the pieces of memory by their offsets, the offsets of chunk `n` in closed form, and what a piece
  must hold for the result to be the lookup.

  Chunk `n` of tile `(c, s)` (field `n / 32` of the SparseCore's thirteen, block `n % 32` of the tile's thousand and twenty-four batch
  entries) gathers, for each of its 32 batch entries `i`, row `x[1024 s + 32 (n % 32) + i, 13 c + n / 32]` of that field's table into row `i` of ring
  slot `n % 6`, and copies the slot out to rows `1024 s + 32 (n % 32) … + 31`, columns `128 (13 c + n / 32) … + 127` of the result.  A slot is right for
  chunk `n` when entry `(i, q)` of it is the result's entry at that place; a result block is right when it holds the result's entries; the
  32 index words of chunk `n` are right when word `i` is the flattened index column's entry for batch entry `1024 s + 32 (n % 32) + i` of
  field `13 c + n / 32`.
-/
import proofs.«206644_g35837207118489_cont_8to1_b_589_28_alg».proof.Proof.KB.BodyHead

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## Views by their offsets, as the program spells them -/

abbrev slotO (off : Fin 3 → ℕ) (h : ∀ a, off a + S1x32x128.size a ≤ S6x32x128.size a) : Memref sig .scVector .vmem S32x128 .f32 :=
  ((Memref.whole cc0_scratch2 : Memref sig .scVector .vmem S6x32x128 .f32).slice (Rect.unit (s := S6x32x128) off S1x32x128.size h) (fun _ => rfl)).squeeze S32x128 squeezes_S1x32x128_S32x128
abbrev listO (off : Fin 1 → ℕ) (h : ∀ a, off a + S32.size a ≤ S2048.size a) : Memref sig .scVector .vmem S32 .i32 :=
  (Memref.whole cc0_scratch1 : Memref sig .scVector .vmem S2048 .i32).slice (Rect.unit (s := S2048) off S32.size h) (fun _ => rfl)
abbrev halfO (off : Fin 1 → ℕ) (h : ∀ a, off a + S1024.size a ≤ S2048.size a) : Memref sig .scVector .vmem S1024 .i32 :=
  (Memref.whole cc0_scratch1 : Memref sig .scVector .vmem S2048 .i32).slice (Rect.unit (s := S2048) off S1024.size h) (fun _ => rfl)
abbrev colO (off : Fin 1 → ℕ) (h : ∀ a, off a + S1024.size a ≤ S425984.size a) : Memref sig .scVector .hbm S1024 .i32 :=
  (Memref.whole main_v1_scv : Memref sig .scVector .hbm S425984 .i32).slice (Rect.unit (s := S425984) off S1024.size h) (fun _ => rfl)
abbrev tabO (off : Fin 2 → ℕ) (h : ∀ a, off a + S1000x128.size a ≤ S13000x128.size a) : Memref sig .scVector .shared S1000x128 .f32 :=
  ((Memref.whole cc0_scratch0 : Memref sig .scVector .shared S13000x128 .f32).slice (Rect.unit (s := S13000x128) off S1000x128.size h) (fun _ => rfl)).slice
    (Rect.unit (s := S1000x128) ![0, 0] S1000x128.size inb_S1000x128_S1000x128_0_0) (fun _ => rfl)
abbrev outO (off : Fin 2 → ℕ) (h : ∀ a, off a + S32x128.size a ≤ S16384x3328.size a) : Memref sig .scVector .hbm S32x128 .f32 :=
  (Memref.whole main_v3_scv : Memref sig .scVector .hbm S16384x3328 .f32).slice (Rect.unit (s := S16384x3328) off S32x128.size h) (fun _ => rfl)
abbrev gsemO (off : Fin 1 → ℕ) (h : ∀ a, off a + S1.size a ≤ S6.size a) : DmaSems sig S_ := (cc0_scratch4.slice (Rect.unit (s := S6) off S1.size h)).squeeze S_ squeezes_S1_S_
abbrev ssemO (off : Fin 1 → ℕ) (h : ∀ a, off a + S1.size a ≤ S6.size a) : DmaSems sig S_ := (cc0_scratch5.slice (Rect.unit (s := S6) off S1.size h)).squeeze S_ squeezes_S1_S_
abbrev isemO (off : Fin 1 → ℕ) (h : ∀ a, off a + S1.size a ≤ S2.size a) : DmaSems sig S_ := (cc0_scratch3.slice (Rect.unit (s := S2) off S1.size h)).squeeze S_ squeezes_S1_S_

/-! ## Chunk `n`'s offsets in closed form -/

abbrev cSlot (n : ℕ) : Fin 3 → ℕ := ![n % 6, 0, 0]
theorem cSlot_inb (n : ℕ) : ∀ a, cSlot n a + S1x32x128.size a ≤ S6x32x128.size a := slot_inb (n % 6) (Nat.mod_lt _ (by decide))
abbrev cSem (n : ℕ) : Fin 1 → ℕ := ![n % 6]
theorem cSem_inb (n : ℕ) : ∀ a, cSem n a + S1.size a ≤ S6.size a := sem6_inb (n % 6) (Nat.mod_lt _ (by decide))
abbrev cList (n : ℕ) : Fin 1 → ℕ := ![n / 32 % 2 * 1024 + n % 32 * 32]
theorem cList_inb (n : ℕ) : ∀ a, cList n a + S32.size a ≤ S2048.size a := list_inb _ (by omega)
abbrev cTab (n : ℕ) : Fin 2 → ℕ := ![1000 * (n / 32), 0]
theorem cTab_inb (n : ℕ) (h : n < 416) : ∀ a, cTab n a + S1000x128.size a ≤ S13000x128.size a := tab_inb _ (by omega)
abbrev cOut (L : grid0.Coords) (n : ℕ) : Fin 2 → ℕ := ![1024 * (L 1).val + 32 * (n % 32), 128 * (13 * (L 0).val + n / 32)]
theorem cOut_inb (L : grid0.Coords) (n : ℕ) (h : n < 416) : ∀ a, cOut L n a + S32x128.size a ≤ S16384x3328.size a := by
  have h0 : (L 0).val < 2 := (L 0).isLt
  have h1 : (L 1).val < 16 := (L 1).isLt
  exact out_inb _ _ (by omega) (by omega)
/-- The half of the index scratch that field `f`'s column is fetched into, and that column in the flattened columns. -/
abbrev cHalf (f : ℕ) : Fin 1 → ℕ := ![f % 2 * 1024]
theorem cHalf_inb (f : ℕ) : ∀ a, cHalf f a + S1024.size a ≤ S2048.size a := half_inb _ (by omega)
abbrev cIsem (f : ℕ) : Fin 1 → ℕ := ![f % 2]
theorem cIsem_inb (f : ℕ) : ∀ a, cIsem f a + S1.size a ≤ S2.size a := sem2_inb _ (Nat.mod_lt _ (by decide))
abbrev cCol (L : grid0.Coords) (f : ℕ) : Fin 1 → ℕ := ![212992 * (L 0).val + 16384 * f + 1024 * (L 1).val]
theorem cCol_inb (L : grid0.Coords) (f : ℕ) (h : f < 13) : ∀ a, cCol L f a + S1024.size a ≤ S425984.size a := by
  have h0 : (L 0).val < 2 := (L 0).isLt
  have h1 : (L 1).val < 16 := (L 1).isLt
  intro a; fin_cases a; simp; omega

/-! ## What a piece must hold -/

variable {d : Dev nD}

theorem resRow_lt (L : grid0.Coords) (n : ℕ) (y : S32x128.Idx) : 1024 * (L 1).val + 32 * (n % 32) + (y 0).val < 16384 := by
  have h1 : (L 1).val < 16 := (L 1).isLt
  have hy : (y 0).val < 32 := (y 0).isLt
  omega
theorem resCol_lt (L : grid0.Coords) (n : ℕ) (h : n < 416) (y : S32x128.Idx) : 128 * (13 * (L 0).val + n / 32) + (y 1).val < 3328 := by
  have h0 : (L 0).val < 2 := (L 0).isLt
  have hy : (y 1).val < 128 := (y 1).isLt
  omega
/-- The result's entry that entry `y` of chunk `n`'s block is. -/
def resAt (X : Buf (Elt F) (ixLoc d)) (Tb : Buf (Elt F) (tbLoc d)) (L : grid0.Coords) (n : ℕ) (h : n < 416) (y : S32x128.Idx) : Elt F .f32 :=
  Cert.LookupKB.gathered X Tb (ix2 (n0 := 16384) (n1 := 3328) ⟨1024 * (L 1).val + 32 * (n % 32) + (y 0).val, resRow_lt L n y⟩ ⟨128 * (13 * (L 0).val + n / 32) + (y 1).val, resCol_lt L n h y⟩)

/-- Ring slot `n % 6` holds chunk `n`'s rows. -/
def SlotOK (X : Buf (Elt F) (ixLoc d)) (Tb : Buf (Elt F) (tbLoc d)) (L : grid0.Coords) (n : ℕ) (h : n < 416)
    (g : Buf (Elt F) ((V d (cV L) (jV L)).loc cc0_scratch2)) : Prop :=
  ∀ y : S32x128.Idx, (slotO (cSlot n) (cSlot_inb n)).view.read (Elt F) g y = resAt X Tb L n h y

/-- Chunk `n`'s block of the result holds the result's entries. -/
def OutOK (X : Buf (Elt F) (ixLoc d)) (Tb : Buf (Elt F) (tbLoc d)) (L : grid0.Coords) (n : ℕ) (h : n < 416)
    (fo : Buf (Elt F) (outLoc d)) : Prop :=
  ∀ y : S32x128.Idx, (outO (cOut L n) (cOut_inb L n h)).view.read (Elt F) fo y = resAt X Tb L n h y

theorem colWord_lt (L : grid0.Coords) (f : ℕ) (h : f < 13) (r : ℕ) (hr : r < 1024) : 16384 * (13 * (L 0).val + f) + 1024 * (L 1).val + r < 425984 := by
  have h0 : (L 0).val < 2 := (L 0).isLt
  have h1 : (L 1).val < 16 := (L 1).isLt
  omega
/-- The half of the index scratch for field `f` holds the tile's index column of field `f`. -/
def HalfOK (X : Buf (Elt F) (ixLoc d)) (L : grid0.Coords) (f : ℕ) (h : f < 13)
    (fi : Buf (Elt F) ((V d (cV L) (jV L)).loc cc0_scratch1)) : Prop :=
  ∀ y : S1024.Idx, (halfO (cHalf f) (cHalf_inb f)).view.read (Elt F) fi y = X (ix1 (n := 425984) ⟨16384 * (13 * (L 0).val + f) + 1024 * (L 1).val + (y 0).val, colWord_lt L f h _ (y 0).isLt⟩)

end Cert.Proof.KB

end
-- ==== Proof.KB.InvFlights.lean ====
import proofs.«206644_g35837207118489_cont_8to1_b_589_28_alg».proof.Proof.KB.InvDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-! ## Copies in flight, by the offsets of what they hold -/

section Flights

variable (d : Dev nD) (L : grid0.Coords)

/-- A gather in flight on the gathers' semaphore at `gs`: it will hand back the slot at `sl` holding `g`, the list at `li` holding
    `fi`, and the share `q` of the table at `tb`. -/
def GFo (gs : Fin 1 → ℕ) (hgs : ∀ a, gs a + S1.size a ≤ S6.size a) (sl : Fin 3 → ℕ) (hsl : ∀ a, sl a + S1x32x128.size a ≤ S6x32x128.size a)
    (li : Fin 1 → ℕ) (hli : ∀ a, li a + S32.size a ≤ S2048.size a) (tb : Fin 2 → ℕ) (htb : ∀ a, tb a + S1000x128.size a ≤ S13000x128.size a)
    (q : PosShare TreeShare) (g : Buf (Elt F) ((V d (cV L) (jV L)).loc cc0_scratch2)) (fi : Buf (Elt F) ((V d (cV L) (jV L)).loc cc0_scratch1))
    (Sp : Buf (Elt F) ((V d (cV L) (jV L)).loc cc0_scratch0)) : sProp 𝕄 :=
  Transfers.Flight countersEmb (V d (cV L) (jV L)) (SemLoc.dma (gsemO gs hgs).sem) (default : HIx 1) 131072
    iprop((((slotO sl hsl).view.loc (V d (cV L) (jV L)) ↦[(slotO sl hsl).view.set]{fullShare} g)
        ∗ ((listO li hli).view.loc (V d (cV L) (jV L)) ↦[(listO li hli).view.set]{fullShare} fi))
      ∗ ((tabO tb htb).view.loc (V d (cV L) (jV L)) ↦[(tabO tb htb).view.set]{q} Sp))

theorem GFo_congr {gs gs' : Fin 1 → ℕ} {hgs hgs'} {sl sl' : Fin 3 → ℕ} {hsl hsl'} {li li' : Fin 1 → ℕ} {hli hli'} {tb tb' : Fin 2 → ℕ} {htb htb'}
    (e1 : gs = gs') (e2 : sl = sl') (e3 : li = li') (e4 : tb = tb') (q : PosShare TreeShare) (g) (fi) (Sp) :
    GFo (F := F) d L gs hgs sl hsl li hli tb htb q g fi Sp = GFo d L gs' hgs' sl' hsl' li' hli' tb' htb' q g fi Sp := by
  subst e1 e2 e3 e4; rfl

/-- A copy-out in flight on the copy-outs' semaphore at `ss`: it will hand back the result block at `ou` holding `fo` and the slot at
    `sl` holding `g`. -/
def SFo (ss : Fin 1 → ℕ) (hss : ∀ a, ss a + S1.size a ≤ S6.size a) (ou : Fin 2 → ℕ) (hou : ∀ a, ou a + S32x128.size a ≤ S16384x3328.size a)
    (sl : Fin 3 → ℕ) (hsl : ∀ a, sl a + S1x32x128.size a ≤ S6x32x128.size a)
    (fo : Buf (Elt F) (outLoc d)) (g : Buf (Elt F) ((V d (cV L) (jV L)).loc cc0_scratch2)) : sProp 𝕄 :=
  Transfers.Flight countersEmb (V d (cV L) (jV L)) (SemLoc.dma (ssemO ss hss).sem) (default : HIx 1) 131072
    iprop(((outO ou hou).view.loc (V d (cV L) (jV L)) ↦[(outO ou hou).view.set]{fullShare} fo)
      ∗ ((slotO sl hsl).view.loc (V d (cV L) (jV L)) ↦[(slotO sl hsl).view.set]{fullShare} g))

theorem SFo_congr {ss ss' : Fin 1 → ℕ} {hss hss'} {ou ou' : Fin 2 → ℕ} {hou hou'} {sl sl' : Fin 3 → ℕ} {hsl hsl'}
    (e1 : ss = ss') (e2 : ou = ou') (e3 : sl = sl') (fo) (g) :
    SFo (F := F) d L ss hss ou hou sl hsl fo g = SFo d L ss' hss' ou' hou' sl' hsl' fo g := by
  subst e1 e2 e3; rfl

/-- The rest of a share of the shared scratch beside the table a gather borrowed. -/
def spRest (tb : Fin 2 → ℕ) (htb : ∀ a, tb a + S1000x128.size a ≤ S13000x128.size a) (q : PosShare TreeShare)
    (Sp : Buf (Elt F) ((V d (cV L) (jV L)).loc cc0_scratch0)) : sProp 𝕄 :=
  (spV).view.loc (V d (cV L) (jV L)) ↦[Finset.univ \ (tabO tb htb).view.set]{q} Sp

theorem spRest_congr {tb tb' : Fin 2 → ℕ} {htb htb'} (e : tb = tb') (q) (Sp) :
    spRest (F := F) d L tb htb q Sp = spRest d L tb' htb' q Sp := by subst e; rfl

/-- A semaphore of the gathers, of the copy-outs, at zero. -/
def gsem0 (gs : Fin 1 → ℕ) (hgs : ∀ a, gs a + S1.size a ≤ S6.size a) : sProp 𝕄 := semVal ((V d (cV L) (jV L)), SemLoc.dma (gsemO gs hgs).sem) 0
def ssem0 (ss : Fin 1 → ℕ) (hss : ∀ a, ss a + S1.size a ≤ S6.size a) : sProp 𝕄 := semVal ((V d (cV L) (jV L)), SemLoc.dma (ssemO ss hss).sem) 0
theorem gsem0_congr {gs gs' : Fin 1 → ℕ} {hgs hgs'} (e : gs = gs') : gsem0 (F := F) d L gs hgs = gsem0 d L gs' hgs' := by subst e; rfl
theorem ssem0_congr {ss ss' : Fin 1 → ℕ} {hss hss'} (e : ss = ss') : ssem0 (F := F) d L ss hss = ssem0 d L ss' hss' := by subst e; rfl

/-- A result block held at `fo`. -/
def outPts (ou : Fin 2 → ℕ) (hou : ∀ a, ou a + S32x128.size a ≤ S16384x3328.size a) (fo : Buf (Elt F) (outLoc d)) : sProp 𝕄 :=
  (outO ou hou).view.loc (V d (cV L) (jV L)) ↦[(outO ou hou).view.set]{fullShare} fo
theorem outPts_congr {ou ou' : Fin 2 → ℕ} {hou hou'} (e : ou = ou') (fo) : outPts (F := F) d L ou hou fo = outPts d L ou' hou' fo := by subst e; rfl

/-- The index scratch but three lists. -/
def ixRest3 (base : Finset (Idx ((ixsV).view.loc (V d (cV L) (jV L))))) (a : Fin 1 → ℕ) (ha : ∀ x, a x + S32.size x ≤ S2048.size x) (b : Fin 1 → ℕ) (hb : ∀ x, b x + S32.size x ≤ S2048.size x)
    (c : Fin 1 → ℕ) (hc : ∀ x, c x + S32.size x ≤ S2048.size x) (fi : Buf (Elt F) ((V d (cV L) (jV L)).loc cc0_scratch1)) : sProp 𝕄 :=
  (ixsV).view.loc (V d (cV L) (jV L)) ↦[@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set]{fullShare} fi
theorem ixRest3_congr {base} {a a' b b' c c' : Fin 1 → ℕ} {ha ha' hb hb' hc hc'} (e1 : a = a') (e2 : b = b') (e3 : c = c') (fi) :
    ixRest3 (F := F) d L base a ha b hb c hc fi = ixRest3 d L base a' ha' b' hb' c' hc' fi := by subst e1 e2 e3; rfl

end Flights

end Cert.Proof.KB

end
-- ==== Proof.KB.Inv.lean ====
import proofs.«206644_g35837207118489_cont_8to1_b_589_28_alg».proof.Proof.KB.InvFlights

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-! ## The loop's invariant

  Before trip `k` (its chunks are `2k + 6` and `2k + 7`): the gathers of chunks `2k + 3, 2k + 4, 2k + 5` are in flight, each into its slot with
  the right rows promised; the copy-outs of chunks `2k, 2k + 1, 2k + 2` are in flight, each onto its block with the right entries promised;
  the blocks of chunks below `2k` hold the result; those from `2k + 3` on are untouched.  The index scratch holds, in the half of the field
  the latest gathers belong to, that field's column, and in the other half the column of the next field (perhaps still on its way) or
  of the previous one. -/

section Inv

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

/-- The share of the shared scratch chunk `n`'s gather borrows from: the one numbered as the gathers' semaphore of the chunk's slot. -/
abbrev qs (n : ℕ) : PosShare TreeShare := Transfers.shareTokN (shq (jV L)) (2 + n % 6)
/-- The shared scratch's contents: the SparseCore's thirteen tables. -/
abbrev SpC : Buf (Elt F) ((V d (cV L) (jV L)).loc cc0_scratch0) := spVal Tb (cV L)

/-- Chunk `n`'s gather in flight, its slot promised right, beside the rest of the share it borrowed from. -/
def GatC (n : ℕ) (h : n < 416) (fi : Buf (Elt F) ((V d (cV L) (jV L)).loc cc0_scratch1)) : sProp 𝕄 :=
  iprop(∃ g, ⌜SlotOK X Tb L n h g⌝
    ∗ GFo d L (cSem n) (cSem_inb n) (cSlot n) (cSlot_inb n) (cList n) (cList_inb n) (cTab n) (cTab_inb n h) (qs L n) g fi (SpC d L Tb)
    ∗ spRest d L (cTab n) (cTab_inb n h) (qs L n) (SpC d L Tb))

/-- Chunk `n`'s copy-out in flight, its block promised right. -/
def ScaC (n : ℕ) (h : n < 416) : sProp 𝕄 :=
  iprop(∃ g fo, ⌜OutOK X Tb L n h fo⌝ ∗ SFo d L (cSem n) (cSem_inb n) (cOut L n) (cOut_inb L n h) (cSlot n) (cSlot_inb n) fo g)

theorem GatC_congr {n n' : ℕ} {h h'} (e : n = n') (fi) : GatC (F := F) d L X Tb n h fi = GatC d L X Tb n' h' fi := by subst e; rfl
theorem ScaC_congr {n n' : ℕ} {h h'} (e : n = n') : ScaC (F := F) d L X Tb n h = ScaC d L X Tb n' h' := by subst e; rfl

/-- An idle share of the shared scratch. -/
def idleSh (n : ℕ) : sProp 𝕄 := (spV).view.loc (V d (cV L) (jV L)) ↦{qs L n} SpC d L Tb

/-- The blocks of chunks from `m` on, untouched; those below `m`, holding the result. -/
def OutRest (m : ℕ) : sProp 𝕄 :=
  bigSep ((Finset.range 416).filter fun n => m ≤ n) fun n => if h : n < 416 then outPts d L (cOut L n) (cOut_inb L n h) f0 else iprop(emp)
def OutDone (m : ℕ) : sProp 𝕄 :=
  bigSep (Finset.range m) fun n => if h : n < 416 then outPts d L (cOut L n) (cOut_inb L n h) (Cert.LookupKB.gathered X Tb) else iprop(emp)

/-- The field of the latest gathers, and the field whose column the other half holds (or will, once its fetch lands). -/
abbrev curF (k : ℕ) : ℕ := (2 * k + 5) / 32
abbrev othF (k : ℕ) : ℕ := if (2 * k + 6) % 32 = 2 then curF k - 1 else if curF k + 1 < 13 then curF k + 1 else curF k - 1
/-- Whether a column's fetch is on its way before trip `k`. -/
abbrev pending (k : ℕ) : Prop := ¬ ((2 * k + 6) % 32 = 2) ∧ curF k + 1 < 13

theorem curF_lt (k : ℕ) (hk : k ≤ 205) : curF k < 13 := by unfold curF; omega
theorem othF_lt (k : ℕ) (hk : k ≤ 205) : othF k < 13 := by unfold othF curF; split <;> [omega; (split <;> omega)]

/-- The index scratch and the fetches while the column of field `cf + 1` is on its way: the scratch but that column's half and
    three lists; the other fetch semaphore at zero; the fetch in flight; the flattened columns but that column. -/
def IxPend (cf : ℕ) (h : cf + 1 < 13) (a b c : ℕ) (fi : Buf (Elt F) ((V d (cV L) (jV L)).loc cc0_scratch1)) : sProp 𝕄 :=
  iprop(ixRest3 d L (@SDiff.sdiff (Finset (Idx ((ixsV).view.loc (V d (cV L) (jV L))))) _ Finset.univ (halfO (cHalf (cf + 1)) (cHalf_inb (cf + 1))).view.set) (cList a) (cList_inb a) (cList b) (cList_inb b) (cList c) (cList_inb c) fi
    ∗ semVal ((V d (cV L) (jV L)), SemLoc.dma (isemO (cIsem cf) (cIsem_inb cf)).sem) 0
    ∗ Transfers.Flight countersEmb (V d (cV L) (jV L)) (SemLoc.dma (isemO (cIsem (cf + 1)) (cIsem_inb (cf + 1))).sem) (default : HIx 1) 32768
        iprop(((ixsV).view.loc (V d (cV L) (jV L)) ↦[(halfO (cHalf (cf + 1)) (cHalf_inb (cf + 1))).view.set]{fullShare} fi)
          ∗ ((xfV).view.loc (V d (cV L) (jV L)) ↦[(colO (cCol L (cf + 1)) (cCol_inb L (cf + 1) h)).view.set]{shareOf L} X))
    ∗ ((xfV).view.loc (V d (cV L) (jV L)) ↦[Finset.univ \ (colO (cCol L (cf + 1)) (cCol_inb L (cf + 1) h)).view.set]{shareOf L} X))

theorem IxPend_congr {cf cf' : ℕ} {h h'} {a a' b b' c c' : ℕ} (e0 : cf = cf') (e1 : a = a') (e2 : b = b') (e3 : c = c') (fi) :
    IxPend (F := F) d L X cf h a b c fi = IxPend d L X cf' h' a' b' c' fi := by subst e0 e1 e2 e3; rfl

/-- The index scratch and the fetches while no column is on its way: the scratch but three lists; both fetch semaphores at zero;
    the flattened columns' share whole. -/
def IxNone (a b c : ℕ) (fi : Buf (Elt F) ((V d (cV L) (jV L)).loc cc0_scratch1)) : sProp 𝕄 :=
  iprop(ixRest3 d L Finset.univ (cList a) (cList_inb a) (cList b) (cList_inb b) (cList c) (cList_inb c) fi
    ∗ semVal ((V d (cV L) (jV L)), SemLoc.dma (isemO ![0] inb_S2_S1_0).sem) 0
    ∗ semVal ((V d (cV L) (jV L)), SemLoc.dma (isemO ![1] inb_S2_S1_1).sem) 0
    ∗ ((xfV).view.loc (V d (cV L) (jV L)) ↦{shareOf L} X))

theorem IxNone_congr {a a' b b' c c' : ℕ} (e1 : a = a') (e2 : b = b') (e3 : c = c') (fi) :
    IxNone (F := F) d L X a b c fi = IxNone d L X a' b' c' fi := by subst e1 e2 e3; rfl

/-- The index scratch and the fetches' state before trip `k`. -/
def IxPart (k : ℕ) (fi : Buf (Elt F) ((V d (cV L) (jV L)).loc cc0_scratch1)) : sProp 𝕄 :=
  if h : pending k then IxPend d L X (curF k) h.2 (2 * k + 3) (2 * k + 4) (2 * k + 5) fi else IxNone d L X (2 * k + 3) (2 * k + 4) (2 * k + 5) fi

/-- The invariant before trip `k ≤ 205`. -/
def InvAt (k : ℕ) (hk : k ≤ 205) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ (∃ fi, ⌜HalfOK X L (curF k) (curF_lt k hk) fi ∧ HalfOK X L (othF k) (othF_lt k hk) fi⌝
        ∗ GatC d L X Tb (2 * k + 3) (by omega) fi ∗ GatC d L X Tb (2 * k + 4) (by omega) fi ∗ GatC d L X Tb (2 * k + 5) (by omega) fi
        ∗ IxPart d L X k fi)
    ∗ idleSh d L Tb (2 * k + 6) ∗ idleSh d L Tb (2 * k + 7) ∗ idleSh d L Tb (2 * k + 8)
    ∗ ((spV).view.loc (V d (cV L) (jV L)) ↦{Transfers.shareDrop (shq (jV L)) 8} SpC d L Tb)
    ∗ ScaC d L X Tb (2 * k + 0) (by omega) ∗ ScaC d L X Tb (2 * k + 1) (by omega) ∗ ScaC d L X Tb (2 * k + 2) (by omega)
    ∗ gsem0 d L (cSem (2 * k + 6)) (cSem_inb (2 * k + 6)) ∗ gsem0 d L (cSem (2 * k + 7)) (cSem_inb (2 * k + 7)) ∗ gsem0 d L (cSem (2 * k + 8)) (cSem_inb (2 * k + 8))
    ∗ ssem0 d L (cSem (2 * k + 3)) (cSem_inb (2 * k + 3)) ∗ ssem0 d L (cSem (2 * k + 4)) (cSem_inb (2 * k + 4)) ∗ ssem0 d L (cSem (2 * k + 5)) (cSem_inb (2 * k + 5))
    ∗ OutRest d L f0 (2 * k + 3) ∗ OutDone d L X Tb (2 * k)
    ∗ ((tbV).view.loc (V d (cV L) (jV L)) ↦{shareOf L} Tb)
    ∗ semVal ((V d (cV L) (jV L)), SemLoc.dma cc0_scoped0.sem) 0
    ∗ restBufs d L)

/-- The invariant, for the loop rule: trips beyond the last never occur. -/
def Inv (k : ℕ) (_ : BitVec 32) : sProp 𝕄 := if hk : k ≤ 205 then InvAt d L X Tb f0 O W k hk else iprop(False)

end Inv

end Cert.Proof.KB

end
-- ==== Proof.KB.RegionDef.lean ====
import proofs.«206644_g35837207118489_cont_8to1_b_589_28_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-- The loop's region: one trip takes the invariant before it to the invariant after it. -/
def Region : Prop :=
  ∀ (d : Dev nD) (L : grid0.Coords) (X : Buf (Elt F) (ixLoc d)) (_hX : ∀ j, (X j).toNat < 1000) (Tb : Buf (Elt F) (tbLoc d))
    (f0 : Buf (Elt F) (outLoc d)) (O : CellTallies nD τ sig (HIx 1)) (W : Waits sig (HIx 1)) (_hO : ∀ g, O g none = 0)
    (k : Fin k0_t1_loop.trips) (acc : BitVec 32),
    Inv d L X Tb f0 O W k.val acc
      ⊢ wp frame (wpE (defs₀ (F := F)) 𝒱₀ (V d (cV L) (jV L)) none) Set.univ
          (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (Inv d L X Tb f0 O W (k.val + 1))

end Cert.Proof.KB

end
-- ==== Proof.KB.InvGlue.lean ====
import proofs.«206644_g35837207118489_cont_8to1_b_589_28_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-! ## Taking the next untouched block, adding a finished one -/

section Glue

variable (d : Dev nD) (L : grid0.Coords) (X : Buf (Elt F) (ixLoc d)) (Tb : Buf (Elt F) (tbLoc d)) (f0 : Buf (Elt F) (outLoc d))

/-- The untouched blocks from `m` on are block `m` and those from `m + 1` on. -/
theorem outRest_pop (m : ℕ) (hm : m < 416) :
    OutRest (F := F) d L f0 m = iprop(outPts d L (cOut L m) (cOut_inb L m hm) f0 ∗ OutRest d L f0 (m + 1)) := by
  unfold OutRest
  have hs : ((Finset.range 416).filter fun n => m ≤ n) = insert m ((Finset.range 416).filter fun n => m + 1 ≤ n) := by
    ext n; simp only [Finset.mem_filter, Finset.mem_range, Finset.mem_insert]; omega
  rw [hs, bigSep_insert (by simp), dif_pos hm]; rfl

/-- The finished blocks below `m + 1` are block `m` and those below `m`. -/
theorem outDone_push (m : ℕ) (hm : m < 416) :
    OutDone (F := F) d L X Tb (m + 1) = iprop(outPts d L (cOut L m) (cOut_inb L m hm) (Cert.LookupKB.gathered X Tb) ∗ OutDone d L X Tb m) := by
  unfold OutDone
  rw [Finset.range_add_one, bigSep_insert (by simp), dif_pos hm]; rfl

end Glue

end Cert.Proof.KB

end
-- ==== Proof.KB.BodyDisj.lean ====
/-
  Which pieces of the index scratch the copies in flight during one trip of the loop use, and that they do not overlap.

  The index scratch has two halves of 1024 words; field `f`'s column lives in half `f % 2`, and chunk `n` (field `n / 32`, block
  `n % 32`) reads the 32 words from `(n / 32 % 2) * 1024 + (n % 32) * 32`: word-block `n % 64` of the scratch's sixty-four.  Two
  different chunks less than 64 apart therefore read different blocks.  During trip `k` the gathers of chunks `2k + 3 … 2k + 7`
  hold their lists.  On a trip that fetches the next field's column (chunk `2k + 6` is block 2 of field `fl`) the fetch goes into
  half `(fl + 1) % 2`: chunks `2k + 4 … 2k + 7` (blocks 0 to 3 of field `fl`) read the other half, and chunk `2k + 3` (block 31
  of field `fl - 1`) read this one — its words lie inside the half fetched into.
-/
import proofs.«206644_g35837207118489_cont_8to1_b_589_28_alg».proof.Proof.KB.InvDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD}

/-! ## The element sets of a list and of a half -/

theorem listO_set (off : Fin 1 → ℕ) (h : ∀ a, off a + S32.size a ≤ S2048.size a) :
    (listO off h).view.set = (Rect.unit (s := S2048) off S32.size h).set := by
  show ((View.whole (cc0_scratch1 : Ref sig .scVector)).slice (Rect.unit (s := S2048) off S32.size h)).set = _
  rw [View.set_slice]; exact Finset.map_refl

theorem halfO_set (off : Fin 1 → ℕ) (h : ∀ a, off a + S1024.size a ≤ S2048.size a) :
    (halfO off h).view.set = (Rect.unit (s := S2048) off S1024.size h).set := by
  show ((View.whole (cc0_scratch1 : Ref sig .scVector)).slice (Rect.unit (s := S2048) off S1024.size h)).set = _
  rw [View.set_slice]; exact Finset.map_refl

/-- Two lists whose word ranges are apart share no word. -/
theorem listO_disjoint {o o' : Fin 1 → ℕ} {h : ∀ a, o a + S32.size a ≤ S2048.size a} {h' : ∀ a, o' a + S32.size a ≤ S2048.size a}
    (hsep : o 0 + 32 ≤ o' 0 ∨ o' 0 + 32 ≤ o 0) : Disjoint (listO o h).view.set (listO o' h').view.set := by
  rw [listO_set, listO_set]; exact Rect.unit_disjoint 0 hsep

/-- A half and a list whose word ranges are apart share no word. -/
theorem halfO_listO_disjoint {o o' : Fin 1 → ℕ} {h : ∀ a, o a + S1024.size a ≤ S2048.size a} {h' : ∀ a, o' a + S32.size a ≤ S2048.size a}
    (hsep : o 0 + 1024 ≤ o' 0 ∨ o' 0 + 32 ≤ o 0) : Disjoint (halfO o h).view.set (listO o' h').view.set := by
  rw [halfO_set, listO_set]; exact Rect.unit_disjoint 0 hsep

/-- A list whose word range lies inside a half's is part of the half. -/
theorem listO_subset_halfO {o o' : Fin 1 → ℕ} {h : ∀ a, o a + S32.size a ≤ S2048.size a} {h' : ∀ a, o' a + S1024.size a ≤ S2048.size a}
    (hsub : o' 0 ≤ o 0 ∧ o 0 + 32 ≤ o' 0 + 1024) : (listO o h).view.set ⊆ (halfO o' h').view.set := by
  rw [listO_set, halfO_set]
  intro i hi
  rw [Rect.mem_set_unit] at hi ⊢
  have h0 : o 0 ≤ (i 0).val ∧ (i 0).val < o 0 + 32 := hi 0
  exact Fin.forall_fin_one.mpr (show o' 0 ≤ (i 0).val ∧ (i 0).val < o' 0 + 1024 by omega)

theorem trip_lt (k : Fin k0_t1_loop.trips) : k.val < 205 := Nat.lt_of_lt_of_le k.isLt k0_t1_abs.2.1

/-! ## The lists of one trip, in the program's spelling -/

theorem list17_0_list6_0 (k : Fin k0_t1_loop.trips) :
    Disjoint (listO (k0_off17 k 0#32) (k0_off17_inb k 0)).view.set (listO (k0_off6 k 0#32) (k0_off6_inb k 0)).view.set := by
  have hk := trip_lt k
  refine listO_disjoint ?_
  rw [k0_off17_eq_0 k, k0_off6_eq_0 k]
  simp only [Matrix.cons_val_zero]
  omega
theorem list17_0_list6_1 (k : Fin k0_t1_loop.trips) :
    Disjoint (listO (k0_off17 k 0#32) (k0_off17_inb k 0)).view.set (listO (k0_off6 k 1#32) (k0_off6_inb k 1)).view.set := by
  have hk := trip_lt k
  refine listO_disjoint ?_
  rw [k0_off17_eq_0 k, k0_off6_eq_1 k]
  simp only [Matrix.cons_val_zero]
  omega
theorem list17_1_list6_0 (k : Fin k0_t1_loop.trips) :
    Disjoint (listO (k0_off17 k 1#32) (k0_off17_inb k 1)).view.set (listO (k0_off6 k 0#32) (k0_off6_inb k 0)).view.set := by
  have hk := trip_lt k
  refine listO_disjoint ?_
  rw [k0_off17_eq_1 k, k0_off6_eq_0 k]
  simp only [Matrix.cons_val_zero]
  omega
theorem list17_1_list6_1 (k : Fin k0_t1_loop.trips) :
    Disjoint (listO (k0_off17 k 1#32) (k0_off17_inb k 1)).view.set (listO (k0_off6 k 1#32) (k0_off6_inb k 1)).view.set := by
  have hk := trip_lt k
  refine listO_disjoint ?_
  rw [k0_off17_eq_1 k, k0_off6_eq_1 k]
  simp only [Matrix.cons_val_zero]
  omega
theorem list17_1_list17_0 (k : Fin k0_t1_loop.trips) :
    Disjoint (listO (k0_off17 k 1#32) (k0_off17_inb k 1)).view.set (listO (k0_off17 k 0#32) (k0_off17_inb k 0)).view.set := by
  have hk := trip_lt k
  refine listO_disjoint ?_
  rw [k0_off17_eq_1 k, k0_off17_eq_0 k]
  simp only [Matrix.cons_val_zero]
  omega
theorem list17_0_list5 (k : Fin k0_t1_loop.trips) :
    Disjoint (listO (k0_off17 k 0#32) (k0_off17_inb k 0)).view.set (listO (cList (2 * k.val + 5)) (cList_inb (2 * k.val + 5))).view.set := by
  have hk := trip_lt k
  refine listO_disjoint ?_
  rw [k0_off17_eq_0 k]
  simp only [Matrix.cons_val_zero]
  omega
theorem list17_1_list5 (k : Fin k0_t1_loop.trips) :
    Disjoint (listO (k0_off17 k 1#32) (k0_off17_inb k 1)).view.set (listO (cList (2 * k.val + 5)) (cList_inb (2 * k.val + 5))).view.set := by
  have hk := trip_lt k
  refine listO_disjoint ?_
  rw [k0_off17_eq_1 k]
  simp only [Matrix.cons_val_zero]
  omega
theorem list6_0_list6_1 (k : Fin k0_t1_loop.trips) :
    Disjoint (listO (k0_off6 k 0#32) (k0_off6_inb k 0)).view.set (listO (k0_off6 k 1#32) (k0_off6_inb k 1)).view.set := by
  have hk := trip_lt k
  refine listO_disjoint ?_
  rw [k0_off6_eq_0 k, k0_off6_eq_1 k]
  simp only [Matrix.cons_val_zero]
  omega
theorem list6_0_list5 (k : Fin k0_t1_loop.trips) :
    Disjoint (listO (k0_off6 k 0#32) (k0_off6_inb k 0)).view.set (listO (cList (2 * k.val + 5)) (cList_inb (2 * k.val + 5))).view.set := by
  have hk := trip_lt k
  refine listO_disjoint ?_
  rw [k0_off6_eq_0 k]
  simp only [Matrix.cons_val_zero]
  omega
theorem list6_1_list5 (k : Fin k0_t1_loop.trips) :
    Disjoint (listO (k0_off6 k 1#32) (k0_off6_inb k 1)).view.set (listO (cList (2 * k.val + 5)) (cList_inb (2 * k.val + 5))).view.set := by
  have hk := trip_lt k
  refine listO_disjoint ?_
  rw [k0_off6_eq_1 k]
  simp only [Matrix.cons_val_zero]
  omega

/-! ## The half the next field's column is fetched into -/

theorem half10_list6_1 (k : Fin k0_t1_loop.trips) (h2 : k0_cond2 k = 1#1) :
    Disjoint (halfO (k0_off10 k) (k0_off10_inb k h2)).view.set (listO (k0_off6 k 1#32) (k0_off6_inb k 1)).view.set := by
  have hk := trip_lt k
  have hc := (k0_cond2_eq k).mp h2
  refine halfO_listO_disjoint ?_
  rw [k0_off10_eq k, k0_off6_eq_1 k]
  simp only [Matrix.cons_val_zero]
  omega
theorem half10_list5 (k : Fin k0_t1_loop.trips) (h2 : k0_cond2 k = 1#1) :
    Disjoint (halfO (k0_off10 k) (k0_off10_inb k h2)).view.set (listO (cList (2 * k.val + 5)) (cList_inb (2 * k.val + 5))).view.set := by
  have hk := trip_lt k
  have hc := (k0_cond2_eq k).mp h2
  refine halfO_listO_disjoint ?_
  rw [k0_off10_eq k]
  simp only [Matrix.cons_val_zero]
  omega
theorem half10_list17_0 (k : Fin k0_t1_loop.trips) (h2 : k0_cond2 k = 1#1) :
    Disjoint (halfO (k0_off10 k) (k0_off10_inb k h2)).view.set (listO (k0_off17 k 0#32) (k0_off17_inb k 0)).view.set := by
  have hk := trip_lt k
  have hc := (k0_cond2_eq k).mp h2
  refine halfO_listO_disjoint ?_
  rw [k0_off10_eq k, k0_off17_eq_0 k]
  simp only [Matrix.cons_val_zero]
  omega
theorem half10_list17_1 (k : Fin k0_t1_loop.trips) (h2 : k0_cond2 k = 1#1) :
    Disjoint (halfO (k0_off10 k) (k0_off10_inb k h2)).view.set (listO (k0_off17 k 1#32) (k0_off17_inb k 1)).view.set := by
  have hk := trip_lt k
  have hc := (k0_cond2_eq k).mp h2
  refine halfO_listO_disjoint ?_
  rw [k0_off10_eq k, k0_off17_eq_1 k]
  simp only [Matrix.cons_val_zero]
  omega
/-- Chunk `2k + 3` is the last block of the field before: its words are the last 32 of the half fetched into. -/
theorem list6_0_subset_half10 (k : Fin k0_t1_loop.trips) (h2 : k0_cond2 k = 1#1) :
    (listO (k0_off6 k 0#32) (k0_off6_inb k 0)).view.set ⊆ (halfO (k0_off10 k) (k0_off10_inb k h2)).view.set := by
  have hk := trip_lt k
  have hc := (k0_cond2_eq k).mp h2
  refine listO_subset_halfO ?_
  rw [k0_off10_eq k, k0_off6_eq_0 k]
  simp only [Matrix.cons_val_zero]
  omega

end Cert.Proof.KB
end
-- ==== Proof.KB.InvIx.lean ====
/-
  The index scratch's bookkeeping at the end of a trip of the loop.

  During a trip five lists of the index scratch are out with gathers; at its end the two oldest have come back, and what is
  held of the scratch — everything but the five lists — and the two returned lists are, together, everything but the three
  lists still out.  The sets are disjoint word ranges: chunk `n` reads word-block `n % 64` of the scratch's sixty-four, and
  on a trip in the middle of a field (chunk `2k + 6` neither block 0 nor block 2 of its field) the five chunks `2k + 3 …
  2k + 7` all belong to the field whose half is NOT the one a pending column fetch is filling.
-/
import proofs.«206644_g35837207118489_cont_8to1_b_589_28_alg».proof.Proof.KB.Inv
import proofs.«206644_g35837207118489_cont_8to1_b_589_28_alg».proof.Proof.KB.BodyDisj

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

variable (d : Dev nD) (L : grid0.Coords)

/-! ## Rejoining two returned lists -/

/-- The scratch but five lists, with two of the lists, is the scratch but the other three. -/
theorem ix_rejoin (base : Finset (Idx ((ixsV).view.loc (V d (cV L) (jV L)))))
    (a b c n0 n1 : Fin 1 → ℕ) (ha : ∀ x, a x + S32.size x ≤ S2048.size x) (hb : ∀ x, b x + S32.size x ≤ S2048.size x)
    (hc : ∀ x, c x + S32.size x ≤ S2048.size x) (hn0 : ∀ x, n0 x + S32.size x ≤ S2048.size x) (hn1 : ∀ x, n1 x + S32.size x ≤ S2048.size x)
    (fi : Buf (Elt F) ((V d (cV L) (jV L)).loc cc0_scratch1))
    (hAb : ((listO a ha).view.set : Finset (Idx ((ixsV).view.loc (V d (cV L) (jV L))))) ⊆ base) (hBb : ((listO b hb).view.set : Finset (Idx ((ixsV).view.loc (V d (cV L) (jV L))))) ⊆ base)
    (hAB : Disjoint ((listO a ha).view.set : Finset (Idx ((ixsV).view.loc (V d (cV L) (jV L))))) (listO b hb).view.set)
    (hAC : Disjoint ((listO a ha).view.set : Finset (Idx ((ixsV).view.loc (V d (cV L) (jV L))))) (listO c hc).view.set)
    (hA0 : Disjoint ((listO a ha).view.set : Finset (Idx ((ixsV).view.loc (V d (cV L) (jV L))))) (listO n0 hn0).view.set)
    (hA1 : Disjoint ((listO a ha).view.set : Finset (Idx ((ixsV).view.loc (V d (cV L) (jV L))))) (listO n1 hn1).view.set)
    (hBC : Disjoint ((listO b hb).view.set : Finset (Idx ((ixsV).view.loc (V d (cV L) (jV L))))) (listO c hc).view.set)
    (hB0 : Disjoint ((listO b hb).view.set : Finset (Idx ((ixsV).view.loc (V d (cV L) (jV L))))) (listO n0 hn0).view.set)
    (hB1 : Disjoint ((listO b hb).view.set : Finset (Idx ((ixsV).view.loc (V d (cV L) (jV L))))) (listO n1 hn1).view.set) :
    iprop(((ixsV).view.loc (V d (cV L) (jV L)) ↦[@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set) (listO n0 hn0).view.set) (listO n1 hn1).view.set]{fullShare} fi)
        ∗ ((listO a ha).view.loc (V d (cV L) (jV L)) ↦[(listO a ha).view.set]{fullShare} fi)
        ∗ ((listO b hb).view.loc (V d (cV L) (jV L)) ↦[(listO b hb).view.set]{fullShare} fi))
      ⊢ ixRest3 d L base c hc n0 hn0 n1 hn1 fi := by
  unfold ixRest3
  have hA_T : ((listO a ha).view.set : Finset (Idx ((ixsV).view.loc (V d (cV L) (jV L)))))
      ⊆ @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO c hc).view.set) (listO n0 hn0).view.set) (listO n1 hn1).view.set := by
    intro x hx
    simp only [Finset.mem_sdiff]
    exact ⟨⟨⟨hAb hx, Finset.disjoint_left.mp hAC hx⟩, Finset.disjoint_left.mp hA0 hx⟩, Finset.disjoint_left.mp hA1 hx⟩
  have hB_TA : ((listO b hb).view.set : Finset (Idx ((ixsV).view.loc (V d (cV L) (jV L)))))
      ⊆ @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO c hc).view.set) (listO n0 hn0).view.set) (listO n1 hn1).view.set) (listO a ha).view.set := by
    intro x hx
    simp only [Finset.mem_sdiff]
    exact ⟨⟨⟨⟨hBb hx, Finset.disjoint_left.mp hBC hx⟩, Finset.disjoint_left.mp hB0 hx⟩, Finset.disjoint_left.mp hB1 hx⟩, Finset.disjoint_right.mp hAB hx⟩
  have hS : @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO c hc).view.set) (listO n0 hn0).view.set) (listO n1 hn1).view.set) (listO a ha).view.set) (listO b hb).view.set
      = @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set) (listO n0 hn0).view.set) (listO n1 hn1).view.set := by
    ext x
    simp only [Finset.mem_sdiff]
    tauto
  iintro ⟨Hi, Ha, Hb⟩
  iapply (pointsTo_split_subset hA_T).2
  isplitl [Ha]; · iexact Ha
  iapply (pointsTo_split_subset hB_TA).2
  isplitl [Hb]; · iexact Hb
  rw [hS]; iexact Hi

omit [FloatOps F] in
/-- A list that misses a half lies in the scratch but that half. -/
theorem listO_subset_but_half {o : Fin 1 → ℕ} {h : ∀ a, o a + S32.size a ≤ S2048.size a} {o' : Fin 1 → ℕ} {h' : ∀ a, o' a + S1024.size a ≤ S2048.size a}
    (hd : Disjoint (halfO o' h').view.set (listO o h).view.set) :
    ((listO o h).view.set : Finset (Idx ((ixsV).view.loc (V d (cV L) (jV L))))) ⊆ @SDiff.sdiff (Finset (Idx ((ixsV).view.loc (V d (cV L) (jV L))))) _ Finset.univ (halfO o' h').view.set := by
  intro x hx
  rw [Finset.mem_sdiff]
  exact ⟨Finset.mem_univ x, fun hx' => Finset.disjoint_left.mp hd hx' hx⟩

/-! ## A pending column fetch's half against the five lists of a trip in the middle of a field -/

omit [FloatOps F] in
theorem pend_list6_0 (k : Fin k0_t1_loop.trips) (hp : pending k.val) (h0 : (2 * k.val + 6) % 32 ≠ 0) :
    Disjoint (halfO (cHalf (curF k.val + 1)) (cHalf_inb (curF k.val + 1))).view.set (listO (k0_off6 k 0#32) (k0_off6_inb k 0)).view.set := by
  have hk := trip_lt k
  have h2 := hp.1
  refine halfO_listO_disjoint ?_
  rw [k0_off6_eq_0 k]
  simp only [Matrix.cons_val_zero]
  unfold curF
  omega
omit [FloatOps F] in
theorem pend_list6_1 (k : Fin k0_t1_loop.trips) (hp : pending k.val) (h0 : (2 * k.val + 6) % 32 ≠ 0) :
    Disjoint (halfO (cHalf (curF k.val + 1)) (cHalf_inb (curF k.val + 1))).view.set (listO (k0_off6 k 1#32) (k0_off6_inb k 1)).view.set := by
  have hk := trip_lt k
  have h2 := hp.1
  refine halfO_listO_disjoint ?_
  rw [k0_off6_eq_1 k]
  simp only [Matrix.cons_val_zero]
  unfold curF
  omega
omit [FloatOps F] in
theorem pend_list5 (k : Fin k0_t1_loop.trips) (hp : pending k.val) (h0 : (2 * k.val + 6) % 32 ≠ 0) :
    Disjoint (halfO (cHalf (curF k.val + 1)) (cHalf_inb (curF k.val + 1))).view.set (listO (cList (2 * k.val + 5)) (cList_inb (2 * k.val + 5))).view.set := by
  have hk := trip_lt k
  have h2 := hp.1
  refine halfO_listO_disjoint ?_
  skip
  simp only [Matrix.cons_val_zero]
  unfold curF
  omega
omit [FloatOps F] in
theorem pend_list17_0 (k : Fin k0_t1_loop.trips) (hp : pending k.val) (h0 : (2 * k.val + 6) % 32 ≠ 0) :
    Disjoint (halfO (cHalf (curF k.val + 1)) (cHalf_inb (curF k.val + 1))).view.set (listO (k0_off17 k 0#32) (k0_off17_inb k 0)).view.set := by
  have hk := trip_lt k
  have h2 := hp.1
  refine halfO_listO_disjoint ?_
  rw [k0_off17_eq_0 k]
  simp only [Matrix.cons_val_zero]
  unfold curF
  omega
omit [FloatOps F] in
theorem pend_list17_1 (k : Fin k0_t1_loop.trips) (hp : pending k.val) (h0 : (2 * k.val + 6) % 32 ≠ 0) :
    Disjoint (halfO (cHalf (curF k.val + 1)) (cHalf_inb (curF k.val + 1))).view.set (listO (k0_off17 k 1#32) (k0_off17_inb k 1)).view.set := by
  have hk := trip_lt k
  have h2 := hp.1
  refine halfO_listO_disjoint ?_
  rw [k0_off17_eq_1 k]
  simp only [Matrix.cons_val_zero]
  unfold curF
  omega

end Cert.Proof.KB

end
-- ==== Proof.KB.Chunks.lean ====
/-
  The rectangle of the result one tile writes, cut into the 416 blocks it writes one at a time, and the thirty-two tiles'
  rectangles together.

  Tile `(c, s)` owns rows `[1024 s, 1024 s + 1024)` of columns `[1664 c, 1664 c + 1664)`.  It writes them as 416 blocks of
  32 rows by 128 columns: block `n` is block `n % 32` of the tile's rows (32 blocks of 32 rows) in field `n / 32` of the
  tile's thirteen fields (128 columns each).  The blocks of one tile are pairwise disjoint and fill the tile's rectangle;
  the rectangles of the thirty-two tiles are pairwise disjoint and fill the result.  Every statement is read through the
  two coordinates of an element, where it is linear arithmetic with division by the literals 32, 128, 1024 and 1664.
-/
import proofs.«206644_g35837207118489_cont_8to1_b_589_28_alg».proof.Proof.KB.Geom

namespace Cert.Proof.KB

open Cert.Kernel Cert.Kernel.Gen
open Idealize.ShloMosaic Idealize.ShloMosaic.ValueIdx

/-- An element lies in a unit-stride rectangle of the result exactly when each of its two coordinates lies in the
    rectangle's range on that axis. -/
theorem mem_unit_out {off size : Fin 2 → Nat} {inb : ∀ a, off a + size a ≤ S16384x3328.size a} {j : S16384x3328.Idx} :
    j ∈ (Rect.unit (s := S16384x3328) off size inb).set ↔
      (off 0 ≤ (j 0).val ∧ (j 0).val < off 0 + size 0) ∧ (off 1 ≤ (j 1).val ∧ (j 1).val < off 1 + size 1) := by
  rw [Rect.mem_set_unit]; exact Fin.forall_fin_two

/-- Block `n` of tile `L = (c, s)`: rows `1024 s + 32 (n % 32) …` (32 of them), columns `128 (13 c + n / 32) …` (128 of them). -/
abbrev chunkRect (L : grid0.Coords) (n : Fin 416) : Rect S16384x3328 :=
  Rect.unit (s := S16384x3328) ![1024 * (L 1).val + 32 * (n.val % 32), 128 * (13 * (L 0).val + n.val / 32)] S32x128.size
    (Rect.inb₂ (d := ![16384, 3328])
      (by have h : (L 1).val < 16 := (L 1).isLt; show 1024 * (L 1).val + 32 * (n.val % 32) + 32 ≤ 16384; omega)
      (by have h : (L 0).val < 2 := (L 0).isLt; have hn := n.isLt; show 128 * (13 * (L 0).val + n.val / 32) + 128 ≤ 3328; omega))

/-- The tile's rectangle by coordinates. -/
theorem mem_outRect {L : grid0.Coords} {j : S16384x3328.Idx} :
    j ∈ (outRect L).set ↔
      (1024 * (L 1).val ≤ (j 0).val ∧ (j 0).val < 1024 * (L 1).val + 1024) ∧
        (1664 * (L 0).val ≤ (j 1).val ∧ (j 1).val < 1664 * (L 0).val + 1664) := mem_unit_out

/-- A block by coordinates. -/
theorem mem_chunkRect {L : grid0.Coords} {n : Fin 416} {j : S16384x3328.Idx} :
    j ∈ (chunkRect L n).set ↔
      (1024 * (L 1).val + 32 * (n.val % 32) ≤ (j 0).val ∧ (j 0).val < 1024 * (L 1).val + 32 * (n.val % 32) + 32) ∧
        (128 * (13 * (L 0).val + n.val / 32) ≤ (j 1).val ∧ (j 1).val < 128 * (13 * (L 0).val + n.val / 32) + 128) := mem_unit_out

/-- The block an element of the tile's rectangle lies in: its field within the tile and its block of rows. -/
def chunkOf (L : grid0.Coords) (j : S16384x3328.Idx) (h : j ∈ (outRect L).set) : Fin 416 :=
  ⟨((j 1).val - 1664 * (L 0).val) / 128 * 32 + ((j 0).val - 1024 * (L 1).val) / 32, by
    have h' := mem_outRect.mp h; omega⟩

theorem mem_chunkRect_chunkOf (L : grid0.Coords) (j : S16384x3328.Idx) (h : j ∈ (outRect L).set) :
    j ∈ (chunkRect L (chunkOf L j h)).set := by
  have h' := mem_outRect.mp h
  have e : (chunkOf L j h).val = ((j 1).val - 1664 * (L 0).val) / 128 * 32 + ((j 0).val - 1024 * (L 1).val) / 32 := rfl
  rw [mem_chunkRect]
  omega

/-- Two different blocks of one tile share no element: they differ in the block of rows or in the field. -/
theorem chunkRect_disjoint (L : grid0.Coords) {n m : Fin 416} (h : n ≠ m) : Disjoint (chunkRect L n).set (chunkRect L m).set :=
  Finset.disjoint_left.mpr fun j hn hm => by
    rw [mem_chunkRect] at hn hm
    have hn' := n.isLt; have hm' := m.isLt
    exact h (Fin.ext (by omega))

/-- Every block lies in the tile's rectangle. -/
theorem chunkRect_subset (L : grid0.Coords) (n : Fin 416) : (chunkRect L n).set ⊆ (outRect L).set := fun j hj => by
  rw [mem_chunkRect] at hj
  have hn := n.isLt
  rw [mem_outRect]; omega

/-- The 416 blocks fill the tile's rectangle. -/
theorem biUnion_chunkRect (L : grid0.Coords) : (Finset.univ : Finset (Fin 416)).biUnion (fun n => (chunkRect L n).set) = (outRect L).set := by
  ext j
  rw [Finset.mem_biUnion]
  exact ⟨fun ⟨n, _, hn⟩ => chunkRect_subset L n hn, fun h => ⟨chunkOf L j h, Finset.mem_univ _, mem_chunkRect_chunkOf L j h⟩⟩

/-- The hypothesis a split of a points-to along the blocks asks for. -/
theorem chunkRect_pairwise (L : grid0.Coords) :
    ∀ n ∈ (Finset.univ : Finset (Fin 416)), ∀ m ∈ (Finset.univ : Finset (Fin 416)), n ≠ m → Disjoint (chunkRect L n).set (chunkRect L m).set :=
  fun _ _ _ _ h => chunkRect_disjoint L h

/-- Two different tiles' rectangles share no element. -/
theorem outRect_disjoint {L L' : grid0.Coords} (h : L ≠ L') : Disjoint (outRect L).set (outRect L').set :=
  Finset.disjoint_left.mpr fun j hL hL' => by
    rw [mem_outRect] at hL hL'
    have h0 : (L 0).val = (L' 0).val := by omega
    have h1 : (L 1).val = (L' 1).val := by omega
    exact h (funext fun a => match a with | ⟨0, _⟩ => Fin.ext h0 | ⟨1, _⟩ => Fin.ext h1)

/-- The tile whose rectangle holds an element. -/
def tileOf (j : S16384x3328.Idx) : grid0.Coords :=
  coordsV ⟨(j 1).val / 1664, by have := idx2_lt1 j; show (j 1).val / 1664 < 2; omega⟩
    ⟨(j 0).val / 1024, by have := idx2_lt0 j; show (j 0).val / 1024 < 16; omega⟩

theorem mem_outRect_tileOf (j : S16384x3328.Idx) : j ∈ (outRect (tileOf j)).set := by
  rw [mem_outRect]
  show (1024 * ((j 0).val / 1024) ≤ (j 0).val ∧ (j 0).val < 1024 * ((j 0).val / 1024) + 1024) ∧
    (1664 * ((j 1).val / 1664) ≤ (j 1).val ∧ (j 1).val < 1664 * ((j 1).val / 1664) + 1664)
  omega

/-- The thirty-two rectangles fill the result. -/
theorem biUnion_outRect : (Finset.univ : Finset grid0.Coords).biUnion (fun L => (outRect L).set) = Finset.univ := by
  ext j
  rw [Finset.mem_biUnion]
  exact ⟨fun _ => Finset.mem_univ _, fun _ => ⟨tileOf j, Finset.mem_univ _, mem_outRect_tileOf j⟩⟩

theorem outRect_pairwise :
    ∀ L ∈ (Finset.univ : Finset grid0.Coords), ∀ L' ∈ (Finset.univ : Finset grid0.Coords), L ≠ L' → Disjoint (outRect L).set (outRect L').set :=
  fun _ _ _ _ h => outRect_disjoint h

/-- The same two facts over the sets as a tile addresses them. -/
theorem outSet_disjoint {L L' : grid0.Coords} (h : L ≠ L') : Disjoint (outSet L) (outSet L') := by
  rw [outSet_eq, outSet_eq]; exact outRect_disjoint h
theorem biUnion_outSet : (Finset.univ : Finset grid0.Coords).biUnion outSet = Finset.univ := by
  rw [show outSet = fun L => (outRect L).set from funext outSet_eq]; exact biUnion_outRect

end Cert.Proof.KB
-- ==== Proof.KB.BodyLemmas.lean ====
/-
  What the copies of one chunk move, as facts about values.

  Chunk `n` of tile `(c, s)` gathers into ring slot `n % 6`, for each of its 32 batch entries `i`, the row of the staged shared scratch
  that the `i`-th word of the chunk's list names, out of the thousand rows `1000 (n / 32) …` of its field's table.  The staged scratch
  of SparseCore `c` holds rows `13000 c …` of the flattened tables, so that row is row `1000 (13 c + n / 32) + w` of the flattened
  tables; the list's word `i` is the flattened index columns' word at `16384 (13 c + n / 32) + 1024 s + 32 (n % 32) + i`, which is
  below 1000, so wrapping it into the thousand rows changes nothing: the slot's entry `(i, q)` is the result's entry at row
  `1024 s + 32 (n % 32) + i`, column `128 (13 c + n / 32) + q`.  The copy out moves the slot unchanged onto those rows and columns.
  Reading a slice is reading the array at the slice's offsets plus the index: each step is one such equation and linear arithmetic.
-/
import proofs.«206644_g35837207118489_cont_8to1_b_589_28_alg».proof.Proof.KB.InvDefs
import proofs.«206644_g35837207118489_cont_8to1_b_589_28_alg».proof.Proof.KB.Chunks
import proofs.«206644_g35837207118489_cont_8to1_b_589_28_alg».proof.Proof.KB.Flat

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD}

/-! ## Reading through a view, by position -/

theorem listO_read (L : grid0.Coords) (off : Fin 1 → ℕ) (h : ∀ a, off a + S32.size a ≤ S2048.size a)
    (fi : Buf (Elt F) ((V d (cV L) (jV L)).loc cc0_scratch1)) (k : S32.Idx) (hk : off 0 + (k 0).val < 2048) :
    (listO off h).view.read (Elt F) fi k = fi (ix1 (n := 2048) ⟨off 0 + (k 0).val, hk⟩) := by
  show fi _ = fi _
  refine congrArg fi (funext fun a => ?_)
  match a with
  | ⟨0, _⟩ => exact Fin.ext (by show off 0 + 1 * (k 0).val = off 0 + (k 0).val; omega)

theorem halfO_read (L : grid0.Coords) (off : Fin 1 → ℕ) (h : ∀ a, off a + S1024.size a ≤ S2048.size a)
    (fi : Buf (Elt F) ((V d (cV L) (jV L)).loc cc0_scratch1)) (k : S1024.Idx) (hk : off 0 + (k 0).val < 2048) :
    (halfO off h).view.read (Elt F) fi k = fi (ix1 (n := 2048) ⟨off 0 + (k 0).val, hk⟩) := by
  show fi _ = fi _
  refine congrArg fi (funext fun a => ?_)
  match a with
  | ⟨0, _⟩ => exact Fin.ext (by show off 0 + 1 * (k 0).val = off 0 + (k 0).val; omega)

theorem tabO_read (L : grid0.Coords) (off : Fin 2 → ℕ) (h : ∀ a, off a + S1000x128.size a ≤ S13000x128.size a)
    (Sp : Buf (Elt F) ((V d (cV L) (jV L)).loc cc0_scratch0)) (z : S1000x128.Idx) (h0 : off 0 + (z 0).val < 13000) (h1 : off 1 + (z 1).val < 128) :
    (tabO off h).view.read (Elt F) Sp z = Sp (ix2 (n0 := 13000) (n1 := 128) ⟨off 0 + (z 0).val, h0⟩ ⟨off 1 + (z 1).val, h1⟩) := by
  show Sp _ = Sp _
  refine congrArg Sp (funext fun a => ?_)
  match a with
  | ⟨0, _⟩ => exact Fin.ext (by show off 0 + 1 * (0 + 1 * (z 0).val) = off 0 + (z 0).val; omega)
  | ⟨1, _⟩ => exact Fin.ext (by show off 1 + 1 * (0 + 1 * (z 1).val) = off 1 + (z 1).val; omega)

theorem outO_read (off : Fin 2 → ℕ) (h : ∀ a, off a + S32x128.size a ≤ S16384x3328.size a)
    (fo : Buf (Elt F) (outLoc d)) (y : S32x128.Idx) (h0 : off 0 + (y 0).val < 16384) (h1 : off 1 + (y 1).val < 3328) :
    (outO off h).view.read (Elt F) fo y = fo (ix2 (n0 := 16384) (n1 := 3328) ⟨off 0 + (y 0).val, h0⟩ ⟨off 1 + (y 1).val, h1⟩) := by
  show fo _ = fo _
  refine congrArg fo (funext fun a => ?_)
  match a with
  | ⟨0, _⟩ => exact Fin.ext (by show off 0 + 1 * (y 0).val = off 0 + (y 0).val; omega)
  | ⟨1, _⟩ => exact Fin.ext (by show off 1 + 1 * (y 1).val = off 1 + (y 1).val; omega)

theorem ix1_congr {n : ℕ} {a a' : Fin n} (ha : a.val = a'.val) : ix1 a = ix1 a' := by rw [Fin.ext ha]
theorem ix2_congr {n0 n1 : ℕ} {a a' : Fin n0} {b b' : Fin n1} (ha : a.val = a'.val) (hb : b.val = b'.val) : ix2 a b = ix2 a' b' := by
  rw [Fin.ext ha, Fin.ext hb]

/-! ## The index words of a chunk -/

/-- Word `k` of chunk `n`'s list is the flattened index columns' word for batch entry `1024 s + 32 (n % 32) + k` of field `13 c + n / 32`. -/
theorem list_word (X : Buf (Elt F) (ixLoc d)) (L : grid0.Coords) (n : ℕ) (h : n < 416)
    (fi : Buf (Elt F) ((V d (cV L) (jV L)).loc cc0_scratch1)) (hfi : HalfOK X L (n / 32) (by omega) fi) (k : S32.Idx)
    (hw : 16384 * (13 * (L 0).val + n / 32) + 1024 * (L 1).val + (n % 32 * 32 + (k 0).val) < 425984) :
    (listO (cList n) (cList_inb n)).view.read (Elt F) fi k
      = X (ix1 (n := 425984) ⟨16384 * (13 * (L 0).val + n / 32) + 1024 * (L 1).val + (n % 32 * 32 + (k 0).val), hw⟩) := by
  have hk : (k 0).val < 32 := (k 0).isLt
  have e := hfi (ix1 (n := 1024) ⟨n % 32 * 32 + (k 0).val, by omega⟩)
  rw [halfO_read L _ _ fi _ (by show n / 32 % 2 * 1024 + (n % 32 * 32 + (k 0).val) < 2048; omega)] at e
  rw [listO_read L _ _ fi k (by show n / 32 % 2 * 1024 + n % 32 * 32 + (k 0).val < 2048; omega)]
  refine Eq.trans (congrArg fi (ix1_congr ?_)) e
  show n / 32 % 2 * 1024 + n % 32 * 32 + (k 0).val = n / 32 % 2 * 1024 + (n % 32 * 32 + (k 0).val)
  omega

/-! ## A gather lands the right rows -/

/-- Entry `z` of chunk `n`'s table in the staged shared scratch is the flattened tables' entry at row `13000 c + 1000 (n / 32) + z 0`. -/
theorem tabO_entry (Tb : Buf (Elt F) (tbLoc d)) (L : grid0.Coords) (n : ℕ) (h : n < 416) (z : S1000x128.Idx) :
    (tabO (cTab n) (cTab_inb n h)).view.read (Elt F) (spVal Tb (cV L)) z
      = Tb (ix2 (n0 := 26000) (n1 := 128) ⟨13000 * (L 0).val + 1000 * (n / 32) + (z 0).val, by
          have hc : (L 0).val < 2 := (L 0).isLt; have hz : (z 0).val < 1000 := idx2_lt0 z; omega⟩ ⟨(z 1).val, idx2_lt1 z⟩) := by
  have hc : (L 0).val < 2 := (L 0).isLt
  have hz0 : (z 0).val < 1000 := idx2_lt0 z
  have hz1 : (z 1).val < 128 := idx2_lt1 z
  rw [tabO_read (d := d) L _ _ _ z (by show 1000 * (n / 32) + (z 0).val < 13000; omega) (by show 0 + (z 1).val < 128; omega)]
  refine congrArg Tb (ix2_congr ?_ ?_)
  · show 13000 * (L 0).val + (1000 * (n / 32) + (z 0).val) = 13000 * (L 0).val + 1000 * (n / 32) + (z 0).val
    omega
  · show 0 + (z 1).val = (z 1).val
    omega

/-- The rank-one index at a row-major position has that position as its coordinate. -/
theorem rowMajor_symm_val (t : Fin S32.numel) : ((S32.rowMajor.symm t) 0).val = t.val := by
  have e := Shape.rowMajor_val_one (d := ![32]) (S32.rowMajor.symm t)
  rw [Equiv.apply_symm_apply] at e
  exact e.symm

theorem slotOK_of_gather (X : Buf (Elt F) (ixLoc d)) (hX : ∀ j, (X j).toNat < 1000) (Tb : Buf (Elt F) (tbLoc d)) (L : grid0.Coords) (n : ℕ) (h : n < 416)
    (fi : Buf (Elt F) ((V d (cV L) (jV L)).loc cc0_scratch1)) (hfi : HalfOK X L (n / 32) (by omega) fi)
    (g : Buf (Elt F) ((V d (cV L) (jV L)).loc cc0_scratch2))
    (hn : S32.numel = S32x128.size gathers_S1000x128_S32x128.axis')
    (hin' : ∀ x, ((listO (cList n) (cList_inb n)).view.read (Elt F) fi x).toNat < S1000x128.size gathers_S1000x128_S32x128.axis) :
    SlotOK X Tb L n h ((slotO (cSlot n) (cSlot_inb n)).view.writes (Elt F) g
      [⟨Rect.whole S32x128, SparseCore.gatherPayload gathers_S1000x128_S32x128 ((tabO (cTab n) (cTab_inb n h)).view.read (Elt F) (spVal Tb (cV L)))
        (SparseCore.rows ((listO (cList n) (cList_inb n)).view.read (Elt F) fi) hn hin')⟩]) := by
  intro y
  rw [View.read_writes_whole]
  have hy0 : (y 0).val < 32 := idx2_lt0 y
  have hy1 : (y 1).val < 128 := idx2_lt1 y
  have hc : (L 0).val < 2 := (L 0).isLt
  have hs : (L 1).val < 16 := (L 1).isLt
  -- the row the list names for row `y 0` of the slot
  have hrow : ((gathers_S1000x128_S32x128.idx (SparseCore.rows ((listO (cList n) (cList_inb n)).view.read (Elt F) fi) hn hin') y) 0).val
      = (X (ix1 (n := 425984) ⟨16384 * (13 * (L 0).val + n / 32) + 1024 * (L 1).val + (n % 32 * 32 + (y 0).val), by omega⟩)).toNat := by
    have e0 := Shape.Gathers.idx_axis gathers_S1000x128_S32x128 (SparseCore.rows ((listO (cList n) (cList_inb n)).view.read (Elt F) fi) hn hin') y
    have e1 : (gathers_S1000x128_S32x128.idx (SparseCore.rows ((listO (cList n) (cList_inb n)).view.read (Elt F) fi) hn hin') y) 0
        = SparseCore.rows ((listO (cList n) (cList_inb n)).view.read (Elt F) fi) hn hin' (y 0) := e0
    rw [e1]
    show ((listO (cList n) (cList_inb n)).view.read (Elt F) fi (S32.rowMajor.symm ((y 0).cast hn.symm))).toNat = _
    have hk0 : ((S32.rowMajor.symm ((y 0).cast hn.symm)) 0).val = (y 0).val := rowMajor_symm_val _
    rw [list_word X L n h fi hfi _ (by rw [hk0]; omega)]
    refine congrArg (fun w : BitVec 32 => w.toNat) (congrArg X (ix1_congr ?_))
    show 16384 * (13 * (L 0).val + n / 32) + 1024 * (L 1).val + (n % 32 * 32 + ((S32.rowMajor.symm ((y 0).cast hn.symm)) 0).val) = _
    rw [hk0]
  have hlane : ((gathers_S1000x128_S32x128.idx (SparseCore.rows ((listO (cList n) (cList_inb n)).view.read (Elt F) fi) hn hin') y) 1).val = (y 1).val :=
    Shape.Gathers.idx_of_ne gathers_S1000x128_S32x128 _ y 1 (by decide)
  have hz0 : ((gathers_S1000x128_S32x128.idx (SparseCore.rows ((listO (cList n) (cList_inb n)).view.read (Elt F) fi) hn hin') y) 0).val < 1000 :=
    idx2_lt0 _
  show (tabO (cTab n) (cTab_inb n h)).view.read (Elt F) (spVal Tb (cV L)) (gathers_S1000x128_S32x128.idx (SparseCore.rows ((listO (cList n) (cList_inb n)).view.read (Elt F) fi) hn hin') y) = _
  generalize gathers_S1000x128_S32x128.idx (SparseCore.rows ((listO (cList n) (cList_inb n)).view.read (Elt F) fi) hn hin') y = z at hrow hlane hz0
  rw [tabO_entry Tb L n h z]
  have hw := hX (ix1 (n := 425984) ⟨16384 * (13 * (L 0).val + n / 32) + 1024 * (L 1).val + (n % 32 * 32 + (y 0).val), by omega⟩)
  unfold resAt
  rw [Cert.LookupKB.gathered_apply X Tb _ (X (ix1 (n := 425984) ⟨16384 * (13 * (L 0).val + n / 32) + 1024 * (L 1).val + (n % 32 * 32 + (y 0).val), by omega⟩))
    (by show (128 * (13 * (L 0).val + n / 32) + (y 1).val) / 128 * 16384 + (1024 * (L 1).val + 32 * (n % 32) + (y 0).val) < 425984; omega)
    (congrArg X (ix1_congr (by
      show (128 * (13 * (L 0).val + n / 32) + (y 1).val) / 128 * 16384 + (1024 * (L 1).val + 32 * (n % 32) + (y 0).val) = 16384 * (13 * (L 0).val + n / 32) + 1024 * (L 1).val + (n % 32 * 32 + (y 0).val)
      omega)))]
  refine congrArg Tb (ix2_congr ?_ ?_)
  · show 13000 * (L 0).val + 1000 * (n / 32) + (z 0).val = (128 * (13 * (L 0).val + n / 32) + (y 1).val) / 128 * 1000 + (X (ix1 (n := 425984) ⟨16384 * (13 * (L 0).val + n / 32) + 1024 * (L 1).val + (n % 32 * 32 + (y 0).val), by omega⟩)).toNat % 1000
    rw [hrow]; omega
  · show (z 1).val = (128 * (13 * (L 0).val + n / 32) + (y 1).val) % 128
    rw [hlane]; omega

/-! ## A copy out carries them, and a right block is the result there -/

theorem outOK_of_copy (X : Buf (Elt F) (ixLoc d)) (Tb : Buf (Elt F) (tbLoc d)) (L : grid0.Coords) (n : ℕ) (h : n < 416)
    (g : Buf (Elt F) ((V d (cV L) (jV L)).loc cc0_scratch2)) (hg : SlotOK X Tb L n h g) (f0 : Buf (Elt F) (outLoc d)) :
    OutOK X Tb L n h ((outO (cOut L n) (cOut_inb L n h)).view.writes (Elt F) f0
      [⟨Rect.whole S32x128, ReadAs.same.apply ((slotO (cSlot n) (cSlot_inb n)).view.read (Elt F) g)⟩]) := by
  intro y
  rw [View.read_writes_whole]
  exact hg y

/-- The element of the result under entry `x` of a block. -/
theorem outO_emb (off : Fin 2 → ℕ) (h : ∀ a, off a + S32x128.size a ≤ S16384x3328.size a) (x : S32x128.Idx)
    (h0 : off 0 + (x 0).val < 16384) (h1 : off 1 + (x 1).val < 3328) :
    (outO off h).view.emb x = ix2 (n0 := 16384) (n1 := 3328) ⟨off 0 + (x 0).val, h0⟩ ⟨off 1 + (x 1).val, h1⟩ := by
  refine funext fun a => ?_
  match a with
  | ⟨0, _⟩ => exact Fin.ext (by show off 0 + 1 * (x 0).val = off 0 + (x 0).val; omega)
  | ⟨1, _⟩ => exact Fin.ext (by show off 1 + 1 * (x 1).val = off 1 + (x 1).val; omega)

/-- A block that holds the result's entries agrees with the result on the block's elements. -/
theorem outOK_agrees (X : Buf (Elt F) (ixLoc d)) (Tb : Buf (Elt F) (tbLoc d)) (L : grid0.Coords) (n : ℕ) (h : n < 416)
    (fo : Buf (Elt F) (outLoc d)) (hfo : OutOK X Tb L n h fo) :
    ∀ i ∈ (outO (cOut L n) (cOut_inb L n h)).view.set, fo i = Cert.LookupKB.gathered X Tb i := by
  intro i hi
  obtain ⟨x, -, rfl⟩ := Finset.mem_map.mp hi
  have e := hfo x
  have ee := outO_emb (cOut L n) (cOut_inb L n h) x (resRow_lt L n x) (resCol_lt L n h x)
  rw [outO_read (cOut L n) (cOut_inb L n h) fo x (resRow_lt L n x) (resCol_lt L n h x)] at e
  rw [ee]
  exact e

theorem out_pts_of_OK (X : Buf (Elt F) (ixLoc d)) (Tb : Buf (Elt F) (tbLoc d)) (L : grid0.Coords) (n : ℕ) (h : n < 416)
    (fo : Buf (Elt F) (outLoc d)) (hfo : OutOK X Tb L n h fo) :
    ((outO (cOut L n) (cOut_inb L n h)).view.loc (V d (cV L) (jV L)) ↦[(outO (cOut L n) (cOut_inb L n h)).view.set]{fullShare} fo : sProp 𝕄)
      ⊢ (outO (cOut L n) (cOut_inb L n h)).view.loc (V d (cV L) (jV L)) ↦[(outO (cOut L n) (cOut_inb L n h)).view.set]{fullShare} Cert.LookupKB.gathered X Tb :=
  Entails.of_eq (pointsTo_congr (outOK_agrees X Tb L n h fo hfo))

/-! ## Every word of the index scratch names a row -/

theorem hin_of_halves (X : Buf (Elt F) (ixLoc d)) (hX : ∀ j, (X j).toNat < 1000) (L : grid0.Coords) (fa fb : ℕ) (ha : fa < 13) (hb : fb < 13)
    (hpar : fa % 2 ≠ fb % 2) (fi : Buf (Elt F) ((V d (cV L) (jV L)).loc cc0_scratch1)) (hA : HalfOK X L fa ha fi) (hB : HalfOK X L fb hb fi) :
    ∀ (off : Fin 1 → ℕ) (h : ∀ a, off a + S32.size a ≤ S2048.size a) (h' : ∀ a, (Rect.unit (s := S2048) off S32.size h).stride a = 1) x,
      ((((Memref.whole cc0_scratch1 : Memref sig .scVector .vmem S2048 .i32).slice (Rect.unit (s := S2048) off S32.size h) h').view.read (Elt F) fi) x).toNat
        < S1000x128.size gathers_S1000x128_S32x128.axis := by
  intro off h h' x
  have hx : (x 0).val < 32 := (x 0).isLt
  have h0 : off 0 + 32 ≤ 2048 := h 0
  have hc : (L 0).val < 2 := (L 0).isLt
  have hs : (L 1).val < 16 := (L 1).isLt
  have key : ∃ j, (listO off h).view.read (Elt F) fi x = X j := by
    rw [listO_read L off h fi x (by omega)]
    by_cases hp : (off 0 + (x 0).val) / 1024 = fa % 2
    · have e := hA (ix1 (n := 1024) ⟨off 0 + (x 0).val - fa % 2 * 1024, by omega⟩)
      rw [halfO_read L _ _ fi _ (by show fa % 2 * 1024 + (off 0 + (x 0).val - fa % 2 * 1024) < 2048; omega)] at e
      exact ⟨_, Eq.trans (congrArg fi (ix1_congr (by show off 0 + (x 0).val = fa % 2 * 1024 + (off 0 + (x 0).val - fa % 2 * 1024); omega))) e⟩
    · have e := hB (ix1 (n := 1024) ⟨off 0 + (x 0).val - fb % 2 * 1024, by omega⟩)
      rw [halfO_read L _ _ fi _ (by show fb % 2 * 1024 + (off 0 + (x 0).val - fb % 2 * 1024) < 2048; omega)] at e
      exact ⟨_, Eq.trans (congrArg fi (ix1_congr (by show off 0 + (x 0).val = fb % 2 * 1024 + (off 0 + (x 0).val - fb % 2 * 1024); omega))) e⟩
  obtain ⟨j, hj⟩ := key
  show ((listO off h).view.read (Elt F) fi x).toNat < 1000
  rw [hj]
  exact hX j

end Cert.Proof.KB
end
-- ==== Proof.KB.BodyLemmas2.lean ====
import proofs.«206644_g35837207118489_cont_8to1_b_589_28_alg».proof.Proof.KB.InvGlue
import proofs.«206644_g35837207118489_cont_8to1_b_589_28_alg».proof.Proof.KB.BodyLemmas
import proofs.«206644_g35837207118489_cont_8to1_b_589_28_alg».proof.Proof.KB.BodyDisj

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-! ## The value lemmas at offsets spelt otherwise, and small equalities -/

section Lem2

variable {d : Dev nD}

/-- A result block held at `fo`, under another spelling of its corner. -/
theorem outPts_respell (d : Dev nD) (L : grid0.Coords) {ou ou' : Fin 2 → ℕ} {hou : ∀ a, ou a + S32x128.size a ≤ S16384x3328.size a} {hou' : ∀ a, ou' a + S32x128.size a ≤ S16384x3328.size a}
    (e : ou = ou') (fo : Buf (Elt F) (outLoc d)) :
    ((outO ou hou).view.loc (V d (cV L) (jV L)) ↦[(outO ou hou).view.set]{fullShare} fo : sProp 𝕄)
      ⊢ (outO ou' hou').view.loc (V d (cV L) (jV L)) ↦[(outO ou' hou').view.set]{fullShare} fo := by
  subst e; exact BI.Entails.refl _

theorem HalfOK_congr (X : Buf (Elt F) (ixLoc d)) (L : grid0.Coords) {f f' : ℕ} {h h'} (e : f = f') (fi) :
    HalfOK X L f h fi → HalfOK X L f' h' fi := by subst e; exact id

/-- A gather lands the right rows, whatever the spelling of its slot's, table's and list's offsets. -/
theorem slotOK_of_gather' (X : Buf (Elt F) (ixLoc d)) (hX : ∀ j, (X j).toNat < 1000) (Tb : Buf (Elt F) (tbLoc d)) (L : grid0.Coords) (n : ℕ) (h : n < 416)
    (fi : Buf (Elt F) ((V d (cV L) (jV L)).loc cc0_scratch1)) (hfi : HalfOK X L (n / 32) (by omega) fi) (g : Buf (Elt F) ((V d (cV L) (jV L)).loc cc0_scratch2))
    (sl : Fin 3 → ℕ) (hsl) (esl : sl = cSlot n) (tb : Fin 2 → ℕ) (htb) (etb : tb = cTab n) (li : Fin 1 → ℕ) (hli) (eli : li = cList n)
    (hn : S32.numel = S32x128.size gathers_S1000x128_S32x128.axis')
    (hin' : ∀ x, ((listO li hli).view.read (Elt F) fi x).toNat < S1000x128.size gathers_S1000x128_S32x128.axis) :
    SlotOK X Tb L n h ((slotO sl hsl).view.writes (Elt F) g [⟨Rect.whole S32x128, SparseCore.gatherPayload gathers_S1000x128_S32x128
      ((tabO tb htb).view.read (Elt F) (spVal Tb (cV L))) (SparseCore.rows ((listO li hli).view.read (Elt F) fi) hn hin')⟩]) := by
  subst esl etb eli; exact slotOK_of_gather X hX Tb L n h fi hfi g hn hin'

/-- A copy-out carries the right rows, whatever the spelling of its block's and slot's offsets. -/
theorem outOK_of_copy' (X : Buf (Elt F) (ixLoc d)) (Tb : Buf (Elt F) (tbLoc d)) (L : grid0.Coords) (n : ℕ) (h : n < 416) (g : Buf (Elt F) ((V d (cV L) (jV L)).loc cc0_scratch2)) (hg : SlotOK X Tb L n h g) (f0 : Buf (Elt F) (outLoc d))
    (ou : Fin 2 → ℕ) (hou) (eou : ou = cOut L n) (sl : Fin 3 → ℕ) (hsl) (esl : sl = cSlot n) :
    OutOK X Tb L n h ((outO ou hou).view.writes (Elt F) f0 [⟨Rect.whole S32x128, ReadAs.same.apply ((slotO sl hsl).view.read (Elt F) g)⟩]) := by
  subst eou esl; exact outOK_of_copy X Tb L n h g hg f0

theorem SlotOK_congr (X : Buf (Elt F) (ixLoc d)) (Tb) (L) {n n' : ℕ} {h h'} (e : n = n') (g) : SlotOK X Tb L n h g → SlotOK X Tb L n' h' g := by subst e; exact id
theorem OutOK_congr (X : Buf (Elt F) (ixLoc d)) (Tb) (L) {n n' : ℕ} {h h'} (e : n = n') (fo) : OutOK X Tb L n h fo → OutOK X Tb L n' h' fo := by subst e; exact id

theorem qs_eq (L : grid0.Coords) {a b : ℕ} (h : a % 6 = b % 6) : qs L a = qs L b := by unfold qs; rw [h]
theorem cSem_eq {a b : ℕ} (h : a % 6 = b % 6) : cSem a = cSem b := by unfold cSem; rw [h]
theorem cSlot_eq {a b : ℕ} (h : a % 6 = b % 6) : cSlot a = cSlot b := by unfold cSlot; rw [h]

end Lem2

end Cert.Proof.KB

end
-- ==== Proof.KB.BodySplit.lean ====
/-
  Two arrays held whole are held piece by piece: the ring of six buffers is its six slots, and the rectangle of the result a tile
  writes is its 416 blocks.

  Slot `s` of the ring is the elements whose first coordinate is `s`; the six slots are pairwise disjoint and together are the
  ring.  Block `n` of the tile's rectangle is rows `1024 s + 32 (n % 32) …`, columns `128 (13 c + n / 32) …`; the 416 blocks are
  pairwise disjoint and together are the rectangle.  A points-to over a disjoint union is the separating product of the
  points-to's over the parts; when every block holds the result's entries the product is the rectangle at the result.
-/
import proofs.«206644_g35837207118489_cont_8to1_b_589_28_alg».proof.Proof.KB.InvDefs
import proofs.«206644_g35837207118489_cont_8to1_b_589_28_alg».proof.Proof.KB.Chunks
import proofs.«206644_g35837207118489_cont_8to1_b_589_28_alg».proof.Proof.KB.BodyLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD}

/-! ## The tile's rectangle of the result is its 416 blocks -/

theorem outO_set (off : Fin 2 → ℕ) (h : ∀ a, off a + S32x128.size a ≤ S16384x3328.size a) :
    (outO off h).view.set = (Rect.unit (s := S16384x3328) off S32x128.size h).set := by
  show ((View.whole (main_v3_scv : Ref sig .scVector)).slice (Rect.unit (s := S16384x3328) off S32x128.size h)).set = _
  rw [View.set_slice]; exact Finset.map_refl

/-- Block `n`'s elements; nothing past the last block. -/
def blockSet (L : grid0.Coords) (n : ℕ) : Finset S16384x3328.Idx :=
  if h : n < 416 then (outO (cOut L n) (cOut_inb L n h)).view.set else ∅

theorem blockSet_lt (L : grid0.Coords) {n : ℕ} (h : n < 416) : blockSet L n = (chunkRect L ⟨n, h⟩).set := by
  unfold blockSet; rw [dif_pos h]; exact outO_set _ _

theorem blockSet_pairwise (L : grid0.Coords) :
    ∀ n ∈ Finset.range 416, ∀ m ∈ Finset.range 416, n ≠ m → Disjoint (blockSet L n) (blockSet L m) := by
  intro n hn m hm hne
  have hn' := Finset.mem_range.mp hn
  have hm' := Finset.mem_range.mp hm
  rw [blockSet_lt L hn', blockSet_lt L hm']
  exact chunkRect_disjoint L (fun e => hne (congrArg Fin.val e))

theorem biUnion_blockSet (L : grid0.Coords) : (Finset.range 416).biUnion (blockSet L) = outSet L := by
  rw [outSet_eq]
  ext j
  rw [Finset.mem_biUnion]
  constructor
  · rintro ⟨n, hn, hj⟩
    have hn' := Finset.mem_range.mp hn
    rw [blockSet_lt L hn'] at hj
    exact chunkRect_subset L _ hj
  · intro hj
    refine ⟨(chunkOf L j hj).val, Finset.mem_range.mpr (chunkOf L j hj).isLt, ?_⟩
    rw [blockSet_lt L (chunkOf L j hj).isLt]
    exact mem_chunkRect_chunkOf L j hj

/-- The rectangle held at `f` is its 416 blocks held at `f`. -/
theorem blocks_eq (L : grid0.Coords) (f : Buf (Elt F) (outLoc d)) :
    ((Memref.whole main_v3_scv : Memref sig .scVector .hbm S16384x3328 .f32).view.loc (V d (cV L) (jV L)) ↦[outSet L]{fullShare} f : sProp 𝕄)
      = bigSep (Finset.range 416) (fun n => if h : n < 416 then
          ((outO (cOut L n) (cOut_inb L n h)).view.loc (V d (cV L) (jV L)) ↦[(outO (cOut L n) (cOut_inb L n h)).view.set]{fullShare} f)
        else iprop(emp)) := by
  rw [← biUnion_blockSet L, pointsTo_biUnion _ _ (blockSet_pairwise L)]
  refine bigSep_congr fun n hn => ?_
  have hn' := Finset.mem_range.mp hn
  rw [dif_pos hn']
  unfold blockSet; rw [dif_pos hn']

theorem blocks_split (L : grid0.Coords) (f : Buf (Elt F) (outLoc d)) :
    ((Memref.whole main_v3_scv : Memref sig .scVector .hbm S16384x3328 .f32).view.loc (V d (cV L) (jV L)) ↦[outSet L]{fullShare} f : sProp 𝕄)
      ⊢ bigSep (Finset.range 416) (fun n => if h : n < 416 then
          ((outO (cOut L n) (cOut_inb L n h)).view.loc (V d (cV L) (jV L)) ↦[(outO (cOut L n) (cOut_inb L n h)).view.set]{fullShare} f)
        else iprop(emp)) := Entails.of_eq (blocks_eq L f)

theorem blocks_join_same (L : grid0.Coords) (f : Buf (Elt F) (outLoc d)) :
    bigSep (Finset.range 416) (fun n => if h : n < 416 then
          ((outO (cOut L n) (cOut_inb L n h)).view.loc (V d (cV L) (jV L)) ↦[(outO (cOut L n) (cOut_inb L n h)).view.set]{fullShare} f)
        else iprop(emp))
      ⊢ ((Memref.whole main_v3_scv : Memref sig .scVector .hbm S16384x3328 .f32).view.loc (V d (cV L) (jV L)) ↦[outSet L]{fullShare} f : sProp 𝕄) :=
  Entails.of_eq (blocks_eq L f).symm

/-- Every block at contents of its own that are the result's entries there: the rectangle at the result. -/
theorem blocks_join (X : Buf (Elt F) (ixLoc d)) (Tb : Buf (Elt F) (tbLoc d)) (L : grid0.Coords) (fs : ℕ → Buf (Elt F) (outLoc d))
    (hfs : ∀ n (h : n < 416), OutOK X Tb L n h (fs n)) :
    bigSep (Finset.range 416) (fun n => if h : n < 416 then
          ((outO (cOut L n) (cOut_inb L n h)).view.loc (V d (cV L) (jV L)) ↦[(outO (cOut L n) (cOut_inb L n h)).view.set]{fullShare} fs n)
        else iprop(emp))
      ⊢ ((Memref.whole main_v3_scv : Memref sig .scVector .hbm S16384x3328 .f32).view.loc (V d (cV L) (jV L)) ↦[outSet L]{fullShare} Cert.LookupKB.gathered X Tb : sProp 𝕄) := by
  rw [blocks_eq L (Cert.LookupKB.gathered X Tb)]
  refine bigSep_mono fun n hn => ?_
  have hn' := Finset.mem_range.mp hn
  rw [dif_pos hn', dif_pos hn']
  exact out_pts_of_OK X Tb L n hn' (fs n) (hfs n hn')

/-! ## The ring is its six slots -/

theorem slotO_set (off : Fin 3 → ℕ) (h : ∀ a, off a + S1x32x128.size a ≤ S6x32x128.size a) :
    (slotO off h).view.set = (Rect.unit (s := S6x32x128) off S1x32x128.size h).set := by
  show (((View.whole (cc0_scratch2 : Ref sig .scVector)).slice (Rect.unit (s := S6x32x128) off S1x32x128.size h)).reshape S32x128
    squeezes_S1x32x128_S32x128.numel_eq).set = _
  rw [View.set_reshape, View.set_slice]; exact Finset.map_refl

/-- Slot `s` is the elements of the ring whose first coordinate is `s`. -/
theorem mem_slotRect {s : ℕ} (h : s < 6) (i : S6x32x128.Idx) :
    i ∈ (Rect.unit (s := S6x32x128) ![s, 0, 0] S1x32x128.size (slot_inb s h)).set ↔ (i 0).val = s := by
  have h1 : (i 1).val < 32 := (i 1).isLt
  have h2 : (i 2).val < 128 := (i 2).isLt
  rw [Rect.mem_set_unit]
  constructor
  · intro hh
    have h0 : s ≤ (i 0).val ∧ (i 0).val < s + 1 := hh 0
    omega
  · intro e a
    match a with
    | ⟨0, _⟩ => show s ≤ (i 0).val ∧ (i 0).val < s + 1; omega
    | ⟨1, _⟩ => show 0 ≤ (i 1).val ∧ (i 1).val < 0 + 32; omega
    | ⟨2, _⟩ => show 0 ≤ (i 2).val ∧ (i 2).val < 0 + 128; omega

/-- Slot `s`'s elements; nothing past the sixth slot. -/
def slotSet (s : ℕ) : Finset S6x32x128.Idx := if h : s < 6 then (slotO ![s, 0, 0] (slot_inb s h)).view.set else ∅

theorem mem_slotSet {s : ℕ} (h : s < 6) (i : S6x32x128.Idx) : i ∈ slotSet s ↔ (i 0).val = s := by
  unfold slotSet; rw [dif_pos h, slotO_set]; exact mem_slotRect h i

theorem six_lt {s : ℕ} (hs : s ∈ ({0, 1, 2, 3, 4, 5} : Finset ℕ)) : s < 6 := by
  simp only [Finset.mem_insert, Finset.mem_singleton] at hs; omega

theorem slotSet_pairwise :
    ∀ s ∈ ({0, 1, 2, 3, 4, 5} : Finset ℕ), ∀ t ∈ ({0, 1, 2, 3, 4, 5} : Finset ℕ), s ≠ t → Disjoint (slotSet s) (slotSet t) := by
  intro s hs t ht hne
  refine Finset.disjoint_left.mpr fun i hi hj => hne ?_
  rw [mem_slotSet (six_lt hs)] at hi
  rw [mem_slotSet (six_lt ht)] at hj
  omega

theorem biUnion_slotSet : ({0, 1, 2, 3, 4, 5} : Finset ℕ).biUnion slotSet = Finset.univ := by
  ext i
  have hi : (i 0).val < 6 := (i 0).isLt
  simp only [Finset.mem_biUnion, Finset.mem_univ, iff_true]
  refine ⟨(i 0).val, by simp only [Finset.mem_insert, Finset.mem_singleton]; omega, (mem_slotSet hi i).mpr rfl⟩

theorem lt6_0 : 0 < 6 := by decide
theorem lt6_1 : 1 < 6 := by decide
theorem lt6_2 : 2 < 6 := by decide
theorem lt6_3 : 3 < 6 := by decide
theorem lt6_4 : 4 < 6 := by decide
theorem lt6_5 : 5 < 6 := by decide

/-- The ring held whole at `fb` is its six slots held at `fb`. -/
theorem ring_eq (L : grid0.Coords) (fb : Buf (Elt F) ((V d (cV L) (jV L)).loc cc0_scratch2)) :
    ((Memref.whole cc0_scratch2 : Memref sig .scVector .vmem S6x32x128 .f32).view.loc (V d (cV L) (jV L)) ↦{fullShare} fb : sProp 𝕄)
      = iprop(((slotO ![0, 0, 0] (slot_inb 0 lt6_0)).view.loc (V d (cV L) (jV L)) ↦[(slotO ![0, 0, 0] (slot_inb 0 lt6_0)).view.set]{fullShare} fb)
          ∗ ((slotO ![1, 0, 0] (slot_inb 1 lt6_1)).view.loc (V d (cV L) (jV L)) ↦[(slotO ![1, 0, 0] (slot_inb 1 lt6_1)).view.set]{fullShare} fb)
          ∗ ((slotO ![2, 0, 0] (slot_inb 2 lt6_2)).view.loc (V d (cV L) (jV L)) ↦[(slotO ![2, 0, 0] (slot_inb 2 lt6_2)).view.set]{fullShare} fb)
          ∗ ((slotO ![3, 0, 0] (slot_inb 3 lt6_3)).view.loc (V d (cV L) (jV L)) ↦[(slotO ![3, 0, 0] (slot_inb 3 lt6_3)).view.set]{fullShare} fb)
          ∗ ((slotO ![4, 0, 0] (slot_inb 4 lt6_4)).view.loc (V d (cV L) (jV L)) ↦[(slotO ![4, 0, 0] (slot_inb 4 lt6_4)).view.set]{fullShare} fb)
          ∗ ((slotO ![5, 0, 0] (slot_inb 5 lt6_5)).view.loc (V d (cV L) (jV L)) ↦[(slotO ![5, 0, 0] (slot_inb 5 lt6_5)).view.set]{fullShare} fb)) := by
  have e1 : ((Memref.whole cc0_scratch2 : Memref sig .scVector .vmem S6x32x128 .f32).view.loc (V d (cV L) (jV L)) ↦{fullShare} fb : sProp 𝕄)
      = (Memref.whole cc0_scratch2 : Memref sig .scVector .vmem S6x32x128 .f32).view.loc (V d (cV L) (jV L)) ↦[({0, 1, 2, 3, 4, 5} : Finset ℕ).biUnion slotSet]{fullShare} fb := by
    rw [biUnion_slotSet]
  rw [e1, pointsTo_biUnion _ _ slotSet_pairwise]
  rw [bigSep_insert (by decide), bigSep_insert (by decide), bigSep_insert (by decide), bigSep_insert (by decide), bigSep_insert (by decide), bigSep_singleton]
  rfl

theorem ring_split (L : grid0.Coords) (fb : Buf (Elt F) ((V d (cV L) (jV L)).loc cc0_scratch2)) :
    ((Memref.whole cc0_scratch2 : Memref sig .scVector .vmem S6x32x128 .f32).view.loc (V d (cV L) (jV L)) ↦{fullShare} fb : sProp 𝕄)
      ⊢ iprop(((slotO ![0, 0, 0] (slot_inb 0 lt6_0)).view.loc (V d (cV L) (jV L)) ↦[(slotO ![0, 0, 0] (slot_inb 0 lt6_0)).view.set]{fullShare} fb)
          ∗ ((slotO ![1, 0, 0] (slot_inb 1 lt6_1)).view.loc (V d (cV L) (jV L)) ↦[(slotO ![1, 0, 0] (slot_inb 1 lt6_1)).view.set]{fullShare} fb)
          ∗ ((slotO ![2, 0, 0] (slot_inb 2 lt6_2)).view.loc (V d (cV L) (jV L)) ↦[(slotO ![2, 0, 0] (slot_inb 2 lt6_2)).view.set]{fullShare} fb)
          ∗ ((slotO ![3, 0, 0] (slot_inb 3 lt6_3)).view.loc (V d (cV L) (jV L)) ↦[(slotO ![3, 0, 0] (slot_inb 3 lt6_3)).view.set]{fullShare} fb)
          ∗ ((slotO ![4, 0, 0] (slot_inb 4 lt6_4)).view.loc (V d (cV L) (jV L)) ↦[(slotO ![4, 0, 0] (slot_inb 4 lt6_4)).view.set]{fullShare} fb)
          ∗ ((slotO ![5, 0, 0] (slot_inb 5 lt6_5)).view.loc (V d (cV L) (jV L)) ↦[(slotO ![5, 0, 0] (slot_inb 5 lt6_5)).view.set]{fullShare} fb)) :=
  Entails.of_eq (ring_eq L fb)

theorem ring_join (L : grid0.Coords) (fb : Buf (Elt F) ((V d (cV L) (jV L)).loc cc0_scratch2)) :
    iprop(((slotO ![0, 0, 0] (slot_inb 0 lt6_0)).view.loc (V d (cV L) (jV L)) ↦[(slotO ![0, 0, 0] (slot_inb 0 lt6_0)).view.set]{fullShare} fb)
          ∗ ((slotO ![1, 0, 0] (slot_inb 1 lt6_1)).view.loc (V d (cV L) (jV L)) ↦[(slotO ![1, 0, 0] (slot_inb 1 lt6_1)).view.set]{fullShare} fb)
          ∗ ((slotO ![2, 0, 0] (slot_inb 2 lt6_2)).view.loc (V d (cV L) (jV L)) ↦[(slotO ![2, 0, 0] (slot_inb 2 lt6_2)).view.set]{fullShare} fb)
          ∗ ((slotO ![3, 0, 0] (slot_inb 3 lt6_3)).view.loc (V d (cV L) (jV L)) ↦[(slotO ![3, 0, 0] (slot_inb 3 lt6_3)).view.set]{fullShare} fb)
          ∗ ((slotO ![4, 0, 0] (slot_inb 4 lt6_4)).view.loc (V d (cV L) (jV L)) ↦[(slotO ![4, 0, 0] (slot_inb 4 lt6_4)).view.set]{fullShare} fb)
          ∗ ((slotO ![5, 0, 0] (slot_inb 5 lt6_5)).view.loc (V d (cV L) (jV L)) ↦[(slotO ![5, 0, 0] (slot_inb 5 lt6_5)).view.set]{fullShare} fb))
      ⊢ ((Memref.whole cc0_scratch2 : Memref sig .scVector .vmem S6x32x128 .f32).view.loc (V d (cV L) (jV L)) ↦{fullShare} fb : sProp 𝕄) :=
  Entails.of_eq (ring_eq L fb).symm

end Cert.Proof.KB
end
-- ==== Proof.KB.BodyTail.lean ====
/-
  The rest of a tile's kernel around its loop, from the loop's region.

  What the head leaves is cut into the pieces the rest works on: the shared scratch's share into eight read tokens and a
  remainder (a gather borrows, for as long as it flies, the token numbered as its semaphore's cell), the ring into its six
  slots, the tile's rectangle of the result into its 416 blocks.  The statements before the loop start the gathers of chunks
  0 … 5, wait for the first three and start their copies out: that is the loop's invariant before its first trip — each
  gathered slot holds its chunk's rows because every index word names a row, each copied block holds the result there.  The
  loop is the region, 205 times.  After it the invariant at 205 is taken apart, spelt in the words of the statements that
  follow, and those run: the last three gathers are awaited and copied out, the last six copies awaited.  What is left is
  put back together: the 416 blocks, each holding the result on its elements, are the tile's rectangle at the result; the
  six slots are the ring; the tokens and the remainder are the share; every semaphore is at zero.
-/
import proofs.«206644_g35837207118489_cont_8to1_b_589_28_alg».proof.Proof.KB.RegionDef
import proofs.«206644_g35837207118489_cont_8to1_b_589_28_alg».proof.Proof.KB.InvGlue
import proofs.«206644_g35837207118489_cont_8to1_b_589_28_alg».proof.Proof.KB.InvIx
import proofs.«206644_g35837207118489_cont_8to1_b_589_28_alg».proof.Proof.KB.BodyLemmas
import proofs.«206644_g35837207118489_cont_8to1_b_589_28_alg».proof.Proof.KB.BodyLemmas2
import proofs.«206644_g35837207118489_cont_8to1_b_589_28_alg».proof.Proof.KB.BodySplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

section Tail
variable (d : Dev nD) (L : grid0.Coords)

/-- One more read token off what remains of a share. -/
theorem tok_step {ℓ : Loc nD τ sig} (f : Buf (Elt F) ℓ) (q : PosShare TreeShare) (k : ℕ) :
    (ℓ ↦{Transfers.shareDrop q k} f : sProp 𝕄) ⊣⊢ iprop((ℓ ↦{Transfers.shareDrop q (k + 1)} f) ∗ ℓ ↦{Transfers.shareTokN q k} f) :=
  pointsTo_share (PosShare.mem_left_op_right _)

theorem tok_step0 {ℓ : Loc nD τ sig} (f : Buf (Elt F) ℓ) (q : PosShare TreeShare) :
    (ℓ ↦{q} f : sProp 𝕄) ⊣⊢ iprop((ℓ ↦{Transfers.shareDrop q 1} f) ∗ ℓ ↦{Transfers.shareTokN q 0} f) :=
  tok_step f q 0

theorem colO_congr {o o' : Fin 1 → ℕ} {h : ∀ a, o a + S1024.size a ≤ S425984.size a} {h' : ∀ a, o' a + S1024.size a ≤ S425984.size a} (e : o = o') :
    colO o h = colO o' h' := by subst e; rfl

/-- The tile's index column of its `r`-th field, at its closed offset. -/
theorem colM_eq (r : Fin 2) : colM L r = colO (cCol L r.val) (cCol_inb L r.val (by omega)) :=
  colO_congr (k0_off1_eq L r)

/-- A block of the result, its offsets respelt. -/
theorem outBlock_congr {ou ou' : Fin 2 → ℕ} {hou : ∀ a, ou a + S32x128.size a ≤ S16384x3328.size a} {hou' : ∀ a, ou' a + S32x128.size a ≤ S16384x3328.size a}
    (e : ou = ou') (fo : Buf (Elt F) (outLoc d)) :
    ((outO ou hou).view.loc (V d (cV L) (jV L)) ↦[(outO ou hou).view.set]{fullShare} fo : sProp 𝕄)
      = ((outO ou' hou').view.loc (V d (cV L) (jV L)) ↦[(outO ou' hou').view.set]{fullShare} fo) := by subst e; rfl

/-- All the tile's blocks of the result, finished. -/
theorem outDone_full (X : Buf (Elt F) (ixLoc d)) (Tb : Buf (Elt F) (tbLoc d)) :
    OutDone (F := F) d L X Tb 416 = bigSep (Finset.range 416) (fun n => if h : n < 416 then
      ((outO (cOut L n) (cOut_inb L n h)).view.loc (V d (cV L) (jV L)) ↦[(outO (cOut L n) (cOut_inb L n h)).view.set]{fullShare} Cert.LookupKB.gathered X Tb) else iprop(emp)) := by
  unfold OutDone outPts; rfl

/-- One contents for the ring that is, on each slot, that slot's contents. -/
def ringAll (c0 c1 c2 c3 c4 c5 : Buf (Elt F) ((V d (cV L) (jV L)).loc cc0_scratch2)) : Buf (Elt F) ((V d (cV L) (jV L)).loc cc0_scratch2) :=
  fun (i : S6x32x128.Idx) => if (i 0).val = 0 then c0 i else if (i 0).val = 1 then c1 i else if (i 0).val = 2 then c2 i
    else if (i 0).val = 3 then c3 i else if (i 0).val = 4 then c4 i else c5 i

/-- A slot held at its own contents is the slot held at contents that agree with them on the slot. -/
theorem slot_to_all (s : ℕ) (hs : s < 6) (hsl : ∀ a, (![s, 0, 0] : Fin 3 → ℕ) a + S1x32x128.size a ≤ S6x32x128.size a)
    (c all : Buf (Elt F) ((V d (cV L) (jV L)).loc cc0_scratch2)) (h : ∀ i : S6x32x128.Idx, (i 0).val = s → c i = all i) :
    ((slotO ![s, 0, 0] hsl).view.loc (V d (cV L) (jV L)) ↦[(slotO ![s, 0, 0] hsl).view.set]{fullShare} c : sProp 𝕄)
      = ((slotO ![s, 0, 0] hsl).view.loc (V d (cV L) (jV L)) ↦[(slotO ![s, 0, 0] hsl).view.set]{fullShare} all) :=
  pointsTo_congr fun i hi => h i ((mem_slotSet hs i).mp (by unfold slotSet; rw [dif_pos hs]; exact hi))

/-- The last trip is trip 205. -/
theorem trips_eq : Scf.trips k0_t1_loop.lb k0_t1_loop.ub k0_t1_loop.st = 205 := by decide

/-- A fetch of an index column in flight, and the flattened columns beside that column, by the column's offset. -/
abbrev FetchFl (X : Buf (Elt F) (ixLoc d)) (o : Fin 1 → ℕ) (ho : ∀ a, o a + S1024.size a ≤ S425984.size a) (hf : Fin 1 → ℕ) (hhf : ∀ a, hf a + S1024.size a ≤ S2048.size a)
    (sm : Fin 1 → ℕ) (hsm : ∀ a, sm a + S1.size a ≤ S2.size a) (fi : Buf (Elt F) ((V d (cV L) (jV L)).loc cc0_scratch1)) : sProp 𝕄 :=
  Transfers.Flight countersEmb (V d (cV L) (jV L)) (SemLoc.dma (isemO sm hsm).sem) (default : HIx 1) 32768
    iprop(((ixsV).view.loc (V d (cV L) (jV L)) ↦[(halfO hf hhf).view.set]{fullShare} fi)
      ∗ ((xfV).view.loc (V d (cV L) (jV L)) ↦[(colO o ho).view.set]{shareOf L} X))
abbrev XfRest (X : Buf (Elt F) (ixLoc d)) (o : Fin 1 → ℕ) (ho : ∀ a, o a + S1024.size a ≤ S425984.size a) : sProp 𝕄 :=
  (xfV).view.loc (V d (cV L) (jV L)) ↦[Finset.univ \ (colO o ho).view.set]{shareOf L} X
theorem FetchFl_congr (X : Buf (Elt F) (ixLoc d)) {o o' : Fin 1 → ℕ} {ho ho'} (e : o = o') (hf hhf sm hsm fi) :
    FetchFl (F := F) d L X o ho hf hhf sm hsm fi = FetchFl d L X o' ho' hf hhf sm hsm fi := by subst e; rfl
theorem XfRest_congr (X : Buf (Elt F) (ixLoc d)) {o o' : Fin 1 → ℕ} {ho ho'} (e : o = o') :
    XfRest (F := F) d L X o ho = XfRest d L X o' ho' := by subst e; rfl

theorem FetchFl_congr3 (X : Buf (Elt F) (ixLoc d)) {o o' : Fin 1 → ℕ} {ho ho'} {hf hf' : Fin 1 → ℕ} {hhf hhf'} {sm sm' : Fin 1 → ℕ} {hsm hsm'}
    (e1 : o = o') (e2 : hf = hf') (e3 : sm = sm') (fi) :
    FetchFl (F := F) d L X o ho hf hhf sm hsm fi = FetchFl d L X o' ho' hf' hhf' sm' hsm' fi := by subst e1 e2 e3; rfl

/-- After the last trip the invariant is the invariant at 205. -/
theorem inv_last (X : Buf (Elt F) (ixLoc d)) (Tb : Buf (Elt F) (tbLoc d)) (f0 : Buf (Elt F) (outLoc d)) (O : CellTallies nD τ sig (HIx 1)) (W : Waits sig (HIx 1)) (acc : BitVec 32) :
    Inv d L X Tb f0 O W (Scf.trips k0_t1_loop.lb k0_t1_loop.ub k0_t1_loop.st) acc = InvAt d L X Tb f0 O W 205 (le_refl 205) := by
  rw [trips_eq]; unfold Inv; rw [dif_pos (le_refl 205)]
theorem ixPart_last (X : Buf (Elt F) (ixLoc d)) (fi) : IxPart (F := F) d L X 205 fi = IxNone d L X (2 * 205 + 3) (2 * 205 + 4) (2 * 205 + 5) fi := by
  unfold IxPart; rw [dif_neg (by decide)]
theorem ixPart_first (X : Buf (Elt F) (ixLoc d)) (fi) : IxPart (F := F) d L X 0 fi = IxPend d L X 0 (by decide) 3 4 5 fi := by
  unfold IxPart; rw [dif_pos (by decide)]

/-- All the tile's blocks of the result, untouched. -/
theorem outRest_zero (fo : Buf (Elt F) (outLoc d)) :
    OutRest (F := F) d L fo 0 = bigSep (Finset.range 416) (fun n => if h : n < 416 then
      ((outO (cOut L n) (cOut_inb L n h)).view.loc (V d (cV L) (jV L)) ↦[(outO (cOut L n) (cOut_inb L n h)).view.set]{fullShare} fo) else iprop(emp)) := by
  unfold OutRest outPts
  rw [Finset.filter_true_of_mem (fun n _ => Nat.zero_le n)]

/-- A gather fills its slot with the right rows, the slot's new contents spelt as a write over what it held. -/
theorem slotOK_write (X : Buf (Elt F) (ixLoc d)) (hX : ∀ j, (X j).toNat < 1000) (Tb : Buf (Elt F) (tbLoc d)) (n : ℕ) (h : n < 416)
    (fi : Buf (Elt F) ((V d (cV L) (jV L)).loc cc0_scratch1)) (hfi : HalfOK X L (n / 32) (by omega) fi) (g : Buf (Elt F) ((V d (cV L) (jV L)).loc cc0_scratch2))
    (sl : Fin 3 → ℕ) (hsl) (esl : sl = cSlot n) (tb : Fin 2 → ℕ) (htb) (etb : tb = cTab n) (li : Fin 1 → ℕ) (hli) (eli : li = cList n)
    (hn : S32.numel = S32x128.size gathers_S1000x128_S32x128.axis')
    (hin' : ∀ x, ((listO li hli).view.read (Elt F) fi x).toNat < S1000x128.size gathers_S1000x128_S32x128.axis) :
    SlotOK X Tb L n h (View.write (Elt F) (slotO sl hsl).view g (SparseCore.gatherPayload gathers_S1000x128_S32x128
      ((tabO tb htb).view.read (Elt F) (spVal Tb (cV L))) (SparseCore.rows ((listO li hli).view.read (Elt F) fi) hn hin')) Finset.univ) := by
  have e := View.write_univ_eq_writes_whole (slotO sl hsl).view g [] (SparseCore.gatherPayload gathers_S1000x128_S32x128
      ((tabO tb htb).view.read (Elt F) (spVal Tb (cV L))) (SparseCore.rows ((listO li hli).view.read (Elt F) fi) hn hin'))
  rw [View.writes_nil] at e
  rw [e]
  exact slotOK_of_gather' X hX Tb L n h fi hfi g sl hsl esl tb htb etb li hli eli hn hin'

set_option maxHeartbeats 32000000 in
set_option maxRecDepth 100000 in
set_option sl_exec.dmaWindow true in
set_option sl_exec.dmaWindowSet true in
set_option sl_exec.dmaWindowLent true in
theorem tailSpec_of_region (hreg : Region (F := F)) : TailSpec (F := F) := by
  intro d L X hX Tb f0 O W hO
  unfold HeadPost
  iintro ⟨#Hmw, ⟨%W', %hW', HO⟩, Hsp, Htb, Hxf, ⟨%fi, %hfi, Hixs, HFl⟩, ⟨%fb, Hbuf⟩, Hout, His0, Hg0, Hg1, Hg2, Hg3, Hg4, Hg5, Hs0, Hs1, Hs2, Hs3, Hs4, Hs5, Hsc, Hrest⟩
  have hA : HalfOK X L 0 (by decide) fi := fun y => hfi.1 y
  have hB : HalfOK X L 1 (by decide) fi := fun y => hfi.2 y
  have hin := hin_of_halves X hX L 0 1 (by decide) (by decide) (by decide) fi hA hB
  -- the eight read tokens of the shared scratch
  ihave Ht0 := (tok_step0 (F := F) _ (shq (jV L))).1 $$ Hsp
  icases Ht0 with ⟨Hd1, Hq0⟩
  ihave Ht1 := (tok_step (F := F) _ (shq (jV L)) 1).1 $$ Hd1
  icases Ht1 with ⟨Hd2, Hq1⟩
  ihave Ht2 := (tok_step (F := F) _ (shq (jV L)) 2).1 $$ Hd2
  icases Ht2 with ⟨Hd3, Hq2⟩
  ihave Ht3 := (tok_step (F := F) _ (shq (jV L)) 3).1 $$ Hd3
  icases Ht3 with ⟨Hd4, Hq3⟩
  ihave Ht4 := (tok_step (F := F) _ (shq (jV L)) 4).1 $$ Hd4
  icases Ht4 with ⟨Hd5, Hq4⟩
  ihave Ht5 := (tok_step (F := F) _ (shq (jV L)) 5).1 $$ Hd5
  icases Ht5 with ⟨Hd6, Hq5⟩
  ihave Ht6 := (tok_step (F := F) _ (shq (jV L)) 6).1 $$ Hd6
  icases Ht6 with ⟨Hd7, Hq6⟩
  ihave Ht7 := (tok_step (F := F) _ (shq (jV L)) 7).1 $$ Hd7
  icases Ht7 with ⟨Hd8, Hq7⟩
  -- the ring's six slots
  ihave Hring := (ring_split (F := F) L fb) $$ Hbuf
  icases Hring with ⟨Hb0, Hb1, Hb2, Hb3, Hb4, Hb5⟩
  -- the first three blocks of the result
  ihave Hout' := (blocks_split (F := F) L f0) $$ Hout
  ihave Hout'' := (Entails.of_eq (outRest_zero (F := F) d L f0).symm) $$ Hout'
  ihave Hp0 := (Entails.of_eq (outRest_pop (F := F) d L f0 0 (by decide))) $$ Hout''
  icases Hp0 with ⟨Ho0, HoR1⟩
  ihave Hp1 := (Entails.of_eq (outRest_pop (F := F) d L f0 1 (by decide))) $$ HoR1
  icases Hp1 with ⟨Ho1, HoR2⟩
  ihave Hp2 := (Entails.of_eq (outRest_pop (F := F) d L f0 2 (by decide))) $$ HoR2
  icases Hp2 with ⟨Ho2, HoR⟩
  ihave Ho0 := (Entails.of_eq (outPts_congr (F := F) d L (ou' := k0_off4 L 0#32 0#32) (hou' := k0_off4_inb L 0) ((k0_off4_eq_0_0 L).trans rfl).symm f0)) $$ Ho0
  ihave Ho1 := (Entails.of_eq (outPts_congr (F := F) d L (ou' := k0_off4 L 32#32 0#32) (hou' := k0_off4_inb L 1) ((k0_off4_eq_32_0 L).trans rfl).symm f0)) $$ Ho1
  ihave Ho2 := (Entails.of_eq (outPts_congr (F := F) d L (ou' := k0_off4 L 64#32 0#32) (hou' := k0_off4_inb L 2) ((k0_off4_eq_64_0 L).trans rfl).symm f0)) $$ Ho2
  unfold outPts outO
  unfold tailProg part22Rest
  rw [k0_part18_eq_skeleton]
  unfold k0_part18_skel
  sl_exec
  rw [bind_assoc]
  sl_for (Inv d L X Tb f0 O W) $$ [Hmw HO Hg3 Hq5 Hg4 Hq6 Hg5 Hq7 Hixs His0 HFl Hxf Hq2 Hq3 Hq4 Hd8 Hs0 Hs1 Hs2 Hg0 Hg1 Hg2 Hs3 Hs4 Hs5 HoR Htb Hsc Hrest]
  case region => exact hreg d L X hX Tb f0 O W hO
  · -- the invariant before the first trip
    unfold Inv
    rw [dif_pos (show (0 : ℕ) ≤ 205 by decide)]
    unfold InvAt
    isplitl []; · iexact Hmw
    isplitl [HO]
    · iexists _
      isplitr
      rotate_left
      · iexact HO
      · ipureintro
        intro p hp
        simp only [Finset.mem_insert] at hp
        rcases hp with rfl | rfl | rfl | hp
        exacts [Or.inr (Or.inl rfl), Or.inr (Or.inl rfl), Or.inr (Or.inl rfl), hW' p hp]
    isplitl [Hg3 Hq5 Hg4 Hq6 Hg5 Hq7 Hixs His0 HFl Hxf]
    · iexists fi
      isplitr
      · ipureintro; exact ⟨HalfOK_congr X L (by decide) fi hA, HalfOK_congr X L (by decide) fi hB⟩
      isplitl [Hg3 Hq5]
      · unfold GatC
        iexists _
        isplitr
        rotate_left
        · isplitl [Hg3]
          · unfold GFo; iexact Hg3
          · unfold spRest; iexact Hq5
        · ipureintro
          exact slotOK_of_gather' X hX Tb L 3 (by decide) fi (HalfOK_congr X L (by decide) fi hA) fb ![3, 0, 0] _ rfl ![0, 0] _ rfl ![96] _ rfl _ _
      isplitl [Hg4 Hq6]
      · unfold GatC
        iexists _
        isplitr
        rotate_left
        · isplitl [Hg4]
          · unfold GFo; iexact Hg4
          · unfold spRest; iexact Hq6
        · ipureintro
          exact slotOK_of_gather' X hX Tb L 4 (by decide) fi (HalfOK_congr X L (by decide) fi hA) fb ![4, 0, 0] _ rfl ![0, 0] _ rfl ![128] _ rfl _ _
      isplitl [Hg5 Hq7]
      · unfold GatC
        iexists _
        isplitr
        rotate_left
        · isplitl [Hg5]
          · unfold GFo; iexact Hg5
          · unfold spRest; iexact Hq7
        · ipureintro
          exact slotOK_of_gather' X hX Tb L 5 (by decide) fi (HalfOK_congr X L (by decide) fi hA) fb ![5, 0, 0] _ rfl ![0, 0] _ rfl ![160] _ rfl _ _
      · iapply (Entails.of_eq (ixPart_first (F := F) d L X fi).symm)
        unfold IxPend ixRest3
        isplitl [Hixs]; · iexact Hixs
        isplitl [His0]; · iexact His0
        isplitl [HFl]
        · iapply (Entails.of_eq (FetchFl_congr3 (F := F) d L X (ho := k0_off1_inb L 1) (o' := cCol L (0 + 1)) (ho' := cCol_inb L (0 + 1) (by decide)) (hhf := inb_S2048_S1024_1024) (hf' := cHalf (0 + 1)) (hhf' := cHalf_inb (0 + 1)) (hsm := inb_S2_S1_1) (sm' := cIsem (0 + 1)) (hsm' := cIsem_inb (0 + 1)) (k0_off1_eq L 1) rfl rfl fi))
          unfold FetchFl; iexact HFl
        · iapply (Entails.of_eq (XfRest_congr (F := F) d L X (ho := k0_off1_inb L 1) (o' := cCol L (0 + 1)) (ho' := cCol_inb L (0 + 1) (by decide)) (k0_off1_eq L 1)))
          unfold XfRest; iexact Hxf
    isplitl [Hq2]; · unfold idleSh; iexact Hq2
    isplitl [Hq3]; · unfold idleSh; iexact Hq3
    isplitl [Hq4]; · unfold idleSh; iexact Hq4
    isplitl [Hd8]; · iexact Hd8
    isplitl [Hs0]
    · unfold ScaC
      iexists _, _
      isplitr
      rotate_left
      · iapply (Entails.of_eq (SFo_congr (F := F) d L (ss := ![0]) (hss := inb_S6_S1_0) (ou := k0_off4 L 0#32 0#32) (hou := k0_off4_inb L 0) (sl := ![0, 0, 0]) (hsl := inb_S6x32x128_S1x32x128_0_0_0) rfl ((k0_off4_eq_0_0 L).trans rfl) rfl _ _))
        unfold SFo; iexact Hs0
      · ipureintro
        refine outOK_of_copy' X Tb L 0 (by decide) _ ?_ f0 (k0_off4 L 0#32 0#32) _ ((k0_off4_eq_0_0 L).trans rfl) ![0, 0, 0] _ rfl
        exact slotOK_of_gather' X hX Tb L 0 (by decide) fi (HalfOK_congr X L (by decide) fi hA) fb ![0, 0, 0] _ rfl ![0, 0] _ rfl ![0] _ rfl _ _
    isplitl [Hs1]
    · unfold ScaC
      iexists _, _
      isplitr
      rotate_left
      · iapply (Entails.of_eq (SFo_congr (F := F) d L (ss := ![1]) (hss := inb_S6_S1_1) (ou := k0_off4 L 32#32 0#32) (hou := k0_off4_inb L 1) (sl := ![1, 0, 0]) (hsl := inb_S6x32x128_S1x32x128_1_0_0) rfl ((k0_off4_eq_32_0 L).trans rfl) rfl _ _))
        unfold SFo; iexact Hs1
      · ipureintro
        refine outOK_of_copy' X Tb L 1 (by decide) _ ?_ f0 (k0_off4 L 32#32 0#32) _ ((k0_off4_eq_32_0 L).trans rfl) ![1, 0, 0] _ rfl
        exact slotOK_of_gather' X hX Tb L 1 (by decide) fi (HalfOK_congr X L (by decide) fi hA) fb ![1, 0, 0] _ rfl ![0, 0] _ rfl ![32] _ rfl _ _
    isplitl [Hs2]
    · unfold ScaC
      iexists _, _
      isplitr
      rotate_left
      · iapply (Entails.of_eq (SFo_congr (F := F) d L (ss := ![2]) (hss := inb_S6_S1_2) (ou := k0_off4 L 64#32 0#32) (hou := k0_off4_inb L 2) (sl := ![2, 0, 0]) (hsl := inb_S6x32x128_S1x32x128_2_0_0) rfl ((k0_off4_eq_64_0 L).trans rfl) rfl _ _))
        unfold SFo; iexact Hs2
      · ipureintro
        refine outOK_of_copy' X Tb L 2 (by decide) _ ?_ f0 (k0_off4 L 64#32 0#32) _ ((k0_off4_eq_64_0 L).trans rfl) ![2, 0, 0] _ rfl
        exact slotOK_of_gather' X hX Tb L 2 (by decide) fi (HalfOK_congr X L (by decide) fi hA) fb ![2, 0, 0] _ rfl ![0, 0] _ rfl ![64] _ rfl _ _
    isplitl [Hg0]; · unfold gsem0; iexact Hg0
    isplitl [Hg1]; · unfold gsem0; iexact Hg1
    isplitl [Hg2]; · unfold gsem0; iexact Hg2
    isplitl [Hs3]; · unfold ssem0; iexact Hs3
    isplitl [Hs4]; · unfold ssem0; iexact Hs4
    isplitl [Hs5]; · unfold ssem0; iexact Hs5
    isplitl [HoR]; · iexact HoR
    isplitl []
    · unfold OutDone
      rw [show (2 * 0 : ℕ) = 0 from rfl, Finset.range_zero, BI.bigSep_empty]
      iempintro
    isplitl [Htb]; · iexact Htb
    isplitl [Hsc]; · iexact Hsc
    iexact Hrest
  -- after the loop
  iintro %acc HI
  ihave HI' := (Entails.of_eq (inv_last (F := F) d L X Tb f0 O W acc)) $$ HI
  unfold InvAt
  icases HI' with ⟨-, ⟨%W2, %hW2, HO⟩, ⟨%fi2, %hfi2, HG3, HG4, HG5, HIx⟩, Hi6, Hi7, Hi8, Hd8, HS0, HS1, HS2, Hgs6, Hgs7, Hgs8, Hss3, Hss4, Hss5, HoR, HoD, Htb, Hsc, Hrest⟩
  unfold GatC ScaC
  icases HG3 with ⟨%g3, %hg3, HGF3, HR3⟩
  icases HG4 with ⟨%g4, %hg4, HGF4, HR4⟩
  icases HG5 with ⟨%g5, %hg5, HGF5, HR5⟩
  icases HS0 with ⟨%s0, %fo0, %hfo0, HSF0⟩
  icases HS1 with ⟨%s1, %fo1, %hfo1, HSF1⟩
  icases HS2 with ⟨%s2, %fo2, %hfo2, HSF2⟩
  ihave HIx' := (Entails.of_eq (ixPart_last (F := F) d L X fi2)) $$ HIx
  unfold IxNone
  icases HIx' with ⟨Hixs, His0, His1, Hxf⟩
  -- the flights and semaphores in the drain's own words
  ihave HGF3 := (Entails.of_eq (GFo_congr (F := F) d L (gs' := ![5]) (hgs' := inb_S6_S1_5) (sl' := ![5, 0, 0]) (hsl' := inb_S6x32x128_S1x32x128_5_0_0) (li' := ![928]) (hli' := inb_S2048_S32_928) (tb' := ![12000, 0]) (htb' := inb_S13000x128_S1000x128_12000_0) rfl rfl rfl rfl _ _ _ _)) $$ HGF3
  ihave HGF4 := (Entails.of_eq (GFo_congr (F := F) d L (gs' := ![0]) (hgs' := inb_S6_S1_0) (sl' := ![0, 0, 0]) (hsl' := inb_S6x32x128_S1x32x128_0_0_0) (li' := ![960]) (hli' := inb_S2048_S32_960) (tb' := ![12000, 0]) (htb' := inb_S13000x128_S1000x128_12000_0) rfl rfl rfl rfl _ _ _ _)) $$ HGF4
  ihave HGF5 := (Entails.of_eq (GFo_congr (F := F) d L (gs' := ![1]) (hgs' := inb_S6_S1_1) (sl' := ![1, 0, 0]) (hsl' := inb_S6x32x128_S1x32x128_1_0_0) (li' := ![992]) (hli' := inb_S2048_S32_992) (tb' := ![12000, 0]) (htb' := inb_S13000x128_S1000x128_12000_0) rfl rfl rfl rfl _ _ _ _)) $$ HGF5
  ihave HR3 := (Entails.of_eq (spRest_congr (F := F) d L (tb' := ![12000, 0]) (htb' := inb_S13000x128_S1000x128_12000_0) rfl _ _)) $$ HR3
  ihave HR4 := (Entails.of_eq (spRest_congr (F := F) d L (tb' := ![12000, 0]) (htb' := inb_S13000x128_S1000x128_12000_0) rfl _ _)) $$ HR4
  ihave HR5 := (Entails.of_eq (spRest_congr (F := F) d L (tb' := ![12000, 0]) (htb' := inb_S13000x128_S1000x128_12000_0) rfl _ _)) $$ HR5
  ihave HSF0 := (Entails.of_eq (SFo_congr (F := F) d L (ss' := ![2]) (hss' := inb_S6_S1_2) (ou' := k0_off4 L 832#32 12#32) (hou' := k0_off4_inb L 6) (sl' := ![2, 0, 0]) (hsl' := inb_S6x32x128_S1x32x128_2_0_0) rfl ((k0_off4_eq_832_12 L).trans rfl).symm rfl _ _)) $$ HSF0
  ihave HSF1 := (Entails.of_eq (SFo_congr (F := F) d L (ss' := ![3]) (hss' := inb_S6_S1_3) (ou' := k0_off4 L 864#32 12#32) (hou' := k0_off4_inb L 7) (sl' := ![3, 0, 0]) (hsl' := inb_S6x32x128_S1x32x128_3_0_0) rfl ((k0_off4_eq_864_12 L).trans rfl).symm rfl _ _)) $$ HSF1
  ihave HSF2 := (Entails.of_eq (SFo_congr (F := F) d L (ss' := ![4]) (hss' := inb_S6_S1_4) (ou' := k0_off4 L 896#32 12#32) (hou' := k0_off4_inb L 8) (sl' := ![4, 0, 0]) (hsl' := inb_S6x32x128_S1x32x128_4_0_0) rfl ((k0_off4_eq_896_12 L).trans rfl).symm rfl _ _)) $$ HSF2
  ihave Hss3 := (Entails.of_eq (ssem0_congr (F := F) d L (ss' := ![5]) (hss' := inb_S6_S1_5) rfl)) $$ Hss3
  ihave Hss4 := (Entails.of_eq (ssem0_congr (F := F) d L (ss' := ![0]) (hss' := inb_S6_S1_0) rfl)) $$ Hss4
  ihave Hss5 := (Entails.of_eq (ssem0_congr (F := F) d L (ss' := ![1]) (hss' := inb_S6_S1_1) rfl)) $$ Hss5
  ihave Hgs6 := (Entails.of_eq (gsem0_congr (F := F) d L (gs' := ![2]) (hgs' := inb_S6_S1_2) rfl)) $$ Hgs6
  ihave Hgs7 := (Entails.of_eq (gsem0_congr (F := F) d L (gs' := ![3]) (hgs' := inb_S6_S1_3) rfl)) $$ Hgs7
  ihave Hgs8 := (Entails.of_eq (gsem0_congr (F := F) d L (gs' := ![4]) (hgs' := inb_S6_S1_4) rfl)) $$ Hgs8
  -- the last three blocks of the result
  ihave Hp3 := (Entails.of_eq (outRest_pop (F := F) d L f0 413 (by decide))) $$ HoR
  icases Hp3 with ⟨Ho3, HoR4⟩
  ihave Hp4 := (Entails.of_eq (outRest_pop (F := F) d L f0 414 (by decide))) $$ HoR4
  icases Hp4 with ⟨Ho4, HoR5⟩
  ihave Hp5 := (Entails.of_eq (outRest_pop (F := F) d L f0 415 (by decide))) $$ HoR5
  icases Hp5 with ⟨Ho5, HoR6⟩
  ihave Ho3 := (Entails.of_eq (outPts_congr (F := F) d L (ou' := k0_off4 L 928#32 12#32) (hou' := k0_off4_inb L 3) ((k0_off4_eq_928_12 L).trans rfl).symm f0)) $$ Ho3
  ihave Ho4 := (Entails.of_eq (outPts_congr (F := F) d L (ou' := k0_off4 L 960#32 12#32) (hou' := k0_off4_inb L 4) ((k0_off4_eq_960_12 L).trans rfl).symm f0)) $$ Ho4
  ihave Ho5 := (Entails.of_eq (outPts_congr (F := F) d L (ou' := k0_off4 L 992#32 12#32) (hou' := k0_off4_inb L 5) ((k0_off4_eq_992_12 L).trans rfl).symm f0)) $$ Ho5
  unfold GFo SFo spRest gsem0 ssem0 outPts ixRest3
  have hin2 := hin_of_halves X hX L (curF 205) (othF 205) (curF_lt 205 (le_refl _)) (othF_lt 205 (le_refl _)) (by decide) fi2 hfi2.1 hfi2.2
  sl_exec
  sl_step
  unfold EndPost idleSh
  have hOK3 : OutOK X Tb L 413 (by decide) ((outO (k0_off4 L 928#32 12#32) (k0_off4_inb L 3)).view.writes (Elt F) f0
      [⟨Rect.whole S32x128, ReadAs.same.apply ((slotO ![5, 0, 0] inb_S6x32x128_S1x32x128_5_0_0).view.read (Elt F) g3)⟩]) :=
    outOK_of_copy' X Tb L 413 (by decide) g3 hg3 f0 (k0_off4 L 928#32 12#32) _ ((k0_off4_eq_928_12 L).trans rfl) ![5, 0, 0] _ rfl
  have hOK4 : OutOK X Tb L 414 (by decide) ((outO (k0_off4 L 960#32 12#32) (k0_off4_inb L 4)).view.writes (Elt F) f0
      [⟨Rect.whole S32x128, ReadAs.same.apply ((slotO ![0, 0, 0] inb_S6x32x128_S1x32x128_0_0_0).view.read (Elt F) g4)⟩]) :=
    outOK_of_copy' X Tb L 414 (by decide) g4 hg4 f0 (k0_off4 L 960#32 12#32) _ ((k0_off4_eq_960_12 L).trans rfl) ![0, 0, 0] _ rfl
  have hOK5 : OutOK X Tb L 415 (by decide) ((outO (k0_off4 L 992#32 12#32) (k0_off4_inb L 5)).view.writes (Elt F) f0
      [⟨Rect.whole S32x128, ReadAs.same.apply ((slotO ![1, 0, 0] inb_S6x32x128_S1x32x128_1_0_0).view.read (Elt F) g5)⟩]) :=
    outOK_of_copy' X Tb L 415 (by decide) g5 hg5 f0 (k0_off4 L 992#32 12#32) _ ((k0_off4_eq_992_12 L).trans rfl) ![1, 0, 0] _ rfl
  isplitl [HO]
  · iexists _
    isplitr
    rotate_left
    · iexact HO
    · ipureintro
      intro p hp
      simp only [Finset.mem_insert] at hp
      rcases hp with rfl | rfl | rfl | rfl | rfl | rfl | rfl | rfl | rfl | hp
      exacts [Or.inr (Or.inl rfl), Or.inr (Or.inl rfl), Or.inr (Or.inl rfl), Or.inr (Or.inl rfl), Or.inr (Or.inl rfl), Or.inr (Or.inl rfl), Or.inr (Or.inl rfl), Or.inr (Or.inl rfl), Or.inr (Or.inl rfl), hW2 p hp]
  isplitl [Hxf]; · iexact Hxf
  isplitl [Htb]; · iexact Htb
  isplitl [Hq0 Hq1 HR4 HR5 Hi6 Hi7 Hi8 HR3 Hd8]
  · iapply (tok_step0 (F := F) _ (shq (jV L))).2
    isplitr [Hq0]
    rotate_left
    · iexact Hq0
    iapply (tok_step (F := F) _ (shq (jV L)) 1).2
    isplitr [Hq1]
    rotate_left
    · iexact Hq1
    iapply (tok_step (F := F) _ (shq (jV L)) 2).2
    isplitr [HR4]
    rotate_left
    · iexact HR4
    iapply (tok_step (F := F) _ (shq (jV L)) 3).2
    isplitr [HR5]
    rotate_left
    · iexact HR5
    iapply (tok_step (F := F) _ (shq (jV L)) 4).2
    isplitr [Hi6]
    rotate_left
    · iexact Hi6
    iapply (tok_step (F := F) _ (shq (jV L)) 5).2
    isplitr [Hi7]
    rotate_left
    · iexact Hi7
    iapply (tok_step (F := F) _ (shq (jV L)) 6).2
    isplitr [Hi8]
    rotate_left
    · iexact Hi8
    iapply (tok_step (F := F) _ (shq (jV L)) 7).2
    isplitr [HR3]
    rotate_left
    · iexact HR3
    iexact Hd8
  isplitl [Hixs]; · iexists fi2; iexact Hixs
  isplitl [HGF4_dst HGF5_dst HSF0_src HSF1_src HSF2_src HGF3_dst]
  · iexists (ringAll d L g4 g5 s0 s1 s2 g3)
    iapply (ring_join (F := F) L _)
    isplitl [HGF4_dst]
    · iapply (Entails.of_eq (slot_to_all (F := F) d L 0 (by decide) _ g4 _ (fun i h => by unfold ringAll; rw [if_pos h])))
      iexact HGF4_dst
    isplitl [HGF5_dst]
    · iapply (Entails.of_eq (slot_to_all (F := F) d L 1 (by decide) _ g5 _ (fun i h => by unfold ringAll; rw [if_neg (by omega), if_pos h])))
      iexact HGF5_dst
    isplitl [HSF0_src]
    · iapply (Entails.of_eq (slot_to_all (F := F) d L 2 (by decide) _ s0 _ (fun i h => by unfold ringAll; rw [if_neg (by omega), if_neg (by omega), if_pos h])))
      iexact HSF0_src
    isplitl [HSF1_src]
    · iapply (Entails.of_eq (slot_to_all (F := F) d L 3 (by decide) _ s1 _ (fun i h => by unfold ringAll; rw [if_neg (by omega), if_neg (by omega), if_neg (by omega), if_pos h])))
      iexact HSF1_src
    isplitl [HSF2_src]
    · iapply (Entails.of_eq (slot_to_all (F := F) d L 4 (by decide) _ s2 _ (fun i h => by unfold ringAll; rw [if_neg (by omega), if_neg (by omega), if_neg (by omega), if_neg (by omega), if_pos h])))
      iexact HSF2_src
    · iapply (Entails.of_eq (slot_to_all (F := F) d L 5 (by decide) _ g3 _ (fun i h => by unfold ringAll; rw [if_neg (by omega), if_neg (by omega), if_neg (by omega), if_neg (by omega), if_neg (by omega)])))
      iexact HGF3_dst
  isplitl [HoD HSF0_dst HSF1_dst HSF2_dst Ho3 Ho4 Ho5]
  · iapply (blocks_join_same (F := F) L (Cert.LookupKB.gathered X Tb))
    iapply (Entails.of_eq (outDone_full (F := F) d L X Tb))
    iapply (Entails.of_eq (outDone_push (F := F) d L X Tb 415 (by decide)).symm)
    isplitl [Ho5]
    · unfold outPts
      iapply (out_pts_of_OK X Tb L 415 (by decide) _ hOK5)
      iapply (Entails.of_eq (outBlock_congr (F := F) d L (ou := k0_off4 L 992#32 12#32) (hou := k0_off4_inb L 5) ((k0_off4_eq_992_12 L).trans rfl) _))
      iexact Ho5
    iapply (Entails.of_eq (outDone_push (F := F) d L X Tb 414 (by decide)).symm)
    isplitl [Ho4]
    · unfold outPts
      iapply (out_pts_of_OK X Tb L 414 (by decide) _ hOK4)
      iapply (Entails.of_eq (outBlock_congr (F := F) d L (ou := k0_off4 L 960#32 12#32) (hou := k0_off4_inb L 4) ((k0_off4_eq_960_12 L).trans rfl) _))
      iexact Ho4
    iapply (Entails.of_eq (outDone_push (F := F) d L X Tb 413 (by decide)).symm)
    isplitl [Ho3]
    · unfold outPts
      iapply (out_pts_of_OK X Tb L 413 (by decide) _ hOK3)
      iapply (Entails.of_eq (outBlock_congr (F := F) d L (ou := k0_off4 L 928#32 12#32) (hou := k0_off4_inb L 3) ((k0_off4_eq_928_12 L).trans rfl) _))
      iexact Ho3
    iapply (Entails.of_eq (outDone_push (F := F) d L X Tb 412 (by decide)).symm)
    isplitl [HSF2_dst]
    · unfold outPts
      iapply (out_pts_of_OK X Tb L 412 (by decide) _ hfo2)
      iapply (Entails.of_eq (outBlock_congr (F := F) d L (ou := k0_off4 L 896#32 12#32) (hou := k0_off4_inb L 8) ((k0_off4_eq_896_12 L).trans rfl) _))
      iexact HSF2_dst
    iapply (Entails.of_eq (outDone_push (F := F) d L X Tb 411 (by decide)).symm)
    isplitl [HSF1_dst]
    · unfold outPts
      iapply (out_pts_of_OK X Tb L 411 (by decide) _ hfo1)
      iapply (Entails.of_eq (outBlock_congr (F := F) d L (ou := k0_off4 L 864#32 12#32) (hou := k0_off4_inb L 7) ((k0_off4_eq_864_12 L).trans rfl) _))
      iexact HSF1_dst
    iapply (Entails.of_eq (outDone_push (F := F) d L X Tb 410 (by decide)).symm)
    isplitl [HSF0_dst]
    · unfold outPts
      iapply (out_pts_of_OK X Tb L 410 (by decide) _ hfo0)
      iapply (Entails.of_eq (outBlock_congr (F := F) d L (ou := k0_off4 L 832#32 12#32) (hou := k0_off4_inb L 6) ((k0_off4_eq_832_12 L).trans rfl) _))
      iexact HSF0_dst
    iexact HoD
  isplitl [His0]; · iexact His0
  isplitl [His1]; · iexact His1
  isplitl [HGF4]; · iexact HGF4
  isplitl [HGF5]; · iexact HGF5
  isplitl [Hgs6]; · iexact Hgs6
  isplitl [Hgs7]; · iexact Hgs7
  isplitl [Hgs8]; · iexact Hgs8
  isplitl [HGF3]; · iexact HGF3
  isplitl [Hss4]; · iexact Hss4
  isplitl [Hss5]; · iexact Hss5
  isplitl [HSF0]; · iexact HSF0
  isplitl [HSF1]; · iexact HSF1
  isplitl [HSF2]; · iexact HSF2
  isplitl [Hss3]; · iexact Hss3
  isplitl [Hsc]; · iexact Hsc
  iexact Hrest

end Tail
end Cert.Proof.KB
end
-- ==== Proof.KB.BodyLoopN0.lean ====
/-
  One trip of the loop from the invariant, when no index column's fetch is on its way and none is issued or awaited in the trip:
  the gathers of chunks `2k + 3` and `2k + 4` land and their slots are copied out; the copy-outs of chunks `2k` and `2k + 1` land and their
  blocks hold the result; the gathers of chunks `2k + 6` and `2k + 7` start into the two slots just freed.  Every piece is first respelt from
  its chunk number's closed form to the trip's own offsets, the trip is run, and the pieces are respelt to the next trip's chunk numbers.
-/
import proofs.«206644_g35837207118489_cont_8to1_b_589_28_alg».proof.Proof.KB.BodyLemmas2
import proofs.«206644_g35837207118489_cont_8to1_b_589_28_alg».proof.Proof.KB.InvIx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

set_option maxHeartbeats 32000000 in
set_option sl_exec.dmaWindow true in
set_option sl_exec.dmaWindowSet true in
set_option sl_exec.dmaWindowLent true in
theorem region_normal_none (k : Fin k0_t1_loop.trips) (acc : BitVec 32) (hk : k.val ≤ 205) (hk1 : k.val + 1 ≤ 205) (hkk : k.val < 205)
    (hc2 : ¬ k0_cond2 k = 1#1) (hc3 : ¬ k0_cond3 k = 1#1) (hp : ¬ pending k.val)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  ihave Hix := (Entails.of_eq (show IxPart d L X k.val fi = IxNone d L X (2 * k.val + 3) (2 * k.val + 4) (2 * k.val + 5) fi from dif_neg hp)) $$ Hix
  unfold IxNone
  icases Hix with ⟨Hi, His0, His1, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3
  sl_exec

  subst hQ
  sl_step
  -- the state of the fetches does not change on this trip
  have h2 := (k0_cond2_eq k).not.mp hc2
  have h3 := (k0_cond3_eq k).not.mp hc3
  have hp' : ¬ pending (k.val + 1) := by unfold pending curF at hp ⊢; omega
  have hcur : curF k.val = curF (k.val + 1) := by unfold curF; omega
  have hoth : othF k.val = othF (k.val + 1) := by unfold othF curF; split_ifs <;> omega
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch and the three gathers in flight
  isplitl [HG5 Hr5 Hgs6 Hq6 Hgs7 Hq7 Hi HG3_dst_and HG4_dst_and His0 His1 Hxf]
  · iexists fi
    isplitr
    · ipureintro; exact ⟨HalfOK_congr X L hcur fi hhalf.1, HalfOK_congr X L hoth fi hhalf.2⟩
    isplitl [HG5 Hr5]
    · iapply (Entails.of_eq (GatC_congr (h := by omega) d L X Tb (show 2 * k.val + 5 = 2 * (k.val + 1) + 3 by omega) fi))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) fi))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) fi (HalfOK_congr X L (by unfold curF; omega) fi hhalf.1) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) fi))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) fi (HalfOK_congr X L (by unfold curF; omega) fi hhalf.1) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch: the two returned lists rejoin it
    iapply (Entails.of_eq (show IxPart d L X (k.val + 1) fi = IxNone d L X (2 * (k.val + 1) + 3) (2 * (k.val + 1) + 4) (2 * (k.val + 1) + 5) fi from dif_neg hp').symm)
    unfold IxNone
    isplitl [Hi HG3_dst_and HG4_dst_and]
    · iapply (Entails.of_eq (ixRest3_congr (ha := cList_inb (2 * k.val + 5)) (hb := k0_off17_inb k 0) (hc := k0_off17_inb k 1) d L
          (show cList (2 * k.val + 5) = cList (2 * (k.val + 1) + 3) from congrArg cList (by omega))
          ((k0_off17_eq_0 k).trans (congrArg cList (by omega : 2 * k.val + 6 = 2 * (k.val + 1) + 4)))
          ((k0_off17_eq_1 k).trans (congrArg cList (by omega : 2 * k.val + 7 = 2 * (k.val + 1) + 5))) fi))
      iapply (ix_rejoin d L Finset.univ (k0_off6 k 0#32) (k0_off6 k 1#32) (cList (2 * k.val + 5)) (k0_off17 k 0#32) (k0_off17 k 1#32)
          (k0_off6_inb k 0) (k0_off6_inb k 1) (cList_inb (2 * k.val + 5)) (k0_off17_inb k 0) (k0_off17_inb k 1) fi
          (Finset.subset_univ _) (Finset.subset_univ _) (list6_0_list6_1 k) (list6_0_list5 k) (list17_0_list6_0 k).symm (list17_1_list6_0 k).symm
          (list6_1_list5 k) (list17_0_list6_1 k).symm (list17_1_list6_1 k).symm)
      isplitl [Hi]; · iexact Hi
      isplitl [HG3_dst_and]; · iexact HG3_dst_and
      iexact HG4_dst_and
    isplitl [His0]; · iexact His0
    isplitl [His1]; · iexact His1
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KB

end
-- ==== Proof.KB.BodyLoopN1.lean ====
/-
  One trip of the loop from the invariant, while the next field's index column is on its way and is neither issued nor awaited in the trip:
  the gathers of chunks `2k + 3` and `2k + 4` land and their slots are copied out; the copy-outs of chunks `2k` and `2k + 1` land and their
  blocks hold the result; the gathers of chunks `2k + 6` and `2k + 7` start into the two slots just freed.  Every piece is first respelt from
  its chunk number's closed form to the trip's own offsets, the trip is run, and the pieces are respelt to the next trip's chunk numbers.
-/
import proofs.«206644_g35837207118489_cont_8to1_b_589_28_alg».proof.Proof.KB.BodyLemmas2
import proofs.«206644_g35837207118489_cont_8to1_b_589_28_alg».proof.Proof.KB.InvIx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

set_option maxHeartbeats 32000000 in
set_option sl_exec.dmaWindow true in
set_option sl_exec.dmaWindowSet true in
set_option sl_exec.dmaWindowLent true in
theorem region_normal_pend (k : Fin k0_t1_loop.trips) (acc : BitVec 32) (hk : k.val ≤ 205) (hk1 : k.val + 1 ≤ 205) (hkk : k.val < 205)
    (hc2 : ¬ k0_cond2 k = 1#1) (hc3 : ¬ k0_cond3 k = 1#1) (hp : pending k.val)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  have h0' : (2 * k.val + 6) % 32 ≠ 0 := by have := (k0_cond3_eq k).not.mp hc3; omega
  have hb0 := (pend_list17_0 k hp h0').symm
  have hb1 := (pend_list17_1 k hp h0').symm
  have hb0' := pend_list17_0 k hp h0'
  have hb1' := pend_list17_1 k hp h0'
  ihave Hix := (Entails.of_eq (show IxPart d L X k.val fi = IxPend d L X (curF k.val) hp.2 (2 * k.val + 3) (2 * k.val + 4) (2 * k.val + 5) fi from dif_pos hp)) $$ Hix
  unfold IxPend
  icases Hix with ⟨Hi, His, HFl, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3
  sl_exec

  subst hQ
  sl_step
  -- the state of the fetches does not change on this trip
  have h2 := (k0_cond2_eq k).not.mp hc2
  have h3 := (k0_cond3_eq k).not.mp hc3
  have hp' : pending (k.val + 1) := by unfold pending curF at hp ⊢; omega
  have hcur : curF k.val = curF (k.val + 1) := by unfold curF; omega
  have hoth : othF k.val = othF (k.val + 1) := by unfold othF curF; split_ifs <;> omega
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch and the three gathers in flight
  isplitl [HG5 Hr5 Hgs6 Hq6 Hgs7 Hq7 Hi HG3_dst_and HG4_dst_and His HFl Hxf]
  · iexists fi
    isplitr
    · ipureintro; exact ⟨HalfOK_congr X L hcur fi hhalf.1, HalfOK_congr X L hoth fi hhalf.2⟩
    isplitl [HG5 Hr5]
    · iapply (Entails.of_eq (GatC_congr (h := by omega) d L X Tb (show 2 * k.val + 5 = 2 * (k.val + 1) + 3 by omega) fi))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) fi))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) fi (HalfOK_congr X L (by unfold curF; omega) fi hhalf.1) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) fi))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) fi (HalfOK_congr X L (by unfold curF; omega) fi hhalf.1) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch: the two returned lists rejoin it
    iapply (Entails.of_eq (show IxPart d L X (k.val + 1) fi = IxPend d L X (curF (k.val + 1)) hp'.2 (2 * (k.val + 1) + 3) (2 * (k.val + 1) + 4) (2 * (k.val + 1) + 5) fi from dif_pos hp').symm)
    iapply (Entails.of_eq (IxPend_congr (h := hp.2) d L X hcur (show 2 * k.val + 5 = 2 * (k.val + 1) + 3 by omega) (show 2 * k.val + 6 = 2 * (k.val + 1) + 4 by omega) (show 2 * k.val + 7 = 2 * (k.val + 1) + 5 by omega) fi))
    unfold IxPend
    isplitl [Hi HG3_dst_and HG4_dst_and]
    · iapply (Entails.of_eq (ixRest3_congr (ha := cList_inb (2 * k.val + 5)) (hb := k0_off17_inb k 0) (hc := k0_off17_inb k 1) d L
          (rfl : cList (2 * k.val + 5) = cList (2 * k.val + 5))
          (k0_off17_eq_0 k)
          (k0_off17_eq_1 k) fi))
      iapply (ix_rejoin d L (@SDiff.sdiff (Finset (Idx ((ixsV).view.loc (V d (cV L) (jV L))))) _ Finset.univ (halfO (cHalf (curF k.val + 1)) (cHalf_inb (curF k.val + 1))).view.set) (k0_off6 k 0#32) (k0_off6 k 1#32) (cList (2 * k.val + 5)) (k0_off17 k 0#32) (k0_off17 k 1#32)
          (k0_off6_inb k 0) (k0_off6_inb k 1) (cList_inb (2 * k.val + 5)) (k0_off17_inb k 0) (k0_off17_inb k 1) fi
          (listO_subset_but_half d L (pend_list6_0 k hp h0')) (listO_subset_but_half d L (pend_list6_1 k hp h0')) (list6_0_list6_1 k) (list6_0_list5 k) (list17_0_list6_0 k).symm (list17_1_list6_0 k).symm
          (list6_1_list5 k) (list17_0_list6_1 k).symm (list17_1_list6_1 k).symm)
      isplitl [Hi]; · iexact Hi
      isplitl [HG3_dst_and]; · iexact HG3_dst_and
      iexact HG4_dst_and
    isplitl [His]; · iexact His
    isplitl [HFl]; · iexact HFl
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KB

end
-- ==== Proof.KB.InvPre.lean ====
/-
  The index scratch across the fetch of the next field's column.

  The fetch of field `fl + 1`'s column (`fl` the field of chunk `2k + 6`) writes the half `(fl + 1) % 2` of the index scratch with
  the tile's column of that field.  Off that half nothing changes, so what is held of the scratch outside it, and the lists of
  the gathers in flight, hold the same words before and after; the other half still holds field `fl`'s column; and the half
  written holds field `fl + 1`'s.
-/
import proofs.«206644_g35837207118489_cont_8to1_b_589_28_alg».proof.Proof.KB.Inv
import proofs.«206644_g35837207118489_cont_8to1_b_589_28_alg».proof.Proof.KB.BodyDisj
import proofs.«206644_g35837207118489_cont_8to1_b_589_28_alg».proof.Proof.KB.BodyLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

variable (d : Dev nD) (L : grid0.Coords) (X : Buf (Elt F) (ixLoc d)) (k : Fin k0_t1_loop.trips) (hc2 : k0_cond2 k = 1#1)

/-- What the fetch moves: the tile's column of the next field, read through the program's slice of the flattened columns. -/
abbrev preW : S1024.Idx → Elt F .i32 :=
  ReadAs.same.apply (View.read (Elt F) (colO (k0_off11 L k) (k0_off11_inb L k hc2)).view X)

/-- The index scratch's contents once the fetch is issued: its half written with that column. -/
abbrev fiP (fi : Buf (Elt F) ((V d (cV L) (jV L)).loc cc0_scratch1)) : Buf (Elt F) ((V d (cV L) (jV L)).loc cc0_scratch1) :=
  (ixsV).view.writes (Elt F) fi [⟨Rect.unit (s := S2048) (k0_off10 k) S1024.size (k0_off10_inb k hc2), preW d L X k hc2⟩]

omit [FloatOps F] in
/-- Off the half written, the contents are the old ones. -/
theorem fiP_off (fi : Buf (Elt F) ((V d (cV L) (jV L)).loc cc0_scratch1)) (i : Idx ((ixsV).view.loc (V d (cV L) (jV L))))
    (hi : i ∉ (halfO (k0_off10 k) (k0_off10_inb k hc2)).view.set) : fiP d L X k hc2 fi i = fi i := by
  show (((ixsV).view.slice (Rect.unit (s := S2048) (k0_off10 k) S1024.size (k0_off10_inb k hc2))).write (Elt F) fi (preW d L X k hc2) Finset.univ) i = fi i
  exact View.write_of_not_mem _ _ _ (by rw [View.setOn_univ]; exact hi)

omit [FloatOps F] in
/-- A piece of the scratch that misses the half holds the same words before and after. -/
theorem pts_fiP (fi : Buf (Elt F) ((V d (cV L) (jV L)).loc cc0_scratch1)) (I : Finset (Idx ((ixsV).view.loc (V d (cV L) (jV L))))) (q : PosShare TreeShare)
    (hI : Disjoint I (halfO (k0_off10 k) (k0_off10_inb k hc2)).view.set) :
    ((ixsV).view.loc (V d (cV L) (jV L)) ↦[I]{q} fi : sProp 𝕄) = ((ixsV).view.loc (V d (cV L) (jV L)) ↦[I]{q} fiP d L X k hc2 fi) :=
  pointsTo_congr fun i hi => (fiP_off d L X k hc2 fi i (Finset.disjoint_left.mp hI hi)).symm

/-- The half of a field of the other parity still holds that field's column. -/
theorem halfOK_keep (fi : Buf (Elt F) ((V d (cV L) (jV L)).loc cc0_scratch1)) (f : ℕ) (h : f < 13) (hf : f % 2 ≠ ((2 * k.val + 6) / 32 + 1) % 2)
    (H : HalfOK X L f h fi) : HalfOK X L f h (fiP d L X k hc2 fi) := by
  intro y
  have hy : (y 0).val < 1024 := (y 0).isLt
  rw [← H y, halfO_read L _ _ _ y (by show f % 2 * 1024 + (y 0).val < 2048; omega), halfO_read L _ _ _ y (by show f % 2 * 1024 + (y 0).val < 2048; omega)]
  refine fiP_off d L X k hc2 fi _ ?_
  rw [halfO_set, Rect.mem_set_unit]
  intro hm
  have h0 := hm 0
  rw [k0_off10_eq k] at h0
  have h1 : ((2 * k.val + 6) / 32 + 1) % 2 * 1024 ≤ f % 2 * 1024 + (y 0).val ∧ f % 2 * 1024 + (y 0).val < ((2 * k.val + 6) / 32 + 1) % 2 * 1024 + 1024 := h0
  omega

set_option maxHeartbeats 4000000 in
/-- The half written holds the next field's column. -/
theorem halfOK_new (fi : Buf (Elt F) ((V d (cV L) (jV L)).loc cc0_scratch1)) (h : (2 * k.val + 6) / 32 + 1 < 13) :
    HalfOK X L ((2 * k.val + 6) / 32 + 1) h (fiP d L X k hc2 fi) := by
  intro y
  have hy : (y 0).val < 1024 := (y 0).isLt
  have e10 := k0_off10_eq k
  have e11 := k0_off11_eq L k
  rw [halfO_read L _ _ _ y (by show ((2 * k.val + 6) / 32 + 1) % 2 * 1024 + (y 0).val < 2048; omega)]
  have h1 := View.read_writes_cons_emb (v := (ixsV).view) (f := fi) (Rect.unit (s := S2048) (k0_off10 k) S1024.size (k0_off10_inb k hc2)) (preW d L X k hc2) [] y
  have h2 : fiP d L X k hc2 fi ((Rect.unit (s := S2048) (k0_off10 k) S1024.size (k0_off10_inb k hc2)).emb y) = preW d L X k hc2 y := h1
  have e : (ix1 (n := 2048) ⟨((2 * k.val + 6) / 32 + 1) % 2 * 1024 + (y 0).val, by omega⟩ : S2048.Idx)
      = (Rect.unit (s := S2048) (k0_off10 k) S1024.size (k0_off10_inb k hc2)).emb y := by
    funext a
    match a with
    | ⟨0, _⟩ =>
      apply Fin.ext
      show ((2 * k.val + 6) / 32 + 1) % 2 * 1024 + (y 0).val = k0_off10 k 0 + 1 * (y 0).val
      rw [e10]; show _ = ((2 * k.val + 6) / 32 + 1) % 2 * 1024 + 1 * (y 0).val; omega
  show fiP d L X k hc2 fi (ix1 (n := 2048) ⟨((2 * k.val + 6) / 32 + 1) % 2 * 1024 + (y 0).val, _⟩) = _
  rw [e, h2]
  show X ((colO (k0_off11 L k) (k0_off11_inb L k hc2)).view.emb y) = _
  refine congrArg X (funext fun a => ?_)
  match a with
  | ⟨0, _⟩ =>
    apply Fin.ext
    show k0_off11 L k 0 + 1 * (y 0).val = 16384 * (13 * (L 0).val + ((2 * k.val + 6) / 32 + 1)) + 1024 * (L 1).val + (y 0).val
    rw [e11]; show 212992 * (L 0).val + 16384 * ((2 * k.val + 6) / 32) + 1024 * (L 1).val + 16384 + 1 * (y 0).val = _; omega

omit [FloatOps F] in
/-- A piece held through a list's own location is held through the scratch's. -/
theorem ixs_loc_respell {o : Fin 1 → ℕ} {h : ∀ a, o a + S32.size a ≤ S2048.size a} (S : Finset (Idx ((ixsV).view.loc (V d (cV L) (jV L)))))
    (q : PosShare TreeShare) (f : Buf (Elt F) ((V d (cV L) (jV L)).loc cc0_scratch1)) :
    ((listO o h).view.loc (V d (cV L) (jV L)) ↦[S]{q} f : sProp 𝕄) ⊢ ((ixsV).view.loc (V d (cV L) (jV L)) ↦[S]{q} f) := BI.Entails.refl _

end Cert.Proof.KB

end
-- ==== Proof.KB.InvFi.lean ====
/-
  The index scratch's contents may change where a piece does not look: a gather in flight, the scratch's rest and a chunk's gather
  assertion are the same under two contents that agree on the piece's own words.
-/
import proofs.«206644_g35837207118489_cont_8to1_b_589_28_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

section Fi

variable (d : Dev nD) (L : grid0.Coords)

theorem GFo_fi_congr (gs : Fin 1 → ℕ) (hgs) (sl : Fin 3 → ℕ) (hsl) (li : Fin 1 → ℕ) (hli) (tb : Fin 2 → ℕ) (htb) (q : PosShare TreeShare)
    (g : Buf (Elt F) ((V d (cV L) (jV L)).loc cc0_scratch2)) (fi fi' : Buf (Elt F) ((V d (cV L) (jV L)).loc cc0_scratch1)) (Sp : Buf (Elt F) ((V d (cV L) (jV L)).loc cc0_scratch0))
    (h : ∀ i ∈ (listO li hli).view.set, fi i = fi' i) :
    GFo (F := F) d L gs hgs sl hsl li hli tb htb q g fi Sp = GFo d L gs hgs sl hsl li hli tb htb q g fi' Sp := by
  unfold GFo
  rw [show ((listO li hli).view.loc (V d (cV L) (jV L)) ↦[(listO li hli).view.set]{fullShare} fi : sProp 𝕄)
      = (listO li hli).view.loc (V d (cV L) (jV L)) ↦[(listO li hli).view.set]{fullShare} fi' from pointsTo_congr h]

theorem ixRest3_fi_congr (base) (a : Fin 1 → ℕ) (ha) (b : Fin 1 → ℕ) (hb) (c : Fin 1 → ℕ) (hc) (fi fi' : Buf (Elt F) ((V d (cV L) (jV L)).loc cc0_scratch1))
    (h : ∀ i ∈ @SDiff.sdiff (Finset (Idx ((ixsV).view.loc (V d (cV L) (jV L))))) _ (@SDiff.sdiff (Finset (Idx ((ixsV).view.loc (V d (cV L) (jV L))))) _ (@SDiff.sdiff (Finset (Idx ((ixsV).view.loc (V d (cV L) (jV L))))) _ base (listO a ha).view.set) (listO b hb).view.set) (listO c hc).view.set, fi i = fi' i) :
    ixRest3 (F := F) d L base a ha b hb c hc fi = ixRest3 d L base a ha b hb c hc fi' := by
  unfold ixRest3; rw [pointsTo_congr h]

theorem GatC_fi_congr (X : Buf (Elt F) (ixLoc d)) (Tb : Buf (Elt F) (tbLoc d)) (n : ℕ) (hn : n < 416) (fi fi' : Buf (Elt F) ((V d (cV L) (jV L)).loc cc0_scratch1))
    (h : ∀ i ∈ (listO (cList n) (cList_inb n)).view.set, fi i = fi' i) :
    GatC (F := F) d L X Tb n hn fi = GatC d L X Tb n hn fi' := by
  unfold GatC; simp only [GFo_fi_congr d L _ _ _ _ _ _ _ _ _ _ fi fi' _ h]

end Fi

end Cert.Proof.KB

end
-- ==== Proof.KB.BodyLoopP.lean ====
/-
  One trip of the loop from the invariant, on a trip that fetches the next field's index column: chunk `2k + 6` is block 2 of
  its field `fl`, no fetch is on its way at the start, and during the trip the column of field `fl + 1` is fetched into the half of
  the index scratch that held field `fl - 1`'s column — whose last list, chunk `2k + 3`'s, has come back just before.  The index
  scratch's contents change on that half only, so every piece of it held outside the half, and the list of the gather still in
  flight, hold the same words before and after; the invariant after the trip is at the new contents, with the fetch on its way.
-/
import proofs.«206644_g35837207118489_cont_8to1_b_589_28_alg».proof.Proof.KB.BodyLemmas2
import proofs.«206644_g35837207118489_cont_8to1_b_589_28_alg».proof.Proof.KB.InvIx
import proofs.«206644_g35837207118489_cont_8to1_b_589_28_alg».proof.Proof.KB.InvPre
import proofs.«206644_g35837207118489_cont_8to1_b_589_28_alg».proof.Proof.KB.InvFi

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

section Sems
variable (d : Dev nD) (L : grid0.Coords)
omit [FloatOps F] in
theorem isem0_congr {o o' : Fin 1 → ℕ} {h : ∀ a, o a + S1.size a ≤ S2.size a} {h' : ∀ a, o' a + S1.size a ≤ S2.size a} (e : o = o') :
    (semVal ((V d (cV L) (jV L)), SemLoc.dma (isemO o h).sem) 0 : sProp 𝕄) = semVal ((V d (cV L) (jV L)), SemLoc.dma (isemO o' h').sem) 0 := by
  subst e; rfl

omit [FloatOps F] in
/-- The two fetch semaphores, named by a field's parity and the next field's. -/
theorem isems_by_parity (cf : ℕ) :
    iprop(semVal ((V d (cV L) (jV L)), SemLoc.dma (isemO ![0] inb_S2_S1_0).sem) 0 ∗ semVal ((V d (cV L) (jV L)), SemLoc.dma (isemO ![1] inb_S2_S1_1).sem) 0)
      ⊢ (iprop(semVal ((V d (cV L) (jV L)), SemLoc.dma (isemO (cIsem cf) (cIsem_inb cf)).sem) 0
          ∗ semVal ((V d (cV L) (jV L)), SemLoc.dma (isemO (cIsem (cf + 1)) (cIsem_inb (cf + 1))).sem) 0) : sProp 𝕄) := by
  rcases Nat.mod_two_eq_zero_or_one cf with h | h
  · have h' : (cf + 1) % 2 = 1 := by omega
    rw [isem0_congr (F := F) d L (o := cIsem cf) (o' := ![0]) (h' := inb_S2_S1_0) (by unfold cIsem; rw [h]),
      isem0_congr (F := F) d L (o := cIsem (cf + 1)) (o' := ![1]) (h' := inb_S2_S1_1) (by unfold cIsem; rw [h'])]
  · have h' : (cf + 1) % 2 = 0 := by omega
    rw [isem0_congr (F := F) d L (o := cIsem cf) (o' := ![1]) (h' := inb_S2_S1_1) (by unfold cIsem; rw [h]),
      isem0_congr (F := F) d L (o := cIsem (cf + 1)) (o' := ![0]) (h' := inb_S2_S1_0) (by unfold cIsem; rw [h'])]
    iintro ⟨A, B⟩
    isplitl [B]; · iexact B
    iexact A
end Sems

section Pend
variable (d : Dev nD) (L : grid0.Coords) (X : Buf (Elt F) (ixLoc d))

/-- A column fetch in flight, by the offsets of its semaphore, its half of the index scratch and its column. -/
abbrev pFlight (is : Fin 1 → ℕ) (his : ∀ a, is a + S1.size a ≤ S2.size a) (hf : Fin 1 → ℕ) (hhf : ∀ a, hf a + S1024.size a ≤ S2048.size a)
    (co : Fin 1 → ℕ) (hco : ∀ a, co a + S1024.size a ≤ S425984.size a) (fi : Buf (Elt F) ((V d (cV L) (jV L)).loc cc0_scratch1)) : sProp 𝕄 :=
  Transfers.Flight countersEmb (V d (cV L) (jV L)) (SemLoc.dma (isemO is his).sem) (default : HIx 1) 32768
    iprop(((ixsV).view.loc (V d (cV L) (jV L)) ↦[(halfO hf hhf).view.set]{fullShare} fi)
      ∗ ((xfV).view.loc (V d (cV L) (jV L)) ↦[(colO co hco).view.set]{shareOf L} X))
omit [FloatOps F] in
theorem pFlight_congr {is is' : Fin 1 → ℕ} {his his'} {hf hf' : Fin 1 → ℕ} {hhf hhf'} {co co' : Fin 1 → ℕ} {hco hco'}
    (e1 : is = is') (e2 : hf = hf') (e3 : co = co') (fi) :
    pFlight (F := F) d L X is his hf hhf co hco fi = pFlight d L X is' his' hf' hhf' co' hco' fi := by subst e1 e2 e3; rfl

/-- The flattened columns' share but a column. -/
abbrev xfRest (co : Fin 1 → ℕ) (hco : ∀ a, co a + S1024.size a ≤ S425984.size a) : sProp 𝕄 :=
  (xfV).view.loc (V d (cV L) (jV L)) ↦[Finset.univ \ (colO co hco).view.set]{shareOf L} X
omit [FloatOps F] in
theorem xfRest_congr {co co' : Fin 1 → ℕ} {hco hco'} (e : co = co') : xfRest (F := F) d L X co hco = xfRest d L X co' hco' := by subst e; rfl

omit [FloatOps F] in
theorem ixRest3_half_congr {hf hf' : Fin 1 → ℕ} {hhf : ∀ a, hf a + S1024.size a ≤ S2048.size a} {hhf' : ∀ a, hf' a + S1024.size a ≤ S2048.size a} (e : hf = hf')
    (a : Fin 1 → ℕ) (ha) (b : Fin 1 → ℕ) (hb) (c : Fin 1 → ℕ) (hc) (fi : Buf (Elt F) ((V d (cV L) (jV L)).loc cc0_scratch1)) :
    ixRest3 (F := F) d L (@SDiff.sdiff (Finset (Idx ((ixsV).view.loc (V d (cV L) (jV L))))) _ Finset.univ (halfO hf hhf).view.set) a ha b hb c hc fi
      = ixRest3 d L (@SDiff.sdiff (Finset (Idx ((ixsV).view.loc (V d (cV L) (jV L))))) _ Finset.univ (halfO hf' hhf').view.set) a ha b hb c hc fi := by subst e; rfl
end Pend

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

set_option maxHeartbeats 32000000 in
set_option sl_exec.dmaWindow true in
set_option sl_exec.dmaWindowSet true in
set_option sl_exec.dmaWindowLent true in
theorem region_prefetch (k : Fin k0_t1_loop.trips) (acc : BitVec 32) (hk : k.val ≤ 205) (hk1 : k.val + 1 ≤ 205) (hkk : k.val < 205)
    (hc2 : k0_cond2 k = 1#1)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have h2 := (k0_cond2_eq k).mp hc2
  have hc3 : ¬ k0_cond3 k = 1#1 := fun h => by have := (k0_cond3_eq k).mp h; omega
  have hp : ¬ pending k.val := fun h => h.1 h2.1
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  have hh1 := half10_list6_1 k hc2
  have hh2 := half10_list5 k hc2
  have hh3 := half10_list17_0 k hc2
  have hh4 := half10_list17_1 k hc2
  have hh1' := (half10_list6_1 k hc2).symm
  have hh2' := (half10_list5 k hc2).symm
  have hh3' := (half10_list17_0 k hc2).symm
  have hh4' := (half10_list17_1 k hc2).symm
  have hsub := list6_0_subset_half10 k hc2
  have hd7 := list6_0_list6_1 k
  have hd8 := list6_0_list5 k
  have hd9 := list6_1_list5 k
  ihave Hix := (Entails.of_eq (show IxPart d L X k.val fi = IxNone d L X (2 * k.val + 3) (2 * k.val + 4) (2 * k.val + 5) fi from dif_neg hp)) $$ Hix
  unfold IxNone
  icases Hix with ⟨Hi, His0, His1, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3
  set_option sl_exec.stopBefore "k0_cond2" in sl_exec
  ihave Hi := (ixs_loc_respell (F := F) d L _ _ _) $$ Hi
  have hcf : curF k.val = (2 * k.val + 6) / 32 := by unfold curF; omega
  ihave Hpar := (isems_by_parity (F := F) d L (curF k.val)) $$ [His0 His1]
  · isplitl [His0]; · iexact His0
    iexact His1
  icases Hpar with ⟨Hisc, Hisn⟩
  ihave Hisn := (Entails.of_eq (isem0_congr (F := F) d L (h' := k0_off12_inb k hc2) (show cIsem (curF k.val + 1) = k0_off12 k from by rw [k0_off12_eq k, hcf]))) $$ Hisn
  sl_exec
  sl_unfold_run_names
  have hfl : (2 * k.val + 6) / 32 + 1 < 13 := by omega
  have hpar2 : curF k.val % 2 ≠ ((2 * k.val + 6) / 32 + 1) % 2 := by rw [hcf]; omega
  have hK := halfOK_keep d L X k hc2 fi (curF k.val) (curF_lt k.val hk) hpar2 hhalf.1
  have hN := halfOK_new d L X k hc2 fi hfl
  have hin2 := hin_of_halves X hX L (curF k.val) ((2 * k.val + 6) / 32 + 1) (curF_lt k.val hk) hfl hpar2 (fiP d L X k hc2 fi) hK hN
  sl_exec
  ihave Hi := (ixs_loc_respell (F := F) d L _ _ _) $$ Hi
  sl_exec
  subst hQ
  sl_step
  have hp' : pending (k.val + 1) := by unfold pending curF; omega
  have hcur : curF k.val = curF (k.val + 1) := by unfold curF; omega
  have hoth : (2 * k.val + 6) / 32 + 1 = othF (k.val + 1) := by unfold othF curF; split_ifs <;> omega
  have hp2 : curF k.val + 1 < 13 := by rw [hcf]; omega
  have e10 : k0_off10 k = cHalf (curF k.val + 1) := by rw [k0_off10_eq k, hcf]
  have e11 : k0_off11 L k = cCol L (curF k.val + 1) := by
    rw [k0_off11_eq L k, hcf]; show (![_] : Fin 1 → ℕ) = ![_]; congr 1; omega
  have e12 : k0_off12 k = cIsem (curF k.val + 1) := by rw [k0_off12_eq k, hcf]
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch, at its new contents, and the three gathers in flight
  isplitl [HG5 Hr5 Hgs6 Hq6 Hgs7 Hq7 Hi Hisc Hisn Hxf]
  · iexists (fiP d L X k hc2 fi)
    isplitr
    · ipureintro; exact ⟨HalfOK_congr X L hcur _ hK, HalfOK_congr X L hoth _ hN⟩
    isplitl [HG5 Hr5]
    · iapply (Entails.of_eq (GatC_congr (h := by omega) d L X Tb (show 2 * k.val + 5 = 2 * (k.val + 1) + 3 by omega) (fiP d L X k hc2 fi)))
      iapply (Entails.of_eq (GatC_fi_congr d L X Tb (2 * k.val + 5) _ fi (fiP d L X k hc2 fi)
        (by intro i hi; exact (fiP_off d L X k hc2 fi _ (Finset.disjoint_left.mp hh2' hi)).symm)))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) (fiP d L X k hc2 fi)))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) (fiP d L X k hc2 fi) (HalfOK_congr X L (by unfold curF; omega) _ hK) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) (fiP d L X k hc2 fi)))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) (fiP d L X k hc2 fi) (HalfOK_congr X L (by unfold curF; omega) _ hK) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch and the column fetch now on its way
    iapply (Entails.of_eq (show IxPart d L X (k.val + 1) (fiP d L X k hc2 fi) = IxPend d L X (curF (k.val + 1)) hp'.2 (2 * (k.val + 1) + 3) (2 * (k.val + 1) + 4) (2 * (k.val + 1) + 5) (fiP d L X k hc2 fi) from dif_pos hp').symm)
    iapply (Entails.of_eq (IxPend_congr (h := hp2) d L X hcur (show 2 * k.val + 5 = 2 * (k.val + 1) + 3 by omega) (show 2 * k.val + 6 = 2 * (k.val + 1) + 4 by omega) (show 2 * k.val + 7 = 2 * (k.val + 1) + 5 by omega) (fiP d L X k hc2 fi)))
    unfold IxPend
    isplitl [Hi]
    · iapply (Entails.of_eq (ixRest3_half_congr (F := F) d L (hhf := k0_off10_inb k hc2) e10 _ _ _ _ _ _ (fiP d L X k hc2 fi)))
      iapply (Entails.of_eq (ixRest3_congr (ha := cList_inb (2 * k.val + 5)) (hb := k0_off17_inb k 0) (hc := k0_off17_inb k 1) d L
          (rfl : cList (2 * k.val + 5) = cList (2 * k.val + 5)) (k0_off17_eq_0 k) (k0_off17_eq_1 k) (fiP d L X k hc2 fi)))
      unfold ixRest3
      rw [show @SDiff.sdiff (Finset (Idx ((ixsV).view.loc (V d (cV L) (jV L))))) _ (@SDiff.sdiff (Finset (Idx ((ixsV).view.loc (V d (cV L) (jV L))))) _ (Finset.univ) (halfO (k0_off10 k) (k0_off10_inb k hc2)).view.set) (listO (cList (2 * k.val + 5)) (cList_inb (2 * k.val + 5))).view.set = @SDiff.sdiff (Finset (Idx ((ixsV).view.loc (V d (cV L) (jV L))))) _ (@SDiff.sdiff (Finset (Idx ((ixsV).view.loc (V d (cV L) (jV L))))) _ (Finset.univ) (listO (cList (2 * k.val + 5)) (cList_inb (2 * k.val + 5))).view.set) (halfO (k0_off10 k) (k0_off10_inb k hc2)).view.set from sdiff_right_comm _ _ _]
      iexact Hi
    isplitl [Hisc]; · iexact Hisc
    isplitl [Hisn]
    · iapply (Entails.of_eq (pFlight_congr (F := F) d L X (his := k0_off12_inb k hc2) (hhf := k0_off10_inb k hc2) (hco := k0_off11_inb L k hc2) e12 e10 e11 (fiP d L X k hc2 fi)))
      iexact Hisn
    iapply (Entails.of_eq (xfRest_congr (F := F) d L X (hco := k0_off11_inb L k hc2) e11))
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KB

end
-- ==== Proof.KB.BodyLoopC.lean ====
/-
  One trip of the loop from the invariant, on a trip that waits for the next field's index column: chunk `2k + 6` is the first block of
  field `fl = (2k + 6) / 32`, whose column was fetched into half `fl % 2` of the index scratch while the chunks of field `fl - 1` were read
  from the other half.  The trip waits for that fetch, which hands back the half holding the column and the column's words of the flattened
  columns; the gathers of chunks `2k + 6` and `2k + 7` then read their lists inside that half.  Afterwards no fetch is on its way.
-/
import proofs.«206644_g35837207118489_cont_8to1_b_589_28_alg».proof.Proof.KB.BodyLemmas2
import proofs.«206644_g35837207118489_cont_8to1_b_589_28_alg».proof.Proof.KB.InvIx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

variable (d : Dev nD) (L : grid0.Coords) (X : Buf (Elt F) (ixLoc d)) (Tb : Buf (Elt F) (tbLoc d)) (f0 : Buf (Elt F) (outLoc d))
  (O : CellTallies nD τ sig (HIx 1)) (W : Waits sig (HIx 1))

/-! ## The fetch's pieces under other spellings of their offsets -/

omit [FloatOps F] in
theorem butHalf_congr {o o' : Fin 1 → ℕ} {h : ∀ a, o a + S1024.size a ≤ S2048.size a} {h' : ∀ a, o' a + S1024.size a ≤ S2048.size a} (e : o = o') :
    (@SDiff.sdiff (Finset (Idx ((ixsV).view.loc (V d (cV L) (jV L))))) _ Finset.univ (halfO o h).view.set)
      = @SDiff.sdiff (Finset (Idx ((ixsV).view.loc (V d (cV L) (jV L))))) _ Finset.univ (halfO o' h').view.set := by subst e; rfl

theorem ixRest3_base_congr {base base' : Finset (Idx ((ixsV).view.loc (V d (cV L) (jV L))))} (e : base = base')
    (a : Fin 1 → ℕ) (ha) (b : Fin 1 → ℕ) (hb) (c : Fin 1 → ℕ) (hc) (fi : Buf (Elt F) ((V d (cV L) (jV L)).loc cc0_scratch1)) :
    ixRest3 (F := F) d L base a ha b hb c hc fi = ixRest3 d L base' a ha b hb c hc fi := by subst e; rfl

/-- The fetch in flight, by the offsets of its semaphore, of the half it fills and of the column it reads. -/
abbrev fetchFl (se : Fin 1 → ℕ) (hse : ∀ a, se a + S1.size a ≤ S2.size a) (ha : Fin 1 → ℕ) (hha : ∀ a, ha a + S1024.size a ≤ S2048.size a)
    (co : Fin 1 → ℕ) (hco : ∀ a, co a + S1024.size a ≤ S425984.size a) (fi : Buf (Elt F) ((V d (cV L) (jV L)).loc cc0_scratch1)) : sProp 𝕄 :=
  Transfers.Flight countersEmb (V d (cV L) (jV L)) (SemLoc.dma (isemO se hse).sem) (default : HIx 1) 32768
    iprop(((ixsV).view.loc (V d (cV L) (jV L)) ↦[(halfO ha hha).view.set]{fullShare} fi)
      ∗ ((xfV).view.loc (V d (cV L) (jV L)) ↦[(colO co hco).view.set]{shareOf L} X))
theorem fetchFl_congr {se se' : Fin 1 → ℕ} {hse hse'} {ha ha' : Fin 1 → ℕ} {hha hha'} {co co' : Fin 1 → ℕ} {hco hco'}
    (e1 : se = se') (e2 : ha = ha') (e3 : co = co') (fi) :
    fetchFl (F := F) d L X se hse ha hha co hco fi = fetchFl d L X se' hse' ha' hha' co' hco' fi := by subst e1 e2 e3; rfl

/-- A fetch semaphore at zero, under another spelling of its place. -/
theorem isemC_congr {p p' : Fin 1 → ℕ} {hp : ∀ a, p a + S1.size a ≤ S2.size a} {hp' : ∀ a, p' a + S1.size a ≤ S2.size a} (e : p = p') :
    (semVal ((V d (cV L) (jV L)), SemLoc.dma (isemO p hp).sem) 0 : sProp 𝕄) = semVal ((V d (cV L) (jV L)), SemLoc.dma (isemO p' hp').sem) 0 := by
  subst e; rfl

/-- After the wait both fetch semaphores are at zero: the one left alone (field `fl - 1`'s) and the one waited on (field `fl`'s) are the
    two cells, in the order of `fl`'s parity. -/
theorem isems_after_consume (k : Fin k0_t1_loop.trips) (hc3 : k0_cond3 k = 1#1) :
    iprop((semVal ((V d (cV L) (jV L)), SemLoc.dma (isemO (cIsem (curF k.val)) (cIsem_inb (curF k.val))).sem) 0 : sProp 𝕄)
        ∗ semVal ((V d (cV L) (jV L)), SemLoc.dma (isemO (k0_off15 k) (k0_off15_inb k hc3)).sem) 0)
      ⊢ iprop((semVal ((V d (cV L) (jV L)), SemLoc.dma (isemO ![0] inb_S2_S1_0).sem) 0 : sProp 𝕄)
        ∗ semVal ((V d (cV L) (jV L)), SemLoc.dma (isemO ![1] inb_S2_S1_1).sem) 0) := by
  have hk := trip_lt k
  have h3 := (k0_cond3_eq k).mp hc3
  have e15 : k0_off15 k = cIsem (curF k.val + 1) := by
    rw [k0_off15_eq k, show (2 * k.val + 6) / 32 = curF k.val + 1 by unfold curF; omega]
  rcases Nat.mod_two_eq_zero_or_one (curF k.val) with hpar | hpar
  · have e0 : cIsem (curF k.val) = ![0] := by unfold cIsem; rw [hpar]
    have e1 : cIsem (curF k.val + 1) = ![1] := by unfold cIsem; rw [show (curF k.val + 1) % 2 = 1 by omega]
    rw [isemC_congr (hp' := inb_S2_S1_0) d L e0, isemC_congr (hp' := inb_S2_S1_1) d L (e15.trans e1)]
  · have e1 : cIsem (curF k.val) = ![1] := by unfold cIsem; rw [hpar]
    have e0 : cIsem (curF k.val + 1) = ![0] := by unfold cIsem; rw [show (curF k.val + 1) % 2 = 0 by omega]
    rw [isemC_congr (hp' := inb_S2_S1_1) d L e1, isemC_congr (hp' := inb_S2_S1_0) d L (e15.trans e0)]
    iintro ⟨H1, H0⟩
    isplitl [H0]; · iexact H0
    iexact H1

/-- The flattened columns but one column. -/
abbrev colRest (co : Fin 1 → ℕ) (hco : ∀ a, co a + S1024.size a ≤ S425984.size a) : sProp 𝕄 :=
  (xfV).view.loc (V d (cV L) (jV L)) ↦[Finset.univ \ (colO co hco).view.set]{shareOf L} X
theorem colRest_congr {co co' : Fin 1 → ℕ} {hco hco'} (e : co = co') : colRest (F := F) d L X co hco = colRest d L X co' hco' := by subst e; rfl

/-! ## The half a consuming trip's wait hands back, against the trip's five lists -/

omit [FloatOps F] in
theorem cons_half_list6_0 (k : Fin k0_t1_loop.trips) (hc3 : k0_cond3 k = 1#1) :
    Disjoint (halfO (k0_off13 k) (k0_off13_inb k hc3)).view.set (listO (k0_off6 k 0#32) (k0_off6_inb k 0)).view.set := by
  have hk := trip_lt k
  have hc := (k0_cond3_eq k).mp hc3
  refine halfO_listO_disjoint ?_
  rw [k0_off13_eq k, k0_off6_eq_0 k]
  simp only [Matrix.cons_val_zero]
  omega
omit [FloatOps F] in
theorem cons_half_list6_1 (k : Fin k0_t1_loop.trips) (hc3 : k0_cond3 k = 1#1) :
    Disjoint (halfO (k0_off13 k) (k0_off13_inb k hc3)).view.set (listO (k0_off6 k 1#32) (k0_off6_inb k 1)).view.set := by
  have hk := trip_lt k
  have hc := (k0_cond3_eq k).mp hc3
  refine halfO_listO_disjoint ?_
  rw [k0_off13_eq k, k0_off6_eq_1 k]
  simp only [Matrix.cons_val_zero]
  omega
omit [FloatOps F] in
theorem cons_half_list5 (k : Fin k0_t1_loop.trips) (hc3 : k0_cond3 k = 1#1) :
    Disjoint (halfO (k0_off13 k) (k0_off13_inb k hc3)).view.set (listO (cList (2 * k.val + 5)) (cList_inb (2 * k.val + 5))).view.set := by
  have hk := trip_lt k
  have hc := (k0_cond3_eq k).mp hc3
  refine halfO_listO_disjoint ?_
  rw [k0_off13_eq k]
  simp only [Matrix.cons_val_zero]
  omega
omit [FloatOps F] in
theorem cons_list17_0_sub (k : Fin k0_t1_loop.trips) (hc3 : k0_cond3 k = 1#1) :
    (listO (k0_off17 k 0#32) (k0_off17_inb k 0)).view.set ⊆ (halfO (k0_off13 k) (k0_off13_inb k hc3)).view.set := by
  have hk := trip_lt k
  have hc := (k0_cond3_eq k).mp hc3
  refine listO_subset_halfO ?_
  rw [k0_off13_eq k, k0_off17_eq_0 k]
  simp only [Matrix.cons_val_zero]
  omega
omit [FloatOps F] in
theorem cons_list17_1_sub (k : Fin k0_t1_loop.trips) (hc3 : k0_cond3 k = 1#1) :
    (listO (k0_off17 k 1#32) (k0_off17_inb k 1)).view.set ⊆ (halfO (k0_off13 k) (k0_off13_inb k hc3)).view.set := by
  have hk := trip_lt k
  have hc := (k0_cond3_eq k).mp hc3
  refine listO_subset_halfO ?_
  rw [k0_off13_eq k, k0_off17_eq_1 k]
  simp only [Matrix.cons_val_zero]
  omega

set_option maxHeartbeats 32000000 in
set_option sl_exec.dmaWindow true in
set_option sl_exec.dmaWindowSet true in
set_option sl_exec.dmaWindowLent true in
theorem region_consume (k : Fin k0_t1_loop.trips) (acc : BitVec 32) (hk : k.val ≤ 205) (hk1 : k.val + 1 ≤ 205) (hkk : k.val < 205)
    (hc3 : k0_cond3 k = 1#1)
    (hX : ∀ j, (X j).toNat < 1000) :
    InvAt d L X Tb f0 O W k.val hk
      ⊢ wp frame (wpE (defs₀ (F := F)) 𝒱₀ (V d (cV L) (jV L)) none) Set.univ (k0_t1_body L xfV (Memref.isWhole_whole _) tbV (Memref.isWhole_whole _) outV (Memref.isWhole_whole _) spV (Memref.isWhole_whole _) ixsV (Memref.isWhole_whole _) bufV (Memref.isWhole_whole _) cc0_scratch3 cc0_scratch4 cc0_scratch5 cc0_scoped0 (Scalar.muli (BitVec.ofNat 32 (L 1).val) 1024#32) (Scalar.muli (BitVec.ofNat 32 (L 0).val) 13#32) k acc)
          (fun _ => InvAt d L X Tb f0 O W (k.val + 1) hk1) := by
  have h3 := (k0_cond3_eq k).mp hc3
  have hc2 : ¬ k0_cond2 k = 1#1 := fun h => by have := (k0_cond2_eq k).mp h; omega
  have hp : pending k.val := by unfold pending curF; omega
  have e_fl : curF k.val + 1 = (2 * k.val + 6) / 32 := by unfold curF; omega
  have hc4 : ¬ k0_cond4 k = 1#1 := k0_cond4_ne k
  have hc5 : ¬ k0_cond5 k = 1#1 := k0_cond5_ne k

  -- closed forms of chunk numbers = the trip's chains
  have e_g3 : cSem (2 * k.val + 3) = k0_off8 k 0#32 3#32 := (k0_off8_eq_0_3 k).symm
  have e_g4 : cSem (2 * k.val + 4) = k0_off8 k 1#32 3#32 := (k0_off8_eq_1_3 k).symm
  have e_s0 : cSem (2 * k.val + 0) = k0_off8 k 0#32 6#32 := (k0_off8_eq_0_6 k).symm
  have e_s1 : cSem (2 * k.val + 1) = k0_off8 k 1#32 6#32 := (k0_off8_eq_1_6 k).symm
  have e_n0 : cSem (2 * k.val + 6) = k0_off19 k 0#32 := (k0_off19_eq_0 k).symm
  have e_n1 : cSem (2 * k.val + 7) = k0_off19 k 1#32 := (k0_off19_eq_1 k).symm
  have e_sl3 : cSlot (2 * k.val + 3) = k0_off5 k 0#32 3#32 := (k0_off5_eq_0_3 k).symm
  have e_sl4 : cSlot (2 * k.val + 4) = k0_off5 k 1#32 3#32 := (k0_off5_eq_1_3 k).symm
  have e_sl0 : cSlot (2 * k.val + 0) = k0_off16 k 0#32 := by
    rw [k0_off16_eq_0 k]; show (![_, 0, 0] : Fin 3 → ℕ) = ![_, 0, 0]; congr 1; omega
  have e_sl1 : cSlot (2 * k.val + 1) = k0_off16 k 1#32 := by
    rw [k0_off16_eq_1 k]; show (![_, 0, 0] : Fin 3 → ℕ) = ![_, 0, 0]; congr 1; omega
  have e_l3 : cList (2 * k.val + 3) = k0_off6 k 0#32 := (k0_off6_eq_0 k).symm
  have e_l4 : cList (2 * k.val + 4) = k0_off6 k 1#32 := (k0_off6_eq_1 k).symm
  have e_t3 : cTab (2 * k.val + 3) = k0_off7 k 0#32 := (k0_off7_eq k 0).symm
  have e_t4 : cTab (2 * k.val + 4) = k0_off7 k 1#32 := (k0_off7_eq k 1).symm
  have e_o0 : cOut L (2 * k.val + 0) = k0_off9 L k 0#32 6#32 := (k0_off9_eq_0_6 L k).symm
  have e_o1 : cOut L (2 * k.val + 1) = k0_off9 L k 1#32 6#32 := (k0_off9_eq_1_6 L k).symm
  have e_o3 : cOut L (2 * k.val + 3) = k0_off9 L k 0#32 3#32 := (k0_off9_eq_0_3 L k).symm
  have e_o4 : cOut L (2 * k.val + 3 + 1) = k0_off9 L k 1#32 3#32 := (k0_off9_eq_1_3 L k).symm

  have e_i15 : cIsem (curF k.val + 1) = k0_off15 k := by rw [k0_off15_eq k, e_fl]
  have e_h13 : cHalf (curF k.val + 1) = k0_off13 k := by rw [k0_off13_eq k, e_fl]
  have e_c14 : cCol L (curF k.val + 1) = k0_off14 L k := by rw [k0_off14_eq L k, e_fl]

  generalize hQ : (fun (_ : BitVec 32) => InvAt d L X Tb f0 O W (k.val + 1) hk1) = Q
  unfold InvAt GatC ScaC idleSh
  rw [outRest_pop d L f0 (2 * k.val + 3) (by omega), outRest_pop d L f0 (2 * k.val + 3 + 1) (by omega)]
  iintro ⟨#Hmw, ⟨%W', %hW', HO⟩, ⟨%fi, %hhalf, ⟨%g3, %hg3, HG3, Hr3⟩, ⟨%g4, %hg4, HG4, Hr4⟩, ⟨%g5, %hg5, HG5, Hr5⟩, Hix⟩, Hq6, Hq7, Hq8, Hdrop, ⟨%s0, %fo0, %ho0, HS0⟩, ⟨%s1, %fo1, %ho1, HS1⟩, ⟨%s2, %fo2, %ho2, HS2⟩, Hgs6, Hgs7, Hgs8, Hss3, Hss4, Hss5, ⟨Ho3, Ho4, Hrest⟩, Hdone, Htb, Hsc0, Hbufs⟩
  have hpar : curF k.val % 2 ≠ othF k.val % 2 := by unfold othF curF; split_ifs <;> omega
  have hin := hin_of_halves X hX L (curF k.val) (othF k.val) (curF_lt k.val hk) (othF_lt k.val hk) hpar fi hhalf.1 hhalf.2
  have hd0 := list17_0_list6_0 k
  have hd1 := list17_0_list6_1 k
  have hd2 := list17_0_list5 k
  have hd3 := list17_1_list6_0 k
  have hd4 := list17_1_list6_1 k
  have hd5 := list17_1_list5 k
  have hd6 := list17_1_list17_0 k
  have hh0 := cons_half_list6_0 k hc3
  have hh1 := cons_half_list6_1 k hc3
  have hh2 := cons_half_list5 k hc3
  have hh0' := (cons_half_list6_0 k hc3).symm
  have hh1' := (cons_half_list6_1 k hc3).symm
  have hh2' := (cons_half_list5 k hc3).symm
  have hsub0 := cons_list17_0_sub k hc3
  have hsub1 := cons_list17_1_sub k hc3
  ihave Hix := (Entails.of_eq (show IxPart d L X k.val fi = IxPend d L X (curF k.val) hp.2 (2 * k.val + 3) (2 * k.val + 4) (2 * k.val + 5) fi from dif_pos hp)) $$ Hix
  unfold IxPend
  icases Hix with ⟨Hi, His, HFl, Hxf⟩

  ihave HG3 := (Entails.of_eq (GFo_congr (hgs' := k0_off8_inb k 0 0) (hsl' := k0_off5_inb k 0 0) (hli' := k0_off6_inb k 0) (htb' := k0_off7_inb k 0) d L e_g3 e_sl3 e_l3 e_t3 _ _ _ _)) $$ HG3
  ihave Hr3 := (Entails.of_eq (spRest_congr (htb' := k0_off7_inb k 0) d L e_t3 _ _)) $$ Hr3
  ihave HG4 := (Entails.of_eq (GFo_congr (hgs' := k0_off8_inb k 1 0) (hsl' := k0_off5_inb k 1 0) (hli' := k0_off6_inb k 1) (htb' := k0_off7_inb k 1) d L e_g4 e_sl4 e_l4 e_t4 _ _ _ _)) $$ HG4
  ihave Hr4 := (Entails.of_eq (spRest_congr (htb' := k0_off7_inb k 1) d L e_t4 _ _)) $$ Hr4
  ihave HS0 := (Entails.of_eq (SFo_congr (hss' := k0_off8_inb k 0 1) (hou' := k0_off9_inb L k 0 1) (hsl' := k0_off16_inb k 0) d L e_s0 e_o0 e_sl0 _ _)) $$ HS0
  ihave HS1 := (Entails.of_eq (SFo_congr (hss' := k0_off8_inb k 1 1) (hou' := k0_off9_inb L k 1 1) (hsl' := k0_off16_inb k 1) d L e_s1 e_o1 e_sl1 _ _)) $$ HS1
  ihave Hgs6 := (Entails.of_eq (gsem0_congr (hgs' := k0_off19_inb k 0) d L e_n0)) $$ Hgs6
  ihave Hgs7 := (Entails.of_eq (gsem0_congr (hgs' := k0_off19_inb k 1) d L e_n1)) $$ Hgs7
  ihave Hss3 := (Entails.of_eq (ssem0_congr (hss' := k0_off8_inb k 0 0) d L e_g3)) $$ Hss3
  ihave Hss4 := (Entails.of_eq (ssem0_congr (hss' := k0_off8_inb k 1 0) d L e_g4)) $$ Hss4
  ihave Ho3 := (Entails.of_eq (outPts_congr (hou' := k0_off9_inb L k 0 0) d L e_o3 _)) $$ Ho3
  ihave Ho4 := (Entails.of_eq (outPts_congr (hou' := k0_off9_inb L k 1 0) d L e_o4 _)) $$ Ho4
  ihave HFl := (Entails.of_eq (fetchFl_congr (hse' := k0_off15_inb k hc3) (hha' := k0_off13_inb k hc3) (hco' := k0_off14_inb L k hc3) d L X e_i15 e_h13 e_c14 fi)) $$ HFl
  ihave Hxf := (Entails.of_eq (colRest_congr (hco' := k0_off14_inb L k hc3) d L X e_c14)) $$ Hxf
  ihave Hi := (Entails.of_eq (ixRest3_base_congr d L (butHalf_congr (h' := k0_off13_inb k hc3) d L e_h13) _ _ _ _ _ _ fi)) $$ Hi
  ihave Hi := (Entails.of_eq (ixRest3_congr (ha' := k0_off6_inb k 0) (hb' := k0_off6_inb k 1) (hc' := cList_inb (2 * k.val + 5)) d L e_l3 e_l4 rfl _)) $$ Hi

  unfold k0_t1_body GFo SFo spRest gsem0 ssem0 outPts ixRest3 fetchFl colRest
  sl_exec

  subst hQ
  sl_step
  -- the awaited column's field becomes the latest gathers' field; no fetch is on its way any more
  have hp' : ¬ pending (k.val + 1) := by unfold pending curF; omega
  have hcur : othF k.val = curF (k.val + 1) := by unfold othF curF; split_ifs <;> omega
  have hoth : curF k.val = othF (k.val + 1) := by unfold othF curF; split_ifs <;> omega
  have hoth6 : othF k.val = (2 * k.val + 6) / 32 := by unfold othF curF; split_ifs <;> omega
  have hoth7 : othF k.val = (2 * k.val + 7) / 32 := by unfold othF curF; split_ifs <;> omega
  iclear HS0_src
  iclear HS1_src
  unfold InvAt idleSh
  -- the waits' evidence, and what the tile owes
  isplitl []; · iexact Hmw
  isplitl [HO]
  · iexists _; isplitr
    swap; · iexact HO
    ipureintro; intro p hq
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    rcases Finset.mem_insert.mp hq with hq | hq; · exact .inr (.inl (by subst hq; rfl))
    exact hW' p hq
  -- the index scratch and the three gathers in flight
  isplitl [HG5 Hr5 Hgs6 Hq6 Hgs7 Hq7 Hi HG3_dst_and HG4_dst_and His HFl Hxf]
  · iexists fi
    isplitr
    · ipureintro; exact ⟨HalfOK_congr X L hcur fi hhalf.2, HalfOK_congr X L hoth fi hhalf.1⟩
    isplitl [HG5 Hr5]
    · iapply (Entails.of_eq (GatC_congr (h := by omega) d L X Tb (show 2 * k.val + 5 = 2 * (k.val + 1) + 3 by omega) fi))
      unfold GatC
      iexists g5; isplitr; · ipureintro; exact hg5
      isplitl [HG5]; · unfold GFo; iexact HG5
      unfold spRest; iexact Hr5
    isplitl [Hgs6 Hq6]
    · iapply (Entails.of_eq (GatC_congr (h := by omega) d L X Tb (show 2 * k.val + 6 = 2 * (k.val + 1) + 4 by omega) fi))
      unfold GatC
      iexists _; isplitr
      rotate_left
      · isplitl [Hgs6]
        · iapply (Entails.of_eq (GFo_congr (hgs := k0_off19_inb k 0) (hsl := k0_off16_inb k 0) (hli := k0_off17_inb k 0) (htb := k0_off18_inb k 0) d L (k0_off19_eq_0 k) (k0_off16_eq_0 k) (k0_off17_eq_0 k) (k0_off18_eq k 0) _ _ _ _))
          unfold GFo; iexact Hgs6
        · iapply (Entails.of_eq (spRest_congr (htb := k0_off18_inb k 0) d L (k0_off18_eq k 0) _ _))
          unfold spRest; iexact Hq6
      · ipureintro
        exact slotOK_of_gather' X hX Tb L (2 * k.val + 6) (by omega) fi (HalfOK_congr X L hoth6 fi hhalf.2) s0
          (k0_off16 k 0#32) (k0_off16_inb k 0) (k0_off16_eq_0 k) (k0_off18 k 0#32) (k0_off18_inb k 0) (k0_off18_eq k 0) (k0_off17 k 0#32) (k0_off17_inb k 0) (k0_off17_eq_0 k) _ _
    isplitl [Hgs7 Hq7]
    · iapply (Entails.of_eq (GatC_congr (h := by omega) d L X Tb (show 2 * k.val + 7 = 2 * (k.val + 1) + 5 by omega) fi))
      unfold GatC
      iexists _; isplitr
      rotate_left
      · isplitl [Hgs7]
        · iapply (Entails.of_eq (GFo_congr (hgs := k0_off19_inb k 1) (hsl := k0_off16_inb k 1) (hli := k0_off17_inb k 1) (htb := k0_off18_inb k 1) d L (k0_off19_eq_1 k) (k0_off16_eq_1 k) (k0_off17_eq_1 k) (k0_off18_eq k 1) _ _ _ _))
          unfold GFo; iexact Hgs7
        · iapply (Entails.of_eq (spRest_congr (htb := k0_off18_inb k 1) d L (k0_off18_eq k 1) _ _))
          unfold spRest; iexact Hq7
      · ipureintro
        exact slotOK_of_gather' X hX Tb L (2 * k.val + 7) (by omega) fi (HalfOK_congr X L hoth7 fi hhalf.2) s1
          (k0_off16 k 1#32) (k0_off16_inb k 1) (k0_off16_eq_1 k) (k0_off18 k 1#32) (k0_off18_inb k 1) (k0_off18_eq k 1) (k0_off17 k 1#32) (k0_off17_inb k 1) (k0_off17_eq_1 k) _ _
    -- the index scratch: the two returned lists rejoin it
    iapply (Entails.of_eq (show IxPart d L X (k.val + 1) fi = IxNone d L X (2 * (k.val + 1) + 3) (2 * (k.val + 1) + 4) (2 * (k.val + 1) + 5) fi from dif_neg hp').symm)
    unfold IxNone
    isplitl [Hi HG3_dst_and HG4_dst_and]
    · iapply (Entails.of_eq (ixRest3_congr (ha := cList_inb (2 * k.val + 5)) (hb := k0_off17_inb k 0) (hc := k0_off17_inb k 1) d L
          (show cList (2 * k.val + 5) = cList (2 * (k.val + 1) + 3) from congrArg cList (by omega))
          ((k0_off17_eq_0 k).trans (congrArg cList (by omega : 2 * k.val + 6 = 2 * (k.val + 1) + 4)))
          ((k0_off17_eq_1 k).trans (congrArg cList (by omega : 2 * k.val + 7 = 2 * (k.val + 1) + 5))) fi))
      iapply (ix_rejoin d L Finset.univ (k0_off6 k 0#32) (k0_off6 k 1#32) (cList (2 * k.val + 5)) (k0_off17 k 0#32) (k0_off17 k 1#32)
          (k0_off6_inb k 0) (k0_off6_inb k 1) (cList_inb (2 * k.val + 5)) (k0_off17_inb k 0) (k0_off17_inb k 1) fi
          (Finset.subset_univ _) (Finset.subset_univ _) (list6_0_list6_1 k) (list6_0_list5 k) (list17_0_list6_0 k).symm (list17_1_list6_0 k).symm
          (list6_1_list5 k) (list17_0_list6_1 k).symm (list17_1_list6_1 k).symm)
      isplitl [Hi]; · iexact Hi
      isplitl [HG3_dst_and]; · iexact HG3_dst_and
      iexact HG4_dst_and
    -- the two fetch semaphores: the one left alone and the one just waited on
    ihave Hpair := (isems_after_consume d L k hc3) $$ [His HFl]
    · isplitl [His]; · iexact His
      iexact HFl
    icases Hpair with ⟨His0, His1⟩
    isplitl [His0]; · iexact His0
    isplitl [His1]; · iexact His1
    iexact Hxf
  -- the idle shares
  isplitl [Hq8]; · rw [qs_eq L (show (2 * (k.val + 1) + 6) % 6 = (2 * k.val + 8) % 6 by omega)]; iexact Hq8
  isplitl [Hr3]; · rw [qs_eq L (show (2 * (k.val + 1) + 7) % 6 = (2 * k.val + 3) % 6 by omega)]; iexact Hr3
  isplitl [Hr4]; · rw [qs_eq L (show (2 * (k.val + 1) + 8) % 6 = (2 * k.val + 4) % 6 by omega)]; iexact Hr4
  isplitl [Hdrop]; · iexact Hdrop
  -- the copy-outs in flight
  isplitl [HS2]
  · iapply (Entails.of_eq (ScaC_congr (h := by omega) d L X Tb (show 2 * k.val + 2 = 2 * (k.val + 1) + 0 by omega)))
    unfold ScaC; iexists s2, fo2; isplitr; · ipureintro; exact ho2
    unfold SFo; iexact HS2
  isplitl [Hss3]
  · iapply (Entails.of_eq (ScaC_congr (h := by omega) d L X Tb (show 2 * k.val + 3 = 2 * (k.val + 1) + 1 by omega)))
    unfold ScaC; iexists g3, _; isplitr
    rotate_left
    · iapply (Entails.of_eq (SFo_congr (hss := k0_off8_inb k 0 0) (hou := k0_off9_inb L k 0 0) (hsl := k0_off5_inb k 0 0) d L (k0_off8_eq_0_3 k) (k0_off9_eq_0_3 L k) (k0_off5_eq_0_3 k) _ _))
      unfold SFo; iexact Hss3
    · ipureintro
      exact outOK_of_copy' X Tb L (2 * k.val + 3) (by omega) g3 hg3 f0 (k0_off9 L k 0#32 3#32) (k0_off9_inb L k 0 0) (k0_off9_eq_0_3 L k) (k0_off5 k 0#32 3#32) (k0_off5_inb k 0 0) (k0_off5_eq_0_3 k)
  isplitl [Hss4]
  · iapply (Entails.of_eq (ScaC_congr (h := by omega) d L X Tb (show 2 * k.val + 4 = 2 * (k.val + 1) + 2 by omega)))
    unfold ScaC; iexists g4, _; isplitr
    rotate_left
    · iapply (Entails.of_eq (SFo_congr (hss := k0_off8_inb k 1 0) (hou := k0_off9_inb L k 1 0) (hsl := k0_off5_inb k 1 0) d L (k0_off8_eq_1_3 k) (k0_off9_eq_1_3 L k) (k0_off5_eq_1_3 k) _ _))
      unfold SFo; iexact Hss4
    · ipureintro
      exact outOK_of_copy' X Tb L (2 * k.val + 4) (by omega) g4 hg4 f0 (k0_off9 L k 1#32 3#32) (k0_off9_inb L k 1 0) (k0_off9_eq_1_3 L k) (k0_off5 k 1#32 3#32) (k0_off5_inb k 1 0) (k0_off5_eq_1_3 k)
  -- the free semaphores
  isplitl [Hgs8]; · iapply (Entails.of_eq (gsem0_congr (hgs := cSem_inb (2 * k.val + 8)) d L (congrArg cSem (by omega : 2 * k.val + 8 = 2 * (k.val + 1) + 6)))); unfold gsem0; iexact Hgs8
  isplitl [HG3]; · iapply (Entails.of_eq (gsem0_congr (hgs := k0_off8_inb k 0 0) d L ((k0_off8_eq_0_3 k).trans (cSem_eq (by omega : (2 * k.val + 3) % 6 = (2 * (k.val + 1) + 7) % 6))))); unfold gsem0; iexact HG3
  isplitl [HG4]; · iapply (Entails.of_eq (gsem0_congr (hgs := k0_off8_inb k 1 0) d L ((k0_off8_eq_1_3 k).trans (cSem_eq (by omega : (2 * k.val + 4) % 6 = (2 * (k.val + 1) + 8) % 6))))); unfold gsem0; iexact HG4
  isplitl [Hss5]; · iapply (Entails.of_eq (ssem0_congr (hss := cSem_inb (2 * k.val + 5)) d L (congrArg cSem (by omega : 2 * k.val + 5 = 2 * (k.val + 1) + 3)))); unfold ssem0; iexact Hss5
  isplitl [HS0]; · iapply (Entails.of_eq (ssem0_congr (hss := k0_off8_inb k 0 1) d L ((k0_off8_eq_0_6 k).trans (cSem_eq (by omega : (2 * k.val + 0) % 6 = (2 * (k.val + 1) + 4) % 6))))); unfold ssem0; iexact HS0
  isplitl [HS1]; · iapply (Entails.of_eq (ssem0_congr (hss := k0_off8_inb k 1 1) d L ((k0_off8_eq_1_6 k).trans (cSem_eq (by omega : (2 * k.val + 1) % 6 = (2 * (k.val + 1) + 5) % 6))))); unfold ssem0; iexact HS1
  -- the result's blocks
  isplitl [Hrest]; · rw [show 2 * (k.val + 1) + 3 = 2 * k.val + 3 + 1 + 1 by omega]; iexact Hrest
  isplitl [Hdone HS0_dst HS1_dst]
  · rw [show 2 * (k.val + 1) = 2 * k.val + 1 + 1 by omega, outDone_push d L X Tb (2 * k.val + 1) (by omega), outDone_push d L X Tb (2 * k.val) (by omega)]
    isplitl [HS1_dst]
    · ihave HS1c := (outPts_respell d L (hou := k0_off9_inb L k 1 1) (hou' := cOut_inb L (2 * k.val + 1) (by omega)) (k0_off9_eq_1_6 L k) fo1) $$ HS1_dst
      unfold outPts
      iapply (out_pts_of_OK X Tb L (2 * k.val + 1) (by omega) fo1 ho1)
      iexact HS1c
    isplitl [HS0_dst]
    · ihave HS0c := (outPts_respell d L (hou := k0_off9_inb L k 0 1) (hou' := cOut_inb L (2 * k.val) (by omega)) ((k0_off9_eq_0_6 L k).trans (congrArg (cOut L) (by omega : 2 * k.val + 0 = 2 * k.val))) fo0) $$ HS0_dst
      unfold outPts
      iapply (out_pts_of_OK X Tb L (2 * k.val) (by omega) fo0 (OutOK_congr X Tb L (by omega) fo0 ho0))
      iexact HS0c
    iexact Hdone
  isplitl [Htb]; · iexact Htb
  isplitl [Hsc0]; · iexact Hsc0
  iexact Hbufs

end Cert.Proof.KB

end
-- ==== Proof.KB.BodyLoop.lean ====
/-
  One trip of the loop from the invariant: by the kind of trip.  A trip either awaits the column of the field its chunks begin (their block
  number is 0), or issues the fetch of the next field's column (block number 2, not the last field), or does neither; in the last case a
  column may or may not be on its way.
-/
import proofs.«206644_g35837207118489_cont_8to1_b_589_28_alg».proof.Proof.KB.RegionDef
import proofs.«206644_g35837207118489_cont_8to1_b_589_28_alg».proof.Proof.KB.BodyLoopN0
import proofs.«206644_g35837207118489_cont_8to1_b_589_28_alg».proof.Proof.KB.BodyLoopN1
import proofs.«206644_g35837207118489_cont_8to1_b_589_28_alg».proof.Proof.KB.BodyLoopP
import proofs.«206644_g35837207118489_cont_8to1_b_589_28_alg».proof.Proof.KB.BodyLoopC

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xfV" => (Memref.whole Cert.Kernel.main_v1_scv : Memref Cert.Kernel.sig Kind.scVector Space.hbm Cert.Kernel.S425984 EltTy.i32)
local notation "tbV" => (Memref.whole Cert.Kernel.main_v2_scv : Memref Cert.Kernel.sig Kind.scVector Space.hbm Cert.Kernel.S26000x128 EltTy.f32)
local notation "outV" => (Memref.whole Cert.Kernel.main_v3_scv : Memref Cert.Kernel.sig Kind.scVector Space.hbm Cert.Kernel.S16384x3328 EltTy.f32)
local notation "spV" => (Memref.whole Cert.Kernel.cc0_scratch0 : Memref Cert.Kernel.sig Kind.scVector Space.shared Cert.Kernel.S13000x128 EltTy.f32)
local notation "ixsV" => (Memref.whole Cert.Kernel.cc0_scratch1 : Memref Cert.Kernel.sig Kind.scVector Space.vmem Cert.Kernel.S2048 EltTy.i32)
local notation "bufV" => (Memref.whole Cert.Kernel.cc0_scratch2 : Memref Cert.Kernel.sig Kind.scVector Space.vmem Cert.Kernel.S6x32x128 EltTy.f32)

/-- The loop's region obligation. -/
theorem region : Region (F := F) := by
  intro d L X hX Tb f0 O W _hO k acc
  have hkk : k.val < 205 := trip_lt k
  have hk : k.val ≤ 205 := by omega
  have hk1 : k.val + 1 ≤ 205 := by omega
  unfold Inv
  rw [dif_pos hk, dif_pos hk1]
  by_cases hc3 : k0_cond3 k = 1#1
  · exact region_consume d L X Tb f0 O W k acc hk hk1 hkk hc3 hX
  by_cases hc2 : k0_cond2 k = 1#1
  · exact region_prefetch d L X Tb f0 O W k acc hk hk1 hkk hc2 hX
  by_cases hp : pending k.val
  · exact region_normal_pend d L X Tb f0 O W k acc hk hk1 hkk hc2 hc3 hp hX
  · exact region_normal_none d L X Tb f0 O W k acc hk hk1 hkk hc2 hc3 hp hX

end Cert.Proof.KB

end
-- ==== Proof.lean ====
/-
  The certificate's claim: the kernel and its idealization run, fault nowhere and leave their arguments unchanged; the reference does
  likewise; and at the ideal instance the kernel's result and the reference's are the same array — entry `(b, 128 f + q)` is entry `q` of
  row `x[b, f]` of table `f`.  The kernel side rests on one statement about a tile's body, proved once for any float instance and used at the
  word level and at the ideal one; the reference side on its run read back operation by operation.
-/
import proofs.«206644_g35837207118489_cont_8to1_b_589_28_alg».proof.Proof.Assemble
import proofs.«206644_g35837207118489_cont_8to1_b_589_28_alg».proof.Proof.BodyWrap
import proofs.«206644_g35837207118489_cont_8to1_b_589_28_alg».proof.Proof.BodyTail
import proofs.«206644_g35837207118489_cont_8to1_b_589_28_alg».proof.Proof.BodyLoop
import proofs.«206644_g35837207118489_cont_8to1_b_589_28_alg».proof.Proof.KB.BodyWrap
import proofs.«206644_g35837207118489_cont_8to1_b_589_28_alg».proof.Proof.KB.BodyTail
import proofs.«206644_g35837207118489_cont_8to1_b_589_28_alg».proof.Proof.KB.BodyLoop

noncomputable section

namespace Cert.Proof

open Idealize.ShloMosaic

theorem claim : Cert.Claim :=
  Cert.Proof.Assemble.claim
    (Cert.Proof.KB.tileBody_of_tail (Cert.Proof.KB.tailSpec_of_region Cert.Proof.KB.region))
    (Cert.Proof.KI.tileBody_of_tail (Cert.Proof.KI.tailSpec_of_region Cert.Proof.KI.region))

end Cert.Proof

end
